-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v545) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x131072x3 : Shape := ⟨3, ![32, 131072, 3]⟩
abbrev S3x64x64x64 : Shape := ⟨4, ![3, 64, 64, 64]⟩
abbrev S_ : Shape := ⟨0, ![]⟩

class Facts : Prop where
  bcast_S_S32x131072x3 : S_.BroadcastsInDim S32x131072x3 (![] : Fin 0 → Fin S32x131072x3.rank)
  reducesTo_S32x131072x3_S_d0_1_2 : S32x131072x3.ReducesTo [0, 1, 2] S_
  h_S_ : 0 < S_.numel
  bcast_S_S3x64x64x64 : S_.BroadcastsInDim S3x64x64x64 (![] : Fin 0 → Fin S3x64x64x64.rank)
  reducesTo_S3x64x64x64_S_d0_1_2_3 : S3x64x64x64.ReducesTo [0, 1, 2, 3] S_

variable [Facts]

def fn {F : FTy → Type} [FloatOps F] (main_arg0 : FVec F S32x131072x3 .f32) (main_arg1 : FVec F S3x64x64x64 .f32) : IVec S_ 1 :=
  let main_v0 : FVec F S32x131072x3 .f32 := Host.absf main_arg0
  let main_cst : FVec F S_ .f32 := constant S_ .f32 0x7F800000#32
  let main_v1 : FVec F S32x131072x3 .f32 := broadcastInDim S32x131072x3 ![] bcast_S_S32x131072x3 main_cst
  let main_v2 : IVec S32x131072x3 1 := cmpf .olt main_v0 main_v1
  let main_c : IVec S_ 1 := constantI S_ 1 1#1
  let main_v3 : IVec S_ 1 := (fun x v => Host.reduce IntOp.andi x v reducesTo_S32x131072x3_S_d0_1_2 h_S_) main_v2 main_c
  let main_v4 : FVec F S3x64x64x64 .f32 := Host.absf main_arg1
  let main_cst_0 : FVec F S_ .f32 := constant S_ .f32 0x7F800000#32
  let main_v5 : FVec F S3x64x64x64 .f32 := broadcastInDim S3x64x64x64 ![] bcast_S_S3x64x64x64 main_cst_0
  let main_v6 : IVec S3x64x64x64 1 := cmpf .olt main_v4 main_v5
  let main_c_1 : IVec S_ 1 := constantI S_ 1 1#1
  let main_v7 : IVec S_ 1 := (fun x v => Host.reduce IntOp.andi x v reducesTo_S3x64x64x64_S_d0_1_2_3 h_S_) main_v6 main_c_1
  let main_v8 : IVec S_ 1 := andi main_v3 main_v7
  main_v8
-- ==== Kernel.lean ====
abbrev S32x131072x3 : Shape := ⟨3, ![32, 131072, 3]⟩
abbrev S3x64x64x64 : Shape := ⟨4, ![3, 64, 64, 64]⟩
abbrev S4194304x3 : Shape := ⟨2, ![4194304, 3]⟩
abbrev S12288x64 : Shape := ⟨2, ![12288, 64]⟩
abbrev S64x12288 : Shape := ⟨2, ![64, 12288]⟩
abbrev S128x3 : Shape := ⟨2, ![128, 3]⟩
abbrev S128x1 : Shape := ⟨2, ![128, 1]⟩
abbrev S128 : Shape := ⟨1, ![128]⟩
abbrev S128x64 : Shape := ⟨2, ![128, 64]⟩
abbrev S128x12288 : Shape := ⟨2, ![128, 12288]⟩
abbrev S128x3x64x64 : Shape := ⟨4, ![128, 3, 64, 64]⟩
abbrev S128x1x1x64 : Shape := ⟨4, ![128, 1, 1, 64]⟩
abbrev S128x3x64 : Shape := ⟨3, ![128, 3, 64]⟩
abbrev S128x1x64 : Shape := ⟨3, ![128, 1, 64]⟩

abbrev nBuf : Space → Nat
  | .hbm => 8
  | .vmem => 5
  | .smem => 0
  | _ => 0

abbrev bufTy : (tb : Table) → Fin (tcTables nBuf tb) → BufTy
  | .hbm, ⟨0, _⟩ => ⟨S32x131072x3, .f32⟩
  | .hbm, ⟨1, _⟩ => ⟨S3x64x64x64, .f32⟩
  | .hbm, ⟨2, _⟩ => ⟨S4194304x3, .f32⟩
  | .hbm, ⟨3, _⟩ => ⟨S12288x64, .f32⟩
  | .hbm, ⟨4, _⟩ => ⟨S64x12288, .f32⟩
  | .hbm, ⟨5, _⟩ => ⟨S64x12288, .bf16⟩
  | .hbm, ⟨6, _⟩ => ⟨S4194304x3, .f32⟩
  | .hbm, ⟨7, _⟩ => ⟨S32x131072x3, .f32⟩
  | .local _ .vmem, ⟨0, _⟩ => ⟨S64x12288, .bf16⟩
  | .local _ .vmem, ⟨1, _⟩ => ⟨S128x3, .f32⟩
  | .local _ .vmem, ⟨2, _⟩ => ⟨S128x3, .f32⟩
  | .local _ .vmem, ⟨3, _⟩ => ⟨S128x3, .f32⟩
  | .local _ .vmem, ⟨4, _⟩ => ⟨S128x3, .f32⟩
  | _, _ => ⟨S32x131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32768], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x131072x3_S4194304x3 : S32x131072x3.ShapeCasts S4194304x3
  shapeCasts_S3x64x64x64_S12288x64 : S3x64x64x64.ShapeCasts S12288x64
  transposes_S12288x64_S64x12288_1_0 : S12288x64.Transposes [1, 0] S64x12288
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  shapeCasts_S128x3_S128x3 : S128x3.ShapeCasts S128x3
  slices_S128x3_o0_0_S128x1 : S128x3.Slices ![0, 0] S128x1
  shapeCasts_S128x1_S128 : S128x1.ShapeCasts S128
  slices_S128x3_o0_1_S128x1 : S128x3.Slices ![0, 1] S128x1
  slices_S128x3_o0_2_S128x1 : S128x3.Slices ![0, 2] S128x1
  iota_S128x64_d1_w32 : S128x64.Iotas .tc 32 [1]
  shapeCasts_S128_S128x1 : S128.ShapeCasts S128x1
  broadcasts_S128x1_S128x64 : S128x1.Broadcasts S128x64
  shapeCasts_S128x1_S128x1 : S128x1.ShapeCasts S128x1
  inb_S64x12288_S64x12288_0_0 : ∀ a, (![0, 0] : Fin 2 → Nat) a + S64x12288.size a ≤ S64x12288.size a
  h_S64x12288 : 0 < S64x12288.numel
  shapeCasts_S64x12288_S64x12288 : S64x12288.ShapeCasts S64x12288
  shapeCasts_S128x12288_S128x3x64x64 : S128x12288.ShapeCasts S128x3x64x64
  shapeCasts_S128x64_S128x1x1x64 : S128x64.ShapeCasts S128x1x1x64
  broadcasts_S128x1x1x64_S128x3x64x64 : S128x1x1x64.Broadcasts S128x3x64x64
  reduces_S128x3x64x64_S128x3x64 : S128x3x64x64.Reduces [3] S128x3x64
  shapeCasts_S128x64_S128x1x64 : S128x64.ShapeCasts S128x1x64
  broadcasts_S128x1x64_S128x3x64 : S128x1x64.Broadcasts S128x3x64
  reduces_S128x3x64_S128x3 : S128x3x64.Reduces [2] S128x3
  shapeCasts_S4194304x3_S32x131072x3 : S4194304x3.ShapeCasts S32x131072x3
  dot_S128x64_S64x12288_S128x12288_1_0_0_1_n_n_wf : DotDims.WF S128x64 S64x12288 S128x12288 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x12288.size a ≤ S64x12288.size a
  hwx0_0 : ∀ i : grid0.Coords, EltTy.bits .bf16 = 32 ∨ (Rect.block (s := S64x12288) S64x12288.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S4194304x3.size a
  hwx0_1 : ∀ i : grid0.Coords, EltTy.bits .f32 = 32 ∨ (Rect.block (s := S4194304x3) S128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S4194304x3.size a
  hwx0_2 : ∀ i : grid0.Coords, EltTy.bits .f32 = 32 ∨ (Rect.block (s := S4194304x3) S128x3.size (cc0_transform_2 i) (hinb0_2 i)).WholeWords (EltTy.packing .f32)

variable [Facts₀]

def dot_S128x64_S64x12288_S128x12288_1_0_0_1_n_n : DotDims S128x64 S64x12288 S128x12288 where
  lhsContracting := [1]
  rhsContracting := [0]
  lhsNonContracting := [0]
  rhsNonContracting := [1]
  lhsBatch := []
  rhsBatch := []
  wf := dot_S128x64_S64x12288_S128x12288_1_0_0_1_n_n_wf

abbrev win0_0 : Pipeline.Window sig grid0 :=
  Pipeline.Window.ofSpec (Memref.whole main_v3) S64x12288.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x131072x3 : Shape := ⟨3, ![32, 131072, 3]⟩
abbrev S3x64x64x64 : Shape := ⟨4, ![3, 64, 64, 64]⟩
abbrev S32x131072x1 : Shape := ⟨3, ![32, 131072, 1]⟩
abbrev S32x131072 : Shape := ⟨2, ![32, 131072]⟩
abbrev S_ : Shape := ⟨0, ![]⟩
abbrev S3x32x131072 : Shape := ⟨3, ![3, 32, 131072]⟩
abbrev S1x32x131072 : Shape := ⟨3, ![1, 32, 131072]⟩

abbrev nBuf : Space → Nat
  | .hbm => 945
  | .vmem => 0
  | .smem => 0
  | _ => 0

abbrev hbmTy0_0 (i : Nat) : BufTy := match i % 128 with
  | 0 => ⟨S32x131072x3, .f32⟩
  | 1 => ⟨S3x64x64x64, .f32⟩
  | 2 => ⟨S32x131072x1, .f32⟩
  | 3 => ⟨S32x131072, .f32⟩
  | 4 => ⟨S_, .f32⟩
  | 5 => ⟨S32x131072, .f32⟩
  | 6 => ⟨S32x131072, .f32⟩
  | 7 => ⟨S_, .f32⟩
  | 8 => ⟨S32x131072, .f32⟩
  | 9 => ⟨S32x131072, .f32⟩
  | 10 => ⟨S_, .f32⟩
  | 11 => ⟨S32x131072, .f32⟩
  | 12 => ⟨S32x131072, .f32⟩
  | 13 => ⟨S_, .f32⟩
  | 14 => ⟨S32x131072, .f32⟩
  | 15 => ⟨S32x131072, .f32⟩
  | 16 => ⟨S32x131072x1, .f32⟩
  | 17 => ⟨S32x131072, .f32⟩
  | 18 => ⟨S_, .f32⟩
  | 19 => ⟨S32x131072, .f32⟩
  | 20 => ⟨S32x131072, .f32⟩
  | 21 => ⟨S_, .f32⟩
  | 22 => ⟨S32x131072, .f32⟩
  | 23 => ⟨S32x131072, .f32⟩
  | 24 => ⟨S_, .f32⟩
  | 25 => ⟨S32x131072, .f32⟩
  | 26 => ⟨S32x131072, .f32⟩
  | 27 => ⟨S_, .f32⟩
  | 28 => ⟨S32x131072, .f32⟩
  | 29 => ⟨S32x131072, .f32⟩
  | 30 => ⟨S32x131072x1, .f32⟩
  | 31 => ⟨S32x131072, .f32⟩
  | 32 => ⟨S_, .f32⟩
  | 33 => ⟨S32x131072, .f32⟩
  | 34 => ⟨S32x131072, .f32⟩
  | 35 => ⟨S_, .f32⟩
  | 36 => ⟨S32x131072, .f32⟩
  | 37 => ⟨S32x131072, .f32⟩
  | 38 => ⟨S_, .f32⟩
  | 39 => ⟨S32x131072, .f32⟩
  | 40 => ⟨S32x131072, .f32⟩
  | 41 => ⟨S_, .f32⟩
  | 42 => ⟨S32x131072, .f32⟩
  | 43 => ⟨S32x131072, .f32⟩
  | 44 => ⟨S32x131072, .f32⟩
  | 45 => ⟨S32x131072, .f32⟩
  | 46 => ⟨S32x131072, .f32⟩
  | 47 => ⟨S32x131072, .f32⟩
  | 48 => ⟨S32x131072, .f32⟩
  | 49 => ⟨S32x131072, .f32⟩
  | 50 => ⟨S32x131072, .i32⟩
  | 51 => ⟨S32x131072, .i32⟩
  | 52 => ⟨S32x131072, .i32⟩
  | 53 => ⟨S_, .f32⟩
  | 54 => ⟨S3x32x131072, .f32⟩
  | 55 => ⟨S_, .i32⟩
  | 56 => ⟨S32x131072, .i32⟩
  | 57 => ⟨S32x131072, .i32⟩
  | 58 => ⟨S_, .i32⟩
  | 59 => ⟨S32x131072, .i32⟩
  | 60 => ⟨S32x131072, .i32⟩
  | 61 => ⟨S_, .i32⟩
  | 62 => ⟨S32x131072, .i32⟩
  | 63 => ⟨S32x131072, .i32⟩
  | 64 => ⟨S_, .f32⟩
  | 65 => ⟨S32x131072, .f32⟩
  | 66 => ⟨S32x131072, .f32⟩
  | 67 => ⟨S_, .i32⟩
  | 68 => ⟨S_, .i32⟩
  | 69 => ⟨S_, .i1⟩
  | 70 => ⟨S32x131072, .f32⟩
  | 71 => ⟨S_, .f32⟩
  | 72 => ⟨S32x131072, .f32⟩
  | 73 => ⟨S32x131072, .f32⟩
  | 74 => ⟨S_, .i32⟩
  | 75 => ⟨S_, .i32⟩
  | 76 => ⟨S_, .i1⟩
  | 77 => ⟨S32x131072, .f32⟩
  | 78 => ⟨S32x131072, .f32⟩
  | 79 => ⟨S_, .f32⟩
  | 80 => ⟨S32x131072, .f32⟩
  | 81 => ⟨S32x131072, .f32⟩
  | 82 => ⟨S_, .i32⟩
  | 83 => ⟨S_, .i32⟩
  | 84 => ⟨S_, .i1⟩
  | 85 => ⟨S32x131072, .f32⟩
  | 86 => ⟨S32x131072, .f32⟩
  | 87 => ⟨S_, .i32⟩
  | 88 => ⟨S32x131072, .i32⟩
  | 89 => ⟨S32x131072, .i1⟩
  | 90 => ⟨S_, .i32⟩
  | 91 => ⟨S32x131072, .i32⟩
  | 92 => ⟨S32x131072, .i1⟩
  | 93 => ⟨S32x131072, .i1⟩
  | 94 => ⟨S_, .i32⟩
  | 95 => ⟨S32x131072, .i32⟩
  | 96 => ⟨S32x131072, .i1⟩
  | 97 => ⟨S32x131072, .i1⟩
  | 98 => ⟨S_, .i32⟩
  | 99 => ⟨S32x131072, .i32⟩
  | 100 => ⟨S32x131072, .i1⟩
  | 101 => ⟨S32x131072, .i1⟩
  | 102 => ⟨S_, .i32⟩
  | 103 => ⟨S32x131072, .i32⟩
  | 104 => ⟨S32x131072, .i1⟩
  | 105 => ⟨S32x131072, .i1⟩
  | 106 => ⟨S_, .i32⟩
  | 107 => ⟨S32x131072, .i32⟩
  | 108 => ⟨S32x131072, .i1⟩
  | 109 => ⟨S32x131072, .i1⟩
  | 110 => ⟨S_, .i32⟩
  | 111 => ⟨S_, .i32⟩
  | 112 => ⟨S_, .i32⟩
  | 113 => ⟨S32x131072, .i32⟩
  | 114 => ⟨S32x131072, .i32⟩
  | 115 => ⟨S_, .i32⟩
  | 116 => ⟨S32x131072, .i32⟩
  | 117 => ⟨S32x131072, .i32⟩
  | 118 => ⟨S_, .i32⟩
  | 119 => ⟨S_, .i32⟩
  | 120 => ⟨S_, .i32⟩
  | 121 => ⟨S32x131072, .i32⟩
  | 122 => ⟨S32x131072, .i32⟩
  | 123 => ⟨S_, .i32⟩
  | 124 => ⟨S32x131072, .i32⟩
  | 125 => ⟨S32x131072, .i32⟩
  | 126 => ⟨S_, .i32⟩
  | 127 => ⟨S_, .i32⟩
  | _ => ⟨S32x131072x3, .f32⟩

abbrev hbmTy0_1 (i : Nat) : BufTy := match i % 128 with
  | 0 => ⟨S_, .i32⟩
  | 1 => ⟨S32x131072, .i32⟩
  | 2 => ⟨S32x131072, .i32⟩
  | 3 => ⟨S_, .i32⟩
  | 4 => ⟨S32x131072, .i32⟩
  | 5 => ⟨S32x131072, .i32⟩
  | 6 => ⟨S_, .i32⟩
  | 7 => ⟨S32x131072, .i32⟩
  | 8 => ⟨S32x131072, .i1⟩
  | 9 => ⟨S_, .i32⟩
  | 10 => ⟨S32x131072, .i32⟩
  | 11 => ⟨S32x131072, .i32⟩
  | 12 => ⟨S32x131072, .i32⟩
  | 13 => ⟨S_, .i32⟩
  | 14 => ⟨S32x131072, .i32⟩
  | 15 => ⟨S32x131072, .i1⟩
  | 16 => ⟨S_, .i32⟩
  | 17 => ⟨S32x131072, .i32⟩
  | 18 => ⟨S32x131072, .i32⟩
  | 19 => ⟨S32x131072, .i32⟩
  | 20 => ⟨S_, .i32⟩
  | 21 => ⟨S32x131072, .i32⟩
  | 22 => ⟨S32x131072, .i1⟩
  | 23 => ⟨S_, .i32⟩
  | 24 => ⟨S32x131072, .i32⟩
  | 25 => ⟨S32x131072, .i32⟩
  | 26 => ⟨S32x131072, .i32⟩
  | 27 => ⟨S32x131072x1, .i32⟩
  | 28 => ⟨S32x131072x1, .i32⟩
  | 29 => ⟨S32x131072x1, .i32⟩
  | 30 => ⟨S32x131072x3, .i32⟩
  | 31 => ⟨S3x32x131072, .f32⟩
  | 32 => ⟨S32x131072, .f32⟩
  | 33 => ⟨S32x131072, .f32⟩
  | 34 => ⟨S1x32x131072, .f32⟩
  | 35 => ⟨S3x32x131072, .f32⟩
  | 36 => ⟨S3x32x131072, .f32⟩
  | 37 => ⟨S3x32x131072, .f32⟩
  | 38 => ⟨S_, .i32⟩
  | 39 => ⟨S32x131072, .i32⟩
  | 40 => ⟨S32x131072, .i32⟩
  | 41 => ⟨S_, .i32⟩
  | 42 => ⟨S32x131072, .i32⟩
  | 43 => ⟨S32x131072, .i32⟩
  | 44 => ⟨S_, .i32⟩
  | 45 => ⟨S32x131072, .i32⟩
  | 46 => ⟨S32x131072, .i32⟩
  | 47 => ⟨S_, .f32⟩
  | 48 => ⟨S32x131072, .f32⟩
  | 49 => ⟨S32x131072, .f32⟩
  | 50 => ⟨S_, .i32⟩
  | 51 => ⟨S_, .i32⟩
  | 52 => ⟨S_, .i1⟩
  | 53 => ⟨S32x131072, .f32⟩
  | 54 => ⟨S_, .f32⟩
  | 55 => ⟨S32x131072, .f32⟩
  | 56 => ⟨S32x131072, .f32⟩
  | 57 => ⟨S_, .i32⟩
  | 58 => ⟨S_, .i32⟩
  | 59 => ⟨S_, .i1⟩
  | 60 => ⟨S32x131072, .f32⟩
  | 61 => ⟨S32x131072, .f32⟩
  | 62 => ⟨S_, .f32⟩
  | 63 => ⟨S32x131072, .f32⟩
  | 64 => ⟨S32x131072, .f32⟩
  | 65 => ⟨S_, .i32⟩
  | 66 => ⟨S_, .i32⟩
  | 67 => ⟨S_, .i1⟩
  | 68 => ⟨S32x131072, .f32⟩
  | 69 => ⟨S32x131072, .f32⟩
  | 70 => ⟨S_, .i32⟩
  | 71 => ⟨S32x131072, .i32⟩
  | 72 => ⟨S32x131072, .i1⟩
  | 73 => ⟨S_, .i32⟩
  | 74 => ⟨S32x131072, .i32⟩
  | 75 => ⟨S32x131072, .i1⟩
  | 76 => ⟨S32x131072, .i1⟩
  | 77 => ⟨S_, .i32⟩
  | 78 => ⟨S32x131072, .i32⟩
  | 79 => ⟨S32x131072, .i1⟩
  | 80 => ⟨S32x131072, .i1⟩
  | 81 => ⟨S_, .i32⟩
  | 82 => ⟨S32x131072, .i32⟩
  | 83 => ⟨S32x131072, .i1⟩
  | 84 => ⟨S32x131072, .i1⟩
  | 85 => ⟨S_, .i32⟩
  | 86 => ⟨S32x131072, .i32⟩
  | 87 => ⟨S32x131072, .i1⟩
  | 88 => ⟨S32x131072, .i1⟩
  | 89 => ⟨S_, .i32⟩
  | 90 => ⟨S32x131072, .i32⟩
  | 91 => ⟨S32x131072, .i1⟩
  | 92 => ⟨S32x131072, .i1⟩
  | 93 => ⟨S_, .i32⟩
  | 94 => ⟨S_, .i32⟩
  | 95 => ⟨S_, .i32⟩
  | 96 => ⟨S32x131072, .i32⟩
  | 97 => ⟨S32x131072, .i32⟩
  | 98 => ⟨S_, .i32⟩
  | 99 => ⟨S32x131072, .i32⟩
  | 100 => ⟨S32x131072, .i32⟩
  | 101 => ⟨S_, .i32⟩
  | 102 => ⟨S_, .i32⟩
  | 103 => ⟨S_, .i32⟩
  | 104 => ⟨S32x131072, .i32⟩
  | 105 => ⟨S32x131072, .i32⟩
  | 106 => ⟨S_, .i32⟩
  | 107 => ⟨S32x131072, .i32⟩
  | 108 => ⟨S32x131072, .i32⟩
  | 109 => ⟨S_, .i32⟩
  | 110 => ⟨S_, .i32⟩
  | 111 => ⟨S_, .i32⟩
  | 112 => ⟨S32x131072, .i32⟩
  | 113 => ⟨S32x131072, .i32⟩
  | 114 => ⟨S_, .i32⟩
  | 115 => ⟨S32x131072, .i32⟩
  | 116 => ⟨S32x131072, .i32⟩
  | 117 => ⟨S_, .i32⟩
  | 118 => ⟨S32x131072, .i32⟩
  | 119 => ⟨S32x131072, .i1⟩
  | 120 => ⟨S_, .i32⟩
  | 121 => ⟨S32x131072, .i32⟩
  | 122 => ⟨S32x131072, .i32⟩
  | 123 => ⟨S32x131072, .i32⟩
  | 124 => ⟨S_, .i32⟩
  | 125 => ⟨S32x131072, .i32⟩
  | 126 => ⟨S32x131072, .i1⟩
  | 127 => ⟨S_, .i32⟩
  | _ => ⟨S32x131072x3, .f32⟩

abbrev hbmTy0_2 (i : Nat) : BufTy := match i % 128 with
  | 0 => ⟨S32x131072, .i32⟩
  | 1 => ⟨S32x131072, .i32⟩
  | 2 => ⟨S32x131072, .i32⟩
  | 3 => ⟨S_, .i32⟩
  | 4 => ⟨S32x131072, .i32⟩
  | 5 => ⟨S32x131072, .i1⟩
  | 6 => ⟨S_, .i32⟩
  | 7 => ⟨S32x131072, .i32⟩
  | 8 => ⟨S32x131072, .i32⟩
  | 9 => ⟨S32x131072, .i32⟩
  | 10 => ⟨S32x131072x1, .i32⟩
  | 11 => ⟨S32x131072x1, .i32⟩
  | 12 => ⟨S32x131072x1, .i32⟩
  | 13 => ⟨S32x131072x3, .i32⟩
  | 14 => ⟨S3x32x131072, .f32⟩
  | 15 => ⟨S32x131072, .f32⟩
  | 16 => ⟨S32x131072, .f32⟩
  | 17 => ⟨S1x32x131072, .f32⟩
  | 18 => ⟨S3x32x131072, .f32⟩
  | 19 => ⟨S3x32x131072, .f32⟩
  | 20 => ⟨S3x32x131072, .f32⟩
  | 21 => ⟨S_, .i32⟩
  | 22 => ⟨S32x131072, .i32⟩
  | 23 => ⟨S32x131072, .i32⟩
  | 24 => ⟨S_, .i32⟩
  | 25 => ⟨S32x131072, .i32⟩
  | 26 => ⟨S32x131072, .i32⟩
  | 27 => ⟨S_, .i32⟩
  | 28 => ⟨S32x131072, .i32⟩
  | 29 => ⟨S32x131072, .i32⟩
  | 30 => ⟨S_, .f32⟩
  | 31 => ⟨S32x131072, .f32⟩
  | 32 => ⟨S32x131072, .f32⟩
  | 33 => ⟨S_, .i32⟩
  | 34 => ⟨S_, .i32⟩
  | 35 => ⟨S_, .i1⟩
  | 36 => ⟨S32x131072, .f32⟩
  | 37 => ⟨S_, .f32⟩
  | 38 => ⟨S32x131072, .f32⟩
  | 39 => ⟨S32x131072, .f32⟩
  | 40 => ⟨S_, .i32⟩
  | 41 => ⟨S_, .i32⟩
  | 42 => ⟨S_, .i1⟩
  | 43 => ⟨S32x131072, .f32⟩
  | 44 => ⟨S32x131072, .f32⟩
  | 45 => ⟨S_, .f32⟩
  | 46 => ⟨S32x131072, .f32⟩
  | 47 => ⟨S32x131072, .f32⟩
  | 48 => ⟨S_, .i32⟩
  | 49 => ⟨S_, .i32⟩
  | 50 => ⟨S_, .i1⟩
  | 51 => ⟨S32x131072, .f32⟩
  | 52 => ⟨S32x131072, .f32⟩
  | 53 => ⟨S_, .i32⟩
  | 54 => ⟨S32x131072, .i32⟩
  | 55 => ⟨S32x131072, .i1⟩
  | 56 => ⟨S_, .i32⟩
  | 57 => ⟨S32x131072, .i32⟩
  | 58 => ⟨S32x131072, .i1⟩
  | 59 => ⟨S32x131072, .i1⟩
  | 60 => ⟨S_, .i32⟩
  | 61 => ⟨S32x131072, .i32⟩
  | 62 => ⟨S32x131072, .i1⟩
  | 63 => ⟨S32x131072, .i1⟩
  | 64 => ⟨S_, .i32⟩
  | 65 => ⟨S32x131072, .i32⟩
  | 66 => ⟨S32x131072, .i1⟩
  | 67 => ⟨S32x131072, .i1⟩
  | 68 => ⟨S_, .i32⟩
  | 69 => ⟨S32x131072, .i32⟩
  | 70 => ⟨S32x131072, .i1⟩
  | 71 => ⟨S32x131072, .i1⟩
  | 72 => ⟨S_, .i32⟩
  | 73 => ⟨S32x131072, .i32⟩
  | 74 => ⟨S32x131072, .i1⟩
  | 75 => ⟨S32x131072, .i1⟩
  | 76 => ⟨S_, .i32⟩
  | 77 => ⟨S_, .i32⟩
  | 78 => ⟨S_, .i32⟩
  | 79 => ⟨S32x131072, .i32⟩
  | 80 => ⟨S32x131072, .i32⟩
  | 81 => ⟨S_, .i32⟩
  | 82 => ⟨S32x131072, .i32⟩
  | 83 => ⟨S32x131072, .i32⟩
  | 84 => ⟨S_, .i32⟩
  | 85 => ⟨S_, .i32⟩
  | 86 => ⟨S_, .i32⟩
  | 87 => ⟨S32x131072, .i32⟩
  | 88 => ⟨S32x131072, .i32⟩
  | 89 => ⟨S_, .i32⟩
  | 90 => ⟨S32x131072, .i32⟩
  | 91 => ⟨S32x131072, .i32⟩
  | 92 => ⟨S_, .i32⟩
  | 93 => ⟨S_, .i32⟩
  | 94 => ⟨S_, .i32⟩
  | 95 => ⟨S32x131072, .i32⟩
  | 96 => ⟨S32x131072, .i32⟩
  | 97 => ⟨S_, .i32⟩
  | 98 => ⟨S32x131072, .i32⟩
  | 99 => ⟨S32x131072, .i32⟩
  | 100 => ⟨S_, .i32⟩
  | 101 => ⟨S32x131072, .i32⟩
  | 102 => ⟨S32x131072, .i1⟩
  | 103 => ⟨S_, .i32⟩
  | 104 => ⟨S32x131072, .i32⟩
  | 105 => ⟨S32x131072, .i32⟩
  | 106 => ⟨S32x131072, .i32⟩
  | 107 => ⟨S_, .i32⟩
  | 108 => ⟨S32x131072, .i32⟩
  | 109 => ⟨S32x131072, .i1⟩
  | 110 => ⟨S_, .i32⟩
  | 111 => ⟨S32x131072, .i32⟩
  | 112 => ⟨S32x131072, .i32⟩
  | 113 => ⟨S32x131072, .i32⟩
  | 114 => ⟨S_, .i32⟩
  | 115 => ⟨S32x131072, .i32⟩
  | 116 => ⟨S32x131072, .i1⟩
  | 117 => ⟨S_, .i32⟩
  | 118 => ⟨S32x131072, .i32⟩
  | 119 => ⟨S32x131072, .i32⟩
  | 120 => ⟨S32x131072, .i32⟩
  | 121 => ⟨S32x131072x1, .i32⟩
  | 122 => ⟨S32x131072x1, .i32⟩
  | 123 => ⟨S32x131072x1, .i32⟩
  | 124 => ⟨S32x131072x3, .i32⟩
  | 125 => ⟨S3x32x131072, .f32⟩
  | 126 => ⟨S32x131072, .f32⟩
  | 127 => ⟨S32x131072, .f32⟩
  | _ => ⟨S32x131072x3, .f32⟩

abbrev hbmTy0_3 (i : Nat) : BufTy := match i % 128 with
  | 0 => ⟨S1x32x131072, .f32⟩
  | 1 => ⟨S3x32x131072, .f32⟩
  | 2 => ⟨S3x32x131072, .f32⟩
  | 3 => ⟨S3x32x131072, .f32⟩
  | 4 => ⟨S_, .i32⟩
  | 5 => ⟨S32x131072, .i32⟩
  | 6 => ⟨S32x131072, .i32⟩
  | 7 => ⟨S_, .i32⟩
  | 8 => ⟨S32x131072, .i32⟩
  | 9 => ⟨S32x131072, .i32⟩
  | 10 => ⟨S_, .i32⟩
  | 11 => ⟨S32x131072, .i32⟩
  | 12 => ⟨S32x131072, .i32⟩
  | 13 => ⟨S_, .f32⟩
  | 14 => ⟨S32x131072, .f32⟩
  | 15 => ⟨S32x131072, .f32⟩
  | 16 => ⟨S_, .i32⟩
  | 17 => ⟨S_, .i32⟩
  | 18 => ⟨S_, .i1⟩
  | 19 => ⟨S32x131072, .f32⟩
  | 20 => ⟨S_, .f32⟩
  | 21 => ⟨S32x131072, .f32⟩
  | 22 => ⟨S32x131072, .f32⟩
  | 23 => ⟨S_, .i32⟩
  | 24 => ⟨S_, .i32⟩
  | 25 => ⟨S_, .i1⟩
  | 26 => ⟨S32x131072, .f32⟩
  | 27 => ⟨S32x131072, .f32⟩
  | 28 => ⟨S_, .f32⟩
  | 29 => ⟨S32x131072, .f32⟩
  | 30 => ⟨S32x131072, .f32⟩
  | 31 => ⟨S_, .i32⟩
  | 32 => ⟨S_, .i32⟩
  | 33 => ⟨S_, .i1⟩
  | 34 => ⟨S32x131072, .f32⟩
  | 35 => ⟨S32x131072, .f32⟩
  | 36 => ⟨S_, .i32⟩
  | 37 => ⟨S32x131072, .i32⟩
  | 38 => ⟨S32x131072, .i1⟩
  | 39 => ⟨S_, .i32⟩
  | 40 => ⟨S32x131072, .i32⟩
  | 41 => ⟨S32x131072, .i1⟩
  | 42 => ⟨S32x131072, .i1⟩
  | 43 => ⟨S_, .i32⟩
  | 44 => ⟨S32x131072, .i32⟩
  | 45 => ⟨S32x131072, .i1⟩
  | 46 => ⟨S32x131072, .i1⟩
  | 47 => ⟨S_, .i32⟩
  | 48 => ⟨S32x131072, .i32⟩
  | 49 => ⟨S32x131072, .i1⟩
  | 50 => ⟨S32x131072, .i1⟩
  | 51 => ⟨S_, .i32⟩
  | 52 => ⟨S32x131072, .i32⟩
  | 53 => ⟨S32x131072, .i1⟩
  | 54 => ⟨S32x131072, .i1⟩
  | 55 => ⟨S_, .i32⟩
  | 56 => ⟨S32x131072, .i32⟩
  | 57 => ⟨S32x131072, .i1⟩
  | 58 => ⟨S32x131072, .i1⟩
  | 59 => ⟨S_, .i32⟩
  | 60 => ⟨S_, .i32⟩
  | 61 => ⟨S_, .i32⟩
  | 62 => ⟨S32x131072, .i32⟩
  | 63 => ⟨S32x131072, .i32⟩
  | 64 => ⟨S_, .i32⟩
  | 65 => ⟨S32x131072, .i32⟩
  | 66 => ⟨S32x131072, .i32⟩
  | 67 => ⟨S_, .i32⟩
  | 68 => ⟨S_, .i32⟩
  | 69 => ⟨S_, .i32⟩
  | 70 => ⟨S32x131072, .i32⟩
  | 71 => ⟨S32x131072, .i32⟩
  | 72 => ⟨S_, .i32⟩
  | 73 => ⟨S32x131072, .i32⟩
  | 74 => ⟨S32x131072, .i32⟩
  | 75 => ⟨S_, .i32⟩
  | 76 => ⟨S_, .i32⟩
  | 77 => ⟨S_, .i32⟩
  | 78 => ⟨S32x131072, .i32⟩
  | 79 => ⟨S32x131072, .i32⟩
  | 80 => ⟨S_, .i32⟩
  | 81 => ⟨S32x131072, .i32⟩
  | 82 => ⟨S32x131072, .i32⟩
  | 83 => ⟨S_, .i32⟩
  | 84 => ⟨S32x131072, .i32⟩
  | 85 => ⟨S32x131072, .i1⟩
  | 86 => ⟨S_, .i32⟩
  | 87 => ⟨S32x131072, .i32⟩
  | 88 => ⟨S32x131072, .i32⟩
  | 89 => ⟨S32x131072, .i32⟩
  | 90 => ⟨S_, .i32⟩
  | 91 => ⟨S32x131072, .i32⟩
  | 92 => ⟨S32x131072, .i1⟩
  | 93 => ⟨S_, .i32⟩
  | 94 => ⟨S32x131072, .i32⟩
  | 95 => ⟨S32x131072, .i32⟩
  | 96 => ⟨S32x131072, .i32⟩
  | 97 => ⟨S_, .i32⟩
  | 98 => ⟨S32x131072, .i32⟩
  | 99 => ⟨S32x131072, .i1⟩
  | 100 => ⟨S_, .i32⟩
  | 101 => ⟨S32x131072, .i32⟩
  | 102 => ⟨S32x131072, .i32⟩
  | 103 => ⟨S32x131072, .i32⟩
  | 104 => ⟨S32x131072x1, .i32⟩
  | 105 => ⟨S32x131072x1, .i32⟩
  | 106 => ⟨S32x131072x1, .i32⟩
  | 107 => ⟨S32x131072x3, .i32⟩
  | 108 => ⟨S3x32x131072, .f32⟩
  | 109 => ⟨S32x131072, .f32⟩
  | 110 => ⟨S32x131072, .f32⟩
  | 111 => ⟨S1x32x131072, .f32⟩
  | 112 => ⟨S3x32x131072, .f32⟩
  | 113 => ⟨S3x32x131072, .f32⟩
  | 114 => ⟨S3x32x131072, .f32⟩
  | 115 => ⟨S_, .i32⟩
  | 116 => ⟨S32x131072, .i32⟩
  | 117 => ⟨S32x131072, .i32⟩
  | 118 => ⟨S_, .i32⟩
  | 119 => ⟨S32x131072, .i32⟩
  | 120 => ⟨S32x131072, .i32⟩
  | 121 => ⟨S_, .i32⟩
  | 122 => ⟨S32x131072, .i32⟩
  | 123 => ⟨S32x131072, .i32⟩
  | 124 => ⟨S_, .f32⟩
  | 125 => ⟨S32x131072, .f32⟩
  | 126 => ⟨S32x131072, .f32⟩
  | 127 => ⟨S_, .i32⟩
  | _ => ⟨S32x131072x3, .f32⟩

abbrev hbmTy0_4 (i : Nat) : BufTy := match i % 128 with
  | 0 => ⟨S_, .i32⟩
  | 1 => ⟨S_, .i1⟩
  | 2 => ⟨S32x131072, .f32⟩
  | 3 => ⟨S_, .f32⟩
  | 4 => ⟨S32x131072, .f32⟩
  | 5 => ⟨S32x131072, .f32⟩
  | 6 => ⟨S_, .i32⟩
  | 7 => ⟨S_, .i32⟩
  | 8 => ⟨S_, .i1⟩
  | 9 => ⟨S32x131072, .f32⟩
  | 10 => ⟨S32x131072, .f32⟩
  | 11 => ⟨S_, .f32⟩
  | 12 => ⟨S32x131072, .f32⟩
  | 13 => ⟨S32x131072, .f32⟩
  | 14 => ⟨S_, .i32⟩
  | 15 => ⟨S_, .i32⟩
  | 16 => ⟨S_, .i1⟩
  | 17 => ⟨S32x131072, .f32⟩
  | 18 => ⟨S32x131072, .f32⟩
  | 19 => ⟨S_, .i32⟩
  | 20 => ⟨S32x131072, .i32⟩
  | 21 => ⟨S32x131072, .i1⟩
  | 22 => ⟨S_, .i32⟩
  | 23 => ⟨S32x131072, .i32⟩
  | 24 => ⟨S32x131072, .i1⟩
  | 25 => ⟨S32x131072, .i1⟩
  | 26 => ⟨S_, .i32⟩
  | 27 => ⟨S32x131072, .i32⟩
  | 28 => ⟨S32x131072, .i1⟩
  | 29 => ⟨S32x131072, .i1⟩
  | 30 => ⟨S_, .i32⟩
  | 31 => ⟨S32x131072, .i32⟩
  | 32 => ⟨S32x131072, .i1⟩
  | 33 => ⟨S32x131072, .i1⟩
  | 34 => ⟨S_, .i32⟩
  | 35 => ⟨S32x131072, .i32⟩
  | 36 => ⟨S32x131072, .i1⟩
  | 37 => ⟨S32x131072, .i1⟩
  | 38 => ⟨S_, .i32⟩
  | 39 => ⟨S32x131072, .i32⟩
  | 40 => ⟨S32x131072, .i1⟩
  | 41 => ⟨S32x131072, .i1⟩
  | 42 => ⟨S_, .i32⟩
  | 43 => ⟨S_, .i32⟩
  | 44 => ⟨S_, .i32⟩
  | 45 => ⟨S32x131072, .i32⟩
  | 46 => ⟨S32x131072, .i32⟩
  | 47 => ⟨S_, .i32⟩
  | 48 => ⟨S32x131072, .i32⟩
  | 49 => ⟨S32x131072, .i32⟩
  | 50 => ⟨S_, .i32⟩
  | 51 => ⟨S_, .i32⟩
  | 52 => ⟨S_, .i32⟩
  | 53 => ⟨S32x131072, .i32⟩
  | 54 => ⟨S32x131072, .i32⟩
  | 55 => ⟨S_, .i32⟩
  | 56 => ⟨S32x131072, .i32⟩
  | 57 => ⟨S32x131072, .i32⟩
  | 58 => ⟨S_, .i32⟩
  | 59 => ⟨S_, .i32⟩
  | 60 => ⟨S_, .i32⟩
  | 61 => ⟨S32x131072, .i32⟩
  | 62 => ⟨S32x131072, .i32⟩
  | 63 => ⟨S_, .i32⟩
  | 64 => ⟨S32x131072, .i32⟩
  | 65 => ⟨S32x131072, .i32⟩
  | 66 => ⟨S_, .i32⟩
  | 67 => ⟨S32x131072, .i32⟩
  | 68 => ⟨S32x131072, .i1⟩
  | 69 => ⟨S_, .i32⟩
  | 70 => ⟨S32x131072, .i32⟩
  | 71 => ⟨S32x131072, .i32⟩
  | 72 => ⟨S32x131072, .i32⟩
  | 73 => ⟨S_, .i32⟩
  | 74 => ⟨S32x131072, .i32⟩
  | 75 => ⟨S32x131072, .i1⟩
  | 76 => ⟨S_, .i32⟩
  | 77 => ⟨S32x131072, .i32⟩
  | 78 => ⟨S32x131072, .i32⟩
  | 79 => ⟨S32x131072, .i32⟩
  | 80 => ⟨S_, .i32⟩
  | 81 => ⟨S32x131072, .i32⟩
  | 82 => ⟨S32x131072, .i1⟩
  | 83 => ⟨S_, .i32⟩
  | 84 => ⟨S32x131072, .i32⟩
  | 85 => ⟨S32x131072, .i32⟩
  | 86 => ⟨S32x131072, .i32⟩
  | 87 => ⟨S32x131072x1, .i32⟩
  | 88 => ⟨S32x131072x1, .i32⟩
  | 89 => ⟨S32x131072x1, .i32⟩
  | 90 => ⟨S32x131072x3, .i32⟩
  | 91 => ⟨S3x32x131072, .f32⟩
  | 92 => ⟨S32x131072, .f32⟩
  | 93 => ⟨S32x131072, .f32⟩
  | 94 => ⟨S1x32x131072, .f32⟩
  | 95 => ⟨S3x32x131072, .f32⟩
  | 96 => ⟨S3x32x131072, .f32⟩
  | 97 => ⟨S3x32x131072, .f32⟩
  | 98 => ⟨S_, .i32⟩
  | 99 => ⟨S32x131072, .i32⟩
  | 100 => ⟨S32x131072, .i32⟩
  | 101 => ⟨S_, .i32⟩
  | 102 => ⟨S32x131072, .i32⟩
  | 103 => ⟨S32x131072, .i32⟩
  | 104 => ⟨S_, .i32⟩
  | 105 => ⟨S32x131072, .i32⟩
  | 106 => ⟨S32x131072, .i32⟩
  | 107 => ⟨S_, .f32⟩
  | 108 => ⟨S32x131072, .f32⟩
  | 109 => ⟨S32x131072, .f32⟩
  | 110 => ⟨S_, .i32⟩
  | 111 => ⟨S_, .i32⟩
  | 112 => ⟨S_, .i1⟩
  | 113 => ⟨S32x131072, .f32⟩
  | 114 => ⟨S_, .f32⟩
  | 115 => ⟨S32x131072, .f32⟩
  | 116 => ⟨S32x131072, .f32⟩
  | 117 => ⟨S_, .i32⟩
  | 118 => ⟨S_, .i32⟩
  | 119 => ⟨S_, .i1⟩
  | 120 => ⟨S32x131072, .f32⟩
  | 121 => ⟨S32x131072, .f32⟩
  | 122 => ⟨S_, .f32⟩
  | 123 => ⟨S32x131072, .f32⟩
  | 124 => ⟨S32x131072, .f32⟩
  | 125 => ⟨S_, .i32⟩
  | 126 => ⟨S_, .i32⟩
  | 127 => ⟨S_, .i1⟩
  | _ => ⟨S32x131072x3, .f32⟩

abbrev hbmTy0_5 (i : Nat) : BufTy := match i % 128 with
  | 0 => ⟨S32x131072, .f32⟩
  | 1 => ⟨S32x131072, .f32⟩
  | 2 => ⟨S_, .i32⟩
  | 3 => ⟨S32x131072, .i32⟩
  | 4 => ⟨S32x131072, .i1⟩
  | 5 => ⟨S_, .i32⟩
  | 6 => ⟨S32x131072, .i32⟩
  | 7 => ⟨S32x131072, .i1⟩
  | 8 => ⟨S32x131072, .i1⟩
  | 9 => ⟨S_, .i32⟩
  | 10 => ⟨S32x131072, .i32⟩
  | 11 => ⟨S32x131072, .i1⟩
  | 12 => ⟨S32x131072, .i1⟩
  | 13 => ⟨S_, .i32⟩
  | 14 => ⟨S32x131072, .i32⟩
  | 15 => ⟨S32x131072, .i1⟩
  | 16 => ⟨S32x131072, .i1⟩
  | 17 => ⟨S_, .i32⟩
  | 18 => ⟨S32x131072, .i32⟩
  | 19 => ⟨S32x131072, .i1⟩
  | 20 => ⟨S32x131072, .i1⟩
  | 21 => ⟨S_, .i32⟩
  | 22 => ⟨S32x131072, .i32⟩
  | 23 => ⟨S32x131072, .i1⟩
  | 24 => ⟨S32x131072, .i1⟩
  | 25 => ⟨S_, .i32⟩
  | 26 => ⟨S_, .i32⟩
  | 27 => ⟨S_, .i32⟩
  | 28 => ⟨S32x131072, .i32⟩
  | 29 => ⟨S32x131072, .i32⟩
  | 30 => ⟨S_, .i32⟩
  | 31 => ⟨S32x131072, .i32⟩
  | 32 => ⟨S32x131072, .i32⟩
  | 33 => ⟨S_, .i32⟩
  | 34 => ⟨S_, .i32⟩
  | 35 => ⟨S_, .i32⟩
  | 36 => ⟨S32x131072, .i32⟩
  | 37 => ⟨S32x131072, .i32⟩
  | 38 => ⟨S_, .i32⟩
  | 39 => ⟨S32x131072, .i32⟩
  | 40 => ⟨S32x131072, .i32⟩
  | 41 => ⟨S_, .i32⟩
  | 42 => ⟨S_, .i32⟩
  | 43 => ⟨S_, .i32⟩
  | 44 => ⟨S32x131072, .i32⟩
  | 45 => ⟨S32x131072, .i32⟩
  | 46 => ⟨S_, .i32⟩
  | 47 => ⟨S32x131072, .i32⟩
  | 48 => ⟨S32x131072, .i32⟩
  | 49 => ⟨S_, .i32⟩
  | 50 => ⟨S32x131072, .i32⟩
  | 51 => ⟨S32x131072, .i1⟩
  | 52 => ⟨S_, .i32⟩
  | 53 => ⟨S32x131072, .i32⟩
  | 54 => ⟨S32x131072, .i32⟩
  | 55 => ⟨S32x131072, .i32⟩
  | 56 => ⟨S_, .i32⟩
  | 57 => ⟨S32x131072, .i32⟩
  | 58 => ⟨S32x131072, .i1⟩
  | 59 => ⟨S_, .i32⟩
  | 60 => ⟨S32x131072, .i32⟩
  | 61 => ⟨S32x131072, .i32⟩
  | 62 => ⟨S32x131072, .i32⟩
  | 63 => ⟨S_, .i32⟩
  | 64 => ⟨S32x131072, .i32⟩
  | 65 => ⟨S32x131072, .i1⟩
  | 66 => ⟨S_, .i32⟩
  | 67 => ⟨S32x131072, .i32⟩
  | 68 => ⟨S32x131072, .i32⟩
  | 69 => ⟨S32x131072, .i32⟩
  | 70 => ⟨S32x131072x1, .i32⟩
  | 71 => ⟨S32x131072x1, .i32⟩
  | 72 => ⟨S32x131072x1, .i32⟩
  | 73 => ⟨S32x131072x3, .i32⟩
  | 74 => ⟨S3x32x131072, .f32⟩
  | 75 => ⟨S32x131072, .f32⟩
  | 76 => ⟨S32x131072, .f32⟩
  | 77 => ⟨S1x32x131072, .f32⟩
  | 78 => ⟨S3x32x131072, .f32⟩
  | 79 => ⟨S3x32x131072, .f32⟩
  | 80 => ⟨S3x32x131072, .f32⟩
  | 81 => ⟨S_, .i32⟩
  | 82 => ⟨S32x131072, .i32⟩
  | 83 => ⟨S32x131072, .i32⟩
  | 84 => ⟨S_, .i32⟩
  | 85 => ⟨S32x131072, .i32⟩
  | 86 => ⟨S32x131072, .i32⟩
  | 87 => ⟨S_, .i32⟩
  | 88 => ⟨S32x131072, .i32⟩
  | 89 => ⟨S32x131072, .i32⟩
  | 90 => ⟨S_, .f32⟩
  | 91 => ⟨S32x131072, .f32⟩
  | 92 => ⟨S32x131072, .f32⟩
  | 93 => ⟨S_, .i32⟩
  | 94 => ⟨S_, .i32⟩
  | 95 => ⟨S_, .i1⟩
  | 96 => ⟨S32x131072, .f32⟩
  | 97 => ⟨S_, .f32⟩
  | 98 => ⟨S32x131072, .f32⟩
  | 99 => ⟨S32x131072, .f32⟩
  | 100 => ⟨S_, .i32⟩
  | 101 => ⟨S_, .i32⟩
  | 102 => ⟨S_, .i1⟩
  | 103 => ⟨S32x131072, .f32⟩
  | 104 => ⟨S32x131072, .f32⟩
  | 105 => ⟨S_, .f32⟩
  | 106 => ⟨S32x131072, .f32⟩
  | 107 => ⟨S32x131072, .f32⟩
  | 108 => ⟨S_, .i32⟩
  | 109 => ⟨S_, .i32⟩
  | 110 => ⟨S_, .i1⟩
  | 111 => ⟨S32x131072, .f32⟩
  | 112 => ⟨S32x131072, .f32⟩
  | 113 => ⟨S_, .i32⟩
  | 114 => ⟨S32x131072, .i32⟩
  | 115 => ⟨S32x131072, .i1⟩
  | 116 => ⟨S_, .i32⟩
  | 117 => ⟨S32x131072, .i32⟩
  | 118 => ⟨S32x131072, .i1⟩
  | 119 => ⟨S32x131072, .i1⟩
  | 120 => ⟨S_, .i32⟩
  | 121 => ⟨S32x131072, .i32⟩
  | 122 => ⟨S32x131072, .i1⟩
  | 123 => ⟨S32x131072, .i1⟩
  | 124 => ⟨S_, .i32⟩
  | 125 => ⟨S32x131072, .i32⟩
  | 126 => ⟨S32x131072, .i1⟩
  | 127 => ⟨S32x131072, .i1⟩
  | _ => ⟨S32x131072x3, .f32⟩

abbrev hbmTy0_6 (i : Nat) : BufTy := match i % 128 with
  | 0 => ⟨S_, .i32⟩
  | 1 => ⟨S32x131072, .i32⟩
  | 2 => ⟨S32x131072, .i1⟩
  | 3 => ⟨S32x131072, .i1⟩
  | 4 => ⟨S_, .i32⟩
  | 5 => ⟨S32x131072, .i32⟩
  | 6 => ⟨S32x131072, .i1⟩
  | 7 => ⟨S32x131072, .i1⟩
  | 8 => ⟨S_, .i32⟩
  | 9 => ⟨S_, .i32⟩
  | 10 => ⟨S_, .i32⟩
  | 11 => ⟨S32x131072, .i32⟩
  | 12 => ⟨S32x131072, .i32⟩
  | 13 => ⟨S_, .i32⟩
  | 14 => ⟨S32x131072, .i32⟩
  | 15 => ⟨S32x131072, .i32⟩
  | 16 => ⟨S_, .i32⟩
  | 17 => ⟨S_, .i32⟩
  | 18 => ⟨S_, .i32⟩
  | 19 => ⟨S32x131072, .i32⟩
  | 20 => ⟨S32x131072, .i32⟩
  | 21 => ⟨S_, .i32⟩
  | 22 => ⟨S32x131072, .i32⟩
  | 23 => ⟨S32x131072, .i32⟩
  | 24 => ⟨S_, .i32⟩
  | 25 => ⟨S_, .i32⟩
  | 26 => ⟨S_, .i32⟩
  | 27 => ⟨S32x131072, .i32⟩
  | 28 => ⟨S32x131072, .i32⟩
  | 29 => ⟨S_, .i32⟩
  | 30 => ⟨S32x131072, .i32⟩
  | 31 => ⟨S32x131072, .i32⟩
  | 32 => ⟨S_, .i32⟩
  | 33 => ⟨S32x131072, .i32⟩
  | 34 => ⟨S32x131072, .i1⟩
  | 35 => ⟨S_, .i32⟩
  | 36 => ⟨S32x131072, .i32⟩
  | 37 => ⟨S32x131072, .i32⟩
  | 38 => ⟨S32x131072, .i32⟩
  | 39 => ⟨S_, .i32⟩
  | 40 => ⟨S32x131072, .i32⟩
  | 41 => ⟨S32x131072, .i1⟩
  | 42 => ⟨S_, .i32⟩
  | 43 => ⟨S32x131072, .i32⟩
  | 44 => ⟨S32x131072, .i32⟩
  | 45 => ⟨S32x131072, .i32⟩
  | 46 => ⟨S_, .i32⟩
  | 47 => ⟨S32x131072, .i32⟩
  | 48 => ⟨S32x131072, .i1⟩
  | 49 => ⟨S_, .i32⟩
  | 50 => ⟨S32x131072, .i32⟩
  | 51 => ⟨S32x131072, .i32⟩
  | 52 => ⟨S32x131072, .i32⟩
  | 53 => ⟨S32x131072x1, .i32⟩
  | 54 => ⟨S32x131072x1, .i32⟩
  | 55 => ⟨S32x131072x1, .i32⟩
  | 56 => ⟨S32x131072x3, .i32⟩
  | 57 => ⟨S3x32x131072, .f32⟩
  | 58 => ⟨S32x131072, .f32⟩
  | 59 => ⟨S32x131072, .f32⟩
  | 60 => ⟨S1x32x131072, .f32⟩
  | 61 => ⟨S3x32x131072, .f32⟩
  | 62 => ⟨S3x32x131072, .f32⟩
  | 63 => ⟨S3x32x131072, .f32⟩
  | 64 => ⟨S_, .i32⟩
  | 65 => ⟨S32x131072, .i32⟩
  | 66 => ⟨S32x131072, .i32⟩
  | 67 => ⟨S_, .i32⟩
  | 68 => ⟨S32x131072, .i32⟩
  | 69 => ⟨S32x131072, .i32⟩
  | 70 => ⟨S_, .i32⟩
  | 71 => ⟨S32x131072, .i32⟩
  | 72 => ⟨S32x131072, .i32⟩
  | 73 => ⟨S_, .f32⟩
  | 74 => ⟨S32x131072, .f32⟩
  | 75 => ⟨S32x131072, .f32⟩
  | 76 => ⟨S_, .i32⟩
  | 77 => ⟨S_, .i32⟩
  | 78 => ⟨S_, .i1⟩
  | 79 => ⟨S32x131072, .f32⟩
  | 80 => ⟨S_, .f32⟩
  | 81 => ⟨S32x131072, .f32⟩
  | 82 => ⟨S32x131072, .f32⟩
  | 83 => ⟨S_, .i32⟩
  | 84 => ⟨S_, .i32⟩
  | 85 => ⟨S_, .i1⟩
  | 86 => ⟨S32x131072, .f32⟩
  | 87 => ⟨S32x131072, .f32⟩
  | 88 => ⟨S_, .f32⟩
  | 89 => ⟨S32x131072, .f32⟩
  | 90 => ⟨S32x131072, .f32⟩
  | 91 => ⟨S_, .i32⟩
  | 92 => ⟨S_, .i32⟩
  | 93 => ⟨S_, .i1⟩
  | 94 => ⟨S32x131072, .f32⟩
  | 95 => ⟨S32x131072, .f32⟩
  | 96 => ⟨S_, .i32⟩
  | 97 => ⟨S32x131072, .i32⟩
  | 98 => ⟨S32x131072, .i1⟩
  | 99 => ⟨S_, .i32⟩
  | 100 => ⟨S32x131072, .i32⟩
  | 101 => ⟨S32x131072, .i1⟩
  | 102 => ⟨S32x131072, .i1⟩
  | 103 => ⟨S_, .i32⟩
  | 104 => ⟨S32x131072, .i32⟩
  | 105 => ⟨S32x131072, .i1⟩
  | 106 => ⟨S32x131072, .i1⟩
  | 107 => ⟨S_, .i32⟩
  | 108 => ⟨S32x131072, .i32⟩
  | 109 => ⟨S32x131072, .i1⟩
  | 110 => ⟨S32x131072, .i1⟩
  | 111 => ⟨S_, .i32⟩
  | 112 => ⟨S32x131072, .i32⟩
  | 113 => ⟨S32x131072, .i1⟩
  | 114 => ⟨S32x131072, .i1⟩
  | 115 => ⟨S_, .i32⟩
  | 116 => ⟨S32x131072, .i32⟩
  | 117 => ⟨S32x131072, .i1⟩
  | 118 => ⟨S32x131072, .i1⟩
  | 119 => ⟨S_, .i32⟩
  | 120 => ⟨S_, .i32⟩
  | 121 => ⟨S_, .i32⟩
  | 122 => ⟨S32x131072, .i32⟩
  | 123 => ⟨S32x131072, .i32⟩
  | 124 => ⟨S_, .i32⟩
  | 125 => ⟨S32x131072, .i32⟩
  | 126 => ⟨S32x131072, .i32⟩
  | 127 => ⟨S_, .i32⟩
  | _ => ⟨S32x131072x3, .f32⟩

abbrev hbmTy0_7 (i : Nat) : BufTy := match i % 128 with
  | 0 => ⟨S_, .i32⟩
  | 1 => ⟨S_, .i32⟩
  | 2 => ⟨S32x131072, .i32⟩
  | 3 => ⟨S32x131072, .i32⟩
  | 4 => ⟨S_, .i32⟩
  | 5 => ⟨S32x131072, .i32⟩
  | 6 => ⟨S32x131072, .i32⟩
  | 7 => ⟨S_, .i32⟩
  | 8 => ⟨S_, .i32⟩
  | 9 => ⟨S_, .i32⟩
  | 10 => ⟨S32x131072, .i32⟩
  | 11 => ⟨S32x131072, .i32⟩
  | 12 => ⟨S_, .i32⟩
  | 13 => ⟨S32x131072, .i32⟩
  | 14 => ⟨S32x131072, .i32⟩
  | 15 => ⟨S_, .i32⟩
  | 16 => ⟨S32x131072, .i32⟩
  | 17 => ⟨S32x131072, .i1⟩
  | 18 => ⟨S_, .i32⟩
  | 19 => ⟨S32x131072, .i32⟩
  | 20 => ⟨S32x131072, .i32⟩
  | 21 => ⟨S32x131072, .i32⟩
  | 22 => ⟨S_, .i32⟩
  | 23 => ⟨S32x131072, .i32⟩
  | 24 => ⟨S32x131072, .i1⟩
  | 25 => ⟨S_, .i32⟩
  | 26 => ⟨S32x131072, .i32⟩
  | 27 => ⟨S32x131072, .i32⟩
  | 28 => ⟨S32x131072, .i32⟩
  | 29 => ⟨S_, .i32⟩
  | 30 => ⟨S32x131072, .i32⟩
  | 31 => ⟨S32x131072, .i1⟩
  | 32 => ⟨S_, .i32⟩
  | 33 => ⟨S32x131072, .i32⟩
  | 34 => ⟨S32x131072, .i32⟩
  | 35 => ⟨S32x131072, .i32⟩
  | 36 => ⟨S32x131072x1, .i32⟩
  | 37 => ⟨S32x131072x1, .i32⟩
  | 38 => ⟨S32x131072x1, .i32⟩
  | 39 => ⟨S32x131072x3, .i32⟩
  | 40 => ⟨S3x32x131072, .f32⟩
  | 41 => ⟨S32x131072, .f32⟩
  | 42 => ⟨S32x131072, .f32⟩
  | 43 => ⟨S1x32x131072, .f32⟩
  | 44 => ⟨S3x32x131072, .f32⟩
  | 45 => ⟨S3x32x131072, .f32⟩
  | 46 => ⟨S3x32x131072, .f32⟩
  | 47 => ⟨S32x131072x3, .f32⟩
  | 48 => ⟨S32x131072x3, .f32⟩
  | _ => ⟨S32x131072x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S32x131072x3, .f32⟩

abbrev bufTy : (tb : Table) → Fin (tcTables nBuf tb) → BufTy
  | .hbm, ⟨i, _⟩ => hbmTy i
  | _, _ => ⟨S32x131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_v41 : Ref sig .tc := ⟨.hbm, 57, rfl⟩
abbrev main_c_12 : Ref sig .tc := ⟨.hbm, 58, rfl⟩
abbrev main_v42 : Ref sig .tc := ⟨.hbm, 59, rfl⟩
abbrev main_v43 : Ref sig .tc := ⟨.hbm, 60, rfl⟩
abbrev main_c_13 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_c_15 : Ref sig .tc := ⟨.hbm, 67, rfl⟩
abbrev main_call0_c : Ref sig .tc := ⟨.hbm, 68, rfl⟩
abbrev main_call0_v0 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_c_17 : Ref sig .tc := ⟨.hbm, 74, rfl⟩
abbrev main_call1_c : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_cst_18 : Ref sig .tc := ⟨.hbm, 79, rfl⟩
abbrev main_v53 : Ref sig .tc := ⟨.hbm, 80, rfl⟩
abbrev main_v54 : Ref sig .tc := ⟨.hbm, 81, rfl⟩
abbrev main_c_19 : Ref sig .tc := ⟨.hbm, 82, rfl⟩
abbrev main_call2_c : Ref sig .tc := ⟨.hbm, 83, rfl⟩
abbrev main_call2_v0 : Ref sig .tc := ⟨.hbm, 84, rfl⟩
abbrev main_v55 : Ref sig .tc := ⟨.hbm, 85, rfl⟩
abbrev main_v56 : Ref sig .tc := ⟨.hbm, 86, rfl⟩
abbrev main_c_20 : Ref sig .tc := ⟨.hbm, 87, rfl⟩
abbrev main_v57 : Ref sig .tc := ⟨.hbm, 88, rfl⟩
abbrev main_v58 : Ref sig .tc := ⟨.hbm, 89, rfl⟩
abbrev main_c_21 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_22 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_23 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_24 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_25 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_26 : Ref sig .tc := ⟨.hbm, 110, rfl⟩
abbrev main_c_27 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v74 : Ref sig .tc := ⟨.hbm, 117, rfl⟩
abbrev main_c_28 : Ref sig .tc := ⟨.hbm, 118, rfl⟩
abbrev main_c_29 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_v75 : Ref sig .tc := ⟨.hbm, 125, rfl⟩
abbrev main_c_30 : Ref sig .tc := ⟨.hbm, 126, rfl⟩
abbrev main_c_31 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v76 : Ref sig .tc := ⟨.hbm, 133, rfl⟩
abbrev main_c_32 : Ref sig .tc := ⟨.hbm, 134, rfl⟩
abbrev main_v77 : Ref sig .tc := ⟨.hbm, 135, rfl⟩
abbrev main_v78 : Ref sig .tc := ⟨.hbm, 136, rfl⟩
abbrev main_c_33 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_c_34 : Ref sig .tc := ⟨.hbm, 141, rfl⟩
abbrev main_v82 : Ref sig .tc := ⟨.hbm, 142, rfl⟩
abbrev main_v83 : Ref sig .tc := ⟨.hbm, 143, rfl⟩
abbrev main_c_35 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_c_36 : Ref sig .tc := ⟨.hbm, 148, rfl⟩
abbrev main_v87 : Ref sig .tc := ⟨.hbm, 149, rfl⟩
abbrev main_v88 : Ref sig .tc := ⟨.hbm, 150, rfl⟩
abbrev main_c_37 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_c_38 : Ref sig .tc := ⟨.hbm, 166, rfl⟩
abbrev main_v103 : Ref sig .tc := ⟨.hbm, 167, rfl⟩
abbrev main_v104 : Ref sig .tc := ⟨.hbm, 168, rfl⟩
abbrev main_c_39 : Ref sig .tc := ⟨.hbm, 169, rfl⟩
abbrev main_v105 : Ref sig .tc := ⟨.hbm, 170, rfl⟩
abbrev main_v106 : Ref sig .tc := ⟨.hbm, 171, rfl⟩
abbrev main_c_40 : Ref sig .tc := ⟨.hbm, 172, rfl⟩
abbrev main_v107 : Ref sig .tc := ⟨.hbm, 173, rfl⟩
abbrev main_v108 : Ref sig .tc := ⟨.hbm, 174, rfl⟩
abbrev main_cst_41 : Ref sig .tc := ⟨.hbm, 175, rfl⟩
abbrev main_v109 : Ref sig .tc := ⟨.hbm, 176, rfl⟩
abbrev main_v110 : Ref sig .tc := ⟨.hbm, 177, rfl⟩
abbrev main_c_42 : Ref sig .tc := ⟨.hbm, 178, rfl⟩
abbrev main_call6_c : Ref sig .tc := ⟨.hbm, 179, rfl⟩
abbrev main_call6_v0 : Ref sig .tc := ⟨.hbm, 180, rfl⟩
abbrev main_v111 : Ref sig .tc := ⟨.hbm, 181, rfl⟩
abbrev main_cst_43 : Ref sig .tc := ⟨.hbm, 182, rfl⟩
abbrev main_v112 : Ref sig .tc := ⟨.hbm, 183, rfl⟩
abbrev main_v113 : Ref sig .tc := ⟨.hbm, 184, rfl⟩
abbrev main_c_44 : Ref sig .tc := ⟨.hbm, 185, rfl⟩
abbrev main_call7_c : Ref sig .tc := ⟨.hbm, 186, rfl⟩
abbrev main_call7_v0 : Ref sig .tc := ⟨.hbm, 187, rfl⟩
abbrev main_v114 : Ref sig .tc := ⟨.hbm, 188, rfl⟩
abbrev main_v115 : Ref sig .tc := ⟨.hbm, 189, rfl⟩
abbrev main_cst_45 : Ref sig .tc := ⟨.hbm, 190, rfl⟩
abbrev main_v116 : Ref sig .tc := ⟨.hbm, 191, rfl⟩
abbrev main_v117 : Ref sig .tc := ⟨.hbm, 192, rfl⟩
abbrev main_c_46 : Ref sig .tc := ⟨.hbm, 193, rfl⟩
abbrev main_call8_c : Ref sig .tc := ⟨.hbm, 194, rfl⟩
abbrev main_call8_v0 : Ref sig .tc := ⟨.hbm, 195, rfl⟩
abbrev main_v118 : Ref sig .tc := ⟨.hbm, 196, rfl⟩
abbrev main_v119 : Ref sig .tc := ⟨.hbm, 197, rfl⟩
abbrev main_c_47 : Ref sig .tc := ⟨.hbm, 198, rfl⟩
abbrev main_v120 : Ref sig .tc := ⟨.hbm, 199, rfl⟩
abbrev main_v121 : Ref sig .tc := ⟨.hbm, 200, rfl⟩
abbrev main_c_48 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_c_49 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_c_50 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_c_51 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_c_52 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_c_53 : Ref sig .tc := ⟨.hbm, 221, rfl⟩
abbrev main_c_54 : Ref sig .tc := ⟨.hbm, 222, rfl⟩
abbrev main_call9_v0 : Ref sig .tc := ⟨.hbm, 223, rfl⟩
abbrev main_call9_v1 : Ref sig .tc := ⟨.hbm, 224, rfl⟩
abbrev main_call9_v2 : Ref sig .tc := ⟨.hbm, 225, rfl⟩
abbrev main_call9_v3 : Ref sig .tc := ⟨.hbm, 226, rfl⟩
abbrev main_call9_v4 : Ref sig .tc := ⟨.hbm, 227, rfl⟩
abbrev main_v137 : Ref sig .tc := ⟨.hbm, 228, rfl⟩
abbrev main_c_55 : Ref sig .tc := ⟨.hbm, 229, rfl⟩
abbrev main_c_56 : Ref sig .tc := ⟨.hbm, 230, rfl⟩
abbrev main_call10_v0 : Ref sig .tc := ⟨.hbm, 231, rfl⟩
abbrev main_call10_v1 : Ref sig .tc := ⟨.hbm, 232, rfl⟩
abbrev main_call10_v2 : Ref sig .tc := ⟨.hbm, 233, rfl⟩
abbrev main_call10_v3 : Ref sig .tc := ⟨.hbm, 234, rfl⟩
abbrev main_call10_v4 : Ref sig .tc := ⟨.hbm, 235, rfl⟩
abbrev main_v138 : Ref sig .tc := ⟨.hbm, 236, rfl⟩
abbrev main_c_57 : Ref sig .tc := ⟨.hbm, 237, rfl⟩
abbrev main_c_58 : Ref sig .tc := ⟨.hbm, 238, rfl⟩
abbrev main_call11_v0 : Ref sig .tc := ⟨.hbm, 239, rfl⟩
abbrev main_call11_v1 : Ref sig .tc := ⟨.hbm, 240, rfl⟩
abbrev main_call11_v2 : Ref sig .tc := ⟨.hbm, 241, rfl⟩
abbrev main_call11_v3 : Ref sig .tc := ⟨.hbm, 242, rfl⟩
abbrev main_call11_v4 : Ref sig .tc := ⟨.hbm, 243, rfl⟩
abbrev main_v139 : Ref sig .tc := ⟨.hbm, 244, rfl⟩
abbrev main_c_59 : Ref sig .tc := ⟨.hbm, 245, rfl⟩
abbrev main_v140 : Ref sig .tc := ⟨.hbm, 246, rfl⟩
abbrev main_v141 : Ref sig .tc := ⟨.hbm, 247, rfl⟩
abbrev main_c_60 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_c_61 : Ref sig .tc := ⟨.hbm, 252, rfl⟩
abbrev main_v145 : Ref sig .tc := ⟨.hbm, 253, rfl⟩
abbrev main_v146 : Ref sig .tc := ⟨.hbm, 254, rfl⟩
abbrev main_c_62 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_c_63 : Ref sig .tc := ⟨.hbm, 259, rfl⟩
abbrev main_v150 : Ref sig .tc := ⟨.hbm, 260, rfl⟩
abbrev main_v151 : Ref sig .tc := ⟨.hbm, 261, rfl⟩
abbrev main_c_64 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_v157 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_c_65 : Ref sig .tc := ⟨.hbm, 277, rfl⟩
abbrev main_v166 : Ref sig .tc := ⟨.hbm, 278, rfl⟩
abbrev main_v167 : Ref sig .tc := ⟨.hbm, 279, rfl⟩
abbrev main_c_66 : Ref sig .tc := ⟨.hbm, 280, rfl⟩
abbrev main_v168 : Ref sig .tc := ⟨.hbm, 281, rfl⟩
abbrev main_v169 : Ref sig .tc := ⟨.hbm, 282, rfl⟩
abbrev main_c_67 : Ref sig .tc := ⟨.hbm, 283, rfl⟩
abbrev main_v170 : Ref sig .tc := ⟨.hbm, 284, rfl⟩
abbrev main_v171 : Ref sig .tc := ⟨.hbm, 285, rfl⟩
abbrev main_cst_68 : Ref sig .tc := ⟨.hbm, 286, rfl⟩
abbrev main_v172 : Ref sig .tc := ⟨.hbm, 287, rfl⟩
abbrev main_v173 : Ref sig .tc := ⟨.hbm, 288, rfl⟩
abbrev main_c_69 : Ref sig .tc := ⟨.hbm, 289, rfl⟩
abbrev main_call12_c : Ref sig .tc := ⟨.hbm, 290, rfl⟩
abbrev main_call12_v0 : Ref sig .tc := ⟨.hbm, 291, rfl⟩
abbrev main_v174 : Ref sig .tc := ⟨.hbm, 292, rfl⟩
abbrev main_cst_70 : Ref sig .tc := ⟨.hbm, 293, rfl⟩
abbrev main_v175 : Ref sig .tc := ⟨.hbm, 294, rfl⟩
abbrev main_v176 : Ref sig .tc := ⟨.hbm, 295, rfl⟩
abbrev main_c_71 : Ref sig .tc := ⟨.hbm, 296, rfl⟩
abbrev main_call13_c : Ref sig .tc := ⟨.hbm, 297, rfl⟩
abbrev main_call13_v0 : Ref sig .tc := ⟨.hbm, 298, rfl⟩
abbrev main_v177 : Ref sig .tc := ⟨.hbm, 299, rfl⟩
abbrev main_v178 : Ref sig .tc := ⟨.hbm, 300, rfl⟩
abbrev main_cst_72 : Ref sig .tc := ⟨.hbm, 301, rfl⟩
abbrev main_v179 : Ref sig .tc := ⟨.hbm, 302, rfl⟩
abbrev main_v180 : Ref sig .tc := ⟨.hbm, 303, rfl⟩
abbrev main_c_73 : Ref sig .tc := ⟨.hbm, 304, rfl⟩
abbrev main_call14_c : Ref sig .tc := ⟨.hbm, 305, rfl⟩
abbrev main_call14_v0 : Ref sig .tc := ⟨.hbm, 306, rfl⟩
abbrev main_v181 : Ref sig .tc := ⟨.hbm, 307, rfl⟩
abbrev main_v182 : Ref sig .tc := ⟨.hbm, 308, rfl⟩
abbrev main_c_74 : Ref sig .tc := ⟨.hbm, 309, rfl⟩
abbrev main_v183 : Ref sig .tc := ⟨.hbm, 310, rfl⟩
abbrev main_v184 : Ref sig .tc := ⟨.hbm, 311, rfl⟩
abbrev main_c_75 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_c_76 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_c_77 : Ref sig .tc := ⟨.hbm, 320, rfl⟩
abbrev main_v191 : Ref sig .tc := ⟨.hbm, 321, rfl⟩
abbrev main_v192 : Ref sig .tc := ⟨.hbm, 322, rfl⟩
abbrev main_v193 : Ref sig .tc := ⟨.hbm, 323, rfl⟩
abbrev main_c_78 : Ref sig .tc := ⟨.hbm, 324, rfl⟩
abbrev main_v194 : Ref sig .tc := ⟨.hbm, 325, rfl⟩
abbrev main_v195 : Ref sig .tc := ⟨.hbm, 326, rfl⟩
abbrev main_v196 : Ref sig .tc := ⟨.hbm, 327, rfl⟩
abbrev main_c_79 : Ref sig .tc := ⟨.hbm, 328, rfl⟩
abbrev main_v197 : Ref sig .tc := ⟨.hbm, 329, rfl⟩
abbrev main_v198 : Ref sig .tc := ⟨.hbm, 330, rfl⟩
abbrev main_v199 : Ref sig .tc := ⟨.hbm, 331, rfl⟩
abbrev main_c_80 : Ref sig .tc := ⟨.hbm, 332, rfl⟩
abbrev main_c_81 : Ref sig .tc := ⟨.hbm, 333, rfl⟩
abbrev main_call15_v0 : Ref sig .tc := ⟨.hbm, 334, rfl⟩
abbrev main_call15_v1 : Ref sig .tc := ⟨.hbm, 335, rfl⟩
abbrev main_call15_v2 : Ref sig .tc := ⟨.hbm, 336, rfl⟩
abbrev main_call15_v3 : Ref sig .tc := ⟨.hbm, 337, rfl⟩
abbrev main_call15_v4 : Ref sig .tc := ⟨.hbm, 338, rfl⟩
abbrev main_v200 : Ref sig .tc := ⟨.hbm, 339, rfl⟩
abbrev main_c_82 : Ref sig .tc := ⟨.hbm, 340, rfl⟩
abbrev main_c_83 : Ref sig .tc := ⟨.hbm, 341, rfl⟩
abbrev main_call16_v0 : Ref sig .tc := ⟨.hbm, 342, rfl⟩
abbrev main_call16_v1 : Ref sig .tc := ⟨.hbm, 343, rfl⟩
abbrev main_call16_v2 : Ref sig .tc := ⟨.hbm, 344, rfl⟩
abbrev main_call16_v3 : Ref sig .tc := ⟨.hbm, 345, rfl⟩
abbrev main_call16_v4 : Ref sig .tc := ⟨.hbm, 346, rfl⟩
abbrev main_v201 : Ref sig .tc := ⟨.hbm, 347, rfl⟩
abbrev main_c_84 : Ref sig .tc := ⟨.hbm, 348, rfl⟩
abbrev main_c_85 : Ref sig .tc := ⟨.hbm, 349, rfl⟩
abbrev main_call17_v0 : Ref sig .tc := ⟨.hbm, 350, rfl⟩
abbrev main_call17_v1 : Ref sig .tc := ⟨.hbm, 351, rfl⟩
abbrev main_call17_v2 : Ref sig .tc := ⟨.hbm, 352, rfl⟩
abbrev main_call17_v3 : Ref sig .tc := ⟨.hbm, 353, rfl⟩
abbrev main_call17_v4 : Ref sig .tc := ⟨.hbm, 354, rfl⟩
abbrev main_v202 : Ref sig .tc := ⟨.hbm, 355, rfl⟩
abbrev main_c_86 : Ref sig .tc := ⟨.hbm, 356, rfl⟩
abbrev main_v203 : Ref sig .tc := ⟨.hbm, 357, rfl⟩
abbrev main_v204 : Ref sig .tc := ⟨.hbm, 358, rfl⟩
abbrev main_c_87 : Ref sig .tc := ⟨.hbm, 359, rfl⟩
abbrev main_v205 : Ref sig .tc := ⟨.hbm, 360, rfl⟩
abbrev main_v206 : Ref sig .tc := ⟨.hbm, 361, rfl⟩
abbrev main_v207 : Ref sig .tc := ⟨.hbm, 362, rfl⟩
abbrev main_c_88 : Ref sig .tc := ⟨.hbm, 363, rfl⟩
abbrev main_v208 : Ref sig .tc := ⟨.hbm, 364, rfl⟩
abbrev main_v209 : Ref sig .tc := ⟨.hbm, 365, rfl⟩
abbrev main_c_89 : Ref sig .tc := ⟨.hbm, 366, rfl⟩
abbrev main_v210 : Ref sig .tc := ⟨.hbm, 367, rfl⟩
abbrev main_v211 : Ref sig .tc := ⟨.hbm, 368, rfl⟩
abbrev main_v212 : Ref sig .tc := ⟨.hbm, 369, rfl⟩
abbrev main_c_90 : Ref sig .tc := ⟨.hbm, 370, rfl⟩
abbrev main_v213 : Ref sig .tc := ⟨.hbm, 371, rfl⟩
abbrev main_v214 : Ref sig .tc := ⟨.hbm, 372, rfl⟩
abbrev main_c_91 : Ref sig .tc := ⟨.hbm, 373, rfl⟩
abbrev main_v215 : Ref sig .tc := ⟨.hbm, 374, rfl⟩
abbrev main_v216 : Ref sig .tc := ⟨.hbm, 375, rfl⟩
abbrev main_v217 : Ref sig .tc := ⟨.hbm, 376, rfl⟩
abbrev main_v218 : Ref sig .tc := ⟨.hbm, 377, rfl⟩
abbrev main_v219 : Ref sig .tc := ⟨.hbm, 378, rfl⟩
abbrev main_v220 : Ref sig .tc := ⟨.hbm, 379, rfl⟩
abbrev main_v221 : Ref sig .tc := ⟨.hbm, 380, rfl⟩
abbrev main_v222 : Ref sig .tc := ⟨.hbm, 381, rfl⟩
abbrev main_v223 : Ref sig .tc := ⟨.hbm, 382, rfl⟩
abbrev main_v224 : Ref sig .tc := ⟨.hbm, 383, rfl⟩
abbrev main_v225 : Ref sig .tc := ⟨.hbm, 384, rfl⟩
abbrev main_v226 : Ref sig .tc := ⟨.hbm, 385, rfl⟩
abbrev main_v227 : Ref sig .tc := ⟨.hbm, 386, rfl⟩
abbrev main_v228 : Ref sig .tc := ⟨.hbm, 387, rfl⟩
abbrev main_c_92 : Ref sig .tc := ⟨.hbm, 388, rfl⟩
abbrev main_v229 : Ref sig .tc := ⟨.hbm, 389, rfl⟩
abbrev main_v230 : Ref sig .tc := ⟨.hbm, 390, rfl⟩
abbrev main_c_93 : Ref sig .tc := ⟨.hbm, 391, rfl⟩
abbrev main_v231 : Ref sig .tc := ⟨.hbm, 392, rfl⟩
abbrev main_v232 : Ref sig .tc := ⟨.hbm, 393, rfl⟩
abbrev main_c_94 : Ref sig .tc := ⟨.hbm, 394, rfl⟩
abbrev main_v233 : Ref sig .tc := ⟨.hbm, 395, rfl⟩
abbrev main_v234 : Ref sig .tc := ⟨.hbm, 396, rfl⟩
abbrev main_cst_95 : Ref sig .tc := ⟨.hbm, 397, rfl⟩
abbrev main_v235 : Ref sig .tc := ⟨.hbm, 398, rfl⟩
abbrev main_v236 : Ref sig .tc := ⟨.hbm, 399, rfl⟩
abbrev main_c_96 : Ref sig .tc := ⟨.hbm, 400, rfl⟩
abbrev main_call18_c : Ref sig .tc := ⟨.hbm, 401, rfl⟩
abbrev main_call18_v0 : Ref sig .tc := ⟨.hbm, 402, rfl⟩
abbrev main_v237 : Ref sig .tc := ⟨.hbm, 403, rfl⟩
abbrev main_cst_97 : Ref sig .tc := ⟨.hbm, 404, rfl⟩
abbrev main_v238 : Ref sig .tc := ⟨.hbm, 405, rfl⟩
abbrev main_v239 : Ref sig .tc := ⟨.hbm, 406, rfl⟩
abbrev main_c_98 : Ref sig .tc := ⟨.hbm, 407, rfl⟩
abbrev main_call19_c : Ref sig .tc := ⟨.hbm, 408, rfl⟩
abbrev main_call19_v0 : Ref sig .tc := ⟨.hbm, 409, rfl⟩
abbrev main_v240 : Ref sig .tc := ⟨.hbm, 410, rfl⟩
abbrev main_v241 : Ref sig .tc := ⟨.hbm, 411, rfl⟩
abbrev main_cst_99 : Ref sig .tc := ⟨.hbm, 412, rfl⟩
abbrev main_v242 : Ref sig .tc := ⟨.hbm, 413, rfl⟩
abbrev main_v243 : Ref sig .tc := ⟨.hbm, 414, rfl⟩
abbrev main_c_100 : Ref sig .tc := ⟨.hbm, 415, rfl⟩
abbrev main_call20_c : Ref sig .tc := ⟨.hbm, 416, rfl⟩
abbrev main_call20_v0 : Ref sig .tc := ⟨.hbm, 417, rfl⟩
abbrev main_v244 : Ref sig .tc := ⟨.hbm, 418, rfl⟩
abbrev main_v245 : Ref sig .tc := ⟨.hbm, 419, rfl⟩
abbrev main_c_101 : Ref sig .tc := ⟨.hbm, 420, rfl⟩
abbrev main_v246 : Ref sig .tc := ⟨.hbm, 421, rfl⟩
abbrev main_v247 : Ref sig .tc := ⟨.hbm, 422, rfl⟩
abbrev main_c_102 : Ref sig .tc := ⟨.hbm, 423, rfl⟩
abbrev main_v248 : Ref sig .tc := ⟨.hbm, 424, rfl⟩
abbrev main_v249 : Ref sig .tc := ⟨.hbm, 425, rfl⟩
abbrev main_v250 : Ref sig .tc := ⟨.hbm, 426, rfl⟩
abbrev main_c_103 : Ref sig .tc := ⟨.hbm, 427, rfl⟩
abbrev main_v251 : Ref sig .tc := ⟨.hbm, 428, rfl⟩
abbrev main_v252 : Ref sig .tc := ⟨.hbm, 429, rfl⟩
abbrev main_v253 : Ref sig .tc := ⟨.hbm, 430, rfl⟩
abbrev main_c_104 : Ref sig .tc := ⟨.hbm, 431, rfl⟩
abbrev main_v254 : Ref sig .tc := ⟨.hbm, 432, rfl⟩
abbrev main_v255 : Ref sig .tc := ⟨.hbm, 433, rfl⟩
abbrev main_v256 : Ref sig .tc := ⟨.hbm, 434, rfl⟩
abbrev main_c_105 : Ref sig .tc := ⟨.hbm, 435, rfl⟩
abbrev main_v257 : Ref sig .tc := ⟨.hbm, 436, rfl⟩
abbrev main_v258 : Ref sig .tc := ⟨.hbm, 437, rfl⟩
abbrev main_v259 : Ref sig .tc := ⟨.hbm, 438, rfl⟩
abbrev main_c_106 : Ref sig .tc := ⟨.hbm, 439, rfl⟩
abbrev main_v260 : Ref sig .tc := ⟨.hbm, 440, rfl⟩
abbrev main_v261 : Ref sig .tc := ⟨.hbm, 441, rfl⟩
abbrev main_v262 : Ref sig .tc := ⟨.hbm, 442, rfl⟩
abbrev main_c_107 : Ref sig .tc := ⟨.hbm, 443, rfl⟩
abbrev main_c_108 : Ref sig .tc := ⟨.hbm, 444, rfl⟩
abbrev main_call21_v0 : Ref sig .tc := ⟨.hbm, 445, rfl⟩
abbrev main_call21_v1 : Ref sig .tc := ⟨.hbm, 446, rfl⟩
abbrev main_call21_v2 : Ref sig .tc := ⟨.hbm, 447, rfl⟩
abbrev main_call21_v3 : Ref sig .tc := ⟨.hbm, 448, rfl⟩
abbrev main_call21_v4 : Ref sig .tc := ⟨.hbm, 449, rfl⟩
abbrev main_v263 : Ref sig .tc := ⟨.hbm, 450, rfl⟩
abbrev main_c_109 : Ref sig .tc := ⟨.hbm, 451, rfl⟩
abbrev main_c_110 : Ref sig .tc := ⟨.hbm, 452, rfl⟩
abbrev main_call22_v0 : Ref sig .tc := ⟨.hbm, 453, rfl⟩
abbrev main_call22_v1 : Ref sig .tc := ⟨.hbm, 454, rfl⟩
abbrev main_call22_v2 : Ref sig .tc := ⟨.hbm, 455, rfl⟩
abbrev main_call22_v3 : Ref sig .tc := ⟨.hbm, 456, rfl⟩
abbrev main_call22_v4 : Ref sig .tc := ⟨.hbm, 457, rfl⟩
abbrev main_v264 : Ref sig .tc := ⟨.hbm, 458, rfl⟩
abbrev main_c_111 : Ref sig .tc := ⟨.hbm, 459, rfl⟩
abbrev main_c_112 : Ref sig .tc := ⟨.hbm, 460, rfl⟩
abbrev main_call23_v0 : Ref sig .tc := ⟨.hbm, 461, rfl⟩
abbrev main_call23_v1 : Ref sig .tc := ⟨.hbm, 462, rfl⟩
abbrev main_call23_v2 : Ref sig .tc := ⟨.hbm, 463, rfl⟩
abbrev main_call23_v3 : Ref sig .tc := ⟨.hbm, 464, rfl⟩
abbrev main_call23_v4 : Ref sig .tc := ⟨.hbm, 465, rfl⟩
abbrev main_v265 : Ref sig .tc := ⟨.hbm, 466, rfl⟩
abbrev main_c_113 : Ref sig .tc := ⟨.hbm, 467, rfl⟩
abbrev main_v266 : Ref sig .tc := ⟨.hbm, 468, rfl⟩
abbrev main_v267 : Ref sig .tc := ⟨.hbm, 469, rfl⟩
abbrev main_c_114 : Ref sig .tc := ⟨.hbm, 470, rfl⟩
abbrev main_v268 : Ref sig .tc := ⟨.hbm, 471, rfl⟩
abbrev main_v269 : Ref sig .tc := ⟨.hbm, 472, rfl⟩
abbrev main_v270 : Ref sig .tc := ⟨.hbm, 473, rfl⟩
abbrev main_c_115 : Ref sig .tc := ⟨.hbm, 474, rfl⟩
abbrev main_v271 : Ref sig .tc := ⟨.hbm, 475, rfl⟩
abbrev main_v272 : Ref sig .tc := ⟨.hbm, 476, rfl⟩
abbrev main_c_116 : Ref sig .tc := ⟨.hbm, 477, rfl⟩
abbrev main_v273 : Ref sig .tc := ⟨.hbm, 478, rfl⟩
abbrev main_v274 : Ref sig .tc := ⟨.hbm, 479, rfl⟩
abbrev main_v275 : Ref sig .tc := ⟨.hbm, 480, rfl⟩
abbrev main_c_117 : Ref sig .tc := ⟨.hbm, 481, rfl⟩
abbrev main_v276 : Ref sig .tc := ⟨.hbm, 482, rfl⟩
abbrev main_v277 : Ref sig .tc := ⟨.hbm, 483, rfl⟩
abbrev main_c_118 : Ref sig .tc := ⟨.hbm, 484, rfl⟩
abbrev main_v278 : Ref sig .tc := ⟨.hbm, 485, rfl⟩
abbrev main_v279 : Ref sig .tc := ⟨.hbm, 486, rfl⟩
abbrev main_v280 : Ref sig .tc := ⟨.hbm, 487, rfl⟩
abbrev main_v281 : Ref sig .tc := ⟨.hbm, 488, rfl⟩
abbrev main_v282 : Ref sig .tc := ⟨.hbm, 489, rfl⟩
abbrev main_v283 : Ref sig .tc := ⟨.hbm, 490, rfl⟩
abbrev main_v284 : Ref sig .tc := ⟨.hbm, 491, rfl⟩
abbrev main_v285 : Ref sig .tc := ⟨.hbm, 492, rfl⟩
abbrev main_v286 : Ref sig .tc := ⟨.hbm, 493, rfl⟩
abbrev main_v287 : Ref sig .tc := ⟨.hbm, 494, rfl⟩
abbrev main_v288 : Ref sig .tc := ⟨.hbm, 495, rfl⟩
abbrev main_v289 : Ref sig .tc := ⟨.hbm, 496, rfl⟩
abbrev main_v290 : Ref sig .tc := ⟨.hbm, 497, rfl⟩
abbrev main_v291 : Ref sig .tc := ⟨.hbm, 498, rfl⟩
abbrev main_c_119 : Ref sig .tc := ⟨.hbm, 499, rfl⟩
abbrev main_v292 : Ref sig .tc := ⟨.hbm, 500, rfl⟩
abbrev main_v293 : Ref sig .tc := ⟨.hbm, 501, rfl⟩
abbrev main_c_120 : Ref sig .tc := ⟨.hbm, 502, rfl⟩
abbrev main_v294 : Ref sig .tc := ⟨.hbm, 503, rfl⟩
abbrev main_v295 : Ref sig .tc := ⟨.hbm, 504, rfl⟩
abbrev main_c_121 : Ref sig .tc := ⟨.hbm, 505, rfl⟩
abbrev main_v296 : Ref sig .tc := ⟨.hbm, 506, rfl⟩
abbrev main_v297 : Ref sig .tc := ⟨.hbm, 507, rfl⟩
abbrev main_cst_122 : Ref sig .tc := ⟨.hbm, 508, rfl⟩
abbrev main_v298 : Ref sig .tc := ⟨.hbm, 509, rfl⟩
abbrev main_v299 : Ref sig .tc := ⟨.hbm, 510, rfl⟩
abbrev main_c_123 : Ref sig .tc := ⟨.hbm, 511, rfl⟩
abbrev main_call24_c : Ref sig .tc := ⟨.hbm, 512, rfl⟩
abbrev main_call24_v0 : Ref sig .tc := ⟨.hbm, 513, rfl⟩
abbrev main_v300 : Ref sig .tc := ⟨.hbm, 514, rfl⟩
abbrev main_cst_124 : Ref sig .tc := ⟨.hbm, 515, rfl⟩
abbrev main_v301 : Ref sig .tc := ⟨.hbm, 516, rfl⟩
abbrev main_v302 : Ref sig .tc := ⟨.hbm, 517, rfl⟩
abbrev main_c_125 : Ref sig .tc := ⟨.hbm, 518, rfl⟩
abbrev main_call25_c : Ref sig .tc := ⟨.hbm, 519, rfl⟩
abbrev main_call25_v0 : Ref sig .tc := ⟨.hbm, 520, rfl⟩
abbrev main_v303 : Ref sig .tc := ⟨.hbm, 521, rfl⟩
abbrev main_v304 : Ref sig .tc := ⟨.hbm, 522, rfl⟩
abbrev main_cst_126 : Ref sig .tc := ⟨.hbm, 523, rfl⟩
abbrev main_v305 : Ref sig .tc := ⟨.hbm, 524, rfl⟩
abbrev main_v306 : Ref sig .tc := ⟨.hbm, 525, rfl⟩
abbrev main_c_127 : Ref sig .tc := ⟨.hbm, 526, rfl⟩
abbrev main_call26_c : Ref sig .tc := ⟨.hbm, 527, rfl⟩
abbrev main_call26_v0 : Ref sig .tc := ⟨.hbm, 528, rfl⟩
abbrev main_v307 : Ref sig .tc := ⟨.hbm, 529, rfl⟩
abbrev main_v308 : Ref sig .tc := ⟨.hbm, 530, rfl⟩
abbrev main_c_128 : Ref sig .tc := ⟨.hbm, 531, rfl⟩
abbrev main_v309 : Ref sig .tc := ⟨.hbm, 532, rfl⟩
abbrev main_v310 : Ref sig .tc := ⟨.hbm, 533, rfl⟩
abbrev main_c_129 : Ref sig .tc := ⟨.hbm, 534, rfl⟩
abbrev main_v311 : Ref sig .tc := ⟨.hbm, 535, rfl⟩
abbrev main_v312 : Ref sig .tc := ⟨.hbm, 536, rfl⟩
abbrev main_v313 : Ref sig .tc := ⟨.hbm, 537, rfl⟩
abbrev main_c_130 : Ref sig .tc := ⟨.hbm, 538, rfl⟩
abbrev main_v314 : Ref sig .tc := ⟨.hbm, 539, rfl⟩
abbrev main_v315 : Ref sig .tc := ⟨.hbm, 540, rfl⟩
abbrev main_v316 : Ref sig .tc := ⟨.hbm, 541, rfl⟩
abbrev main_c_131 : Ref sig .tc := ⟨.hbm, 542, rfl⟩
abbrev main_v317 : Ref sig .tc := ⟨.hbm, 543, rfl⟩
abbrev main_v318 : Ref sig .tc := ⟨.hbm, 544, rfl⟩
abbrev main_v319 : Ref sig .tc := ⟨.hbm, 545, rfl⟩
abbrev main_c_132 : Ref sig .tc := ⟨.hbm, 546, rfl⟩
abbrev main_v320 : Ref sig .tc := ⟨.hbm, 547, rfl⟩
abbrev main_v321 : Ref sig .tc := ⟨.hbm, 548, rfl⟩
abbrev main_v322 : Ref sig .tc := ⟨.hbm, 549, rfl⟩
abbrev main_c_133 : Ref sig .tc := ⟨.hbm, 550, rfl⟩
abbrev main_v323 : Ref sig .tc := ⟨.hbm, 551, rfl⟩
abbrev main_v324 : Ref sig .tc := ⟨.hbm, 552, rfl⟩
abbrev main_v325 : Ref sig .tc := ⟨.hbm, 553, rfl⟩
abbrev main_c_134 : Ref sig .tc := ⟨.hbm, 554, rfl⟩
abbrev main_c_135 : Ref sig .tc := ⟨.hbm, 555, rfl⟩
abbrev main_call27_v0 : Ref sig .tc := ⟨.hbm, 556, rfl⟩
abbrev main_call27_v1 : Ref sig .tc := ⟨.hbm, 557, rfl⟩
abbrev main_call27_v2 : Ref sig .tc := ⟨.hbm, 558, rfl⟩
abbrev main_call27_v3 : Ref sig .tc := ⟨.hbm, 559, rfl⟩
abbrev main_call27_v4 : Ref sig .tc := ⟨.hbm, 560, rfl⟩
abbrev main_v326 : Ref sig .tc := ⟨.hbm, 561, rfl⟩
abbrev main_c_136 : Ref sig .tc := ⟨.hbm, 562, rfl⟩
abbrev main_c_137 : Ref sig .tc := ⟨.hbm, 563, rfl⟩
abbrev main_call28_v0 : Ref sig .tc := ⟨.hbm, 564, rfl⟩
abbrev main_call28_v1 : Ref sig .tc := ⟨.hbm, 565, rfl⟩
abbrev main_call28_v2 : Ref sig .tc := ⟨.hbm, 566, rfl⟩
abbrev main_call28_v3 : Ref sig .tc := ⟨.hbm, 567, rfl⟩
abbrev main_call28_v4 : Ref sig .tc := ⟨.hbm, 568, rfl⟩
abbrev main_v327 : Ref sig .tc := ⟨.hbm, 569, rfl⟩
abbrev main_c_138 : Ref sig .tc := ⟨.hbm, 570, rfl⟩
abbrev main_c_139 : Ref sig .tc := ⟨.hbm, 571, rfl⟩
abbrev main_call29_v0 : Ref sig .tc := ⟨.hbm, 572, rfl⟩
abbrev main_call29_v1 : Ref sig .tc := ⟨.hbm, 573, rfl⟩
abbrev main_call29_v2 : Ref sig .tc := ⟨.hbm, 574, rfl⟩
abbrev main_call29_v3 : Ref sig .tc := ⟨.hbm, 575, rfl⟩
abbrev main_call29_v4 : Ref sig .tc := ⟨.hbm, 576, rfl⟩
abbrev main_v328 : Ref sig .tc := ⟨.hbm, 577, rfl⟩
abbrev main_c_140 : Ref sig .tc := ⟨.hbm, 578, rfl⟩
abbrev main_v329 : Ref sig .tc := ⟨.hbm, 579, rfl⟩
abbrev main_v330 : Ref sig .tc := ⟨.hbm, 580, rfl⟩
abbrev main_c_141 : Ref sig .tc := ⟨.hbm, 581, rfl⟩
abbrev main_v331 : Ref sig .tc := ⟨.hbm, 582, rfl⟩
abbrev main_v332 : Ref sig .tc := ⟨.hbm, 583, rfl⟩
abbrev main_v333 : Ref sig .tc := ⟨.hbm, 584, rfl⟩
abbrev main_c_142 : Ref sig .tc := ⟨.hbm, 585, rfl⟩
abbrev main_v334 : Ref sig .tc := ⟨.hbm, 586, rfl⟩
abbrev main_v335 : Ref sig .tc := ⟨.hbm, 587, rfl⟩
abbrev main_c_143 : Ref sig .tc := ⟨.hbm, 588, rfl⟩
abbrev main_v336 : Ref sig .tc := ⟨.hbm, 589, rfl⟩
abbrev main_v337 : Ref sig .tc := ⟨.hbm, 590, rfl⟩
abbrev main_v338 : Ref sig .tc := ⟨.hbm, 591, rfl⟩
abbrev main_c_144 : Ref sig .tc := ⟨.hbm, 592, rfl⟩
abbrev main_v339 : Ref sig .tc := ⟨.hbm, 593, rfl⟩
abbrev main_v340 : Ref sig .tc := ⟨.hbm, 594, rfl⟩
abbrev main_c_145 : Ref sig .tc := ⟨.hbm, 595, rfl⟩
abbrev main_v341 : Ref sig .tc := ⟨.hbm, 596, rfl⟩
abbrev main_v342 : Ref sig .tc := ⟨.hbm, 597, rfl⟩
abbrev main_v343 : Ref sig .tc := ⟨.hbm, 598, rfl⟩
abbrev main_v344 : Ref sig .tc := ⟨.hbm, 599, rfl⟩
abbrev main_v345 : Ref sig .tc := ⟨.hbm, 600, rfl⟩
abbrev main_v346 : Ref sig .tc := ⟨.hbm, 601, rfl⟩
abbrev main_v347 : Ref sig .tc := ⟨.hbm, 602, rfl⟩
abbrev main_v348 : Ref sig .tc := ⟨.hbm, 603, rfl⟩
abbrev main_v349 : Ref sig .tc := ⟨.hbm, 604, rfl⟩
abbrev main_v350 : Ref sig .tc := ⟨.hbm, 605, rfl⟩
abbrev main_v351 : Ref sig .tc := ⟨.hbm, 606, rfl⟩
abbrev main_v352 : Ref sig .tc := ⟨.hbm, 607, rfl⟩
abbrev main_v353 : Ref sig .tc := ⟨.hbm, 608, rfl⟩
abbrev main_v354 : Ref sig .tc := ⟨.hbm, 609, rfl⟩
abbrev main_c_146 : Ref sig .tc := ⟨.hbm, 610, rfl⟩
abbrev main_v355 : Ref sig .tc := ⟨.hbm, 611, rfl⟩
abbrev main_v356 : Ref sig .tc := ⟨.hbm, 612, rfl⟩
abbrev main_c_147 : Ref sig .tc := ⟨.hbm, 613, rfl⟩
abbrev main_v357 : Ref sig .tc := ⟨.hbm, 614, rfl⟩
abbrev main_v358 : Ref sig .tc := ⟨.hbm, 615, rfl⟩
abbrev main_c_148 : Ref sig .tc := ⟨.hbm, 616, rfl⟩
abbrev main_v359 : Ref sig .tc := ⟨.hbm, 617, rfl⟩
abbrev main_v360 : Ref sig .tc := ⟨.hbm, 618, rfl⟩
abbrev main_cst_149 : Ref sig .tc := ⟨.hbm, 619, rfl⟩
abbrev main_v361 : Ref sig .tc := ⟨.hbm, 620, rfl⟩
abbrev main_v362 : Ref sig .tc := ⟨.hbm, 621, rfl⟩
abbrev main_c_150 : Ref sig .tc := ⟨.hbm, 622, rfl⟩
abbrev main_call30_c : Ref sig .tc := ⟨.hbm, 623, rfl⟩
abbrev main_call30_v0 : Ref sig .tc := ⟨.hbm, 624, rfl⟩
abbrev main_v363 : Ref sig .tc := ⟨.hbm, 625, rfl⟩
abbrev main_cst_151 : Ref sig .tc := ⟨.hbm, 626, rfl⟩
abbrev main_v364 : Ref sig .tc := ⟨.hbm, 627, rfl⟩
abbrev main_v365 : Ref sig .tc := ⟨.hbm, 628, rfl⟩
abbrev main_c_152 : Ref sig .tc := ⟨.hbm, 629, rfl⟩
abbrev main_call31_c : Ref sig .tc := ⟨.hbm, 630, rfl⟩
abbrev main_call31_v0 : Ref sig .tc := ⟨.hbm, 631, rfl⟩
abbrev main_v366 : Ref sig .tc := ⟨.hbm, 632, rfl⟩
abbrev main_v367 : Ref sig .tc := ⟨.hbm, 633, rfl⟩
abbrev main_cst_153 : Ref sig .tc := ⟨.hbm, 634, rfl⟩
abbrev main_v368 : Ref sig .tc := ⟨.hbm, 635, rfl⟩
abbrev main_v369 : Ref sig .tc := ⟨.hbm, 636, rfl⟩
abbrev main_c_154 : Ref sig .tc := ⟨.hbm, 637, rfl⟩
abbrev main_call32_c : Ref sig .tc := ⟨.hbm, 638, rfl⟩
abbrev main_call32_v0 : Ref sig .tc := ⟨.hbm, 639, rfl⟩
abbrev main_v370 : Ref sig .tc := ⟨.hbm, 640, rfl⟩
abbrev main_v371 : Ref sig .tc := ⟨.hbm, 641, rfl⟩
abbrev main_c_155 : Ref sig .tc := ⟨.hbm, 642, rfl⟩
abbrev main_v372 : Ref sig .tc := ⟨.hbm, 643, rfl⟩
abbrev main_v373 : Ref sig .tc := ⟨.hbm, 644, rfl⟩
abbrev main_c_156 : Ref sig .tc := ⟨.hbm, 645, rfl⟩
abbrev main_v374 : Ref sig .tc := ⟨.hbm, 646, rfl⟩
abbrev main_v375 : Ref sig .tc := ⟨.hbm, 647, rfl⟩
abbrev main_v376 : Ref sig .tc := ⟨.hbm, 648, rfl⟩
abbrev main_c_157 : Ref sig .tc := ⟨.hbm, 649, rfl⟩
abbrev main_v377 : Ref sig .tc := ⟨.hbm, 650, rfl⟩
abbrev main_v378 : Ref sig .tc := ⟨.hbm, 651, rfl⟩
abbrev main_v379 : Ref sig .tc := ⟨.hbm, 652, rfl⟩
abbrev main_c_158 : Ref sig .tc := ⟨.hbm, 653, rfl⟩
abbrev main_v380 : Ref sig .tc := ⟨.hbm, 654, rfl⟩
abbrev main_v381 : Ref sig .tc := ⟨.hbm, 655, rfl⟩
abbrev main_v382 : Ref sig .tc := ⟨.hbm, 656, rfl⟩
abbrev main_c_159 : Ref sig .tc := ⟨.hbm, 657, rfl⟩
abbrev main_v383 : Ref sig .tc := ⟨.hbm, 658, rfl⟩
abbrev main_v384 : Ref sig .tc := ⟨.hbm, 659, rfl⟩
abbrev main_v385 : Ref sig .tc := ⟨.hbm, 660, rfl⟩
abbrev main_c_160 : Ref sig .tc := ⟨.hbm, 661, rfl⟩
abbrev main_v386 : Ref sig .tc := ⟨.hbm, 662, rfl⟩
abbrev main_v387 : Ref sig .tc := ⟨.hbm, 663, rfl⟩
abbrev main_v388 : Ref sig .tc := ⟨.hbm, 664, rfl⟩
abbrev main_c_161 : Ref sig .tc := ⟨.hbm, 665, rfl⟩
abbrev main_c_162 : Ref sig .tc := ⟨.hbm, 666, rfl⟩
abbrev main_call33_v0 : Ref sig .tc := ⟨.hbm, 667, rfl⟩
abbrev main_call33_v1 : Ref sig .tc := ⟨.hbm, 668, rfl⟩
abbrev main_call33_v2 : Ref sig .tc := ⟨.hbm, 669, rfl⟩
abbrev main_call33_v3 : Ref sig .tc := ⟨.hbm, 670, rfl⟩
abbrev main_call33_v4 : Ref sig .tc := ⟨.hbm, 671, rfl⟩
abbrev main_v389 : Ref sig .tc := ⟨.hbm, 672, rfl⟩
abbrev main_c_163 : Ref sig .tc := ⟨.hbm, 673, rfl⟩
abbrev main_c_164 : Ref sig .tc := ⟨.hbm, 674, rfl⟩
abbrev main_call34_v0 : Ref sig .tc := ⟨.hbm, 675, rfl⟩
abbrev main_call34_v1 : Ref sig .tc := ⟨.hbm, 676, rfl⟩
abbrev main_call34_v2 : Ref sig .tc := ⟨.hbm, 677, rfl⟩
abbrev main_call34_v3 : Ref sig .tc := ⟨.hbm, 678, rfl⟩
abbrev main_call34_v4 : Ref sig .tc := ⟨.hbm, 679, rfl⟩
abbrev main_v390 : Ref sig .tc := ⟨.hbm, 680, rfl⟩
abbrev main_c_165 : Ref sig .tc := ⟨.hbm, 681, rfl⟩
abbrev main_c_166 : Ref sig .tc := ⟨.hbm, 682, rfl⟩
abbrev main_call35_v0 : Ref sig .tc := ⟨.hbm, 683, rfl⟩
abbrev main_call35_v1 : Ref sig .tc := ⟨.hbm, 684, rfl⟩
abbrev main_call35_v2 : Ref sig .tc := ⟨.hbm, 685, rfl⟩
abbrev main_call35_v3 : Ref sig .tc := ⟨.hbm, 686, rfl⟩
abbrev main_call35_v4 : Ref sig .tc := ⟨.hbm, 687, rfl⟩
abbrev main_v391 : Ref sig .tc := ⟨.hbm, 688, rfl⟩
abbrev main_c_167 : Ref sig .tc := ⟨.hbm, 689, rfl⟩
abbrev main_v392 : Ref sig .tc := ⟨.hbm, 690, rfl⟩
abbrev main_v393 : Ref sig .tc := ⟨.hbm, 691, rfl⟩
abbrev main_c_168 : Ref sig .tc := ⟨.hbm, 692, rfl⟩
abbrev main_v394 : Ref sig .tc := ⟨.hbm, 693, rfl⟩
abbrev main_v395 : Ref sig .tc := ⟨.hbm, 694, rfl⟩
abbrev main_v396 : Ref sig .tc := ⟨.hbm, 695, rfl⟩
abbrev main_c_169 : Ref sig .tc := ⟨.hbm, 696, rfl⟩
abbrev main_v397 : Ref sig .tc := ⟨.hbm, 697, rfl⟩
abbrev main_v398 : Ref sig .tc := ⟨.hbm, 698, rfl⟩
abbrev main_c_170 : Ref sig .tc := ⟨.hbm, 699, rfl⟩
abbrev main_v399 : Ref sig .tc := ⟨.hbm, 700, rfl⟩
abbrev main_v400 : Ref sig .tc := ⟨.hbm, 701, rfl⟩
abbrev main_v401 : Ref sig .tc := ⟨.hbm, 702, rfl⟩
abbrev main_c_171 : Ref sig .tc := ⟨.hbm, 703, rfl⟩
abbrev main_v402 : Ref sig .tc := ⟨.hbm, 704, rfl⟩
abbrev main_v403 : Ref sig .tc := ⟨.hbm, 705, rfl⟩
abbrev main_c_172 : Ref sig .tc := ⟨.hbm, 706, rfl⟩
abbrev main_v404 : Ref sig .tc := ⟨.hbm, 707, rfl⟩
abbrev main_v405 : Ref sig .tc := ⟨.hbm, 708, rfl⟩
abbrev main_v406 : Ref sig .tc := ⟨.hbm, 709, rfl⟩
abbrev main_v407 : Ref sig .tc := ⟨.hbm, 710, rfl⟩
abbrev main_v408 : Ref sig .tc := ⟨.hbm, 711, rfl⟩
abbrev main_v409 : Ref sig .tc := ⟨.hbm, 712, rfl⟩
abbrev main_v410 : Ref sig .tc := ⟨.hbm, 713, rfl⟩
abbrev main_v411 : Ref sig .tc := ⟨.hbm, 714, rfl⟩
abbrev main_v412 : Ref sig .tc := ⟨.hbm, 715, rfl⟩
abbrev main_v413 : Ref sig .tc := ⟨.hbm, 716, rfl⟩
abbrev main_v414 : Ref sig .tc := ⟨.hbm, 717, rfl⟩
abbrev main_v415 : Ref sig .tc := ⟨.hbm, 718, rfl⟩
abbrev main_v416 : Ref sig .tc := ⟨.hbm, 719, rfl⟩
abbrev main_v417 : Ref sig .tc := ⟨.hbm, 720, rfl⟩
abbrev main_c_173 : Ref sig .tc := ⟨.hbm, 721, rfl⟩
abbrev main_v418 : Ref sig .tc := ⟨.hbm, 722, rfl⟩
abbrev main_v419 : Ref sig .tc := ⟨.hbm, 723, rfl⟩
abbrev main_c_174 : Ref sig .tc := ⟨.hbm, 724, rfl⟩
abbrev main_v420 : Ref sig .tc := ⟨.hbm, 725, rfl⟩
abbrev main_v421 : Ref sig .tc := ⟨.hbm, 726, rfl⟩
abbrev main_c_175 : Ref sig .tc := ⟨.hbm, 727, rfl⟩
abbrev main_v422 : Ref sig .tc := ⟨.hbm, 728, rfl⟩
abbrev main_v423 : Ref sig .tc := ⟨.hbm, 729, rfl⟩
abbrev main_cst_176 : Ref sig .tc := ⟨.hbm, 730, rfl⟩
abbrev main_v424 : Ref sig .tc := ⟨.hbm, 731, rfl⟩
abbrev main_v425 : Ref sig .tc := ⟨.hbm, 732, rfl⟩
abbrev main_c_177 : Ref sig .tc := ⟨.hbm, 733, rfl⟩
abbrev main_call36_c : Ref sig .tc := ⟨.hbm, 734, rfl⟩
abbrev main_call36_v0 : Ref sig .tc := ⟨.hbm, 735, rfl⟩
abbrev main_v426 : Ref sig .tc := ⟨.hbm, 736, rfl⟩
abbrev main_cst_178 : Ref sig .tc := ⟨.hbm, 737, rfl⟩
abbrev main_v427 : Ref sig .tc := ⟨.hbm, 738, rfl⟩
abbrev main_v428 : Ref sig .tc := ⟨.hbm, 739, rfl⟩
abbrev main_c_179 : Ref sig .tc := ⟨.hbm, 740, rfl⟩
abbrev main_call37_c : Ref sig .tc := ⟨.hbm, 741, rfl⟩
abbrev main_call37_v0 : Ref sig .tc := ⟨.hbm, 742, rfl⟩
abbrev main_v429 : Ref sig .tc := ⟨.hbm, 743, rfl⟩
abbrev main_v430 : Ref sig .tc := ⟨.hbm, 744, rfl⟩
abbrev main_cst_180 : Ref sig .tc := ⟨.hbm, 745, rfl⟩
abbrev main_v431 : Ref sig .tc := ⟨.hbm, 746, rfl⟩
abbrev main_v432 : Ref sig .tc := ⟨.hbm, 747, rfl⟩
abbrev main_c_181 : Ref sig .tc := ⟨.hbm, 748, rfl⟩
abbrev main_call38_c : Ref sig .tc := ⟨.hbm, 749, rfl⟩
abbrev main_call38_v0 : Ref sig .tc := ⟨.hbm, 750, rfl⟩
abbrev main_v433 : Ref sig .tc := ⟨.hbm, 751, rfl⟩
abbrev main_v434 : Ref sig .tc := ⟨.hbm, 752, rfl⟩
abbrev main_c_182 : Ref sig .tc := ⟨.hbm, 753, rfl⟩
abbrev main_v435 : Ref sig .tc := ⟨.hbm, 754, rfl⟩
abbrev main_v436 : Ref sig .tc := ⟨.hbm, 755, rfl⟩
abbrev main_c_183 : Ref sig .tc := ⟨.hbm, 756, rfl⟩
abbrev main_v437 : Ref sig .tc := ⟨.hbm, 757, rfl⟩
abbrev main_v438 : Ref sig .tc := ⟨.hbm, 758, rfl⟩
abbrev main_v439 : Ref sig .tc := ⟨.hbm, 759, rfl⟩
abbrev main_c_184 : Ref sig .tc := ⟨.hbm, 760, rfl⟩
abbrev main_v440 : Ref sig .tc := ⟨.hbm, 761, rfl⟩
abbrev main_v441 : Ref sig .tc := ⟨.hbm, 762, rfl⟩
abbrev main_v442 : Ref sig .tc := ⟨.hbm, 763, rfl⟩
abbrev main_c_185 : Ref sig .tc := ⟨.hbm, 764, rfl⟩
abbrev main_v443 : Ref sig .tc := ⟨.hbm, 765, rfl⟩
abbrev main_v444 : Ref sig .tc := ⟨.hbm, 766, rfl⟩
abbrev main_v445 : Ref sig .tc := ⟨.hbm, 767, rfl⟩
abbrev main_c_186 : Ref sig .tc := ⟨.hbm, 768, rfl⟩
abbrev main_v446 : Ref sig .tc := ⟨.hbm, 769, rfl⟩
abbrev main_v447 : Ref sig .tc := ⟨.hbm, 770, rfl⟩
abbrev main_v448 : Ref sig .tc := ⟨.hbm, 771, rfl⟩
abbrev main_c_187 : Ref sig .tc := ⟨.hbm, 772, rfl⟩
abbrev main_v449 : Ref sig .tc := ⟨.hbm, 773, rfl⟩
abbrev main_v450 : Ref sig .tc := ⟨.hbm, 774, rfl⟩
abbrev main_v451 : Ref sig .tc := ⟨.hbm, 775, rfl⟩
abbrev main_c_188 : Ref sig .tc := ⟨.hbm, 776, rfl⟩
abbrev main_c_189 : Ref sig .tc := ⟨.hbm, 777, rfl⟩
abbrev main_call39_v0 : Ref sig .tc := ⟨.hbm, 778, rfl⟩
abbrev main_call39_v1 : Ref sig .tc := ⟨.hbm, 779, rfl⟩
abbrev main_call39_v2 : Ref sig .tc := ⟨.hbm, 780, rfl⟩
abbrev main_call39_v3 : Ref sig .tc := ⟨.hbm, 781, rfl⟩
abbrev main_call39_v4 : Ref sig .tc := ⟨.hbm, 782, rfl⟩
abbrev main_v452 : Ref sig .tc := ⟨.hbm, 783, rfl⟩
abbrev main_c_190 : Ref sig .tc := ⟨.hbm, 784, rfl⟩
abbrev main_c_191 : Ref sig .tc := ⟨.hbm, 785, rfl⟩
abbrev main_call40_v0 : Ref sig .tc := ⟨.hbm, 786, rfl⟩
abbrev main_call40_v1 : Ref sig .tc := ⟨.hbm, 787, rfl⟩
abbrev main_call40_v2 : Ref sig .tc := ⟨.hbm, 788, rfl⟩
abbrev main_call40_v3 : Ref sig .tc := ⟨.hbm, 789, rfl⟩
abbrev main_call40_v4 : Ref sig .tc := ⟨.hbm, 790, rfl⟩
abbrev main_v453 : Ref sig .tc := ⟨.hbm, 791, rfl⟩
abbrev main_c_192 : Ref sig .tc := ⟨.hbm, 792, rfl⟩
abbrev main_c_193 : Ref sig .tc := ⟨.hbm, 793, rfl⟩
abbrev main_call41_v0 : Ref sig .tc := ⟨.hbm, 794, rfl⟩
abbrev main_call41_v1 : Ref sig .tc := ⟨.hbm, 795, rfl⟩
abbrev main_call41_v2 : Ref sig .tc := ⟨.hbm, 796, rfl⟩
abbrev main_call41_v3 : Ref sig .tc := ⟨.hbm, 797, rfl⟩
abbrev main_call41_v4 : Ref sig .tc := ⟨.hbm, 798, rfl⟩
abbrev main_v454 : Ref sig .tc := ⟨.hbm, 799, rfl⟩
abbrev main_c_194 : Ref sig .tc := ⟨.hbm, 800, rfl⟩
abbrev main_v455 : Ref sig .tc := ⟨.hbm, 801, rfl⟩
abbrev main_v456 : Ref sig .tc := ⟨.hbm, 802, rfl⟩
abbrev main_c_195 : Ref sig .tc := ⟨.hbm, 803, rfl⟩
abbrev main_v457 : Ref sig .tc := ⟨.hbm, 804, rfl⟩
abbrev main_v458 : Ref sig .tc := ⟨.hbm, 805, rfl⟩
abbrev main_v459 : Ref sig .tc := ⟨.hbm, 806, rfl⟩
abbrev main_c_196 : Ref sig .tc := ⟨.hbm, 807, rfl⟩
abbrev main_v460 : Ref sig .tc := ⟨.hbm, 808, rfl⟩
abbrev main_v461 : Ref sig .tc := ⟨.hbm, 809, rfl⟩
abbrev main_c_197 : Ref sig .tc := ⟨.hbm, 810, rfl⟩
abbrev main_v462 : Ref sig .tc := ⟨.hbm, 811, rfl⟩
abbrev main_v463 : Ref sig .tc := ⟨.hbm, 812, rfl⟩
abbrev main_v464 : Ref sig .tc := ⟨.hbm, 813, rfl⟩
abbrev main_c_198 : Ref sig .tc := ⟨.hbm, 814, rfl⟩
abbrev main_v465 : Ref sig .tc := ⟨.hbm, 815, rfl⟩
abbrev main_v466 : Ref sig .tc := ⟨.hbm, 816, rfl⟩
abbrev main_c_199 : Ref sig .tc := ⟨.hbm, 817, rfl⟩
abbrev main_v467 : Ref sig .tc := ⟨.hbm, 818, rfl⟩
abbrev main_v468 : Ref sig .tc := ⟨.hbm, 819, rfl⟩
abbrev main_v469 : Ref sig .tc := ⟨.hbm, 820, rfl⟩
abbrev main_v470 : Ref sig .tc := ⟨.hbm, 821, rfl⟩
abbrev main_v471 : Ref sig .tc := ⟨.hbm, 822, rfl⟩
abbrev main_v472 : Ref sig .tc := ⟨.hbm, 823, rfl⟩
abbrev main_v473 : Ref sig .tc := ⟨.hbm, 824, rfl⟩
abbrev main_v474 : Ref sig .tc := ⟨.hbm, 825, rfl⟩
abbrev main_v475 : Ref sig .tc := ⟨.hbm, 826, rfl⟩
abbrev main_v476 : Ref sig .tc := ⟨.hbm, 827, rfl⟩
abbrev main_v477 : Ref sig .tc := ⟨.hbm, 828, rfl⟩
abbrev main_v478 : Ref sig .tc := ⟨.hbm, 829, rfl⟩
abbrev main_v479 : Ref sig .tc := ⟨.hbm, 830, rfl⟩
abbrev main_v480 : Ref sig .tc := ⟨.hbm, 831, rfl⟩
abbrev main_c_200 : Ref sig .tc := ⟨.hbm, 832, rfl⟩
abbrev main_v481 : Ref sig .tc := ⟨.hbm, 833, rfl⟩
abbrev main_v482 : Ref sig .tc := ⟨.hbm, 834, rfl⟩
abbrev main_c_201 : Ref sig .tc := ⟨.hbm, 835, rfl⟩
abbrev main_v483 : Ref sig .tc := ⟨.hbm, 836, rfl⟩
abbrev main_v484 : Ref sig .tc := ⟨.hbm, 837, rfl⟩
abbrev main_c_202 : Ref sig .tc := ⟨.hbm, 838, rfl⟩
abbrev main_v485 : Ref sig .tc := ⟨.hbm, 839, rfl⟩
abbrev main_v486 : Ref sig .tc := ⟨.hbm, 840, rfl⟩
abbrev main_cst_203 : Ref sig .tc := ⟨.hbm, 841, rfl⟩
abbrev main_v487 : Ref sig .tc := ⟨.hbm, 842, rfl⟩
abbrev main_v488 : Ref sig .tc := ⟨.hbm, 843, rfl⟩
abbrev main_c_204 : Ref sig .tc := ⟨.hbm, 844, rfl⟩
abbrev main_call42_c : Ref sig .tc := ⟨.hbm, 845, rfl⟩
abbrev main_call42_v0 : Ref sig .tc := ⟨.hbm, 846, rfl⟩
abbrev main_v489 : Ref sig .tc := ⟨.hbm, 847, rfl⟩
abbrev main_cst_205 : Ref sig .tc := ⟨.hbm, 848, rfl⟩
abbrev main_v490 : Ref sig .tc := ⟨.hbm, 849, rfl⟩
abbrev main_v491 : Ref sig .tc := ⟨.hbm, 850, rfl⟩
abbrev main_c_206 : Ref sig .tc := ⟨.hbm, 851, rfl⟩
abbrev main_call43_c : Ref sig .tc := ⟨.hbm, 852, rfl⟩
abbrev main_call43_v0 : Ref sig .tc := ⟨.hbm, 853, rfl⟩
abbrev main_v492 : Ref sig .tc := ⟨.hbm, 854, rfl⟩
abbrev main_v493 : Ref sig .tc := ⟨.hbm, 855, rfl⟩
abbrev main_cst_207 : Ref sig .tc := ⟨.hbm, 856, rfl⟩
abbrev main_v494 : Ref sig .tc := ⟨.hbm, 857, rfl⟩
abbrev main_v495 : Ref sig .tc := ⟨.hbm, 858, rfl⟩
abbrev main_c_208 : Ref sig .tc := ⟨.hbm, 859, rfl⟩
abbrev main_call44_c : Ref sig .tc := ⟨.hbm, 860, rfl⟩
abbrev main_call44_v0 : Ref sig .tc := ⟨.hbm, 861, rfl⟩
abbrev main_v496 : Ref sig .tc := ⟨.hbm, 862, rfl⟩
abbrev main_v497 : Ref sig .tc := ⟨.hbm, 863, rfl⟩
abbrev main_c_209 : Ref sig .tc := ⟨.hbm, 864, rfl⟩
abbrev main_v498 : Ref sig .tc := ⟨.hbm, 865, rfl⟩
abbrev main_v499 : Ref sig .tc := ⟨.hbm, 866, rfl⟩
abbrev main_c_210 : Ref sig .tc := ⟨.hbm, 867, rfl⟩
abbrev main_v500 : Ref sig .tc := ⟨.hbm, 868, rfl⟩
abbrev main_v501 : Ref sig .tc := ⟨.hbm, 869, rfl⟩
abbrev main_v502 : Ref sig .tc := ⟨.hbm, 870, rfl⟩
abbrev main_c_211 : Ref sig .tc := ⟨.hbm, 871, rfl⟩
abbrev main_v503 : Ref sig .tc := ⟨.hbm, 872, rfl⟩
abbrev main_v504 : Ref sig .tc := ⟨.hbm, 873, rfl⟩
abbrev main_v505 : Ref sig .tc := ⟨.hbm, 874, rfl⟩
abbrev main_c_212 : Ref sig .tc := ⟨.hbm, 875, rfl⟩
abbrev main_v506 : Ref sig .tc := ⟨.hbm, 876, rfl⟩
abbrev main_v507 : Ref sig .tc := ⟨.hbm, 877, rfl⟩
abbrev main_v508 : Ref sig .tc := ⟨.hbm, 878, rfl⟩
abbrev main_c_213 : Ref sig .tc := ⟨.hbm, 879, rfl⟩
abbrev main_v509 : Ref sig .tc := ⟨.hbm, 880, rfl⟩
abbrev main_v510 : Ref sig .tc := ⟨.hbm, 881, rfl⟩
abbrev main_v511 : Ref sig .tc := ⟨.hbm, 882, rfl⟩
abbrev main_c_214 : Ref sig .tc := ⟨.hbm, 883, rfl⟩
abbrev main_v512 : Ref sig .tc := ⟨.hbm, 884, rfl⟩
abbrev main_v513 : Ref sig .tc := ⟨.hbm, 885, rfl⟩
abbrev main_v514 : Ref sig .tc := ⟨.hbm, 886, rfl⟩
abbrev main_c_215 : Ref sig .tc := ⟨.hbm, 887, rfl⟩
abbrev main_c_216 : Ref sig .tc := ⟨.hbm, 888, rfl⟩
abbrev main_call45_v0 : Ref sig .tc := ⟨.hbm, 889, rfl⟩
abbrev main_call45_v1 : Ref sig .tc := ⟨.hbm, 890, rfl⟩
abbrev main_call45_v2 : Ref sig .tc := ⟨.hbm, 891, rfl⟩
abbrev main_call45_v3 : Ref sig .tc := ⟨.hbm, 892, rfl⟩
abbrev main_call45_v4 : Ref sig .tc := ⟨.hbm, 893, rfl⟩
abbrev main_v515 : Ref sig .tc := ⟨.hbm, 894, rfl⟩
abbrev main_c_217 : Ref sig .tc := ⟨.hbm, 895, rfl⟩
abbrev main_c_218 : Ref sig .tc := ⟨.hbm, 896, rfl⟩
abbrev main_call46_v0 : Ref sig .tc := ⟨.hbm, 897, rfl⟩
abbrev main_call46_v1 : Ref sig .tc := ⟨.hbm, 898, rfl⟩
abbrev main_call46_v2 : Ref sig .tc := ⟨.hbm, 899, rfl⟩
abbrev main_call46_v3 : Ref sig .tc := ⟨.hbm, 900, rfl⟩
abbrev main_call46_v4 : Ref sig .tc := ⟨.hbm, 901, rfl⟩
abbrev main_v516 : Ref sig .tc := ⟨.hbm, 902, rfl⟩
abbrev main_c_219 : Ref sig .tc := ⟨.hbm, 903, rfl⟩
abbrev main_c_220 : Ref sig .tc := ⟨.hbm, 904, rfl⟩
abbrev main_call47_v0 : Ref sig .tc := ⟨.hbm, 905, rfl⟩
abbrev main_call47_v1 : Ref sig .tc := ⟨.hbm, 906, rfl⟩
abbrev main_call47_v2 : Ref sig .tc := ⟨.hbm, 907, rfl⟩
abbrev main_call47_v3 : Ref sig .tc := ⟨.hbm, 908, rfl⟩
abbrev main_call47_v4 : Ref sig .tc := ⟨.hbm, 909, rfl⟩
abbrev main_v517 : Ref sig .tc := ⟨.hbm, 910, rfl⟩
abbrev main_c_221 : Ref sig .tc := ⟨.hbm, 911, rfl⟩
abbrev main_v518 : Ref sig .tc := ⟨.hbm, 912, rfl⟩
abbrev main_v519 : Ref sig .tc := ⟨.hbm, 913, rfl⟩
abbrev main_c_222 : Ref sig .tc := ⟨.hbm, 914, rfl⟩
abbrev main_v520 : Ref sig .tc := ⟨.hbm, 915, rfl⟩
abbrev main_v521 : Ref sig .tc := ⟨.hbm, 916, rfl⟩
abbrev main_v522 : Ref sig .tc := ⟨.hbm, 917, rfl⟩
abbrev main_c_223 : Ref sig .tc := ⟨.hbm, 918, rfl⟩
abbrev main_v523 : Ref sig .tc := ⟨.hbm, 919, rfl⟩
abbrev main_v524 : Ref sig .tc := ⟨.hbm, 920, rfl⟩
abbrev main_c_224 : Ref sig .tc := ⟨.hbm, 921, rfl⟩
abbrev main_v525 : Ref sig .tc := ⟨.hbm, 922, rfl⟩
abbrev main_v526 : Ref sig .tc := ⟨.hbm, 923, rfl⟩
abbrev main_v527 : Ref sig .tc := ⟨.hbm, 924, rfl⟩
abbrev main_c_225 : Ref sig .tc := ⟨.hbm, 925, rfl⟩
abbrev main_v528 : Ref sig .tc := ⟨.hbm, 926, rfl⟩
abbrev main_v529 : Ref sig .tc := ⟨.hbm, 927, rfl⟩
abbrev main_c_226 : Ref sig .tc := ⟨.hbm, 928, rfl⟩
abbrev main_v530 : Ref sig .tc := ⟨.hbm, 929, rfl⟩
abbrev main_v531 : Ref sig .tc := ⟨.hbm, 930, rfl⟩
abbrev main_v532 : Ref sig .tc := ⟨.hbm, 931, rfl⟩
abbrev main_v533 : Ref sig .tc := ⟨.hbm, 932, rfl⟩
abbrev main_v534 : Ref sig .tc := ⟨.hbm, 933, rfl⟩
abbrev main_v535 : Ref sig .tc := ⟨.hbm, 934, rfl⟩
abbrev main_v536 : Ref sig .tc := ⟨.hbm, 935, rfl⟩
abbrev main_v537 : Ref sig .tc := ⟨.hbm, 936, rfl⟩
abbrev main_v538 : Ref sig .tc := ⟨.hbm, 937, rfl⟩
abbrev main_v539 : Ref sig .tc := ⟨.hbm, 938, rfl⟩
abbrev main_v540 : Ref sig .tc := ⟨.hbm, 939, rfl⟩
abbrev main_v541 : Ref sig .tc := ⟨.hbm, 940, rfl⟩
abbrev main_v542 : Ref sig .tc := ⟨.hbm, 941, rfl⟩
abbrev main_v543 : Ref sig .tc := ⟨.hbm, 942, rfl⟩
abbrev main_v544 : Ref sig .tc := ⟨.hbm, 943, rfl⟩
abbrev main_v545 : Ref sig .tc := ⟨.hbm, 944, rfl⟩

abbrev nD : Nat := 1
abbrev τ : Topo := Topo.v7x

variable {F : FTy → Type} [FloatOps F]

class Facts₀ : Prop where
  slices_S32x131072x3_S32x131072x1_0_0_0 : S32x131072x3.Slices ![0, 0, 0] S32x131072x1
  shapeCasts_S32x131072x1_S32x131072 : S32x131072x1.ShapeCasts S32x131072
  bcast_S_S32x131072 : S_.BroadcastsInDim S32x131072 (![] : Fin 0 → Fin S32x131072.rank)
  slices_S32x131072x3_S32x131072x1_0_0_1 : S32x131072x3.Slices ![0, 0, 1] S32x131072x1
  slices_S32x131072x3_S32x131072x1_0_0_2 : S32x131072x3.Slices ![0, 0, 2] S32x131072x1
  bcast_S_S3x32x131072 : S_.BroadcastsInDim S3x32x131072 (![] : Fin 0 → Fin S3x32x131072.rank)
  bcast_S32x131072_S32x131072x1_0_1 : S32x131072.BroadcastsInDim S32x131072x1 (![0, 1] : Fin 2 → Fin S32x131072x1.rank)
  concatenates_S32x131072x1_S32x131072x1_S32x131072x1_S32x131072x3_d2 : Shape.Concatenates [S32x131072x1, S32x131072x1, S32x131072x1] S32x131072x3 2
  bcast_S32x131072_S1x32x131072_1_2 : S32x131072.BroadcastsInDim S1x32x131072 (![1, 2] : Fin 2 → Fin S1x32x131072.rank)
  bcast_S1x32x131072_S3x32x131072_0_1_2 : S1x32x131072.BroadcastsInDim S3x32x131072 (![0, 1, 2] : Fin 3 → Fin S3x32x131072.rank)
  transposes_S3x32x131072_S32x131072x3_1_2_0 : S3x32x131072.Transposes [1, 2, 0] S32x131072x3
  gather_S3x64x64x64_S32x131072x3_S3x32x131072_0_123_n_n_123_2_3111_wf : GatherDims.WF S3x64x64x64 S32x131072x3 S3x32x131072 [0] [1, 2, 3] [] [1, 2, 3] [] 2 ![3, 1, 1, 1]

variable [Facts₀]

def gather_S3x64x64x64_S32x131072x3_S3x32x131072_0_123_n_n_123_2_3111 : GatherDims S3x64x64x64 S32x131072x3 S3x32x131072 where
  offsetDims := [0]
  collapsedSliceDims := [1, 2, 3]
  operandBatchingDims := []
  startIndicesBatchingDims := []
  startIndexMap := [1, 2, 3]
  indexVectorDim := 2
  sliceSizes := ![3, 1, 1, 1]
  wf := gather_S3x64x64x64_S32x131072x3_S3x32x131072_0_123_n_n_123_2_3111_wf

class Facts : Prop extends Facts₀ where

variable [Facts]
-- ==== Proof.RefRunP.lean ====
/-
  The operations before the first corner, as a list, the buffers the list writes (one per operation), and what it
  therefore leaves alone from any contents W: the two argument buffers.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations up to the cells, the fractional parts and the zero sum, in order. -/
abbrev opsP : List (HloOp τ sig (Elt F)) :=
  [ unary main_arg0 main_v0 ((extractStridedSlice S32x131072x1 ![0, 0, 0] · slices_S32x131072x3_S32x131072x1_0_0_0) : (⟨S32x131072x3, .f32⟩ : BufTy).Contents (Elt F) → (⟨S32x131072x1, .f32⟩ : BufTy).Contents (Elt F)),
    reshape main_v0 main_v1 rfl shapeCasts_S32x131072x1_S32x131072,
    nullary main_cst (constant S_ .f32 0x3F800000#32),
    unary main_cst main_v2 (broadcastInDim S32x131072 ![] bcast_S_S32x131072 : (⟨S_, .f32⟩ : BufTy).Contents (Elt F) → (⟨S32x131072, .f32⟩ : BufTy).Contents (Elt F)),
    binary main_v1 main_v2 main_v3 (addf : (⟨S32x131072, .f32⟩ : BufTy).Contents (Elt F) → (⟨S32x131072, .f32⟩ : BufTy).Contents (Elt F) → (⟨S32x131072, .f32⟩ : BufTy).Contents (Elt F)),
    nullary main_cst_0 (constant S_ .f32 0x42800000#32),
    unary main_cst_0 main_v4 (broadcastInDim S32x131072 ![] bcast_S_S32x131072 : (⟨S_, .f32⟩ : BufTy).Contents (Elt F) → (⟨S32x131072, .f32⟩ : BufTy).Contents (Elt F)),
    binary main_v3 main_v4 main_v5 (mulf : (⟨S32x131072, .f32⟩ : BufTy).Contents (Elt F) → (⟨S32x131072, .f32⟩ : BufTy).Contents (Elt F) → (⟨S32x131072, .f32⟩ : BufTy).Contents (Elt F)),
    nullary main_cst_1 (constant S_ .f32 0x3F800000#32),
    unary main_cst_1 main_v6 (broadcastInDim S32x131072 ![] bcast_S_S32x131072 : (⟨S_, .f32⟩ : BufTy).Contents (Elt F) → (⟨S32x131072, .f32⟩ : BufTy).Contents (Elt F)),
    binary main_v5 main_v6 main_v7 (subf : (⟨S32x131072, .f32⟩ : BufTy).Contents (Elt F) → (⟨S32x131072, .f32⟩ : BufTy).Contents (Elt F) → (⟨S32x131072, .f32⟩ : BufTy).Contents (Elt F)),
    nullary main_cst_2 (constant S_ .f32 0x3F000000#32),
    unary main_cst_2 main_v8 (broadcastInDim S32x131072 ![] bcast_S_S32x131072 : (⟨S_, .f32⟩ : BufTy).Contents (Elt F) → (⟨S32x131072, .f32⟩ : BufTy).Contents (Elt F)),
    binary main_v7 main_v8 main_v9 (mulf : (⟨S32x131072, .f32⟩ : BufTy).Contents (Elt F) → (⟨S32x131072, .f32⟩ : BufTy).Contents (Elt F) → (⟨S32x131072, .f32⟩ : BufTy).Contents (Elt F)),
    unary main_arg0 main_v10 ((extractStridedSlice S32x131072x1 ![0, 0, 1] · slices_S32x131072x3_S32x131072x1_0_0_1) : (⟨S32x131072x3, .f32⟩ : BufTy).Contents (Elt F) → (⟨S32x131072x1, .f32⟩ : BufTy).Contents (Elt F)),
    reshape main_v10 main_v11 rfl shapeCasts_S32x131072x1_S32x131072,
    nullary main_cst_3 (constant S_ .f32 0x3F800000#32),
    unary main_cst_3 main_v12 (broadcastInDim S32x131072 ![] bcast_S_S32x131072 : (⟨S_, .f32⟩ : BufTy).Contents (Elt F) → (⟨S32x131072, .f32⟩ : BufTy).Contents (Elt F)),
    binary main_v11 main_v12 main_v13 (addf : (⟨S32x131072, .f32⟩ : BufTy).Contents (Elt F) → (⟨S32x131072, .f32⟩ : BufTy).Contents (Elt F) → (⟨S32x131072, .f32⟩ : BufTy).Contents (Elt F)),
    nullary main_cst_4 (constant S_ .f32 0x42800000#32),
    unary main_cst_4 main_v14 (broadcastInDim S32x131072 ![] bcast_S_S32x131072 : (⟨S_, .f32⟩ : BufTy).Contents (Elt F) → (⟨S32x131072, .f32⟩ : BufTy).Contents (Elt F)),
    binary main_v13 main_v14 main_v15 (mulf : (⟨S32x131072, .f32⟩ : BufTy).Contents (Elt F) → (⟨S32x131072, .f32⟩ : BufTy).Contents (Elt F) → (⟨S32x131072, .f32⟩ : BufTy).Contents (Elt F)),
    nullary main_cst_5 (constant S_ .f32 0x3F800000#32),
    unary main_cst_5 main_v16 (broadcastInDim S32x131072 ![] bcast_S_S32x131072 : (⟨S_, .f32⟩ : BufTy).Contents (Elt F) → (⟨S32x131072, .f32⟩ : BufTy).Contents (Elt F)),
    binary main_v15 main_v16 main_v17 (subf : (⟨S32x131072, .f32⟩ : BufTy).Contents (Elt F) → (⟨S32x131072, .f32⟩ : BufTy).Contents (Elt F) → (⟨S32x131072, .f32⟩ : BufTy).Contents (Elt F)),
    nullary main_cst_6 (constant S_ .f32 0x3F000000#32),
    unary main_cst_6 main_v18 (broadcastInDim S32x131072 ![] bcast_S_S32x131072 : (⟨S_, .f32⟩ : BufTy).Contents (Elt F) → (⟨S32x131072, .f32⟩ : BufTy).Contents (Elt F)),
    binary main_v17 main_v18 main_v19 (mulf : (⟨S32x131072, .f32⟩ : BufTy).Contents (Elt F) → (⟨S32x131072, .f32⟩ : BufTy).Contents (Elt F) → (⟨S32x131072, .f32⟩ : BufTy).Contents (Elt F)),
    unary main_arg0 main_v20 ((extractStridedSlice S32x131072x1 ![0, 0, 2] · slices_S32x131072x3_S32x131072x1_0_0_2) : (⟨S32x131072x3, .f32⟩ : BufTy).Contents (Elt F) → (⟨S32x131072x1, .f32⟩ : BufTy).Contents (Elt F)),
    reshape main_v20 main_v21 rfl shapeCasts_S32x131072x1_S32x131072,
    nullary main_cst_7 (constant S_ .f32 0x3F800000#32),
    unary main_cst_7 main_v22 (broadcastInDim S32x131072 ![] bcast_S_S32x131072 : (⟨S_, .f32⟩ : BufTy).Contents (Elt F) → (⟨S32x131072, .f32⟩ : BufTy).Contents (Elt F)),
    binary main_v21 main_v22 main_v23 (addf : (⟨S32x131072, .f32⟩ : BufTy).Contents (Elt F) → (⟨S32x131072, .f32⟩ : BufTy).Contents (Elt F) → (⟨S32x131072, .f32⟩ : BufTy).Contents (Elt F)),
    nullary main_cst_8 (constant S_ .f32 0x42800000#32),
    unary main_cst_8 main_v24 (broadcastInDim S32x131072 ![] bcast_S_S32x131072 : (⟨S_, .f32⟩ : BufTy).Contents (Elt F) → (⟨S32x131072, .f32⟩ : BufTy).Contents (Elt F)),
    binary main_v23 main_v24 main_v25 (mulf : (⟨S32x131072, .f32⟩ : BufTy).Contents (Elt F) → (⟨S32x131072, .f32⟩ : BufTy).Contents (Elt F) → (⟨S32x131072, .f32⟩ : BufTy).Contents (Elt F)),
    nullary main_cst_9 (constant S_ .f32 0x3F800000#32),
    unary main_cst_9 main_v26 (broadcastInDim S32x131072 ![] bcast_S_S32x131072 : (⟨S_, .f32⟩ : BufTy).Contents (Elt F) → (⟨S32x131072, .f32⟩ : BufTy).Contents (Elt F)),
    binary main_v25 main_v26 main_v27 (subf : (⟨S32x131072, .f32⟩ : BufTy).Contents (Elt F) → (⟨S32x131072, .f32⟩ : BufTy).Contents (Elt F) → (⟨S32x131072, .f32⟩ : BufTy).Contents (Elt F)),
    nullary main_cst_10 (constant S_ .f32 0x3F000000#32),
    unary main_cst_10 main_v28 (broadcastInDim S32x131072 ![] bcast_S_S32x131072 : (⟨S_, .f32⟩ : BufTy).Contents (Elt F) → (⟨S32x131072, .f32⟩ : BufTy).Contents (Elt F)),
    binary main_v27 main_v28 main_v29 (mulf : (⟨S32x131072, .f32⟩ : BufTy).Contents (Elt F) → (⟨S32x131072, .f32⟩ : BufTy).Contents (Elt F) → (⟨S32x131072, .f32⟩ : BufTy).Contents (Elt F)),
    unary main_v9 main_v30 (Host.floor : (⟨S32x131072, .f32⟩ : BufTy).Contents (Elt F) → (⟨S32x131072, .f32⟩ : BufTy).Contents (Elt F)),
    unary main_v19 main_v31 (Host.floor : (⟨S32x131072, .f32⟩ : BufTy).Contents (Elt F) → (⟨S32x131072, .f32⟩ : BufTy).Contents (Elt F)),
    unary main_v29 main_v32 (Host.floor : (⟨S32x131072, .f32⟩ : BufTy).Contents (Elt F) → (⟨S32x131072, .f32⟩ : BufTy).Contents (Elt F)),
    binary main_v9 main_v30 main_v33 (subf : (⟨S32x131072, .f32⟩ : BufTy).Contents (Elt F) → (⟨S32x131072, .f32⟩ : BufTy).Contents (Elt F) → (⟨S32x131072, .f32⟩ : BufTy).Contents (Elt F)),
    binary main_v19 main_v31 main_v34 (subf : (⟨S32x131072, .f32⟩ : BufTy).Contents (Elt F) → (⟨S32x131072, .f32⟩ : BufTy).Contents (Elt F) → (⟨S32x131072, .f32⟩ : BufTy).Contents (Elt F)),
    binary main_v29 main_v32 main_v35 (subf : (⟨S32x131072, .f32⟩ : BufTy).Contents (Elt F) → (⟨S32x131072, .f32⟩ : BufTy).Contents (Elt F) → (⟨S32x131072, .f32⟩ : BufTy).Contents (Elt F)),
    unary main_v30 main_v36 (fptosi 32 : (⟨S32x131072, .f32⟩ : BufTy).Contents (Elt F) → (⟨S32x131072, .i32⟩ : BufTy).Contents (Elt F)),
    unary main_v31 main_v37 (fptosi 32 : (⟨S32x131072, .f32⟩ : BufTy).Contents (Elt F) → (⟨S32x131072, .i32⟩ : BufTy).Contents (Elt F)),
    unary main_v32 main_v38 (fptosi 32 : (⟨S32x131072, .f32⟩ : BufTy).Contents (Elt F) → (⟨S32x131072, .i32⟩ : BufTy).Contents (Elt F)),
    nullary main_cst_11 (constant S_ .f32 0x00000000#32),
    unary main_cst_11 main_v39 (broadcastInDim S3x32x131072 ![] bcast_S_S3x32x131072 : (⟨S_, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrP : List (Ref sig .tc) :=
  [main_v0, main_v1, main_cst, main_v2, main_v3, main_cst_0, main_v4, main_v5, main_cst_1, main_v6, main_v7, main_cst_2, main_v8, main_v9, main_v10, main_v11, main_cst_3, main_v12, main_v13, main_cst_4, main_v14, main_v15, main_cst_5, main_v16, main_v17, main_cst_6, main_v18, main_v19, main_v20, main_v21, main_cst_7, main_v22, main_v23, main_cst_8, main_v24, main_v25, main_cst_9, main_v26, main_v27, main_cst_10, main_v28, main_v29, main_v30, main_v31, main_v32, main_v33, main_v34, main_v35, main_v36, main_v37, main_v38, main_cst_11, main_v39]

set_option maxRecDepth 8192 in
/-- Every operation of the list writes its one buffer of that list. -/
theorem opsP_writes : (opsP (F := F)).Forall fun op => op.writes ⊆ ((wrP).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsP_keep (W : Valuation τ sig (Elt F)) {r : Ref sig .tc} (hr : r ∉ wrP) :
    after (opsP (F := F)) W (Proc.devRef .tc r) = W (Proc.devRef .tc r) :=
  after_of_writes_sub _ W opsP_writes hr

/-- The list does not write an argument buffer. -/
theorem opsP_arg0 (W : Valuation τ sig (Elt F)) :
    after (opsP (F := F)) W (Proc.devRef .tc main_arg0) = W (Proc.devRef .tc main_arg0) :=
  opsP_keep W (by decide)

/-- The list does not write an argument buffer. -/
theorem opsP_arg1 (W : Valuation τ sig (Elt F)) :
    after (opsP (F := F)) W (Proc.devRef .tc main_arg1) = W (Proc.devRef .tc main_arg1) :=
  opsP_keep W (by decide)

end Cert.RefRun

end
-- ==== Proof.RefRunC0.lean ====
/-
  The operations of corner (dx, dy, dz) = (0, 0, 0) of the eight-corner sum, as a list, the buffers the list writes
  (one per operation), and what it therefore leaves alone from any contents W: the two argument buffers and the six
  buffers of cells and fractional parts.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Corner (0, 0, 0)'s operations, in order. -/
abbrev opsC0 : List (HloOp τ sig (Elt F)) :=
  [ nullary main_c (constantI S_ 32 0#32),
    unary main_c main_v40 (broadcastInDim S32x131072 ![] bcast_S_S32x131072 : (⟨S_, .i32⟩ : BufTy).Contents (Elt F) → (⟨S32x131072, .i32⟩ : BufTy).Contents (Elt F)),
    binary main_v36 main_v40 main_v41 (addi : (⟨S32x131072, .i32⟩ : BufTy).Contents (Elt F) → (⟨S32x131072, .i32⟩ : BufTy).Contents (Elt F) → (⟨S32x131072, .i32⟩ : BufTy).Contents (Elt F)),
    nullary main_c_12 (constantI S_ 32 0#32),
    unary main_c_12 main_v42 (broadcastInDim S32x131072 ![] bcast_S_S32x131072 : (⟨S_, .i32⟩ : BufTy).Contents (Elt F) → (⟨S32x131072, .i32⟩ : BufTy).Contents (Elt F)),
    binary main_v37 main_v42 main_v43 (addi : (⟨S32x131072, .i32⟩ : BufTy).Contents (Elt F) → (⟨S32x131072, .i32⟩ : BufTy).Contents (Elt F) → (⟨S32x131072, .i32⟩ : BufTy).Contents (Elt F)),
    nullary main_c_13 (constantI S_ 32 0#32),
    unary main_c_13 main_v44 (broadcastInDim S32x131072 ![] bcast_S_S32x131072 : (⟨S_, .i32⟩ : BufTy).Contents (Elt F) → (⟨S32x131072, .i32⟩ : BufTy).Contents (Elt F)),
    binary main_v38 main_v44 main_v45 (addi : (⟨S32x131072, .i32⟩ : BufTy).Contents (Elt F) → (⟨S32x131072, .i32⟩ : BufTy).Contents (Elt F) → (⟨S32x131072, .i32⟩ : BufTy).Contents (Elt F)),
    nullary main_cst_14 (constant S_ .f32 0x3F800000#32),
    unary main_cst_14 main_v46 (broadcastInDim S32x131072 ![] bcast_S_S32x131072 : (⟨S_, .f32⟩ : BufTy).Contents (Elt F) → (⟨S32x131072, .f32⟩ : BufTy).Contents (Elt F)),
    binary main_v46 main_v33 main_v47 (subf : (⟨S32x131072, .f32⟩ : BufTy).Contents (Elt F) → (⟨S32x131072, .f32⟩ : BufTy).Contents (Elt F) → (⟨S32x131072, .f32⟩ : BufTy).Contents (Elt F)),
    nullary main_c_15 (constantI S_ 32 0#32),
    TRef.nullary (TRef.of (T := ⟨S_, .i32⟩) main_call0_c) (constantI S_ 32 0#32),
    TRef.binary (TRef.of (T := ⟨S_, .i32⟩) main_c_15) (TRef.of (T := ⟨S_, .i32⟩) main_call0_c) (TRef.of (T := ⟨S_, .i1⟩) main_call0_v0) (cmpi .ne),
    TRef.ternary (TRef.of (T := ⟨S_, .i1⟩) main_call0_v0) (TRef.of (T := ⟨S32x131072, .f32⟩) main_v33) (TRef.of (T := ⟨S32x131072, .f32⟩) main_v47) (TRef.of (T := ⟨S32x131072, .f32⟩) main_v48) (fun p a b => select (broadcastInDim S32x131072 ![] bcast_S_S32x131072 p) a b),
    nullary main_cst_16 (constant S_ .f32 0x3F800000#32),
    unary main_cst_16 main_v49 (broadcastInDim S32x131072 ![] bcast_S_S32x131072 : (⟨S_, .f32⟩ : BufTy).Contents (Elt F) → (⟨S32x131072, .f32⟩ : BufTy).Contents (Elt F)),
    binary main_v49 main_v34 main_v50 (subf : (⟨S32x131072, .f32⟩ : BufTy).Contents (Elt F) → (⟨S32x131072, .f32⟩ : BufTy).Contents (Elt F) → (⟨S32x131072, .f32⟩ : BufTy).Contents (Elt F)),
    nullary main_c_17 (constantI S_ 32 0#32),
    TRef.nullary (TRef.of (T := ⟨S_, .i32⟩) main_call1_c) (constantI S_ 32 0#32),
    TRef.binary (TRef.of (T := ⟨S_, .i32⟩) main_c_17) (TRef.of (T := ⟨S_, .i32⟩) main_call1_c) (TRef.of (T := ⟨S_, .i1⟩) main_call1_v0) (cmpi .ne),
    TRef.ternary (TRef.of (T := ⟨S_, .i1⟩) main_call1_v0) (TRef.of (T := ⟨S32x131072, .f32⟩) main_v34) (TRef.of (T := ⟨S32x131072, .f32⟩) main_v50) (TRef.of (T := ⟨S32x131072, .f32⟩) main_v51) (fun p a b => select (broadcastInDim S32x131072 ![] bcast_S_S32x131072 p) a b),
    binary main_v48 main_v51 main_v52 (mulf : (⟨S32x131072, .f32⟩ : BufTy).Contents (Elt F) → (⟨S32x131072, .f32⟩ : BufTy).Contents (Elt F) → (⟨S32x131072, .f32⟩ : BufTy).Contents (Elt F)),
    nullary main_cst_18 (constant S_ .f32 0x3F800000#32),
    unary main_cst_18 main_v53 (broadcastInDim S32x131072 ![] bcast_S_S32x131072 : (⟨S_, .f32⟩ : BufTy).Contents (Elt F) → (⟨S32x131072, .f32⟩ : BufTy).Contents (Elt F)),
    binary main_v53 main_v35 main_v54 (subf : (⟨S32x131072, .f32⟩ : BufTy).Contents (Elt F) → (⟨S32x131072, .f32⟩ : BufTy).Contents (Elt F) → (⟨S32x131072, .f32⟩ : BufTy).Contents (Elt F)),
    nullary main_c_19 (constantI S_ 32 0#32),
    TRef.nullary (TRef.of (T := ⟨S_, .i32⟩) main_call2_c) (constantI S_ 32 0#32),
    TRef.binary (TRef.of (T := ⟨S_, .i32⟩) main_c_19) (TRef.of (T := ⟨S_, .i32⟩) main_call2_c) (TRef.of (T := ⟨S_, .i1⟩) main_call2_v0) (cmpi .ne),
    TRef.ternary (TRef.of (T := ⟨S_, .i1⟩) main_call2_v0) (TRef.of (T := ⟨S32x131072, .f32⟩) main_v35) (TRef.of (T := ⟨S32x131072, .f32⟩) main_v54) (TRef.of (T := ⟨S32x131072, .f32⟩) main_v55) (fun p a b => select (broadcastInDim S32x131072 ![] bcast_S_S32x131072 p) a b),
    binary main_v52 main_v55 main_v56 (mulf : (⟨S32x131072, .f32⟩ : BufTy).Contents (Elt F) → (⟨S32x131072, .f32⟩ : BufTy).Contents (Elt F) → (⟨S32x131072, .f32⟩ : BufTy).Contents (Elt F)),
    nullary main_c_20 (constantI S_ 32 0#32),
    unary main_c_20 main_v57 (broadcastInDim S32x131072 ![] bcast_S_S32x131072 : (⟨S_, .i32⟩ : BufTy).Contents (Elt F) → (⟨S32x131072, .i32⟩ : BufTy).Contents (Elt F)),
    binary main_v41 main_v57 main_v58 (cmpi .sge : (⟨S32x131072, .i32⟩ : BufTy).Contents (Elt F) → (⟨S32x131072, .i32⟩ : BufTy).Contents (Elt F) → (⟨S32x131072, .i1⟩ : BufTy).Contents (Elt F)),
    nullary main_c_21 (constantI S_ 32 64#32),
    unary main_c_21 main_v59 (broadcastInDim S32x131072 ![] bcast_S_S32x131072 : (⟨S_, .i32⟩ : BufTy).Contents (Elt F) → (⟨S32x131072, .i32⟩ : BufTy).Contents (Elt F)),
    binary main_v41 main_v59 main_v60 (cmpi .slt : (⟨S32x131072, .i32⟩ : BufTy).Contents (Elt F) → (⟨S32x131072, .i32⟩ : BufTy).Contents (Elt F) → (⟨S32x131072, .i1⟩ : BufTy).Contents (Elt F)),
    binary main_v58 main_v60 main_v61 (andi : (⟨S32x131072, .i1⟩ : BufTy).Contents (Elt F) → (⟨S32x131072, .i1⟩ : BufTy).Contents (Elt F) → (⟨S32x131072, .i1⟩ : BufTy).Contents (Elt F)),
    nullary main_c_22 (constantI S_ 32 0#32),
    unary main_c_22 main_v62 (broadcastInDim S32x131072 ![] bcast_S_S32x131072 : (⟨S_, .i32⟩ : BufTy).Contents (Elt F) → (⟨S32x131072, .i32⟩ : BufTy).Contents (Elt F)),
    binary main_v43 main_v62 main_v63 (cmpi .sge : (⟨S32x131072, .i32⟩ : BufTy).Contents (Elt F) → (⟨S32x131072, .i32⟩ : BufTy).Contents (Elt F) → (⟨S32x131072, .i1⟩ : BufTy).Contents (Elt F)),
    binary main_v61 main_v63 main_v64 (andi : (⟨S32x131072, .i1⟩ : BufTy).Contents (Elt F) → (⟨S32x131072, .i1⟩ : BufTy).Contents (Elt F) → (⟨S32x131072, .i1⟩ : BufTy).Contents (Elt F)),
    nullary main_c_23 (constantI S_ 32 64#32),
    unary main_c_23 main_v65 (broadcastInDim S32x131072 ![] bcast_S_S32x131072 : (⟨S_, .i32⟩ : BufTy).Contents (Elt F) → (⟨S32x131072, .i32⟩ : BufTy).Contents (Elt F)),
    binary main_v43 main_v65 main_v66 (cmpi .slt : (⟨S32x131072, .i32⟩ : BufTy).Contents (Elt F) → (⟨S32x131072, .i32⟩ : BufTy).Contents (Elt F) → (⟨S32x131072, .i1⟩ : BufTy).Contents (Elt F)),
    binary main_v64 main_v66 main_v67 (andi : (⟨S32x131072, .i1⟩ : BufTy).Contents (Elt F) → (⟨S32x131072, .i1⟩ : BufTy).Contents (Elt F) → (⟨S32x131072, .i1⟩ : BufTy).Contents (Elt F)),
    nullary main_c_24 (constantI S_ 32 0#32),
    unary main_c_24 main_v68 (broadcastInDim S32x131072 ![] bcast_S_S32x131072 : (⟨S_, .i32⟩ : BufTy).Contents (Elt F) → (⟨S32x131072, .i32⟩ : BufTy).Contents (Elt F)),
    binary main_v45 main_v68 main_v69 (cmpi .sge : (⟨S32x131072, .i32⟩ : BufTy).Contents (Elt F) → (⟨S32x131072, .i32⟩ : BufTy).Contents (Elt F) → (⟨S32x131072, .i1⟩ : BufTy).Contents (Elt F)),
    binary main_v67 main_v69 main_v70 (andi : (⟨S32x131072, .i1⟩ : BufTy).Contents (Elt F) → (⟨S32x131072, .i1⟩ : BufTy).Contents (Elt F) → (⟨S32x131072, .i1⟩ : BufTy).Contents (Elt F)),
    nullary main_c_25 (constantI S_ 32 64#32),
    unary main_c_25 main_v71 (broadcastInDim S32x131072 ![] bcast_S_S32x131072 : (⟨S_, .i32⟩ : BufTy).Contents (Elt F) → (⟨S32x131072, .i32⟩ : BufTy).Contents (Elt F)),
    binary main_v45 main_v71 main_v72 (cmpi .slt : (⟨S32x131072, .i32⟩ : BufTy).Contents (Elt F) → (⟨S32x131072, .i32⟩ : BufTy).Contents (Elt F) → (⟨S32x131072, .i1⟩ : BufTy).Contents (Elt F)),
    binary main_v70 main_v72 main_v73 (andi : (⟨S32x131072, .i1⟩ : BufTy).Contents (Elt F) → (⟨S32x131072, .i1⟩ : BufTy).Contents (Elt F) → (⟨S32x131072, .i1⟩ : BufTy).Contents (Elt F)),
    nullary main_c_26 (constantI S_ 32 0#32),
    nullary main_c_27 (constantI S_ 32 63#32),
    TRef.unary (TRef.of (T := ⟨S_, .i32⟩) main_c_26) (TRef.of (T := ⟨S_, .i32⟩) main_call3_v0) id,
    TRef.unary (TRef.of (T := ⟨S_, .i32⟩) main_call3_v0) (TRef.of (T := ⟨S32x131072, .i32⟩) main_call3_v1) (broadcastInDim S32x131072 ![] bcast_S_S32x131072),
    TRef.binary (TRef.of (T := ⟨S32x131072, .i32⟩) main_call3_v1) (TRef.of (T := ⟨S32x131072, .i32⟩) main_v41) (TRef.of (T := ⟨S32x131072, .i32⟩) main_call3_v2) maxsi,
    TRef.unary (TRef.of (T := ⟨S_, .i32⟩) main_c_27) (TRef.of (T := ⟨S_, .i32⟩) main_call3_v3) id,
    TRef.unary (TRef.of (T := ⟨S_, .i32⟩) main_call3_v3) (TRef.of (T := ⟨S32x131072, .i32⟩) main_call3_v4) (broadcastInDim S32x131072 ![] bcast_S_S32x131072),
    TRef.binary (TRef.of (T := ⟨S32x131072, .i32⟩) main_call3_v4) (TRef.of (T := ⟨S32x131072, .i32⟩) main_call3_v2) (TRef.of (T := ⟨S32x131072, .i32⟩) main_v74) minsi,
    nullary main_c_28 (constantI S_ 32 0#32),
    nullary main_c_29 (constantI S_ 32 63#32),
    TRef.unary (TRef.of (T := ⟨S_, .i32⟩) main_c_28) (TRef.of (T := ⟨S_, .i32⟩) main_call4_v0) id,
    TRef.unary (TRef.of (T := ⟨S_, .i32⟩) main_call4_v0) (TRef.of (T := ⟨S32x131072, .i32⟩) main_call4_v1) (broadcastInDim S32x131072 ![] bcast_S_S32x131072),
    TRef.binary (TRef.of (T := ⟨S32x131072, .i32⟩) main_call4_v1) (TRef.of (T := ⟨S32x131072, .i32⟩) main_v43) (TRef.of (T := ⟨S32x131072, .i32⟩) main_call4_v2) maxsi,
    TRef.unary (TRef.of (T := ⟨S_, .i32⟩) main_c_29) (TRef.of (T := ⟨S_, .i32⟩) main_call4_v3) id,
    TRef.unary (TRef.of (T := ⟨S_, .i32⟩) main_call4_v3) (TRef.of (T := ⟨S32x131072, .i32⟩) main_call4_v4) (broadcastInDim S32x131072 ![] bcast_S_S32x131072),
    TRef.binary (TRef.of (T := ⟨S32x131072, .i32⟩) main_call4_v4) (TRef.of (T := ⟨S32x131072, .i32⟩) main_call4_v2) (TRef.of (T := ⟨S32x131072, .i32⟩) main_v75) minsi,
    nullary main_c_30 (constantI S_ 32 0#32),
    nullary main_c_31 (constantI S_ 32 63#32),
    TRef.unary (TRef.of (T := ⟨S_, .i32⟩) main_c_30) (TRef.of (T := ⟨S_, .i32⟩) main_call5_v0) id,
    TRef.unary (TRef.of (T := ⟨S_, .i32⟩) main_call5_v0) (TRef.of (T := ⟨S32x131072, .i32⟩) main_call5_v1) (broadcastInDim S32x131072 ![] bcast_S_S32x131072),
    TRef.binary (TRef.of (T := ⟨S32x131072, .i32⟩) main_call5_v1) (TRef.of (T := ⟨S32x131072, .i32⟩) main_v45) (TRef.of (T := ⟨S32x131072, .i32⟩) main_call5_v2) maxsi,
    TRef.unary (TRef.of (T := ⟨S_, .i32⟩) main_c_31) (TRef.of (T := ⟨S_, .i32⟩) main_call5_v3) id,
    TRef.unary (TRef.of (T := ⟨S_, .i32⟩) main_call5_v3) (TRef.of (T := ⟨S32x131072, .i32⟩) main_call5_v4) (broadcastInDim S32x131072 ![] bcast_S_S32x131072),
    TRef.binary (TRef.of (T := ⟨S32x131072, .i32⟩) main_call5_v4) (TRef.of (T := ⟨S32x131072, .i32⟩) main_call5_v2) (TRef.of (T := ⟨S32x131072, .i32⟩) main_v76) minsi,
    nullary main_c_32 (constantI S_ 32 0#32),
    unary main_c_32 main_v77 (broadcastInDim S32x131072 ![] bcast_S_S32x131072 : (⟨S_, .i32⟩ : BufTy).Contents (Elt F) → (⟨S32x131072, .i32⟩ : BufTy).Contents (Elt F)),
    binary main_v76 main_v77 main_v78 (cmpi .slt : (⟨S32x131072, .i32⟩ : BufTy).Contents (Elt F) → (⟨S32x131072, .i32⟩ : BufTy).Contents (Elt F) → (⟨S32x131072, .i1⟩ : BufTy).Contents (Elt F)),
    nullary main_c_33 (constantI S_ 32 64#32),
    unary main_c_33 main_v79 (broadcastInDim S32x131072 ![] bcast_S_S32x131072 : (⟨S_, .i32⟩ : BufTy).Contents (Elt F) → (⟨S32x131072, .i32⟩ : BufTy).Contents (Elt F)),
    binary main_v76 main_v79 main_v80 (addi : (⟨S32x131072, .i32⟩ : BufTy).Contents (Elt F) → (⟨S32x131072, .i32⟩ : BufTy).Contents (Elt F) → (⟨S32x131072, .i32⟩ : BufTy).Contents (Elt F)),
    ternary main_v78 main_v80 main_v76 main_v81 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_34 (constantI S_ 32 0#32),
    unary main_c_34 main_v82 (broadcastInDim S32x131072 ![] bcast_S_S32x131072 : (⟨S_, .i32⟩ : BufTy).Contents (Elt F) → (⟨S32x131072, .i32⟩ : BufTy).Contents (Elt F)),
    binary main_v75 main_v82 main_v83 (cmpi .slt : (⟨S32x131072, .i32⟩ : BufTy).Contents (Elt F) → (⟨S32x131072, .i32⟩ : BufTy).Contents (Elt F) → (⟨S32x131072, .i1⟩ : BufTy).Contents (Elt F)),
    nullary main_c_35 (constantI S_ 32 64#32),
    unary main_c_35 main_v84 (broadcastInDim S32x131072 ![] bcast_S_S32x131072 : (⟨S_, .i32⟩ : BufTy).Contents (Elt F) → (⟨S32x131072, .i32⟩ : BufTy).Contents (Elt F)),
    binary main_v75 main_v84 main_v85 (addi : (⟨S32x131072, .i32⟩ : BufTy).Contents (Elt F) → (⟨S32x131072, .i32⟩ : BufTy).Contents (Elt F) → (⟨S32x131072, .i32⟩ : BufTy).Contents (Elt F)),
    ternary main_v83 main_v85 main_v75 main_v86 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_36 (constantI S_ 32 0#32),
    unary main_c_36 main_v87 (broadcastInDim S32x131072 ![] bcast_S_S32x131072 : (⟨S_, .i32⟩ : BufTy).Contents (Elt F) → (⟨S32x131072, .i32⟩ : BufTy).Contents (Elt F)),
    binary main_v74 main_v87 main_v88 (cmpi .slt : (⟨S32x131072, .i32⟩ : BufTy).Contents (Elt F) → (⟨S32x131072, .i32⟩ : BufTy).Contents (Elt F) → (⟨S32x131072, .i1⟩ : BufTy).Contents (Elt F)),
    nullary main_c_37 (constantI S_ 32 64#32),
    unary main_c_37 main_v89 (broadcastInDim S32x131072 ![] bcast_S_S32x131072 : (⟨S_, .i32⟩ : BufTy).Contents (Elt F) → (⟨S32x131072, .i32⟩ : BufTy).Contents (Elt F)),
    binary main_v74 main_v89 main_v90 (addi : (⟨S32x131072, .i32⟩ : BufTy).Contents (Elt F) → (⟨S32x131072, .i32⟩ : BufTy).Contents (Elt F) → (⟨S32x131072, .i32⟩ : BufTy).Contents (Elt F)),
    ternary main_v88 main_v90 main_v74 main_v91 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v81 main_v92 (broadcastInDim S32x131072x1 ![0, 1] bcast_S32x131072_S32x131072x1_0_1 : (⟨S32x131072, .i32⟩ : BufTy).Contents (Elt F) → (⟨S32x131072x1, .i32⟩ : BufTy).Contents (Elt F)),
    unary main_v86 main_v93 (broadcastInDim S32x131072x1 ![0, 1] bcast_S32x131072_S32x131072x1_0_1 : (⟨S32x131072, .i32⟩ : BufTy).Contents (Elt F) → (⟨S32x131072x1, .i32⟩ : BufTy).Contents (Elt F)),
    unary main_v91 main_v94 (broadcastInDim S32x131072x1 ![0, 1] bcast_S32x131072_S32x131072x1_0_1 : (⟨S32x131072, .i32⟩ : BufTy).Contents (Elt F) → (⟨S32x131072x1, .i32⟩ : BufTy).Contents (Elt F)),
    nary ![main_v92, main_v93, main_v94] main_v95 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v95 main_v96 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v73 main_v97 (uitofp .f32 : (⟨S32x131072, .i1⟩ : BufTy).Contents (Elt F) → (⟨S32x131072, .f32⟩ : BufTy).Contents (Elt F)),
    binary main_v56 main_v97 main_v98 (mulf : (⟨S32x131072, .f32⟩ : BufTy).Contents (Elt F) → (⟨S32x131072, .f32⟩ : BufTy).Contents (Elt F) → (⟨S32x131072, .f32⟩ : BufTy).Contents (Elt F)),
    unary main_v98 main_v99 (broadcastInDim S1x32x131072 ![1, 2] bcast_S32x131072_S1x32x131072_1_2 : (⟨S32x131072, .f32⟩ : BufTy).Contents (Elt F) → (⟨S1x32x131072, .f32⟩ : BufTy).Contents (Elt F)),
    unary main_v99 main_v100 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v96 main_v100 main_v101 (mulf : (⟨S3x32x131072, .f32⟩ : BufTy).Contents (Elt F) → (⟨S3x32x131072, .f32⟩ : BufTy).Contents (Elt F) → (⟨S3x32x131072, .f32⟩ : BufTy).Contents (Elt F)),
    binary main_v39 main_v101 main_v102 (addf : (⟨S3x32x131072, .f32⟩ : BufTy).Contents (Elt F) → (⟨S3x32x131072, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrC0 : List (Ref sig .tc) :=
  [main_c, main_v40, main_v41, main_c_12, main_v42, main_v43, main_c_13, main_v44, main_v45, main_cst_14, main_v46, main_v47, main_c_15, main_call0_c, main_call0_v0, main_v48, main_cst_16, main_v49, main_v50, main_c_17, main_call1_c, main_call1_v0, main_v51, main_v52, main_cst_18, main_v53, main_v54, main_c_19, main_call2_c, main_call2_v0, main_v55, main_v56, main_c_20, main_v57, main_v58, main_c_21, main_v59, main_v60, main_v61, main_c_22, main_v62, main_v63, main_v64, main_c_23, main_v65, main_v66, main_v67, main_c_24, main_v68, main_v69, main_v70, main_c_25, main_v71, main_v72, main_v73, main_c_26, main_c_27, main_call3_v0, main_call3_v1, main_call3_v2, main_call3_v3, main_call3_v4, main_v74, main_c_28, main_c_29, main_call4_v0, main_call4_v1, main_call4_v2, main_call4_v3, main_call4_v4, main_v75, main_c_30, main_c_31, main_call5_v0, main_call5_v1, main_call5_v2, main_call5_v3, main_call5_v4, main_v76, main_c_32, main_v77, main_v78, main_c_33, main_v79, main_v80, main_v81, main_c_34, main_v82, main_v83, main_c_35, main_v84, main_v85, main_v86, main_c_36, main_v87, main_v88, main_c_37, main_v89, main_v90, main_v91, main_v92, main_v93, main_v94, main_v95, main_v96, main_v97, main_v98, main_v99, main_v100, main_v101, main_v102]

set_option maxRecDepth 8192 in
/-- Every operation of the list writes its one buffer of that list. -/
theorem opsC0_writes : (opsC0 (F := F)).Forall fun op => op.writes ⊆ ((wrC0).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsC0_keep (W : Valuation τ sig (Elt F)) {r : Ref sig .tc} (hr : r ∉ wrC0) :
    after (opsC0 (F := F)) W (Proc.devRef .tc r) = W (Proc.devRef .tc r) :=
  after_of_writes_sub _ W opsC0_writes hr

/-- The corner's operations do not write this buffer. -/
theorem opsC0_arg0 (W : Valuation τ sig (Elt F)) :
    after (opsC0 (F := F)) W (Proc.devRef .tc main_arg0) = W (Proc.devRef .tc main_arg0) :=
  opsC0_keep W (by decide)

/-- The corner's operations do not write this buffer. -/
theorem opsC0_arg1 (W : Valuation τ sig (Elt F)) :
    after (opsC0 (F := F)) W (Proc.devRef .tc main_arg1) = W (Proc.devRef .tc main_arg1) :=
  opsC0_keep W (by decide)

/-- The corner's operations do not write this buffer. -/
theorem opsC0_v33 (W : Valuation τ sig (Elt F)) :
    after (opsC0 (F := F)) W (Proc.devRef .tc main_v33) = W (Proc.devRef .tc main_v33) :=
  opsC0_keep W (by decide)

/-- The corner's operations do not write this buffer. -/
theorem opsC0_v34 (W : Valuation τ sig (Elt F)) :
    after (opsC0 (F := F)) W (Proc.devRef .tc main_v34) = W (Proc.devRef .tc main_v34) :=
  opsC0_keep W (by decide)

/-- The corner's operations do not write this buffer. -/
theorem opsC0_v35 (W : Valuation τ sig (Elt F)) :
    after (opsC0 (F := F)) W (Proc.devRef .tc main_v35) = W (Proc.devRef .tc main_v35) :=
  opsC0_keep W (by decide)

/-- The corner's operations do not write this buffer. -/
theorem opsC0_v36 (W : Valuation τ sig (Elt F)) :
    after (opsC0 (F := F)) W (Proc.devRef .tc main_v36) = W (Proc.devRef .tc main_v36) :=
  opsC0_keep W (by decide)

/-- The corner's operations do not write this buffer. -/
theorem opsC0_v37 (W : Valuation τ sig (Elt F)) :
    after (opsC0 (F := F)) W (Proc.devRef .tc main_v37) = W (Proc.devRef .tc main_v37) :=
  opsC0_keep W (by decide)

/-- The corner's operations do not write this buffer. -/
theorem opsC0_v38 (W : Valuation τ sig (Elt F)) :
    after (opsC0 (F := F)) W (Proc.devRef .tc main_v38) = W (Proc.devRef .tc main_v38) :=
  opsC0_keep W (by decide)

end Cert.RefRun

end
-- ==== Proof.RefRunW0.lean ====
/-
  Window 0 of the reference's @main (operations 0 to 59 of 943, counting from 0) is the straight line of those
  operations: the called functions' bodies are unfolded at their calls and the sequencing re-associated. The same
  operations are a stretch of the reference's lists cut before the corners, per corner and after them.
-/
import proofs.«174278_j48524540510565_1_alg».proof.Proof.RefRunP
import proofs.«174278_j48524540510565_1_alg».proof.Proof.RefRunC0

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW0 : List (HloOp τ sig (Elt F)) :=
  [ unary main_arg0 main_v0 ((extractStridedSlice S32x131072x1 ![0, 0, 0] · slices_S32x131072x3_S32x131072x1_0_0_0) : (⟨S32x131072x3, .f32⟩ : BufTy).Contents (Elt F) → (⟨S32x131072x1, .f32⟩ : BufTy).Contents (Elt F)),
    reshape main_v0 main_v1 rfl shapeCasts_S32x131072x1_S32x131072,
    nullary main_cst (constant S_ .f32 0x3F800000#32),
    unary main_cst main_v2 (broadcastInDim S32x131072 ![] bcast_S_S32x131072 : (⟨S_, .f32⟩ : BufTy).Contents (Elt F) → (⟨S32x131072, .f32⟩ : BufTy).Contents (Elt F)),
    binary main_v1 main_v2 main_v3 (addf : (⟨S32x131072, .f32⟩ : BufTy).Contents (Elt F) → (⟨S32x131072, .f32⟩ : BufTy).Contents (Elt F) → (⟨S32x131072, .f32⟩ : BufTy).Contents (Elt F)),
    nullary main_cst_0 (constant S_ .f32 0x42800000#32),
    unary main_cst_0 main_v4 (broadcastInDim S32x131072 ![] bcast_S_S32x131072 : (⟨S_, .f32⟩ : BufTy).Contents (Elt F) → (⟨S32x131072, .f32⟩ : BufTy).Contents (Elt F)),
    binary main_v3 main_v4 main_v5 (mulf : (⟨S32x131072, .f32⟩ : BufTy).Contents (Elt F) → (⟨S32x131072, .f32⟩ : BufTy).Contents (Elt F) → (⟨S32x131072, .f32⟩ : BufTy).Contents (Elt F)),
    nullary main_cst_1 (constant S_ .f32 0x3F800000#32),
    unary main_cst_1 main_v6 (broadcastInDim S32x131072 ![] bcast_S_S32x131072 : (⟨S_, .f32⟩ : BufTy).Contents (Elt F) → (⟨S32x131072, .f32⟩ : BufTy).Contents (Elt F)),
    binary main_v5 main_v6 main_v7 (subf : (⟨S32x131072, .f32⟩ : BufTy).Contents (Elt F) → (⟨S32x131072, .f32⟩ : BufTy).Contents (Elt F) → (⟨S32x131072, .f32⟩ : BufTy).Contents (Elt F)),
    nullary main_cst_2 (constant S_ .f32 0x3F000000#32),
    unary main_cst_2 main_v8 (broadcastInDim S32x131072 ![] bcast_S_S32x131072 : (⟨S_, .f32⟩ : BufTy).Contents (Elt F) → (⟨S32x131072, .f32⟩ : BufTy).Contents (Elt F)),
    binary main_v7 main_v8 main_v9 (mulf : (⟨S32x131072, .f32⟩ : BufTy).Contents (Elt F) → (⟨S32x131072, .f32⟩ : BufTy).Contents (Elt F) → (⟨S32x131072, .f32⟩ : BufTy).Contents (Elt F)),
    unary main_arg0 main_v10 ((extractStridedSlice S32x131072x1 ![0, 0, 1] · slices_S32x131072x3_S32x131072x1_0_0_1) : (⟨S32x131072x3, .f32⟩ : BufTy).Contents (Elt F) → (⟨S32x131072x1, .f32⟩ : BufTy).Contents (Elt F)),
    reshape main_v10 main_v11 rfl shapeCasts_S32x131072x1_S32x131072,
    nullary main_cst_3 (constant S_ .f32 0x3F800000#32),
    unary main_cst_3 main_v12 (broadcastInDim S32x131072 ![] bcast_S_S32x131072 : (⟨S_, .f32⟩ : BufTy).Contents (Elt F) → (⟨S32x131072, .f32⟩ : BufTy).Contents (Elt F)),
    binary main_v11 main_v12 main_v13 (addf : (⟨S32x131072, .f32⟩ : BufTy).Contents (Elt F) → (⟨S32x131072, .f32⟩ : BufTy).Contents (Elt F) → (⟨S32x131072, .f32⟩ : BufTy).Contents (Elt F)),
    nullary main_cst_4 (constant S_ .f32 0x42800000#32),
    unary main_cst_4 main_v14 (broadcastInDim S32x131072 ![] bcast_S_S32x131072 : (⟨S_, .f32⟩ : BufTy).Contents (Elt F) → (⟨S32x131072, .f32⟩ : BufTy).Contents (Elt F)),
    binary main_v13 main_v14 main_v15 (mulf : (⟨S32x131072, .f32⟩ : BufTy).Contents (Elt F) → (⟨S32x131072, .f32⟩ : BufTy).Contents (Elt F) → (⟨S32x131072, .f32⟩ : BufTy).Contents (Elt F)),
    nullary main_cst_5 (constant S_ .f32 0x3F800000#32),
    unary main_cst_5 main_v16 (broadcastInDim S32x131072 ![] bcast_S_S32x131072 : (⟨S_, .f32⟩ : BufTy).Contents (Elt F) → (⟨S32x131072, .f32⟩ : BufTy).Contents (Elt F)),
    binary main_v15 main_v16 main_v17 (subf : (⟨S32x131072, .f32⟩ : BufTy).Contents (Elt F) → (⟨S32x131072, .f32⟩ : BufTy).Contents (Elt F) → (⟨S32x131072, .f32⟩ : BufTy).Contents (Elt F)),
    nullary main_cst_6 (constant S_ .f32 0x3F000000#32),
    unary main_cst_6 main_v18 (broadcastInDim S32x131072 ![] bcast_S_S32x131072 : (⟨S_, .f32⟩ : BufTy).Contents (Elt F) → (⟨S32x131072, .f32⟩ : BufTy).Contents (Elt F)),
    binary main_v17 main_v18 main_v19 (mulf : (⟨S32x131072, .f32⟩ : BufTy).Contents (Elt F) → (⟨S32x131072, .f32⟩ : BufTy).Contents (Elt F) → (⟨S32x131072, .f32⟩ : BufTy).Contents (Elt F)),
    unary main_arg0 main_v20 ((extractStridedSlice S32x131072x1 ![0, 0, 2] · slices_S32x131072x3_S32x131072x1_0_0_2) : (⟨S32x131072x3, .f32⟩ : BufTy).Contents (Elt F) → (⟨S32x131072x1, .f32⟩ : BufTy).Contents (Elt F)),
    reshape main_v20 main_v21 rfl shapeCasts_S32x131072x1_S32x131072,
    nullary main_cst_7 (constant S_ .f32 0x3F800000#32),
    unary main_cst_7 main_v22 (broadcastInDim S32x131072 ![] bcast_S_S32x131072 : (⟨S_, .f32⟩ : BufTy).Contents (Elt F) → (⟨S32x131072, .f32⟩ : BufTy).Contents (Elt F)),
    binary main_v21 main_v22 main_v23 (addf : (⟨S32x131072, .f32⟩ : BufTy).Contents (Elt F) → (⟨S32x131072, .f32⟩ : BufTy).Contents (Elt F) → (⟨S32x131072, .f32⟩ : BufTy).Contents (Elt F)),
    nullary main_cst_8 (constant S_ .f32 0x42800000#32),
    unary main_cst_8 main_v24 (broadcastInDim S32x131072 ![] bcast_S_S32x131072 : (⟨S_, .f32⟩ : BufTy).Contents (Elt F) → (⟨S32x131072, .f32⟩ : BufTy).Contents (Elt F)),
    binary main_v23 main_v24 main_v25 (mulf : (⟨S32x131072, .f32⟩ : BufTy).Contents (Elt F) → (⟨S32x131072, .f32⟩ : BufTy).Contents (Elt F) → (⟨S32x131072, .f32⟩ : BufTy).Contents (Elt F)),
    nullary main_cst_9 (constant S_ .f32 0x3F800000#32),
    unary main_cst_9 main_v26 (broadcastInDim S32x131072 ![] bcast_S_S32x131072 : (⟨S_, .f32⟩ : BufTy).Contents (Elt F) → (⟨S32x131072, .f32⟩ : BufTy).Contents (Elt F)),
    binary main_v25 main_v26 main_v27 (subf : (⟨S32x131072, .f32⟩ : BufTy).Contents (Elt F) → (⟨S32x131072, .f32⟩ : BufTy).Contents (Elt F) → (⟨S32x131072, .f32⟩ : BufTy).Contents (Elt F)),
    nullary main_cst_10 (constant S_ .f32 0x3F000000#32),
    unary main_cst_10 main_v28 (broadcastInDim S32x131072 ![] bcast_S_S32x131072 : (⟨S_, .f32⟩ : BufTy).Contents (Elt F) → (⟨S32x131072, .f32⟩ : BufTy).Contents (Elt F)),
    binary main_v27 main_v28 main_v29 (mulf : (⟨S32x131072, .f32⟩ : BufTy).Contents (Elt F) → (⟨S32x131072, .f32⟩ : BufTy).Contents (Elt F) → (⟨S32x131072, .f32⟩ : BufTy).Contents (Elt F)),
    unary main_v9 main_v30 (Host.floor : (⟨S32x131072, .f32⟩ : BufTy).Contents (Elt F) → (⟨S32x131072, .f32⟩ : BufTy).Contents (Elt F)),
    unary main_v19 main_v31 (Host.floor : (⟨S32x131072, .f32⟩ : BufTy).Contents (Elt F) → (⟨S32x131072, .f32⟩ : BufTy).Contents (Elt F)),
    unary main_v29 main_v32 (Host.floor : (⟨S32x131072, .f32⟩ : BufTy).Contents (Elt F) → (⟨S32x131072, .f32⟩ : BufTy).Contents (Elt F)),
    binary main_v9 main_v30 main_v33 (subf : (⟨S32x131072, .f32⟩ : BufTy).Contents (Elt F) → (⟨S32x131072, .f32⟩ : BufTy).Contents (Elt F) → (⟨S32x131072, .f32⟩ : BufTy).Contents (Elt F)),
    binary main_v19 main_v31 main_v34 (subf : (⟨S32x131072, .f32⟩ : BufTy).Contents (Elt F) → (⟨S32x131072, .f32⟩ : BufTy).Contents (Elt F) → (⟨S32x131072, .f32⟩ : BufTy).Contents (Elt F)),
    binary main_v29 main_v32 main_v35 (subf : (⟨S32x131072, .f32⟩ : BufTy).Contents (Elt F) → (⟨S32x131072, .f32⟩ : BufTy).Contents (Elt F) → (⟨S32x131072, .f32⟩ : BufTy).Contents (Elt F)),
    unary main_v30 main_v36 (fptosi 32 : (⟨S32x131072, .f32⟩ : BufTy).Contents (Elt F) → (⟨S32x131072, .i32⟩ : BufTy).Contents (Elt F)),
    unary main_v31 main_v37 (fptosi 32 : (⟨S32x131072, .f32⟩ : BufTy).Contents (Elt F) → (⟨S32x131072, .i32⟩ : BufTy).Contents (Elt F)),
    unary main_v32 main_v38 (fptosi 32 : (⟨S32x131072, .f32⟩ : BufTy).Contents (Elt F) → (⟨S32x131072, .i32⟩ : BufTy).Contents (Elt F)),
    nullary main_cst_11 (constant S_ .f32 0x00000000#32),
    unary main_cst_11 main_v39 (broadcastInDim S3x32x131072 ![] bcast_S_S3x32x131072 : (⟨S_, .f32⟩ : BufTy).Contents (Elt F) → (⟨S3x32x131072, .f32⟩ : BufTy).Contents (Elt F)),
    nullary main_c (constantI S_ 32 0#32),
    unary main_c main_v40 (broadcastInDim S32x131072 ![] bcast_S_S32x131072 : (⟨S_, .i32⟩ : BufTy).Contents (Elt F) → (⟨S32x131072, .i32⟩ : BufTy).Contents (Elt F)),
    binary main_v36 main_v40 main_v41 (addi : (⟨S32x131072, .i32⟩ : BufTy).Contents (Elt F) → (⟨S32x131072, .i32⟩ : BufTy).Contents (Elt F) → (⟨S32x131072, .i32⟩ : BufTy).Contents (Elt F)),
    nullary main_c_12 (constantI S_ 32 0#32),
    unary main_c_12 main_v42 (broadcastInDim S32x131072 ![] bcast_S_S32x131072 : (⟨S_, .i32⟩ : BufTy).Contents (Elt F) → (⟨S32x131072, .i32⟩ : BufTy).Contents (Elt F)),
    binary main_v37 main_v42 main_v43 (addi : (⟨S32x131072, .i32⟩ : BufTy).Contents (Elt F) → (⟨S32x131072, .i32⟩ : BufTy).Contents (Elt F) → (⟨S32x131072, .i32⟩ : BufTy).Contents (Elt F)),
    nullary main_c_13 (constantI S_ 32 0#32) ]

set_option maxRecDepth 4096 in
set_option maxHeartbeats 4000000 in
/-- The window is the straight line of its operations. -/
theorem part0_eq (c : Dev nD) : main_part0 (F := F) c = seq opsW0 := by
  simp only [main_part0, fn_where.body, fn_clip.body, seq, bind_assoc, pure_bind]
  rfl

set_option maxRecDepth 8192 in
/-- The window's operations as a stretch of the cut lists. -/
theorem opsW0_eq : (opsW0 (F := F)) = opsP ++ (List.take 7 opsC0) := rfl

end Cert.RefRun

end
-- ==== Proof.RefRunW1.lean ====
/-
  Window 1 of the reference's @main (operations 60 to 140 of 943, counting from 0) is the straight line of those
  operations: the called functions' bodies are unfolded at their calls and the sequencing re-associated. The same
  operations are a stretch of the reference's lists cut before the corners, per corner and after them.
-/
import proofs.«174278_j48524540510565_1_alg».proof.Proof.RefRunC0

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW1 : List (HloOp τ sig (Elt F)) :=
  [ unary main_c_13 main_v44 (broadcastInDim S32x131072 ![] bcast_S_S32x131072 : (⟨S_, .i32⟩ : BufTy).Contents (Elt F) → (⟨S32x131072, .i32⟩ : BufTy).Contents (Elt F)),
    binary main_v38 main_v44 main_v45 (addi : (⟨S32x131072, .i32⟩ : BufTy).Contents (Elt F) → (⟨S32x131072, .i32⟩ : BufTy).Contents (Elt F) → (⟨S32x131072, .i32⟩ : BufTy).Contents (Elt F)),
    nullary main_cst_14 (constant S_ .f32 0x3F800000#32),
    unary main_cst_14 main_v46 (broadcastInDim S32x131072 ![] bcast_S_S32x131072 : (⟨S_, .f32⟩ : BufTy).Contents (Elt F) → (⟨S32x131072, .f32⟩ : BufTy).Contents (Elt F)),
    binary main_v46 main_v33 main_v47 (subf : (⟨S32x131072, .f32⟩ : BufTy).Contents (Elt F) → (⟨S32x131072, .f32⟩ : BufTy).Contents (Elt F) → (⟨S32x131072, .f32⟩ : BufTy).Contents (Elt F)),
    nullary main_c_15 (constantI S_ 32 0#32),
    TRef.nullary (TRef.of (T := ⟨S_, .i32⟩) main_call0_c) (constantI S_ 32 0#32),
    TRef.binary (TRef.of (T := ⟨S_, .i32⟩) main_c_15) (TRef.of (T := ⟨S_, .i32⟩) main_call0_c) (TRef.of (T := ⟨S_, .i1⟩) main_call0_v0) (cmpi .ne),
    TRef.ternary (TRef.of (T := ⟨S_, .i1⟩) main_call0_v0) (TRef.of (T := ⟨S32x131072, .f32⟩) main_v33) (TRef.of (T := ⟨S32x131072, .f32⟩) main_v47) (TRef.of (T := ⟨S32x131072, .f32⟩) main_v48) (fun p a b => select (broadcastInDim S32x131072 ![] bcast_S_S32x131072 p) a b),
    nullary main_cst_16 (constant S_ .f32 0x3F800000#32),
    unary main_cst_16 main_v49 (broadcastInDim S32x131072 ![] bcast_S_S32x131072 : (⟨S_, .f32⟩ : BufTy).Contents (Elt F) → (⟨S32x131072, .f32⟩ : BufTy).Contents (Elt F)),
    binary main_v49 main_v34 main_v50 (subf : (⟨S32x131072, .f32⟩ : BufTy).Contents (Elt F) → (⟨S32x131072, .f32⟩ : BufTy).Contents (Elt F) → (⟨S32x131072, .f32⟩ : BufTy).Contents (Elt F)),
    nullary main_c_17 (constantI S_ 32 0#32),
    TRef.nullary (TRef.of (T := ⟨S_, .i32⟩) main_call1_c) (constantI S_ 32 0#32),
    TRef.binary (TRef.of (T := ⟨S_, .i32⟩) main_c_17) (TRef.of (T := ⟨S_, .i32⟩) main_call1_c) (TRef.of (T := ⟨S_, .i1⟩) main_call1_v0) (cmpi .ne),
    TRef.ternary (TRef.of (T := ⟨S_, .i1⟩) main_call1_v0) (TRef.of (T := ⟨S32x131072, .f32⟩) main_v34) (TRef.of (T := ⟨S32x131072, .f32⟩) main_v50) (TRef.of (T := ⟨S32x131072, .f32⟩) main_v51) (fun p a b => select (broadcastInDim S32x131072 ![] bcast_S_S32x131072 p) a b),
    binary main_v48 main_v51 main_v52 (mulf : (⟨S32x131072, .f32⟩ : BufTy).Contents (Elt F) → (⟨S32x131072, .f32⟩ : BufTy).Contents (Elt F) → (⟨S32x131072, .f32⟩ : BufTy).Contents (Elt F)),
    nullary main_cst_18 (constant S_ .f32 0x3F800000#32),
    unary main_cst_18 main_v53 (broadcastInDim S32x131072 ![] bcast_S_S32x131072 : (⟨S_, .f32⟩ : BufTy).Contents (Elt F) → (⟨S32x131072, .f32⟩ : BufTy).Contents (Elt F)),
    binary main_v53 main_v35 main_v54 (subf : (⟨S32x131072, .f32⟩ : BufTy).Contents (Elt F) → (⟨S32x131072, .f32⟩ : BufTy).Contents (Elt F) → (⟨S32x131072, .f32⟩ : BufTy).Contents (Elt F)),
    nullary main_c_19 (constantI S_ 32 0#32),
    TRef.nullary (TRef.of (T := ⟨S_, .i32⟩) main_call2_c) (constantI S_ 32 0#32),
    TRef.binary (TRef.of (T := ⟨S_, .i32⟩) main_c_19) (TRef.of (T := ⟨S_, .i32⟩) main_call2_c) (TRef.of (T := ⟨S_, .i1⟩) main_call2_v0) (cmpi .ne),
    TRef.ternary (TRef.of (T := ⟨S_, .i1⟩) main_call2_v0) (TRef.of (T := ⟨S32x131072, .f32⟩) main_v35) (TRef.of (T := ⟨S32x131072, .f32⟩) main_v54) (TRef.of (T := ⟨S32x131072, .f32⟩) main_v55) (fun p a b => select (broadcastInDim S32x131072 ![] bcast_S_S32x131072 p) a b),
    binary main_v52 main_v55 main_v56 (mulf : (⟨S32x131072, .f32⟩ : BufTy).Contents (Elt F) → (⟨S32x131072, .f32⟩ : BufTy).Contents (Elt F) → (⟨S32x131072, .f32⟩ : BufTy).Contents (Elt F)),
    nullary main_c_20 (constantI S_ 32 0#32),
    unary main_c_20 main_v57 (broadcastInDim S32x131072 ![] bcast_S_S32x131072 : (⟨S_, .i32⟩ : BufTy).Contents (Elt F) → (⟨S32x131072, .i32⟩ : BufTy).Contents (Elt F)),
    binary main_v41 main_v57 main_v58 (cmpi .sge : (⟨S32x131072, .i32⟩ : BufTy).Contents (Elt F) → (⟨S32x131072, .i32⟩ : BufTy).Contents (Elt F) → (⟨S32x131072, .i1⟩ : BufTy).Contents (Elt F)),
    nullary main_c_21 (constantI S_ 32 64#32),
    unary main_c_21 main_v59 (broadcastInDim S32x131072 ![] bcast_S_S32x131072 : (⟨S_, .i32⟩ : BufTy).Contents (Elt F) → (⟨S32x131072, .i32⟩ : BufTy).Contents (Elt F)),
    binary main_v41 main_v59 main_v60 (cmpi .slt : (⟨S32x131072, .i32⟩ : BufTy).Contents (Elt F) → (⟨S32x131072, .i32⟩ : BufTy).Contents (Elt F) → (⟨S32x131072, .i1⟩ : BufTy).Contents (Elt F)),
    binary main_v58 main_v60 main_v61 (andi : (⟨S32x131072, .i1⟩ : BufTy).Contents (Elt F) → (⟨S32x131072, .i1⟩ : BufTy).Contents (Elt F) → (⟨S32x131072, .i1⟩ : BufTy).Contents (Elt F)),
    nullary main_c_22 (constantI S_ 32 0#32),
    unary main_c_22 main_v62 (broadcastInDim S32x131072 ![] bcast_S_S32x131072 : (⟨S_, .i32⟩ : BufTy).Contents (Elt F) → (⟨S32x131072, .i32⟩ : BufTy).Contents (Elt F)),
    binary main_v43 main_v62 main_v63 (cmpi .sge : (⟨S32x131072, .i32⟩ : BufTy).Contents (Elt F) → (⟨S32x131072, .i32⟩ : BufTy).Contents (Elt F) → (⟨S32x131072, .i1⟩ : BufTy).Contents (Elt F)),
    binary main_v61 main_v63 main_v64 (andi : (⟨S32x131072, .i1⟩ : BufTy).Contents (Elt F) → (⟨S32x131072, .i1⟩ : BufTy).Contents (Elt F) → (⟨S32x131072, .i1⟩ : BufTy).Contents (Elt F)),
    nullary main_c_23 (constantI S_ 32 64#32),
    unary main_c_23 main_v65 (broadcastInDim S32x131072 ![] bcast_S_S32x131072 : (⟨S_, .i32⟩ : BufTy).Contents (Elt F) → (⟨S32x131072, .i32⟩ : BufTy).Contents (Elt F)),
    binary main_v43 main_v65 main_v66 (cmpi .slt : (⟨S32x131072, .i32⟩ : BufTy).Contents (Elt F) → (⟨S32x131072, .i32⟩ : BufTy).Contents (Elt F) → (⟨S32x131072, .i1⟩ : BufTy).Contents (Elt F)),
    binary main_v64 main_v66 main_v67 (andi : (⟨S32x131072, .i1⟩ : BufTy).Contents (Elt F) → (⟨S32x131072, .i1⟩ : BufTy).Contents (Elt F) → (⟨S32x131072, .i1⟩ : BufTy).Contents (Elt F)),
    nullary main_c_24 (constantI S_ 32 0#32),
    unary main_c_24 main_v68 (broadcastInDim S32x131072 ![] bcast_S_S32x131072 : (⟨S_, .i32⟩ : BufTy).Contents (Elt F) → (⟨S32x131072, .i32⟩ : BufTy).Contents (Elt F)),
    binary main_v45 main_v68 main_v69 (cmpi .sge : (⟨S32x131072, .i32⟩ : BufTy).Contents (Elt F) → (⟨S32x131072, .i32⟩ : BufTy).Contents (Elt F) → (⟨S32x131072, .i1⟩ : BufTy).Contents (Elt F)),
    binary main_v67 main_v69 main_v70 (andi : (⟨S32x131072, .i1⟩ : BufTy).Contents (Elt F) → (⟨S32x131072, .i1⟩ : BufTy).Contents (Elt F) → (⟨S32x131072, .i1⟩ : BufTy).Contents (Elt F)),
    nullary main_c_25 (constantI S_ 32 64#32),
    unary main_c_25 main_v71 (broadcastInDim S32x131072 ![] bcast_S_S32x131072 : (⟨S_, .i32⟩ : BufTy).Contents (Elt F) → (⟨S32x131072, .i32⟩ : BufTy).Contents (Elt F)),
    binary main_v45 main_v71 main_v72 (cmpi .slt : (⟨S32x131072, .i32⟩ : BufTy).Contents (Elt F) → (⟨S32x131072, .i32⟩ : BufTy).Contents (Elt F) → (⟨S32x131072, .i1⟩ : BufTy).Contents (Elt F)),
    binary main_v70 main_v72 main_v73 (andi : (⟨S32x131072, .i1⟩ : BufTy).Contents (Elt F) → (⟨S32x131072, .i1⟩ : BufTy).Contents (Elt F) → (⟨S32x131072, .i1⟩ : BufTy).Contents (Elt F)),
    nullary main_c_26 (constantI S_ 32 0#32),
    nullary main_c_27 (constantI S_ 32 63#32),
    TRef.unary (TRef.of (T := ⟨S_, .i32⟩) main_c_26) (TRef.of (T := ⟨S_, .i32⟩) main_call3_v0) id,
    TRef.unary (TRef.of (T := ⟨S_, .i32⟩) main_call3_v0) (TRef.of (T := ⟨S32x131072, .i32⟩) main_call3_v1) (broadcastInDim S32x131072 ![] bcast_S_S32x131072),
    TRef.binary (TRef.of (T := ⟨S32x131072, .i32⟩) main_call3_v1) (TRef.of (T := ⟨S32x131072, .i32⟩) main_v41) (TRef.of (T := ⟨S32x131072, .i32⟩) main_call3_v2) maxsi,
    TRef.unary (TRef.of (T := ⟨S_, .i32⟩) main_c_27) (TRef.of (T := ⟨S_, .i32⟩) main_call3_v3) id,
    TRef.unary (TRef.of (T := ⟨S_, .i32⟩) main_call3_v3) (TRef.of (T := ⟨S32x131072, .i32⟩) main_call3_v4) (broadcastInDim S32x131072 ![] bcast_S_S32x131072),
    TRef.binary (TRef.of (T := ⟨S32x131072, .i32⟩) main_call3_v4) (TRef.of (T := ⟨S32x131072, .i32⟩) main_call3_v2) (TRef.of (T := ⟨S32x131072, .i32⟩) main_v74) minsi,
    nullary main_c_28 (constantI S_ 32 0#32),
    nullary main_c_29 (constantI S_ 32 63#32),
    TRef.unary (TRef.of (T := ⟨S_, .i32⟩) main_c_28) (TRef.of (T := ⟨S_, .i32⟩) main_call4_v0) id,
    TRef.unary (TRef.of (T := ⟨S_, .i32⟩) main_call4_v0) (TRef.of (T := ⟨S32x131072, .i32⟩) main_call4_v1) (broadcastInDim S32x131072 ![] bcast_S_S32x131072),
    TRef.binary (TRef.of (T := ⟨S32x131072, .i32⟩) main_call4_v1) (TRef.of (T := ⟨S32x131072, .i32⟩) main_v43) (TRef.of (T := ⟨S32x131072, .i32⟩) main_call4_v2) maxsi,
    TRef.unary (TRef.of (T := ⟨S_, .i32⟩) main_c_29) (TRef.of (T := ⟨S_, .i32⟩) main_call4_v3) id,
    TRef.unary (TRef.of (T := ⟨S_, .i32⟩) main_call4_v3) (TRef.of (T := ⟨S32x131072, .i32⟩) main_call4_v4) (broadcastInDim S32x131072 ![] bcast_S_S32x131072),
    TRef.binary (TRef.of (T := ⟨S32x131072, .i32⟩) main_call4_v4) (TRef.of (T := ⟨S32x131072, .i32⟩) main_call4_v2) (TRef.of (T := ⟨S32x131072, .i32⟩) main_v75) minsi,
    nullary main_c_30 (constantI S_ 32 0#32),
    nullary main_c_31 (constantI S_ 32 63#32),
    TRef.unary (TRef.of (T := ⟨S_, .i32⟩) main_c_30) (TRef.of (T := ⟨S_, .i32⟩) main_call5_v0) id,
    TRef.unary (TRef.of (T := ⟨S_, .i32⟩) main_call5_v0) (TRef.of (T := ⟨S32x131072, .i32⟩) main_call5_v1) (broadcastInDim S32x131072 ![] bcast_S_S32x131072),
    TRef.binary (TRef.of (T := ⟨S32x131072, .i32⟩) main_call5_v1) (TRef.of (T := ⟨S32x131072, .i32⟩) main_v45) (TRef.of (T := ⟨S32x131072, .i32⟩) main_call5_v2) maxsi,
    TRef.unary (TRef.of (T := ⟨S_, .i32⟩) main_c_31) (TRef.of (T := ⟨S_, .i32⟩) main_call5_v3) id,
    TRef.unary (TRef.of (T := ⟨S_, .i32⟩) main_call5_v3) (TRef.of (T := ⟨S32x131072, .i32⟩) main_call5_v4) (broadcastInDim S32x131072 ![] bcast_S_S32x131072),
    TRef.binary (TRef.of (T := ⟨S32x131072, .i32⟩) main_call5_v4) (TRef.of (T := ⟨S32x131072, .i32⟩) main_call5_v2) (TRef.of (T := ⟨S32x131072, .i32⟩) main_v76) minsi,
    nullary main_c_32 (constantI S_ 32 0#32),
    unary main_c_32 main_v77 (broadcastInDim S32x131072 ![] bcast_S_S32x131072 : (⟨S_, .i32⟩ : BufTy).Contents (Elt F) → (⟨S32x131072, .i32⟩ : BufTy).Contents (Elt F)),
    binary main_v76 main_v77 main_v78 (cmpi .slt : (⟨S32x131072, .i32⟩ : BufTy).Contents (Elt F) → (⟨S32x131072, .i32⟩ : BufTy).Contents (Elt F) → (⟨S32x131072, .i1⟩ : BufTy).Contents (Elt F)),
    nullary main_c_33 (constantI S_ 32 64#32),
    unary main_c_33 main_v79 (broadcastInDim S32x131072 ![] bcast_S_S32x131072 : (⟨S_, .i32⟩ : BufTy).Contents (Elt F) → (⟨S32x131072, .i32⟩ : BufTy).Contents (Elt F)),
    binary main_v76 main_v79 main_v80 (addi : (⟨S32x131072, .i32⟩ : BufTy).Contents (Elt F) → (⟨S32x131072, .i32⟩ : BufTy).Contents (Elt F) → (⟨S32x131072, .i32⟩ : BufTy).Contents (Elt F)),
    ternary main_v78 main_v80 main_v76 main_v81 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_34 (constantI S_ 32 0#32),
    unary main_c_34 main_v82 (broadcastInDim S32x131072 ![] bcast_S_S32x131072 : (⟨S_, .i32⟩ : BufTy).Contents (Elt F) → (⟨S32x131072, .i32⟩ : BufTy).Contents (Elt F)) ]

set_option maxRecDepth 4096 in
set_option maxHeartbeats 4000000 in
/-- The window is the straight line of its operations. -/
theorem part1_eq (c : Dev nD) : main_part1 (F := F) c = seq opsW1 := by
  simp only [main_part1, fn_where.body, fn_clip.body, seq, bind_assoc, pure_bind]
  rfl

set_option maxRecDepth 8192 in
/-- The window's operations as a stretch of the cut lists. -/
theorem opsW1_eq : (opsW1 (F := F)) = List.take 81 (List.drop 7 opsC0) := rfl

end Cert.RefRun

end
-- ==== Proof.RefRunC1.lean ====
/-
  The operations of corner (dx, dy, dz) = (0, 0, 1) of the eight-corner sum, as a list, the buffers the list writes
  (one per operation), and what it therefore leaves alone from any contents W: the two argument buffers and the six
  buffers of cells and fractional parts.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Corner (0, 0, 1)'s operations, in order. -/
abbrev opsC1 : List (HloOp τ sig (Elt F)) :=
  [ nullary main_c_38 (constantI S_ 32 0#32),
    unary main_c_38 main_v103 (broadcastInDim S32x131072 ![] bcast_S_S32x131072 : (⟨S_, .i32⟩ : BufTy).Contents (Elt F) → (⟨S32x131072, .i32⟩ : BufTy).Contents (Elt F)),
    binary main_v36 main_v103 main_v104 (addi : (⟨S32x131072, .i32⟩ : BufTy).Contents (Elt F) → (⟨S32x131072, .i32⟩ : BufTy).Contents (Elt F) → (⟨S32x131072, .i32⟩ : BufTy).Contents (Elt F)),
    nullary main_c_39 (constantI S_ 32 0#32),
    unary main_c_39 main_v105 (broadcastInDim S32x131072 ![] bcast_S_S32x131072 : (⟨S_, .i32⟩ : BufTy).Contents (Elt F) → (⟨S32x131072, .i32⟩ : BufTy).Contents (Elt F)),
    binary main_v37 main_v105 main_v106 (addi : (⟨S32x131072, .i32⟩ : BufTy).Contents (Elt F) → (⟨S32x131072, .i32⟩ : BufTy).Contents (Elt F) → (⟨S32x131072, .i32⟩ : BufTy).Contents (Elt F)),
    nullary main_c_40 (constantI S_ 32 1#32),
    unary main_c_40 main_v107 (broadcastInDim S32x131072 ![] bcast_S_S32x131072 : (⟨S_, .i32⟩ : BufTy).Contents (Elt F) → (⟨S32x131072, .i32⟩ : BufTy).Contents (Elt F)),
    binary main_v38 main_v107 main_v108 (addi : (⟨S32x131072, .i32⟩ : BufTy).Contents (Elt F) → (⟨S32x131072, .i32⟩ : BufTy).Contents (Elt F) → (⟨S32x131072, .i32⟩ : BufTy).Contents (Elt F)),
    nullary main_cst_41 (constant S_ .f32 0x3F800000#32),
    unary main_cst_41 main_v109 (broadcastInDim S32x131072 ![] bcast_S_S32x131072 : (⟨S_, .f32⟩ : BufTy).Contents (Elt F) → (⟨S32x131072, .f32⟩ : BufTy).Contents (Elt F)),
    binary main_v109 main_v33 main_v110 (subf : (⟨S32x131072, .f32⟩ : BufTy).Contents (Elt F) → (⟨S32x131072, .f32⟩ : BufTy).Contents (Elt F) → (⟨S32x131072, .f32⟩ : BufTy).Contents (Elt F)),
    nullary main_c_42 (constantI S_ 32 0#32),
    TRef.nullary (TRef.of (T := ⟨S_, .i32⟩) main_call6_c) (constantI S_ 32 0#32),
    TRef.binary (TRef.of (T := ⟨S_, .i32⟩) main_c_42) (TRef.of (T := ⟨S_, .i32⟩) main_call6_c) (TRef.of (T := ⟨S_, .i1⟩) main_call6_v0) (cmpi .ne),
    TRef.ternary (TRef.of (T := ⟨S_, .i1⟩) main_call6_v0) (TRef.of (T := ⟨S32x131072, .f32⟩) main_v33) (TRef.of (T := ⟨S32x131072, .f32⟩) main_v110) (TRef.of (T := ⟨S32x131072, .f32⟩) main_v111) (fun p a b => select (broadcastInDim S32x131072 ![] bcast_S_S32x131072 p) a b),
    nullary main_cst_43 (constant S_ .f32 0x3F800000#32),
    unary main_cst_43 main_v112 (broadcastInDim S32x131072 ![] bcast_S_S32x131072 : (⟨S_, .f32⟩ : BufTy).Contents (Elt F) → (⟨S32x131072, .f32⟩ : BufTy).Contents (Elt F)),
    binary main_v112 main_v34 main_v113 (subf : (⟨S32x131072, .f32⟩ : BufTy).Contents (Elt F) → (⟨S32x131072, .f32⟩ : BufTy).Contents (Elt F) → (⟨S32x131072, .f32⟩ : BufTy).Contents (Elt F)),
    nullary main_c_44 (constantI S_ 32 0#32),
    TRef.nullary (TRef.of (T := ⟨S_, .i32⟩) main_call7_c) (constantI S_ 32 0#32),
    TRef.binary (TRef.of (T := ⟨S_, .i32⟩) main_c_44) (TRef.of (T := ⟨S_, .i32⟩) main_call7_c) (TRef.of (T := ⟨S_, .i1⟩) main_call7_v0) (cmpi .ne),
    TRef.ternary (TRef.of (T := ⟨S_, .i1⟩) main_call7_v0) (TRef.of (T := ⟨S32x131072, .f32⟩) main_v34) (TRef.of (T := ⟨S32x131072, .f32⟩) main_v113) (TRef.of (T := ⟨S32x131072, .f32⟩) main_v114) (fun p a b => select (broadcastInDim S32x131072 ![] bcast_S_S32x131072 p) a b),
    binary main_v111 main_v114 main_v115 (mulf : (⟨S32x131072, .f32⟩ : BufTy).Contents (Elt F) → (⟨S32x131072, .f32⟩ : BufTy).Contents (Elt F) → (⟨S32x131072, .f32⟩ : BufTy).Contents (Elt F)),
    nullary main_cst_45 (constant S_ .f32 0x3F800000#32),
    unary main_cst_45 main_v116 (broadcastInDim S32x131072 ![] bcast_S_S32x131072 : (⟨S_, .f32⟩ : BufTy).Contents (Elt F) → (⟨S32x131072, .f32⟩ : BufTy).Contents (Elt F)),
    binary main_v116 main_v35 main_v117 (subf : (⟨S32x131072, .f32⟩ : BufTy).Contents (Elt F) → (⟨S32x131072, .f32⟩ : BufTy).Contents (Elt F) → (⟨S32x131072, .f32⟩ : BufTy).Contents (Elt F)),
    nullary main_c_46 (constantI S_ 32 1#32),
    TRef.nullary (TRef.of (T := ⟨S_, .i32⟩) main_call8_c) (constantI S_ 32 0#32),
    TRef.binary (TRef.of (T := ⟨S_, .i32⟩) main_c_46) (TRef.of (T := ⟨S_, .i32⟩) main_call8_c) (TRef.of (T := ⟨S_, .i1⟩) main_call8_v0) (cmpi .ne),
    TRef.ternary (TRef.of (T := ⟨S_, .i1⟩) main_call8_v0) (TRef.of (T := ⟨S32x131072, .f32⟩) main_v35) (TRef.of (T := ⟨S32x131072, .f32⟩) main_v117) (TRef.of (T := ⟨S32x131072, .f32⟩) main_v118) (fun p a b => select (broadcastInDim S32x131072 ![] bcast_S_S32x131072 p) a b),
    binary main_v115 main_v118 main_v119 (mulf : (⟨S32x131072, .f32⟩ : BufTy).Contents (Elt F) → (⟨S32x131072, .f32⟩ : BufTy).Contents (Elt F) → (⟨S32x131072, .f32⟩ : BufTy).Contents (Elt F)),
    nullary main_c_47 (constantI S_ 32 0#32),
    unary main_c_47 main_v120 (broadcastInDim S32x131072 ![] bcast_S_S32x131072 : (⟨S_, .i32⟩ : BufTy).Contents (Elt F) → (⟨S32x131072, .i32⟩ : BufTy).Contents (Elt F)),
    binary main_v104 main_v120 main_v121 (cmpi .sge : (⟨S32x131072, .i32⟩ : BufTy).Contents (Elt F) → (⟨S32x131072, .i32⟩ : BufTy).Contents (Elt F) → (⟨S32x131072, .i1⟩ : BufTy).Contents (Elt F)),
    nullary main_c_48 (constantI S_ 32 64#32),
    unary main_c_48 main_v122 (broadcastInDim S32x131072 ![] bcast_S_S32x131072 : (⟨S_, .i32⟩ : BufTy).Contents (Elt F) → (⟨S32x131072, .i32⟩ : BufTy).Contents (Elt F)),
    binary main_v104 main_v122 main_v123 (cmpi .slt : (⟨S32x131072, .i32⟩ : BufTy).Contents (Elt F) → (⟨S32x131072, .i32⟩ : BufTy).Contents (Elt F) → (⟨S32x131072, .i1⟩ : BufTy).Contents (Elt F)),
    binary main_v121 main_v123 main_v124 (andi : (⟨S32x131072, .i1⟩ : BufTy).Contents (Elt F) → (⟨S32x131072, .i1⟩ : BufTy).Contents (Elt F) → (⟨S32x131072, .i1⟩ : BufTy).Contents (Elt F)),
    nullary main_c_49 (constantI S_ 32 0#32),
    unary main_c_49 main_v125 (broadcastInDim S32x131072 ![] bcast_S_S32x131072 : (⟨S_, .i32⟩ : BufTy).Contents (Elt F) → (⟨S32x131072, .i32⟩ : BufTy).Contents (Elt F)),
    binary main_v106 main_v125 main_v126 (cmpi .sge : (⟨S32x131072, .i32⟩ : BufTy).Contents (Elt F) → (⟨S32x131072, .i32⟩ : BufTy).Contents (Elt F) → (⟨S32x131072, .i1⟩ : BufTy).Contents (Elt F)),
    binary main_v124 main_v126 main_v127 (andi : (⟨S32x131072, .i1⟩ : BufTy).Contents (Elt F) → (⟨S32x131072, .i1⟩ : BufTy).Contents (Elt F) → (⟨S32x131072, .i1⟩ : BufTy).Contents (Elt F)),
    nullary main_c_50 (constantI S_ 32 64#32),
    unary main_c_50 main_v128 (broadcastInDim S32x131072 ![] bcast_S_S32x131072 : (⟨S_, .i32⟩ : BufTy).Contents (Elt F) → (⟨S32x131072, .i32⟩ : BufTy).Contents (Elt F)),
    binary main_v106 main_v128 main_v129 (cmpi .slt : (⟨S32x131072, .i32⟩ : BufTy).Contents (Elt F) → (⟨S32x131072, .i32⟩ : BufTy).Contents (Elt F) → (⟨S32x131072, .i1⟩ : BufTy).Contents (Elt F)),
    binary main_v127 main_v129 main_v130 (andi : (⟨S32x131072, .i1⟩ : BufTy).Contents (Elt F) → (⟨S32x131072, .i1⟩ : BufTy).Contents (Elt F) → (⟨S32x131072, .i1⟩ : BufTy).Contents (Elt F)),
    nullary main_c_51 (constantI S_ 32 0#32),
    unary main_c_51 main_v131 (broadcastInDim S32x131072 ![] bcast_S_S32x131072 : (⟨S_, .i32⟩ : BufTy).Contents (Elt F) → (⟨S32x131072, .i32⟩ : BufTy).Contents (Elt F)),
    binary main_v108 main_v131 main_v132 (cmpi .sge : (⟨S32x131072, .i32⟩ : BufTy).Contents (Elt F) → (⟨S32x131072, .i32⟩ : BufTy).Contents (Elt F) → (⟨S32x131072, .i1⟩ : BufTy).Contents (Elt F)),
    binary main_v130 main_v132 main_v133 (andi : (⟨S32x131072, .i1⟩ : BufTy).Contents (Elt F) → (⟨S32x131072, .i1⟩ : BufTy).Contents (Elt F) → (⟨S32x131072, .i1⟩ : BufTy).Contents (Elt F)),
    nullary main_c_52 (constantI S_ 32 64#32),
    unary main_c_52 main_v134 (broadcastInDim S32x131072 ![] bcast_S_S32x131072 : (⟨S_, .i32⟩ : BufTy).Contents (Elt F) → (⟨S32x131072, .i32⟩ : BufTy).Contents (Elt F)),
    binary main_v108 main_v134 main_v135 (cmpi .slt : (⟨S32x131072, .i32⟩ : BufTy).Contents (Elt F) → (⟨S32x131072, .i32⟩ : BufTy).Contents (Elt F) → (⟨S32x131072, .i1⟩ : BufTy).Contents (Elt F)),
    binary main_v133 main_v135 main_v136 (andi : (⟨S32x131072, .i1⟩ : BufTy).Contents (Elt F) → (⟨S32x131072, .i1⟩ : BufTy).Contents (Elt F) → (⟨S32x131072, .i1⟩ : BufTy).Contents (Elt F)),
    nullary main_c_53 (constantI S_ 32 0#32),
    nullary main_c_54 (constantI S_ 32 63#32),
    TRef.unary (TRef.of (T := ⟨S_, .i32⟩) main_c_53) (TRef.of (T := ⟨S_, .i32⟩) main_call9_v0) id,
    TRef.unary (TRef.of (T := ⟨S_, .i32⟩) main_call9_v0) (TRef.of (T := ⟨S32x131072, .i32⟩) main_call9_v1) (broadcastInDim S32x131072 ![] bcast_S_S32x131072),
    TRef.binary (TRef.of (T := ⟨S32x131072, .i32⟩) main_call9_v1) (TRef.of (T := ⟨S32x131072, .i32⟩) main_v104) (TRef.of (T := ⟨S32x131072, .i32⟩) main_call9_v2) maxsi,
    TRef.unary (TRef.of (T := ⟨S_, .i32⟩) main_c_54) (TRef.of (T := ⟨S_, .i32⟩) main_call9_v3) id,
    TRef.unary (TRef.of (T := ⟨S_, .i32⟩) main_call9_v3) (TRef.of (T := ⟨S32x131072, .i32⟩) main_call9_v4) (broadcastInDim S32x131072 ![] bcast_S_S32x131072),
    TRef.binary (TRef.of (T := ⟨S32x131072, .i32⟩) main_call9_v4) (TRef.of (T := ⟨S32x131072, .i32⟩) main_call9_v2) (TRef.of (T := ⟨S32x131072, .i32⟩) main_v137) minsi,
    nullary main_c_55 (constantI S_ 32 0#32),
    nullary main_c_56 (constantI S_ 32 63#32),
    TRef.unary (TRef.of (T := ⟨S_, .i32⟩) main_c_55) (TRef.of (T := ⟨S_, .i32⟩) main_call10_v0) id,
    TRef.unary (TRef.of (T := ⟨S_, .i32⟩) main_call10_v0) (TRef.of (T := ⟨S32x131072, .i32⟩) main_call10_v1) (broadcastInDim S32x131072 ![] bcast_S_S32x131072),
    TRef.binary (TRef.of (T := ⟨S32x131072, .i32⟩) main_call10_v1) (TRef.of (T := ⟨S32x131072, .i32⟩) main_v106) (TRef.of (T := ⟨S32x131072, .i32⟩) main_call10_v2) maxsi,
    TRef.unary (TRef.of (T := ⟨S_, .i32⟩) main_c_56) (TRef.of (T := ⟨S_, .i32⟩) main_call10_v3) id,
    TRef.unary (TRef.of (T := ⟨S_, .i32⟩) main_call10_v3) (TRef.of (T := ⟨S32x131072, .i32⟩) main_call10_v4) (broadcastInDim S32x131072 ![] bcast_S_S32x131072),
    TRef.binary (TRef.of (T := ⟨S32x131072, .i32⟩) main_call10_v4) (TRef.of (T := ⟨S32x131072, .i32⟩) main_call10_v2) (TRef.of (T := ⟨S32x131072, .i32⟩) main_v138) minsi,
    nullary main_c_57 (constantI S_ 32 0#32),
    nullary main_c_58 (constantI S_ 32 63#32),
    TRef.unary (TRef.of (T := ⟨S_, .i32⟩) main_c_57) (TRef.of (T := ⟨S_, .i32⟩) main_call11_v0) id,
    TRef.unary (TRef.of (T := ⟨S_, .i32⟩) main_call11_v0) (TRef.of (T := ⟨S32x131072, .i32⟩) main_call11_v1) (broadcastInDim S32x131072 ![] bcast_S_S32x131072),
    TRef.binary (TRef.of (T := ⟨S32x131072, .i32⟩) main_call11_v1) (TRef.of (T := ⟨S32x131072, .i32⟩) main_v108) (TRef.of (T := ⟨S32x131072, .i32⟩) main_call11_v2) maxsi,
    TRef.unary (TRef.of (T := ⟨S_, .i32⟩) main_c_58) (TRef.of (T := ⟨S_, .i32⟩) main_call11_v3) id,
    TRef.unary (TRef.of (T := ⟨S_, .i32⟩) main_call11_v3) (TRef.of (T := ⟨S32x131072, .i32⟩) main_call11_v4) (broadcastInDim S32x131072 ![] bcast_S_S32x131072),
    TRef.binary (TRef.of (T := ⟨S32x131072, .i32⟩) main_call11_v4) (TRef.of (T := ⟨S32x131072, .i32⟩) main_call11_v2) (TRef.of (T := ⟨S32x131072, .i32⟩) main_v139) minsi,
    nullary main_c_59 (constantI S_ 32 0#32),
    unary main_c_59 main_v140 (broadcastInDim S32x131072 ![] bcast_S_S32x131072 : (⟨S_, .i32⟩ : BufTy).Contents (Elt F) → (⟨S32x131072, .i32⟩ : BufTy).Contents (Elt F)),
    binary main_v139 main_v140 main_v141 (cmpi .slt : (⟨S32x131072, .i32⟩ : BufTy).Contents (Elt F) → (⟨S32x131072, .i32⟩ : BufTy).Contents (Elt F) → (⟨S32x131072, .i1⟩ : BufTy).Contents (Elt F)),
    nullary main_c_60 (constantI S_ 32 64#32),
    unary main_c_60 main_v142 (broadcastInDim S32x131072 ![] bcast_S_S32x131072 : (⟨S_, .i32⟩ : BufTy).Contents (Elt F) → (⟨S32x131072, .i32⟩ : BufTy).Contents (Elt F)),
    binary main_v139 main_v142 main_v143 (addi : (⟨S32x131072, .i32⟩ : BufTy).Contents (Elt F) → (⟨S32x131072, .i32⟩ : BufTy).Contents (Elt F) → (⟨S32x131072, .i32⟩ : BufTy).Contents (Elt F)),
    ternary main_v141 main_v143 main_v139 main_v144 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_61 (constantI S_ 32 0#32),
    unary main_c_61 main_v145 (broadcastInDim S32x131072 ![] bcast_S_S32x131072 : (⟨S_, .i32⟩ : BufTy).Contents (Elt F) → (⟨S32x131072, .i32⟩ : BufTy).Contents (Elt F)),
    binary main_v138 main_v145 main_v146 (cmpi .slt : (⟨S32x131072, .i32⟩ : BufTy).Contents (Elt F) → (⟨S32x131072, .i32⟩ : BufTy).Contents (Elt F) → (⟨S32x131072, .i1⟩ : BufTy).Contents (Elt F)),
    nullary main_c_62 (constantI S_ 32 64#32),
    unary main_c_62 main_v147 (broadcastInDim S32x131072 ![] bcast_S_S32x131072 : (⟨S_, .i32⟩ : BufTy).Contents (Elt F) → (⟨S32x131072, .i32⟩ : BufTy).Contents (Elt F)),
    binary main_v138 main_v147 main_v148 (addi : (⟨S32x131072, .i32⟩ : BufTy).Contents (Elt F) → (⟨S32x131072, .i32⟩ : BufTy).Contents (Elt F) → (⟨S32x131072, .i32⟩ : BufTy).Contents (Elt F)),
    ternary main_v146 main_v148 main_v138 main_v149 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_63 (constantI S_ 32 0#32),
    unary main_c_63 main_v150 (broadcastInDim S32x131072 ![] bcast_S_S32x131072 : (⟨S_, .i32⟩ : BufTy).Contents (Elt F) → (⟨S32x131072, .i32⟩ : BufTy).Contents (Elt F)),
    binary main_v137 main_v150 main_v151 (cmpi .slt : (⟨S32x131072, .i32⟩ : BufTy).Contents (Elt F) → (⟨S32x131072, .i32⟩ : BufTy).Contents (Elt F) → (⟨S32x131072, .i1⟩ : BufTy).Contents (Elt F)),
    nullary main_c_64 (constantI S_ 32 64#32),
    unary main_c_64 main_v152 (broadcastInDim S32x131072 ![] bcast_S_S32x131072 : (⟨S_, .i32⟩ : BufTy).Contents (Elt F) → (⟨S32x131072, .i32⟩ : BufTy).Contents (Elt F)),
    binary main_v137 main_v152 main_v153 (addi : (⟨S32x131072, .i32⟩ : BufTy).Contents (Elt F) → (⟨S32x131072, .i32⟩ : BufTy).Contents (Elt F) → (⟨S32x131072, .i32⟩ : BufTy).Contents (Elt F)),
    ternary main_v151 main_v153 main_v137 main_v154 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v144 main_v155 (broadcastInDim S32x131072x1 ![0, 1] bcast_S32x131072_S32x131072x1_0_1 : (⟨S32x131072, .i32⟩ : BufTy).Contents (Elt F) → (⟨S32x131072x1, .i32⟩ : BufTy).Contents (Elt F)),
    unary main_v149 main_v156 (broadcastInDim S32x131072x1 ![0, 1] bcast_S32x131072_S32x131072x1_0_1 : (⟨S32x131072, .i32⟩ : BufTy).Contents (Elt F) → (⟨S32x131072x1, .i32⟩ : BufTy).Contents (Elt F)),
    unary main_v154 main_v157 (broadcastInDim S32x131072x1 ![0, 1] bcast_S32x131072_S32x131072x1_0_1 : (⟨S32x131072, .i32⟩ : BufTy).Contents (Elt F) → (⟨S32x131072x1, .i32⟩ : BufTy).Contents (Elt F)),
    nary ![main_v155, main_v156, main_v157] main_v158 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v158 main_v159 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v136 main_v160 (uitofp .f32 : (⟨S32x131072, .i1⟩ : BufTy).Contents (Elt F) → (⟨S32x131072, .f32⟩ : BufTy).Contents (Elt F)),
    binary main_v119 main_v160 main_v161 (mulf : (⟨S32x131072, .f32⟩ : BufTy).Contents (Elt F) → (⟨S32x131072, .f32⟩ : BufTy).Contents (Elt F) → (⟨S32x131072, .f32⟩ : BufTy).Contents (Elt F)),
    unary main_v161 main_v162 (broadcastInDim S1x32x131072 ![1, 2] bcast_S32x131072_S1x32x131072_1_2 : (⟨S32x131072, .f32⟩ : BufTy).Contents (Elt F) → (⟨S1x32x131072, .f32⟩ : BufTy).Contents (Elt F)),
    unary main_v162 main_v163 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v159 main_v163 main_v164 (mulf : (⟨S3x32x131072, .f32⟩ : BufTy).Contents (Elt F) → (⟨S3x32x131072, .f32⟩ : BufTy).Contents (Elt F) → (⟨S3x32x131072, .f32⟩ : BufTy).Contents (Elt F)),
    binary main_v102 main_v164 main_v165 (addf : (⟨S3x32x131072, .f32⟩ : BufTy).Contents (Elt F) → (⟨S3x32x131072, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrC1 : List (Ref sig .tc) :=
  [main_c_38, main_v103, main_v104, main_c_39, main_v105, main_v106, main_c_40, main_v107, main_v108, main_cst_41, main_v109, main_v110, main_c_42, main_call6_c, main_call6_v0, main_v111, main_cst_43, main_v112, main_v113, main_c_44, main_call7_c, main_call7_v0, main_v114, main_v115, main_cst_45, main_v116, main_v117, main_c_46, main_call8_c, main_call8_v0, main_v118, main_v119, main_c_47, main_v120, main_v121, main_c_48, main_v122, main_v123, main_v124, main_c_49, main_v125, main_v126, main_v127, main_c_50, main_v128, main_v129, main_v130, main_c_51, main_v131, main_v132, main_v133, main_c_52, main_v134, main_v135, main_v136, main_c_53, main_c_54, main_call9_v0, main_call9_v1, main_call9_v2, main_call9_v3, main_call9_v4, main_v137, main_c_55, main_c_56, main_call10_v0, main_call10_v1, main_call10_v2, main_call10_v3, main_call10_v4, main_v138, main_c_57, main_c_58, main_call11_v0, main_call11_v1, main_call11_v2, main_call11_v3, main_call11_v4, main_v139, main_c_59, main_v140, main_v141, main_c_60, main_v142, main_v143, main_v144, main_c_61, main_v145, main_v146, main_c_62, main_v147, main_v148, main_v149, main_c_63, main_v150, main_v151, main_c_64, main_v152, main_v153, main_v154, main_v155, main_v156, main_v157, main_v158, main_v159, main_v160, main_v161, main_v162, main_v163, main_v164, main_v165]

set_option maxRecDepth 8192 in
/-- Every operation of the list writes its one buffer of that list. -/
theorem opsC1_writes : (opsC1 (F := F)).Forall fun op => op.writes ⊆ ((wrC1).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsC1_keep (W : Valuation τ sig (Elt F)) {r : Ref sig .tc} (hr : r ∉ wrC1) :
    after (opsC1 (F := F)) W (Proc.devRef .tc r) = W (Proc.devRef .tc r) :=
  after_of_writes_sub _ W opsC1_writes hr

/-- The corner's operations do not write this buffer. -/
theorem opsC1_arg0 (W : Valuation τ sig (Elt F)) :
    after (opsC1 (F := F)) W (Proc.devRef .tc main_arg0) = W (Proc.devRef .tc main_arg0) :=
  opsC1_keep W (by decide)

/-- The corner's operations do not write this buffer. -/
theorem opsC1_arg1 (W : Valuation τ sig (Elt F)) :
    after (opsC1 (F := F)) W (Proc.devRef .tc main_arg1) = W (Proc.devRef .tc main_arg1) :=
  opsC1_keep W (by decide)

/-- The corner's operations do not write this buffer. -/
theorem opsC1_v33 (W : Valuation τ sig (Elt F)) :
    after (opsC1 (F := F)) W (Proc.devRef .tc main_v33) = W (Proc.devRef .tc main_v33) :=
  opsC1_keep W (by decide)

/-- The corner's operations do not write this buffer. -/
theorem opsC1_v34 (W : Valuation τ sig (Elt F)) :
    after (opsC1 (F := F)) W (Proc.devRef .tc main_v34) = W (Proc.devRef .tc main_v34) :=
  opsC1_keep W (by decide)

/-- The corner's operations do not write this buffer. -/
theorem opsC1_v35 (W : Valuation τ sig (Elt F)) :
    after (opsC1 (F := F)) W (Proc.devRef .tc main_v35) = W (Proc.devRef .tc main_v35) :=
  opsC1_keep W (by decide)

/-- The corner's operations do not write this buffer. -/
theorem opsC1_v36 (W : Valuation τ sig (Elt F)) :
    after (opsC1 (F := F)) W (Proc.devRef .tc main_v36) = W (Proc.devRef .tc main_v36) :=
  opsC1_keep W (by decide)

/-- The corner's operations do not write this buffer. -/
theorem opsC1_v37 (W : Valuation τ sig (Elt F)) :
    after (opsC1 (F := F)) W (Proc.devRef .tc main_v37) = W (Proc.devRef .tc main_v37) :=
  opsC1_keep W (by decide)

/-- The corner's operations do not write this buffer. -/
theorem opsC1_v38 (W : Valuation τ sig (Elt F)) :
    after (opsC1 (F := F)) W (Proc.devRef .tc main_v38) = W (Proc.devRef .tc main_v38) :=
  opsC1_keep W (by decide)

end Cert.RefRun

end
-- ==== Proof.RefRunW2.lean ====
/-
  Window 2 of the reference's @main (operations 141 to 206 of 943, counting from 0) is the straight line of those
  operations: the called functions' bodies are unfolded at their calls and the sequencing re-associated. The same
  operations are a stretch of the reference's lists cut before the corners, per corner and after them.
-/
import proofs.«174278_j48524540510565_1_alg».proof.Proof.RefRunC0
import proofs.«174278_j48524540510565_1_alg».proof.Proof.RefRunC1

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW2 : List (HloOp τ sig (Elt F)) :=
  [ binary main_v75 main_v82 main_v83 (cmpi .slt : (⟨S32x131072, .i32⟩ : BufTy).Contents (Elt F) → (⟨S32x131072, .i32⟩ : BufTy).Contents (Elt F) → (⟨S32x131072, .i1⟩ : BufTy).Contents (Elt F)),
    nullary main_c_35 (constantI S_ 32 64#32),
    unary main_c_35 main_v84 (broadcastInDim S32x131072 ![] bcast_S_S32x131072 : (⟨S_, .i32⟩ : BufTy).Contents (Elt F) → (⟨S32x131072, .i32⟩ : BufTy).Contents (Elt F)),
    binary main_v75 main_v84 main_v85 (addi : (⟨S32x131072, .i32⟩ : BufTy).Contents (Elt F) → (⟨S32x131072, .i32⟩ : BufTy).Contents (Elt F) → (⟨S32x131072, .i32⟩ : BufTy).Contents (Elt F)),
    ternary main_v83 main_v85 main_v75 main_v86 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_36 (constantI S_ 32 0#32),
    unary main_c_36 main_v87 (broadcastInDim S32x131072 ![] bcast_S_S32x131072 : (⟨S_, .i32⟩ : BufTy).Contents (Elt F) → (⟨S32x131072, .i32⟩ : BufTy).Contents (Elt F)),
    binary main_v74 main_v87 main_v88 (cmpi .slt : (⟨S32x131072, .i32⟩ : BufTy).Contents (Elt F) → (⟨S32x131072, .i32⟩ : BufTy).Contents (Elt F) → (⟨S32x131072, .i1⟩ : BufTy).Contents (Elt F)),
    nullary main_c_37 (constantI S_ 32 64#32),
    unary main_c_37 main_v89 (broadcastInDim S32x131072 ![] bcast_S_S32x131072 : (⟨S_, .i32⟩ : BufTy).Contents (Elt F) → (⟨S32x131072, .i32⟩ : BufTy).Contents (Elt F)),
    binary main_v74 main_v89 main_v90 (addi : (⟨S32x131072, .i32⟩ : BufTy).Contents (Elt F) → (⟨S32x131072, .i32⟩ : BufTy).Contents (Elt F) → (⟨S32x131072, .i32⟩ : BufTy).Contents (Elt F)),
    ternary main_v88 main_v90 main_v74 main_v91 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v81 main_v92 (broadcastInDim S32x131072x1 ![0, 1] bcast_S32x131072_S32x131072x1_0_1 : (⟨S32x131072, .i32⟩ : BufTy).Contents (Elt F) → (⟨S32x131072x1, .i32⟩ : BufTy).Contents (Elt F)),
    unary main_v86 main_v93 (broadcastInDim S32x131072x1 ![0, 1] bcast_S32x131072_S32x131072x1_0_1 : (⟨S32x131072, .i32⟩ : BufTy).Contents (Elt F) → (⟨S32x131072x1, .i32⟩ : BufTy).Contents (Elt F)),
    unary main_v91 main_v94 (broadcastInDim S32x131072x1 ![0, 1] bcast_S32x131072_S32x131072x1_0_1 : (⟨S32x131072, .i32⟩ : BufTy).Contents (Elt F) → (⟨S32x131072x1, .i32⟩ : BufTy).Contents (Elt F)),
    nary ![main_v92, main_v93, main_v94] main_v95 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v95 main_v96 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v73 main_v97 (uitofp .f32 : (⟨S32x131072, .i1⟩ : BufTy).Contents (Elt F) → (⟨S32x131072, .f32⟩ : BufTy).Contents (Elt F)),
    binary main_v56 main_v97 main_v98 (mulf : (⟨S32x131072, .f32⟩ : BufTy).Contents (Elt F) → (⟨S32x131072, .f32⟩ : BufTy).Contents (Elt F) → (⟨S32x131072, .f32⟩ : BufTy).Contents (Elt F)),
    unary main_v98 main_v99 (broadcastInDim S1x32x131072 ![1, 2] bcast_S32x131072_S1x32x131072_1_2 : (⟨S32x131072, .f32⟩ : BufTy).Contents (Elt F) → (⟨S1x32x131072, .f32⟩ : BufTy).Contents (Elt F)),
    unary main_v99 main_v100 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v96 main_v100 main_v101 (mulf : (⟨S3x32x131072, .f32⟩ : BufTy).Contents (Elt F) → (⟨S3x32x131072, .f32⟩ : BufTy).Contents (Elt F) → (⟨S3x32x131072, .f32⟩ : BufTy).Contents (Elt F)),
    binary main_v39 main_v101 main_v102 (addf : (⟨S3x32x131072, .f32⟩ : BufTy).Contents (Elt F) → (⟨S3x32x131072, .f32⟩ : BufTy).Contents (Elt F) → (⟨S3x32x131072, .f32⟩ : BufTy).Contents (Elt F)),
    nullary main_c_38 (constantI S_ 32 0#32),
    unary main_c_38 main_v103 (broadcastInDim S32x131072 ![] bcast_S_S32x131072 : (⟨S_, .i32⟩ : BufTy).Contents (Elt F) → (⟨S32x131072, .i32⟩ : BufTy).Contents (Elt F)),
    binary main_v36 main_v103 main_v104 (addi : (⟨S32x131072, .i32⟩ : BufTy).Contents (Elt F) → (⟨S32x131072, .i32⟩ : BufTy).Contents (Elt F) → (⟨S32x131072, .i32⟩ : BufTy).Contents (Elt F)),
    nullary main_c_39 (constantI S_ 32 0#32),
    unary main_c_39 main_v105 (broadcastInDim S32x131072 ![] bcast_S_S32x131072 : (⟨S_, .i32⟩ : BufTy).Contents (Elt F) → (⟨S32x131072, .i32⟩ : BufTy).Contents (Elt F)),
    binary main_v37 main_v105 main_v106 (addi : (⟨S32x131072, .i32⟩ : BufTy).Contents (Elt F) → (⟨S32x131072, .i32⟩ : BufTy).Contents (Elt F) → (⟨S32x131072, .i32⟩ : BufTy).Contents (Elt F)),
    nullary main_c_40 (constantI S_ 32 1#32),
    unary main_c_40 main_v107 (broadcastInDim S32x131072 ![] bcast_S_S32x131072 : (⟨S_, .i32⟩ : BufTy).Contents (Elt F) → (⟨S32x131072, .i32⟩ : BufTy).Contents (Elt F)),
    binary main_v38 main_v107 main_v108 (addi : (⟨S32x131072, .i32⟩ : BufTy).Contents (Elt F) → (⟨S32x131072, .i32⟩ : BufTy).Contents (Elt F) → (⟨S32x131072, .i32⟩ : BufTy).Contents (Elt F)),
    nullary main_cst_41 (constant S_ .f32 0x3F800000#32),
    unary main_cst_41 main_v109 (broadcastInDim S32x131072 ![] bcast_S_S32x131072 : (⟨S_, .f32⟩ : BufTy).Contents (Elt F) → (⟨S32x131072, .f32⟩ : BufTy).Contents (Elt F)),
    binary main_v109 main_v33 main_v110 (subf : (⟨S32x131072, .f32⟩ : BufTy).Contents (Elt F) → (⟨S32x131072, .f32⟩ : BufTy).Contents (Elt F) → (⟨S32x131072, .f32⟩ : BufTy).Contents (Elt F)),
    nullary main_c_42 (constantI S_ 32 0#32),
    TRef.nullary (TRef.of (T := ⟨S_, .i32⟩) main_call6_c) (constantI S_ 32 0#32),
    TRef.binary (TRef.of (T := ⟨S_, .i32⟩) main_c_42) (TRef.of (T := ⟨S_, .i32⟩) main_call6_c) (TRef.of (T := ⟨S_, .i1⟩) main_call6_v0) (cmpi .ne),
    TRef.ternary (TRef.of (T := ⟨S_, .i1⟩) main_call6_v0) (TRef.of (T := ⟨S32x131072, .f32⟩) main_v33) (TRef.of (T := ⟨S32x131072, .f32⟩) main_v110) (TRef.of (T := ⟨S32x131072, .f32⟩) main_v111) (fun p a b => select (broadcastInDim S32x131072 ![] bcast_S_S32x131072 p) a b),
    nullary main_cst_43 (constant S_ .f32 0x3F800000#32),
    unary main_cst_43 main_v112 (broadcastInDim S32x131072 ![] bcast_S_S32x131072 : (⟨S_, .f32⟩ : BufTy).Contents (Elt F) → (⟨S32x131072, .f32⟩ : BufTy).Contents (Elt F)),
    binary main_v112 main_v34 main_v113 (subf : (⟨S32x131072, .f32⟩ : BufTy).Contents (Elt F) → (⟨S32x131072, .f32⟩ : BufTy).Contents (Elt F) → (⟨S32x131072, .f32⟩ : BufTy).Contents (Elt F)),
    nullary main_c_44 (constantI S_ 32 0#32),
    TRef.nullary (TRef.of (T := ⟨S_, .i32⟩) main_call7_c) (constantI S_ 32 0#32),
    TRef.binary (TRef.of (T := ⟨S_, .i32⟩) main_c_44) (TRef.of (T := ⟨S_, .i32⟩) main_call7_c) (TRef.of (T := ⟨S_, .i1⟩) main_call7_v0) (cmpi .ne),
    TRef.ternary (TRef.of (T := ⟨S_, .i1⟩) main_call7_v0) (TRef.of (T := ⟨S32x131072, .f32⟩) main_v34) (TRef.of (T := ⟨S32x131072, .f32⟩) main_v113) (TRef.of (T := ⟨S32x131072, .f32⟩) main_v114) (fun p a b => select (broadcastInDim S32x131072 ![] bcast_S_S32x131072 p) a b),
    binary main_v111 main_v114 main_v115 (mulf : (⟨S32x131072, .f32⟩ : BufTy).Contents (Elt F) → (⟨S32x131072, .f32⟩ : BufTy).Contents (Elt F) → (⟨S32x131072, .f32⟩ : BufTy).Contents (Elt F)),
    nullary main_cst_45 (constant S_ .f32 0x3F800000#32),
    unary main_cst_45 main_v116 (broadcastInDim S32x131072 ![] bcast_S_S32x131072 : (⟨S_, .f32⟩ : BufTy).Contents (Elt F) → (⟨S32x131072, .f32⟩ : BufTy).Contents (Elt F)),
    binary main_v116 main_v35 main_v117 (subf : (⟨S32x131072, .f32⟩ : BufTy).Contents (Elt F) → (⟨S32x131072, .f32⟩ : BufTy).Contents (Elt F) → (⟨S32x131072, .f32⟩ : BufTy).Contents (Elt F)),
    nullary main_c_46 (constantI S_ 32 1#32),
    TRef.nullary (TRef.of (T := ⟨S_, .i32⟩) main_call8_c) (constantI S_ 32 0#32),
    TRef.binary (TRef.of (T := ⟨S_, .i32⟩) main_c_46) (TRef.of (T := ⟨S_, .i32⟩) main_call8_c) (TRef.of (T := ⟨S_, .i1⟩) main_call8_v0) (cmpi .ne),
    TRef.ternary (TRef.of (T := ⟨S_, .i1⟩) main_call8_v0) (TRef.of (T := ⟨S32x131072, .f32⟩) main_v35) (TRef.of (T := ⟨S32x131072, .f32⟩) main_v117) (TRef.of (T := ⟨S32x131072, .f32⟩) main_v118) (fun p a b => select (broadcastInDim S32x131072 ![] bcast_S_S32x131072 p) a b),
    binary main_v115 main_v118 main_v119 (mulf : (⟨S32x131072, .f32⟩ : BufTy).Contents (Elt F) → (⟨S32x131072, .f32⟩ : BufTy).Contents (Elt F) → (⟨S32x131072, .f32⟩ : BufTy).Contents (Elt F)),
    nullary main_c_47 (constantI S_ 32 0#32),
    unary main_c_47 main_v120 (broadcastInDim S32x131072 ![] bcast_S_S32x131072 : (⟨S_, .i32⟩ : BufTy).Contents (Elt F) → (⟨S32x131072, .i32⟩ : BufTy).Contents (Elt F)),
    binary main_v104 main_v120 main_v121 (cmpi .sge : (⟨S32x131072, .i32⟩ : BufTy).Contents (Elt F) → (⟨S32x131072, .i32⟩ : BufTy).Contents (Elt F) → (⟨S32x131072, .i1⟩ : BufTy).Contents (Elt F)),
    nullary main_c_48 (constantI S_ 32 64#32),
    unary main_c_48 main_v122 (broadcastInDim S32x131072 ![] bcast_S_S32x131072 : (⟨S_, .i32⟩ : BufTy).Contents (Elt F) → (⟨S32x131072, .i32⟩ : BufTy).Contents (Elt F)),
    binary main_v104 main_v122 main_v123 (cmpi .slt : (⟨S32x131072, .i32⟩ : BufTy).Contents (Elt F) → (⟨S32x131072, .i32⟩ : BufTy).Contents (Elt F) → (⟨S32x131072, .i1⟩ : BufTy).Contents (Elt F)),
    binary main_v121 main_v123 main_v124 (andi : (⟨S32x131072, .i1⟩ : BufTy).Contents (Elt F) → (⟨S32x131072, .i1⟩ : BufTy).Contents (Elt F) → (⟨S32x131072, .i1⟩ : BufTy).Contents (Elt F)),
    nullary main_c_49 (constantI S_ 32 0#32),
    unary main_c_49 main_v125 (broadcastInDim S32x131072 ![] bcast_S_S32x131072 : (⟨S_, .i32⟩ : BufTy).Contents (Elt F) → (⟨S32x131072, .i32⟩ : BufTy).Contents (Elt F)),
    binary main_v106 main_v125 main_v126 (cmpi .sge : (⟨S32x131072, .i32⟩ : BufTy).Contents (Elt F) → (⟨S32x131072, .i32⟩ : BufTy).Contents (Elt F) → (⟨S32x131072, .i1⟩ : BufTy).Contents (Elt F)),
    binary main_v124 main_v126 main_v127 (andi : (⟨S32x131072, .i1⟩ : BufTy).Contents (Elt F) → (⟨S32x131072, .i1⟩ : BufTy).Contents (Elt F) → (⟨S32x131072, .i1⟩ : BufTy).Contents (Elt F)) ]

set_option maxRecDepth 4096 in
set_option maxHeartbeats 4000000 in
/-- The window is the straight line of its operations. -/
theorem part2_eq (c : Dev nD) : main_part2 (F := F) c = seq opsW2 := by
  simp only [main_part2, fn_where.body, fn_clip.body, seq, bind_assoc, pure_bind]
  rfl

set_option maxRecDepth 8192 in
/-- The window's operations as a stretch of the cut lists. -/
theorem opsW2_eq : (opsW2 (F := F)) = List.drop 81 (List.drop 7 opsC0) ++ (List.take 43 opsC1) := rfl

end Cert.RefRun

end
-- ==== Proof.RefRunC2.lean ====
/-
  The operations of corner (dx, dy, dz) = (0, 1, 0) of the eight-corner sum, as a list, the buffers the list writes
  (one per operation), and what it therefore leaves alone from any contents W: the two argument buffers and the six
  buffers of cells and fractional parts.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Corner (0, 1, 0)'s operations, in order. -/
abbrev opsC2 : List (HloOp τ sig (Elt F)) :=
  [ nullary main_c_65 (constantI S_ 32 0#32),
    unary main_c_65 main_v166 (broadcastInDim S32x131072 ![] bcast_S_S32x131072 : (⟨S_, .i32⟩ : BufTy).Contents (Elt F) → (⟨S32x131072, .i32⟩ : BufTy).Contents (Elt F)),
    binary main_v36 main_v166 main_v167 (addi : (⟨S32x131072, .i32⟩ : BufTy).Contents (Elt F) → (⟨S32x131072, .i32⟩ : BufTy).Contents (Elt F) → (⟨S32x131072, .i32⟩ : BufTy).Contents (Elt F)),
    nullary main_c_66 (constantI S_ 32 1#32),
    unary main_c_66 main_v168 (broadcastInDim S32x131072 ![] bcast_S_S32x131072 : (⟨S_, .i32⟩ : BufTy).Contents (Elt F) → (⟨S32x131072, .i32⟩ : BufTy).Contents (Elt F)),
    binary main_v37 main_v168 main_v169 (addi : (⟨S32x131072, .i32⟩ : BufTy).Contents (Elt F) → (⟨S32x131072, .i32⟩ : BufTy).Contents (Elt F) → (⟨S32x131072, .i32⟩ : BufTy).Contents (Elt F)),
    nullary main_c_67 (constantI S_ 32 0#32),
    unary main_c_67 main_v170 (broadcastInDim S32x131072 ![] bcast_S_S32x131072 : (⟨S_, .i32⟩ : BufTy).Contents (Elt F) → (⟨S32x131072, .i32⟩ : BufTy).Contents (Elt F)),
    binary main_v38 main_v170 main_v171 (addi : (⟨S32x131072, .i32⟩ : BufTy).Contents (Elt F) → (⟨S32x131072, .i32⟩ : BufTy).Contents (Elt F) → (⟨S32x131072, .i32⟩ : BufTy).Contents (Elt F)),
    nullary main_cst_68 (constant S_ .f32 0x3F800000#32),
    unary main_cst_68 main_v172 (broadcastInDim S32x131072 ![] bcast_S_S32x131072 : (⟨S_, .f32⟩ : BufTy).Contents (Elt F) → (⟨S32x131072, .f32⟩ : BufTy).Contents (Elt F)),
    binary main_v172 main_v33 main_v173 (subf : (⟨S32x131072, .f32⟩ : BufTy).Contents (Elt F) → (⟨S32x131072, .f32⟩ : BufTy).Contents (Elt F) → (⟨S32x131072, .f32⟩ : BufTy).Contents (Elt F)),
    nullary main_c_69 (constantI S_ 32 0#32),
    TRef.nullary (TRef.of (T := ⟨S_, .i32⟩) main_call12_c) (constantI S_ 32 0#32),
    TRef.binary (TRef.of (T := ⟨S_, .i32⟩) main_c_69) (TRef.of (T := ⟨S_, .i32⟩) main_call12_c) (TRef.of (T := ⟨S_, .i1⟩) main_call12_v0) (cmpi .ne),
    TRef.ternary (TRef.of (T := ⟨S_, .i1⟩) main_call12_v0) (TRef.of (T := ⟨S32x131072, .f32⟩) main_v33) (TRef.of (T := ⟨S32x131072, .f32⟩) main_v173) (TRef.of (T := ⟨S32x131072, .f32⟩) main_v174) (fun p a b => select (broadcastInDim S32x131072 ![] bcast_S_S32x131072 p) a b),
    nullary main_cst_70 (constant S_ .f32 0x3F800000#32),
    unary main_cst_70 main_v175 (broadcastInDim S32x131072 ![] bcast_S_S32x131072 : (⟨S_, .f32⟩ : BufTy).Contents (Elt F) → (⟨S32x131072, .f32⟩ : BufTy).Contents (Elt F)),
    binary main_v175 main_v34 main_v176 (subf : (⟨S32x131072, .f32⟩ : BufTy).Contents (Elt F) → (⟨S32x131072, .f32⟩ : BufTy).Contents (Elt F) → (⟨S32x131072, .f32⟩ : BufTy).Contents (Elt F)),
    nullary main_c_71 (constantI S_ 32 1#32),
    TRef.nullary (TRef.of (T := ⟨S_, .i32⟩) main_call13_c) (constantI S_ 32 0#32),
    TRef.binary (TRef.of (T := ⟨S_, .i32⟩) main_c_71) (TRef.of (T := ⟨S_, .i32⟩) main_call13_c) (TRef.of (T := ⟨S_, .i1⟩) main_call13_v0) (cmpi .ne),
    TRef.ternary (TRef.of (T := ⟨S_, .i1⟩) main_call13_v0) (TRef.of (T := ⟨S32x131072, .f32⟩) main_v34) (TRef.of (T := ⟨S32x131072, .f32⟩) main_v176) (TRef.of (T := ⟨S32x131072, .f32⟩) main_v177) (fun p a b => select (broadcastInDim S32x131072 ![] bcast_S_S32x131072 p) a b),
    binary main_v174 main_v177 main_v178 (mulf : (⟨S32x131072, .f32⟩ : BufTy).Contents (Elt F) → (⟨S32x131072, .f32⟩ : BufTy).Contents (Elt F) → (⟨S32x131072, .f32⟩ : BufTy).Contents (Elt F)),
    nullary main_cst_72 (constant S_ .f32 0x3F800000#32),
    unary main_cst_72 main_v179 (broadcastInDim S32x131072 ![] bcast_S_S32x131072 : (⟨S_, .f32⟩ : BufTy).Contents (Elt F) → (⟨S32x131072, .f32⟩ : BufTy).Contents (Elt F)),
    binary main_v179 main_v35 main_v180 (subf : (⟨S32x131072, .f32⟩ : BufTy).Contents (Elt F) → (⟨S32x131072, .f32⟩ : BufTy).Contents (Elt F) → (⟨S32x131072, .f32⟩ : BufTy).Contents (Elt F)),
    nullary main_c_73 (constantI S_ 32 0#32),
    TRef.nullary (TRef.of (T := ⟨S_, .i32⟩) main_call14_c) (constantI S_ 32 0#32),
    TRef.binary (TRef.of (T := ⟨S_, .i32⟩) main_c_73) (TRef.of (T := ⟨S_, .i32⟩) main_call14_c) (TRef.of (T := ⟨S_, .i1⟩) main_call14_v0) (cmpi .ne),
    TRef.ternary (TRef.of (T := ⟨S_, .i1⟩) main_call14_v0) (TRef.of (T := ⟨S32x131072, .f32⟩) main_v35) (TRef.of (T := ⟨S32x131072, .f32⟩) main_v180) (TRef.of (T := ⟨S32x131072, .f32⟩) main_v181) (fun p a b => select (broadcastInDim S32x131072 ![] bcast_S_S32x131072 p) a b),
    binary main_v178 main_v181 main_v182 (mulf : (⟨S32x131072, .f32⟩ : BufTy).Contents (Elt F) → (⟨S32x131072, .f32⟩ : BufTy).Contents (Elt F) → (⟨S32x131072, .f32⟩ : BufTy).Contents (Elt F)),
    nullary main_c_74 (constantI S_ 32 0#32),
    unary main_c_74 main_v183 (broadcastInDim S32x131072 ![] bcast_S_S32x131072 : (⟨S_, .i32⟩ : BufTy).Contents (Elt F) → (⟨S32x131072, .i32⟩ : BufTy).Contents (Elt F)),
    binary main_v167 main_v183 main_v184 (cmpi .sge : (⟨S32x131072, .i32⟩ : BufTy).Contents (Elt F) → (⟨S32x131072, .i32⟩ : BufTy).Contents (Elt F) → (⟨S32x131072, .i1⟩ : BufTy).Contents (Elt F)),
    nullary main_c_75 (constantI S_ 32 64#32),
    unary main_c_75 main_v185 (broadcastInDim S32x131072 ![] bcast_S_S32x131072 : (⟨S_, .i32⟩ : BufTy).Contents (Elt F) → (⟨S32x131072, .i32⟩ : BufTy).Contents (Elt F)),
    binary main_v167 main_v185 main_v186 (cmpi .slt : (⟨S32x131072, .i32⟩ : BufTy).Contents (Elt F) → (⟨S32x131072, .i32⟩ : BufTy).Contents (Elt F) → (⟨S32x131072, .i1⟩ : BufTy).Contents (Elt F)),
    binary main_v184 main_v186 main_v187 (andi : (⟨S32x131072, .i1⟩ : BufTy).Contents (Elt F) → (⟨S32x131072, .i1⟩ : BufTy).Contents (Elt F) → (⟨S32x131072, .i1⟩ : BufTy).Contents (Elt F)),
    nullary main_c_76 (constantI S_ 32 0#32),
    unary main_c_76 main_v188 (broadcastInDim S32x131072 ![] bcast_S_S32x131072 : (⟨S_, .i32⟩ : BufTy).Contents (Elt F) → (⟨S32x131072, .i32⟩ : BufTy).Contents (Elt F)),
    binary main_v169 main_v188 main_v189 (cmpi .sge : (⟨S32x131072, .i32⟩ : BufTy).Contents (Elt F) → (⟨S32x131072, .i32⟩ : BufTy).Contents (Elt F) → (⟨S32x131072, .i1⟩ : BufTy).Contents (Elt F)),
    binary main_v187 main_v189 main_v190 (andi : (⟨S32x131072, .i1⟩ : BufTy).Contents (Elt F) → (⟨S32x131072, .i1⟩ : BufTy).Contents (Elt F) → (⟨S32x131072, .i1⟩ : BufTy).Contents (Elt F)),
    nullary main_c_77 (constantI S_ 32 64#32),
    unary main_c_77 main_v191 (broadcastInDim S32x131072 ![] bcast_S_S32x131072 : (⟨S_, .i32⟩ : BufTy).Contents (Elt F) → (⟨S32x131072, .i32⟩ : BufTy).Contents (Elt F)),
    binary main_v169 main_v191 main_v192 (cmpi .slt : (⟨S32x131072, .i32⟩ : BufTy).Contents (Elt F) → (⟨S32x131072, .i32⟩ : BufTy).Contents (Elt F) → (⟨S32x131072, .i1⟩ : BufTy).Contents (Elt F)),
    binary main_v190 main_v192 main_v193 (andi : (⟨S32x131072, .i1⟩ : BufTy).Contents (Elt F) → (⟨S32x131072, .i1⟩ : BufTy).Contents (Elt F) → (⟨S32x131072, .i1⟩ : BufTy).Contents (Elt F)),
    nullary main_c_78 (constantI S_ 32 0#32),
    unary main_c_78 main_v194 (broadcastInDim S32x131072 ![] bcast_S_S32x131072 : (⟨S_, .i32⟩ : BufTy).Contents (Elt F) → (⟨S32x131072, .i32⟩ : BufTy).Contents (Elt F)),
    binary main_v171 main_v194 main_v195 (cmpi .sge : (⟨S32x131072, .i32⟩ : BufTy).Contents (Elt F) → (⟨S32x131072, .i32⟩ : BufTy).Contents (Elt F) → (⟨S32x131072, .i1⟩ : BufTy).Contents (Elt F)),
    binary main_v193 main_v195 main_v196 (andi : (⟨S32x131072, .i1⟩ : BufTy).Contents (Elt F) → (⟨S32x131072, .i1⟩ : BufTy).Contents (Elt F) → (⟨S32x131072, .i1⟩ : BufTy).Contents (Elt F)),
    nullary main_c_79 (constantI S_ 32 64#32),
    unary main_c_79 main_v197 (broadcastInDim S32x131072 ![] bcast_S_S32x131072 : (⟨S_, .i32⟩ : BufTy).Contents (Elt F) → (⟨S32x131072, .i32⟩ : BufTy).Contents (Elt F)),
    binary main_v171 main_v197 main_v198 (cmpi .slt : (⟨S32x131072, .i32⟩ : BufTy).Contents (Elt F) → (⟨S32x131072, .i32⟩ : BufTy).Contents (Elt F) → (⟨S32x131072, .i1⟩ : BufTy).Contents (Elt F)),
    binary main_v196 main_v198 main_v199 (andi : (⟨S32x131072, .i1⟩ : BufTy).Contents (Elt F) → (⟨S32x131072, .i1⟩ : BufTy).Contents (Elt F) → (⟨S32x131072, .i1⟩ : BufTy).Contents (Elt F)),
    nullary main_c_80 (constantI S_ 32 0#32),
    nullary main_c_81 (constantI S_ 32 63#32),
    TRef.unary (TRef.of (T := ⟨S_, .i32⟩) main_c_80) (TRef.of (T := ⟨S_, .i32⟩) main_call15_v0) id,
    TRef.unary (TRef.of (T := ⟨S_, .i32⟩) main_call15_v0) (TRef.of (T := ⟨S32x131072, .i32⟩) main_call15_v1) (broadcastInDim S32x131072 ![] bcast_S_S32x131072),
    TRef.binary (TRef.of (T := ⟨S32x131072, .i32⟩) main_call15_v1) (TRef.of (T := ⟨S32x131072, .i32⟩) main_v167) (TRef.of (T := ⟨S32x131072, .i32⟩) main_call15_v2) maxsi,
    TRef.unary (TRef.of (T := ⟨S_, .i32⟩) main_c_81) (TRef.of (T := ⟨S_, .i32⟩) main_call15_v3) id,
    TRef.unary (TRef.of (T := ⟨S_, .i32⟩) main_call15_v3) (TRef.of (T := ⟨S32x131072, .i32⟩) main_call15_v4) (broadcastInDim S32x131072 ![] bcast_S_S32x131072),
    TRef.binary (TRef.of (T := ⟨S32x131072, .i32⟩) main_call15_v4) (TRef.of (T := ⟨S32x131072, .i32⟩) main_call15_v2) (TRef.of (T := ⟨S32x131072, .i32⟩) main_v200) minsi,
    nullary main_c_82 (constantI S_ 32 0#32),
    nullary main_c_83 (constantI S_ 32 63#32),
    TRef.unary (TRef.of (T := ⟨S_, .i32⟩) main_c_82) (TRef.of (T := ⟨S_, .i32⟩) main_call16_v0) id,
    TRef.unary (TRef.of (T := ⟨S_, .i32⟩) main_call16_v0) (TRef.of (T := ⟨S32x131072, .i32⟩) main_call16_v1) (broadcastInDim S32x131072 ![] bcast_S_S32x131072),
    TRef.binary (TRef.of (T := ⟨S32x131072, .i32⟩) main_call16_v1) (TRef.of (T := ⟨S32x131072, .i32⟩) main_v169) (TRef.of (T := ⟨S32x131072, .i32⟩) main_call16_v2) maxsi,
    TRef.unary (TRef.of (T := ⟨S_, .i32⟩) main_c_83) (TRef.of (T := ⟨S_, .i32⟩) main_call16_v3) id,
    TRef.unary (TRef.of (T := ⟨S_, .i32⟩) main_call16_v3) (TRef.of (T := ⟨S32x131072, .i32⟩) main_call16_v4) (broadcastInDim S32x131072 ![] bcast_S_S32x131072),
    TRef.binary (TRef.of (T := ⟨S32x131072, .i32⟩) main_call16_v4) (TRef.of (T := ⟨S32x131072, .i32⟩) main_call16_v2) (TRef.of (T := ⟨S32x131072, .i32⟩) main_v201) minsi,
    nullary main_c_84 (constantI S_ 32 0#32),
    nullary main_c_85 (constantI S_ 32 63#32),
    TRef.unary (TRef.of (T := ⟨S_, .i32⟩) main_c_84) (TRef.of (T := ⟨S_, .i32⟩) main_call17_v0) id,
    TRef.unary (TRef.of (T := ⟨S_, .i32⟩) main_call17_v0) (TRef.of (T := ⟨S32x131072, .i32⟩) main_call17_v1) (broadcastInDim S32x131072 ![] bcast_S_S32x131072),
    TRef.binary (TRef.of (T := ⟨S32x131072, .i32⟩) main_call17_v1) (TRef.of (T := ⟨S32x131072, .i32⟩) main_v171) (TRef.of (T := ⟨S32x131072, .i32⟩) main_call17_v2) maxsi,
    TRef.unary (TRef.of (T := ⟨S_, .i32⟩) main_c_85) (TRef.of (T := ⟨S_, .i32⟩) main_call17_v3) id,
    TRef.unary (TRef.of (T := ⟨S_, .i32⟩) main_call17_v3) (TRef.of (T := ⟨S32x131072, .i32⟩) main_call17_v4) (broadcastInDim S32x131072 ![] bcast_S_S32x131072),
    TRef.binary (TRef.of (T := ⟨S32x131072, .i32⟩) main_call17_v4) (TRef.of (T := ⟨S32x131072, .i32⟩) main_call17_v2) (TRef.of (T := ⟨S32x131072, .i32⟩) main_v202) minsi,
    nullary main_c_86 (constantI S_ 32 0#32),
    unary main_c_86 main_v203 (broadcastInDim S32x131072 ![] bcast_S_S32x131072 : (⟨S_, .i32⟩ : BufTy).Contents (Elt F) → (⟨S32x131072, .i32⟩ : BufTy).Contents (Elt F)),
    binary main_v202 main_v203 main_v204 (cmpi .slt : (⟨S32x131072, .i32⟩ : BufTy).Contents (Elt F) → (⟨S32x131072, .i32⟩ : BufTy).Contents (Elt F) → (⟨S32x131072, .i1⟩ : BufTy).Contents (Elt F)),
    nullary main_c_87 (constantI S_ 32 64#32),
    unary main_c_87 main_v205 (broadcastInDim S32x131072 ![] bcast_S_S32x131072 : (⟨S_, .i32⟩ : BufTy).Contents (Elt F) → (⟨S32x131072, .i32⟩ : BufTy).Contents (Elt F)),
    binary main_v202 main_v205 main_v206 (addi : (⟨S32x131072, .i32⟩ : BufTy).Contents (Elt F) → (⟨S32x131072, .i32⟩ : BufTy).Contents (Elt F) → (⟨S32x131072, .i32⟩ : BufTy).Contents (Elt F)),
    ternary main_v204 main_v206 main_v202 main_v207 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_88 (constantI S_ 32 0#32),
    unary main_c_88 main_v208 (broadcastInDim S32x131072 ![] bcast_S_S32x131072 : (⟨S_, .i32⟩ : BufTy).Contents (Elt F) → (⟨S32x131072, .i32⟩ : BufTy).Contents (Elt F)),
    binary main_v201 main_v208 main_v209 (cmpi .slt : (⟨S32x131072, .i32⟩ : BufTy).Contents (Elt F) → (⟨S32x131072, .i32⟩ : BufTy).Contents (Elt F) → (⟨S32x131072, .i1⟩ : BufTy).Contents (Elt F)),
    nullary main_c_89 (constantI S_ 32 64#32),
    unary main_c_89 main_v210 (broadcastInDim S32x131072 ![] bcast_S_S32x131072 : (⟨S_, .i32⟩ : BufTy).Contents (Elt F) → (⟨S32x131072, .i32⟩ : BufTy).Contents (Elt F)),
    binary main_v201 main_v210 main_v211 (addi : (⟨S32x131072, .i32⟩ : BufTy).Contents (Elt F) → (⟨S32x131072, .i32⟩ : BufTy).Contents (Elt F) → (⟨S32x131072, .i32⟩ : BufTy).Contents (Elt F)),
    ternary main_v209 main_v211 main_v201 main_v212 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_90 (constantI S_ 32 0#32),
    unary main_c_90 main_v213 (broadcastInDim S32x131072 ![] bcast_S_S32x131072 : (⟨S_, .i32⟩ : BufTy).Contents (Elt F) → (⟨S32x131072, .i32⟩ : BufTy).Contents (Elt F)),
    binary main_v200 main_v213 main_v214 (cmpi .slt : (⟨S32x131072, .i32⟩ : BufTy).Contents (Elt F) → (⟨S32x131072, .i32⟩ : BufTy).Contents (Elt F) → (⟨S32x131072, .i1⟩ : BufTy).Contents (Elt F)),
    nullary main_c_91 (constantI S_ 32 64#32),
    unary main_c_91 main_v215 (broadcastInDim S32x131072 ![] bcast_S_S32x131072 : (⟨S_, .i32⟩ : BufTy).Contents (Elt F) → (⟨S32x131072, .i32⟩ : BufTy).Contents (Elt F)),
    binary main_v200 main_v215 main_v216 (addi : (⟨S32x131072, .i32⟩ : BufTy).Contents (Elt F) → (⟨S32x131072, .i32⟩ : BufTy).Contents (Elt F) → (⟨S32x131072, .i32⟩ : BufTy).Contents (Elt F)),
    ternary main_v214 main_v216 main_v200 main_v217 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v207 main_v218 (broadcastInDim S32x131072x1 ![0, 1] bcast_S32x131072_S32x131072x1_0_1 : (⟨S32x131072, .i32⟩ : BufTy).Contents (Elt F) → (⟨S32x131072x1, .i32⟩ : BufTy).Contents (Elt F)),
    unary main_v212 main_v219 (broadcastInDim S32x131072x1 ![0, 1] bcast_S32x131072_S32x131072x1_0_1 : (⟨S32x131072, .i32⟩ : BufTy).Contents (Elt F) → (⟨S32x131072x1, .i32⟩ : BufTy).Contents (Elt F)),
    unary main_v217 main_v220 (broadcastInDim S32x131072x1 ![0, 1] bcast_S32x131072_S32x131072x1_0_1 : (⟨S32x131072, .i32⟩ : BufTy).Contents (Elt F) → (⟨S32x131072x1, .i32⟩ : BufTy).Contents (Elt F)),
    nary ![main_v218, main_v219, main_v220] main_v221 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v221 main_v222 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v199 main_v223 (uitofp .f32 : (⟨S32x131072, .i1⟩ : BufTy).Contents (Elt F) → (⟨S32x131072, .f32⟩ : BufTy).Contents (Elt F)),
    binary main_v182 main_v223 main_v224 (mulf : (⟨S32x131072, .f32⟩ : BufTy).Contents (Elt F) → (⟨S32x131072, .f32⟩ : BufTy).Contents (Elt F) → (⟨S32x131072, .f32⟩ : BufTy).Contents (Elt F)),
    unary main_v224 main_v225 (broadcastInDim S1x32x131072 ![1, 2] bcast_S32x131072_S1x32x131072_1_2 : (⟨S32x131072, .f32⟩ : BufTy).Contents (Elt F) → (⟨S1x32x131072, .f32⟩ : BufTy).Contents (Elt F)),
    unary main_v225 main_v226 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v222 main_v226 main_v227 (mulf : (⟨S3x32x131072, .f32⟩ : BufTy).Contents (Elt F) → (⟨S3x32x131072, .f32⟩ : BufTy).Contents (Elt F) → (⟨S3x32x131072, .f32⟩ : BufTy).Contents (Elt F)),
    binary main_v165 main_v227 main_v228 (addf : (⟨S3x32x131072, .f32⟩ : BufTy).Contents (Elt F) → (⟨S3x32x131072, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrC2 : List (Ref sig .tc) :=
  [main_c_65, main_v166, main_v167, main_c_66, main_v168, main_v169, main_c_67, main_v170, main_v171, main_cst_68, main_v172, main_v173, main_c_69, main_call12_c, main_call12_v0, main_v174, main_cst_70, main_v175, main_v176, main_c_71, main_call13_c, main_call13_v0, main_v177, main_v178, main_cst_72, main_v179, main_v180, main_c_73, main_call14_c, main_call14_v0, main_v181, main_v182, main_c_74, main_v183, main_v184, main_c_75, main_v185, main_v186, main_v187, main_c_76, main_v188, main_v189, main_v190, main_c_77, main_v191, main_v192, main_v193, main_c_78, main_v194, main_v195, main_v196, main_c_79, main_v197, main_v198, main_v199, main_c_80, main_c_81, main_call15_v0, main_call15_v1, main_call15_v2, main_call15_v3, main_call15_v4, main_v200, main_c_82, main_c_83, main_call16_v0, main_call16_v1, main_call16_v2, main_call16_v3, main_call16_v4, main_v201, main_c_84, main_c_85, main_call17_v0, main_call17_v1, main_call17_v2, main_call17_v3, main_call17_v4, main_v202, main_c_86, main_v203, main_v204, main_c_87, main_v205, main_v206, main_v207, main_c_88, main_v208, main_v209, main_c_89, main_v210, main_v211, main_v212, main_c_90, main_v213, main_v214, main_c_91, main_v215, main_v216, main_v217, main_v218, main_v219, main_v220, main_v221, main_v222, main_v223, main_v224, main_v225, main_v226, main_v227, main_v228]

set_option maxRecDepth 8192 in
/-- Every operation of the list writes its one buffer of that list. -/
theorem opsC2_writes : (opsC2 (F := F)).Forall fun op => op.writes ⊆ ((wrC2).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsC2_keep (W : Valuation τ sig (Elt F)) {r : Ref sig .tc} (hr : r ∉ wrC2) :
    after (opsC2 (F := F)) W (Proc.devRef .tc r) = W (Proc.devRef .tc r) :=
  after_of_writes_sub _ W opsC2_writes hr

/-- The corner's operations do not write this buffer. -/
theorem opsC2_arg0 (W : Valuation τ sig (Elt F)) :
    after (opsC2 (F := F)) W (Proc.devRef .tc main_arg0) = W (Proc.devRef .tc main_arg0) :=
  opsC2_keep W (by decide)

/-- The corner's operations do not write this buffer. -/
theorem opsC2_arg1 (W : Valuation τ sig (Elt F)) :
    after (opsC2 (F := F)) W (Proc.devRef .tc main_arg1) = W (Proc.devRef .tc main_arg1) :=
  opsC2_keep W (by decide)

/-- The corner's operations do not write this buffer. -/
theorem opsC2_v33 (W : Valuation τ sig (Elt F)) :
    after (opsC2 (F := F)) W (Proc.devRef .tc main_v33) = W (Proc.devRef .tc main_v33) :=
  opsC2_keep W (by decide)

/-- The corner's operations do not write this buffer. -/
theorem opsC2_v34 (W : Valuation τ sig (Elt F)) :
    after (opsC2 (F := F)) W (Proc.devRef .tc main_v34) = W (Proc.devRef .tc main_v34) :=
  opsC2_keep W (by decide)

/-- The corner's operations do not write this buffer. -/
theorem opsC2_v35 (W : Valuation τ sig (Elt F)) :
    after (opsC2 (F := F)) W (Proc.devRef .tc main_v35) = W (Proc.devRef .tc main_v35) :=
  opsC2_keep W (by decide)

/-- The corner's operations do not write this buffer. -/
theorem opsC2_v36 (W : Valuation τ sig (Elt F)) :
    after (opsC2 (F := F)) W (Proc.devRef .tc main_v36) = W (Proc.devRef .tc main_v36) :=
  opsC2_keep W (by decide)

/-- The corner's operations do not write this buffer. -/
theorem opsC2_v37 (W : Valuation τ sig (Elt F)) :
    after (opsC2 (F := F)) W (Proc.devRef .tc main_v37) = W (Proc.devRef .tc main_v37) :=
  opsC2_keep W (by decide)

/-- The corner's operations do not write this buffer. -/
theorem opsC2_v38 (W : Valuation τ sig (Elt F)) :
    after (opsC2 (F := F)) W (Proc.devRef .tc main_v38) = W (Proc.devRef .tc main_v38) :=
  opsC2_keep W (by decide)

end Cert.RefRun

end
-- ==== Proof.RefRunW3.lean ====
/-
  Window 3 of the reference's @main (operations 207 to 281 of 943, counting from 0) is the straight line of those
  operations: the called functions' bodies are unfolded at their calls and the sequencing re-associated. The same
  operations are a stretch of the reference's lists cut before the corners, per corner and after them.
-/
import proofs.«174278_j48524540510565_1_alg».proof.Proof.RefRunC1
import proofs.«174278_j48524540510565_1_alg».proof.Proof.RefRunC2

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW3 : List (HloOp τ sig (Elt F)) :=
  [ nullary main_c_50 (constantI S_ 32 64#32),
    unary main_c_50 main_v128 (broadcastInDim S32x131072 ![] bcast_S_S32x131072 : (⟨S_, .i32⟩ : BufTy).Contents (Elt F) → (⟨S32x131072, .i32⟩ : BufTy).Contents (Elt F)),
    binary main_v106 main_v128 main_v129 (cmpi .slt : (⟨S32x131072, .i32⟩ : BufTy).Contents (Elt F) → (⟨S32x131072, .i32⟩ : BufTy).Contents (Elt F) → (⟨S32x131072, .i1⟩ : BufTy).Contents (Elt F)),
    binary main_v127 main_v129 main_v130 (andi : (⟨S32x131072, .i1⟩ : BufTy).Contents (Elt F) → (⟨S32x131072, .i1⟩ : BufTy).Contents (Elt F) → (⟨S32x131072, .i1⟩ : BufTy).Contents (Elt F)),
    nullary main_c_51 (constantI S_ 32 0#32),
    unary main_c_51 main_v131 (broadcastInDim S32x131072 ![] bcast_S_S32x131072 : (⟨S_, .i32⟩ : BufTy).Contents (Elt F) → (⟨S32x131072, .i32⟩ : BufTy).Contents (Elt F)),
    binary main_v108 main_v131 main_v132 (cmpi .sge : (⟨S32x131072, .i32⟩ : BufTy).Contents (Elt F) → (⟨S32x131072, .i32⟩ : BufTy).Contents (Elt F) → (⟨S32x131072, .i1⟩ : BufTy).Contents (Elt F)),
    binary main_v130 main_v132 main_v133 (andi : (⟨S32x131072, .i1⟩ : BufTy).Contents (Elt F) → (⟨S32x131072, .i1⟩ : BufTy).Contents (Elt F) → (⟨S32x131072, .i1⟩ : BufTy).Contents (Elt F)),
    nullary main_c_52 (constantI S_ 32 64#32),
    unary main_c_52 main_v134 (broadcastInDim S32x131072 ![] bcast_S_S32x131072 : (⟨S_, .i32⟩ : BufTy).Contents (Elt F) → (⟨S32x131072, .i32⟩ : BufTy).Contents (Elt F)),
    binary main_v108 main_v134 main_v135 (cmpi .slt : (⟨S32x131072, .i32⟩ : BufTy).Contents (Elt F) → (⟨S32x131072, .i32⟩ : BufTy).Contents (Elt F) → (⟨S32x131072, .i1⟩ : BufTy).Contents (Elt F)),
    binary main_v133 main_v135 main_v136 (andi : (⟨S32x131072, .i1⟩ : BufTy).Contents (Elt F) → (⟨S32x131072, .i1⟩ : BufTy).Contents (Elt F) → (⟨S32x131072, .i1⟩ : BufTy).Contents (Elt F)),
    nullary main_c_53 (constantI S_ 32 0#32),
    nullary main_c_54 (constantI S_ 32 63#32),
    TRef.unary (TRef.of (T := ⟨S_, .i32⟩) main_c_53) (TRef.of (T := ⟨S_, .i32⟩) main_call9_v0) id,
    TRef.unary (TRef.of (T := ⟨S_, .i32⟩) main_call9_v0) (TRef.of (T := ⟨S32x131072, .i32⟩) main_call9_v1) (broadcastInDim S32x131072 ![] bcast_S_S32x131072),
    TRef.binary (TRef.of (T := ⟨S32x131072, .i32⟩) main_call9_v1) (TRef.of (T := ⟨S32x131072, .i32⟩) main_v104) (TRef.of (T := ⟨S32x131072, .i32⟩) main_call9_v2) maxsi,
    TRef.unary (TRef.of (T := ⟨S_, .i32⟩) main_c_54) (TRef.of (T := ⟨S_, .i32⟩) main_call9_v3) id,
    TRef.unary (TRef.of (T := ⟨S_, .i32⟩) main_call9_v3) (TRef.of (T := ⟨S32x131072, .i32⟩) main_call9_v4) (broadcastInDim S32x131072 ![] bcast_S_S32x131072),
    TRef.binary (TRef.of (T := ⟨S32x131072, .i32⟩) main_call9_v4) (TRef.of (T := ⟨S32x131072, .i32⟩) main_call9_v2) (TRef.of (T := ⟨S32x131072, .i32⟩) main_v137) minsi,
    nullary main_c_55 (constantI S_ 32 0#32),
    nullary main_c_56 (constantI S_ 32 63#32),
    TRef.unary (TRef.of (T := ⟨S_, .i32⟩) main_c_55) (TRef.of (T := ⟨S_, .i32⟩) main_call10_v0) id,
    TRef.unary (TRef.of (T := ⟨S_, .i32⟩) main_call10_v0) (TRef.of (T := ⟨S32x131072, .i32⟩) main_call10_v1) (broadcastInDim S32x131072 ![] bcast_S_S32x131072),
    TRef.binary (TRef.of (T := ⟨S32x131072, .i32⟩) main_call10_v1) (TRef.of (T := ⟨S32x131072, .i32⟩) main_v106) (TRef.of (T := ⟨S32x131072, .i32⟩) main_call10_v2) maxsi,
    TRef.unary (TRef.of (T := ⟨S_, .i32⟩) main_c_56) (TRef.of (T := ⟨S_, .i32⟩) main_call10_v3) id,
    TRef.unary (TRef.of (T := ⟨S_, .i32⟩) main_call10_v3) (TRef.of (T := ⟨S32x131072, .i32⟩) main_call10_v4) (broadcastInDim S32x131072 ![] bcast_S_S32x131072),
    TRef.binary (TRef.of (T := ⟨S32x131072, .i32⟩) main_call10_v4) (TRef.of (T := ⟨S32x131072, .i32⟩) main_call10_v2) (TRef.of (T := ⟨S32x131072, .i32⟩) main_v138) minsi,
    nullary main_c_57 (constantI S_ 32 0#32),
    nullary main_c_58 (constantI S_ 32 63#32),
    TRef.unary (TRef.of (T := ⟨S_, .i32⟩) main_c_57) (TRef.of (T := ⟨S_, .i32⟩) main_call11_v0) id,
    TRef.unary (TRef.of (T := ⟨S_, .i32⟩) main_call11_v0) (TRef.of (T := ⟨S32x131072, .i32⟩) main_call11_v1) (broadcastInDim S32x131072 ![] bcast_S_S32x131072),
    TRef.binary (TRef.of (T := ⟨S32x131072, .i32⟩) main_call11_v1) (TRef.of (T := ⟨S32x131072, .i32⟩) main_v108) (TRef.of (T := ⟨S32x131072, .i32⟩) main_call11_v2) maxsi,
    TRef.unary (TRef.of (T := ⟨S_, .i32⟩) main_c_58) (TRef.of (T := ⟨S_, .i32⟩) main_call11_v3) id,
    TRef.unary (TRef.of (T := ⟨S_, .i32⟩) main_call11_v3) (TRef.of (T := ⟨S32x131072, .i32⟩) main_call11_v4) (broadcastInDim S32x131072 ![] bcast_S_S32x131072),
    TRef.binary (TRef.of (T := ⟨S32x131072, .i32⟩) main_call11_v4) (TRef.of (T := ⟨S32x131072, .i32⟩) main_call11_v2) (TRef.of (T := ⟨S32x131072, .i32⟩) main_v139) minsi,
    nullary main_c_59 (constantI S_ 32 0#32),
    unary main_c_59 main_v140 (broadcastInDim S32x131072 ![] bcast_S_S32x131072 : (⟨S_, .i32⟩ : BufTy).Contents (Elt F) → (⟨S32x131072, .i32⟩ : BufTy).Contents (Elt F)),
    binary main_v139 main_v140 main_v141 (cmpi .slt : (⟨S32x131072, .i32⟩ : BufTy).Contents (Elt F) → (⟨S32x131072, .i32⟩ : BufTy).Contents (Elt F) → (⟨S32x131072, .i1⟩ : BufTy).Contents (Elt F)),
    nullary main_c_60 (constantI S_ 32 64#32),
    unary main_c_60 main_v142 (broadcastInDim S32x131072 ![] bcast_S_S32x131072 : (⟨S_, .i32⟩ : BufTy).Contents (Elt F) → (⟨S32x131072, .i32⟩ : BufTy).Contents (Elt F)),
    binary main_v139 main_v142 main_v143 (addi : (⟨S32x131072, .i32⟩ : BufTy).Contents (Elt F) → (⟨S32x131072, .i32⟩ : BufTy).Contents (Elt F) → (⟨S32x131072, .i32⟩ : BufTy).Contents (Elt F)),
    ternary main_v141 main_v143 main_v139 main_v144 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_61 (constantI S_ 32 0#32),
    unary main_c_61 main_v145 (broadcastInDim S32x131072 ![] bcast_S_S32x131072 : (⟨S_, .i32⟩ : BufTy).Contents (Elt F) → (⟨S32x131072, .i32⟩ : BufTy).Contents (Elt F)),
    binary main_v138 main_v145 main_v146 (cmpi .slt : (⟨S32x131072, .i32⟩ : BufTy).Contents (Elt F) → (⟨S32x131072, .i32⟩ : BufTy).Contents (Elt F) → (⟨S32x131072, .i1⟩ : BufTy).Contents (Elt F)),
    nullary main_c_62 (constantI S_ 32 64#32),
    unary main_c_62 main_v147 (broadcastInDim S32x131072 ![] bcast_S_S32x131072 : (⟨S_, .i32⟩ : BufTy).Contents (Elt F) → (⟨S32x131072, .i32⟩ : BufTy).Contents (Elt F)),
    binary main_v138 main_v147 main_v148 (addi : (⟨S32x131072, .i32⟩ : BufTy).Contents (Elt F) → (⟨S32x131072, .i32⟩ : BufTy).Contents (Elt F) → (⟨S32x131072, .i32⟩ : BufTy).Contents (Elt F)),
    ternary main_v146 main_v148 main_v138 main_v149 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_63 (constantI S_ 32 0#32),
    unary main_c_63 main_v150 (broadcastInDim S32x131072 ![] bcast_S_S32x131072 : (⟨S_, .i32⟩ : BufTy).Contents (Elt F) → (⟨S32x131072, .i32⟩ : BufTy).Contents (Elt F)),
    binary main_v137 main_v150 main_v151 (cmpi .slt : (⟨S32x131072, .i32⟩ : BufTy).Contents (Elt F) → (⟨S32x131072, .i32⟩ : BufTy).Contents (Elt F) → (⟨S32x131072, .i1⟩ : BufTy).Contents (Elt F)),
    nullary main_c_64 (constantI S_ 32 64#32),
    unary main_c_64 main_v152 (broadcastInDim S32x131072 ![] bcast_S_S32x131072 : (⟨S_, .i32⟩ : BufTy).Contents (Elt F) → (⟨S32x131072, .i32⟩ : BufTy).Contents (Elt F)),
    binary main_v137 main_v152 main_v153 (addi : (⟨S32x131072, .i32⟩ : BufTy).Contents (Elt F) → (⟨S32x131072, .i32⟩ : BufTy).Contents (Elt F) → (⟨S32x131072, .i32⟩ : BufTy).Contents (Elt F)),
    ternary main_v151 main_v153 main_v137 main_v154 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v144 main_v155 (broadcastInDim S32x131072x1 ![0, 1] bcast_S32x131072_S32x131072x1_0_1 : (⟨S32x131072, .i32⟩ : BufTy).Contents (Elt F) → (⟨S32x131072x1, .i32⟩ : BufTy).Contents (Elt F)),
    unary main_v149 main_v156 (broadcastInDim S32x131072x1 ![0, 1] bcast_S32x131072_S32x131072x1_0_1 : (⟨S32x131072, .i32⟩ : BufTy).Contents (Elt F) → (⟨S32x131072x1, .i32⟩ : BufTy).Contents (Elt F)),
    unary main_v154 main_v157 (broadcastInDim S32x131072x1 ![0, 1] bcast_S32x131072_S32x131072x1_0_1 : (⟨S32x131072, .i32⟩ : BufTy).Contents (Elt F) → (⟨S32x131072x1, .i32⟩ : BufTy).Contents (Elt F)),
    nary ![main_v155, main_v156, main_v157] main_v158 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v158 main_v159 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v136 main_v160 (uitofp .f32 : (⟨S32x131072, .i1⟩ : BufTy).Contents (Elt F) → (⟨S32x131072, .f32⟩ : BufTy).Contents (Elt F)),
    binary main_v119 main_v160 main_v161 (mulf : (⟨S32x131072, .f32⟩ : BufTy).Contents (Elt F) → (⟨S32x131072, .f32⟩ : BufTy).Contents (Elt F) → (⟨S32x131072, .f32⟩ : BufTy).Contents (Elt F)),
    unary main_v161 main_v162 (broadcastInDim S1x32x131072 ![1, 2] bcast_S32x131072_S1x32x131072_1_2 : (⟨S32x131072, .f32⟩ : BufTy).Contents (Elt F) → (⟨S1x32x131072, .f32⟩ : BufTy).Contents (Elt F)),
    unary main_v162 main_v163 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v159 main_v163 main_v164 (mulf : (⟨S3x32x131072, .f32⟩ : BufTy).Contents (Elt F) → (⟨S3x32x131072, .f32⟩ : BufTy).Contents (Elt F) → (⟨S3x32x131072, .f32⟩ : BufTy).Contents (Elt F)),
    binary main_v102 main_v164 main_v165 (addf : (⟨S3x32x131072, .f32⟩ : BufTy).Contents (Elt F) → (⟨S3x32x131072, .f32⟩ : BufTy).Contents (Elt F) → (⟨S3x32x131072, .f32⟩ : BufTy).Contents (Elt F)),
    nullary main_c_65 (constantI S_ 32 0#32),
    unary main_c_65 main_v166 (broadcastInDim S32x131072 ![] bcast_S_S32x131072 : (⟨S_, .i32⟩ : BufTy).Contents (Elt F) → (⟨S32x131072, .i32⟩ : BufTy).Contents (Elt F)),
    binary main_v36 main_v166 main_v167 (addi : (⟨S32x131072, .i32⟩ : BufTy).Contents (Elt F) → (⟨S32x131072, .i32⟩ : BufTy).Contents (Elt F) → (⟨S32x131072, .i32⟩ : BufTy).Contents (Elt F)),
    nullary main_c_66 (constantI S_ 32 1#32),
    unary main_c_66 main_v168 (broadcastInDim S32x131072 ![] bcast_S_S32x131072 : (⟨S_, .i32⟩ : BufTy).Contents (Elt F) → (⟨S32x131072, .i32⟩ : BufTy).Contents (Elt F)),
    binary main_v37 main_v168 main_v169 (addi : (⟨S32x131072, .i32⟩ : BufTy).Contents (Elt F) → (⟨S32x131072, .i32⟩ : BufTy).Contents (Elt F) → (⟨S32x131072, .i32⟩ : BufTy).Contents (Elt F)),
    nullary main_c_67 (constantI S_ 32 0#32) ]

set_option maxRecDepth 4096 in
set_option maxHeartbeats 4000000 in
/-- The window is the straight line of its operations. -/
theorem part3_eq (c : Dev nD) : main_part3 (F := F) c = seq opsW3 := by
  simp only [main_part3, fn_where.body, fn_clip.body, seq, bind_assoc, pure_bind]
  rfl

set_option maxRecDepth 8192 in
/-- The window's operations as a stretch of the cut lists. -/
theorem opsW3_eq : (opsW3 (F := F)) = List.drop 43 opsC1 ++ (List.take 7 opsC2) := rfl

end Cert.RefRun

end
-- ==== Proof.RefRunW4.lean ====
/-
  Window 4 of the reference's @main (operations 282 to 362 of 943, counting from 0) is the straight line of those
  operations: the called functions' bodies are unfolded at their calls and the sequencing re-associated. The same
  operations are a stretch of the reference's lists cut before the corners, per corner and after them.
-/
import proofs.«174278_j48524540510565_1_alg».proof.Proof.RefRunC2

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW4 : List (HloOp τ sig (Elt F)) :=
  [ unary main_c_67 main_v170 (broadcastInDim S32x131072 ![] bcast_S_S32x131072 : (⟨S_, .i32⟩ : BufTy).Contents (Elt F) → (⟨S32x131072, .i32⟩ : BufTy).Contents (Elt F)),
    binary main_v38 main_v170 main_v171 (addi : (⟨S32x131072, .i32⟩ : BufTy).Contents (Elt F) → (⟨S32x131072, .i32⟩ : BufTy).Contents (Elt F) → (⟨S32x131072, .i32⟩ : BufTy).Contents (Elt F)),
    nullary main_cst_68 (constant S_ .f32 0x3F800000#32),
    unary main_cst_68 main_v172 (broadcastInDim S32x131072 ![] bcast_S_S32x131072 : (⟨S_, .f32⟩ : BufTy).Contents (Elt F) → (⟨S32x131072, .f32⟩ : BufTy).Contents (Elt F)),
    binary main_v172 main_v33 main_v173 (subf : (⟨S32x131072, .f32⟩ : BufTy).Contents (Elt F) → (⟨S32x131072, .f32⟩ : BufTy).Contents (Elt F) → (⟨S32x131072, .f32⟩ : BufTy).Contents (Elt F)),
    nullary main_c_69 (constantI S_ 32 0#32),
    TRef.nullary (TRef.of (T := ⟨S_, .i32⟩) main_call12_c) (constantI S_ 32 0#32),
    TRef.binary (TRef.of (T := ⟨S_, .i32⟩) main_c_69) (TRef.of (T := ⟨S_, .i32⟩) main_call12_c) (TRef.of (T := ⟨S_, .i1⟩) main_call12_v0) (cmpi .ne),
    TRef.ternary (TRef.of (T := ⟨S_, .i1⟩) main_call12_v0) (TRef.of (T := ⟨S32x131072, .f32⟩) main_v33) (TRef.of (T := ⟨S32x131072, .f32⟩) main_v173) (TRef.of (T := ⟨S32x131072, .f32⟩) main_v174) (fun p a b => select (broadcastInDim S32x131072 ![] bcast_S_S32x131072 p) a b),
    nullary main_cst_70 (constant S_ .f32 0x3F800000#32),
    unary main_cst_70 main_v175 (broadcastInDim S32x131072 ![] bcast_S_S32x131072 : (⟨S_, .f32⟩ : BufTy).Contents (Elt F) → (⟨S32x131072, .f32⟩ : BufTy).Contents (Elt F)),
    binary main_v175 main_v34 main_v176 (subf : (⟨S32x131072, .f32⟩ : BufTy).Contents (Elt F) → (⟨S32x131072, .f32⟩ : BufTy).Contents (Elt F) → (⟨S32x131072, .f32⟩ : BufTy).Contents (Elt F)),
    nullary main_c_71 (constantI S_ 32 1#32),
    TRef.nullary (TRef.of (T := ⟨S_, .i32⟩) main_call13_c) (constantI S_ 32 0#32),
    TRef.binary (TRef.of (T := ⟨S_, .i32⟩) main_c_71) (TRef.of (T := ⟨S_, .i32⟩) main_call13_c) (TRef.of (T := ⟨S_, .i1⟩) main_call13_v0) (cmpi .ne),
    TRef.ternary (TRef.of (T := ⟨S_, .i1⟩) main_call13_v0) (TRef.of (T := ⟨S32x131072, .f32⟩) main_v34) (TRef.of (T := ⟨S32x131072, .f32⟩) main_v176) (TRef.of (T := ⟨S32x131072, .f32⟩) main_v177) (fun p a b => select (broadcastInDim S32x131072 ![] bcast_S_S32x131072 p) a b),
    binary main_v174 main_v177 main_v178 (mulf : (⟨S32x131072, .f32⟩ : BufTy).Contents (Elt F) → (⟨S32x131072, .f32⟩ : BufTy).Contents (Elt F) → (⟨S32x131072, .f32⟩ : BufTy).Contents (Elt F)),
    nullary main_cst_72 (constant S_ .f32 0x3F800000#32),
    unary main_cst_72 main_v179 (broadcastInDim S32x131072 ![] bcast_S_S32x131072 : (⟨S_, .f32⟩ : BufTy).Contents (Elt F) → (⟨S32x131072, .f32⟩ : BufTy).Contents (Elt F)),
    binary main_v179 main_v35 main_v180 (subf : (⟨S32x131072, .f32⟩ : BufTy).Contents (Elt F) → (⟨S32x131072, .f32⟩ : BufTy).Contents (Elt F) → (⟨S32x131072, .f32⟩ : BufTy).Contents (Elt F)),
    nullary main_c_73 (constantI S_ 32 0#32),
    TRef.nullary (TRef.of (T := ⟨S_, .i32⟩) main_call14_c) (constantI S_ 32 0#32),
    TRef.binary (TRef.of (T := ⟨S_, .i32⟩) main_c_73) (TRef.of (T := ⟨S_, .i32⟩) main_call14_c) (TRef.of (T := ⟨S_, .i1⟩) main_call14_v0) (cmpi .ne),
    TRef.ternary (TRef.of (T := ⟨S_, .i1⟩) main_call14_v0) (TRef.of (T := ⟨S32x131072, .f32⟩) main_v35) (TRef.of (T := ⟨S32x131072, .f32⟩) main_v180) (TRef.of (T := ⟨S32x131072, .f32⟩) main_v181) (fun p a b => select (broadcastInDim S32x131072 ![] bcast_S_S32x131072 p) a b),
    binary main_v178 main_v181 main_v182 (mulf : (⟨S32x131072, .f32⟩ : BufTy).Contents (Elt F) → (⟨S32x131072, .f32⟩ : BufTy).Contents (Elt F) → (⟨S32x131072, .f32⟩ : BufTy).Contents (Elt F)),
    nullary main_c_74 (constantI S_ 32 0#32),
    unary main_c_74 main_v183 (broadcastInDim S32x131072 ![] bcast_S_S32x131072 : (⟨S_, .i32⟩ : BufTy).Contents (Elt F) → (⟨S32x131072, .i32⟩ : BufTy).Contents (Elt F)),
    binary main_v167 main_v183 main_v184 (cmpi .sge : (⟨S32x131072, .i32⟩ : BufTy).Contents (Elt F) → (⟨S32x131072, .i32⟩ : BufTy).Contents (Elt F) → (⟨S32x131072, .i1⟩ : BufTy).Contents (Elt F)),
    nullary main_c_75 (constantI S_ 32 64#32),
    unary main_c_75 main_v185 (broadcastInDim S32x131072 ![] bcast_S_S32x131072 : (⟨S_, .i32⟩ : BufTy).Contents (Elt F) → (⟨S32x131072, .i32⟩ : BufTy).Contents (Elt F)),
    binary main_v167 main_v185 main_v186 (cmpi .slt : (⟨S32x131072, .i32⟩ : BufTy).Contents (Elt F) → (⟨S32x131072, .i32⟩ : BufTy).Contents (Elt F) → (⟨S32x131072, .i1⟩ : BufTy).Contents (Elt F)),
    binary main_v184 main_v186 main_v187 (andi : (⟨S32x131072, .i1⟩ : BufTy).Contents (Elt F) → (⟨S32x131072, .i1⟩ : BufTy).Contents (Elt F) → (⟨S32x131072, .i1⟩ : BufTy).Contents (Elt F)),
    nullary main_c_76 (constantI S_ 32 0#32),
    unary main_c_76 main_v188 (broadcastInDim S32x131072 ![] bcast_S_S32x131072 : (⟨S_, .i32⟩ : BufTy).Contents (Elt F) → (⟨S32x131072, .i32⟩ : BufTy).Contents (Elt F)),
    binary main_v169 main_v188 main_v189 (cmpi .sge : (⟨S32x131072, .i32⟩ : BufTy).Contents (Elt F) → (⟨S32x131072, .i32⟩ : BufTy).Contents (Elt F) → (⟨S32x131072, .i1⟩ : BufTy).Contents (Elt F)),
    binary main_v187 main_v189 main_v190 (andi : (⟨S32x131072, .i1⟩ : BufTy).Contents (Elt F) → (⟨S32x131072, .i1⟩ : BufTy).Contents (Elt F) → (⟨S32x131072, .i1⟩ : BufTy).Contents (Elt F)),
    nullary main_c_77 (constantI S_ 32 64#32),
    unary main_c_77 main_v191 (broadcastInDim S32x131072 ![] bcast_S_S32x131072 : (⟨S_, .i32⟩ : BufTy).Contents (Elt F) → (⟨S32x131072, .i32⟩ : BufTy).Contents (Elt F)),
    binary main_v169 main_v191 main_v192 (cmpi .slt : (⟨S32x131072, .i32⟩ : BufTy).Contents (Elt F) → (⟨S32x131072, .i32⟩ : BufTy).Contents (Elt F) → (⟨S32x131072, .i1⟩ : BufTy).Contents (Elt F)),
    binary main_v190 main_v192 main_v193 (andi : (⟨S32x131072, .i1⟩ : BufTy).Contents (Elt F) → (⟨S32x131072, .i1⟩ : BufTy).Contents (Elt F) → (⟨S32x131072, .i1⟩ : BufTy).Contents (Elt F)),
    nullary main_c_78 (constantI S_ 32 0#32),
    unary main_c_78 main_v194 (broadcastInDim S32x131072 ![] bcast_S_S32x131072 : (⟨S_, .i32⟩ : BufTy).Contents (Elt F) → (⟨S32x131072, .i32⟩ : BufTy).Contents (Elt F)),
    binary main_v171 main_v194 main_v195 (cmpi .sge : (⟨S32x131072, .i32⟩ : BufTy).Contents (Elt F) → (⟨S32x131072, .i32⟩ : BufTy).Contents (Elt F) → (⟨S32x131072, .i1⟩ : BufTy).Contents (Elt F)),
    binary main_v193 main_v195 main_v196 (andi : (⟨S32x131072, .i1⟩ : BufTy).Contents (Elt F) → (⟨S32x131072, .i1⟩ : BufTy).Contents (Elt F) → (⟨S32x131072, .i1⟩ : BufTy).Contents (Elt F)),
    nullary main_c_79 (constantI S_ 32 64#32),
    unary main_c_79 main_v197 (broadcastInDim S32x131072 ![] bcast_S_S32x131072 : (⟨S_, .i32⟩ : BufTy).Contents (Elt F) → (⟨S32x131072, .i32⟩ : BufTy).Contents (Elt F)),
    binary main_v171 main_v197 main_v198 (cmpi .slt : (⟨S32x131072, .i32⟩ : BufTy).Contents (Elt F) → (⟨S32x131072, .i32⟩ : BufTy).Contents (Elt F) → (⟨S32x131072, .i1⟩ : BufTy).Contents (Elt F)),
    binary main_v196 main_v198 main_v199 (andi : (⟨S32x131072, .i1⟩ : BufTy).Contents (Elt F) → (⟨S32x131072, .i1⟩ : BufTy).Contents (Elt F) → (⟨S32x131072, .i1⟩ : BufTy).Contents (Elt F)),
    nullary main_c_80 (constantI S_ 32 0#32),
    nullary main_c_81 (constantI S_ 32 63#32),
    TRef.unary (TRef.of (T := ⟨S_, .i32⟩) main_c_80) (TRef.of (T := ⟨S_, .i32⟩) main_call15_v0) id,
    TRef.unary (TRef.of (T := ⟨S_, .i32⟩) main_call15_v0) (TRef.of (T := ⟨S32x131072, .i32⟩) main_call15_v1) (broadcastInDim S32x131072 ![] bcast_S_S32x131072),
    TRef.binary (TRef.of (T := ⟨S32x131072, .i32⟩) main_call15_v1) (TRef.of (T := ⟨S32x131072, .i32⟩) main_v167) (TRef.of (T := ⟨S32x131072, .i32⟩) main_call15_v2) maxsi,
    TRef.unary (TRef.of (T := ⟨S_, .i32⟩) main_c_81) (TRef.of (T := ⟨S_, .i32⟩) main_call15_v3) id,
    TRef.unary (TRef.of (T := ⟨S_, .i32⟩) main_call15_v3) (TRef.of (T := ⟨S32x131072, .i32⟩) main_call15_v4) (broadcastInDim S32x131072 ![] bcast_S_S32x131072),
    TRef.binary (TRef.of (T := ⟨S32x131072, .i32⟩) main_call15_v4) (TRef.of (T := ⟨S32x131072, .i32⟩) main_call15_v2) (TRef.of (T := ⟨S32x131072, .i32⟩) main_v200) minsi,
    nullary main_c_82 (constantI S_ 32 0#32),
    nullary main_c_83 (constantI S_ 32 63#32),
    TRef.unary (TRef.of (T := ⟨S_, .i32⟩) main_c_82) (TRef.of (T := ⟨S_, .i32⟩) main_call16_v0) id,
    TRef.unary (TRef.of (T := ⟨S_, .i32⟩) main_call16_v0) (TRef.of (T := ⟨S32x131072, .i32⟩) main_call16_v1) (broadcastInDim S32x131072 ![] bcast_S_S32x131072),
    TRef.binary (TRef.of (T := ⟨S32x131072, .i32⟩) main_call16_v1) (TRef.of (T := ⟨S32x131072, .i32⟩) main_v169) (TRef.of (T := ⟨S32x131072, .i32⟩) main_call16_v2) maxsi,
    TRef.unary (TRef.of (T := ⟨S_, .i32⟩) main_c_83) (TRef.of (T := ⟨S_, .i32⟩) main_call16_v3) id,
    TRef.unary (TRef.of (T := ⟨S_, .i32⟩) main_call16_v3) (TRef.of (T := ⟨S32x131072, .i32⟩) main_call16_v4) (broadcastInDim S32x131072 ![] bcast_S_S32x131072),
    TRef.binary (TRef.of (T := ⟨S32x131072, .i32⟩) main_call16_v4) (TRef.of (T := ⟨S32x131072, .i32⟩) main_call16_v2) (TRef.of (T := ⟨S32x131072, .i32⟩) main_v201) minsi,
    nullary main_c_84 (constantI S_ 32 0#32),
    nullary main_c_85 (constantI S_ 32 63#32),
    TRef.unary (TRef.of (T := ⟨S_, .i32⟩) main_c_84) (TRef.of (T := ⟨S_, .i32⟩) main_call17_v0) id,
    TRef.unary (TRef.of (T := ⟨S_, .i32⟩) main_call17_v0) (TRef.of (T := ⟨S32x131072, .i32⟩) main_call17_v1) (broadcastInDim S32x131072 ![] bcast_S_S32x131072),
    TRef.binary (TRef.of (T := ⟨S32x131072, .i32⟩) main_call17_v1) (TRef.of (T := ⟨S32x131072, .i32⟩) main_v171) (TRef.of (T := ⟨S32x131072, .i32⟩) main_call17_v2) maxsi,
    TRef.unary (TRef.of (T := ⟨S_, .i32⟩) main_c_85) (TRef.of (T := ⟨S_, .i32⟩) main_call17_v3) id,
    TRef.unary (TRef.of (T := ⟨S_, .i32⟩) main_call17_v3) (TRef.of (T := ⟨S32x131072, .i32⟩) main_call17_v4) (broadcastInDim S32x131072 ![] bcast_S_S32x131072),
    TRef.binary (TRef.of (T := ⟨S32x131072, .i32⟩) main_call17_v4) (TRef.of (T := ⟨S32x131072, .i32⟩) main_call17_v2) (TRef.of (T := ⟨S32x131072, .i32⟩) main_v202) minsi,
    nullary main_c_86 (constantI S_ 32 0#32),
    unary main_c_86 main_v203 (broadcastInDim S32x131072 ![] bcast_S_S32x131072 : (⟨S_, .i32⟩ : BufTy).Contents (Elt F) → (⟨S32x131072, .i32⟩ : BufTy).Contents (Elt F)),
    binary main_v202 main_v203 main_v204 (cmpi .slt : (⟨S32x131072, .i32⟩ : BufTy).Contents (Elt F) → (⟨S32x131072, .i32⟩ : BufTy).Contents (Elt F) → (⟨S32x131072, .i1⟩ : BufTy).Contents (Elt F)),
    nullary main_c_87 (constantI S_ 32 64#32),
    unary main_c_87 main_v205 (broadcastInDim S32x131072 ![] bcast_S_S32x131072 : (⟨S_, .i32⟩ : BufTy).Contents (Elt F) → (⟨S32x131072, .i32⟩ : BufTy).Contents (Elt F)),
    binary main_v202 main_v205 main_v206 (addi : (⟨S32x131072, .i32⟩ : BufTy).Contents (Elt F) → (⟨S32x131072, .i32⟩ : BufTy).Contents (Elt F) → (⟨S32x131072, .i32⟩ : BufTy).Contents (Elt F)),
    ternary main_v204 main_v206 main_v202 main_v207 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_88 (constantI S_ 32 0#32),
    unary main_c_88 main_v208 (broadcastInDim S32x131072 ![] bcast_S_S32x131072 : (⟨S_, .i32⟩ : BufTy).Contents (Elt F) → (⟨S32x131072, .i32⟩ : BufTy).Contents (Elt F)) ]

set_option maxRecDepth 4096 in
set_option maxHeartbeats 4000000 in
/-- The window is the straight line of its operations. -/
theorem part4_eq (c : Dev nD) : main_part4 (F := F) c = seq opsW4 := by
  simp only [main_part4, fn_where.body, fn_clip.body, seq, bind_assoc, pure_bind]
  rfl

set_option maxRecDepth 8192 in
/-- The window's operations as a stretch of the cut lists. -/
theorem opsW4_eq : (opsW4 (F := F)) = List.take 81 (List.drop 7 opsC2) := rfl

end Cert.RefRun

end
-- ==== Proof.RefRunC3.lean ====
/-
  The operations of corner (dx, dy, dz) = (0, 1, 1) of the eight-corner sum, as a list, the buffers the list writes
  (one per operation), and what it therefore leaves alone from any contents W: the two argument buffers and the six
  buffers of cells and fractional parts.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Corner (0, 1, 1)'s operations, in order. -/
abbrev opsC3 : List (HloOp τ sig (Elt F)) :=
  [ nullary main_c_92 (constantI S_ 32 0#32),
    unary main_c_92 main_v229 (broadcastInDim S32x131072 ![] bcast_S_S32x131072 : (⟨S_, .i32⟩ : BufTy).Contents (Elt F) → (⟨S32x131072, .i32⟩ : BufTy).Contents (Elt F)),
    binary main_v36 main_v229 main_v230 (addi : (⟨S32x131072, .i32⟩ : BufTy).Contents (Elt F) → (⟨S32x131072, .i32⟩ : BufTy).Contents (Elt F) → (⟨S32x131072, .i32⟩ : BufTy).Contents (Elt F)),
    nullary main_c_93 (constantI S_ 32 1#32),
    unary main_c_93 main_v231 (broadcastInDim S32x131072 ![] bcast_S_S32x131072 : (⟨S_, .i32⟩ : BufTy).Contents (Elt F) → (⟨S32x131072, .i32⟩ : BufTy).Contents (Elt F)),
    binary main_v37 main_v231 main_v232 (addi : (⟨S32x131072, .i32⟩ : BufTy).Contents (Elt F) → (⟨S32x131072, .i32⟩ : BufTy).Contents (Elt F) → (⟨S32x131072, .i32⟩ : BufTy).Contents (Elt F)),
    nullary main_c_94 (constantI S_ 32 1#32),
    unary main_c_94 main_v233 (broadcastInDim S32x131072 ![] bcast_S_S32x131072 : (⟨S_, .i32⟩ : BufTy).Contents (Elt F) → (⟨S32x131072, .i32⟩ : BufTy).Contents (Elt F)),
    binary main_v38 main_v233 main_v234 (addi : (⟨S32x131072, .i32⟩ : BufTy).Contents (Elt F) → (⟨S32x131072, .i32⟩ : BufTy).Contents (Elt F) → (⟨S32x131072, .i32⟩ : BufTy).Contents (Elt F)),
    nullary main_cst_95 (constant S_ .f32 0x3F800000#32),
    unary main_cst_95 main_v235 (broadcastInDim S32x131072 ![] bcast_S_S32x131072 : (⟨S_, .f32⟩ : BufTy).Contents (Elt F) → (⟨S32x131072, .f32⟩ : BufTy).Contents (Elt F)),
    binary main_v235 main_v33 main_v236 (subf : (⟨S32x131072, .f32⟩ : BufTy).Contents (Elt F) → (⟨S32x131072, .f32⟩ : BufTy).Contents (Elt F) → (⟨S32x131072, .f32⟩ : BufTy).Contents (Elt F)),
    nullary main_c_96 (constantI S_ 32 0#32),
    TRef.nullary (TRef.of (T := ⟨S_, .i32⟩) main_call18_c) (constantI S_ 32 0#32),
    TRef.binary (TRef.of (T := ⟨S_, .i32⟩) main_c_96) (TRef.of (T := ⟨S_, .i32⟩) main_call18_c) (TRef.of (T := ⟨S_, .i1⟩) main_call18_v0) (cmpi .ne),
    TRef.ternary (TRef.of (T := ⟨S_, .i1⟩) main_call18_v0) (TRef.of (T := ⟨S32x131072, .f32⟩) main_v33) (TRef.of (T := ⟨S32x131072, .f32⟩) main_v236) (TRef.of (T := ⟨S32x131072, .f32⟩) main_v237) (fun p a b => select (broadcastInDim S32x131072 ![] bcast_S_S32x131072 p) a b),
    nullary main_cst_97 (constant S_ .f32 0x3F800000#32),
    unary main_cst_97 main_v238 (broadcastInDim S32x131072 ![] bcast_S_S32x131072 : (⟨S_, .f32⟩ : BufTy).Contents (Elt F) → (⟨S32x131072, .f32⟩ : BufTy).Contents (Elt F)),
    binary main_v238 main_v34 main_v239 (subf : (⟨S32x131072, .f32⟩ : BufTy).Contents (Elt F) → (⟨S32x131072, .f32⟩ : BufTy).Contents (Elt F) → (⟨S32x131072, .f32⟩ : BufTy).Contents (Elt F)),
    nullary main_c_98 (constantI S_ 32 1#32),
    TRef.nullary (TRef.of (T := ⟨S_, .i32⟩) main_call19_c) (constantI S_ 32 0#32),
    TRef.binary (TRef.of (T := ⟨S_, .i32⟩) main_c_98) (TRef.of (T := ⟨S_, .i32⟩) main_call19_c) (TRef.of (T := ⟨S_, .i1⟩) main_call19_v0) (cmpi .ne),
    TRef.ternary (TRef.of (T := ⟨S_, .i1⟩) main_call19_v0) (TRef.of (T := ⟨S32x131072, .f32⟩) main_v34) (TRef.of (T := ⟨S32x131072, .f32⟩) main_v239) (TRef.of (T := ⟨S32x131072, .f32⟩) main_v240) (fun p a b => select (broadcastInDim S32x131072 ![] bcast_S_S32x131072 p) a b),
    binary main_v237 main_v240 main_v241 (mulf : (⟨S32x131072, .f32⟩ : BufTy).Contents (Elt F) → (⟨S32x131072, .f32⟩ : BufTy).Contents (Elt F) → (⟨S32x131072, .f32⟩ : BufTy).Contents (Elt F)),
    nullary main_cst_99 (constant S_ .f32 0x3F800000#32),
    unary main_cst_99 main_v242 (broadcastInDim S32x131072 ![] bcast_S_S32x131072 : (⟨S_, .f32⟩ : BufTy).Contents (Elt F) → (⟨S32x131072, .f32⟩ : BufTy).Contents (Elt F)),
    binary main_v242 main_v35 main_v243 (subf : (⟨S32x131072, .f32⟩ : BufTy).Contents (Elt F) → (⟨S32x131072, .f32⟩ : BufTy).Contents (Elt F) → (⟨S32x131072, .f32⟩ : BufTy).Contents (Elt F)),
    nullary main_c_100 (constantI S_ 32 1#32),
    TRef.nullary (TRef.of (T := ⟨S_, .i32⟩) main_call20_c) (constantI S_ 32 0#32),
    TRef.binary (TRef.of (T := ⟨S_, .i32⟩) main_c_100) (TRef.of (T := ⟨S_, .i32⟩) main_call20_c) (TRef.of (T := ⟨S_, .i1⟩) main_call20_v0) (cmpi .ne),
    TRef.ternary (TRef.of (T := ⟨S_, .i1⟩) main_call20_v0) (TRef.of (T := ⟨S32x131072, .f32⟩) main_v35) (TRef.of (T := ⟨S32x131072, .f32⟩) main_v243) (TRef.of (T := ⟨S32x131072, .f32⟩) main_v244) (fun p a b => select (broadcastInDim S32x131072 ![] bcast_S_S32x131072 p) a b),
    binary main_v241 main_v244 main_v245 (mulf : (⟨S32x131072, .f32⟩ : BufTy).Contents (Elt F) → (⟨S32x131072, .f32⟩ : BufTy).Contents (Elt F) → (⟨S32x131072, .f32⟩ : BufTy).Contents (Elt F)),
    nullary main_c_101 (constantI S_ 32 0#32),
    unary main_c_101 main_v246 (broadcastInDim S32x131072 ![] bcast_S_S32x131072 : (⟨S_, .i32⟩ : BufTy).Contents (Elt F) → (⟨S32x131072, .i32⟩ : BufTy).Contents (Elt F)),
    binary main_v230 main_v246 main_v247 (cmpi .sge : (⟨S32x131072, .i32⟩ : BufTy).Contents (Elt F) → (⟨S32x131072, .i32⟩ : BufTy).Contents (Elt F) → (⟨S32x131072, .i1⟩ : BufTy).Contents (Elt F)),
    nullary main_c_102 (constantI S_ 32 64#32),
    unary main_c_102 main_v248 (broadcastInDim S32x131072 ![] bcast_S_S32x131072 : (⟨S_, .i32⟩ : BufTy).Contents (Elt F) → (⟨S32x131072, .i32⟩ : BufTy).Contents (Elt F)),
    binary main_v230 main_v248 main_v249 (cmpi .slt : (⟨S32x131072, .i32⟩ : BufTy).Contents (Elt F) → (⟨S32x131072, .i32⟩ : BufTy).Contents (Elt F) → (⟨S32x131072, .i1⟩ : BufTy).Contents (Elt F)),
    binary main_v247 main_v249 main_v250 (andi : (⟨S32x131072, .i1⟩ : BufTy).Contents (Elt F) → (⟨S32x131072, .i1⟩ : BufTy).Contents (Elt F) → (⟨S32x131072, .i1⟩ : BufTy).Contents (Elt F)),
    nullary main_c_103 (constantI S_ 32 0#32),
    unary main_c_103 main_v251 (broadcastInDim S32x131072 ![] bcast_S_S32x131072 : (⟨S_, .i32⟩ : BufTy).Contents (Elt F) → (⟨S32x131072, .i32⟩ : BufTy).Contents (Elt F)),
    binary main_v232 main_v251 main_v252 (cmpi .sge : (⟨S32x131072, .i32⟩ : BufTy).Contents (Elt F) → (⟨S32x131072, .i32⟩ : BufTy).Contents (Elt F) → (⟨S32x131072, .i1⟩ : BufTy).Contents (Elt F)),
    binary main_v250 main_v252 main_v253 (andi : (⟨S32x131072, .i1⟩ : BufTy).Contents (Elt F) → (⟨S32x131072, .i1⟩ : BufTy).Contents (Elt F) → (⟨S32x131072, .i1⟩ : BufTy).Contents (Elt F)),
    nullary main_c_104 (constantI S_ 32 64#32),
    unary main_c_104 main_v254 (broadcastInDim S32x131072 ![] bcast_S_S32x131072 : (⟨S_, .i32⟩ : BufTy).Contents (Elt F) → (⟨S32x131072, .i32⟩ : BufTy).Contents (Elt F)),
    binary main_v232 main_v254 main_v255 (cmpi .slt : (⟨S32x131072, .i32⟩ : BufTy).Contents (Elt F) → (⟨S32x131072, .i32⟩ : BufTy).Contents (Elt F) → (⟨S32x131072, .i1⟩ : BufTy).Contents (Elt F)),
    binary main_v253 main_v255 main_v256 (andi : (⟨S32x131072, .i1⟩ : BufTy).Contents (Elt F) → (⟨S32x131072, .i1⟩ : BufTy).Contents (Elt F) → (⟨S32x131072, .i1⟩ : BufTy).Contents (Elt F)),
    nullary main_c_105 (constantI S_ 32 0#32),
    unary main_c_105 main_v257 (broadcastInDim S32x131072 ![] bcast_S_S32x131072 : (⟨S_, .i32⟩ : BufTy).Contents (Elt F) → (⟨S32x131072, .i32⟩ : BufTy).Contents (Elt F)),
    binary main_v234 main_v257 main_v258 (cmpi .sge : (⟨S32x131072, .i32⟩ : BufTy).Contents (Elt F) → (⟨S32x131072, .i32⟩ : BufTy).Contents (Elt F) → (⟨S32x131072, .i1⟩ : BufTy).Contents (Elt F)),
    binary main_v256 main_v258 main_v259 (andi : (⟨S32x131072, .i1⟩ : BufTy).Contents (Elt F) → (⟨S32x131072, .i1⟩ : BufTy).Contents (Elt F) → (⟨S32x131072, .i1⟩ : BufTy).Contents (Elt F)),
    nullary main_c_106 (constantI S_ 32 64#32),
    unary main_c_106 main_v260 (broadcastInDim S32x131072 ![] bcast_S_S32x131072 : (⟨S_, .i32⟩ : BufTy).Contents (Elt F) → (⟨S32x131072, .i32⟩ : BufTy).Contents (Elt F)),
    binary main_v234 main_v260 main_v261 (cmpi .slt : (⟨S32x131072, .i32⟩ : BufTy).Contents (Elt F) → (⟨S32x131072, .i32⟩ : BufTy).Contents (Elt F) → (⟨S32x131072, .i1⟩ : BufTy).Contents (Elt F)),
    binary main_v259 main_v261 main_v262 (andi : (⟨S32x131072, .i1⟩ : BufTy).Contents (Elt F) → (⟨S32x131072, .i1⟩ : BufTy).Contents (Elt F) → (⟨S32x131072, .i1⟩ : BufTy).Contents (Elt F)),
    nullary main_c_107 (constantI S_ 32 0#32),
    nullary main_c_108 (constantI S_ 32 63#32),
    TRef.unary (TRef.of (T := ⟨S_, .i32⟩) main_c_107) (TRef.of (T := ⟨S_, .i32⟩) main_call21_v0) id,
    TRef.unary (TRef.of (T := ⟨S_, .i32⟩) main_call21_v0) (TRef.of (T := ⟨S32x131072, .i32⟩) main_call21_v1) (broadcastInDim S32x131072 ![] bcast_S_S32x131072),
    TRef.binary (TRef.of (T := ⟨S32x131072, .i32⟩) main_call21_v1) (TRef.of (T := ⟨S32x131072, .i32⟩) main_v230) (TRef.of (T := ⟨S32x131072, .i32⟩) main_call21_v2) maxsi,
    TRef.unary (TRef.of (T := ⟨S_, .i32⟩) main_c_108) (TRef.of (T := ⟨S_, .i32⟩) main_call21_v3) id,
    TRef.unary (TRef.of (T := ⟨S_, .i32⟩) main_call21_v3) (TRef.of (T := ⟨S32x131072, .i32⟩) main_call21_v4) (broadcastInDim S32x131072 ![] bcast_S_S32x131072),
    TRef.binary (TRef.of (T := ⟨S32x131072, .i32⟩) main_call21_v4) (TRef.of (T := ⟨S32x131072, .i32⟩) main_call21_v2) (TRef.of (T := ⟨S32x131072, .i32⟩) main_v263) minsi,
    nullary main_c_109 (constantI S_ 32 0#32),
    nullary main_c_110 (constantI S_ 32 63#32),
    TRef.unary (TRef.of (T := ⟨S_, .i32⟩) main_c_109) (TRef.of (T := ⟨S_, .i32⟩) main_call22_v0) id,
    TRef.unary (TRef.of (T := ⟨S_, .i32⟩) main_call22_v0) (TRef.of (T := ⟨S32x131072, .i32⟩) main_call22_v1) (broadcastInDim S32x131072 ![] bcast_S_S32x131072),
    TRef.binary (TRef.of (T := ⟨S32x131072, .i32⟩) main_call22_v1) (TRef.of (T := ⟨S32x131072, .i32⟩) main_v232) (TRef.of (T := ⟨S32x131072, .i32⟩) main_call22_v2) maxsi,
    TRef.unary (TRef.of (T := ⟨S_, .i32⟩) main_c_110) (TRef.of (T := ⟨S_, .i32⟩) main_call22_v3) id,
    TRef.unary (TRef.of (T := ⟨S_, .i32⟩) main_call22_v3) (TRef.of (T := ⟨S32x131072, .i32⟩) main_call22_v4) (broadcastInDim S32x131072 ![] bcast_S_S32x131072),
    TRef.binary (TRef.of (T := ⟨S32x131072, .i32⟩) main_call22_v4) (TRef.of (T := ⟨S32x131072, .i32⟩) main_call22_v2) (TRef.of (T := ⟨S32x131072, .i32⟩) main_v264) minsi,
    nullary main_c_111 (constantI S_ 32 0#32),
    nullary main_c_112 (constantI S_ 32 63#32),
    TRef.unary (TRef.of (T := ⟨S_, .i32⟩) main_c_111) (TRef.of (T := ⟨S_, .i32⟩) main_call23_v0) id,
    TRef.unary (TRef.of (T := ⟨S_, .i32⟩) main_call23_v0) (TRef.of (T := ⟨S32x131072, .i32⟩) main_call23_v1) (broadcastInDim S32x131072 ![] bcast_S_S32x131072),
    TRef.binary (TRef.of (T := ⟨S32x131072, .i32⟩) main_call23_v1) (TRef.of (T := ⟨S32x131072, .i32⟩) main_v234) (TRef.of (T := ⟨S32x131072, .i32⟩) main_call23_v2) maxsi,
    TRef.unary (TRef.of (T := ⟨S_, .i32⟩) main_c_112) (TRef.of (T := ⟨S_, .i32⟩) main_call23_v3) id,
    TRef.unary (TRef.of (T := ⟨S_, .i32⟩) main_call23_v3) (TRef.of (T := ⟨S32x131072, .i32⟩) main_call23_v4) (broadcastInDim S32x131072 ![] bcast_S_S32x131072),
    TRef.binary (TRef.of (T := ⟨S32x131072, .i32⟩) main_call23_v4) (TRef.of (T := ⟨S32x131072, .i32⟩) main_call23_v2) (TRef.of (T := ⟨S32x131072, .i32⟩) main_v265) minsi,
    nullary main_c_113 (constantI S_ 32 0#32),
    unary main_c_113 main_v266 (broadcastInDim S32x131072 ![] bcast_S_S32x131072 : (⟨S_, .i32⟩ : BufTy).Contents (Elt F) → (⟨S32x131072, .i32⟩ : BufTy).Contents (Elt F)),
    binary main_v265 main_v266 main_v267 (cmpi .slt : (⟨S32x131072, .i32⟩ : BufTy).Contents (Elt F) → (⟨S32x131072, .i32⟩ : BufTy).Contents (Elt F) → (⟨S32x131072, .i1⟩ : BufTy).Contents (Elt F)),
    nullary main_c_114 (constantI S_ 32 64#32),
    unary main_c_114 main_v268 (broadcastInDim S32x131072 ![] bcast_S_S32x131072 : (⟨S_, .i32⟩ : BufTy).Contents (Elt F) → (⟨S32x131072, .i32⟩ : BufTy).Contents (Elt F)),
    binary main_v265 main_v268 main_v269 (addi : (⟨S32x131072, .i32⟩ : BufTy).Contents (Elt F) → (⟨S32x131072, .i32⟩ : BufTy).Contents (Elt F) → (⟨S32x131072, .i32⟩ : BufTy).Contents (Elt F)),
    ternary main_v267 main_v269 main_v265 main_v270 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_115 (constantI S_ 32 0#32),
    unary main_c_115 main_v271 (broadcastInDim S32x131072 ![] bcast_S_S32x131072 : (⟨S_, .i32⟩ : BufTy).Contents (Elt F) → (⟨S32x131072, .i32⟩ : BufTy).Contents (Elt F)),
    binary main_v264 main_v271 main_v272 (cmpi .slt : (⟨S32x131072, .i32⟩ : BufTy).Contents (Elt F) → (⟨S32x131072, .i32⟩ : BufTy).Contents (Elt F) → (⟨S32x131072, .i1⟩ : BufTy).Contents (Elt F)),
    nullary main_c_116 (constantI S_ 32 64#32),
    unary main_c_116 main_v273 (broadcastInDim S32x131072 ![] bcast_S_S32x131072 : (⟨S_, .i32⟩ : BufTy).Contents (Elt F) → (⟨S32x131072, .i32⟩ : BufTy).Contents (Elt F)),
    binary main_v264 main_v273 main_v274 (addi : (⟨S32x131072, .i32⟩ : BufTy).Contents (Elt F) → (⟨S32x131072, .i32⟩ : BufTy).Contents (Elt F) → (⟨S32x131072, .i32⟩ : BufTy).Contents (Elt F)),
    ternary main_v272 main_v274 main_v264 main_v275 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_117 (constantI S_ 32 0#32),
    unary main_c_117 main_v276 (broadcastInDim S32x131072 ![] bcast_S_S32x131072 : (⟨S_, .i32⟩ : BufTy).Contents (Elt F) → (⟨S32x131072, .i32⟩ : BufTy).Contents (Elt F)),
    binary main_v263 main_v276 main_v277 (cmpi .slt : (⟨S32x131072, .i32⟩ : BufTy).Contents (Elt F) → (⟨S32x131072, .i32⟩ : BufTy).Contents (Elt F) → (⟨S32x131072, .i1⟩ : BufTy).Contents (Elt F)),
    nullary main_c_118 (constantI S_ 32 64#32),
    unary main_c_118 main_v278 (broadcastInDim S32x131072 ![] bcast_S_S32x131072 : (⟨S_, .i32⟩ : BufTy).Contents (Elt F) → (⟨S32x131072, .i32⟩ : BufTy).Contents (Elt F)),
    binary main_v263 main_v278 main_v279 (addi : (⟨S32x131072, .i32⟩ : BufTy).Contents (Elt F) → (⟨S32x131072, .i32⟩ : BufTy).Contents (Elt F) → (⟨S32x131072, .i32⟩ : BufTy).Contents (Elt F)),
    ternary main_v277 main_v279 main_v263 main_v280 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v270 main_v281 (broadcastInDim S32x131072x1 ![0, 1] bcast_S32x131072_S32x131072x1_0_1 : (⟨S32x131072, .i32⟩ : BufTy).Contents (Elt F) → (⟨S32x131072x1, .i32⟩ : BufTy).Contents (Elt F)),
    unary main_v275 main_v282 (broadcastInDim S32x131072x1 ![0, 1] bcast_S32x131072_S32x131072x1_0_1 : (⟨S32x131072, .i32⟩ : BufTy).Contents (Elt F) → (⟨S32x131072x1, .i32⟩ : BufTy).Contents (Elt F)),
    unary main_v280 main_v283 (broadcastInDim S32x131072x1 ![0, 1] bcast_S32x131072_S32x131072x1_0_1 : (⟨S32x131072, .i32⟩ : BufTy).Contents (Elt F) → (⟨S32x131072x1, .i32⟩ : BufTy).Contents (Elt F)),
    nary ![main_v281, main_v282, main_v283] main_v284 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v284 main_v285 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v262 main_v286 (uitofp .f32 : (⟨S32x131072, .i1⟩ : BufTy).Contents (Elt F) → (⟨S32x131072, .f32⟩ : BufTy).Contents (Elt F)),
    binary main_v245 main_v286 main_v287 (mulf : (⟨S32x131072, .f32⟩ : BufTy).Contents (Elt F) → (⟨S32x131072, .f32⟩ : BufTy).Contents (Elt F) → (⟨S32x131072, .f32⟩ : BufTy).Contents (Elt F)),
    unary main_v287 main_v288 (broadcastInDim S1x32x131072 ![1, 2] bcast_S32x131072_S1x32x131072_1_2 : (⟨S32x131072, .f32⟩ : BufTy).Contents (Elt F) → (⟨S1x32x131072, .f32⟩ : BufTy).Contents (Elt F)),
    unary main_v288 main_v289 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v285 main_v289 main_v290 (mulf : (⟨S3x32x131072, .f32⟩ : BufTy).Contents (Elt F) → (⟨S3x32x131072, .f32⟩ : BufTy).Contents (Elt F) → (⟨S3x32x131072, .f32⟩ : BufTy).Contents (Elt F)),
    binary main_v228 main_v290 main_v291 (addf : (⟨S3x32x131072, .f32⟩ : BufTy).Contents (Elt F) → (⟨S3x32x131072, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrC3 : List (Ref sig .tc) :=
  [main_c_92, main_v229, main_v230, main_c_93, main_v231, main_v232, main_c_94, main_v233, main_v234, main_cst_95, main_v235, main_v236, main_c_96, main_call18_c, main_call18_v0, main_v237, main_cst_97, main_v238, main_v239, main_c_98, main_call19_c, main_call19_v0, main_v240, main_v241, main_cst_99, main_v242, main_v243, main_c_100, main_call20_c, main_call20_v0, main_v244, main_v245, main_c_101, main_v246, main_v247, main_c_102, main_v248, main_v249, main_v250, main_c_103, main_v251, main_v252, main_v253, main_c_104, main_v254, main_v255, main_v256, main_c_105, main_v257, main_v258, main_v259, main_c_106, main_v260, main_v261, main_v262, main_c_107, main_c_108, main_call21_v0, main_call21_v1, main_call21_v2, main_call21_v3, main_call21_v4, main_v263, main_c_109, main_c_110, main_call22_v0, main_call22_v1, main_call22_v2, main_call22_v3, main_call22_v4, main_v264, main_c_111, main_c_112, main_call23_v0, main_call23_v1, main_call23_v2, main_call23_v3, main_call23_v4, main_v265, main_c_113, main_v266, main_v267, main_c_114, main_v268, main_v269, main_v270, main_c_115, main_v271, main_v272, main_c_116, main_v273, main_v274, main_v275, main_c_117, main_v276, main_v277, main_c_118, main_v278, main_v279, main_v280, main_v281, main_v282, main_v283, main_v284, main_v285, main_v286, main_v287, main_v288, main_v289, main_v290, main_v291]

set_option maxRecDepth 8192 in
/-- Every operation of the list writes its one buffer of that list. -/
theorem opsC3_writes : (opsC3 (F := F)).Forall fun op => op.writes ⊆ ((wrC3).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsC3_keep (W : Valuation τ sig (Elt F)) {r : Ref sig .tc} (hr : r ∉ wrC3) :
    after (opsC3 (F := F)) W (Proc.devRef .tc r) = W (Proc.devRef .tc r) :=
  after_of_writes_sub _ W opsC3_writes hr

/-- The corner's operations do not write this buffer. -/
theorem opsC3_arg0 (W : Valuation τ sig (Elt F)) :
    after (opsC3 (F := F)) W (Proc.devRef .tc main_arg0) = W (Proc.devRef .tc main_arg0) :=
  opsC3_keep W (by decide)

/-- The corner's operations do not write this buffer. -/
theorem opsC3_arg1 (W : Valuation τ sig (Elt F)) :
    after (opsC3 (F := F)) W (Proc.devRef .tc main_arg1) = W (Proc.devRef .tc main_arg1) :=
  opsC3_keep W (by decide)

/-- The corner's operations do not write this buffer. -/
theorem opsC3_v33 (W : Valuation τ sig (Elt F)) :
    after (opsC3 (F := F)) W (Proc.devRef .tc main_v33) = W (Proc.devRef .tc main_v33) :=
  opsC3_keep W (by decide)

/-- The corner's operations do not write this buffer. -/
theorem opsC3_v34 (W : Valuation τ sig (Elt F)) :
    after (opsC3 (F := F)) W (Proc.devRef .tc main_v34) = W (Proc.devRef .tc main_v34) :=
  opsC3_keep W (by decide)

/-- The corner's operations do not write this buffer. -/
theorem opsC3_v35 (W : Valuation τ sig (Elt F)) :
    after (opsC3 (F := F)) W (Proc.devRef .tc main_v35) = W (Proc.devRef .tc main_v35) :=
  opsC3_keep W (by decide)

/-- The corner's operations do not write this buffer. -/
theorem opsC3_v36 (W : Valuation τ sig (Elt F)) :
    after (opsC3 (F := F)) W (Proc.devRef .tc main_v36) = W (Proc.devRef .tc main_v36) :=
  opsC3_keep W (by decide)

/-- The corner's operations do not write this buffer. -/
theorem opsC3_v37 (W : Valuation τ sig (Elt F)) :
    after (opsC3 (F := F)) W (Proc.devRef .tc main_v37) = W (Proc.devRef .tc main_v37) :=
  opsC3_keep W (by decide)

/-- The corner's operations do not write this buffer. -/
theorem opsC3_v38 (W : Valuation τ sig (Elt F)) :
    after (opsC3 (F := F)) W (Proc.devRef .tc main_v38) = W (Proc.devRef .tc main_v38) :=
  opsC3_keep W (by decide)

end Cert.RefRun

end
-- ==== Proof.RefRunW5.lean ====
/-
  Window 5 of the reference's @main (operations 363 to 428 of 943, counting from 0) is the straight line of those
  operations: the called functions' bodies are unfolded at their calls and the sequencing re-associated. The same
  operations are a stretch of the reference's lists cut before the corners, per corner and after them.
-/
import proofs.«174278_j48524540510565_1_alg».proof.Proof.RefRunC2
import proofs.«174278_j48524540510565_1_alg».proof.Proof.RefRunC3

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW5 : List (HloOp τ sig (Elt F)) :=
  [ binary main_v201 main_v208 main_v209 (cmpi .slt : (⟨S32x131072, .i32⟩ : BufTy).Contents (Elt F) → (⟨S32x131072, .i32⟩ : BufTy).Contents (Elt F) → (⟨S32x131072, .i1⟩ : BufTy).Contents (Elt F)),
    nullary main_c_89 (constantI S_ 32 64#32),
    unary main_c_89 main_v210 (broadcastInDim S32x131072 ![] bcast_S_S32x131072 : (⟨S_, .i32⟩ : BufTy).Contents (Elt F) → (⟨S32x131072, .i32⟩ : BufTy).Contents (Elt F)),
    binary main_v201 main_v210 main_v211 (addi : (⟨S32x131072, .i32⟩ : BufTy).Contents (Elt F) → (⟨S32x131072, .i32⟩ : BufTy).Contents (Elt F) → (⟨S32x131072, .i32⟩ : BufTy).Contents (Elt F)),
    ternary main_v209 main_v211 main_v201 main_v212 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_90 (constantI S_ 32 0#32),
    unary main_c_90 main_v213 (broadcastInDim S32x131072 ![] bcast_S_S32x131072 : (⟨S_, .i32⟩ : BufTy).Contents (Elt F) → (⟨S32x131072, .i32⟩ : BufTy).Contents (Elt F)),
    binary main_v200 main_v213 main_v214 (cmpi .slt : (⟨S32x131072, .i32⟩ : BufTy).Contents (Elt F) → (⟨S32x131072, .i32⟩ : BufTy).Contents (Elt F) → (⟨S32x131072, .i1⟩ : BufTy).Contents (Elt F)),
    nullary main_c_91 (constantI S_ 32 64#32),
    unary main_c_91 main_v215 (broadcastInDim S32x131072 ![] bcast_S_S32x131072 : (⟨S_, .i32⟩ : BufTy).Contents (Elt F) → (⟨S32x131072, .i32⟩ : BufTy).Contents (Elt F)),
    binary main_v200 main_v215 main_v216 (addi : (⟨S32x131072, .i32⟩ : BufTy).Contents (Elt F) → (⟨S32x131072, .i32⟩ : BufTy).Contents (Elt F) → (⟨S32x131072, .i32⟩ : BufTy).Contents (Elt F)),
    ternary main_v214 main_v216 main_v200 main_v217 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v207 main_v218 (broadcastInDim S32x131072x1 ![0, 1] bcast_S32x131072_S32x131072x1_0_1 : (⟨S32x131072, .i32⟩ : BufTy).Contents (Elt F) → (⟨S32x131072x1, .i32⟩ : BufTy).Contents (Elt F)),
    unary main_v212 main_v219 (broadcastInDim S32x131072x1 ![0, 1] bcast_S32x131072_S32x131072x1_0_1 : (⟨S32x131072, .i32⟩ : BufTy).Contents (Elt F) → (⟨S32x131072x1, .i32⟩ : BufTy).Contents (Elt F)),
    unary main_v217 main_v220 (broadcastInDim S32x131072x1 ![0, 1] bcast_S32x131072_S32x131072x1_0_1 : (⟨S32x131072, .i32⟩ : BufTy).Contents (Elt F) → (⟨S32x131072x1, .i32⟩ : BufTy).Contents (Elt F)),
    nary ![main_v218, main_v219, main_v220] main_v221 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v221 main_v222 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v199 main_v223 (uitofp .f32 : (⟨S32x131072, .i1⟩ : BufTy).Contents (Elt F) → (⟨S32x131072, .f32⟩ : BufTy).Contents (Elt F)),
    binary main_v182 main_v223 main_v224 (mulf : (⟨S32x131072, .f32⟩ : BufTy).Contents (Elt F) → (⟨S32x131072, .f32⟩ : BufTy).Contents (Elt F) → (⟨S32x131072, .f32⟩ : BufTy).Contents (Elt F)),
    unary main_v224 main_v225 (broadcastInDim S1x32x131072 ![1, 2] bcast_S32x131072_S1x32x131072_1_2 : (⟨S32x131072, .f32⟩ : BufTy).Contents (Elt F) → (⟨S1x32x131072, .f32⟩ : BufTy).Contents (Elt F)),
    unary main_v225 main_v226 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v222 main_v226 main_v227 (mulf : (⟨S3x32x131072, .f32⟩ : BufTy).Contents (Elt F) → (⟨S3x32x131072, .f32⟩ : BufTy).Contents (Elt F) → (⟨S3x32x131072, .f32⟩ : BufTy).Contents (Elt F)),
    binary main_v165 main_v227 main_v228 (addf : (⟨S3x32x131072, .f32⟩ : BufTy).Contents (Elt F) → (⟨S3x32x131072, .f32⟩ : BufTy).Contents (Elt F) → (⟨S3x32x131072, .f32⟩ : BufTy).Contents (Elt F)),
    nullary main_c_92 (constantI S_ 32 0#32),
    unary main_c_92 main_v229 (broadcastInDim S32x131072 ![] bcast_S_S32x131072 : (⟨S_, .i32⟩ : BufTy).Contents (Elt F) → (⟨S32x131072, .i32⟩ : BufTy).Contents (Elt F)),
    binary main_v36 main_v229 main_v230 (addi : (⟨S32x131072, .i32⟩ : BufTy).Contents (Elt F) → (⟨S32x131072, .i32⟩ : BufTy).Contents (Elt F) → (⟨S32x131072, .i32⟩ : BufTy).Contents (Elt F)),
    nullary main_c_93 (constantI S_ 32 1#32),
    unary main_c_93 main_v231 (broadcastInDim S32x131072 ![] bcast_S_S32x131072 : (⟨S_, .i32⟩ : BufTy).Contents (Elt F) → (⟨S32x131072, .i32⟩ : BufTy).Contents (Elt F)),
    binary main_v37 main_v231 main_v232 (addi : (⟨S32x131072, .i32⟩ : BufTy).Contents (Elt F) → (⟨S32x131072, .i32⟩ : BufTy).Contents (Elt F) → (⟨S32x131072, .i32⟩ : BufTy).Contents (Elt F)),
    nullary main_c_94 (constantI S_ 32 1#32),
    unary main_c_94 main_v233 (broadcastInDim S32x131072 ![] bcast_S_S32x131072 : (⟨S_, .i32⟩ : BufTy).Contents (Elt F) → (⟨S32x131072, .i32⟩ : BufTy).Contents (Elt F)),
    binary main_v38 main_v233 main_v234 (addi : (⟨S32x131072, .i32⟩ : BufTy).Contents (Elt F) → (⟨S32x131072, .i32⟩ : BufTy).Contents (Elt F) → (⟨S32x131072, .i32⟩ : BufTy).Contents (Elt F)),
    nullary main_cst_95 (constant S_ .f32 0x3F800000#32),
    unary main_cst_95 main_v235 (broadcastInDim S32x131072 ![] bcast_S_S32x131072 : (⟨S_, .f32⟩ : BufTy).Contents (Elt F) → (⟨S32x131072, .f32⟩ : BufTy).Contents (Elt F)),
    binary main_v235 main_v33 main_v236 (subf : (⟨S32x131072, .f32⟩ : BufTy).Contents (Elt F) → (⟨S32x131072, .f32⟩ : BufTy).Contents (Elt F) → (⟨S32x131072, .f32⟩ : BufTy).Contents (Elt F)),
    nullary main_c_96 (constantI S_ 32 0#32),
    TRef.nullary (TRef.of (T := ⟨S_, .i32⟩) main_call18_c) (constantI S_ 32 0#32),
    TRef.binary (TRef.of (T := ⟨S_, .i32⟩) main_c_96) (TRef.of (T := ⟨S_, .i32⟩) main_call18_c) (TRef.of (T := ⟨S_, .i1⟩) main_call18_v0) (cmpi .ne),
    TRef.ternary (TRef.of (T := ⟨S_, .i1⟩) main_call18_v0) (TRef.of (T := ⟨S32x131072, .f32⟩) main_v33) (TRef.of (T := ⟨S32x131072, .f32⟩) main_v236) (TRef.of (T := ⟨S32x131072, .f32⟩) main_v237) (fun p a b => select (broadcastInDim S32x131072 ![] bcast_S_S32x131072 p) a b),
    nullary main_cst_97 (constant S_ .f32 0x3F800000#32),
    unary main_cst_97 main_v238 (broadcastInDim S32x131072 ![] bcast_S_S32x131072 : (⟨S_, .f32⟩ : BufTy).Contents (Elt F) → (⟨S32x131072, .f32⟩ : BufTy).Contents (Elt F)),
    binary main_v238 main_v34 main_v239 (subf : (⟨S32x131072, .f32⟩ : BufTy).Contents (Elt F) → (⟨S32x131072, .f32⟩ : BufTy).Contents (Elt F) → (⟨S32x131072, .f32⟩ : BufTy).Contents (Elt F)),
    nullary main_c_98 (constantI S_ 32 1#32),
    TRef.nullary (TRef.of (T := ⟨S_, .i32⟩) main_call19_c) (constantI S_ 32 0#32),
    TRef.binary (TRef.of (T := ⟨S_, .i32⟩) main_c_98) (TRef.of (T := ⟨S_, .i32⟩) main_call19_c) (TRef.of (T := ⟨S_, .i1⟩) main_call19_v0) (cmpi .ne),
    TRef.ternary (TRef.of (T := ⟨S_, .i1⟩) main_call19_v0) (TRef.of (T := ⟨S32x131072, .f32⟩) main_v34) (TRef.of (T := ⟨S32x131072, .f32⟩) main_v239) (TRef.of (T := ⟨S32x131072, .f32⟩) main_v240) (fun p a b => select (broadcastInDim S32x131072 ![] bcast_S_S32x131072 p) a b),
    binary main_v237 main_v240 main_v241 (mulf : (⟨S32x131072, .f32⟩ : BufTy).Contents (Elt F) → (⟨S32x131072, .f32⟩ : BufTy).Contents (Elt F) → (⟨S32x131072, .f32⟩ : BufTy).Contents (Elt F)),
    nullary main_cst_99 (constant S_ .f32 0x3F800000#32),
    unary main_cst_99 main_v242 (broadcastInDim S32x131072 ![] bcast_S_S32x131072 : (⟨S_, .f32⟩ : BufTy).Contents (Elt F) → (⟨S32x131072, .f32⟩ : BufTy).Contents (Elt F)),
    binary main_v242 main_v35 main_v243 (subf : (⟨S32x131072, .f32⟩ : BufTy).Contents (Elt F) → (⟨S32x131072, .f32⟩ : BufTy).Contents (Elt F) → (⟨S32x131072, .f32⟩ : BufTy).Contents (Elt F)),
    nullary main_c_100 (constantI S_ 32 1#32),
    TRef.nullary (TRef.of (T := ⟨S_, .i32⟩) main_call20_c) (constantI S_ 32 0#32),
    TRef.binary (TRef.of (T := ⟨S_, .i32⟩) main_c_100) (TRef.of (T := ⟨S_, .i32⟩) main_call20_c) (TRef.of (T := ⟨S_, .i1⟩) main_call20_v0) (cmpi .ne),
    TRef.ternary (TRef.of (T := ⟨S_, .i1⟩) main_call20_v0) (TRef.of (T := ⟨S32x131072, .f32⟩) main_v35) (TRef.of (T := ⟨S32x131072, .f32⟩) main_v243) (TRef.of (T := ⟨S32x131072, .f32⟩) main_v244) (fun p a b => select (broadcastInDim S32x131072 ![] bcast_S_S32x131072 p) a b),
    binary main_v241 main_v244 main_v245 (mulf : (⟨S32x131072, .f32⟩ : BufTy).Contents (Elt F) → (⟨S32x131072, .f32⟩ : BufTy).Contents (Elt F) → (⟨S32x131072, .f32⟩ : BufTy).Contents (Elt F)),
    nullary main_c_101 (constantI S_ 32 0#32),
    unary main_c_101 main_v246 (broadcastInDim S32x131072 ![] bcast_S_S32x131072 : (⟨S_, .i32⟩ : BufTy).Contents (Elt F) → (⟨S32x131072, .i32⟩ : BufTy).Contents (Elt F)),
    binary main_v230 main_v246 main_v247 (cmpi .sge : (⟨S32x131072, .i32⟩ : BufTy).Contents (Elt F) → (⟨S32x131072, .i32⟩ : BufTy).Contents (Elt F) → (⟨S32x131072, .i1⟩ : BufTy).Contents (Elt F)),
    nullary main_c_102 (constantI S_ 32 64#32),
    unary main_c_102 main_v248 (broadcastInDim S32x131072 ![] bcast_S_S32x131072 : (⟨S_, .i32⟩ : BufTy).Contents (Elt F) → (⟨S32x131072, .i32⟩ : BufTy).Contents (Elt F)),
    binary main_v230 main_v248 main_v249 (cmpi .slt : (⟨S32x131072, .i32⟩ : BufTy).Contents (Elt F) → (⟨S32x131072, .i32⟩ : BufTy).Contents (Elt F) → (⟨S32x131072, .i1⟩ : BufTy).Contents (Elt F)),
    binary main_v247 main_v249 main_v250 (andi : (⟨S32x131072, .i1⟩ : BufTy).Contents (Elt F) → (⟨S32x131072, .i1⟩ : BufTy).Contents (Elt F) → (⟨S32x131072, .i1⟩ : BufTy).Contents (Elt F)),
    nullary main_c_103 (constantI S_ 32 0#32),
    unary main_c_103 main_v251 (broadcastInDim S32x131072 ![] bcast_S_S32x131072 : (⟨S_, .i32⟩ : BufTy).Contents (Elt F) → (⟨S32x131072, .i32⟩ : BufTy).Contents (Elt F)),
    binary main_v232 main_v251 main_v252 (cmpi .sge : (⟨S32x131072, .i32⟩ : BufTy).Contents (Elt F) → (⟨S32x131072, .i32⟩ : BufTy).Contents (Elt F) → (⟨S32x131072, .i1⟩ : BufTy).Contents (Elt F)),
    binary main_v250 main_v252 main_v253 (andi : (⟨S32x131072, .i1⟩ : BufTy).Contents (Elt F) → (⟨S32x131072, .i1⟩ : BufTy).Contents (Elt F) → (⟨S32x131072, .i1⟩ : BufTy).Contents (Elt F)) ]

set_option maxRecDepth 4096 in
set_option maxHeartbeats 4000000 in
/-- The window is the straight line of its operations. -/
theorem part5_eq (c : Dev nD) : main_part5 (F := F) c = seq opsW5 := by
  simp only [main_part5, fn_where.body, fn_clip.body, seq, bind_assoc, pure_bind]
  rfl

set_option maxRecDepth 8192 in
/-- The window's operations as a stretch of the cut lists. -/
theorem opsW5_eq : (opsW5 (F := F)) = List.drop 81 (List.drop 7 opsC2) ++ (List.take 43 opsC3) := rfl

end Cert.RefRun

end
-- ==== Proof.RefRunC4.lean ====
/-
  The operations of corner (dx, dy, dz) = (1, 0, 0) of the eight-corner sum, as a list, the buffers the list writes
  (one per operation), and what it therefore leaves alone from any contents W: the two argument buffers and the six
  buffers of cells and fractional parts.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Corner (1, 0, 0)'s operations, in order. -/
abbrev opsC4 : List (HloOp τ sig (Elt F)) :=
  [ nullary main_c_119 (constantI S_ 32 1#32),
    unary main_c_119 main_v292 (broadcastInDim S32x131072 ![] bcast_S_S32x131072 : (⟨S_, .i32⟩ : BufTy).Contents (Elt F) → (⟨S32x131072, .i32⟩ : BufTy).Contents (Elt F)),
    binary main_v36 main_v292 main_v293 (addi : (⟨S32x131072, .i32⟩ : BufTy).Contents (Elt F) → (⟨S32x131072, .i32⟩ : BufTy).Contents (Elt F) → (⟨S32x131072, .i32⟩ : BufTy).Contents (Elt F)),
    nullary main_c_120 (constantI S_ 32 0#32),
    unary main_c_120 main_v294 (broadcastInDim S32x131072 ![] bcast_S_S32x131072 : (⟨S_, .i32⟩ : BufTy).Contents (Elt F) → (⟨S32x131072, .i32⟩ : BufTy).Contents (Elt F)),
    binary main_v37 main_v294 main_v295 (addi : (⟨S32x131072, .i32⟩ : BufTy).Contents (Elt F) → (⟨S32x131072, .i32⟩ : BufTy).Contents (Elt F) → (⟨S32x131072, .i32⟩ : BufTy).Contents (Elt F)),
    nullary main_c_121 (constantI S_ 32 0#32),
    unary main_c_121 main_v296 (broadcastInDim S32x131072 ![] bcast_S_S32x131072 : (⟨S_, .i32⟩ : BufTy).Contents (Elt F) → (⟨S32x131072, .i32⟩ : BufTy).Contents (Elt F)),
    binary main_v38 main_v296 main_v297 (addi : (⟨S32x131072, .i32⟩ : BufTy).Contents (Elt F) → (⟨S32x131072, .i32⟩ : BufTy).Contents (Elt F) → (⟨S32x131072, .i32⟩ : BufTy).Contents (Elt F)),
    nullary main_cst_122 (constant S_ .f32 0x3F800000#32),
    unary main_cst_122 main_v298 (broadcastInDim S32x131072 ![] bcast_S_S32x131072 : (⟨S_, .f32⟩ : BufTy).Contents (Elt F) → (⟨S32x131072, .f32⟩ : BufTy).Contents (Elt F)),
    binary main_v298 main_v33 main_v299 (subf : (⟨S32x131072, .f32⟩ : BufTy).Contents (Elt F) → (⟨S32x131072, .f32⟩ : BufTy).Contents (Elt F) → (⟨S32x131072, .f32⟩ : BufTy).Contents (Elt F)),
    nullary main_c_123 (constantI S_ 32 1#32),
    TRef.nullary (TRef.of (T := ⟨S_, .i32⟩) main_call24_c) (constantI S_ 32 0#32),
    TRef.binary (TRef.of (T := ⟨S_, .i32⟩) main_c_123) (TRef.of (T := ⟨S_, .i32⟩) main_call24_c) (TRef.of (T := ⟨S_, .i1⟩) main_call24_v0) (cmpi .ne),
    TRef.ternary (TRef.of (T := ⟨S_, .i1⟩) main_call24_v0) (TRef.of (T := ⟨S32x131072, .f32⟩) main_v33) (TRef.of (T := ⟨S32x131072, .f32⟩) main_v299) (TRef.of (T := ⟨S32x131072, .f32⟩) main_v300) (fun p a b => select (broadcastInDim S32x131072 ![] bcast_S_S32x131072 p) a b),
    nullary main_cst_124 (constant S_ .f32 0x3F800000#32),
    unary main_cst_124 main_v301 (broadcastInDim S32x131072 ![] bcast_S_S32x131072 : (⟨S_, .f32⟩ : BufTy).Contents (Elt F) → (⟨S32x131072, .f32⟩ : BufTy).Contents (Elt F)),
    binary main_v301 main_v34 main_v302 (subf : (⟨S32x131072, .f32⟩ : BufTy).Contents (Elt F) → (⟨S32x131072, .f32⟩ : BufTy).Contents (Elt F) → (⟨S32x131072, .f32⟩ : BufTy).Contents (Elt F)),
    nullary main_c_125 (constantI S_ 32 0#32),
    TRef.nullary (TRef.of (T := ⟨S_, .i32⟩) main_call25_c) (constantI S_ 32 0#32),
    TRef.binary (TRef.of (T := ⟨S_, .i32⟩) main_c_125) (TRef.of (T := ⟨S_, .i32⟩) main_call25_c) (TRef.of (T := ⟨S_, .i1⟩) main_call25_v0) (cmpi .ne),
    TRef.ternary (TRef.of (T := ⟨S_, .i1⟩) main_call25_v0) (TRef.of (T := ⟨S32x131072, .f32⟩) main_v34) (TRef.of (T := ⟨S32x131072, .f32⟩) main_v302) (TRef.of (T := ⟨S32x131072, .f32⟩) main_v303) (fun p a b => select (broadcastInDim S32x131072 ![] bcast_S_S32x131072 p) a b),
    binary main_v300 main_v303 main_v304 (mulf : (⟨S32x131072, .f32⟩ : BufTy).Contents (Elt F) → (⟨S32x131072, .f32⟩ : BufTy).Contents (Elt F) → (⟨S32x131072, .f32⟩ : BufTy).Contents (Elt F)),
    nullary main_cst_126 (constant S_ .f32 0x3F800000#32),
    unary main_cst_126 main_v305 (broadcastInDim S32x131072 ![] bcast_S_S32x131072 : (⟨S_, .f32⟩ : BufTy).Contents (Elt F) → (⟨S32x131072, .f32⟩ : BufTy).Contents (Elt F)),
    binary main_v305 main_v35 main_v306 (subf : (⟨S32x131072, .f32⟩ : BufTy).Contents (Elt F) → (⟨S32x131072, .f32⟩ : BufTy).Contents (Elt F) → (⟨S32x131072, .f32⟩ : BufTy).Contents (Elt F)),
    nullary main_c_127 (constantI S_ 32 0#32),
    TRef.nullary (TRef.of (T := ⟨S_, .i32⟩) main_call26_c) (constantI S_ 32 0#32),
    TRef.binary (TRef.of (T := ⟨S_, .i32⟩) main_c_127) (TRef.of (T := ⟨S_, .i32⟩) main_call26_c) (TRef.of (T := ⟨S_, .i1⟩) main_call26_v0) (cmpi .ne),
    TRef.ternary (TRef.of (T := ⟨S_, .i1⟩) main_call26_v0) (TRef.of (T := ⟨S32x131072, .f32⟩) main_v35) (TRef.of (T := ⟨S32x131072, .f32⟩) main_v306) (TRef.of (T := ⟨S32x131072, .f32⟩) main_v307) (fun p a b => select (broadcastInDim S32x131072 ![] bcast_S_S32x131072 p) a b),
    binary main_v304 main_v307 main_v308 (mulf : (⟨S32x131072, .f32⟩ : BufTy).Contents (Elt F) → (⟨S32x131072, .f32⟩ : BufTy).Contents (Elt F) → (⟨S32x131072, .f32⟩ : BufTy).Contents (Elt F)),
    nullary main_c_128 (constantI S_ 32 0#32),
    unary main_c_128 main_v309 (broadcastInDim S32x131072 ![] bcast_S_S32x131072 : (⟨S_, .i32⟩ : BufTy).Contents (Elt F) → (⟨S32x131072, .i32⟩ : BufTy).Contents (Elt F)),
    binary main_v293 main_v309 main_v310 (cmpi .sge : (⟨S32x131072, .i32⟩ : BufTy).Contents (Elt F) → (⟨S32x131072, .i32⟩ : BufTy).Contents (Elt F) → (⟨S32x131072, .i1⟩ : BufTy).Contents (Elt F)),
    nullary main_c_129 (constantI S_ 32 64#32),
    unary main_c_129 main_v311 (broadcastInDim S32x131072 ![] bcast_S_S32x131072 : (⟨S_, .i32⟩ : BufTy).Contents (Elt F) → (⟨S32x131072, .i32⟩ : BufTy).Contents (Elt F)),
    binary main_v293 main_v311 main_v312 (cmpi .slt : (⟨S32x131072, .i32⟩ : BufTy).Contents (Elt F) → (⟨S32x131072, .i32⟩ : BufTy).Contents (Elt F) → (⟨S32x131072, .i1⟩ : BufTy).Contents (Elt F)),
    binary main_v310 main_v312 main_v313 (andi : (⟨S32x131072, .i1⟩ : BufTy).Contents (Elt F) → (⟨S32x131072, .i1⟩ : BufTy).Contents (Elt F) → (⟨S32x131072, .i1⟩ : BufTy).Contents (Elt F)),
    nullary main_c_130 (constantI S_ 32 0#32),
    unary main_c_130 main_v314 (broadcastInDim S32x131072 ![] bcast_S_S32x131072 : (⟨S_, .i32⟩ : BufTy).Contents (Elt F) → (⟨S32x131072, .i32⟩ : BufTy).Contents (Elt F)),
    binary main_v295 main_v314 main_v315 (cmpi .sge : (⟨S32x131072, .i32⟩ : BufTy).Contents (Elt F) → (⟨S32x131072, .i32⟩ : BufTy).Contents (Elt F) → (⟨S32x131072, .i1⟩ : BufTy).Contents (Elt F)),
    binary main_v313 main_v315 main_v316 (andi : (⟨S32x131072, .i1⟩ : BufTy).Contents (Elt F) → (⟨S32x131072, .i1⟩ : BufTy).Contents (Elt F) → (⟨S32x131072, .i1⟩ : BufTy).Contents (Elt F)),
    nullary main_c_131 (constantI S_ 32 64#32),
    unary main_c_131 main_v317 (broadcastInDim S32x131072 ![] bcast_S_S32x131072 : (⟨S_, .i32⟩ : BufTy).Contents (Elt F) → (⟨S32x131072, .i32⟩ : BufTy).Contents (Elt F)),
    binary main_v295 main_v317 main_v318 (cmpi .slt : (⟨S32x131072, .i32⟩ : BufTy).Contents (Elt F) → (⟨S32x131072, .i32⟩ : BufTy).Contents (Elt F) → (⟨S32x131072, .i1⟩ : BufTy).Contents (Elt F)),
    binary main_v316 main_v318 main_v319 (andi : (⟨S32x131072, .i1⟩ : BufTy).Contents (Elt F) → (⟨S32x131072, .i1⟩ : BufTy).Contents (Elt F) → (⟨S32x131072, .i1⟩ : BufTy).Contents (Elt F)),
    nullary main_c_132 (constantI S_ 32 0#32),
    unary main_c_132 main_v320 (broadcastInDim S32x131072 ![] bcast_S_S32x131072 : (⟨S_, .i32⟩ : BufTy).Contents (Elt F) → (⟨S32x131072, .i32⟩ : BufTy).Contents (Elt F)),
    binary main_v297 main_v320 main_v321 (cmpi .sge : (⟨S32x131072, .i32⟩ : BufTy).Contents (Elt F) → (⟨S32x131072, .i32⟩ : BufTy).Contents (Elt F) → (⟨S32x131072, .i1⟩ : BufTy).Contents (Elt F)),
    binary main_v319 main_v321 main_v322 (andi : (⟨S32x131072, .i1⟩ : BufTy).Contents (Elt F) → (⟨S32x131072, .i1⟩ : BufTy).Contents (Elt F) → (⟨S32x131072, .i1⟩ : BufTy).Contents (Elt F)),
    nullary main_c_133 (constantI S_ 32 64#32),
    unary main_c_133 main_v323 (broadcastInDim S32x131072 ![] bcast_S_S32x131072 : (⟨S_, .i32⟩ : BufTy).Contents (Elt F) → (⟨S32x131072, .i32⟩ : BufTy).Contents (Elt F)),
    binary main_v297 main_v323 main_v324 (cmpi .slt : (⟨S32x131072, .i32⟩ : BufTy).Contents (Elt F) → (⟨S32x131072, .i32⟩ : BufTy).Contents (Elt F) → (⟨S32x131072, .i1⟩ : BufTy).Contents (Elt F)),
    binary main_v322 main_v324 main_v325 (andi : (⟨S32x131072, .i1⟩ : BufTy).Contents (Elt F) → (⟨S32x131072, .i1⟩ : BufTy).Contents (Elt F) → (⟨S32x131072, .i1⟩ : BufTy).Contents (Elt F)),
    nullary main_c_134 (constantI S_ 32 0#32),
    nullary main_c_135 (constantI S_ 32 63#32),
    TRef.unary (TRef.of (T := ⟨S_, .i32⟩) main_c_134) (TRef.of (T := ⟨S_, .i32⟩) main_call27_v0) id,
    TRef.unary (TRef.of (T := ⟨S_, .i32⟩) main_call27_v0) (TRef.of (T := ⟨S32x131072, .i32⟩) main_call27_v1) (broadcastInDim S32x131072 ![] bcast_S_S32x131072),
    TRef.binary (TRef.of (T := ⟨S32x131072, .i32⟩) main_call27_v1) (TRef.of (T := ⟨S32x131072, .i32⟩) main_v293) (TRef.of (T := ⟨S32x131072, .i32⟩) main_call27_v2) maxsi,
    TRef.unary (TRef.of (T := ⟨S_, .i32⟩) main_c_135) (TRef.of (T := ⟨S_, .i32⟩) main_call27_v3) id,
    TRef.unary (TRef.of (T := ⟨S_, .i32⟩) main_call27_v3) (TRef.of (T := ⟨S32x131072, .i32⟩) main_call27_v4) (broadcastInDim S32x131072 ![] bcast_S_S32x131072),
    TRef.binary (TRef.of (T := ⟨S32x131072, .i32⟩) main_call27_v4) (TRef.of (T := ⟨S32x131072, .i32⟩) main_call27_v2) (TRef.of (T := ⟨S32x131072, .i32⟩) main_v326) minsi,
    nullary main_c_136 (constantI S_ 32 0#32),
    nullary main_c_137 (constantI S_ 32 63#32),
    TRef.unary (TRef.of (T := ⟨S_, .i32⟩) main_c_136) (TRef.of (T := ⟨S_, .i32⟩) main_call28_v0) id,
    TRef.unary (TRef.of (T := ⟨S_, .i32⟩) main_call28_v0) (TRef.of (T := ⟨S32x131072, .i32⟩) main_call28_v1) (broadcastInDim S32x131072 ![] bcast_S_S32x131072),
    TRef.binary (TRef.of (T := ⟨S32x131072, .i32⟩) main_call28_v1) (TRef.of (T := ⟨S32x131072, .i32⟩) main_v295) (TRef.of (T := ⟨S32x131072, .i32⟩) main_call28_v2) maxsi,
    TRef.unary (TRef.of (T := ⟨S_, .i32⟩) main_c_137) (TRef.of (T := ⟨S_, .i32⟩) main_call28_v3) id,
    TRef.unary (TRef.of (T := ⟨S_, .i32⟩) main_call28_v3) (TRef.of (T := ⟨S32x131072, .i32⟩) main_call28_v4) (broadcastInDim S32x131072 ![] bcast_S_S32x131072),
    TRef.binary (TRef.of (T := ⟨S32x131072, .i32⟩) main_call28_v4) (TRef.of (T := ⟨S32x131072, .i32⟩) main_call28_v2) (TRef.of (T := ⟨S32x131072, .i32⟩) main_v327) minsi,
    nullary main_c_138 (constantI S_ 32 0#32),
    nullary main_c_139 (constantI S_ 32 63#32),
    TRef.unary (TRef.of (T := ⟨S_, .i32⟩) main_c_138) (TRef.of (T := ⟨S_, .i32⟩) main_call29_v0) id,
    TRef.unary (TRef.of (T := ⟨S_, .i32⟩) main_call29_v0) (TRef.of (T := ⟨S32x131072, .i32⟩) main_call29_v1) (broadcastInDim S32x131072 ![] bcast_S_S32x131072),
    TRef.binary (TRef.of (T := ⟨S32x131072, .i32⟩) main_call29_v1) (TRef.of (T := ⟨S32x131072, .i32⟩) main_v297) (TRef.of (T := ⟨S32x131072, .i32⟩) main_call29_v2) maxsi,
    TRef.unary (TRef.of (T := ⟨S_, .i32⟩) main_c_139) (TRef.of (T := ⟨S_, .i32⟩) main_call29_v3) id,
    TRef.unary (TRef.of (T := ⟨S_, .i32⟩) main_call29_v3) (TRef.of (T := ⟨S32x131072, .i32⟩) main_call29_v4) (broadcastInDim S32x131072 ![] bcast_S_S32x131072),
    TRef.binary (TRef.of (T := ⟨S32x131072, .i32⟩) main_call29_v4) (TRef.of (T := ⟨S32x131072, .i32⟩) main_call29_v2) (TRef.of (T := ⟨S32x131072, .i32⟩) main_v328) minsi,
    nullary main_c_140 (constantI S_ 32 0#32),
    unary main_c_140 main_v329 (broadcastInDim S32x131072 ![] bcast_S_S32x131072 : (⟨S_, .i32⟩ : BufTy).Contents (Elt F) → (⟨S32x131072, .i32⟩ : BufTy).Contents (Elt F)),
    binary main_v328 main_v329 main_v330 (cmpi .slt : (⟨S32x131072, .i32⟩ : BufTy).Contents (Elt F) → (⟨S32x131072, .i32⟩ : BufTy).Contents (Elt F) → (⟨S32x131072, .i1⟩ : BufTy).Contents (Elt F)),
    nullary main_c_141 (constantI S_ 32 64#32),
    unary main_c_141 main_v331 (broadcastInDim S32x131072 ![] bcast_S_S32x131072 : (⟨S_, .i32⟩ : BufTy).Contents (Elt F) → (⟨S32x131072, .i32⟩ : BufTy).Contents (Elt F)),
    binary main_v328 main_v331 main_v332 (addi : (⟨S32x131072, .i32⟩ : BufTy).Contents (Elt F) → (⟨S32x131072, .i32⟩ : BufTy).Contents (Elt F) → (⟨S32x131072, .i32⟩ : BufTy).Contents (Elt F)),
    ternary main_v330 main_v332 main_v328 main_v333 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_142 (constantI S_ 32 0#32),
    unary main_c_142 main_v334 (broadcastInDim S32x131072 ![] bcast_S_S32x131072 : (⟨S_, .i32⟩ : BufTy).Contents (Elt F) → (⟨S32x131072, .i32⟩ : BufTy).Contents (Elt F)),
    binary main_v327 main_v334 main_v335 (cmpi .slt : (⟨S32x131072, .i32⟩ : BufTy).Contents (Elt F) → (⟨S32x131072, .i32⟩ : BufTy).Contents (Elt F) → (⟨S32x131072, .i1⟩ : BufTy).Contents (Elt F)),
    nullary main_c_143 (constantI S_ 32 64#32),
    unary main_c_143 main_v336 (broadcastInDim S32x131072 ![] bcast_S_S32x131072 : (⟨S_, .i32⟩ : BufTy).Contents (Elt F) → (⟨S32x131072, .i32⟩ : BufTy).Contents (Elt F)),
    binary main_v327 main_v336 main_v337 (addi : (⟨S32x131072, .i32⟩ : BufTy).Contents (Elt F) → (⟨S32x131072, .i32⟩ : BufTy).Contents (Elt F) → (⟨S32x131072, .i32⟩ : BufTy).Contents (Elt F)),
    ternary main_v335 main_v337 main_v327 main_v338 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_144 (constantI S_ 32 0#32),
    unary main_c_144 main_v339 (broadcastInDim S32x131072 ![] bcast_S_S32x131072 : (⟨S_, .i32⟩ : BufTy).Contents (Elt F) → (⟨S32x131072, .i32⟩ : BufTy).Contents (Elt F)),
    binary main_v326 main_v339 main_v340 (cmpi .slt : (⟨S32x131072, .i32⟩ : BufTy).Contents (Elt F) → (⟨S32x131072, .i32⟩ : BufTy).Contents (Elt F) → (⟨S32x131072, .i1⟩ : BufTy).Contents (Elt F)),
    nullary main_c_145 (constantI S_ 32 64#32),
    unary main_c_145 main_v341 (broadcastInDim S32x131072 ![] bcast_S_S32x131072 : (⟨S_, .i32⟩ : BufTy).Contents (Elt F) → (⟨S32x131072, .i32⟩ : BufTy).Contents (Elt F)),
    binary main_v326 main_v341 main_v342 (addi : (⟨S32x131072, .i32⟩ : BufTy).Contents (Elt F) → (⟨S32x131072, .i32⟩ : BufTy).Contents (Elt F) → (⟨S32x131072, .i32⟩ : BufTy).Contents (Elt F)),
    ternary main_v340 main_v342 main_v326 main_v343 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v333 main_v344 (broadcastInDim S32x131072x1 ![0, 1] bcast_S32x131072_S32x131072x1_0_1 : (⟨S32x131072, .i32⟩ : BufTy).Contents (Elt F) → (⟨S32x131072x1, .i32⟩ : BufTy).Contents (Elt F)),
    unary main_v338 main_v345 (broadcastInDim S32x131072x1 ![0, 1] bcast_S32x131072_S32x131072x1_0_1 : (⟨S32x131072, .i32⟩ : BufTy).Contents (Elt F) → (⟨S32x131072x1, .i32⟩ : BufTy).Contents (Elt F)),
    unary main_v343 main_v346 (broadcastInDim S32x131072x1 ![0, 1] bcast_S32x131072_S32x131072x1_0_1 : (⟨S32x131072, .i32⟩ : BufTy).Contents (Elt F) → (⟨S32x131072x1, .i32⟩ : BufTy).Contents (Elt F)),
    nary ![main_v344, main_v345, main_v346] main_v347 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v347 main_v348 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v325 main_v349 (uitofp .f32 : (⟨S32x131072, .i1⟩ : BufTy).Contents (Elt F) → (⟨S32x131072, .f32⟩ : BufTy).Contents (Elt F)),
    binary main_v308 main_v349 main_v350 (mulf : (⟨S32x131072, .f32⟩ : BufTy).Contents (Elt F) → (⟨S32x131072, .f32⟩ : BufTy).Contents (Elt F) → (⟨S32x131072, .f32⟩ : BufTy).Contents (Elt F)),
    unary main_v350 main_v351 (broadcastInDim S1x32x131072 ![1, 2] bcast_S32x131072_S1x32x131072_1_2 : (⟨S32x131072, .f32⟩ : BufTy).Contents (Elt F) → (⟨S1x32x131072, .f32⟩ : BufTy).Contents (Elt F)),
    unary main_v351 main_v352 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v348 main_v352 main_v353 (mulf : (⟨S3x32x131072, .f32⟩ : BufTy).Contents (Elt F) → (⟨S3x32x131072, .f32⟩ : BufTy).Contents (Elt F) → (⟨S3x32x131072, .f32⟩ : BufTy).Contents (Elt F)),
    binary main_v291 main_v353 main_v354 (addf : (⟨S3x32x131072, .f32⟩ : BufTy).Contents (Elt F) → (⟨S3x32x131072, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrC4 : List (Ref sig .tc) :=
  [main_c_119, main_v292, main_v293, main_c_120, main_v294, main_v295, main_c_121, main_v296, main_v297, main_cst_122, main_v298, main_v299, main_c_123, main_call24_c, main_call24_v0, main_v300, main_cst_124, main_v301, main_v302, main_c_125, main_call25_c, main_call25_v0, main_v303, main_v304, main_cst_126, main_v305, main_v306, main_c_127, main_call26_c, main_call26_v0, main_v307, main_v308, main_c_128, main_v309, main_v310, main_c_129, main_v311, main_v312, main_v313, main_c_130, main_v314, main_v315, main_v316, main_c_131, main_v317, main_v318, main_v319, main_c_132, main_v320, main_v321, main_v322, main_c_133, main_v323, main_v324, main_v325, main_c_134, main_c_135, main_call27_v0, main_call27_v1, main_call27_v2, main_call27_v3, main_call27_v4, main_v326, main_c_136, main_c_137, main_call28_v0, main_call28_v1, main_call28_v2, main_call28_v3, main_call28_v4, main_v327, main_c_138, main_c_139, main_call29_v0, main_call29_v1, main_call29_v2, main_call29_v3, main_call29_v4, main_v328, main_c_140, main_v329, main_v330, main_c_141, main_v331, main_v332, main_v333, main_c_142, main_v334, main_v335, main_c_143, main_v336, main_v337, main_v338, main_c_144, main_v339, main_v340, main_c_145, main_v341, main_v342, main_v343, main_v344, main_v345, main_v346, main_v347, main_v348, main_v349, main_v350, main_v351, main_v352, main_v353, main_v354]

set_option maxRecDepth 8192 in
/-- Every operation of the list writes its one buffer of that list. -/
theorem opsC4_writes : (opsC4 (F := F)).Forall fun op => op.writes ⊆ ((wrC4).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsC4_keep (W : Valuation τ sig (Elt F)) {r : Ref sig .tc} (hr : r ∉ wrC4) :
    after (opsC4 (F := F)) W (Proc.devRef .tc r) = W (Proc.devRef .tc r) :=
  after_of_writes_sub _ W opsC4_writes hr

/-- The corner's operations do not write this buffer. -/
theorem opsC4_arg0 (W : Valuation τ sig (Elt F)) :
    after (opsC4 (F := F)) W (Proc.devRef .tc main_arg0) = W (Proc.devRef .tc main_arg0) :=
  opsC4_keep W (by decide)

/-- The corner's operations do not write this buffer. -/
theorem opsC4_arg1 (W : Valuation τ sig (Elt F)) :
    after (opsC4 (F := F)) W (Proc.devRef .tc main_arg1) = W (Proc.devRef .tc main_arg1) :=
  opsC4_keep W (by decide)

/-- The corner's operations do not write this buffer. -/
theorem opsC4_v33 (W : Valuation τ sig (Elt F)) :
    after (opsC4 (F := F)) W (Proc.devRef .tc main_v33) = W (Proc.devRef .tc main_v33) :=
  opsC4_keep W (by decide)

/-- The corner's operations do not write this buffer. -/
theorem opsC4_v34 (W : Valuation τ sig (Elt F)) :
    after (opsC4 (F := F)) W (Proc.devRef .tc main_v34) = W (Proc.devRef .tc main_v34) :=
  opsC4_keep W (by decide)

/-- The corner's operations do not write this buffer. -/
theorem opsC4_v35 (W : Valuation τ sig (Elt F)) :
    after (opsC4 (F := F)) W (Proc.devRef .tc main_v35) = W (Proc.devRef .tc main_v35) :=
  opsC4_keep W (by decide)

/-- The corner's operations do not write this buffer. -/
theorem opsC4_v36 (W : Valuation τ sig (Elt F)) :
    after (opsC4 (F := F)) W (Proc.devRef .tc main_v36) = W (Proc.devRef .tc main_v36) :=
  opsC4_keep W (by decide)

/-- The corner's operations do not write this buffer. -/
theorem opsC4_v37 (W : Valuation τ sig (Elt F)) :
    after (opsC4 (F := F)) W (Proc.devRef .tc main_v37) = W (Proc.devRef .tc main_v37) :=
  opsC4_keep W (by decide)

/-- The corner's operations do not write this buffer. -/
theorem opsC4_v38 (W : Valuation τ sig (Elt F)) :
    after (opsC4 (F := F)) W (Proc.devRef .tc main_v38) = W (Proc.devRef .tc main_v38) :=
  opsC4_keep W (by decide)

end Cert.RefRun

end
-- ==== Proof.RefRunW6.lean ====
/-
  Window 6 of the reference's @main (operations 429 to 503 of 943, counting from 0) is the straight line of those
  operations: the called functions' bodies are unfolded at their calls and the sequencing re-associated. The same
  operations are a stretch of the reference's lists cut before the corners, per corner and after them.
-/
import proofs.«174278_j48524540510565_1_alg».proof.Proof.RefRunC3
import proofs.«174278_j48524540510565_1_alg».proof.Proof.RefRunC4

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW6 : List (HloOp τ sig (Elt F)) :=
  [ nullary main_c_104 (constantI S_ 32 64#32),
    unary main_c_104 main_v254 (broadcastInDim S32x131072 ![] bcast_S_S32x131072 : (⟨S_, .i32⟩ : BufTy).Contents (Elt F) → (⟨S32x131072, .i32⟩ : BufTy).Contents (Elt F)),
    binary main_v232 main_v254 main_v255 (cmpi .slt : (⟨S32x131072, .i32⟩ : BufTy).Contents (Elt F) → (⟨S32x131072, .i32⟩ : BufTy).Contents (Elt F) → (⟨S32x131072, .i1⟩ : BufTy).Contents (Elt F)),
    binary main_v253 main_v255 main_v256 (andi : (⟨S32x131072, .i1⟩ : BufTy).Contents (Elt F) → (⟨S32x131072, .i1⟩ : BufTy).Contents (Elt F) → (⟨S32x131072, .i1⟩ : BufTy).Contents (Elt F)),
    nullary main_c_105 (constantI S_ 32 0#32),
    unary main_c_105 main_v257 (broadcastInDim S32x131072 ![] bcast_S_S32x131072 : (⟨S_, .i32⟩ : BufTy).Contents (Elt F) → (⟨S32x131072, .i32⟩ : BufTy).Contents (Elt F)),
    binary main_v234 main_v257 main_v258 (cmpi .sge : (⟨S32x131072, .i32⟩ : BufTy).Contents (Elt F) → (⟨S32x131072, .i32⟩ : BufTy).Contents (Elt F) → (⟨S32x131072, .i1⟩ : BufTy).Contents (Elt F)),
    binary main_v256 main_v258 main_v259 (andi : (⟨S32x131072, .i1⟩ : BufTy).Contents (Elt F) → (⟨S32x131072, .i1⟩ : BufTy).Contents (Elt F) → (⟨S32x131072, .i1⟩ : BufTy).Contents (Elt F)),
    nullary main_c_106 (constantI S_ 32 64#32),
    unary main_c_106 main_v260 (broadcastInDim S32x131072 ![] bcast_S_S32x131072 : (⟨S_, .i32⟩ : BufTy).Contents (Elt F) → (⟨S32x131072, .i32⟩ : BufTy).Contents (Elt F)),
    binary main_v234 main_v260 main_v261 (cmpi .slt : (⟨S32x131072, .i32⟩ : BufTy).Contents (Elt F) → (⟨S32x131072, .i32⟩ : BufTy).Contents (Elt F) → (⟨S32x131072, .i1⟩ : BufTy).Contents (Elt F)),
    binary main_v259 main_v261 main_v262 (andi : (⟨S32x131072, .i1⟩ : BufTy).Contents (Elt F) → (⟨S32x131072, .i1⟩ : BufTy).Contents (Elt F) → (⟨S32x131072, .i1⟩ : BufTy).Contents (Elt F)),
    nullary main_c_107 (constantI S_ 32 0#32),
    nullary main_c_108 (constantI S_ 32 63#32),
    TRef.unary (TRef.of (T := ⟨S_, .i32⟩) main_c_107) (TRef.of (T := ⟨S_, .i32⟩) main_call21_v0) id,
    TRef.unary (TRef.of (T := ⟨S_, .i32⟩) main_call21_v0) (TRef.of (T := ⟨S32x131072, .i32⟩) main_call21_v1) (broadcastInDim S32x131072 ![] bcast_S_S32x131072),
    TRef.binary (TRef.of (T := ⟨S32x131072, .i32⟩) main_call21_v1) (TRef.of (T := ⟨S32x131072, .i32⟩) main_v230) (TRef.of (T := ⟨S32x131072, .i32⟩) main_call21_v2) maxsi,
    TRef.unary (TRef.of (T := ⟨S_, .i32⟩) main_c_108) (TRef.of (T := ⟨S_, .i32⟩) main_call21_v3) id,
    TRef.unary (TRef.of (T := ⟨S_, .i32⟩) main_call21_v3) (TRef.of (T := ⟨S32x131072, .i32⟩) main_call21_v4) (broadcastInDim S32x131072 ![] bcast_S_S32x131072),
    TRef.binary (TRef.of (T := ⟨S32x131072, .i32⟩) main_call21_v4) (TRef.of (T := ⟨S32x131072, .i32⟩) main_call21_v2) (TRef.of (T := ⟨S32x131072, .i32⟩) main_v263) minsi,
    nullary main_c_109 (constantI S_ 32 0#32),
    nullary main_c_110 (constantI S_ 32 63#32),
    TRef.unary (TRef.of (T := ⟨S_, .i32⟩) main_c_109) (TRef.of (T := ⟨S_, .i32⟩) main_call22_v0) id,
    TRef.unary (TRef.of (T := ⟨S_, .i32⟩) main_call22_v0) (TRef.of (T := ⟨S32x131072, .i32⟩) main_call22_v1) (broadcastInDim S32x131072 ![] bcast_S_S32x131072),
    TRef.binary (TRef.of (T := ⟨S32x131072, .i32⟩) main_call22_v1) (TRef.of (T := ⟨S32x131072, .i32⟩) main_v232) (TRef.of (T := ⟨S32x131072, .i32⟩) main_call22_v2) maxsi,
    TRef.unary (TRef.of (T := ⟨S_, .i32⟩) main_c_110) (TRef.of (T := ⟨S_, .i32⟩) main_call22_v3) id,
    TRef.unary (TRef.of (T := ⟨S_, .i32⟩) main_call22_v3) (TRef.of (T := ⟨S32x131072, .i32⟩) main_call22_v4) (broadcastInDim S32x131072 ![] bcast_S_S32x131072),
    TRef.binary (TRef.of (T := ⟨S32x131072, .i32⟩) main_call22_v4) (TRef.of (T := ⟨S32x131072, .i32⟩) main_call22_v2) (TRef.of (T := ⟨S32x131072, .i32⟩) main_v264) minsi,
    nullary main_c_111 (constantI S_ 32 0#32),
    nullary main_c_112 (constantI S_ 32 63#32),
    TRef.unary (TRef.of (T := ⟨S_, .i32⟩) main_c_111) (TRef.of (T := ⟨S_, .i32⟩) main_call23_v0) id,
    TRef.unary (TRef.of (T := ⟨S_, .i32⟩) main_call23_v0) (TRef.of (T := ⟨S32x131072, .i32⟩) main_call23_v1) (broadcastInDim S32x131072 ![] bcast_S_S32x131072),
    TRef.binary (TRef.of (T := ⟨S32x131072, .i32⟩) main_call23_v1) (TRef.of (T := ⟨S32x131072, .i32⟩) main_v234) (TRef.of (T := ⟨S32x131072, .i32⟩) main_call23_v2) maxsi,
    TRef.unary (TRef.of (T := ⟨S_, .i32⟩) main_c_112) (TRef.of (T := ⟨S_, .i32⟩) main_call23_v3) id,
    TRef.unary (TRef.of (T := ⟨S_, .i32⟩) main_call23_v3) (TRef.of (T := ⟨S32x131072, .i32⟩) main_call23_v4) (broadcastInDim S32x131072 ![] bcast_S_S32x131072),
    TRef.binary (TRef.of (T := ⟨S32x131072, .i32⟩) main_call23_v4) (TRef.of (T := ⟨S32x131072, .i32⟩) main_call23_v2) (TRef.of (T := ⟨S32x131072, .i32⟩) main_v265) minsi,
    nullary main_c_113 (constantI S_ 32 0#32),
    unary main_c_113 main_v266 (broadcastInDim S32x131072 ![] bcast_S_S32x131072 : (⟨S_, .i32⟩ : BufTy).Contents (Elt F) → (⟨S32x131072, .i32⟩ : BufTy).Contents (Elt F)),
    binary main_v265 main_v266 main_v267 (cmpi .slt : (⟨S32x131072, .i32⟩ : BufTy).Contents (Elt F) → (⟨S32x131072, .i32⟩ : BufTy).Contents (Elt F) → (⟨S32x131072, .i1⟩ : BufTy).Contents (Elt F)),
    nullary main_c_114 (constantI S_ 32 64#32),
    unary main_c_114 main_v268 (broadcastInDim S32x131072 ![] bcast_S_S32x131072 : (⟨S_, .i32⟩ : BufTy).Contents (Elt F) → (⟨S32x131072, .i32⟩ : BufTy).Contents (Elt F)),
    binary main_v265 main_v268 main_v269 (addi : (⟨S32x131072, .i32⟩ : BufTy).Contents (Elt F) → (⟨S32x131072, .i32⟩ : BufTy).Contents (Elt F) → (⟨S32x131072, .i32⟩ : BufTy).Contents (Elt F)),
    ternary main_v267 main_v269 main_v265 main_v270 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_115 (constantI S_ 32 0#32),
    unary main_c_115 main_v271 (broadcastInDim S32x131072 ![] bcast_S_S32x131072 : (⟨S_, .i32⟩ : BufTy).Contents (Elt F) → (⟨S32x131072, .i32⟩ : BufTy).Contents (Elt F)),
    binary main_v264 main_v271 main_v272 (cmpi .slt : (⟨S32x131072, .i32⟩ : BufTy).Contents (Elt F) → (⟨S32x131072, .i32⟩ : BufTy).Contents (Elt F) → (⟨S32x131072, .i1⟩ : BufTy).Contents (Elt F)),
    nullary main_c_116 (constantI S_ 32 64#32),
    unary main_c_116 main_v273 (broadcastInDim S32x131072 ![] bcast_S_S32x131072 : (⟨S_, .i32⟩ : BufTy).Contents (Elt F) → (⟨S32x131072, .i32⟩ : BufTy).Contents (Elt F)),
    binary main_v264 main_v273 main_v274 (addi : (⟨S32x131072, .i32⟩ : BufTy).Contents (Elt F) → (⟨S32x131072, .i32⟩ : BufTy).Contents (Elt F) → (⟨S32x131072, .i32⟩ : BufTy).Contents (Elt F)),
    ternary main_v272 main_v274 main_v264 main_v275 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_117 (constantI S_ 32 0#32),
    unary main_c_117 main_v276 (broadcastInDim S32x131072 ![] bcast_S_S32x131072 : (⟨S_, .i32⟩ : BufTy).Contents (Elt F) → (⟨S32x131072, .i32⟩ : BufTy).Contents (Elt F)),
    binary main_v263 main_v276 main_v277 (cmpi .slt : (⟨S32x131072, .i32⟩ : BufTy).Contents (Elt F) → (⟨S32x131072, .i32⟩ : BufTy).Contents (Elt F) → (⟨S32x131072, .i1⟩ : BufTy).Contents (Elt F)),
    nullary main_c_118 (constantI S_ 32 64#32),
    unary main_c_118 main_v278 (broadcastInDim S32x131072 ![] bcast_S_S32x131072 : (⟨S_, .i32⟩ : BufTy).Contents (Elt F) → (⟨S32x131072, .i32⟩ : BufTy).Contents (Elt F)),
    binary main_v263 main_v278 main_v279 (addi : (⟨S32x131072, .i32⟩ : BufTy).Contents (Elt F) → (⟨S32x131072, .i32⟩ : BufTy).Contents (Elt F) → (⟨S32x131072, .i32⟩ : BufTy).Contents (Elt F)),
    ternary main_v277 main_v279 main_v263 main_v280 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v270 main_v281 (broadcastInDim S32x131072x1 ![0, 1] bcast_S32x131072_S32x131072x1_0_1 : (⟨S32x131072, .i32⟩ : BufTy).Contents (Elt F) → (⟨S32x131072x1, .i32⟩ : BufTy).Contents (Elt F)),
    unary main_v275 main_v282 (broadcastInDim S32x131072x1 ![0, 1] bcast_S32x131072_S32x131072x1_0_1 : (⟨S32x131072, .i32⟩ : BufTy).Contents (Elt F) → (⟨S32x131072x1, .i32⟩ : BufTy).Contents (Elt F)),
    unary main_v280 main_v283 (broadcastInDim S32x131072x1 ![0, 1] bcast_S32x131072_S32x131072x1_0_1 : (⟨S32x131072, .i32⟩ : BufTy).Contents (Elt F) → (⟨S32x131072x1, .i32⟩ : BufTy).Contents (Elt F)),
    nary ![main_v281, main_v282, main_v283] main_v284 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v284 main_v285 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v262 main_v286 (uitofp .f32 : (⟨S32x131072, .i1⟩ : BufTy).Contents (Elt F) → (⟨S32x131072, .f32⟩ : BufTy).Contents (Elt F)),
    binary main_v245 main_v286 main_v287 (mulf : (⟨S32x131072, .f32⟩ : BufTy).Contents (Elt F) → (⟨S32x131072, .f32⟩ : BufTy).Contents (Elt F) → (⟨S32x131072, .f32⟩ : BufTy).Contents (Elt F)),
    unary main_v287 main_v288 (broadcastInDim S1x32x131072 ![1, 2] bcast_S32x131072_S1x32x131072_1_2 : (⟨S32x131072, .f32⟩ : BufTy).Contents (Elt F) → (⟨S1x32x131072, .f32⟩ : BufTy).Contents (Elt F)),
    unary main_v288 main_v289 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v285 main_v289 main_v290 (mulf : (⟨S3x32x131072, .f32⟩ : BufTy).Contents (Elt F) → (⟨S3x32x131072, .f32⟩ : BufTy).Contents (Elt F) → (⟨S3x32x131072, .f32⟩ : BufTy).Contents (Elt F)),
    binary main_v228 main_v290 main_v291 (addf : (⟨S3x32x131072, .f32⟩ : BufTy).Contents (Elt F) → (⟨S3x32x131072, .f32⟩ : BufTy).Contents (Elt F) → (⟨S3x32x131072, .f32⟩ : BufTy).Contents (Elt F)),
    nullary main_c_119 (constantI S_ 32 1#32),
    unary main_c_119 main_v292 (broadcastInDim S32x131072 ![] bcast_S_S32x131072 : (⟨S_, .i32⟩ : BufTy).Contents (Elt F) → (⟨S32x131072, .i32⟩ : BufTy).Contents (Elt F)),
    binary main_v36 main_v292 main_v293 (addi : (⟨S32x131072, .i32⟩ : BufTy).Contents (Elt F) → (⟨S32x131072, .i32⟩ : BufTy).Contents (Elt F) → (⟨S32x131072, .i32⟩ : BufTy).Contents (Elt F)),
    nullary main_c_120 (constantI S_ 32 0#32),
    unary main_c_120 main_v294 (broadcastInDim S32x131072 ![] bcast_S_S32x131072 : (⟨S_, .i32⟩ : BufTy).Contents (Elt F) → (⟨S32x131072, .i32⟩ : BufTy).Contents (Elt F)),
    binary main_v37 main_v294 main_v295 (addi : (⟨S32x131072, .i32⟩ : BufTy).Contents (Elt F) → (⟨S32x131072, .i32⟩ : BufTy).Contents (Elt F) → (⟨S32x131072, .i32⟩ : BufTy).Contents (Elt F)),
    nullary main_c_121 (constantI S_ 32 0#32) ]

set_option maxRecDepth 4096 in
set_option maxHeartbeats 4000000 in
/-- The window is the straight line of its operations. -/
theorem part6_eq (c : Dev nD) : main_part6 (F := F) c = seq opsW6 := by
  simp only [main_part6, fn_where.body, fn_clip.body, seq, bind_assoc, pure_bind]
  rfl

set_option maxRecDepth 8192 in
/-- The window's operations as a stretch of the cut lists. -/
theorem opsW6_eq : (opsW6 (F := F)) = List.drop 43 opsC3 ++ (List.take 7 opsC4) := rfl

end Cert.RefRun

end
-- ==== Proof.RefRunW7.lean ====
/-
  Window 7 of the reference's @main (operations 504 to 584 of 943, counting from 0) is the straight line of those
  operations: the called functions' bodies are unfolded at their calls and the sequencing re-associated. The same
  operations are a stretch of the reference's lists cut before the corners, per corner and after them.
-/
import proofs.«174278_j48524540510565_1_alg».proof.Proof.RefRunC4

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW7 : List (HloOp τ sig (Elt F)) :=
  [ unary main_c_121 main_v296 (broadcastInDim S32x131072 ![] bcast_S_S32x131072 : (⟨S_, .i32⟩ : BufTy).Contents (Elt F) → (⟨S32x131072, .i32⟩ : BufTy).Contents (Elt F)),
    binary main_v38 main_v296 main_v297 (addi : (⟨S32x131072, .i32⟩ : BufTy).Contents (Elt F) → (⟨S32x131072, .i32⟩ : BufTy).Contents (Elt F) → (⟨S32x131072, .i32⟩ : BufTy).Contents (Elt F)),
    nullary main_cst_122 (constant S_ .f32 0x3F800000#32),
    unary main_cst_122 main_v298 (broadcastInDim S32x131072 ![] bcast_S_S32x131072 : (⟨S_, .f32⟩ : BufTy).Contents (Elt F) → (⟨S32x131072, .f32⟩ : BufTy).Contents (Elt F)),
    binary main_v298 main_v33 main_v299 (subf : (⟨S32x131072, .f32⟩ : BufTy).Contents (Elt F) → (⟨S32x131072, .f32⟩ : BufTy).Contents (Elt F) → (⟨S32x131072, .f32⟩ : BufTy).Contents (Elt F)),
    nullary main_c_123 (constantI S_ 32 1#32),
    TRef.nullary (TRef.of (T := ⟨S_, .i32⟩) main_call24_c) (constantI S_ 32 0#32),
    TRef.binary (TRef.of (T := ⟨S_, .i32⟩) main_c_123) (TRef.of (T := ⟨S_, .i32⟩) main_call24_c) (TRef.of (T := ⟨S_, .i1⟩) main_call24_v0) (cmpi .ne),
    TRef.ternary (TRef.of (T := ⟨S_, .i1⟩) main_call24_v0) (TRef.of (T := ⟨S32x131072, .f32⟩) main_v33) (TRef.of (T := ⟨S32x131072, .f32⟩) main_v299) (TRef.of (T := ⟨S32x131072, .f32⟩) main_v300) (fun p a b => select (broadcastInDim S32x131072 ![] bcast_S_S32x131072 p) a b),
    nullary main_cst_124 (constant S_ .f32 0x3F800000#32),
    unary main_cst_124 main_v301 (broadcastInDim S32x131072 ![] bcast_S_S32x131072 : (⟨S_, .f32⟩ : BufTy).Contents (Elt F) → (⟨S32x131072, .f32⟩ : BufTy).Contents (Elt F)),
    binary main_v301 main_v34 main_v302 (subf : (⟨S32x131072, .f32⟩ : BufTy).Contents (Elt F) → (⟨S32x131072, .f32⟩ : BufTy).Contents (Elt F) → (⟨S32x131072, .f32⟩ : BufTy).Contents (Elt F)),
    nullary main_c_125 (constantI S_ 32 0#32),
    TRef.nullary (TRef.of (T := ⟨S_, .i32⟩) main_call25_c) (constantI S_ 32 0#32),
    TRef.binary (TRef.of (T := ⟨S_, .i32⟩) main_c_125) (TRef.of (T := ⟨S_, .i32⟩) main_call25_c) (TRef.of (T := ⟨S_, .i1⟩) main_call25_v0) (cmpi .ne),
    TRef.ternary (TRef.of (T := ⟨S_, .i1⟩) main_call25_v0) (TRef.of (T := ⟨S32x131072, .f32⟩) main_v34) (TRef.of (T := ⟨S32x131072, .f32⟩) main_v302) (TRef.of (T := ⟨S32x131072, .f32⟩) main_v303) (fun p a b => select (broadcastInDim S32x131072 ![] bcast_S_S32x131072 p) a b),
    binary main_v300 main_v303 main_v304 (mulf : (⟨S32x131072, .f32⟩ : BufTy).Contents (Elt F) → (⟨S32x131072, .f32⟩ : BufTy).Contents (Elt F) → (⟨S32x131072, .f32⟩ : BufTy).Contents (Elt F)),
    nullary main_cst_126 (constant S_ .f32 0x3F800000#32),
    unary main_cst_126 main_v305 (broadcastInDim S32x131072 ![] bcast_S_S32x131072 : (⟨S_, .f32⟩ : BufTy).Contents (Elt F) → (⟨S32x131072, .f32⟩ : BufTy).Contents (Elt F)),
    binary main_v305 main_v35 main_v306 (subf : (⟨S32x131072, .f32⟩ : BufTy).Contents (Elt F) → (⟨S32x131072, .f32⟩ : BufTy).Contents (Elt F) → (⟨S32x131072, .f32⟩ : BufTy).Contents (Elt F)),
    nullary main_c_127 (constantI S_ 32 0#32),
    TRef.nullary (TRef.of (T := ⟨S_, .i32⟩) main_call26_c) (constantI S_ 32 0#32),
    TRef.binary (TRef.of (T := ⟨S_, .i32⟩) main_c_127) (TRef.of (T := ⟨S_, .i32⟩) main_call26_c) (TRef.of (T := ⟨S_, .i1⟩) main_call26_v0) (cmpi .ne),
    TRef.ternary (TRef.of (T := ⟨S_, .i1⟩) main_call26_v0) (TRef.of (T := ⟨S32x131072, .f32⟩) main_v35) (TRef.of (T := ⟨S32x131072, .f32⟩) main_v306) (TRef.of (T := ⟨S32x131072, .f32⟩) main_v307) (fun p a b => select (broadcastInDim S32x131072 ![] bcast_S_S32x131072 p) a b),
    binary main_v304 main_v307 main_v308 (mulf : (⟨S32x131072, .f32⟩ : BufTy).Contents (Elt F) → (⟨S32x131072, .f32⟩ : BufTy).Contents (Elt F) → (⟨S32x131072, .f32⟩ : BufTy).Contents (Elt F)),
    nullary main_c_128 (constantI S_ 32 0#32),
    unary main_c_128 main_v309 (broadcastInDim S32x131072 ![] bcast_S_S32x131072 : (⟨S_, .i32⟩ : BufTy).Contents (Elt F) → (⟨S32x131072, .i32⟩ : BufTy).Contents (Elt F)),
    binary main_v293 main_v309 main_v310 (cmpi .sge : (⟨S32x131072, .i32⟩ : BufTy).Contents (Elt F) → (⟨S32x131072, .i32⟩ : BufTy).Contents (Elt F) → (⟨S32x131072, .i1⟩ : BufTy).Contents (Elt F)),
    nullary main_c_129 (constantI S_ 32 64#32),
    unary main_c_129 main_v311 (broadcastInDim S32x131072 ![] bcast_S_S32x131072 : (⟨S_, .i32⟩ : BufTy).Contents (Elt F) → (⟨S32x131072, .i32⟩ : BufTy).Contents (Elt F)),
    binary main_v293 main_v311 main_v312 (cmpi .slt : (⟨S32x131072, .i32⟩ : BufTy).Contents (Elt F) → (⟨S32x131072, .i32⟩ : BufTy).Contents (Elt F) → (⟨S32x131072, .i1⟩ : BufTy).Contents (Elt F)),
    binary main_v310 main_v312 main_v313 (andi : (⟨S32x131072, .i1⟩ : BufTy).Contents (Elt F) → (⟨S32x131072, .i1⟩ : BufTy).Contents (Elt F) → (⟨S32x131072, .i1⟩ : BufTy).Contents (Elt F)),
    nullary main_c_130 (constantI S_ 32 0#32),
    unary main_c_130 main_v314 (broadcastInDim S32x131072 ![] bcast_S_S32x131072 : (⟨S_, .i32⟩ : BufTy).Contents (Elt F) → (⟨S32x131072, .i32⟩ : BufTy).Contents (Elt F)),
    binary main_v295 main_v314 main_v315 (cmpi .sge : (⟨S32x131072, .i32⟩ : BufTy).Contents (Elt F) → (⟨S32x131072, .i32⟩ : BufTy).Contents (Elt F) → (⟨S32x131072, .i1⟩ : BufTy).Contents (Elt F)),
    binary main_v313 main_v315 main_v316 (andi : (⟨S32x131072, .i1⟩ : BufTy).Contents (Elt F) → (⟨S32x131072, .i1⟩ : BufTy).Contents (Elt F) → (⟨S32x131072, .i1⟩ : BufTy).Contents (Elt F)),
    nullary main_c_131 (constantI S_ 32 64#32),
    unary main_c_131 main_v317 (broadcastInDim S32x131072 ![] bcast_S_S32x131072 : (⟨S_, .i32⟩ : BufTy).Contents (Elt F) → (⟨S32x131072, .i32⟩ : BufTy).Contents (Elt F)),
    binary main_v295 main_v317 main_v318 (cmpi .slt : (⟨S32x131072, .i32⟩ : BufTy).Contents (Elt F) → (⟨S32x131072, .i32⟩ : BufTy).Contents (Elt F) → (⟨S32x131072, .i1⟩ : BufTy).Contents (Elt F)),
    binary main_v316 main_v318 main_v319 (andi : (⟨S32x131072, .i1⟩ : BufTy).Contents (Elt F) → (⟨S32x131072, .i1⟩ : BufTy).Contents (Elt F) → (⟨S32x131072, .i1⟩ : BufTy).Contents (Elt F)),
    nullary main_c_132 (constantI S_ 32 0#32),
    unary main_c_132 main_v320 (broadcastInDim S32x131072 ![] bcast_S_S32x131072 : (⟨S_, .i32⟩ : BufTy).Contents (Elt F) → (⟨S32x131072, .i32⟩ : BufTy).Contents (Elt F)),
    binary main_v297 main_v320 main_v321 (cmpi .sge : (⟨S32x131072, .i32⟩ : BufTy).Contents (Elt F) → (⟨S32x131072, .i32⟩ : BufTy).Contents (Elt F) → (⟨S32x131072, .i1⟩ : BufTy).Contents (Elt F)),
    binary main_v319 main_v321 main_v322 (andi : (⟨S32x131072, .i1⟩ : BufTy).Contents (Elt F) → (⟨S32x131072, .i1⟩ : BufTy).Contents (Elt F) → (⟨S32x131072, .i1⟩ : BufTy).Contents (Elt F)),
    nullary main_c_133 (constantI S_ 32 64#32),
    unary main_c_133 main_v323 (broadcastInDim S32x131072 ![] bcast_S_S32x131072 : (⟨S_, .i32⟩ : BufTy).Contents (Elt F) → (⟨S32x131072, .i32⟩ : BufTy).Contents (Elt F)),
    binary main_v297 main_v323 main_v324 (cmpi .slt : (⟨S32x131072, .i32⟩ : BufTy).Contents (Elt F) → (⟨S32x131072, .i32⟩ : BufTy).Contents (Elt F) → (⟨S32x131072, .i1⟩ : BufTy).Contents (Elt F)),
    binary main_v322 main_v324 main_v325 (andi : (⟨S32x131072, .i1⟩ : BufTy).Contents (Elt F) → (⟨S32x131072, .i1⟩ : BufTy).Contents (Elt F) → (⟨S32x131072, .i1⟩ : BufTy).Contents (Elt F)),
    nullary main_c_134 (constantI S_ 32 0#32),
    nullary main_c_135 (constantI S_ 32 63#32),
    TRef.unary (TRef.of (T := ⟨S_, .i32⟩) main_c_134) (TRef.of (T := ⟨S_, .i32⟩) main_call27_v0) id,
    TRef.unary (TRef.of (T := ⟨S_, .i32⟩) main_call27_v0) (TRef.of (T := ⟨S32x131072, .i32⟩) main_call27_v1) (broadcastInDim S32x131072 ![] bcast_S_S32x131072),
    TRef.binary (TRef.of (T := ⟨S32x131072, .i32⟩) main_call27_v1) (TRef.of (T := ⟨S32x131072, .i32⟩) main_v293) (TRef.of (T := ⟨S32x131072, .i32⟩) main_call27_v2) maxsi,
    TRef.unary (TRef.of (T := ⟨S_, .i32⟩) main_c_135) (TRef.of (T := ⟨S_, .i32⟩) main_call27_v3) id,
    TRef.unary (TRef.of (T := ⟨S_, .i32⟩) main_call27_v3) (TRef.of (T := ⟨S32x131072, .i32⟩) main_call27_v4) (broadcastInDim S32x131072 ![] bcast_S_S32x131072),
    TRef.binary (TRef.of (T := ⟨S32x131072, .i32⟩) main_call27_v4) (TRef.of (T := ⟨S32x131072, .i32⟩) main_call27_v2) (TRef.of (T := ⟨S32x131072, .i32⟩) main_v326) minsi,
    nullary main_c_136 (constantI S_ 32 0#32),
    nullary main_c_137 (constantI S_ 32 63#32),
    TRef.unary (TRef.of (T := ⟨S_, .i32⟩) main_c_136) (TRef.of (T := ⟨S_, .i32⟩) main_call28_v0) id,
    TRef.unary (TRef.of (T := ⟨S_, .i32⟩) main_call28_v0) (TRef.of (T := ⟨S32x131072, .i32⟩) main_call28_v1) (broadcastInDim S32x131072 ![] bcast_S_S32x131072),
    TRef.binary (TRef.of (T := ⟨S32x131072, .i32⟩) main_call28_v1) (TRef.of (T := ⟨S32x131072, .i32⟩) main_v295) (TRef.of (T := ⟨S32x131072, .i32⟩) main_call28_v2) maxsi,
    TRef.unary (TRef.of (T := ⟨S_, .i32⟩) main_c_137) (TRef.of (T := ⟨S_, .i32⟩) main_call28_v3) id,
    TRef.unary (TRef.of (T := ⟨S_, .i32⟩) main_call28_v3) (TRef.of (T := ⟨S32x131072, .i32⟩) main_call28_v4) (broadcastInDim S32x131072 ![] bcast_S_S32x131072),
    TRef.binary (TRef.of (T := ⟨S32x131072, .i32⟩) main_call28_v4) (TRef.of (T := ⟨S32x131072, .i32⟩) main_call28_v2) (TRef.of (T := ⟨S32x131072, .i32⟩) main_v327) minsi,
    nullary main_c_138 (constantI S_ 32 0#32),
    nullary main_c_139 (constantI S_ 32 63#32),
    TRef.unary (TRef.of (T := ⟨S_, .i32⟩) main_c_138) (TRef.of (T := ⟨S_, .i32⟩) main_call29_v0) id,
    TRef.unary (TRef.of (T := ⟨S_, .i32⟩) main_call29_v0) (TRef.of (T := ⟨S32x131072, .i32⟩) main_call29_v1) (broadcastInDim S32x131072 ![] bcast_S_S32x131072),
    TRef.binary (TRef.of (T := ⟨S32x131072, .i32⟩) main_call29_v1) (TRef.of (T := ⟨S32x131072, .i32⟩) main_v297) (TRef.of (T := ⟨S32x131072, .i32⟩) main_call29_v2) maxsi,
    TRef.unary (TRef.of (T := ⟨S_, .i32⟩) main_c_139) (TRef.of (T := ⟨S_, .i32⟩) main_call29_v3) id,
    TRef.unary (TRef.of (T := ⟨S_, .i32⟩) main_call29_v3) (TRef.of (T := ⟨S32x131072, .i32⟩) main_call29_v4) (broadcastInDim S32x131072 ![] bcast_S_S32x131072),
    TRef.binary (TRef.of (T := ⟨S32x131072, .i32⟩) main_call29_v4) (TRef.of (T := ⟨S32x131072, .i32⟩) main_call29_v2) (TRef.of (T := ⟨S32x131072, .i32⟩) main_v328) minsi,
    nullary main_c_140 (constantI S_ 32 0#32),
    unary main_c_140 main_v329 (broadcastInDim S32x131072 ![] bcast_S_S32x131072 : (⟨S_, .i32⟩ : BufTy).Contents (Elt F) → (⟨S32x131072, .i32⟩ : BufTy).Contents (Elt F)),
    binary main_v328 main_v329 main_v330 (cmpi .slt : (⟨S32x131072, .i32⟩ : BufTy).Contents (Elt F) → (⟨S32x131072, .i32⟩ : BufTy).Contents (Elt F) → (⟨S32x131072, .i1⟩ : BufTy).Contents (Elt F)),
    nullary main_c_141 (constantI S_ 32 64#32),
    unary main_c_141 main_v331 (broadcastInDim S32x131072 ![] bcast_S_S32x131072 : (⟨S_, .i32⟩ : BufTy).Contents (Elt F) → (⟨S32x131072, .i32⟩ : BufTy).Contents (Elt F)),
    binary main_v328 main_v331 main_v332 (addi : (⟨S32x131072, .i32⟩ : BufTy).Contents (Elt F) → (⟨S32x131072, .i32⟩ : BufTy).Contents (Elt F) → (⟨S32x131072, .i32⟩ : BufTy).Contents (Elt F)),
    ternary main_v330 main_v332 main_v328 main_v333 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_142 (constantI S_ 32 0#32),
    unary main_c_142 main_v334 (broadcastInDim S32x131072 ![] bcast_S_S32x131072 : (⟨S_, .i32⟩ : BufTy).Contents (Elt F) → (⟨S32x131072, .i32⟩ : BufTy).Contents (Elt F)) ]

set_option maxRecDepth 4096 in
set_option maxHeartbeats 4000000 in
/-- The window is the straight line of its operations. -/
theorem part7_eq (c : Dev nD) : main_part7 (F := F) c = seq opsW7 := by
  simp only [main_part7, fn_where.body, fn_clip.body, seq, bind_assoc, pure_bind]
  rfl

set_option maxRecDepth 8192 in
/-- The window's operations as a stretch of the cut lists. -/
theorem opsW7_eq : (opsW7 (F := F)) = List.take 81 (List.drop 7 opsC4) := rfl

end Cert.RefRun

end
-- ==== Proof.RefRunC5.lean ====
/-
  The operations of corner (dx, dy, dz) = (1, 0, 1) of the eight-corner sum, as a list, the buffers the list writes
  (one per operation), and what it therefore leaves alone from any contents W: the two argument buffers and the six
  buffers of cells and fractional parts.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Corner (1, 0, 1)'s operations, in order. -/
abbrev opsC5 : List (HloOp τ sig (Elt F)) :=
  [ nullary main_c_146 (constantI S_ 32 1#32),
    unary main_c_146 main_v355 (broadcastInDim S32x131072 ![] bcast_S_S32x131072 : (⟨S_, .i32⟩ : BufTy).Contents (Elt F) → (⟨S32x131072, .i32⟩ : BufTy).Contents (Elt F)),
    binary main_v36 main_v355 main_v356 (addi : (⟨S32x131072, .i32⟩ : BufTy).Contents (Elt F) → (⟨S32x131072, .i32⟩ : BufTy).Contents (Elt F) → (⟨S32x131072, .i32⟩ : BufTy).Contents (Elt F)),
    nullary main_c_147 (constantI S_ 32 0#32),
    unary main_c_147 main_v357 (broadcastInDim S32x131072 ![] bcast_S_S32x131072 : (⟨S_, .i32⟩ : BufTy).Contents (Elt F) → (⟨S32x131072, .i32⟩ : BufTy).Contents (Elt F)),
    binary main_v37 main_v357 main_v358 (addi : (⟨S32x131072, .i32⟩ : BufTy).Contents (Elt F) → (⟨S32x131072, .i32⟩ : BufTy).Contents (Elt F) → (⟨S32x131072, .i32⟩ : BufTy).Contents (Elt F)),
    nullary main_c_148 (constantI S_ 32 1#32),
    unary main_c_148 main_v359 (broadcastInDim S32x131072 ![] bcast_S_S32x131072 : (⟨S_, .i32⟩ : BufTy).Contents (Elt F) → (⟨S32x131072, .i32⟩ : BufTy).Contents (Elt F)),
    binary main_v38 main_v359 main_v360 (addi : (⟨S32x131072, .i32⟩ : BufTy).Contents (Elt F) → (⟨S32x131072, .i32⟩ : BufTy).Contents (Elt F) → (⟨S32x131072, .i32⟩ : BufTy).Contents (Elt F)),
    nullary main_cst_149 (constant S_ .f32 0x3F800000#32),
    unary main_cst_149 main_v361 (broadcastInDim S32x131072 ![] bcast_S_S32x131072 : (⟨S_, .f32⟩ : BufTy).Contents (Elt F) → (⟨S32x131072, .f32⟩ : BufTy).Contents (Elt F)),
    binary main_v361 main_v33 main_v362 (subf : (⟨S32x131072, .f32⟩ : BufTy).Contents (Elt F) → (⟨S32x131072, .f32⟩ : BufTy).Contents (Elt F) → (⟨S32x131072, .f32⟩ : BufTy).Contents (Elt F)),
    nullary main_c_150 (constantI S_ 32 1#32),
    TRef.nullary (TRef.of (T := ⟨S_, .i32⟩) main_call30_c) (constantI S_ 32 0#32),
    TRef.binary (TRef.of (T := ⟨S_, .i32⟩) main_c_150) (TRef.of (T := ⟨S_, .i32⟩) main_call30_c) (TRef.of (T := ⟨S_, .i1⟩) main_call30_v0) (cmpi .ne),
    TRef.ternary (TRef.of (T := ⟨S_, .i1⟩) main_call30_v0) (TRef.of (T := ⟨S32x131072, .f32⟩) main_v33) (TRef.of (T := ⟨S32x131072, .f32⟩) main_v362) (TRef.of (T := ⟨S32x131072, .f32⟩) main_v363) (fun p a b => select (broadcastInDim S32x131072 ![] bcast_S_S32x131072 p) a b),
    nullary main_cst_151 (constant S_ .f32 0x3F800000#32),
    unary main_cst_151 main_v364 (broadcastInDim S32x131072 ![] bcast_S_S32x131072 : (⟨S_, .f32⟩ : BufTy).Contents (Elt F) → (⟨S32x131072, .f32⟩ : BufTy).Contents (Elt F)),
    binary main_v364 main_v34 main_v365 (subf : (⟨S32x131072, .f32⟩ : BufTy).Contents (Elt F) → (⟨S32x131072, .f32⟩ : BufTy).Contents (Elt F) → (⟨S32x131072, .f32⟩ : BufTy).Contents (Elt F)),
    nullary main_c_152 (constantI S_ 32 0#32),
    TRef.nullary (TRef.of (T := ⟨S_, .i32⟩) main_call31_c) (constantI S_ 32 0#32),
    TRef.binary (TRef.of (T := ⟨S_, .i32⟩) main_c_152) (TRef.of (T := ⟨S_, .i32⟩) main_call31_c) (TRef.of (T := ⟨S_, .i1⟩) main_call31_v0) (cmpi .ne),
    TRef.ternary (TRef.of (T := ⟨S_, .i1⟩) main_call31_v0) (TRef.of (T := ⟨S32x131072, .f32⟩) main_v34) (TRef.of (T := ⟨S32x131072, .f32⟩) main_v365) (TRef.of (T := ⟨S32x131072, .f32⟩) main_v366) (fun p a b => select (broadcastInDim S32x131072 ![] bcast_S_S32x131072 p) a b),
    binary main_v363 main_v366 main_v367 (mulf : (⟨S32x131072, .f32⟩ : BufTy).Contents (Elt F) → (⟨S32x131072, .f32⟩ : BufTy).Contents (Elt F) → (⟨S32x131072, .f32⟩ : BufTy).Contents (Elt F)),
    nullary main_cst_153 (constant S_ .f32 0x3F800000#32),
    unary main_cst_153 main_v368 (broadcastInDim S32x131072 ![] bcast_S_S32x131072 : (⟨S_, .f32⟩ : BufTy).Contents (Elt F) → (⟨S32x131072, .f32⟩ : BufTy).Contents (Elt F)),
    binary main_v368 main_v35 main_v369 (subf : (⟨S32x131072, .f32⟩ : BufTy).Contents (Elt F) → (⟨S32x131072, .f32⟩ : BufTy).Contents (Elt F) → (⟨S32x131072, .f32⟩ : BufTy).Contents (Elt F)),
    nullary main_c_154 (constantI S_ 32 1#32),
    TRef.nullary (TRef.of (T := ⟨S_, .i32⟩) main_call32_c) (constantI S_ 32 0#32),
    TRef.binary (TRef.of (T := ⟨S_, .i32⟩) main_c_154) (TRef.of (T := ⟨S_, .i32⟩) main_call32_c) (TRef.of (T := ⟨S_, .i1⟩) main_call32_v0) (cmpi .ne),
    TRef.ternary (TRef.of (T := ⟨S_, .i1⟩) main_call32_v0) (TRef.of (T := ⟨S32x131072, .f32⟩) main_v35) (TRef.of (T := ⟨S32x131072, .f32⟩) main_v369) (TRef.of (T := ⟨S32x131072, .f32⟩) main_v370) (fun p a b => select (broadcastInDim S32x131072 ![] bcast_S_S32x131072 p) a b),
    binary main_v367 main_v370 main_v371 (mulf : (⟨S32x131072, .f32⟩ : BufTy).Contents (Elt F) → (⟨S32x131072, .f32⟩ : BufTy).Contents (Elt F) → (⟨S32x131072, .f32⟩ : BufTy).Contents (Elt F)),
    nullary main_c_155 (constantI S_ 32 0#32),
    unary main_c_155 main_v372 (broadcastInDim S32x131072 ![] bcast_S_S32x131072 : (⟨S_, .i32⟩ : BufTy).Contents (Elt F) → (⟨S32x131072, .i32⟩ : BufTy).Contents (Elt F)),
    binary main_v356 main_v372 main_v373 (cmpi .sge : (⟨S32x131072, .i32⟩ : BufTy).Contents (Elt F) → (⟨S32x131072, .i32⟩ : BufTy).Contents (Elt F) → (⟨S32x131072, .i1⟩ : BufTy).Contents (Elt F)),
    nullary main_c_156 (constantI S_ 32 64#32),
    unary main_c_156 main_v374 (broadcastInDim S32x131072 ![] bcast_S_S32x131072 : (⟨S_, .i32⟩ : BufTy).Contents (Elt F) → (⟨S32x131072, .i32⟩ : BufTy).Contents (Elt F)),
    binary main_v356 main_v374 main_v375 (cmpi .slt : (⟨S32x131072, .i32⟩ : BufTy).Contents (Elt F) → (⟨S32x131072, .i32⟩ : BufTy).Contents (Elt F) → (⟨S32x131072, .i1⟩ : BufTy).Contents (Elt F)),
    binary main_v373 main_v375 main_v376 (andi : (⟨S32x131072, .i1⟩ : BufTy).Contents (Elt F) → (⟨S32x131072, .i1⟩ : BufTy).Contents (Elt F) → (⟨S32x131072, .i1⟩ : BufTy).Contents (Elt F)),
    nullary main_c_157 (constantI S_ 32 0#32),
    unary main_c_157 main_v377 (broadcastInDim S32x131072 ![] bcast_S_S32x131072 : (⟨S_, .i32⟩ : BufTy).Contents (Elt F) → (⟨S32x131072, .i32⟩ : BufTy).Contents (Elt F)),
    binary main_v358 main_v377 main_v378 (cmpi .sge : (⟨S32x131072, .i32⟩ : BufTy).Contents (Elt F) → (⟨S32x131072, .i32⟩ : BufTy).Contents (Elt F) → (⟨S32x131072, .i1⟩ : BufTy).Contents (Elt F)),
    binary main_v376 main_v378 main_v379 (andi : (⟨S32x131072, .i1⟩ : BufTy).Contents (Elt F) → (⟨S32x131072, .i1⟩ : BufTy).Contents (Elt F) → (⟨S32x131072, .i1⟩ : BufTy).Contents (Elt F)),
    nullary main_c_158 (constantI S_ 32 64#32),
    unary main_c_158 main_v380 (broadcastInDim S32x131072 ![] bcast_S_S32x131072 : (⟨S_, .i32⟩ : BufTy).Contents (Elt F) → (⟨S32x131072, .i32⟩ : BufTy).Contents (Elt F)),
    binary main_v358 main_v380 main_v381 (cmpi .slt : (⟨S32x131072, .i32⟩ : BufTy).Contents (Elt F) → (⟨S32x131072, .i32⟩ : BufTy).Contents (Elt F) → (⟨S32x131072, .i1⟩ : BufTy).Contents (Elt F)),
    binary main_v379 main_v381 main_v382 (andi : (⟨S32x131072, .i1⟩ : BufTy).Contents (Elt F) → (⟨S32x131072, .i1⟩ : BufTy).Contents (Elt F) → (⟨S32x131072, .i1⟩ : BufTy).Contents (Elt F)),
    nullary main_c_159 (constantI S_ 32 0#32),
    unary main_c_159 main_v383 (broadcastInDim S32x131072 ![] bcast_S_S32x131072 : (⟨S_, .i32⟩ : BufTy).Contents (Elt F) → (⟨S32x131072, .i32⟩ : BufTy).Contents (Elt F)),
    binary main_v360 main_v383 main_v384 (cmpi .sge : (⟨S32x131072, .i32⟩ : BufTy).Contents (Elt F) → (⟨S32x131072, .i32⟩ : BufTy).Contents (Elt F) → (⟨S32x131072, .i1⟩ : BufTy).Contents (Elt F)),
    binary main_v382 main_v384 main_v385 (andi : (⟨S32x131072, .i1⟩ : BufTy).Contents (Elt F) → (⟨S32x131072, .i1⟩ : BufTy).Contents (Elt F) → (⟨S32x131072, .i1⟩ : BufTy).Contents (Elt F)),
    nullary main_c_160 (constantI S_ 32 64#32),
    unary main_c_160 main_v386 (broadcastInDim S32x131072 ![] bcast_S_S32x131072 : (⟨S_, .i32⟩ : BufTy).Contents (Elt F) → (⟨S32x131072, .i32⟩ : BufTy).Contents (Elt F)),
    binary main_v360 main_v386 main_v387 (cmpi .slt : (⟨S32x131072, .i32⟩ : BufTy).Contents (Elt F) → (⟨S32x131072, .i32⟩ : BufTy).Contents (Elt F) → (⟨S32x131072, .i1⟩ : BufTy).Contents (Elt F)),
    binary main_v385 main_v387 main_v388 (andi : (⟨S32x131072, .i1⟩ : BufTy).Contents (Elt F) → (⟨S32x131072, .i1⟩ : BufTy).Contents (Elt F) → (⟨S32x131072, .i1⟩ : BufTy).Contents (Elt F)),
    nullary main_c_161 (constantI S_ 32 0#32),
    nullary main_c_162 (constantI S_ 32 63#32),
    TRef.unary (TRef.of (T := ⟨S_, .i32⟩) main_c_161) (TRef.of (T := ⟨S_, .i32⟩) main_call33_v0) id,
    TRef.unary (TRef.of (T := ⟨S_, .i32⟩) main_call33_v0) (TRef.of (T := ⟨S32x131072, .i32⟩) main_call33_v1) (broadcastInDim S32x131072 ![] bcast_S_S32x131072),
    TRef.binary (TRef.of (T := ⟨S32x131072, .i32⟩) main_call33_v1) (TRef.of (T := ⟨S32x131072, .i32⟩) main_v356) (TRef.of (T := ⟨S32x131072, .i32⟩) main_call33_v2) maxsi,
    TRef.unary (TRef.of (T := ⟨S_, .i32⟩) main_c_162) (TRef.of (T := ⟨S_, .i32⟩) main_call33_v3) id,
    TRef.unary (TRef.of (T := ⟨S_, .i32⟩) main_call33_v3) (TRef.of (T := ⟨S32x131072, .i32⟩) main_call33_v4) (broadcastInDim S32x131072 ![] bcast_S_S32x131072),
    TRef.binary (TRef.of (T := ⟨S32x131072, .i32⟩) main_call33_v4) (TRef.of (T := ⟨S32x131072, .i32⟩) main_call33_v2) (TRef.of (T := ⟨S32x131072, .i32⟩) main_v389) minsi,
    nullary main_c_163 (constantI S_ 32 0#32),
    nullary main_c_164 (constantI S_ 32 63#32),
    TRef.unary (TRef.of (T := ⟨S_, .i32⟩) main_c_163) (TRef.of (T := ⟨S_, .i32⟩) main_call34_v0) id,
    TRef.unary (TRef.of (T := ⟨S_, .i32⟩) main_call34_v0) (TRef.of (T := ⟨S32x131072, .i32⟩) main_call34_v1) (broadcastInDim S32x131072 ![] bcast_S_S32x131072),
    TRef.binary (TRef.of (T := ⟨S32x131072, .i32⟩) main_call34_v1) (TRef.of (T := ⟨S32x131072, .i32⟩) main_v358) (TRef.of (T := ⟨S32x131072, .i32⟩) main_call34_v2) maxsi,
    TRef.unary (TRef.of (T := ⟨S_, .i32⟩) main_c_164) (TRef.of (T := ⟨S_, .i32⟩) main_call34_v3) id,
    TRef.unary (TRef.of (T := ⟨S_, .i32⟩) main_call34_v3) (TRef.of (T := ⟨S32x131072, .i32⟩) main_call34_v4) (broadcastInDim S32x131072 ![] bcast_S_S32x131072),
    TRef.binary (TRef.of (T := ⟨S32x131072, .i32⟩) main_call34_v4) (TRef.of (T := ⟨S32x131072, .i32⟩) main_call34_v2) (TRef.of (T := ⟨S32x131072, .i32⟩) main_v390) minsi,
    nullary main_c_165 (constantI S_ 32 0#32),
    nullary main_c_166 (constantI S_ 32 63#32),
    TRef.unary (TRef.of (T := ⟨S_, .i32⟩) main_c_165) (TRef.of (T := ⟨S_, .i32⟩) main_call35_v0) id,
    TRef.unary (TRef.of (T := ⟨S_, .i32⟩) main_call35_v0) (TRef.of (T := ⟨S32x131072, .i32⟩) main_call35_v1) (broadcastInDim S32x131072 ![] bcast_S_S32x131072),
    TRef.binary (TRef.of (T := ⟨S32x131072, .i32⟩) main_call35_v1) (TRef.of (T := ⟨S32x131072, .i32⟩) main_v360) (TRef.of (T := ⟨S32x131072, .i32⟩) main_call35_v2) maxsi,
    TRef.unary (TRef.of (T := ⟨S_, .i32⟩) main_c_166) (TRef.of (T := ⟨S_, .i32⟩) main_call35_v3) id,
    TRef.unary (TRef.of (T := ⟨S_, .i32⟩) main_call35_v3) (TRef.of (T := ⟨S32x131072, .i32⟩) main_call35_v4) (broadcastInDim S32x131072 ![] bcast_S_S32x131072),
    TRef.binary (TRef.of (T := ⟨S32x131072, .i32⟩) main_call35_v4) (TRef.of (T := ⟨S32x131072, .i32⟩) main_call35_v2) (TRef.of (T := ⟨S32x131072, .i32⟩) main_v391) minsi,
    nullary main_c_167 (constantI S_ 32 0#32),
    unary main_c_167 main_v392 (broadcastInDim S32x131072 ![] bcast_S_S32x131072 : (⟨S_, .i32⟩ : BufTy).Contents (Elt F) → (⟨S32x131072, .i32⟩ : BufTy).Contents (Elt F)),
    binary main_v391 main_v392 main_v393 (cmpi .slt : (⟨S32x131072, .i32⟩ : BufTy).Contents (Elt F) → (⟨S32x131072, .i32⟩ : BufTy).Contents (Elt F) → (⟨S32x131072, .i1⟩ : BufTy).Contents (Elt F)),
    nullary main_c_168 (constantI S_ 32 64#32),
    unary main_c_168 main_v394 (broadcastInDim S32x131072 ![] bcast_S_S32x131072 : (⟨S_, .i32⟩ : BufTy).Contents (Elt F) → (⟨S32x131072, .i32⟩ : BufTy).Contents (Elt F)),
    binary main_v391 main_v394 main_v395 (addi : (⟨S32x131072, .i32⟩ : BufTy).Contents (Elt F) → (⟨S32x131072, .i32⟩ : BufTy).Contents (Elt F) → (⟨S32x131072, .i32⟩ : BufTy).Contents (Elt F)),
    ternary main_v393 main_v395 main_v391 main_v396 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_169 (constantI S_ 32 0#32),
    unary main_c_169 main_v397 (broadcastInDim S32x131072 ![] bcast_S_S32x131072 : (⟨S_, .i32⟩ : BufTy).Contents (Elt F) → (⟨S32x131072, .i32⟩ : BufTy).Contents (Elt F)),
    binary main_v390 main_v397 main_v398 (cmpi .slt : (⟨S32x131072, .i32⟩ : BufTy).Contents (Elt F) → (⟨S32x131072, .i32⟩ : BufTy).Contents (Elt F) → (⟨S32x131072, .i1⟩ : BufTy).Contents (Elt F)),
    nullary main_c_170 (constantI S_ 32 64#32),
    unary main_c_170 main_v399 (broadcastInDim S32x131072 ![] bcast_S_S32x131072 : (⟨S_, .i32⟩ : BufTy).Contents (Elt F) → (⟨S32x131072, .i32⟩ : BufTy).Contents (Elt F)),
    binary main_v390 main_v399 main_v400 (addi : (⟨S32x131072, .i32⟩ : BufTy).Contents (Elt F) → (⟨S32x131072, .i32⟩ : BufTy).Contents (Elt F) → (⟨S32x131072, .i32⟩ : BufTy).Contents (Elt F)),
    ternary main_v398 main_v400 main_v390 main_v401 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_171 (constantI S_ 32 0#32),
    unary main_c_171 main_v402 (broadcastInDim S32x131072 ![] bcast_S_S32x131072 : (⟨S_, .i32⟩ : BufTy).Contents (Elt F) → (⟨S32x131072, .i32⟩ : BufTy).Contents (Elt F)),
    binary main_v389 main_v402 main_v403 (cmpi .slt : (⟨S32x131072, .i32⟩ : BufTy).Contents (Elt F) → (⟨S32x131072, .i32⟩ : BufTy).Contents (Elt F) → (⟨S32x131072, .i1⟩ : BufTy).Contents (Elt F)),
    nullary main_c_172 (constantI S_ 32 64#32),
    unary main_c_172 main_v404 (broadcastInDim S32x131072 ![] bcast_S_S32x131072 : (⟨S_, .i32⟩ : BufTy).Contents (Elt F) → (⟨S32x131072, .i32⟩ : BufTy).Contents (Elt F)),
    binary main_v389 main_v404 main_v405 (addi : (⟨S32x131072, .i32⟩ : BufTy).Contents (Elt F) → (⟨S32x131072, .i32⟩ : BufTy).Contents (Elt F) → (⟨S32x131072, .i32⟩ : BufTy).Contents (Elt F)),
    ternary main_v403 main_v405 main_v389 main_v406 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v396 main_v407 (broadcastInDim S32x131072x1 ![0, 1] bcast_S32x131072_S32x131072x1_0_1 : (⟨S32x131072, .i32⟩ : BufTy).Contents (Elt F) → (⟨S32x131072x1, .i32⟩ : BufTy).Contents (Elt F)),
    unary main_v401 main_v408 (broadcastInDim S32x131072x1 ![0, 1] bcast_S32x131072_S32x131072x1_0_1 : (⟨S32x131072, .i32⟩ : BufTy).Contents (Elt F) → (⟨S32x131072x1, .i32⟩ : BufTy).Contents (Elt F)),
    unary main_v406 main_v409 (broadcastInDim S32x131072x1 ![0, 1] bcast_S32x131072_S32x131072x1_0_1 : (⟨S32x131072, .i32⟩ : BufTy).Contents (Elt F) → (⟨S32x131072x1, .i32⟩ : BufTy).Contents (Elt F)),
    nary ![main_v407, main_v408, main_v409] main_v410 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v410 main_v411 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v388 main_v412 (uitofp .f32 : (⟨S32x131072, .i1⟩ : BufTy).Contents (Elt F) → (⟨S32x131072, .f32⟩ : BufTy).Contents (Elt F)),
    binary main_v371 main_v412 main_v413 (mulf : (⟨S32x131072, .f32⟩ : BufTy).Contents (Elt F) → (⟨S32x131072, .f32⟩ : BufTy).Contents (Elt F) → (⟨S32x131072, .f32⟩ : BufTy).Contents (Elt F)),
    unary main_v413 main_v414 (broadcastInDim S1x32x131072 ![1, 2] bcast_S32x131072_S1x32x131072_1_2 : (⟨S32x131072, .f32⟩ : BufTy).Contents (Elt F) → (⟨S1x32x131072, .f32⟩ : BufTy).Contents (Elt F)),
    unary main_v414 main_v415 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v411 main_v415 main_v416 (mulf : (⟨S3x32x131072, .f32⟩ : BufTy).Contents (Elt F) → (⟨S3x32x131072, .f32⟩ : BufTy).Contents (Elt F) → (⟨S3x32x131072, .f32⟩ : BufTy).Contents (Elt F)),
    binary main_v354 main_v416 main_v417 (addf : (⟨S3x32x131072, .f32⟩ : BufTy).Contents (Elt F) → (⟨S3x32x131072, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrC5 : List (Ref sig .tc) :=
  [main_c_146, main_v355, main_v356, main_c_147, main_v357, main_v358, main_c_148, main_v359, main_v360, main_cst_149, main_v361, main_v362, main_c_150, main_call30_c, main_call30_v0, main_v363, main_cst_151, main_v364, main_v365, main_c_152, main_call31_c, main_call31_v0, main_v366, main_v367, main_cst_153, main_v368, main_v369, main_c_154, main_call32_c, main_call32_v0, main_v370, main_v371, main_c_155, main_v372, main_v373, main_c_156, main_v374, main_v375, main_v376, main_c_157, main_v377, main_v378, main_v379, main_c_158, main_v380, main_v381, main_v382, main_c_159, main_v383, main_v384, main_v385, main_c_160, main_v386, main_v387, main_v388, main_c_161, main_c_162, main_call33_v0, main_call33_v1, main_call33_v2, main_call33_v3, main_call33_v4, main_v389, main_c_163, main_c_164, main_call34_v0, main_call34_v1, main_call34_v2, main_call34_v3, main_call34_v4, main_v390, main_c_165, main_c_166, main_call35_v0, main_call35_v1, main_call35_v2, main_call35_v3, main_call35_v4, main_v391, main_c_167, main_v392, main_v393, main_c_168, main_v394, main_v395, main_v396, main_c_169, main_v397, main_v398, main_c_170, main_v399, main_v400, main_v401, main_c_171, main_v402, main_v403, main_c_172, main_v404, main_v405, main_v406, main_v407, main_v408, main_v409, main_v410, main_v411, main_v412, main_v413, main_v414, main_v415, main_v416, main_v417]

set_option maxRecDepth 8192 in
/-- Every operation of the list writes its one buffer of that list. -/
theorem opsC5_writes : (opsC5 (F := F)).Forall fun op => op.writes ⊆ ((wrC5).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsC5_keep (W : Valuation τ sig (Elt F)) {r : Ref sig .tc} (hr : r ∉ wrC5) :
    after (opsC5 (F := F)) W (Proc.devRef .tc r) = W (Proc.devRef .tc r) :=
  after_of_writes_sub _ W opsC5_writes hr

/-- The corner's operations do not write this buffer. -/
theorem opsC5_arg0 (W : Valuation τ sig (Elt F)) :
    after (opsC5 (F := F)) W (Proc.devRef .tc main_arg0) = W (Proc.devRef .tc main_arg0) :=
  opsC5_keep W (by decide)

/-- The corner's operations do not write this buffer. -/
theorem opsC5_arg1 (W : Valuation τ sig (Elt F)) :
    after (opsC5 (F := F)) W (Proc.devRef .tc main_arg1) = W (Proc.devRef .tc main_arg1) :=
  opsC5_keep W (by decide)

/-- The corner's operations do not write this buffer. -/
theorem opsC5_v33 (W : Valuation τ sig (Elt F)) :
    after (opsC5 (F := F)) W (Proc.devRef .tc main_v33) = W (Proc.devRef .tc main_v33) :=
  opsC5_keep W (by decide)

/-- The corner's operations do not write this buffer. -/
theorem opsC5_v34 (W : Valuation τ sig (Elt F)) :
    after (opsC5 (F := F)) W (Proc.devRef .tc main_v34) = W (Proc.devRef .tc main_v34) :=
  opsC5_keep W (by decide)

/-- The corner's operations do not write this buffer. -/
theorem opsC5_v35 (W : Valuation τ sig (Elt F)) :
    after (opsC5 (F := F)) W (Proc.devRef .tc main_v35) = W (Proc.devRef .tc main_v35) :=
  opsC5_keep W (by decide)

/-- The corner's operations do not write this buffer. -/
theorem opsC5_v36 (W : Valuation τ sig (Elt F)) :
    after (opsC5 (F := F)) W (Proc.devRef .tc main_v36) = W (Proc.devRef .tc main_v36) :=
  opsC5_keep W (by decide)

/-- The corner's operations do not write this buffer. -/
theorem opsC5_v37 (W : Valuation τ sig (Elt F)) :
    after (opsC5 (F := F)) W (Proc.devRef .tc main_v37) = W (Proc.devRef .tc main_v37) :=
  opsC5_keep W (by decide)

/-- The corner's operations do not write this buffer. -/
theorem opsC5_v38 (W : Valuation τ sig (Elt F)) :
    after (opsC5 (F := F)) W (Proc.devRef .tc main_v38) = W (Proc.devRef .tc main_v38) :=
  opsC5_keep W (by decide)

end Cert.RefRun

end
-- ==== Proof.RefRunW8.lean ====
/-
  Window 8 of the reference's @main (operations 585 to 650 of 943, counting from 0) is the straight line of those
  operations: the called functions' bodies are unfolded at their calls and the sequencing re-associated. The same
  operations are a stretch of the reference's lists cut before the corners, per corner and after them.
-/
import proofs.«174278_j48524540510565_1_alg».proof.Proof.RefRunC4
import proofs.«174278_j48524540510565_1_alg».proof.Proof.RefRunC5

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW8 : List (HloOp τ sig (Elt F)) :=
  [ binary main_v327 main_v334 main_v335 (cmpi .slt : (⟨S32x131072, .i32⟩ : BufTy).Contents (Elt F) → (⟨S32x131072, .i32⟩ : BufTy).Contents (Elt F) → (⟨S32x131072, .i1⟩ : BufTy).Contents (Elt F)),
    nullary main_c_143 (constantI S_ 32 64#32),
    unary main_c_143 main_v336 (broadcastInDim S32x131072 ![] bcast_S_S32x131072 : (⟨S_, .i32⟩ : BufTy).Contents (Elt F) → (⟨S32x131072, .i32⟩ : BufTy).Contents (Elt F)),
    binary main_v327 main_v336 main_v337 (addi : (⟨S32x131072, .i32⟩ : BufTy).Contents (Elt F) → (⟨S32x131072, .i32⟩ : BufTy).Contents (Elt F) → (⟨S32x131072, .i32⟩ : BufTy).Contents (Elt F)),
    ternary main_v335 main_v337 main_v327 main_v338 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_144 (constantI S_ 32 0#32),
    unary main_c_144 main_v339 (broadcastInDim S32x131072 ![] bcast_S_S32x131072 : (⟨S_, .i32⟩ : BufTy).Contents (Elt F) → (⟨S32x131072, .i32⟩ : BufTy).Contents (Elt F)),
    binary main_v326 main_v339 main_v340 (cmpi .slt : (⟨S32x131072, .i32⟩ : BufTy).Contents (Elt F) → (⟨S32x131072, .i32⟩ : BufTy).Contents (Elt F) → (⟨S32x131072, .i1⟩ : BufTy).Contents (Elt F)),
    nullary main_c_145 (constantI S_ 32 64#32),
    unary main_c_145 main_v341 (broadcastInDim S32x131072 ![] bcast_S_S32x131072 : (⟨S_, .i32⟩ : BufTy).Contents (Elt F) → (⟨S32x131072, .i32⟩ : BufTy).Contents (Elt F)),
    binary main_v326 main_v341 main_v342 (addi : (⟨S32x131072, .i32⟩ : BufTy).Contents (Elt F) → (⟨S32x131072, .i32⟩ : BufTy).Contents (Elt F) → (⟨S32x131072, .i32⟩ : BufTy).Contents (Elt F)),
    ternary main_v340 main_v342 main_v326 main_v343 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v333 main_v344 (broadcastInDim S32x131072x1 ![0, 1] bcast_S32x131072_S32x131072x1_0_1 : (⟨S32x131072, .i32⟩ : BufTy).Contents (Elt F) → (⟨S32x131072x1, .i32⟩ : BufTy).Contents (Elt F)),
    unary main_v338 main_v345 (broadcastInDim S32x131072x1 ![0, 1] bcast_S32x131072_S32x131072x1_0_1 : (⟨S32x131072, .i32⟩ : BufTy).Contents (Elt F) → (⟨S32x131072x1, .i32⟩ : BufTy).Contents (Elt F)),
    unary main_v343 main_v346 (broadcastInDim S32x131072x1 ![0, 1] bcast_S32x131072_S32x131072x1_0_1 : (⟨S32x131072, .i32⟩ : BufTy).Contents (Elt F) → (⟨S32x131072x1, .i32⟩ : BufTy).Contents (Elt F)),
    nary ![main_v344, main_v345, main_v346] main_v347 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v347 main_v348 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v325 main_v349 (uitofp .f32 : (⟨S32x131072, .i1⟩ : BufTy).Contents (Elt F) → (⟨S32x131072, .f32⟩ : BufTy).Contents (Elt F)),
    binary main_v308 main_v349 main_v350 (mulf : (⟨S32x131072, .f32⟩ : BufTy).Contents (Elt F) → (⟨S32x131072, .f32⟩ : BufTy).Contents (Elt F) → (⟨S32x131072, .f32⟩ : BufTy).Contents (Elt F)),
    unary main_v350 main_v351 (broadcastInDim S1x32x131072 ![1, 2] bcast_S32x131072_S1x32x131072_1_2 : (⟨S32x131072, .f32⟩ : BufTy).Contents (Elt F) → (⟨S1x32x131072, .f32⟩ : BufTy).Contents (Elt F)),
    unary main_v351 main_v352 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v348 main_v352 main_v353 (mulf : (⟨S3x32x131072, .f32⟩ : BufTy).Contents (Elt F) → (⟨S3x32x131072, .f32⟩ : BufTy).Contents (Elt F) → (⟨S3x32x131072, .f32⟩ : BufTy).Contents (Elt F)),
    binary main_v291 main_v353 main_v354 (addf : (⟨S3x32x131072, .f32⟩ : BufTy).Contents (Elt F) → (⟨S3x32x131072, .f32⟩ : BufTy).Contents (Elt F) → (⟨S3x32x131072, .f32⟩ : BufTy).Contents (Elt F)),
    nullary main_c_146 (constantI S_ 32 1#32),
    unary main_c_146 main_v355 (broadcastInDim S32x131072 ![] bcast_S_S32x131072 : (⟨S_, .i32⟩ : BufTy).Contents (Elt F) → (⟨S32x131072, .i32⟩ : BufTy).Contents (Elt F)),
    binary main_v36 main_v355 main_v356 (addi : (⟨S32x131072, .i32⟩ : BufTy).Contents (Elt F) → (⟨S32x131072, .i32⟩ : BufTy).Contents (Elt F) → (⟨S32x131072, .i32⟩ : BufTy).Contents (Elt F)),
    nullary main_c_147 (constantI S_ 32 0#32),
    unary main_c_147 main_v357 (broadcastInDim S32x131072 ![] bcast_S_S32x131072 : (⟨S_, .i32⟩ : BufTy).Contents (Elt F) → (⟨S32x131072, .i32⟩ : BufTy).Contents (Elt F)),
    binary main_v37 main_v357 main_v358 (addi : (⟨S32x131072, .i32⟩ : BufTy).Contents (Elt F) → (⟨S32x131072, .i32⟩ : BufTy).Contents (Elt F) → (⟨S32x131072, .i32⟩ : BufTy).Contents (Elt F)),
    nullary main_c_148 (constantI S_ 32 1#32),
    unary main_c_148 main_v359 (broadcastInDim S32x131072 ![] bcast_S_S32x131072 : (⟨S_, .i32⟩ : BufTy).Contents (Elt F) → (⟨S32x131072, .i32⟩ : BufTy).Contents (Elt F)),
    binary main_v38 main_v359 main_v360 (addi : (⟨S32x131072, .i32⟩ : BufTy).Contents (Elt F) → (⟨S32x131072, .i32⟩ : BufTy).Contents (Elt F) → (⟨S32x131072, .i32⟩ : BufTy).Contents (Elt F)),
    nullary main_cst_149 (constant S_ .f32 0x3F800000#32),
    unary main_cst_149 main_v361 (broadcastInDim S32x131072 ![] bcast_S_S32x131072 : (⟨S_, .f32⟩ : BufTy).Contents (Elt F) → (⟨S32x131072, .f32⟩ : BufTy).Contents (Elt F)),
    binary main_v361 main_v33 main_v362 (subf : (⟨S32x131072, .f32⟩ : BufTy).Contents (Elt F) → (⟨S32x131072, .f32⟩ : BufTy).Contents (Elt F) → (⟨S32x131072, .f32⟩ : BufTy).Contents (Elt F)),
    nullary main_c_150 (constantI S_ 32 1#32),
    TRef.nullary (TRef.of (T := ⟨S_, .i32⟩) main_call30_c) (constantI S_ 32 0#32),
    TRef.binary (TRef.of (T := ⟨S_, .i32⟩) main_c_150) (TRef.of (T := ⟨S_, .i32⟩) main_call30_c) (TRef.of (T := ⟨S_, .i1⟩) main_call30_v0) (cmpi .ne),
    TRef.ternary (TRef.of (T := ⟨S_, .i1⟩) main_call30_v0) (TRef.of (T := ⟨S32x131072, .f32⟩) main_v33) (TRef.of (T := ⟨S32x131072, .f32⟩) main_v362) (TRef.of (T := ⟨S32x131072, .f32⟩) main_v363) (fun p a b => select (broadcastInDim S32x131072 ![] bcast_S_S32x131072 p) a b),
    nullary main_cst_151 (constant S_ .f32 0x3F800000#32),
    unary main_cst_151 main_v364 (broadcastInDim S32x131072 ![] bcast_S_S32x131072 : (⟨S_, .f32⟩ : BufTy).Contents (Elt F) → (⟨S32x131072, .f32⟩ : BufTy).Contents (Elt F)),
    binary main_v364 main_v34 main_v365 (subf : (⟨S32x131072, .f32⟩ : BufTy).Contents (Elt F) → (⟨S32x131072, .f32⟩ : BufTy).Contents (Elt F) → (⟨S32x131072, .f32⟩ : BufTy).Contents (Elt F)),
    nullary main_c_152 (constantI S_ 32 0#32),
    TRef.nullary (TRef.of (T := ⟨S_, .i32⟩) main_call31_c) (constantI S_ 32 0#32),
    TRef.binary (TRef.of (T := ⟨S_, .i32⟩) main_c_152) (TRef.of (T := ⟨S_, .i32⟩) main_call31_c) (TRef.of (T := ⟨S_, .i1⟩) main_call31_v0) (cmpi .ne),
    TRef.ternary (TRef.of (T := ⟨S_, .i1⟩) main_call31_v0) (TRef.of (T := ⟨S32x131072, .f32⟩) main_v34) (TRef.of (T := ⟨S32x131072, .f32⟩) main_v365) (TRef.of (T := ⟨S32x131072, .f32⟩) main_v366) (fun p a b => select (broadcastInDim S32x131072 ![] bcast_S_S32x131072 p) a b),
    binary main_v363 main_v366 main_v367 (mulf : (⟨S32x131072, .f32⟩ : BufTy).Contents (Elt F) → (⟨S32x131072, .f32⟩ : BufTy).Contents (Elt F) → (⟨S32x131072, .f32⟩ : BufTy).Contents (Elt F)),
    nullary main_cst_153 (constant S_ .f32 0x3F800000#32),
    unary main_cst_153 main_v368 (broadcastInDim S32x131072 ![] bcast_S_S32x131072 : (⟨S_, .f32⟩ : BufTy).Contents (Elt F) → (⟨S32x131072, .f32⟩ : BufTy).Contents (Elt F)),
    binary main_v368 main_v35 main_v369 (subf : (⟨S32x131072, .f32⟩ : BufTy).Contents (Elt F) → (⟨S32x131072, .f32⟩ : BufTy).Contents (Elt F) → (⟨S32x131072, .f32⟩ : BufTy).Contents (Elt F)),
    nullary main_c_154 (constantI S_ 32 1#32),
    TRef.nullary (TRef.of (T := ⟨S_, .i32⟩) main_call32_c) (constantI S_ 32 0#32),
    TRef.binary (TRef.of (T := ⟨S_, .i32⟩) main_c_154) (TRef.of (T := ⟨S_, .i32⟩) main_call32_c) (TRef.of (T := ⟨S_, .i1⟩) main_call32_v0) (cmpi .ne),
    TRef.ternary (TRef.of (T := ⟨S_, .i1⟩) main_call32_v0) (TRef.of (T := ⟨S32x131072, .f32⟩) main_v35) (TRef.of (T := ⟨S32x131072, .f32⟩) main_v369) (TRef.of (T := ⟨S32x131072, .f32⟩) main_v370) (fun p a b => select (broadcastInDim S32x131072 ![] bcast_S_S32x131072 p) a b),
    binary main_v367 main_v370 main_v371 (mulf : (⟨S32x131072, .f32⟩ : BufTy).Contents (Elt F) → (⟨S32x131072, .f32⟩ : BufTy).Contents (Elt F) → (⟨S32x131072, .f32⟩ : BufTy).Contents (Elt F)),
    nullary main_c_155 (constantI S_ 32 0#32),
    unary main_c_155 main_v372 (broadcastInDim S32x131072 ![] bcast_S_S32x131072 : (⟨S_, .i32⟩ : BufTy).Contents (Elt F) → (⟨S32x131072, .i32⟩ : BufTy).Contents (Elt F)),
    binary main_v356 main_v372 main_v373 (cmpi .sge : (⟨S32x131072, .i32⟩ : BufTy).Contents (Elt F) → (⟨S32x131072, .i32⟩ : BufTy).Contents (Elt F) → (⟨S32x131072, .i1⟩ : BufTy).Contents (Elt F)),
    nullary main_c_156 (constantI S_ 32 64#32),
    unary main_c_156 main_v374 (broadcastInDim S32x131072 ![] bcast_S_S32x131072 : (⟨S_, .i32⟩ : BufTy).Contents (Elt F) → (⟨S32x131072, .i32⟩ : BufTy).Contents (Elt F)),
    binary main_v356 main_v374 main_v375 (cmpi .slt : (⟨S32x131072, .i32⟩ : BufTy).Contents (Elt F) → (⟨S32x131072, .i32⟩ : BufTy).Contents (Elt F) → (⟨S32x131072, .i1⟩ : BufTy).Contents (Elt F)),
    binary main_v373 main_v375 main_v376 (andi : (⟨S32x131072, .i1⟩ : BufTy).Contents (Elt F) → (⟨S32x131072, .i1⟩ : BufTy).Contents (Elt F) → (⟨S32x131072, .i1⟩ : BufTy).Contents (Elt F)),
    nullary main_c_157 (constantI S_ 32 0#32),
    unary main_c_157 main_v377 (broadcastInDim S32x131072 ![] bcast_S_S32x131072 : (⟨S_, .i32⟩ : BufTy).Contents (Elt F) → (⟨S32x131072, .i32⟩ : BufTy).Contents (Elt F)),
    binary main_v358 main_v377 main_v378 (cmpi .sge : (⟨S32x131072, .i32⟩ : BufTy).Contents (Elt F) → (⟨S32x131072, .i32⟩ : BufTy).Contents (Elt F) → (⟨S32x131072, .i1⟩ : BufTy).Contents (Elt F)),
    binary main_v376 main_v378 main_v379 (andi : (⟨S32x131072, .i1⟩ : BufTy).Contents (Elt F) → (⟨S32x131072, .i1⟩ : BufTy).Contents (Elt F) → (⟨S32x131072, .i1⟩ : BufTy).Contents (Elt F)) ]

set_option maxRecDepth 4096 in
set_option maxHeartbeats 4000000 in
/-- The window is the straight line of its operations. -/
theorem part8_eq (c : Dev nD) : main_part8 (F := F) c = seq opsW8 := by
  simp only [main_part8, fn_where.body, fn_clip.body, seq, bind_assoc, pure_bind]
  rfl

set_option maxRecDepth 8192 in
/-- The window's operations as a stretch of the cut lists. -/
theorem opsW8_eq : (opsW8 (F := F)) = List.drop 81 (List.drop 7 opsC4) ++ (List.take 43 opsC5) := rfl

end Cert.RefRun

end
-- ==== Proof.RefRunC6.lean ====
/-
  The operations of corner (dx, dy, dz) = (1, 1, 0) of the eight-corner sum, as a list, the buffers the list writes
  (one per operation), and what it therefore leaves alone from any contents W: the two argument buffers and the six
  buffers of cells and fractional parts.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Corner (1, 1, 0)'s operations, in order. -/
abbrev opsC6 : List (HloOp τ sig (Elt F)) :=
  [ nullary main_c_173 (constantI S_ 32 1#32),
    unary main_c_173 main_v418 (broadcastInDim S32x131072 ![] bcast_S_S32x131072 : (⟨S_, .i32⟩ : BufTy).Contents (Elt F) → (⟨S32x131072, .i32⟩ : BufTy).Contents (Elt F)),
    binary main_v36 main_v418 main_v419 (addi : (⟨S32x131072, .i32⟩ : BufTy).Contents (Elt F) → (⟨S32x131072, .i32⟩ : BufTy).Contents (Elt F) → (⟨S32x131072, .i32⟩ : BufTy).Contents (Elt F)),
    nullary main_c_174 (constantI S_ 32 1#32),
    unary main_c_174 main_v420 (broadcastInDim S32x131072 ![] bcast_S_S32x131072 : (⟨S_, .i32⟩ : BufTy).Contents (Elt F) → (⟨S32x131072, .i32⟩ : BufTy).Contents (Elt F)),
    binary main_v37 main_v420 main_v421 (addi : (⟨S32x131072, .i32⟩ : BufTy).Contents (Elt F) → (⟨S32x131072, .i32⟩ : BufTy).Contents (Elt F) → (⟨S32x131072, .i32⟩ : BufTy).Contents (Elt F)),
    nullary main_c_175 (constantI S_ 32 0#32),
    unary main_c_175 main_v422 (broadcastInDim S32x131072 ![] bcast_S_S32x131072 : (⟨S_, .i32⟩ : BufTy).Contents (Elt F) → (⟨S32x131072, .i32⟩ : BufTy).Contents (Elt F)),
    binary main_v38 main_v422 main_v423 (addi : (⟨S32x131072, .i32⟩ : BufTy).Contents (Elt F) → (⟨S32x131072, .i32⟩ : BufTy).Contents (Elt F) → (⟨S32x131072, .i32⟩ : BufTy).Contents (Elt F)),
    nullary main_cst_176 (constant S_ .f32 0x3F800000#32),
    unary main_cst_176 main_v424 (broadcastInDim S32x131072 ![] bcast_S_S32x131072 : (⟨S_, .f32⟩ : BufTy).Contents (Elt F) → (⟨S32x131072, .f32⟩ : BufTy).Contents (Elt F)),
    binary main_v424 main_v33 main_v425 (subf : (⟨S32x131072, .f32⟩ : BufTy).Contents (Elt F) → (⟨S32x131072, .f32⟩ : BufTy).Contents (Elt F) → (⟨S32x131072, .f32⟩ : BufTy).Contents (Elt F)),
    nullary main_c_177 (constantI S_ 32 1#32),
    TRef.nullary (TRef.of (T := ⟨S_, .i32⟩) main_call36_c) (constantI S_ 32 0#32),
    TRef.binary (TRef.of (T := ⟨S_, .i32⟩) main_c_177) (TRef.of (T := ⟨S_, .i32⟩) main_call36_c) (TRef.of (T := ⟨S_, .i1⟩) main_call36_v0) (cmpi .ne),
    TRef.ternary (TRef.of (T := ⟨S_, .i1⟩) main_call36_v0) (TRef.of (T := ⟨S32x131072, .f32⟩) main_v33) (TRef.of (T := ⟨S32x131072, .f32⟩) main_v425) (TRef.of (T := ⟨S32x131072, .f32⟩) main_v426) (fun p a b => select (broadcastInDim S32x131072 ![] bcast_S_S32x131072 p) a b),
    nullary main_cst_178 (constant S_ .f32 0x3F800000#32),
    unary main_cst_178 main_v427 (broadcastInDim S32x131072 ![] bcast_S_S32x131072 : (⟨S_, .f32⟩ : BufTy).Contents (Elt F) → (⟨S32x131072, .f32⟩ : BufTy).Contents (Elt F)),
    binary main_v427 main_v34 main_v428 (subf : (⟨S32x131072, .f32⟩ : BufTy).Contents (Elt F) → (⟨S32x131072, .f32⟩ : BufTy).Contents (Elt F) → (⟨S32x131072, .f32⟩ : BufTy).Contents (Elt F)),
    nullary main_c_179 (constantI S_ 32 1#32),
    TRef.nullary (TRef.of (T := ⟨S_, .i32⟩) main_call37_c) (constantI S_ 32 0#32),
    TRef.binary (TRef.of (T := ⟨S_, .i32⟩) main_c_179) (TRef.of (T := ⟨S_, .i32⟩) main_call37_c) (TRef.of (T := ⟨S_, .i1⟩) main_call37_v0) (cmpi .ne),
    TRef.ternary (TRef.of (T := ⟨S_, .i1⟩) main_call37_v0) (TRef.of (T := ⟨S32x131072, .f32⟩) main_v34) (TRef.of (T := ⟨S32x131072, .f32⟩) main_v428) (TRef.of (T := ⟨S32x131072, .f32⟩) main_v429) (fun p a b => select (broadcastInDim S32x131072 ![] bcast_S_S32x131072 p) a b),
    binary main_v426 main_v429 main_v430 (mulf : (⟨S32x131072, .f32⟩ : BufTy).Contents (Elt F) → (⟨S32x131072, .f32⟩ : BufTy).Contents (Elt F) → (⟨S32x131072, .f32⟩ : BufTy).Contents (Elt F)),
    nullary main_cst_180 (constant S_ .f32 0x3F800000#32),
    unary main_cst_180 main_v431 (broadcastInDim S32x131072 ![] bcast_S_S32x131072 : (⟨S_, .f32⟩ : BufTy).Contents (Elt F) → (⟨S32x131072, .f32⟩ : BufTy).Contents (Elt F)),
    binary main_v431 main_v35 main_v432 (subf : (⟨S32x131072, .f32⟩ : BufTy).Contents (Elt F) → (⟨S32x131072, .f32⟩ : BufTy).Contents (Elt F) → (⟨S32x131072, .f32⟩ : BufTy).Contents (Elt F)),
    nullary main_c_181 (constantI S_ 32 0#32),
    TRef.nullary (TRef.of (T := ⟨S_, .i32⟩) main_call38_c) (constantI S_ 32 0#32),
    TRef.binary (TRef.of (T := ⟨S_, .i32⟩) main_c_181) (TRef.of (T := ⟨S_, .i32⟩) main_call38_c) (TRef.of (T := ⟨S_, .i1⟩) main_call38_v0) (cmpi .ne),
    TRef.ternary (TRef.of (T := ⟨S_, .i1⟩) main_call38_v0) (TRef.of (T := ⟨S32x131072, .f32⟩) main_v35) (TRef.of (T := ⟨S32x131072, .f32⟩) main_v432) (TRef.of (T := ⟨S32x131072, .f32⟩) main_v433) (fun p a b => select (broadcastInDim S32x131072 ![] bcast_S_S32x131072 p) a b),
    binary main_v430 main_v433 main_v434 (mulf : (⟨S32x131072, .f32⟩ : BufTy).Contents (Elt F) → (⟨S32x131072, .f32⟩ : BufTy).Contents (Elt F) → (⟨S32x131072, .f32⟩ : BufTy).Contents (Elt F)),
    nullary main_c_182 (constantI S_ 32 0#32),
    unary main_c_182 main_v435 (broadcastInDim S32x131072 ![] bcast_S_S32x131072 : (⟨S_, .i32⟩ : BufTy).Contents (Elt F) → (⟨S32x131072, .i32⟩ : BufTy).Contents (Elt F)),
    binary main_v419 main_v435 main_v436 (cmpi .sge : (⟨S32x131072, .i32⟩ : BufTy).Contents (Elt F) → (⟨S32x131072, .i32⟩ : BufTy).Contents (Elt F) → (⟨S32x131072, .i1⟩ : BufTy).Contents (Elt F)),
    nullary main_c_183 (constantI S_ 32 64#32),
    unary main_c_183 main_v437 (broadcastInDim S32x131072 ![] bcast_S_S32x131072 : (⟨S_, .i32⟩ : BufTy).Contents (Elt F) → (⟨S32x131072, .i32⟩ : BufTy).Contents (Elt F)),
    binary main_v419 main_v437 main_v438 (cmpi .slt : (⟨S32x131072, .i32⟩ : BufTy).Contents (Elt F) → (⟨S32x131072, .i32⟩ : BufTy).Contents (Elt F) → (⟨S32x131072, .i1⟩ : BufTy).Contents (Elt F)),
    binary main_v436 main_v438 main_v439 (andi : (⟨S32x131072, .i1⟩ : BufTy).Contents (Elt F) → (⟨S32x131072, .i1⟩ : BufTy).Contents (Elt F) → (⟨S32x131072, .i1⟩ : BufTy).Contents (Elt F)),
    nullary main_c_184 (constantI S_ 32 0#32),
    unary main_c_184 main_v440 (broadcastInDim S32x131072 ![] bcast_S_S32x131072 : (⟨S_, .i32⟩ : BufTy).Contents (Elt F) → (⟨S32x131072, .i32⟩ : BufTy).Contents (Elt F)),
    binary main_v421 main_v440 main_v441 (cmpi .sge : (⟨S32x131072, .i32⟩ : BufTy).Contents (Elt F) → (⟨S32x131072, .i32⟩ : BufTy).Contents (Elt F) → (⟨S32x131072, .i1⟩ : BufTy).Contents (Elt F)),
    binary main_v439 main_v441 main_v442 (andi : (⟨S32x131072, .i1⟩ : BufTy).Contents (Elt F) → (⟨S32x131072, .i1⟩ : BufTy).Contents (Elt F) → (⟨S32x131072, .i1⟩ : BufTy).Contents (Elt F)),
    nullary main_c_185 (constantI S_ 32 64#32),
    unary main_c_185 main_v443 (broadcastInDim S32x131072 ![] bcast_S_S32x131072 : (⟨S_, .i32⟩ : BufTy).Contents (Elt F) → (⟨S32x131072, .i32⟩ : BufTy).Contents (Elt F)),
    binary main_v421 main_v443 main_v444 (cmpi .slt : (⟨S32x131072, .i32⟩ : BufTy).Contents (Elt F) → (⟨S32x131072, .i32⟩ : BufTy).Contents (Elt F) → (⟨S32x131072, .i1⟩ : BufTy).Contents (Elt F)),
    binary main_v442 main_v444 main_v445 (andi : (⟨S32x131072, .i1⟩ : BufTy).Contents (Elt F) → (⟨S32x131072, .i1⟩ : BufTy).Contents (Elt F) → (⟨S32x131072, .i1⟩ : BufTy).Contents (Elt F)),
    nullary main_c_186 (constantI S_ 32 0#32),
    unary main_c_186 main_v446 (broadcastInDim S32x131072 ![] bcast_S_S32x131072 : (⟨S_, .i32⟩ : BufTy).Contents (Elt F) → (⟨S32x131072, .i32⟩ : BufTy).Contents (Elt F)),
    binary main_v423 main_v446 main_v447 (cmpi .sge : (⟨S32x131072, .i32⟩ : BufTy).Contents (Elt F) → (⟨S32x131072, .i32⟩ : BufTy).Contents (Elt F) → (⟨S32x131072, .i1⟩ : BufTy).Contents (Elt F)),
    binary main_v445 main_v447 main_v448 (andi : (⟨S32x131072, .i1⟩ : BufTy).Contents (Elt F) → (⟨S32x131072, .i1⟩ : BufTy).Contents (Elt F) → (⟨S32x131072, .i1⟩ : BufTy).Contents (Elt F)),
    nullary main_c_187 (constantI S_ 32 64#32),
    unary main_c_187 main_v449 (broadcastInDim S32x131072 ![] bcast_S_S32x131072 : (⟨S_, .i32⟩ : BufTy).Contents (Elt F) → (⟨S32x131072, .i32⟩ : BufTy).Contents (Elt F)),
    binary main_v423 main_v449 main_v450 (cmpi .slt : (⟨S32x131072, .i32⟩ : BufTy).Contents (Elt F) → (⟨S32x131072, .i32⟩ : BufTy).Contents (Elt F) → (⟨S32x131072, .i1⟩ : BufTy).Contents (Elt F)),
    binary main_v448 main_v450 main_v451 (andi : (⟨S32x131072, .i1⟩ : BufTy).Contents (Elt F) → (⟨S32x131072, .i1⟩ : BufTy).Contents (Elt F) → (⟨S32x131072, .i1⟩ : BufTy).Contents (Elt F)),
    nullary main_c_188 (constantI S_ 32 0#32),
    nullary main_c_189 (constantI S_ 32 63#32),
    TRef.unary (TRef.of (T := ⟨S_, .i32⟩) main_c_188) (TRef.of (T := ⟨S_, .i32⟩) main_call39_v0) id,
    TRef.unary (TRef.of (T := ⟨S_, .i32⟩) main_call39_v0) (TRef.of (T := ⟨S32x131072, .i32⟩) main_call39_v1) (broadcastInDim S32x131072 ![] bcast_S_S32x131072),
    TRef.binary (TRef.of (T := ⟨S32x131072, .i32⟩) main_call39_v1) (TRef.of (T := ⟨S32x131072, .i32⟩) main_v419) (TRef.of (T := ⟨S32x131072, .i32⟩) main_call39_v2) maxsi,
    TRef.unary (TRef.of (T := ⟨S_, .i32⟩) main_c_189) (TRef.of (T := ⟨S_, .i32⟩) main_call39_v3) id,
    TRef.unary (TRef.of (T := ⟨S_, .i32⟩) main_call39_v3) (TRef.of (T := ⟨S32x131072, .i32⟩) main_call39_v4) (broadcastInDim S32x131072 ![] bcast_S_S32x131072),
    TRef.binary (TRef.of (T := ⟨S32x131072, .i32⟩) main_call39_v4) (TRef.of (T := ⟨S32x131072, .i32⟩) main_call39_v2) (TRef.of (T := ⟨S32x131072, .i32⟩) main_v452) minsi,
    nullary main_c_190 (constantI S_ 32 0#32),
    nullary main_c_191 (constantI S_ 32 63#32),
    TRef.unary (TRef.of (T := ⟨S_, .i32⟩) main_c_190) (TRef.of (T := ⟨S_, .i32⟩) main_call40_v0) id,
    TRef.unary (TRef.of (T := ⟨S_, .i32⟩) main_call40_v0) (TRef.of (T := ⟨S32x131072, .i32⟩) main_call40_v1) (broadcastInDim S32x131072 ![] bcast_S_S32x131072),
    TRef.binary (TRef.of (T := ⟨S32x131072, .i32⟩) main_call40_v1) (TRef.of (T := ⟨S32x131072, .i32⟩) main_v421) (TRef.of (T := ⟨S32x131072, .i32⟩) main_call40_v2) maxsi,
    TRef.unary (TRef.of (T := ⟨S_, .i32⟩) main_c_191) (TRef.of (T := ⟨S_, .i32⟩) main_call40_v3) id,
    TRef.unary (TRef.of (T := ⟨S_, .i32⟩) main_call40_v3) (TRef.of (T := ⟨S32x131072, .i32⟩) main_call40_v4) (broadcastInDim S32x131072 ![] bcast_S_S32x131072),
    TRef.binary (TRef.of (T := ⟨S32x131072, .i32⟩) main_call40_v4) (TRef.of (T := ⟨S32x131072, .i32⟩) main_call40_v2) (TRef.of (T := ⟨S32x131072, .i32⟩) main_v453) minsi,
    nullary main_c_192 (constantI S_ 32 0#32),
    nullary main_c_193 (constantI S_ 32 63#32),
    TRef.unary (TRef.of (T := ⟨S_, .i32⟩) main_c_192) (TRef.of (T := ⟨S_, .i32⟩) main_call41_v0) id,
    TRef.unary (TRef.of (T := ⟨S_, .i32⟩) main_call41_v0) (TRef.of (T := ⟨S32x131072, .i32⟩) main_call41_v1) (broadcastInDim S32x131072 ![] bcast_S_S32x131072),
    TRef.binary (TRef.of (T := ⟨S32x131072, .i32⟩) main_call41_v1) (TRef.of (T := ⟨S32x131072, .i32⟩) main_v423) (TRef.of (T := ⟨S32x131072, .i32⟩) main_call41_v2) maxsi,
    TRef.unary (TRef.of (T := ⟨S_, .i32⟩) main_c_193) (TRef.of (T := ⟨S_, .i32⟩) main_call41_v3) id,
    TRef.unary (TRef.of (T := ⟨S_, .i32⟩) main_call41_v3) (TRef.of (T := ⟨S32x131072, .i32⟩) main_call41_v4) (broadcastInDim S32x131072 ![] bcast_S_S32x131072),
    TRef.binary (TRef.of (T := ⟨S32x131072, .i32⟩) main_call41_v4) (TRef.of (T := ⟨S32x131072, .i32⟩) main_call41_v2) (TRef.of (T := ⟨S32x131072, .i32⟩) main_v454) minsi,
    nullary main_c_194 (constantI S_ 32 0#32),
    unary main_c_194 main_v455 (broadcastInDim S32x131072 ![] bcast_S_S32x131072 : (⟨S_, .i32⟩ : BufTy).Contents (Elt F) → (⟨S32x131072, .i32⟩ : BufTy).Contents (Elt F)),
    binary main_v454 main_v455 main_v456 (cmpi .slt : (⟨S32x131072, .i32⟩ : BufTy).Contents (Elt F) → (⟨S32x131072, .i32⟩ : BufTy).Contents (Elt F) → (⟨S32x131072, .i1⟩ : BufTy).Contents (Elt F)),
    nullary main_c_195 (constantI S_ 32 64#32),
    unary main_c_195 main_v457 (broadcastInDim S32x131072 ![] bcast_S_S32x131072 : (⟨S_, .i32⟩ : BufTy).Contents (Elt F) → (⟨S32x131072, .i32⟩ : BufTy).Contents (Elt F)),
    binary main_v454 main_v457 main_v458 (addi : (⟨S32x131072, .i32⟩ : BufTy).Contents (Elt F) → (⟨S32x131072, .i32⟩ : BufTy).Contents (Elt F) → (⟨S32x131072, .i32⟩ : BufTy).Contents (Elt F)),
    ternary main_v456 main_v458 main_v454 main_v459 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_196 (constantI S_ 32 0#32),
    unary main_c_196 main_v460 (broadcastInDim S32x131072 ![] bcast_S_S32x131072 : (⟨S_, .i32⟩ : BufTy).Contents (Elt F) → (⟨S32x131072, .i32⟩ : BufTy).Contents (Elt F)),
    binary main_v453 main_v460 main_v461 (cmpi .slt : (⟨S32x131072, .i32⟩ : BufTy).Contents (Elt F) → (⟨S32x131072, .i32⟩ : BufTy).Contents (Elt F) → (⟨S32x131072, .i1⟩ : BufTy).Contents (Elt F)),
    nullary main_c_197 (constantI S_ 32 64#32),
    unary main_c_197 main_v462 (broadcastInDim S32x131072 ![] bcast_S_S32x131072 : (⟨S_, .i32⟩ : BufTy).Contents (Elt F) → (⟨S32x131072, .i32⟩ : BufTy).Contents (Elt F)),
    binary main_v453 main_v462 main_v463 (addi : (⟨S32x131072, .i32⟩ : BufTy).Contents (Elt F) → (⟨S32x131072, .i32⟩ : BufTy).Contents (Elt F) → (⟨S32x131072, .i32⟩ : BufTy).Contents (Elt F)),
    ternary main_v461 main_v463 main_v453 main_v464 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_198 (constantI S_ 32 0#32),
    unary main_c_198 main_v465 (broadcastInDim S32x131072 ![] bcast_S_S32x131072 : (⟨S_, .i32⟩ : BufTy).Contents (Elt F) → (⟨S32x131072, .i32⟩ : BufTy).Contents (Elt F)),
    binary main_v452 main_v465 main_v466 (cmpi .slt : (⟨S32x131072, .i32⟩ : BufTy).Contents (Elt F) → (⟨S32x131072, .i32⟩ : BufTy).Contents (Elt F) → (⟨S32x131072, .i1⟩ : BufTy).Contents (Elt F)),
    nullary main_c_199 (constantI S_ 32 64#32),
    unary main_c_199 main_v467 (broadcastInDim S32x131072 ![] bcast_S_S32x131072 : (⟨S_, .i32⟩ : BufTy).Contents (Elt F) → (⟨S32x131072, .i32⟩ : BufTy).Contents (Elt F)),
    binary main_v452 main_v467 main_v468 (addi : (⟨S32x131072, .i32⟩ : BufTy).Contents (Elt F) → (⟨S32x131072, .i32⟩ : BufTy).Contents (Elt F) → (⟨S32x131072, .i32⟩ : BufTy).Contents (Elt F)),
    ternary main_v466 main_v468 main_v452 main_v469 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v459 main_v470 (broadcastInDim S32x131072x1 ![0, 1] bcast_S32x131072_S32x131072x1_0_1 : (⟨S32x131072, .i32⟩ : BufTy).Contents (Elt F) → (⟨S32x131072x1, .i32⟩ : BufTy).Contents (Elt F)),
    unary main_v464 main_v471 (broadcastInDim S32x131072x1 ![0, 1] bcast_S32x131072_S32x131072x1_0_1 : (⟨S32x131072, .i32⟩ : BufTy).Contents (Elt F) → (⟨S32x131072x1, .i32⟩ : BufTy).Contents (Elt F)),
    unary main_v469 main_v472 (broadcastInDim S32x131072x1 ![0, 1] bcast_S32x131072_S32x131072x1_0_1 : (⟨S32x131072, .i32⟩ : BufTy).Contents (Elt F) → (⟨S32x131072x1, .i32⟩ : BufTy).Contents (Elt F)),
    nary ![main_v470, main_v471, main_v472] main_v473 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v473 main_v474 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v451 main_v475 (uitofp .f32 : (⟨S32x131072, .i1⟩ : BufTy).Contents (Elt F) → (⟨S32x131072, .f32⟩ : BufTy).Contents (Elt F)),
    binary main_v434 main_v475 main_v476 (mulf : (⟨S32x131072, .f32⟩ : BufTy).Contents (Elt F) → (⟨S32x131072, .f32⟩ : BufTy).Contents (Elt F) → (⟨S32x131072, .f32⟩ : BufTy).Contents (Elt F)),
    unary main_v476 main_v477 (broadcastInDim S1x32x131072 ![1, 2] bcast_S32x131072_S1x32x131072_1_2 : (⟨S32x131072, .f32⟩ : BufTy).Contents (Elt F) → (⟨S1x32x131072, .f32⟩ : BufTy).Contents (Elt F)),
    unary main_v477 main_v478 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v474 main_v478 main_v479 (mulf : (⟨S3x32x131072, .f32⟩ : BufTy).Contents (Elt F) → (⟨S3x32x131072, .f32⟩ : BufTy).Contents (Elt F) → (⟨S3x32x131072, .f32⟩ : BufTy).Contents (Elt F)),
    binary main_v417 main_v479 main_v480 (addf : (⟨S3x32x131072, .f32⟩ : BufTy).Contents (Elt F) → (⟨S3x32x131072, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrC6 : List (Ref sig .tc) :=
  [main_c_173, main_v418, main_v419, main_c_174, main_v420, main_v421, main_c_175, main_v422, main_v423, main_cst_176, main_v424, main_v425, main_c_177, main_call36_c, main_call36_v0, main_v426, main_cst_178, main_v427, main_v428, main_c_179, main_call37_c, main_call37_v0, main_v429, main_v430, main_cst_180, main_v431, main_v432, main_c_181, main_call38_c, main_call38_v0, main_v433, main_v434, main_c_182, main_v435, main_v436, main_c_183, main_v437, main_v438, main_v439, main_c_184, main_v440, main_v441, main_v442, main_c_185, main_v443, main_v444, main_v445, main_c_186, main_v446, main_v447, main_v448, main_c_187, main_v449, main_v450, main_v451, main_c_188, main_c_189, main_call39_v0, main_call39_v1, main_call39_v2, main_call39_v3, main_call39_v4, main_v452, main_c_190, main_c_191, main_call40_v0, main_call40_v1, main_call40_v2, main_call40_v3, main_call40_v4, main_v453, main_c_192, main_c_193, main_call41_v0, main_call41_v1, main_call41_v2, main_call41_v3, main_call41_v4, main_v454, main_c_194, main_v455, main_v456, main_c_195, main_v457, main_v458, main_v459, main_c_196, main_v460, main_v461, main_c_197, main_v462, main_v463, main_v464, main_c_198, main_v465, main_v466, main_c_199, main_v467, main_v468, main_v469, main_v470, main_v471, main_v472, main_v473, main_v474, main_v475, main_v476, main_v477, main_v478, main_v479, main_v480]

set_option maxRecDepth 8192 in
/-- Every operation of the list writes its one buffer of that list. -/
theorem opsC6_writes : (opsC6 (F := F)).Forall fun op => op.writes ⊆ ((wrC6).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsC6_keep (W : Valuation τ sig (Elt F)) {r : Ref sig .tc} (hr : r ∉ wrC6) :
    after (opsC6 (F := F)) W (Proc.devRef .tc r) = W (Proc.devRef .tc r) :=
  after_of_writes_sub _ W opsC6_writes hr

/-- The corner's operations do not write this buffer. -/
theorem opsC6_arg0 (W : Valuation τ sig (Elt F)) :
    after (opsC6 (F := F)) W (Proc.devRef .tc main_arg0) = W (Proc.devRef .tc main_arg0) :=
  opsC6_keep W (by decide)

/-- The corner's operations do not write this buffer. -/
theorem opsC6_arg1 (W : Valuation τ sig (Elt F)) :
    after (opsC6 (F := F)) W (Proc.devRef .tc main_arg1) = W (Proc.devRef .tc main_arg1) :=
  opsC6_keep W (by decide)

/-- The corner's operations do not write this buffer. -/
theorem opsC6_v33 (W : Valuation τ sig (Elt F)) :
    after (opsC6 (F := F)) W (Proc.devRef .tc main_v33) = W (Proc.devRef .tc main_v33) :=
  opsC6_keep W (by decide)

/-- The corner's operations do not write this buffer. -/
theorem opsC6_v34 (W : Valuation τ sig (Elt F)) :
    after (opsC6 (F := F)) W (Proc.devRef .tc main_v34) = W (Proc.devRef .tc main_v34) :=
  opsC6_keep W (by decide)

/-- The corner's operations do not write this buffer. -/
theorem opsC6_v35 (W : Valuation τ sig (Elt F)) :
    after (opsC6 (F := F)) W (Proc.devRef .tc main_v35) = W (Proc.devRef .tc main_v35) :=
  opsC6_keep W (by decide)

/-- The corner's operations do not write this buffer. -/
theorem opsC6_v36 (W : Valuation τ sig (Elt F)) :
    after (opsC6 (F := F)) W (Proc.devRef .tc main_v36) = W (Proc.devRef .tc main_v36) :=
  opsC6_keep W (by decide)

/-- The corner's operations do not write this buffer. -/
theorem opsC6_v37 (W : Valuation τ sig (Elt F)) :
    after (opsC6 (F := F)) W (Proc.devRef .tc main_v37) = W (Proc.devRef .tc main_v37) :=
  opsC6_keep W (by decide)

/-- The corner's operations do not write this buffer. -/
theorem opsC6_v38 (W : Valuation τ sig (Elt F)) :
    after (opsC6 (F := F)) W (Proc.devRef .tc main_v38) = W (Proc.devRef .tc main_v38) :=
  opsC6_keep W (by decide)

end Cert.RefRun

end
-- ==== Proof.RefRunW9.lean ====
/-
  Window 9 of the reference's @main (operations 651 to 725 of 943, counting from 0) is the straight line of those
  operations: the called functions' bodies are unfolded at their calls and the sequencing re-associated. The same
  operations are a stretch of the reference's lists cut before the corners, per corner and after them.
-/
import proofs.«174278_j48524540510565_1_alg».proof.Proof.RefRunC5
import proofs.«174278_j48524540510565_1_alg».proof.Proof.RefRunC6

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW9 : List (HloOp τ sig (Elt F)) :=
  [ nullary main_c_158 (constantI S_ 32 64#32),
    unary main_c_158 main_v380 (broadcastInDim S32x131072 ![] bcast_S_S32x131072 : (⟨S_, .i32⟩ : BufTy).Contents (Elt F) → (⟨S32x131072, .i32⟩ : BufTy).Contents (Elt F)),
    binary main_v358 main_v380 main_v381 (cmpi .slt : (⟨S32x131072, .i32⟩ : BufTy).Contents (Elt F) → (⟨S32x131072, .i32⟩ : BufTy).Contents (Elt F) → (⟨S32x131072, .i1⟩ : BufTy).Contents (Elt F)),
    binary main_v379 main_v381 main_v382 (andi : (⟨S32x131072, .i1⟩ : BufTy).Contents (Elt F) → (⟨S32x131072, .i1⟩ : BufTy).Contents (Elt F) → (⟨S32x131072, .i1⟩ : BufTy).Contents (Elt F)),
    nullary main_c_159 (constantI S_ 32 0#32),
    unary main_c_159 main_v383 (broadcastInDim S32x131072 ![] bcast_S_S32x131072 : (⟨S_, .i32⟩ : BufTy).Contents (Elt F) → (⟨S32x131072, .i32⟩ : BufTy).Contents (Elt F)),
    binary main_v360 main_v383 main_v384 (cmpi .sge : (⟨S32x131072, .i32⟩ : BufTy).Contents (Elt F) → (⟨S32x131072, .i32⟩ : BufTy).Contents (Elt F) → (⟨S32x131072, .i1⟩ : BufTy).Contents (Elt F)),
    binary main_v382 main_v384 main_v385 (andi : (⟨S32x131072, .i1⟩ : BufTy).Contents (Elt F) → (⟨S32x131072, .i1⟩ : BufTy).Contents (Elt F) → (⟨S32x131072, .i1⟩ : BufTy).Contents (Elt F)),
    nullary main_c_160 (constantI S_ 32 64#32),
    unary main_c_160 main_v386 (broadcastInDim S32x131072 ![] bcast_S_S32x131072 : (⟨S_, .i32⟩ : BufTy).Contents (Elt F) → (⟨S32x131072, .i32⟩ : BufTy).Contents (Elt F)),
    binary main_v360 main_v386 main_v387 (cmpi .slt : (⟨S32x131072, .i32⟩ : BufTy).Contents (Elt F) → (⟨S32x131072, .i32⟩ : BufTy).Contents (Elt F) → (⟨S32x131072, .i1⟩ : BufTy).Contents (Elt F)),
    binary main_v385 main_v387 main_v388 (andi : (⟨S32x131072, .i1⟩ : BufTy).Contents (Elt F) → (⟨S32x131072, .i1⟩ : BufTy).Contents (Elt F) → (⟨S32x131072, .i1⟩ : BufTy).Contents (Elt F)),
    nullary main_c_161 (constantI S_ 32 0#32),
    nullary main_c_162 (constantI S_ 32 63#32),
    TRef.unary (TRef.of (T := ⟨S_, .i32⟩) main_c_161) (TRef.of (T := ⟨S_, .i32⟩) main_call33_v0) id,
    TRef.unary (TRef.of (T := ⟨S_, .i32⟩) main_call33_v0) (TRef.of (T := ⟨S32x131072, .i32⟩) main_call33_v1) (broadcastInDim S32x131072 ![] bcast_S_S32x131072),
    TRef.binary (TRef.of (T := ⟨S32x131072, .i32⟩) main_call33_v1) (TRef.of (T := ⟨S32x131072, .i32⟩) main_v356) (TRef.of (T := ⟨S32x131072, .i32⟩) main_call33_v2) maxsi,
    TRef.unary (TRef.of (T := ⟨S_, .i32⟩) main_c_162) (TRef.of (T := ⟨S_, .i32⟩) main_call33_v3) id,
    TRef.unary (TRef.of (T := ⟨S_, .i32⟩) main_call33_v3) (TRef.of (T := ⟨S32x131072, .i32⟩) main_call33_v4) (broadcastInDim S32x131072 ![] bcast_S_S32x131072),
    TRef.binary (TRef.of (T := ⟨S32x131072, .i32⟩) main_call33_v4) (TRef.of (T := ⟨S32x131072, .i32⟩) main_call33_v2) (TRef.of (T := ⟨S32x131072, .i32⟩) main_v389) minsi,
    nullary main_c_163 (constantI S_ 32 0#32),
    nullary main_c_164 (constantI S_ 32 63#32),
    TRef.unary (TRef.of (T := ⟨S_, .i32⟩) main_c_163) (TRef.of (T := ⟨S_, .i32⟩) main_call34_v0) id,
    TRef.unary (TRef.of (T := ⟨S_, .i32⟩) main_call34_v0) (TRef.of (T := ⟨S32x131072, .i32⟩) main_call34_v1) (broadcastInDim S32x131072 ![] bcast_S_S32x131072),
    TRef.binary (TRef.of (T := ⟨S32x131072, .i32⟩) main_call34_v1) (TRef.of (T := ⟨S32x131072, .i32⟩) main_v358) (TRef.of (T := ⟨S32x131072, .i32⟩) main_call34_v2) maxsi,
    TRef.unary (TRef.of (T := ⟨S_, .i32⟩) main_c_164) (TRef.of (T := ⟨S_, .i32⟩) main_call34_v3) id,
    TRef.unary (TRef.of (T := ⟨S_, .i32⟩) main_call34_v3) (TRef.of (T := ⟨S32x131072, .i32⟩) main_call34_v4) (broadcastInDim S32x131072 ![] bcast_S_S32x131072),
    TRef.binary (TRef.of (T := ⟨S32x131072, .i32⟩) main_call34_v4) (TRef.of (T := ⟨S32x131072, .i32⟩) main_call34_v2) (TRef.of (T := ⟨S32x131072, .i32⟩) main_v390) minsi,
    nullary main_c_165 (constantI S_ 32 0#32),
    nullary main_c_166 (constantI S_ 32 63#32),
    TRef.unary (TRef.of (T := ⟨S_, .i32⟩) main_c_165) (TRef.of (T := ⟨S_, .i32⟩) main_call35_v0) id,
    TRef.unary (TRef.of (T := ⟨S_, .i32⟩) main_call35_v0) (TRef.of (T := ⟨S32x131072, .i32⟩) main_call35_v1) (broadcastInDim S32x131072 ![] bcast_S_S32x131072),
    TRef.binary (TRef.of (T := ⟨S32x131072, .i32⟩) main_call35_v1) (TRef.of (T := ⟨S32x131072, .i32⟩) main_v360) (TRef.of (T := ⟨S32x131072, .i32⟩) main_call35_v2) maxsi,
    TRef.unary (TRef.of (T := ⟨S_, .i32⟩) main_c_166) (TRef.of (T := ⟨S_, .i32⟩) main_call35_v3) id,
    TRef.unary (TRef.of (T := ⟨S_, .i32⟩) main_call35_v3) (TRef.of (T := ⟨S32x131072, .i32⟩) main_call35_v4) (broadcastInDim S32x131072 ![] bcast_S_S32x131072),
    TRef.binary (TRef.of (T := ⟨S32x131072, .i32⟩) main_call35_v4) (TRef.of (T := ⟨S32x131072, .i32⟩) main_call35_v2) (TRef.of (T := ⟨S32x131072, .i32⟩) main_v391) minsi,
    nullary main_c_167 (constantI S_ 32 0#32),
    unary main_c_167 main_v392 (broadcastInDim S32x131072 ![] bcast_S_S32x131072 : (⟨S_, .i32⟩ : BufTy).Contents (Elt F) → (⟨S32x131072, .i32⟩ : BufTy).Contents (Elt F)),
    binary main_v391 main_v392 main_v393 (cmpi .slt : (⟨S32x131072, .i32⟩ : BufTy).Contents (Elt F) → (⟨S32x131072, .i32⟩ : BufTy).Contents (Elt F) → (⟨S32x131072, .i1⟩ : BufTy).Contents (Elt F)),
    nullary main_c_168 (constantI S_ 32 64#32),
    unary main_c_168 main_v394 (broadcastInDim S32x131072 ![] bcast_S_S32x131072 : (⟨S_, .i32⟩ : BufTy).Contents (Elt F) → (⟨S32x131072, .i32⟩ : BufTy).Contents (Elt F)),
    binary main_v391 main_v394 main_v395 (addi : (⟨S32x131072, .i32⟩ : BufTy).Contents (Elt F) → (⟨S32x131072, .i32⟩ : BufTy).Contents (Elt F) → (⟨S32x131072, .i32⟩ : BufTy).Contents (Elt F)),
    ternary main_v393 main_v395 main_v391 main_v396 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_169 (constantI S_ 32 0#32),
    unary main_c_169 main_v397 (broadcastInDim S32x131072 ![] bcast_S_S32x131072 : (⟨S_, .i32⟩ : BufTy).Contents (Elt F) → (⟨S32x131072, .i32⟩ : BufTy).Contents (Elt F)),
    binary main_v390 main_v397 main_v398 (cmpi .slt : (⟨S32x131072, .i32⟩ : BufTy).Contents (Elt F) → (⟨S32x131072, .i32⟩ : BufTy).Contents (Elt F) → (⟨S32x131072, .i1⟩ : BufTy).Contents (Elt F)),
    nullary main_c_170 (constantI S_ 32 64#32),
    unary main_c_170 main_v399 (broadcastInDim S32x131072 ![] bcast_S_S32x131072 : (⟨S_, .i32⟩ : BufTy).Contents (Elt F) → (⟨S32x131072, .i32⟩ : BufTy).Contents (Elt F)),
    binary main_v390 main_v399 main_v400 (addi : (⟨S32x131072, .i32⟩ : BufTy).Contents (Elt F) → (⟨S32x131072, .i32⟩ : BufTy).Contents (Elt F) → (⟨S32x131072, .i32⟩ : BufTy).Contents (Elt F)),
    ternary main_v398 main_v400 main_v390 main_v401 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_171 (constantI S_ 32 0#32),
    unary main_c_171 main_v402 (broadcastInDim S32x131072 ![] bcast_S_S32x131072 : (⟨S_, .i32⟩ : BufTy).Contents (Elt F) → (⟨S32x131072, .i32⟩ : BufTy).Contents (Elt F)),
    binary main_v389 main_v402 main_v403 (cmpi .slt : (⟨S32x131072, .i32⟩ : BufTy).Contents (Elt F) → (⟨S32x131072, .i32⟩ : BufTy).Contents (Elt F) → (⟨S32x131072, .i1⟩ : BufTy).Contents (Elt F)),
    nullary main_c_172 (constantI S_ 32 64#32),
    unary main_c_172 main_v404 (broadcastInDim S32x131072 ![] bcast_S_S32x131072 : (⟨S_, .i32⟩ : BufTy).Contents (Elt F) → (⟨S32x131072, .i32⟩ : BufTy).Contents (Elt F)),
    binary main_v389 main_v404 main_v405 (addi : (⟨S32x131072, .i32⟩ : BufTy).Contents (Elt F) → (⟨S32x131072, .i32⟩ : BufTy).Contents (Elt F) → (⟨S32x131072, .i32⟩ : BufTy).Contents (Elt F)),
    ternary main_v403 main_v405 main_v389 main_v406 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v396 main_v407 (broadcastInDim S32x131072x1 ![0, 1] bcast_S32x131072_S32x131072x1_0_1 : (⟨S32x131072, .i32⟩ : BufTy).Contents (Elt F) → (⟨S32x131072x1, .i32⟩ : BufTy).Contents (Elt F)),
    unary main_v401 main_v408 (broadcastInDim S32x131072x1 ![0, 1] bcast_S32x131072_S32x131072x1_0_1 : (⟨S32x131072, .i32⟩ : BufTy).Contents (Elt F) → (⟨S32x131072x1, .i32⟩ : BufTy).Contents (Elt F)),
    unary main_v406 main_v409 (broadcastInDim S32x131072x1 ![0, 1] bcast_S32x131072_S32x131072x1_0_1 : (⟨S32x131072, .i32⟩ : BufTy).Contents (Elt F) → (⟨S32x131072x1, .i32⟩ : BufTy).Contents (Elt F)),
    nary ![main_v407, main_v408, main_v409] main_v410 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v410 main_v411 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v388 main_v412 (uitofp .f32 : (⟨S32x131072, .i1⟩ : BufTy).Contents (Elt F) → (⟨S32x131072, .f32⟩ : BufTy).Contents (Elt F)),
    binary main_v371 main_v412 main_v413 (mulf : (⟨S32x131072, .f32⟩ : BufTy).Contents (Elt F) → (⟨S32x131072, .f32⟩ : BufTy).Contents (Elt F) → (⟨S32x131072, .f32⟩ : BufTy).Contents (Elt F)),
    unary main_v413 main_v414 (broadcastInDim S1x32x131072 ![1, 2] bcast_S32x131072_S1x32x131072_1_2 : (⟨S32x131072, .f32⟩ : BufTy).Contents (Elt F) → (⟨S1x32x131072, .f32⟩ : BufTy).Contents (Elt F)),
    unary main_v414 main_v415 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v411 main_v415 main_v416 (mulf : (⟨S3x32x131072, .f32⟩ : BufTy).Contents (Elt F) → (⟨S3x32x131072, .f32⟩ : BufTy).Contents (Elt F) → (⟨S3x32x131072, .f32⟩ : BufTy).Contents (Elt F)),
    binary main_v354 main_v416 main_v417 (addf : (⟨S3x32x131072, .f32⟩ : BufTy).Contents (Elt F) → (⟨S3x32x131072, .f32⟩ : BufTy).Contents (Elt F) → (⟨S3x32x131072, .f32⟩ : BufTy).Contents (Elt F)),
    nullary main_c_173 (constantI S_ 32 1#32),
    unary main_c_173 main_v418 (broadcastInDim S32x131072 ![] bcast_S_S32x131072 : (⟨S_, .i32⟩ : BufTy).Contents (Elt F) → (⟨S32x131072, .i32⟩ : BufTy).Contents (Elt F)),
    binary main_v36 main_v418 main_v419 (addi : (⟨S32x131072, .i32⟩ : BufTy).Contents (Elt F) → (⟨S32x131072, .i32⟩ : BufTy).Contents (Elt F) → (⟨S32x131072, .i32⟩ : BufTy).Contents (Elt F)),
    nullary main_c_174 (constantI S_ 32 1#32),
    unary main_c_174 main_v420 (broadcastInDim S32x131072 ![] bcast_S_S32x131072 : (⟨S_, .i32⟩ : BufTy).Contents (Elt F) → (⟨S32x131072, .i32⟩ : BufTy).Contents (Elt F)),
    binary main_v37 main_v420 main_v421 (addi : (⟨S32x131072, .i32⟩ : BufTy).Contents (Elt F) → (⟨S32x131072, .i32⟩ : BufTy).Contents (Elt F) → (⟨S32x131072, .i32⟩ : BufTy).Contents (Elt F)),
    nullary main_c_175 (constantI S_ 32 0#32) ]

set_option maxRecDepth 4096 in
set_option maxHeartbeats 4000000 in
/-- The window is the straight line of its operations. -/
theorem part9_eq (c : Dev nD) : main_part9 (F := F) c = seq opsW9 := by
  simp only [main_part9, fn_where.body, fn_clip.body, seq, bind_assoc, pure_bind]
  rfl

set_option maxRecDepth 8192 in
/-- The window's operations as a stretch of the cut lists. -/
theorem opsW9_eq : (opsW9 (F := F)) = List.drop 43 opsC5 ++ (List.take 7 opsC6) := rfl

end Cert.RefRun

end
-- ==== Proof.RefRunW10.lean ====
/-
  Window 10 of the reference's @main (operations 726 to 806 of 943, counting from 0) is the straight line of those
  operations: the called functions' bodies are unfolded at their calls and the sequencing re-associated. The same
  operations are a stretch of the reference's lists cut before the corners, per corner and after them.
-/
import proofs.«174278_j48524540510565_1_alg».proof.Proof.RefRunC6

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW10 : List (HloOp τ sig (Elt F)) :=
  [ unary main_c_175 main_v422 (broadcastInDim S32x131072 ![] bcast_S_S32x131072 : (⟨S_, .i32⟩ : BufTy).Contents (Elt F) → (⟨S32x131072, .i32⟩ : BufTy).Contents (Elt F)),
    binary main_v38 main_v422 main_v423 (addi : (⟨S32x131072, .i32⟩ : BufTy).Contents (Elt F) → (⟨S32x131072, .i32⟩ : BufTy).Contents (Elt F) → (⟨S32x131072, .i32⟩ : BufTy).Contents (Elt F)),
    nullary main_cst_176 (constant S_ .f32 0x3F800000#32),
    unary main_cst_176 main_v424 (broadcastInDim S32x131072 ![] bcast_S_S32x131072 : (⟨S_, .f32⟩ : BufTy).Contents (Elt F) → (⟨S32x131072, .f32⟩ : BufTy).Contents (Elt F)),
    binary main_v424 main_v33 main_v425 (subf : (⟨S32x131072, .f32⟩ : BufTy).Contents (Elt F) → (⟨S32x131072, .f32⟩ : BufTy).Contents (Elt F) → (⟨S32x131072, .f32⟩ : BufTy).Contents (Elt F)),
    nullary main_c_177 (constantI S_ 32 1#32),
    TRef.nullary (TRef.of (T := ⟨S_, .i32⟩) main_call36_c) (constantI S_ 32 0#32),
    TRef.binary (TRef.of (T := ⟨S_, .i32⟩) main_c_177) (TRef.of (T := ⟨S_, .i32⟩) main_call36_c) (TRef.of (T := ⟨S_, .i1⟩) main_call36_v0) (cmpi .ne),
    TRef.ternary (TRef.of (T := ⟨S_, .i1⟩) main_call36_v0) (TRef.of (T := ⟨S32x131072, .f32⟩) main_v33) (TRef.of (T := ⟨S32x131072, .f32⟩) main_v425) (TRef.of (T := ⟨S32x131072, .f32⟩) main_v426) (fun p a b => select (broadcastInDim S32x131072 ![] bcast_S_S32x131072 p) a b),
    nullary main_cst_178 (constant S_ .f32 0x3F800000#32),
    unary main_cst_178 main_v427 (broadcastInDim S32x131072 ![] bcast_S_S32x131072 : (⟨S_, .f32⟩ : BufTy).Contents (Elt F) → (⟨S32x131072, .f32⟩ : BufTy).Contents (Elt F)),
    binary main_v427 main_v34 main_v428 (subf : (⟨S32x131072, .f32⟩ : BufTy).Contents (Elt F) → (⟨S32x131072, .f32⟩ : BufTy).Contents (Elt F) → (⟨S32x131072, .f32⟩ : BufTy).Contents (Elt F)),
    nullary main_c_179 (constantI S_ 32 1#32),
    TRef.nullary (TRef.of (T := ⟨S_, .i32⟩) main_call37_c) (constantI S_ 32 0#32),
    TRef.binary (TRef.of (T := ⟨S_, .i32⟩) main_c_179) (TRef.of (T := ⟨S_, .i32⟩) main_call37_c) (TRef.of (T := ⟨S_, .i1⟩) main_call37_v0) (cmpi .ne),
    TRef.ternary (TRef.of (T := ⟨S_, .i1⟩) main_call37_v0) (TRef.of (T := ⟨S32x131072, .f32⟩) main_v34) (TRef.of (T := ⟨S32x131072, .f32⟩) main_v428) (TRef.of (T := ⟨S32x131072, .f32⟩) main_v429) (fun p a b => select (broadcastInDim S32x131072 ![] bcast_S_S32x131072 p) a b),
    binary main_v426 main_v429 main_v430 (mulf : (⟨S32x131072, .f32⟩ : BufTy).Contents (Elt F) → (⟨S32x131072, .f32⟩ : BufTy).Contents (Elt F) → (⟨S32x131072, .f32⟩ : BufTy).Contents (Elt F)),
    nullary main_cst_180 (constant S_ .f32 0x3F800000#32),
    unary main_cst_180 main_v431 (broadcastInDim S32x131072 ![] bcast_S_S32x131072 : (⟨S_, .f32⟩ : BufTy).Contents (Elt F) → (⟨S32x131072, .f32⟩ : BufTy).Contents (Elt F)),
    binary main_v431 main_v35 main_v432 (subf : (⟨S32x131072, .f32⟩ : BufTy).Contents (Elt F) → (⟨S32x131072, .f32⟩ : BufTy).Contents (Elt F) → (⟨S32x131072, .f32⟩ : BufTy).Contents (Elt F)),
    nullary main_c_181 (constantI S_ 32 0#32),
    TRef.nullary (TRef.of (T := ⟨S_, .i32⟩) main_call38_c) (constantI S_ 32 0#32),
    TRef.binary (TRef.of (T := ⟨S_, .i32⟩) main_c_181) (TRef.of (T := ⟨S_, .i32⟩) main_call38_c) (TRef.of (T := ⟨S_, .i1⟩) main_call38_v0) (cmpi .ne),
    TRef.ternary (TRef.of (T := ⟨S_, .i1⟩) main_call38_v0) (TRef.of (T := ⟨S32x131072, .f32⟩) main_v35) (TRef.of (T := ⟨S32x131072, .f32⟩) main_v432) (TRef.of (T := ⟨S32x131072, .f32⟩) main_v433) (fun p a b => select (broadcastInDim S32x131072 ![] bcast_S_S32x131072 p) a b),
    binary main_v430 main_v433 main_v434 (mulf : (⟨S32x131072, .f32⟩ : BufTy).Contents (Elt F) → (⟨S32x131072, .f32⟩ : BufTy).Contents (Elt F) → (⟨S32x131072, .f32⟩ : BufTy).Contents (Elt F)),
    nullary main_c_182 (constantI S_ 32 0#32),
    unary main_c_182 main_v435 (broadcastInDim S32x131072 ![] bcast_S_S32x131072 : (⟨S_, .i32⟩ : BufTy).Contents (Elt F) → (⟨S32x131072, .i32⟩ : BufTy).Contents (Elt F)),
    binary main_v419 main_v435 main_v436 (cmpi .sge : (⟨S32x131072, .i32⟩ : BufTy).Contents (Elt F) → (⟨S32x131072, .i32⟩ : BufTy).Contents (Elt F) → (⟨S32x131072, .i1⟩ : BufTy).Contents (Elt F)),
    nullary main_c_183 (constantI S_ 32 64#32),
    unary main_c_183 main_v437 (broadcastInDim S32x131072 ![] bcast_S_S32x131072 : (⟨S_, .i32⟩ : BufTy).Contents (Elt F) → (⟨S32x131072, .i32⟩ : BufTy).Contents (Elt F)),
    binary main_v419 main_v437 main_v438 (cmpi .slt : (⟨S32x131072, .i32⟩ : BufTy).Contents (Elt F) → (⟨S32x131072, .i32⟩ : BufTy).Contents (Elt F) → (⟨S32x131072, .i1⟩ : BufTy).Contents (Elt F)),
    binary main_v436 main_v438 main_v439 (andi : (⟨S32x131072, .i1⟩ : BufTy).Contents (Elt F) → (⟨S32x131072, .i1⟩ : BufTy).Contents (Elt F) → (⟨S32x131072, .i1⟩ : BufTy).Contents (Elt F)),
    nullary main_c_184 (constantI S_ 32 0#32),
    unary main_c_184 main_v440 (broadcastInDim S32x131072 ![] bcast_S_S32x131072 : (⟨S_, .i32⟩ : BufTy).Contents (Elt F) → (⟨S32x131072, .i32⟩ : BufTy).Contents (Elt F)),
    binary main_v421 main_v440 main_v441 (cmpi .sge : (⟨S32x131072, .i32⟩ : BufTy).Contents (Elt F) → (⟨S32x131072, .i32⟩ : BufTy).Contents (Elt F) → (⟨S32x131072, .i1⟩ : BufTy).Contents (Elt F)),
    binary main_v439 main_v441 main_v442 (andi : (⟨S32x131072, .i1⟩ : BufTy).Contents (Elt F) → (⟨S32x131072, .i1⟩ : BufTy).Contents (Elt F) → (⟨S32x131072, .i1⟩ : BufTy).Contents (Elt F)),
    nullary main_c_185 (constantI S_ 32 64#32),
    unary main_c_185 main_v443 (broadcastInDim S32x131072 ![] bcast_S_S32x131072 : (⟨S_, .i32⟩ : BufTy).Contents (Elt F) → (⟨S32x131072, .i32⟩ : BufTy).Contents (Elt F)),
    binary main_v421 main_v443 main_v444 (cmpi .slt : (⟨S32x131072, .i32⟩ : BufTy).Contents (Elt F) → (⟨S32x131072, .i32⟩ : BufTy).Contents (Elt F) → (⟨S32x131072, .i1⟩ : BufTy).Contents (Elt F)),
    binary main_v442 main_v444 main_v445 (andi : (⟨S32x131072, .i1⟩ : BufTy).Contents (Elt F) → (⟨S32x131072, .i1⟩ : BufTy).Contents (Elt F) → (⟨S32x131072, .i1⟩ : BufTy).Contents (Elt F)),
    nullary main_c_186 (constantI S_ 32 0#32),
    unary main_c_186 main_v446 (broadcastInDim S32x131072 ![] bcast_S_S32x131072 : (⟨S_, .i32⟩ : BufTy).Contents (Elt F) → (⟨S32x131072, .i32⟩ : BufTy).Contents (Elt F)),
    binary main_v423 main_v446 main_v447 (cmpi .sge : (⟨S32x131072, .i32⟩ : BufTy).Contents (Elt F) → (⟨S32x131072, .i32⟩ : BufTy).Contents (Elt F) → (⟨S32x131072, .i1⟩ : BufTy).Contents (Elt F)),
    binary main_v445 main_v447 main_v448 (andi : (⟨S32x131072, .i1⟩ : BufTy).Contents (Elt F) → (⟨S32x131072, .i1⟩ : BufTy).Contents (Elt F) → (⟨S32x131072, .i1⟩ : BufTy).Contents (Elt F)),
    nullary main_c_187 (constantI S_ 32 64#32),
    unary main_c_187 main_v449 (broadcastInDim S32x131072 ![] bcast_S_S32x131072 : (⟨S_, .i32⟩ : BufTy).Contents (Elt F) → (⟨S32x131072, .i32⟩ : BufTy).Contents (Elt F)),
    binary main_v423 main_v449 main_v450 (cmpi .slt : (⟨S32x131072, .i32⟩ : BufTy).Contents (Elt F) → (⟨S32x131072, .i32⟩ : BufTy).Contents (Elt F) → (⟨S32x131072, .i1⟩ : BufTy).Contents (Elt F)),
    binary main_v448 main_v450 main_v451 (andi : (⟨S32x131072, .i1⟩ : BufTy).Contents (Elt F) → (⟨S32x131072, .i1⟩ : BufTy).Contents (Elt F) → (⟨S32x131072, .i1⟩ : BufTy).Contents (Elt F)),
    nullary main_c_188 (constantI S_ 32 0#32),
    nullary main_c_189 (constantI S_ 32 63#32),
    TRef.unary (TRef.of (T := ⟨S_, .i32⟩) main_c_188) (TRef.of (T := ⟨S_, .i32⟩) main_call39_v0) id,
    TRef.unary (TRef.of (T := ⟨S_, .i32⟩) main_call39_v0) (TRef.of (T := ⟨S32x131072, .i32⟩) main_call39_v1) (broadcastInDim S32x131072 ![] bcast_S_S32x131072),
    TRef.binary (TRef.of (T := ⟨S32x131072, .i32⟩) main_call39_v1) (TRef.of (T := ⟨S32x131072, .i32⟩) main_v419) (TRef.of (T := ⟨S32x131072, .i32⟩) main_call39_v2) maxsi,
    TRef.unary (TRef.of (T := ⟨S_, .i32⟩) main_c_189) (TRef.of (T := ⟨S_, .i32⟩) main_call39_v3) id,
    TRef.unary (TRef.of (T := ⟨S_, .i32⟩) main_call39_v3) (TRef.of (T := ⟨S32x131072, .i32⟩) main_call39_v4) (broadcastInDim S32x131072 ![] bcast_S_S32x131072),
    TRef.binary (TRef.of (T := ⟨S32x131072, .i32⟩) main_call39_v4) (TRef.of (T := ⟨S32x131072, .i32⟩) main_call39_v2) (TRef.of (T := ⟨S32x131072, .i32⟩) main_v452) minsi,
    nullary main_c_190 (constantI S_ 32 0#32),
    nullary main_c_191 (constantI S_ 32 63#32),
    TRef.unary (TRef.of (T := ⟨S_, .i32⟩) main_c_190) (TRef.of (T := ⟨S_, .i32⟩) main_call40_v0) id,
    TRef.unary (TRef.of (T := ⟨S_, .i32⟩) main_call40_v0) (TRef.of (T := ⟨S32x131072, .i32⟩) main_call40_v1) (broadcastInDim S32x131072 ![] bcast_S_S32x131072),
    TRef.binary (TRef.of (T := ⟨S32x131072, .i32⟩) main_call40_v1) (TRef.of (T := ⟨S32x131072, .i32⟩) main_v421) (TRef.of (T := ⟨S32x131072, .i32⟩) main_call40_v2) maxsi,
    TRef.unary (TRef.of (T := ⟨S_, .i32⟩) main_c_191) (TRef.of (T := ⟨S_, .i32⟩) main_call40_v3) id,
    TRef.unary (TRef.of (T := ⟨S_, .i32⟩) main_call40_v3) (TRef.of (T := ⟨S32x131072, .i32⟩) main_call40_v4) (broadcastInDim S32x131072 ![] bcast_S_S32x131072),
    TRef.binary (TRef.of (T := ⟨S32x131072, .i32⟩) main_call40_v4) (TRef.of (T := ⟨S32x131072, .i32⟩) main_call40_v2) (TRef.of (T := ⟨S32x131072, .i32⟩) main_v453) minsi,
    nullary main_c_192 (constantI S_ 32 0#32),
    nullary main_c_193 (constantI S_ 32 63#32),
    TRef.unary (TRef.of (T := ⟨S_, .i32⟩) main_c_192) (TRef.of (T := ⟨S_, .i32⟩) main_call41_v0) id,
    TRef.unary (TRef.of (T := ⟨S_, .i32⟩) main_call41_v0) (TRef.of (T := ⟨S32x131072, .i32⟩) main_call41_v1) (broadcastInDim S32x131072 ![] bcast_S_S32x131072),
    TRef.binary (TRef.of (T := ⟨S32x131072, .i32⟩) main_call41_v1) (TRef.of (T := ⟨S32x131072, .i32⟩) main_v423) (TRef.of (T := ⟨S32x131072, .i32⟩) main_call41_v2) maxsi,
    TRef.unary (TRef.of (T := ⟨S_, .i32⟩) main_c_193) (TRef.of (T := ⟨S_, .i32⟩) main_call41_v3) id,
    TRef.unary (TRef.of (T := ⟨S_, .i32⟩) main_call41_v3) (TRef.of (T := ⟨S32x131072, .i32⟩) main_call41_v4) (broadcastInDim S32x131072 ![] bcast_S_S32x131072),
    TRef.binary (TRef.of (T := ⟨S32x131072, .i32⟩) main_call41_v4) (TRef.of (T := ⟨S32x131072, .i32⟩) main_call41_v2) (TRef.of (T := ⟨S32x131072, .i32⟩) main_v454) minsi,
    nullary main_c_194 (constantI S_ 32 0#32),
    unary main_c_194 main_v455 (broadcastInDim S32x131072 ![] bcast_S_S32x131072 : (⟨S_, .i32⟩ : BufTy).Contents (Elt F) → (⟨S32x131072, .i32⟩ : BufTy).Contents (Elt F)),
    binary main_v454 main_v455 main_v456 (cmpi .slt : (⟨S32x131072, .i32⟩ : BufTy).Contents (Elt F) → (⟨S32x131072, .i32⟩ : BufTy).Contents (Elt F) → (⟨S32x131072, .i1⟩ : BufTy).Contents (Elt F)),
    nullary main_c_195 (constantI S_ 32 64#32),
    unary main_c_195 main_v457 (broadcastInDim S32x131072 ![] bcast_S_S32x131072 : (⟨S_, .i32⟩ : BufTy).Contents (Elt F) → (⟨S32x131072, .i32⟩ : BufTy).Contents (Elt F)),
    binary main_v454 main_v457 main_v458 (addi : (⟨S32x131072, .i32⟩ : BufTy).Contents (Elt F) → (⟨S32x131072, .i32⟩ : BufTy).Contents (Elt F) → (⟨S32x131072, .i32⟩ : BufTy).Contents (Elt F)),
    ternary main_v456 main_v458 main_v454 main_v459 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_196 (constantI S_ 32 0#32),
    unary main_c_196 main_v460 (broadcastInDim S32x131072 ![] bcast_S_S32x131072 : (⟨S_, .i32⟩ : BufTy).Contents (Elt F) → (⟨S32x131072, .i32⟩ : BufTy).Contents (Elt F)) ]

set_option maxRecDepth 4096 in
set_option maxHeartbeats 4000000 in
/-- The window is the straight line of its operations. -/
theorem part10_eq (c : Dev nD) : main_part10 (F := F) c = seq opsW10 := by
  simp only [main_part10, fn_where.body, fn_clip.body, seq, bind_assoc, pure_bind]
  rfl

set_option maxRecDepth 8192 in
/-- The window's operations as a stretch of the cut lists. -/
theorem opsW10_eq : (opsW10 (F := F)) = List.take 81 (List.drop 7 opsC6) := rfl

end Cert.RefRun

end
-- ==== Proof.RefRunC7.lean ====
/-
  The operations of corner (dx, dy, dz) = (1, 1, 1) of the eight-corner sum, as a list, the buffers the list writes
  (one per operation), and what it therefore leaves alone from any contents W: the two argument buffers and the six
  buffers of cells and fractional parts.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Corner (1, 1, 1)'s operations, in order. -/
abbrev opsC7 : List (HloOp τ sig (Elt F)) :=
  [ nullary main_c_200 (constantI S_ 32 1#32),
    unary main_c_200 main_v481 (broadcastInDim S32x131072 ![] bcast_S_S32x131072 : (⟨S_, .i32⟩ : BufTy).Contents (Elt F) → (⟨S32x131072, .i32⟩ : BufTy).Contents (Elt F)),
    binary main_v36 main_v481 main_v482 (addi : (⟨S32x131072, .i32⟩ : BufTy).Contents (Elt F) → (⟨S32x131072, .i32⟩ : BufTy).Contents (Elt F) → (⟨S32x131072, .i32⟩ : BufTy).Contents (Elt F)),
    nullary main_c_201 (constantI S_ 32 1#32),
    unary main_c_201 main_v483 (broadcastInDim S32x131072 ![] bcast_S_S32x131072 : (⟨S_, .i32⟩ : BufTy).Contents (Elt F) → (⟨S32x131072, .i32⟩ : BufTy).Contents (Elt F)),
    binary main_v37 main_v483 main_v484 (addi : (⟨S32x131072, .i32⟩ : BufTy).Contents (Elt F) → (⟨S32x131072, .i32⟩ : BufTy).Contents (Elt F) → (⟨S32x131072, .i32⟩ : BufTy).Contents (Elt F)),
    nullary main_c_202 (constantI S_ 32 1#32),
    unary main_c_202 main_v485 (broadcastInDim S32x131072 ![] bcast_S_S32x131072 : (⟨S_, .i32⟩ : BufTy).Contents (Elt F) → (⟨S32x131072, .i32⟩ : BufTy).Contents (Elt F)),
    binary main_v38 main_v485 main_v486 (addi : (⟨S32x131072, .i32⟩ : BufTy).Contents (Elt F) → (⟨S32x131072, .i32⟩ : BufTy).Contents (Elt F) → (⟨S32x131072, .i32⟩ : BufTy).Contents (Elt F)),
    nullary main_cst_203 (constant S_ .f32 0x3F800000#32),
    unary main_cst_203 main_v487 (broadcastInDim S32x131072 ![] bcast_S_S32x131072 : (⟨S_, .f32⟩ : BufTy).Contents (Elt F) → (⟨S32x131072, .f32⟩ : BufTy).Contents (Elt F)),
    binary main_v487 main_v33 main_v488 (subf : (⟨S32x131072, .f32⟩ : BufTy).Contents (Elt F) → (⟨S32x131072, .f32⟩ : BufTy).Contents (Elt F) → (⟨S32x131072, .f32⟩ : BufTy).Contents (Elt F)),
    nullary main_c_204 (constantI S_ 32 1#32),
    TRef.nullary (TRef.of (T := ⟨S_, .i32⟩) main_call42_c) (constantI S_ 32 0#32),
    TRef.binary (TRef.of (T := ⟨S_, .i32⟩) main_c_204) (TRef.of (T := ⟨S_, .i32⟩) main_call42_c) (TRef.of (T := ⟨S_, .i1⟩) main_call42_v0) (cmpi .ne),
    TRef.ternary (TRef.of (T := ⟨S_, .i1⟩) main_call42_v0) (TRef.of (T := ⟨S32x131072, .f32⟩) main_v33) (TRef.of (T := ⟨S32x131072, .f32⟩) main_v488) (TRef.of (T := ⟨S32x131072, .f32⟩) main_v489) (fun p a b => select (broadcastInDim S32x131072 ![] bcast_S_S32x131072 p) a b),
    nullary main_cst_205 (constant S_ .f32 0x3F800000#32),
    unary main_cst_205 main_v490 (broadcastInDim S32x131072 ![] bcast_S_S32x131072 : (⟨S_, .f32⟩ : BufTy).Contents (Elt F) → (⟨S32x131072, .f32⟩ : BufTy).Contents (Elt F)),
    binary main_v490 main_v34 main_v491 (subf : (⟨S32x131072, .f32⟩ : BufTy).Contents (Elt F) → (⟨S32x131072, .f32⟩ : BufTy).Contents (Elt F) → (⟨S32x131072, .f32⟩ : BufTy).Contents (Elt F)),
    nullary main_c_206 (constantI S_ 32 1#32),
    TRef.nullary (TRef.of (T := ⟨S_, .i32⟩) main_call43_c) (constantI S_ 32 0#32),
    TRef.binary (TRef.of (T := ⟨S_, .i32⟩) main_c_206) (TRef.of (T := ⟨S_, .i32⟩) main_call43_c) (TRef.of (T := ⟨S_, .i1⟩) main_call43_v0) (cmpi .ne),
    TRef.ternary (TRef.of (T := ⟨S_, .i1⟩) main_call43_v0) (TRef.of (T := ⟨S32x131072, .f32⟩) main_v34) (TRef.of (T := ⟨S32x131072, .f32⟩) main_v491) (TRef.of (T := ⟨S32x131072, .f32⟩) main_v492) (fun p a b => select (broadcastInDim S32x131072 ![] bcast_S_S32x131072 p) a b),
    binary main_v489 main_v492 main_v493 (mulf : (⟨S32x131072, .f32⟩ : BufTy).Contents (Elt F) → (⟨S32x131072, .f32⟩ : BufTy).Contents (Elt F) → (⟨S32x131072, .f32⟩ : BufTy).Contents (Elt F)),
    nullary main_cst_207 (constant S_ .f32 0x3F800000#32),
    unary main_cst_207 main_v494 (broadcastInDim S32x131072 ![] bcast_S_S32x131072 : (⟨S_, .f32⟩ : BufTy).Contents (Elt F) → (⟨S32x131072, .f32⟩ : BufTy).Contents (Elt F)),
    binary main_v494 main_v35 main_v495 (subf : (⟨S32x131072, .f32⟩ : BufTy).Contents (Elt F) → (⟨S32x131072, .f32⟩ : BufTy).Contents (Elt F) → (⟨S32x131072, .f32⟩ : BufTy).Contents (Elt F)),
    nullary main_c_208 (constantI S_ 32 1#32),
    TRef.nullary (TRef.of (T := ⟨S_, .i32⟩) main_call44_c) (constantI S_ 32 0#32),
    TRef.binary (TRef.of (T := ⟨S_, .i32⟩) main_c_208) (TRef.of (T := ⟨S_, .i32⟩) main_call44_c) (TRef.of (T := ⟨S_, .i1⟩) main_call44_v0) (cmpi .ne),
    TRef.ternary (TRef.of (T := ⟨S_, .i1⟩) main_call44_v0) (TRef.of (T := ⟨S32x131072, .f32⟩) main_v35) (TRef.of (T := ⟨S32x131072, .f32⟩) main_v495) (TRef.of (T := ⟨S32x131072, .f32⟩) main_v496) (fun p a b => select (broadcastInDim S32x131072 ![] bcast_S_S32x131072 p) a b),
    binary main_v493 main_v496 main_v497 (mulf : (⟨S32x131072, .f32⟩ : BufTy).Contents (Elt F) → (⟨S32x131072, .f32⟩ : BufTy).Contents (Elt F) → (⟨S32x131072, .f32⟩ : BufTy).Contents (Elt F)),
    nullary main_c_209 (constantI S_ 32 0#32),
    unary main_c_209 main_v498 (broadcastInDim S32x131072 ![] bcast_S_S32x131072 : (⟨S_, .i32⟩ : BufTy).Contents (Elt F) → (⟨S32x131072, .i32⟩ : BufTy).Contents (Elt F)),
    binary main_v482 main_v498 main_v499 (cmpi .sge : (⟨S32x131072, .i32⟩ : BufTy).Contents (Elt F) → (⟨S32x131072, .i32⟩ : BufTy).Contents (Elt F) → (⟨S32x131072, .i1⟩ : BufTy).Contents (Elt F)),
    nullary main_c_210 (constantI S_ 32 64#32),
    unary main_c_210 main_v500 (broadcastInDim S32x131072 ![] bcast_S_S32x131072 : (⟨S_, .i32⟩ : BufTy).Contents (Elt F) → (⟨S32x131072, .i32⟩ : BufTy).Contents (Elt F)),
    binary main_v482 main_v500 main_v501 (cmpi .slt : (⟨S32x131072, .i32⟩ : BufTy).Contents (Elt F) → (⟨S32x131072, .i32⟩ : BufTy).Contents (Elt F) → (⟨S32x131072, .i1⟩ : BufTy).Contents (Elt F)),
    binary main_v499 main_v501 main_v502 (andi : (⟨S32x131072, .i1⟩ : BufTy).Contents (Elt F) → (⟨S32x131072, .i1⟩ : BufTy).Contents (Elt F) → (⟨S32x131072, .i1⟩ : BufTy).Contents (Elt F)),
    nullary main_c_211 (constantI S_ 32 0#32),
    unary main_c_211 main_v503 (broadcastInDim S32x131072 ![] bcast_S_S32x131072 : (⟨S_, .i32⟩ : BufTy).Contents (Elt F) → (⟨S32x131072, .i32⟩ : BufTy).Contents (Elt F)),
    binary main_v484 main_v503 main_v504 (cmpi .sge : (⟨S32x131072, .i32⟩ : BufTy).Contents (Elt F) → (⟨S32x131072, .i32⟩ : BufTy).Contents (Elt F) → (⟨S32x131072, .i1⟩ : BufTy).Contents (Elt F)),
    binary main_v502 main_v504 main_v505 (andi : (⟨S32x131072, .i1⟩ : BufTy).Contents (Elt F) → (⟨S32x131072, .i1⟩ : BufTy).Contents (Elt F) → (⟨S32x131072, .i1⟩ : BufTy).Contents (Elt F)),
    nullary main_c_212 (constantI S_ 32 64#32),
    unary main_c_212 main_v506 (broadcastInDim S32x131072 ![] bcast_S_S32x131072 : (⟨S_, .i32⟩ : BufTy).Contents (Elt F) → (⟨S32x131072, .i32⟩ : BufTy).Contents (Elt F)),
    binary main_v484 main_v506 main_v507 (cmpi .slt : (⟨S32x131072, .i32⟩ : BufTy).Contents (Elt F) → (⟨S32x131072, .i32⟩ : BufTy).Contents (Elt F) → (⟨S32x131072, .i1⟩ : BufTy).Contents (Elt F)),
    binary main_v505 main_v507 main_v508 (andi : (⟨S32x131072, .i1⟩ : BufTy).Contents (Elt F) → (⟨S32x131072, .i1⟩ : BufTy).Contents (Elt F) → (⟨S32x131072, .i1⟩ : BufTy).Contents (Elt F)),
    nullary main_c_213 (constantI S_ 32 0#32),
    unary main_c_213 main_v509 (broadcastInDim S32x131072 ![] bcast_S_S32x131072 : (⟨S_, .i32⟩ : BufTy).Contents (Elt F) → (⟨S32x131072, .i32⟩ : BufTy).Contents (Elt F)),
    binary main_v486 main_v509 main_v510 (cmpi .sge : (⟨S32x131072, .i32⟩ : BufTy).Contents (Elt F) → (⟨S32x131072, .i32⟩ : BufTy).Contents (Elt F) → (⟨S32x131072, .i1⟩ : BufTy).Contents (Elt F)),
    binary main_v508 main_v510 main_v511 (andi : (⟨S32x131072, .i1⟩ : BufTy).Contents (Elt F) → (⟨S32x131072, .i1⟩ : BufTy).Contents (Elt F) → (⟨S32x131072, .i1⟩ : BufTy).Contents (Elt F)),
    nullary main_c_214 (constantI S_ 32 64#32),
    unary main_c_214 main_v512 (broadcastInDim S32x131072 ![] bcast_S_S32x131072 : (⟨S_, .i32⟩ : BufTy).Contents (Elt F) → (⟨S32x131072, .i32⟩ : BufTy).Contents (Elt F)),
    binary main_v486 main_v512 main_v513 (cmpi .slt : (⟨S32x131072, .i32⟩ : BufTy).Contents (Elt F) → (⟨S32x131072, .i32⟩ : BufTy).Contents (Elt F) → (⟨S32x131072, .i1⟩ : BufTy).Contents (Elt F)),
    binary main_v511 main_v513 main_v514 (andi : (⟨S32x131072, .i1⟩ : BufTy).Contents (Elt F) → (⟨S32x131072, .i1⟩ : BufTy).Contents (Elt F) → (⟨S32x131072, .i1⟩ : BufTy).Contents (Elt F)),
    nullary main_c_215 (constantI S_ 32 0#32),
    nullary main_c_216 (constantI S_ 32 63#32),
    TRef.unary (TRef.of (T := ⟨S_, .i32⟩) main_c_215) (TRef.of (T := ⟨S_, .i32⟩) main_call45_v0) id,
    TRef.unary (TRef.of (T := ⟨S_, .i32⟩) main_call45_v0) (TRef.of (T := ⟨S32x131072, .i32⟩) main_call45_v1) (broadcastInDim S32x131072 ![] bcast_S_S32x131072),
    TRef.binary (TRef.of (T := ⟨S32x131072, .i32⟩) main_call45_v1) (TRef.of (T := ⟨S32x131072, .i32⟩) main_v482) (TRef.of (T := ⟨S32x131072, .i32⟩) main_call45_v2) maxsi,
    TRef.unary (TRef.of (T := ⟨S_, .i32⟩) main_c_216) (TRef.of (T := ⟨S_, .i32⟩) main_call45_v3) id,
    TRef.unary (TRef.of (T := ⟨S_, .i32⟩) main_call45_v3) (TRef.of (T := ⟨S32x131072, .i32⟩) main_call45_v4) (broadcastInDim S32x131072 ![] bcast_S_S32x131072),
    TRef.binary (TRef.of (T := ⟨S32x131072, .i32⟩) main_call45_v4) (TRef.of (T := ⟨S32x131072, .i32⟩) main_call45_v2) (TRef.of (T := ⟨S32x131072, .i32⟩) main_v515) minsi,
    nullary main_c_217 (constantI S_ 32 0#32),
    nullary main_c_218 (constantI S_ 32 63#32),
    TRef.unary (TRef.of (T := ⟨S_, .i32⟩) main_c_217) (TRef.of (T := ⟨S_, .i32⟩) main_call46_v0) id,
    TRef.unary (TRef.of (T := ⟨S_, .i32⟩) main_call46_v0) (TRef.of (T := ⟨S32x131072, .i32⟩) main_call46_v1) (broadcastInDim S32x131072 ![] bcast_S_S32x131072),
    TRef.binary (TRef.of (T := ⟨S32x131072, .i32⟩) main_call46_v1) (TRef.of (T := ⟨S32x131072, .i32⟩) main_v484) (TRef.of (T := ⟨S32x131072, .i32⟩) main_call46_v2) maxsi,
    TRef.unary (TRef.of (T := ⟨S_, .i32⟩) main_c_218) (TRef.of (T := ⟨S_, .i32⟩) main_call46_v3) id,
    TRef.unary (TRef.of (T := ⟨S_, .i32⟩) main_call46_v3) (TRef.of (T := ⟨S32x131072, .i32⟩) main_call46_v4) (broadcastInDim S32x131072 ![] bcast_S_S32x131072),
    TRef.binary (TRef.of (T := ⟨S32x131072, .i32⟩) main_call46_v4) (TRef.of (T := ⟨S32x131072, .i32⟩) main_call46_v2) (TRef.of (T := ⟨S32x131072, .i32⟩) main_v516) minsi,
    nullary main_c_219 (constantI S_ 32 0#32),
    nullary main_c_220 (constantI S_ 32 63#32),
    TRef.unary (TRef.of (T := ⟨S_, .i32⟩) main_c_219) (TRef.of (T := ⟨S_, .i32⟩) main_call47_v0) id,
    TRef.unary (TRef.of (T := ⟨S_, .i32⟩) main_call47_v0) (TRef.of (T := ⟨S32x131072, .i32⟩) main_call47_v1) (broadcastInDim S32x131072 ![] bcast_S_S32x131072),
    TRef.binary (TRef.of (T := ⟨S32x131072, .i32⟩) main_call47_v1) (TRef.of (T := ⟨S32x131072, .i32⟩) main_v486) (TRef.of (T := ⟨S32x131072, .i32⟩) main_call47_v2) maxsi,
    TRef.unary (TRef.of (T := ⟨S_, .i32⟩) main_c_220) (TRef.of (T := ⟨S_, .i32⟩) main_call47_v3) id,
    TRef.unary (TRef.of (T := ⟨S_, .i32⟩) main_call47_v3) (TRef.of (T := ⟨S32x131072, .i32⟩) main_call47_v4) (broadcastInDim S32x131072 ![] bcast_S_S32x131072),
    TRef.binary (TRef.of (T := ⟨S32x131072, .i32⟩) main_call47_v4) (TRef.of (T := ⟨S32x131072, .i32⟩) main_call47_v2) (TRef.of (T := ⟨S32x131072, .i32⟩) main_v517) minsi,
    nullary main_c_221 (constantI S_ 32 0#32),
    unary main_c_221 main_v518 (broadcastInDim S32x131072 ![] bcast_S_S32x131072 : (⟨S_, .i32⟩ : BufTy).Contents (Elt F) → (⟨S32x131072, .i32⟩ : BufTy).Contents (Elt F)),
    binary main_v517 main_v518 main_v519 (cmpi .slt : (⟨S32x131072, .i32⟩ : BufTy).Contents (Elt F) → (⟨S32x131072, .i32⟩ : BufTy).Contents (Elt F) → (⟨S32x131072, .i1⟩ : BufTy).Contents (Elt F)),
    nullary main_c_222 (constantI S_ 32 64#32),
    unary main_c_222 main_v520 (broadcastInDim S32x131072 ![] bcast_S_S32x131072 : (⟨S_, .i32⟩ : BufTy).Contents (Elt F) → (⟨S32x131072, .i32⟩ : BufTy).Contents (Elt F)),
    binary main_v517 main_v520 main_v521 (addi : (⟨S32x131072, .i32⟩ : BufTy).Contents (Elt F) → (⟨S32x131072, .i32⟩ : BufTy).Contents (Elt F) → (⟨S32x131072, .i32⟩ : BufTy).Contents (Elt F)),
    ternary main_v519 main_v521 main_v517 main_v522 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_223 (constantI S_ 32 0#32),
    unary main_c_223 main_v523 (broadcastInDim S32x131072 ![] bcast_S_S32x131072 : (⟨S_, .i32⟩ : BufTy).Contents (Elt F) → (⟨S32x131072, .i32⟩ : BufTy).Contents (Elt F)),
    binary main_v516 main_v523 main_v524 (cmpi .slt : (⟨S32x131072, .i32⟩ : BufTy).Contents (Elt F) → (⟨S32x131072, .i32⟩ : BufTy).Contents (Elt F) → (⟨S32x131072, .i1⟩ : BufTy).Contents (Elt F)),
    nullary main_c_224 (constantI S_ 32 64#32),
    unary main_c_224 main_v525 (broadcastInDim S32x131072 ![] bcast_S_S32x131072 : (⟨S_, .i32⟩ : BufTy).Contents (Elt F) → (⟨S32x131072, .i32⟩ : BufTy).Contents (Elt F)),
    binary main_v516 main_v525 main_v526 (addi : (⟨S32x131072, .i32⟩ : BufTy).Contents (Elt F) → (⟨S32x131072, .i32⟩ : BufTy).Contents (Elt F) → (⟨S32x131072, .i32⟩ : BufTy).Contents (Elt F)),
    ternary main_v524 main_v526 main_v516 main_v527 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_225 (constantI S_ 32 0#32),
    unary main_c_225 main_v528 (broadcastInDim S32x131072 ![] bcast_S_S32x131072 : (⟨S_, .i32⟩ : BufTy).Contents (Elt F) → (⟨S32x131072, .i32⟩ : BufTy).Contents (Elt F)),
    binary main_v515 main_v528 main_v529 (cmpi .slt : (⟨S32x131072, .i32⟩ : BufTy).Contents (Elt F) → (⟨S32x131072, .i32⟩ : BufTy).Contents (Elt F) → (⟨S32x131072, .i1⟩ : BufTy).Contents (Elt F)),
    nullary main_c_226 (constantI S_ 32 64#32),
    unary main_c_226 main_v530 (broadcastInDim S32x131072 ![] bcast_S_S32x131072 : (⟨S_, .i32⟩ : BufTy).Contents (Elt F) → (⟨S32x131072, .i32⟩ : BufTy).Contents (Elt F)),
    binary main_v515 main_v530 main_v531 (addi : (⟨S32x131072, .i32⟩ : BufTy).Contents (Elt F) → (⟨S32x131072, .i32⟩ : BufTy).Contents (Elt F) → (⟨S32x131072, .i32⟩ : BufTy).Contents (Elt F)),
    ternary main_v529 main_v531 main_v515 main_v532 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v522 main_v533 (broadcastInDim S32x131072x1 ![0, 1] bcast_S32x131072_S32x131072x1_0_1 : (⟨S32x131072, .i32⟩ : BufTy).Contents (Elt F) → (⟨S32x131072x1, .i32⟩ : BufTy).Contents (Elt F)),
    unary main_v527 main_v534 (broadcastInDim S32x131072x1 ![0, 1] bcast_S32x131072_S32x131072x1_0_1 : (⟨S32x131072, .i32⟩ : BufTy).Contents (Elt F) → (⟨S32x131072x1, .i32⟩ : BufTy).Contents (Elt F)),
    unary main_v532 main_v535 (broadcastInDim S32x131072x1 ![0, 1] bcast_S32x131072_S32x131072x1_0_1 : (⟨S32x131072, .i32⟩ : BufTy).Contents (Elt F) → (⟨S32x131072x1, .i32⟩ : BufTy).Contents (Elt F)),
    nary ![main_v533, main_v534, main_v535] main_v536 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v536 main_v537 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v514 main_v538 (uitofp .f32 : (⟨S32x131072, .i1⟩ : BufTy).Contents (Elt F) → (⟨S32x131072, .f32⟩ : BufTy).Contents (Elt F)),
    binary main_v497 main_v538 main_v539 (mulf : (⟨S32x131072, .f32⟩ : BufTy).Contents (Elt F) → (⟨S32x131072, .f32⟩ : BufTy).Contents (Elt F) → (⟨S32x131072, .f32⟩ : BufTy).Contents (Elt F)),
    unary main_v539 main_v540 (broadcastInDim S1x32x131072 ![1, 2] bcast_S32x131072_S1x32x131072_1_2 : (⟨S32x131072, .f32⟩ : BufTy).Contents (Elt F) → (⟨S1x32x131072, .f32⟩ : BufTy).Contents (Elt F)),
    unary main_v540 main_v541 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v537 main_v541 main_v542 (mulf : (⟨S3x32x131072, .f32⟩ : BufTy).Contents (Elt F) → (⟨S3x32x131072, .f32⟩ : BufTy).Contents (Elt F) → (⟨S3x32x131072, .f32⟩ : BufTy).Contents (Elt F)),
    binary main_v480 main_v542 main_v543 (addf : (⟨S3x32x131072, .f32⟩ : BufTy).Contents (Elt F) → (⟨S3x32x131072, .f32⟩ : BufTy).Contents (Elt F) → (⟨S3x32x131072, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrC7 : List (Ref sig .tc) :=
  [main_c_200, main_v481, main_v482, main_c_201, main_v483, main_v484, main_c_202, main_v485, main_v486, main_cst_203, main_v487, main_v488, main_c_204, main_call42_c, main_call42_v0, main_v489, main_cst_205, main_v490, main_v491, main_c_206, main_call43_c, main_call43_v0, main_v492, main_v493, main_cst_207, main_v494, main_v495, main_c_208, main_call44_c, main_call44_v0, main_v496, main_v497, main_c_209, main_v498, main_v499, main_c_210, main_v500, main_v501, main_v502, main_c_211, main_v503, main_v504, main_v505, main_c_212, main_v506, main_v507, main_v508, main_c_213, main_v509, main_v510, main_v511, main_c_214, main_v512, main_v513, main_v514, main_c_215, main_c_216, main_call45_v0, main_call45_v1, main_call45_v2, main_call45_v3, main_call45_v4, main_v515, main_c_217, main_c_218, main_call46_v0, main_call46_v1, main_call46_v2, main_call46_v3, main_call46_v4, main_v516, main_c_219, main_c_220, main_call47_v0, main_call47_v1, main_call47_v2, main_call47_v3, main_call47_v4, main_v517, main_c_221, main_v518, main_v519, main_c_222, main_v520, main_v521, main_v522, main_c_223, main_v523, main_v524, main_c_224, main_v525, main_v526, main_v527, main_c_225, main_v528, main_v529, main_c_226, main_v530, main_v531, main_v532, main_v533, main_v534, main_v535, main_v536, main_v537, main_v538, main_v539, main_v540, main_v541, main_v542, main_v543]

set_option maxRecDepth 8192 in
/-- Every operation of the list writes its one buffer of that list. -/
theorem opsC7_writes : (opsC7 (F := F)).Forall fun op => op.writes ⊆ ((wrC7).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

/-- A buffer the list does not write keeps its contents. -/
theorem opsC7_keep (W : Valuation τ sig (Elt F)) {r : Ref sig .tc} (hr : r ∉ wrC7) :
    after (opsC7 (F := F)) W (Proc.devRef .tc r) = W (Proc.devRef .tc r) :=
  after_of_writes_sub _ W opsC7_writes hr

/-- The corner's operations do not write this buffer. -/
theorem opsC7_arg0 (W : Valuation τ sig (Elt F)) :
    after (opsC7 (F := F)) W (Proc.devRef .tc main_arg0) = W (Proc.devRef .tc main_arg0) :=
  opsC7_keep W (by decide)

/-- The corner's operations do not write this buffer. -/
theorem opsC7_arg1 (W : Valuation τ sig (Elt F)) :
    after (opsC7 (F := F)) W (Proc.devRef .tc main_arg1) = W (Proc.devRef .tc main_arg1) :=
  opsC7_keep W (by decide)

/-- The corner's operations do not write this buffer. -/
theorem opsC7_v33 (W : Valuation τ sig (Elt F)) :
    after (opsC7 (F := F)) W (Proc.devRef .tc main_v33) = W (Proc.devRef .tc main_v33) :=
  opsC7_keep W (by decide)

/-- The corner's operations do not write this buffer. -/
theorem opsC7_v34 (W : Valuation τ sig (Elt F)) :
    after (opsC7 (F := F)) W (Proc.devRef .tc main_v34) = W (Proc.devRef .tc main_v34) :=
  opsC7_keep W (by decide)

/-- The corner's operations do not write this buffer. -/
theorem opsC7_v35 (W : Valuation τ sig (Elt F)) :
    after (opsC7 (F := F)) W (Proc.devRef .tc main_v35) = W (Proc.devRef .tc main_v35) :=
  opsC7_keep W (by decide)

/-- The corner's operations do not write this buffer. -/
theorem opsC7_v36 (W : Valuation τ sig (Elt F)) :
    after (opsC7 (F := F)) W (Proc.devRef .tc main_v36) = W (Proc.devRef .tc main_v36) :=
  opsC7_keep W (by decide)

/-- The corner's operations do not write this buffer. -/
theorem opsC7_v37 (W : Valuation τ sig (Elt F)) :
    after (opsC7 (F := F)) W (Proc.devRef .tc main_v37) = W (Proc.devRef .tc main_v37) :=
  opsC7_keep W (by decide)

/-- The corner's operations do not write this buffer. -/
theorem opsC7_v38 (W : Valuation τ sig (Elt F)) :
    after (opsC7 (F := F)) W (Proc.devRef .tc main_v38) = W (Proc.devRef .tc main_v38) :=
  opsC7_keep W (by decide)

end Cert.RefRun

end
-- ==== Proof.RefRunW11.lean ====
/-
  Window 11 of the reference's @main (operations 807 to 872 of 943, counting from 0) is the straight line of those
  operations: the called functions' bodies are unfolded at their calls and the sequencing re-associated. The same
  operations are a stretch of the reference's lists cut before the corners, per corner and after them.
-/
import proofs.«174278_j48524540510565_1_alg».proof.Proof.RefRunC6
import proofs.«174278_j48524540510565_1_alg».proof.Proof.RefRunC7

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW11 : List (HloOp τ sig (Elt F)) :=
  [ binary main_v453 main_v460 main_v461 (cmpi .slt : (⟨S32x131072, .i32⟩ : BufTy).Contents (Elt F) → (⟨S32x131072, .i32⟩ : BufTy).Contents (Elt F) → (⟨S32x131072, .i1⟩ : BufTy).Contents (Elt F)),
    nullary main_c_197 (constantI S_ 32 64#32),
    unary main_c_197 main_v462 (broadcastInDim S32x131072 ![] bcast_S_S32x131072 : (⟨S_, .i32⟩ : BufTy).Contents (Elt F) → (⟨S32x131072, .i32⟩ : BufTy).Contents (Elt F)),
    binary main_v453 main_v462 main_v463 (addi : (⟨S32x131072, .i32⟩ : BufTy).Contents (Elt F) → (⟨S32x131072, .i32⟩ : BufTy).Contents (Elt F) → (⟨S32x131072, .i32⟩ : BufTy).Contents (Elt F)),
    ternary main_v461 main_v463 main_v453 main_v464 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_198 (constantI S_ 32 0#32),
    unary main_c_198 main_v465 (broadcastInDim S32x131072 ![] bcast_S_S32x131072 : (⟨S_, .i32⟩ : BufTy).Contents (Elt F) → (⟨S32x131072, .i32⟩ : BufTy).Contents (Elt F)),
    binary main_v452 main_v465 main_v466 (cmpi .slt : (⟨S32x131072, .i32⟩ : BufTy).Contents (Elt F) → (⟨S32x131072, .i32⟩ : BufTy).Contents (Elt F) → (⟨S32x131072, .i1⟩ : BufTy).Contents (Elt F)),
    nullary main_c_199 (constantI S_ 32 64#32),
    unary main_c_199 main_v467 (broadcastInDim S32x131072 ![] bcast_S_S32x131072 : (⟨S_, .i32⟩ : BufTy).Contents (Elt F) → (⟨S32x131072, .i32⟩ : BufTy).Contents (Elt F)),
    binary main_v452 main_v467 main_v468 (addi : (⟨S32x131072, .i32⟩ : BufTy).Contents (Elt F) → (⟨S32x131072, .i32⟩ : BufTy).Contents (Elt F) → (⟨S32x131072, .i32⟩ : BufTy).Contents (Elt F)),
    ternary main_v466 main_v468 main_v452 main_v469 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v459 main_v470 (broadcastInDim S32x131072x1 ![0, 1] bcast_S32x131072_S32x131072x1_0_1 : (⟨S32x131072, .i32⟩ : BufTy).Contents (Elt F) → (⟨S32x131072x1, .i32⟩ : BufTy).Contents (Elt F)),
    unary main_v464 main_v471 (broadcastInDim S32x131072x1 ![0, 1] bcast_S32x131072_S32x131072x1_0_1 : (⟨S32x131072, .i32⟩ : BufTy).Contents (Elt F) → (⟨S32x131072x1, .i32⟩ : BufTy).Contents (Elt F)),
    unary main_v469 main_v472 (broadcastInDim S32x131072x1 ![0, 1] bcast_S32x131072_S32x131072x1_0_1 : (⟨S32x131072, .i32⟩ : BufTy).Contents (Elt F) → (⟨S32x131072x1, .i32⟩ : BufTy).Contents (Elt F)),
    nary ![main_v470, main_v471, main_v472] main_v473 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v473 main_v474 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v451 main_v475 (uitofp .f32 : (⟨S32x131072, .i1⟩ : BufTy).Contents (Elt F) → (⟨S32x131072, .f32⟩ : BufTy).Contents (Elt F)),
    binary main_v434 main_v475 main_v476 (mulf : (⟨S32x131072, .f32⟩ : BufTy).Contents (Elt F) → (⟨S32x131072, .f32⟩ : BufTy).Contents (Elt F) → (⟨S32x131072, .f32⟩ : BufTy).Contents (Elt F)),
    unary main_v476 main_v477 (broadcastInDim S1x32x131072 ![1, 2] bcast_S32x131072_S1x32x131072_1_2 : (⟨S32x131072, .f32⟩ : BufTy).Contents (Elt F) → (⟨S1x32x131072, .f32⟩ : BufTy).Contents (Elt F)),
    unary main_v477 main_v478 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v474 main_v478 main_v479 (mulf : (⟨S3x32x131072, .f32⟩ : BufTy).Contents (Elt F) → (⟨S3x32x131072, .f32⟩ : BufTy).Contents (Elt F) → (⟨S3x32x131072, .f32⟩ : BufTy).Contents (Elt F)),
    binary main_v417 main_v479 main_v480 (addf : (⟨S3x32x131072, .f32⟩ : BufTy).Contents (Elt F) → (⟨S3x32x131072, .f32⟩ : BufTy).Contents (Elt F) → (⟨S3x32x131072, .f32⟩ : BufTy).Contents (Elt F)),
    nullary main_c_200 (constantI S_ 32 1#32),
    unary main_c_200 main_v481 (broadcastInDim S32x131072 ![] bcast_S_S32x131072 : (⟨S_, .i32⟩ : BufTy).Contents (Elt F) → (⟨S32x131072, .i32⟩ : BufTy).Contents (Elt F)),
    binary main_v36 main_v481 main_v482 (addi : (⟨S32x131072, .i32⟩ : BufTy).Contents (Elt F) → (⟨S32x131072, .i32⟩ : BufTy).Contents (Elt F) → (⟨S32x131072, .i32⟩ : BufTy).Contents (Elt F)),
    nullary main_c_201 (constantI S_ 32 1#32),
    unary main_c_201 main_v483 (broadcastInDim S32x131072 ![] bcast_S_S32x131072 : (⟨S_, .i32⟩ : BufTy).Contents (Elt F) → (⟨S32x131072, .i32⟩ : BufTy).Contents (Elt F)),
    binary main_v37 main_v483 main_v484 (addi : (⟨S32x131072, .i32⟩ : BufTy).Contents (Elt F) → (⟨S32x131072, .i32⟩ : BufTy).Contents (Elt F) → (⟨S32x131072, .i32⟩ : BufTy).Contents (Elt F)),
    nullary main_c_202 (constantI S_ 32 1#32),
    unary main_c_202 main_v485 (broadcastInDim S32x131072 ![] bcast_S_S32x131072 : (⟨S_, .i32⟩ : BufTy).Contents (Elt F) → (⟨S32x131072, .i32⟩ : BufTy).Contents (Elt F)),
    binary main_v38 main_v485 main_v486 (addi : (⟨S32x131072, .i32⟩ : BufTy).Contents (Elt F) → (⟨S32x131072, .i32⟩ : BufTy).Contents (Elt F) → (⟨S32x131072, .i32⟩ : BufTy).Contents (Elt F)),
    nullary main_cst_203 (constant S_ .f32 0x3F800000#32),
    unary main_cst_203 main_v487 (broadcastInDim S32x131072 ![] bcast_S_S32x131072 : (⟨S_, .f32⟩ : BufTy).Contents (Elt F) → (⟨S32x131072, .f32⟩ : BufTy).Contents (Elt F)),
    binary main_v487 main_v33 main_v488 (subf : (⟨S32x131072, .f32⟩ : BufTy).Contents (Elt F) → (⟨S32x131072, .f32⟩ : BufTy).Contents (Elt F) → (⟨S32x131072, .f32⟩ : BufTy).Contents (Elt F)),
    nullary main_c_204 (constantI S_ 32 1#32),
    TRef.nullary (TRef.of (T := ⟨S_, .i32⟩) main_call42_c) (constantI S_ 32 0#32),
    TRef.binary (TRef.of (T := ⟨S_, .i32⟩) main_c_204) (TRef.of (T := ⟨S_, .i32⟩) main_call42_c) (TRef.of (T := ⟨S_, .i1⟩) main_call42_v0) (cmpi .ne),
    TRef.ternary (TRef.of (T := ⟨S_, .i1⟩) main_call42_v0) (TRef.of (T := ⟨S32x131072, .f32⟩) main_v33) (TRef.of (T := ⟨S32x131072, .f32⟩) main_v488) (TRef.of (T := ⟨S32x131072, .f32⟩) main_v489) (fun p a b => select (broadcastInDim S32x131072 ![] bcast_S_S32x131072 p) a b),
    nullary main_cst_205 (constant S_ .f32 0x3F800000#32),
    unary main_cst_205 main_v490 (broadcastInDim S32x131072 ![] bcast_S_S32x131072 : (⟨S_, .f32⟩ : BufTy).Contents (Elt F) → (⟨S32x131072, .f32⟩ : BufTy).Contents (Elt F)),
    binary main_v490 main_v34 main_v491 (subf : (⟨S32x131072, .f32⟩ : BufTy).Contents (Elt F) → (⟨S32x131072, .f32⟩ : BufTy).Contents (Elt F) → (⟨S32x131072, .f32⟩ : BufTy).Contents (Elt F)),
    nullary main_c_206 (constantI S_ 32 1#32),
    TRef.nullary (TRef.of (T := ⟨S_, .i32⟩) main_call43_c) (constantI S_ 32 0#32),
    TRef.binary (TRef.of (T := ⟨S_, .i32⟩) main_c_206) (TRef.of (T := ⟨S_, .i32⟩) main_call43_c) (TRef.of (T := ⟨S_, .i1⟩) main_call43_v0) (cmpi .ne),
    TRef.ternary (TRef.of (T := ⟨S_, .i1⟩) main_call43_v0) (TRef.of (T := ⟨S32x131072, .f32⟩) main_v34) (TRef.of (T := ⟨S32x131072, .f32⟩) main_v491) (TRef.of (T := ⟨S32x131072, .f32⟩) main_v492) (fun p a b => select (broadcastInDim S32x131072 ![] bcast_S_S32x131072 p) a b),
    binary main_v489 main_v492 main_v493 (mulf : (⟨S32x131072, .f32⟩ : BufTy).Contents (Elt F) → (⟨S32x131072, .f32⟩ : BufTy).Contents (Elt F) → (⟨S32x131072, .f32⟩ : BufTy).Contents (Elt F)),
    nullary main_cst_207 (constant S_ .f32 0x3F800000#32),
    unary main_cst_207 main_v494 (broadcastInDim S32x131072 ![] bcast_S_S32x131072 : (⟨S_, .f32⟩ : BufTy).Contents (Elt F) → (⟨S32x131072, .f32⟩ : BufTy).Contents (Elt F)),
    binary main_v494 main_v35 main_v495 (subf : (⟨S32x131072, .f32⟩ : BufTy).Contents (Elt F) → (⟨S32x131072, .f32⟩ : BufTy).Contents (Elt F) → (⟨S32x131072, .f32⟩ : BufTy).Contents (Elt F)),
    nullary main_c_208 (constantI S_ 32 1#32),
    TRef.nullary (TRef.of (T := ⟨S_, .i32⟩) main_call44_c) (constantI S_ 32 0#32),
    TRef.binary (TRef.of (T := ⟨S_, .i32⟩) main_c_208) (TRef.of (T := ⟨S_, .i32⟩) main_call44_c) (TRef.of (T := ⟨S_, .i1⟩) main_call44_v0) (cmpi .ne),
    TRef.ternary (TRef.of (T := ⟨S_, .i1⟩) main_call44_v0) (TRef.of (T := ⟨S32x131072, .f32⟩) main_v35) (TRef.of (T := ⟨S32x131072, .f32⟩) main_v495) (TRef.of (T := ⟨S32x131072, .f32⟩) main_v496) (fun p a b => select (broadcastInDim S32x131072 ![] bcast_S_S32x131072 p) a b),
    binary main_v493 main_v496 main_v497 (mulf : (⟨S32x131072, .f32⟩ : BufTy).Contents (Elt F) → (⟨S32x131072, .f32⟩ : BufTy).Contents (Elt F) → (⟨S32x131072, .f32⟩ : BufTy).Contents (Elt F)),
    nullary main_c_209 (constantI S_ 32 0#32),
    unary main_c_209 main_v498 (broadcastInDim S32x131072 ![] bcast_S_S32x131072 : (⟨S_, .i32⟩ : BufTy).Contents (Elt F) → (⟨S32x131072, .i32⟩ : BufTy).Contents (Elt F)),
    binary main_v482 main_v498 main_v499 (cmpi .sge : (⟨S32x131072, .i32⟩ : BufTy).Contents (Elt F) → (⟨S32x131072, .i32⟩ : BufTy).Contents (Elt F) → (⟨S32x131072, .i1⟩ : BufTy).Contents (Elt F)),
    nullary main_c_210 (constantI S_ 32 64#32),
    unary main_c_210 main_v500 (broadcastInDim S32x131072 ![] bcast_S_S32x131072 : (⟨S_, .i32⟩ : BufTy).Contents (Elt F) → (⟨S32x131072, .i32⟩ : BufTy).Contents (Elt F)),
    binary main_v482 main_v500 main_v501 (cmpi .slt : (⟨S32x131072, .i32⟩ : BufTy).Contents (Elt F) → (⟨S32x131072, .i32⟩ : BufTy).Contents (Elt F) → (⟨S32x131072, .i1⟩ : BufTy).Contents (Elt F)),
    binary main_v499 main_v501 main_v502 (andi : (⟨S32x131072, .i1⟩ : BufTy).Contents (Elt F) → (⟨S32x131072, .i1⟩ : BufTy).Contents (Elt F) → (⟨S32x131072, .i1⟩ : BufTy).Contents (Elt F)),
    nullary main_c_211 (constantI S_ 32 0#32),
    unary main_c_211 main_v503 (broadcastInDim S32x131072 ![] bcast_S_S32x131072 : (⟨S_, .i32⟩ : BufTy).Contents (Elt F) → (⟨S32x131072, .i32⟩ : BufTy).Contents (Elt F)),
    binary main_v484 main_v503 main_v504 (cmpi .sge : (⟨S32x131072, .i32⟩ : BufTy).Contents (Elt F) → (⟨S32x131072, .i32⟩ : BufTy).Contents (Elt F) → (⟨S32x131072, .i1⟩ : BufTy).Contents (Elt F)),
    binary main_v502 main_v504 main_v505 (andi : (⟨S32x131072, .i1⟩ : BufTy).Contents (Elt F) → (⟨S32x131072, .i1⟩ : BufTy).Contents (Elt F) → (⟨S32x131072, .i1⟩ : BufTy).Contents (Elt F)) ]

set_option maxRecDepth 4096 in
set_option maxHeartbeats 4000000 in
/-- The window is the straight line of its operations. -/
theorem part11_eq (c : Dev nD) : main_part11 (F := F) c = seq opsW11 := by
  simp only [main_part11, fn_where.body, fn_clip.body, seq, bind_assoc, pure_bind]
  rfl

set_option maxRecDepth 8192 in
/-- The window's operations as a stretch of the cut lists. -/
theorem opsW11_eq : (opsW11 (F := F)) = List.drop 81 (List.drop 7 opsC6) ++ (List.take 43 opsC7) := rfl

end Cert.RefRun

end
-- ==== Proof.RefRunT.lean ====
/-
  The two operations after the last corner, as a list: the sum is transposed to the points' layout and the point array
  is added. What the list leaves in the result buffer from any contents W, and the two argument buffers as they were.
-/
import proofs.«174278_j48524540510565_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The transpose of the sum and the addition of the points, in order. -/
abbrev opsT : List (HloOp τ sig (Elt F)) :=
  [ unary main_v543 main_v544 ((transpose S32x131072x3 [1, 2, 0] · transposes_S3x32x131072_S32x131072x3_1_2_0) : (⟨S3x32x131072, .f32⟩ : BufTy).Contents (Elt F) → (⟨S32x131072x3, .f32⟩ : BufTy).Contents (Elt F)),
    binary main_arg0 main_v544 main_v545 (addf : (⟨S32x131072x3, .f32⟩ : BufTy).Contents (Elt F) → (⟨S32x131072x3, .f32⟩ : BufTy).Contents (Elt F) → (⟨S32x131072x3, .f32⟩ : BufTy).Contents (Elt F)) ]

/-- A buffer of a list of buffers, as a one-element set inside the list's set. -/
private theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers the list writes, in order: one per operation. -/
abbrev wrT : List (Ref sig .tc) :=
  [main_v544, main_v545]

set_option maxRecDepth 8192 in
/-- Every operation of the list writes its one buffer of that list. -/
theorem opsT_writes : (opsT (F := F)).Forall fun op => op.writes ⊆ ((wrT).map (Proc.devRef (τ := τ) .tc)).toFinset :=
  ⟨wsub (by decide), wsub (by decide)⟩

/-- A buffer the list does not write keeps its contents. -/
theorem opsT_keep (W : Valuation τ sig (Elt F)) {r : Ref sig .tc} (hr : r ∉ wrT) :
    after (opsT (F := F)) W (Proc.devRef .tc r) = W (Proc.devRef .tc r) :=
  after_of_writes_sub _ W opsT_writes hr

/-- The result buffer after the list. -/
theorem opsT_v545 (W : Valuation τ sig (Elt F)) :
    after (opsT (F := F)) W (Proc.devRef .tc main_v545)
      = addf (W (Proc.devRef .tc main_arg0)) (transpose S32x131072x3 [1, 2, 0] (W (Proc.devRef .tc main_v543)) transposes_S3x32x131072_S32x131072x3_1_2_0) := by
  after_results_simp <;> rfl

/-- The list does not write an argument buffer. -/
theorem opsT_arg0 (W : Valuation τ sig (Elt F)) :
    after (opsT (F := F)) W (Proc.devRef .tc main_arg0) = W (Proc.devRef .tc main_arg0) :=
  opsT_keep W (by decide)

/-- The list does not write an argument buffer. -/
theorem opsT_arg1 (W : Valuation τ sig (Elt F)) :
    after (opsT (F := F)) W (Proc.devRef .tc main_arg1) = W (Proc.devRef .tc main_arg1) :=
  opsT_keep W (by decide)

end Cert.RefRun

end
-- ==== Proof.RefRunW12.lean ====
/-
  Window 12 of the reference's @main (operations 873 to 942 of 943, counting from 0) is the straight line of those
  operations: the called functions' bodies are unfolded at their calls and the sequencing re-associated. The same
  operations are a stretch of the reference's lists cut before the corners, per corner and after them.
-/
import proofs.«174278_j48524540510565_1_alg».proof.Proof.RefRunC7
import proofs.«174278_j48524540510565_1_alg».proof.Proof.RefRunT

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The window's operations, in order. -/
abbrev opsW12 : List (HloOp τ sig (Elt F)) :=
  [ nullary main_c_212 (constantI S_ 32 64#32),
    unary main_c_212 main_v506 (broadcastInDim S32x131072 ![] bcast_S_S32x131072 : (⟨S_, .i32⟩ : BufTy).Contents (Elt F) → (⟨S32x131072, .i32⟩ : BufTy).Contents (Elt F)),
    binary main_v484 main_v506 main_v507 (cmpi .slt : (⟨S32x131072, .i32⟩ : BufTy).Contents (Elt F) → (⟨S32x131072, .i32⟩ : BufTy).Contents (Elt F) → (⟨S32x131072, .i1⟩ : BufTy).Contents (Elt F)),
    binary main_v505 main_v507 main_v508 (andi : (⟨S32x131072, .i1⟩ : BufTy).Contents (Elt F) → (⟨S32x131072, .i1⟩ : BufTy).Contents (Elt F) → (⟨S32x131072, .i1⟩ : BufTy).Contents (Elt F)),
    nullary main_c_213 (constantI S_ 32 0#32),
    unary main_c_213 main_v509 (broadcastInDim S32x131072 ![] bcast_S_S32x131072 : (⟨S_, .i32⟩ : BufTy).Contents (Elt F) → (⟨S32x131072, .i32⟩ : BufTy).Contents (Elt F)),
    binary main_v486 main_v509 main_v510 (cmpi .sge : (⟨S32x131072, .i32⟩ : BufTy).Contents (Elt F) → (⟨S32x131072, .i32⟩ : BufTy).Contents (Elt F) → (⟨S32x131072, .i1⟩ : BufTy).Contents (Elt F)),
    binary main_v508 main_v510 main_v511 (andi : (⟨S32x131072, .i1⟩ : BufTy).Contents (Elt F) → (⟨S32x131072, .i1⟩ : BufTy).Contents (Elt F) → (⟨S32x131072, .i1⟩ : BufTy).Contents (Elt F)),
    nullary main_c_214 (constantI S_ 32 64#32),
    unary main_c_214 main_v512 (broadcastInDim S32x131072 ![] bcast_S_S32x131072 : (⟨S_, .i32⟩ : BufTy).Contents (Elt F) → (⟨S32x131072, .i32⟩ : BufTy).Contents (Elt F)),
    binary main_v486 main_v512 main_v513 (cmpi .slt : (⟨S32x131072, .i32⟩ : BufTy).Contents (Elt F) → (⟨S32x131072, .i32⟩ : BufTy).Contents (Elt F) → (⟨S32x131072, .i1⟩ : BufTy).Contents (Elt F)),
    binary main_v511 main_v513 main_v514 (andi : (⟨S32x131072, .i1⟩ : BufTy).Contents (Elt F) → (⟨S32x131072, .i1⟩ : BufTy).Contents (Elt F) → (⟨S32x131072, .i1⟩ : BufTy).Contents (Elt F)),
    nullary main_c_215 (constantI S_ 32 0#32),
    nullary main_c_216 (constantI S_ 32 63#32),
    TRef.unary (TRef.of (T := ⟨S_, .i32⟩) main_c_215) (TRef.of (T := ⟨S_, .i32⟩) main_call45_v0) id,
    TRef.unary (TRef.of (T := ⟨S_, .i32⟩) main_call45_v0) (TRef.of (T := ⟨S32x131072, .i32⟩) main_call45_v1) (broadcastInDim S32x131072 ![] bcast_S_S32x131072),
    TRef.binary (TRef.of (T := ⟨S32x131072, .i32⟩) main_call45_v1) (TRef.of (T := ⟨S32x131072, .i32⟩) main_v482) (TRef.of (T := ⟨S32x131072, .i32⟩) main_call45_v2) maxsi,
    TRef.unary (TRef.of (T := ⟨S_, .i32⟩) main_c_216) (TRef.of (T := ⟨S_, .i32⟩) main_call45_v3) id,
    TRef.unary (TRef.of (T := ⟨S_, .i32⟩) main_call45_v3) (TRef.of (T := ⟨S32x131072, .i32⟩) main_call45_v4) (broadcastInDim S32x131072 ![] bcast_S_S32x131072),
    TRef.binary (TRef.of (T := ⟨S32x131072, .i32⟩) main_call45_v4) (TRef.of (T := ⟨S32x131072, .i32⟩) main_call45_v2) (TRef.of (T := ⟨S32x131072, .i32⟩) main_v515) minsi,
    nullary main_c_217 (constantI S_ 32 0#32),
    nullary main_c_218 (constantI S_ 32 63#32),
    TRef.unary (TRef.of (T := ⟨S_, .i32⟩) main_c_217) (TRef.of (T := ⟨S_, .i32⟩) main_call46_v0) id,
    TRef.unary (TRef.of (T := ⟨S_, .i32⟩) main_call46_v0) (TRef.of (T := ⟨S32x131072, .i32⟩) main_call46_v1) (broadcastInDim S32x131072 ![] bcast_S_S32x131072),
    TRef.binary (TRef.of (T := ⟨S32x131072, .i32⟩) main_call46_v1) (TRef.of (T := ⟨S32x131072, .i32⟩) main_v484) (TRef.of (T := ⟨S32x131072, .i32⟩) main_call46_v2) maxsi,
    TRef.unary (TRef.of (T := ⟨S_, .i32⟩) main_c_218) (TRef.of (T := ⟨S_, .i32⟩) main_call46_v3) id,
    TRef.unary (TRef.of (T := ⟨S_, .i32⟩) main_call46_v3) (TRef.of (T := ⟨S32x131072, .i32⟩) main_call46_v4) (broadcastInDim S32x131072 ![] bcast_S_S32x131072),
    TRef.binary (TRef.of (T := ⟨S32x131072, .i32⟩) main_call46_v4) (TRef.of (T := ⟨S32x131072, .i32⟩) main_call46_v2) (TRef.of (T := ⟨S32x131072, .i32⟩) main_v516) minsi,
    nullary main_c_219 (constantI S_ 32 0#32),
    nullary main_c_220 (constantI S_ 32 63#32),
    TRef.unary (TRef.of (T := ⟨S_, .i32⟩) main_c_219) (TRef.of (T := ⟨S_, .i32⟩) main_call47_v0) id,
    TRef.unary (TRef.of (T := ⟨S_, .i32⟩) main_call47_v0) (TRef.of (T := ⟨S32x131072, .i32⟩) main_call47_v1) (broadcastInDim S32x131072 ![] bcast_S_S32x131072),
    TRef.binary (TRef.of (T := ⟨S32x131072, .i32⟩) main_call47_v1) (TRef.of (T := ⟨S32x131072, .i32⟩) main_v486) (TRef.of (T := ⟨S32x131072, .i32⟩) main_call47_v2) maxsi,
    TRef.unary (TRef.of (T := ⟨S_, .i32⟩) main_c_220) (TRef.of (T := ⟨S_, .i32⟩) main_call47_v3) id,
    TRef.unary (TRef.of (T := ⟨S_, .i32⟩) main_call47_v3) (TRef.of (T := ⟨S32x131072, .i32⟩) main_call47_v4) (broadcastInDim S32x131072 ![] bcast_S_S32x131072),
    TRef.binary (TRef.of (T := ⟨S32x131072, .i32⟩) main_call47_v4) (TRef.of (T := ⟨S32x131072, .i32⟩) main_call47_v2) (TRef.of (T := ⟨S32x131072, .i32⟩) main_v517) minsi,
    nullary main_c_221 (constantI S_ 32 0#32),
    unary main_c_221 main_v518 (broadcastInDim S32x131072 ![] bcast_S_S32x131072 : (⟨S_, .i32⟩ : BufTy).Contents (Elt F) → (⟨S32x131072, .i32⟩ : BufTy).Contents (Elt F)),
    binary main_v517 main_v518 main_v519 (cmpi .slt : (⟨S32x131072, .i32⟩ : BufTy).Contents (Elt F) → (⟨S32x131072, .i32⟩ : BufTy).Contents (Elt F) → (⟨S32x131072, .i1⟩ : BufTy).Contents (Elt F)),
    nullary main_c_222 (constantI S_ 32 64#32),
    unary main_c_222 main_v520 (broadcastInDim S32x131072 ![] bcast_S_S32x131072 : (⟨S_, .i32⟩ : BufTy).Contents (Elt F) → (⟨S32x131072, .i32⟩ : BufTy).Contents (Elt F)),
    binary main_v517 main_v520 main_v521 (addi : (⟨S32x131072, .i32⟩ : BufTy).Contents (Elt F) → (⟨S32x131072, .i32⟩ : BufTy).Contents (Elt F) → (⟨S32x131072, .i32⟩ : BufTy).Contents (Elt F)),
    ternary main_v519 main_v521 main_v517 main_v522 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_223 (constantI S_ 32 0#32),
    unary main_c_223 main_v523 (broadcastInDim S32x131072 ![] bcast_S_S32x131072 : (⟨S_, .i32⟩ : BufTy).Contents (Elt F) → (⟨S32x131072, .i32⟩ : BufTy).Contents (Elt F)),
    binary main_v516 main_v523 main_v524 (cmpi .slt : (⟨S32x131072, .i32⟩ : BufTy).Contents (Elt F) → (⟨S32x131072, .i32⟩ : BufTy).Contents (Elt F) → (⟨S32x131072, .i1⟩ : BufTy).Contents (Elt F)),
    nullary main_c_224 (constantI S_ 32 64#32),
    unary main_c_224 main_v525 (broadcastInDim S32x131072 ![] bcast_S_S32x131072 : (⟨S_, .i32⟩ : BufTy).Contents (Elt F) → (⟨S32x131072, .i32⟩ : BufTy).Contents (Elt F)),
    binary main_v516 main_v525 main_v526 (addi : (⟨S32x131072, .i32⟩ : BufTy).Contents (Elt F) → (⟨S32x131072, .i32⟩ : BufTy).Contents (Elt F) → (⟨S32x131072, .i32⟩ : BufTy).Contents (Elt F)),
    ternary main_v524 main_v526 main_v516 main_v527 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_225 (constantI S_ 32 0#32),
    unary main_c_225 main_v528 (broadcastInDim S32x131072 ![] bcast_S_S32x131072 : (⟨S_, .i32⟩ : BufTy).Contents (Elt F) → (⟨S32x131072, .i32⟩ : BufTy).Contents (Elt F)),
    binary main_v515 main_v528 main_v529 (cmpi .slt : (⟨S32x131072, .i32⟩ : BufTy).Contents (Elt F) → (⟨S32x131072, .i32⟩ : BufTy).Contents (Elt F) → (⟨S32x131072, .i1⟩ : BufTy).Contents (Elt F)),
    nullary main_c_226 (constantI S_ 32 64#32),
    unary main_c_226 main_v530 (broadcastInDim S32x131072 ![] bcast_S_S32x131072 : (⟨S_, .i32⟩ : BufTy).Contents (Elt F) → (⟨S32x131072, .i32⟩ : BufTy).Contents (Elt F)),
    binary main_v515 main_v530 main_v531 (addi : (⟨S32x131072, .i32⟩ : BufTy).Contents (Elt F) → (⟨S32x131072, .i32⟩ : BufTy).Contents (Elt F) → (⟨S32x131072, .i32⟩ : BufTy).Contents (Elt F)),
    ternary main_v529 main_v531 main_v515 main_v532 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v522 main_v533 (broadcastInDim S32x131072x1 ![0, 1] bcast_S32x131072_S32x131072x1_0_1 : (⟨S32x131072, .i32⟩ : BufTy).Contents (Elt F) → (⟨S32x131072x1, .i32⟩ : BufTy).Contents (Elt F)),
    unary main_v527 main_v534 (broadcastInDim S32x131072x1 ![0, 1] bcast_S32x131072_S32x131072x1_0_1 : (⟨S32x131072, .i32⟩ : BufTy).Contents (Elt F) → (⟨S32x131072x1, .i32⟩ : BufTy).Contents (Elt F)),
    unary main_v532 main_v535 (broadcastInDim S32x131072x1 ![0, 1] bcast_S32x131072_S32x131072x1_0_1 : (⟨S32x131072, .i32⟩ : BufTy).Contents (Elt F) → (⟨S32x131072x1, .i32⟩ : BufTy).Contents (Elt F)),
    nary ![main_v533, main_v534, main_v535] main_v536 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v536 main_v537 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v514 main_v538 (uitofp .f32 : (⟨S32x131072, .i1⟩ : BufTy).Contents (Elt F) → (⟨S32x131072, .f32⟩ : BufTy).Contents (Elt F)),
    binary main_v497 main_v538 main_v539 (mulf : (⟨S32x131072, .f32⟩ : BufTy).Contents (Elt F) → (⟨S32x131072, .f32⟩ : BufTy).Contents (Elt F) → (⟨S32x131072, .f32⟩ : BufTy).Contents (Elt F)),
    unary main_v539 main_v540 (broadcastInDim S1x32x131072 ![1, 2] bcast_S32x131072_S1x32x131072_1_2 : (⟨S32x131072, .f32⟩ : BufTy).Contents (Elt F) → (⟨S1x32x131072, .f32⟩ : BufTy).Contents (Elt F)),
    unary main_v540 main_v541 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v537 main_v541 main_v542 (mulf : (⟨S3x32x131072, .f32⟩ : BufTy).Contents (Elt F) → (⟨S3x32x131072, .f32⟩ : BufTy).Contents (Elt F) → (⟨S3x32x131072, .f32⟩ : BufTy).Contents (Elt F)),
    binary main_v480 main_v542 main_v543 (addf : (⟨S3x32x131072, .f32⟩ : BufTy).Contents (Elt F) → (⟨S3x32x131072, .f32⟩ : BufTy).Contents (Elt F) → (⟨S3x32x131072, .f32⟩ : BufTy).Contents (Elt F)),
    unary main_v543 main_v544 ((transpose S32x131072x3 [1, 2, 0] · transposes_S3x32x131072_S32x131072x3_1_2_0) : (⟨S3x32x131072, .f32⟩ : BufTy).Contents (Elt F) → (⟨S32x131072x3, .f32⟩ : BufTy).Contents (Elt F)),
    binary main_arg0 main_v544 main_v545 (addf : (⟨S32x131072x3, .f32⟩ : BufTy).Contents (Elt F) → (⟨S32x131072x3, .f32⟩ : BufTy).Contents (Elt F) → (⟨S32x131072x3, .f32⟩ : BufTy).Contents (Elt F)) ]

set_option maxRecDepth 4096 in
set_option maxHeartbeats 4000000 in
/-- The window is the straight line of its operations. -/
theorem part12_eq (c : Dev nD) : main_part12 (F := F) c = seq opsW12 := by
  simp only [main_part12, fn_where.body, fn_clip.body, seq, bind_assoc, pure_bind]

set_option maxRecDepth 8192 in
/-- The window's operations as a stretch of the cut lists. -/
theorem opsW12_eq : (opsW12 (F := F)) = List.drop 43 opsC7 ++ (opsT) := rfl

end Cert.RefRun

end
-- ==== Proof.RefRunSub.lean ====
/-
  Every operation of the reference's ten lists touches TensorCore references only, and none of them leaves a buffer
  undetermined: one item per operation, in the list's order.
-/
import proofs.«174278_j48524540510565_1_alg».proof.Proof.RefRunP
import proofs.«174278_j48524540510565_1_alg».proof.Proof.RefRunC0
import proofs.«174278_j48524540510565_1_alg».proof.Proof.RefRunC1
import proofs.«174278_j48524540510565_1_alg».proof.Proof.RefRunC2
import proofs.«174278_j48524540510565_1_alg».proof.Proof.RefRunC3
import proofs.«174278_j48524540510565_1_alg».proof.Proof.RefRunC4
import proofs.«174278_j48524540510565_1_alg».proof.Proof.RefRunC5
import proofs.«174278_j48524540510565_1_alg».proof.Proof.RefRunC6
import proofs.«174278_j48524540510565_1_alg».proof.Proof.RefRunC7
import proofs.«174278_j48524540510565_1_alg».proof.Proof.RefRunT

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the list touches TensorCore references only. -/
theorem opsP_sub : (opsP (F := F)).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., binary_bufs_sub .., binary_bufs_sub .., unary_bufs_sub .., unary_bufs_sub .., unary_bufs_sub .., nullary_bufs_sub .., unary_bufs_sub ..⟩

set_option maxRecDepth 8192 in
/-- Each operation of the list determines its result. -/
theorem opsP_fresh : (opsP (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsC0_sub : (opsC0 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub ..⟩

set_option maxRecDepth 8192 in
/-- Each operation of the list determines its result. -/
theorem opsC0_fresh : (opsC0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsC1_sub : (opsC1 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub ..⟩

set_option maxRecDepth 8192 in
/-- Each operation of the list determines its result. -/
theorem opsC1_fresh : (opsC1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsC2_sub : (opsC2 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub ..⟩

set_option maxRecDepth 8192 in
/-- Each operation of the list determines its result. -/
theorem opsC2_fresh : (opsC2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsC3_sub : (opsC3 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub ..⟩

set_option maxRecDepth 8192 in
/-- Each operation of the list determines its result. -/
theorem opsC3_fresh : (opsC3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsC4_sub : (opsC4 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub ..⟩

set_option maxRecDepth 8192 in
/-- Each operation of the list determines its result. -/
theorem opsC4_fresh : (opsC4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsC5_sub : (opsC5 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub ..⟩

set_option maxRecDepth 8192 in
/-- Each operation of the list determines its result. -/
theorem opsC5_fresh : (opsC5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsC6_sub : (opsC6 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub ..⟩

set_option maxRecDepth 8192 in
/-- Each operation of the list determines its result. -/
theorem opsC6_fresh : (opsC6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsC7_sub : (opsC7 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., unary_bufs_sub .., binary_bufs_sub .., binary_bufs_sub ..⟩

set_option maxRecDepth 8192 in
/-- Each operation of the list determines its result. -/
theorem opsC7_fresh : (opsC7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the list touches TensorCore references only. -/
theorem opsT_sub : (opsT (F := F)).Forall fun op => op.bufs ⊆ tcRefs τ sig :=
  ⟨unary_bufs_sub .., binary_bufs_sub ..⟩

set_option maxRecDepth 8192 in
/-- Each operation of the list determines its result. -/
theorem opsT_fresh : (opsT (F := F)).Forall fun op => op.fresh = ∅ :=
  ⟨rfl, rfl⟩

end Cert.RefRun

end
-- ==== Proof.RefRunMain.lean ====
/-
  The reference's @main is the straight line of its 943 operations, written as the operations before the corners,
  the eight corners' and the two after them, appended in order. @main runs thirteen windows one after the other; each is
  the straight line of its own operations, a straight line after a straight line is the straight line of the appended
  lists, and the thirteen windows' operations appended are the ten lists appended: two groupings of one sequence. Every
  operation touches TensorCore references only and determines its result, and the program scopes no buffer and no
  semaphore.
-/
import proofs.«174278_j48524540510565_1_alg».proof.Proof.RefRunW0
import proofs.«174278_j48524540510565_1_alg».proof.Proof.RefRunW1
import proofs.«174278_j48524540510565_1_alg».proof.Proof.RefRunW2
import proofs.«174278_j48524540510565_1_alg».proof.Proof.RefRunW3
import proofs.«174278_j48524540510565_1_alg».proof.Proof.RefRunW4
import proofs.«174278_j48524540510565_1_alg».proof.Proof.RefRunW5
import proofs.«174278_j48524540510565_1_alg».proof.Proof.RefRunW6
import proofs.«174278_j48524540510565_1_alg».proof.Proof.RefRunW7
import proofs.«174278_j48524540510565_1_alg».proof.Proof.RefRunW8
import proofs.«174278_j48524540510565_1_alg».proof.Proof.RefRunW9
import proofs.«174278_j48524540510565_1_alg».proof.Proof.RefRunW10
import proofs.«174278_j48524540510565_1_alg».proof.Proof.RefRunW11
import proofs.«174278_j48524540510565_1_alg».proof.Proof.RefRunW12
import proofs.«174278_j48524540510565_1_alg».proof.Proof.RefRunSub

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- All the operations of @main, in order: the ten lists appended. -/
abbrev opsAll : List (HloOp τ sig (Elt F)) :=
  opsP ++ (opsC0 ++ (opsC1 ++ (opsC2 ++ (opsC3 ++ (opsC4 ++ (opsC5 ++ (opsC6 ++ (opsC7 ++ (opsT)))))))))

/-- A straight line after a straight line is the straight line of the appended lists. -/
theorem seq_then {l r : List (HloOp τ sig (Elt F))}
    {p q : Prog (TpuEff nD τ sig (Elt F) (Pipeline.Sig Λ₀ (Fin 0) fun p => (pcfgs (F := F) p).Adm) .tc) PUnit}
    (hp : p = seq l) (hq : q = seq r) : (p >>= fun _ => q) = seq (l ++ r) := by
  rw [seq_append, hp, hq]

/-- @main is the straight line of the windows' operations, appended in order. -/
theorem main_eq_win (c : Dev nD) : main (F := F) c = seq (opsW0 ++ (opsW1 ++ (opsW2 ++ (opsW3 ++ (opsW4 ++ (opsW5 ++ (opsW6 ++ (opsW7 ++ (opsW8 ++ (opsW9 ++ (opsW10 ++ (opsW11 ++ (opsW12))))))))))))) :=
  seq_then (part0_eq c) (seq_then (part1_eq c) (seq_then (part2_eq c) (seq_then (part3_eq c) (seq_then (part4_eq c) (seq_then (part5_eq c) (seq_then (part6_eq c) (seq_then (part7_eq c) (seq_then (part8_eq c) (seq_then (part9_eq c) (seq_then (part10_eq c) (seq_then (part11_eq c) ((part12_eq c)))))))))))))

/-- A list cut in two and appended again, in front of anything, is the list in front of it. -/
theorem split2 {α : Type} (n : Nat) (l X : List α) : List.take n l ++ (List.drop n l ++ X) = l ++ X := by
  rw [← List.append_assoc, List.take_append_drop]

/-- Ten lists, cut where the windows end and appended window by window, are the ten lists appended. -/
theorem regroup_lists {α : Type} (P C0 C1 C2 C3 C4 C5 C6 C7 T : List α) :
    (P ++ (List.take 7 C0)) ++ ((List.take 81 (List.drop 7 C0)) ++ ((List.drop 81 (List.drop 7 C0) ++ (List.take 43 C1)) ++ ((List.drop 43 C1 ++ (List.take 7 C2)) ++ ((List.take 81 (List.drop 7 C2)) ++ ((List.drop 81 (List.drop 7 C2) ++ (List.take 43 C3)) ++ ((List.drop 43 C3 ++ (List.take 7 C4)) ++ ((List.take 81 (List.drop 7 C4)) ++ ((List.drop 81 (List.drop 7 C4) ++ (List.take 43 C5)) ++ ((List.drop 43 C5 ++ (List.take 7 C6)) ++ ((List.take 81 (List.drop 7 C6)) ++ ((List.drop 81 (List.drop 7 C6) ++ (List.take 43 C7)) ++ ((List.drop 43 C7 ++ (T))))))))))))))
      = P ++ (C0 ++ (C1 ++ (C2 ++ (C3 ++ (C4 ++ (C5 ++ (C6 ++ (C7 ++ (T))))))))) := by
  simp only [List.append_assoc, split2]

/-- The two groupings of the one sequence: the windows' operations appended are all the operations. -/
theorem opsWin_eq : (opsW0 ++ (opsW1 ++ (opsW2 ++ (opsW3 ++ (opsW4 ++ (opsW5 ++ (opsW6 ++ (opsW7 ++ (opsW8 ++ (opsW9 ++ (opsW10 ++ (opsW11 ++ (opsW12)))))))))))) : List (HloOp τ sig (Elt F))) = opsAll :=
  (congrArg₂ (· ++ ·) opsW0_eq (congrArg₂ (· ++ ·) opsW1_eq (congrArg₂ (· ++ ·) opsW2_eq (congrArg₂ (· ++ ·) opsW3_eq (congrArg₂ (· ++ ·) opsW4_eq (congrArg₂ (· ++ ·) opsW5_eq (congrArg₂ (· ++ ·) opsW6_eq (congrArg₂ (· ++ ·) opsW7_eq (congrArg₂ (· ++ ·) opsW8_eq (congrArg₂ (· ++ ·) opsW9_eq (congrArg₂ (· ++ ·) opsW10_eq (congrArg₂ (· ++ ·) opsW11_eq (opsW12_eq))))))))))))).trans
    (regroup_lists opsP opsC0 opsC1 opsC2 opsC3 opsC4 opsC5 opsC6 opsC7 opsT)

/-- @main is the straight line of all its operations. -/
theorem main_eq (c : Dev nD) : main (F := F) c = seq opsAll :=
  (main_eq_win c).trans (congrArg seq opsWin_eq)

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opsAll_sub : (opsAll (F := F)).Forall fun op => op.bufs ⊆ tcRefs τ sig :=
  List.forall_append.mpr ⟨opsP_sub, List.forall_append.mpr ⟨opsC0_sub, List.forall_append.mpr ⟨opsC1_sub, List.forall_append.mpr ⟨opsC2_sub, List.forall_append.mpr ⟨opsC3_sub, List.forall_append.mpr ⟨opsC4_sub, List.forall_append.mpr ⟨opsC5_sub, List.forall_append.mpr ⟨opsC6_sub, List.forall_append.mpr ⟨opsC7_sub, opsT_sub⟩⟩⟩⟩⟩⟩⟩⟩⟩

/-- Every operation determines its result. -/
theorem opsAll_fresh : ∀ op ∈ (opsAll (F := F)), op.fresh = ∅ :=
  List.forall_iff_forall_mem.mp (List.forall_append.mpr ⟨opsP_fresh, List.forall_append.mpr ⟨opsC0_fresh, List.forall_append.mpr ⟨opsC1_fresh, List.forall_append.mpr ⟨opsC2_fresh, List.forall_append.mpr ⟨opsC3_fresh, List.forall_append.mpr ⟨opsC4_fresh, List.forall_append.mpr ⟨opsC5_fresh, List.forall_append.mpr ⟨opsC6_fresh, List.forall_append.mpr ⟨opsC7_fresh, opsT_fresh⟩⟩⟩⟩⟩⟩⟩⟩⟩)

end Cert.RefRun

end
-- ==== Proof.RefRunPS.lean ====
/-
  What the operations before the first corner leave in the buffers later operations read, from any contents W: the
  three fractional parts, the three cells and the zero the sum starts from, each the stage's own composition of the
  point array's buffer.
-/
import proofs.«174278_j48524540510565_1_alg».proof.Proof.RefRunP
import proofs.«174278_j48524540510565_1_alg».proof.Proof.ReadP

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

set_option maxRecDepth 8192 in
set_option maxHeartbeats 40000000 in
/-- The buffer of stage 33 after the list. -/
theorem opsP_v33 (W : Valuation τ sig (Elt F)) :
    after (opsP (F := F)) W (Proc.devRef .tc main_v33) = val_main_v33 (F := F) (W (Proc.devRef .tc main_arg0)) := by
  after_results_simp <;> rfl

set_option maxRecDepth 8192 in
set_option maxHeartbeats 40000000 in
/-- The buffer of stage 34 after the list. -/
theorem opsP_v34 (W : Valuation τ sig (Elt F)) :
    after (opsP (F := F)) W (Proc.devRef .tc main_v34) = val_main_v34 (F := F) (W (Proc.devRef .tc main_arg0)) := by
  after_results_simp <;> rfl

set_option maxRecDepth 8192 in
set_option maxHeartbeats 40000000 in
/-- The buffer of stage 35 after the list. -/
theorem opsP_v35 (W : Valuation τ sig (Elt F)) :
    after (opsP (F := F)) W (Proc.devRef .tc main_v35) = val_main_v35 (F := F) (W (Proc.devRef .tc main_arg0)) := by
  after_results_simp <;> rfl

set_option maxRecDepth 8192 in
set_option maxHeartbeats 40000000 in
/-- The buffer of stage 36 after the list. -/
theorem opsP_v36 (W : Valuation τ sig (Elt F)) :
    after (opsP (F := F)) W (Proc.devRef .tc main_v36) = val_main_v36 (F := F) (W (Proc.devRef .tc main_arg0)) := by
  after_results_simp <;> rfl

set_option maxRecDepth 8192 in
set_option maxHeartbeats 40000000 in
/-- The buffer of stage 37 after the list. -/
theorem opsP_v37 (W : Valuation τ sig (Elt F)) :
    after (opsP (F := F)) W (Proc.devRef .tc main_v37) = val_main_v37 (F := F) (W (Proc.devRef .tc main_arg0)) := by
  after_results_simp <;> rfl

set_option maxRecDepth 8192 in
set_option maxHeartbeats 40000000 in
/-- The buffer of stage 38 after the list. -/
theorem opsP_v38 (W : Valuation τ sig (Elt F)) :
    after (opsP (F := F)) W (Proc.devRef .tc main_v38) = val_main_v38 (F := F) (W (Proc.devRef .tc main_arg0)) := by
  after_results_simp <;> rfl

/-- The zero the sum starts from. -/
theorem opsP_v39 (W : Valuation τ sig (Elt F)) :
    after (opsP (F := F)) W (Proc.devRef .tc main_v39) = val_main_v39 (F := F) := by
  after_results_simp <;> rfl

end Cert.RefRun

end
-- ==== Proof.RefRunLib.lean ====
/-
  A list of host operations read at one buffer, when one of the operations takes a literal family of THREE operand
  buffers (a join of three arrays along an axis). The operation's result at its own buffer is its function of the
  family of the operands' contents; written with each operand's contents at its own literal buffer (the family built
  entry by entry rather than by a function of the position), the contents of the three operands can in turn be
  rewritten by the operations that wrote them. With that equation added, one rewriting pass turns "the contents of a
  buffer after the list" into the composition of the operations' functions over the contents before the list.
-/
import Idealize.ShloMosaic.Lib.StableHlo.Run

noncomputable section

namespace Cert.RefRun

open Idealize.ShloMosaic Idealize.ShloMosaic.StableHlo

variable {τ : Topo} {sig : RefSig} {Val : EltTy → Type}
variable {x a b y : Ref sig .tc}

/-- The result of an operation over a literal family of three operand buffers, at its own buffer: its function of
    the three operands' contents, each read at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for the rewriting pass (the result buffer is matched up to unfolding). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A family over three positions built entry by entry, read at each of the three positions. -/
theorem cons3_zero {α : Fin 3 → Sort _} (A : α 0) (p : (i : Fin 2) → α i.succ) :
    (Fin.cons A p : (i : Fin 3) → α i) 0 = A := rfl
theorem cons3_one {α : Fin 3 → Sort _} (A : α 0) (p : (i : Fin 2) → α i.succ) :
    (Fin.cons A p : (i : Fin 3) → α i) 1 = p 0 := rfl
theorem cons3_two {α : Fin 3 → Sort _} (A : α 0) (p : (i : Fin 2) → α i.succ) :
    (Fin.cons A p : (i : Fin 3) → α i) 2 = p 1 := rfl
theorem cons2_zero {α : Fin 2 → Sort _} (A : α 0) (p : (i : Fin 1) → α i.succ) :
    (Fin.cons A p : (i : Fin 2) → α i) 0 = A := rfl
theorem cons2_one {α : Fin 2 → Sort _} (A : α 0) (p : (i : Fin 1) → α i.succ) :
    (Fin.cons A p : (i : Fin 2) → α i) 1 = p 0 := rfl
theorem cons1_zero {α : Fin 1 → Sort _} (A : α 0) (p : (i : Fin 0) → α i.succ) :
    (Fin.cons A p : (i : Fin 1) → α i) 0 = A := rfl

/-- The join of three arrays along an axis as a function of the three arrays themselves (the same join: the list of
    shaped pieces is built from them), so that each array is an argument of its own. -/
def cat3 {α : Type} (t : Shape) (ax : Fin t.rank) (s0 s1 s2 : Shape) (hc : Shape.Concatenates [s0, s1, s2] t ax)
    (P0 : s0.Idx → α) (P1 : s1.Idx → α) (P2 : s2.Idx → α) : t.Idx → α :=
  concatenate t ax [⟨s0, P0⟩, ⟨s1, P1⟩, ⟨s2, P2⟩] hc

theorem concatenate_eq_cat3 {α : Type} (t : Shape) (ax : Fin t.rank) (s0 s1 s2 : Shape) (P0 : s0.Idx → α) (P1 : s1.Idx → α)
    (P2 : s2.Idx → α)
    (hc : Shape.Concatenates [s0, s1, s2] t ax) :
    concatenate t ax [⟨s0, P0⟩, ⟨s1, P1⟩, ⟨s2, P2⟩] hc = cat3 t ax s0 s1 s2 hc P0 P1 P2 := rfl

/-- One rewriting pass over a literal list of operations read at a buffer: every operation's result at its own
    buffer is its function of its operands' contents, and at any other buffer what was there before it. -/
macro "after_results_simp3" : tactic =>
  `(tactic| (simp (disch := decide) only [after_cons, after_nil,
      nullary_result', unary_result', binary_result', ternary_result', quaternary_result', reshape_result', nary3_result', concatenate_eq_cat3,
      cons3_zero, cons3_one, cons3_two, cons2_zero, cons2_one, cons1_zero,
      nullary_result_ne', unary_result_ne', binary_result_ne', ternary_result_ne', quaternary_result_ne', reshape_result_ne',
      nary_result_ne']))

/-- The same computation by single rewriting steps, outermost first, for what is left inside a join's pieces (where
    the one pass does not enter): each operation's result at its own buffer is its function's value, at any other
    buffer what was there. -/
macro "after_results_rw3" : tactic =>
  `(tactic| (repeat (first
               | rw [cons3_zero] | rw [cons3_one] | rw [cons3_two] | rw [cons2_zero] | rw [cons2_one] | rw [cons1_zero]
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Cert.RefRun

end
-- ==== Proof.Spec.lean ====
/-
  The mathematics both programs compute, over the extended reals and 32-bit words, with no program in sight.

  A point has three coordinates p; on each axis the coordinate is unnormalised to a grid position
  u = ((p + 1) * 64 - 1) * (1/2), split into its integer cell (the floor, converted to a 32-bit word by the
  truncate-and-clamp conversion) and its fractional part t = u - floor u.

  One program weighs the 64 lanes of an axis by a two-hot vector: lane k gets 1 - t when k is the cell,
  t when k is the cell plus one (in 32-bit arithmetic), and 0 otherwise, and contracts the grid with the three
  axes' weight vectors one axis after the other.

  The other program adds up the eight corners of the cell: corner (dx, dy, dz) reads the grid at the corner's
  coordinates clipped into [0, 63], weighs it by the product of t or 1 - t per axis, and drops it (a 0/1 factor)
  unless all three unclipped coordinates lie in [0, 64).

  The two are stated here as `kout` and `rout`; that they agree on real inputs is proved elsewhere.
-/
import Idealize.ShloMosaic.PureOps.Ideal
import Idealize.ShloMosaic.Lib.ValueIdx

noncomputable section

open scoped BigOperators

namespace Cert.Tri

open Idealize.ShloMosaic Idealize.ShloMosaic.ValueIdx

/-! ## The four float literals (the same words in both programs) -/

/-- 1.0 -/
abbrev one : EReal := Ideal.ofBits .f32 0x3F800000#32
/-- 64.0 -/
abbrev c64 : EReal := Ideal.ofBits .f32 0x42800000#32
/-- 0.5 -/
abbrev half : EReal := Ideal.ofBits .f32 0x3F000000#32
/-- 0.0 -/
abbrev zero : EReal := Ideal.ofBits .f32 0x00000000#32

/-! ## A coordinate's grid position, cell and fractional part -/

/-- The grid position of a normalised coordinate: ((p + 1) * 64 - 1) * 0.5. -/
def unnorm (p : EReal) : EReal := ((p + one) * c64 - one) * half
/-- Its floor. -/
def flo (p : EReal) : EReal := Ideal.liftRound Int.floor (unnorm p)
/-- Its fractional part. -/
def frac (p : EReal) : EReal := unnorm p - flo p
/-- Its cell: the floor as a 32-bit word (truncated and clamped). -/
def cell (p : EReal) : BitVec 32 := Ideal.fptosi 32 (flo p)

/-! ## The two-hot contraction -/

/-- Lane `k`'s weight on an axis whose cell is `i0` and fractional part `f`. -/
def hot (i0 : BitVec 32) (f : EReal) (k : Fin 64) : EReal :=
  (if BitVec.ofNat 32 k.val = i0 then one - f else zero) + (if BitVec.ofNat 32 k.val = i0 + 1#32 then f else zero)

/-- The grid contracted with the three axes' weights: the last axis first, then the middle one, then the first. -/
def kflow (g : Fin 3 → Fin 64 → Fin 64 → Fin 64 → EReal) (px py pz : EReal) (c : Fin 3) : EReal :=
  ∑ d : Fin 64, (∑ h : Fin 64, (∑ w : Fin 64, hot (cell px) (frac px) w * g c d h w) * hot (cell py) (frac py) h)
    * hot (cell pz) (frac pz) d

/-- A point plus its interpolated value, channel `c`. -/
def kout (g : Fin 3 → Fin 64 → Fin 64 → Fin 64 → EReal) (p : Fin 3 → EReal) (c : Fin 3) : EReal :=
  p c + kflow g (p 0) (p 1) (p 2) c

/-! ## The eight corners -/

/-- A coordinate clipped into [0, 63] (signed maximum with 0, then signed minimum with 63). -/
def clip63 (a : BitVec 32) : BitVec 32 := IntOp.minsi 63#32 (IntOp.maxsi 0#32 a)
/-- A negative index counted from the end of an axis of 64. -/
def wrap64 (a : BitVec 32) : BitVec 32 := Scalar.select (IntOp.cmpi .slt a 0#32) (IntOp.addi a 64#32) a
/-- The position a gather reads on an axis of 64 for the start index `a`: the word read signed, negative as 0, and
    at most 63. -/
def gidx (a : BitVec 32) : Fin 64 := ⟨min (wrap64 (clip63 a)).toInt.toNat 63, by omega⟩
/-- All three coordinates lie in [0, 64): the six comparisons joined in the order x ≥ 0, x < 64, y ≥ 0, y < 64,
    z ≥ 0, z < 64. -/
def validb (x y z : BitVec 32) : BitVec 1 :=
  IntOp.andi (IntOp.andi (IntOp.andi (IntOp.andi (IntOp.andi (IntOp.cmpi .sge x 0#32) (IntOp.cmpi .slt x 64#32))
    (IntOp.cmpi .sge y 0#32)) (IntOp.cmpi .slt y 64#32)) (IntOp.cmpi .sge z 0#32)) (IntOp.cmpi .slt z 64#32)
/-- The axis weight of a corner: `t` on the far side (`k ≠ 0`), `1 - t` on the near side. -/
def pick (k : BitVec 32) (t : EReal) : EReal := Scalar.select (IntOp.cmpi .ne k 0#32) t (one - t)

/-- Corner (dx, dy, dz)'s contribution to channel `c`. -/
def corner (g : Fin 3 → Fin 64 → Fin 64 → Fin 64 → EReal) (px py pz : EReal) (dx dy dz : BitVec 32) (c : Fin 3) : EReal :=
  g c (gidx (IntOp.addi (cell pz) dz)) (gidx (IntOp.addi (cell py) dy)) (gidx (IntOp.addi (cell px) dx))
    * (((pick dx (frac px) * pick dy (frac py)) * pick dz (frac pz))
        * (((validb (IntOp.addi (cell px) dx) (IntOp.addi (cell py) dy) (IntOp.addi (cell pz) dz)).toNat : ℝ) : EReal))

/-- The eight corners added to zero in the order 000, 001, 010, 011, 100, 101, 110, 111 (dx, dy, dz). -/
def rflow (g : Fin 3 → Fin 64 → Fin 64 → Fin 64 → EReal) (px py pz : EReal) (c : Fin 3) : EReal :=
  (((((((zero + corner g px py pz 0#32 0#32 0#32 c) + corner g px py pz 0#32 0#32 1#32 c)
    + corner g px py pz 0#32 1#32 0#32 c) + corner g px py pz 0#32 1#32 1#32 c)
    + corner g px py pz 1#32 0#32 0#32 c) + corner g px py pz 1#32 0#32 1#32 c)
    + corner g px py pz 1#32 1#32 0#32 c) + corner g px py pz 1#32 1#32 1#32 c

/-- A point plus the sum of its eight corners, channel `c`. -/
def rout (g : Fin 3 → Fin 64 → Fin 64 → Fin 64 → EReal) (p : Fin 3 → EReal) (c : Fin 3) : EReal :=
  p c + rflow g (p 0) (p 1) (p 2) c

/-! ## The whole arrays -/

/-- Channel `c`, depth `d`, height `h` of the grid as one column number of the grid laid out [64, 3 * 64 * 64]
    (the width first): c * 4096 + d * 64 + h. -/
def colOf (c : Fin 3) (d h : Fin 64) : Fin 12288 := ⟨c.val * 4096 + d.val * 64 + h.val, by omega⟩

/-- The grid array [3, 64, 64, 64] by its coordinates. -/
def gridOf (x1 : (⟨4, ![3, 64, 64, 64]⟩ : Shape).Idx → EReal) : Fin 3 → Fin 64 → Fin 64 → Fin 64 → EReal :=
  fun c d h w => x1 (ix4 c d h w)
/-- Point (b, n) of the point array [32, 131072, 3]. -/
def pointOf (x0 : (⟨3, ![32, 131072, 3]⟩ : Shape).Idx → EReal) (b : Fin 32) (n : Fin 131072) : Fin 3 → EReal :=
  fun a => x0 (ix3 b n a)

/-- The result array of the two-hot program. -/
def Gk (x0 : (⟨3, ![32, 131072, 3]⟩ : Shape).Idx → EReal) (x1 : (⟨4, ![3, 64, 64, 64]⟩ : Shape).Idx → EReal) :
    (⟨3, ![32, 131072, 3]⟩ : Shape).Idx → EReal :=
  fun i => kout (gridOf x1) (pointOf x0 (i 0) (i 1)) (i 2)
/-- The result array of the eight-corner program. -/
def Gr (x0 : (⟨3, ![32, 131072, 3]⟩ : Shape).Idx → EReal) (x1 : (⟨4, ![3, 64, 64, 64]⟩ : Shape).Idx → EReal) :
    (⟨3, ![32, 131072, 3]⟩ : Shape).Idx → EReal :=
  fun i => rout (gridOf x1) (pointOf x0 (i 0) (i 1)) (i 2)

theorem Gk_apply (x0 : (⟨3, ![32, 131072, 3]⟩ : Shape).Idx → EReal) (x1 : (⟨4, ![3, 64, 64, 64]⟩ : Shape).Idx → EReal)
    (b : Fin 32) (n : Fin 131072) (c : Fin 3) :
    Gk x0 x1 (ix3 b n c) = kout (gridOf x1) (pointOf x0 b n) c := rfl
theorem Gr_apply (x0 : (⟨3, ![32, 131072, 3]⟩ : Shape).Idx → EReal) (x1 : (⟨4, ![3, 64, 64, 64]⟩ : Shape).Idx → EReal)
    (b : Fin 32) (n : Fin 131072) (c : Fin 3) :
    Gr x0 x1 (ix3 b n c) = rout (gridOf x1) (pointOf x0 b n) c := rfl

end Cert.Tri

end
-- ==== Proof.RefCornerDef.lean ====
/-
  One corner of the eight-corner sum as a function of whole arrays, written with the very operations the reference
  program applies: the corner's three coordinates (the cells plus the corner's offsets), its weight (per axis `t` or
  `1 - t`, chosen by the offset), the 0/1 factor saying that the three coordinates lie in [0, 64), the coordinates
  clipped into [0, 63] and joined into one start index per point, the grid gathered at those start indices, and the
  product of the gathered values with the masked weight. The eight printed corners are this one function at the eight
  offset triples.
-/
import proofs.«174278_j48524540510565_1_alg».proof.ReferenceIdeal
import proofs.«174278_j48524540510565_1_alg».proof.Proof.Spec

noncomputable section

namespace Cert.RefCorner

open Idealize.ShloMosaic Cert.ReferenceIdeal
open Cert.ReferenceIdeal.Facts₀ Cert.ReferenceIdeal.Facts

variable {F : FTy → Type} [FloatOps F] [Cert.ReferenceIdeal.Facts]

/-- A 32-bit constant at every point. -/
def splatI (k : BitVec 32) : IVec S32x131072 32 :=
  broadcastInDim S32x131072 ![] bcast_S_S32x131072 (constantI S_ 32 k)

/-- The same through the identity conversion a clip applies to its bounds. -/
def splatId (k : BitVec 32) : IVec S32x131072 32 :=
  broadcastInDim S32x131072 ![] bcast_S_S32x131072 (id (constantI S_ 32 k))

/-- 1.0 at every point. -/
def splatOne : FVec F S32x131072 .f32 :=
  broadcastInDim S32x131072 ![] bcast_S_S32x131072 (constant S_ .f32 0x3F800000#32)

/-- A corner's axis weight: `T` where the offset `k` is not zero, `1 - T` where it is. -/
def pickV (k : BitVec 32) (T : FVec F S32x131072 .f32) : FVec F S32x131072 .f32 :=
  select (broadcastInDim S32x131072 ![] bcast_S_S32x131072 (cmpi .ne (constantI S_ 32 k) (constantI S_ 32 0#32)))
    T (subf (splatOne (F := F)) T)

/-- A coordinate array clipped into [0, 63]. -/
def clipV (A : IVec S32x131072 32) : IVec S32x131072 32 :=
  minsi (splatId 63#32) (maxsi (splatId 0#32) A)

/-- A negative index counted from the end of an axis of 64. -/
def wrapV (A : IVec S32x131072 32) : IVec S32x131072 32 :=
  select (cmpi .slt A (splatI 0#32)) (addi A (splatI 64#32)) A

/-- A coordinate array as one column of the start-index array. -/
def colV (A : IVec S32x131072 32) : IVec S32x131072x1 32 :=
  broadcastInDim S32x131072x1 ![0, 1] bcast_S32x131072_S32x131072x1_0_1 A

/-- All three coordinate arrays inside [0, 64). -/
def validV (X Y Z : IVec S32x131072 32) : IVec S32x131072 1 :=
  andi (andi (andi (andi (andi (cmpi .sge X (splatI 0#32)) (cmpi .slt X (splatI 64#32)))
    (cmpi .sge Y (splatI 0#32))) (cmpi .slt Y (splatI 64#32))) (cmpi .sge Z (splatI 0#32))) (cmpi .slt Z (splatI 64#32))

/-- The start indices of a corner: per point (z, y, x), clipped and wrapped. -/
def startV (X Y Z : IVec S32x131072 32) : IVec S32x131072x3 32 :=
  concatenate S32x131072x3 2 [⟨S32x131072x1, colV (wrapV (clipV Z))⟩, ⟨S32x131072x1, colV (wrapV (clipV Y))⟩,
    ⟨S32x131072x1, colV (wrapV (clipV X))⟩] concatenates_S32x131072x1_S32x131072x1_S32x131072x1_S32x131072x3_d2

/-- A weight array per point spread over the three channels. -/
def spreadV (W : FVec F S32x131072 .f32) : FVec F S3x32x131072 .f32 :=
  broadcastInDim S3x32x131072 ![0, 1, 2] bcast_S1x32x131072_S3x32x131072_0_1_2
    (broadcastInDim S1x32x131072 ![1, 2] bcast_S32x131072_S1x32x131072_1_2 W)

/-- Corner (dx, dy, dz) of the cells `X0 Y0 Z0` with fractional parts `TX TY TZ`, on the grid `x1`. -/
def cornerStage (dx dy dz : BitVec 32) (X0 Y0 Z0 : IVec S32x131072 32) (TX TY TZ : FVec F S32x131072 .f32)
    (x1 : FVec F S3x64x64x64 .f32) : FVec F S3x32x131072 .f32 :=
  mulf (Host.gather gather_S3x64x64x64_S32x131072x3_S3x32x131072_0_123_n_n_123_2_3111 x1
      (startV (addi X0 (splatI dx)) (addi Y0 (splatI dy)) (addi Z0 (splatI dz))))
    (spreadV (mulf (mulf (mulf (pickV dx TX) (pickV dy TY)) (pickV dz TZ))
      (uitofp .f32 (validV (addi X0 (splatI dx)) (addi Y0 (splatI dy)) (addi Z0 (splatI dz))))))

open Idealize.ShloMosaic.ValueIdx in
/-- A corner read at channel `c` of point (b, n): the grid at the corner's clipped coordinates times the corner's
    masked weight, as the scalar functions of Spec.lean say. -/
def CornerRead : Prop :=
  ∀ (dx dy dz : BitVec 32) (X0 Y0 Z0 : IVec S32x131072 32) (TX TY TZ : FVec Ideal S32x131072 .f32)
    (x1 : FVec Ideal S3x64x64x64 .f32) (c : Fin 3) (b : Fin 32) (n : Fin 131072),
    cornerStage (F := Ideal) dx dy dz X0 Y0 Z0 TX TY TZ x1 (ix3 c b n)
      = x1 (ix4 c (Cert.Tri.gidx (IntOp.addi (Z0 (ix2 b n)) dz)) (Cert.Tri.gidx (IntOp.addi (Y0 (ix2 b n)) dy))
            (Cert.Tri.gidx (IntOp.addi (X0 (ix2 b n)) dx)))
        * (((Cert.Tri.pick dx (TX (ix2 b n)) * Cert.Tri.pick dy (TY (ix2 b n))) * Cert.Tri.pick dz (TZ (ix2 b n)))
            * (((Cert.Tri.validb (IntOp.addi (X0 (ix2 b n)) dx) (IntOp.addi (Y0 (ix2 b n)) dy)
                  (IntOp.addi (Z0 (ix2 b n)) dz)).toNat : ℝ) : EReal))

end Cert.RefCorner

end
-- ==== Proof.RefRunC0S.lean ====
/-
  What the operations of corner (dx, dy, dz) = (0, 0, 0) leave in the running sum's next buffer from any contents W:
  the previous sum plus the corner, the one function of the three cell arrays, the three arrays of fractional parts
  and the grid, at this corner's offsets.

  The list is read in two parts. The first part, up to the three columns of start indices, leaves in five buffers
  the three clipped and wrapped coordinate columns (z, y, x), the product of the three axis weights, and the bit
  saying that the three coordinates lie in [0, 64), each a composition of the operations over the cells, the
  fractional parts and the offsets; it writes neither the grid's buffer nor the previous sum's. The second part joins
  the three columns, gathers the grid there, multiplies by the masked weight spread over the channels and adds the
  previous sum. One part after the other is the corner.
-/
import proofs.«174278_j48524540510565_1_alg».proof.Proof.RefRunC0
import proofs.«174278_j48524540510565_1_alg».proof.Proof.RefRunLib
import proofs.«174278_j48524540510565_1_alg».proof.Proof.RefCornerDef
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.RefCorner

variable {F : FTy → Type} [FloatOps F]

set_option maxHeartbeats 40000000 in
/-- The corner's operations up to the three columns of start indices, in order. -/
abbrev opsC0A : List (HloOp τ sig (Elt F)) :=
  [ nullary main_c (constantI S_ 32 0#32),
    unary main_c main_v40 (broadcastInDim S32x131072 ![] bcast_S_S32x131072 : (⟨S_, .i32⟩ : BufTy).Contents (Elt F) → (⟨S32x131072, .i32⟩ : BufTy).Contents (Elt F)),
    binary main_v36 main_v40 main_v41 (addi : (⟨S32x131072, .i32⟩ : BufTy).Contents (Elt F) → (⟨S32x131072, .i32⟩ : BufTy).Contents (Elt F) → (⟨S32x131072, .i32⟩ : BufTy).Contents (Elt F)),
    nullary main_c_12 (constantI S_ 32 0#32),
    unary main_c_12 main_v42 (broadcastInDim S32x131072 ![] bcast_S_S32x131072 : (⟨S_, .i32⟩ : BufTy).Contents (Elt F) → (⟨S32x131072, .i32⟩ : BufTy).Contents (Elt F)),
    binary main_v37 main_v42 main_v43 (addi : (⟨S32x131072, .i32⟩ : BufTy).Contents (Elt F) → (⟨S32x131072, .i32⟩ : BufTy).Contents (Elt F) → (⟨S32x131072, .i32⟩ : BufTy).Contents (Elt F)),
    nullary main_c_13 (constantI S_ 32 0#32),
    unary main_c_13 main_v44 (broadcastInDim S32x131072 ![] bcast_S_S32x131072 : (⟨S_, .i32⟩ : BufTy).Contents (Elt F) → (⟨S32x131072, .i32⟩ : BufTy).Contents (Elt F)),
    binary main_v38 main_v44 main_v45 (addi : (⟨S32x131072, .i32⟩ : BufTy).Contents (Elt F) → (⟨S32x131072, .i32⟩ : BufTy).Contents (Elt F) → (⟨S32x131072, .i32⟩ : BufTy).Contents (Elt F)),
    nullary main_cst_14 (constant S_ .f32 0x3F800000#32),
    unary main_cst_14 main_v46 (broadcastInDim S32x131072 ![] bcast_S_S32x131072 : (⟨S_, .f32⟩ : BufTy).Contents (Elt F) → (⟨S32x131072, .f32⟩ : BufTy).Contents (Elt F)),
    binary main_v46 main_v33 main_v47 (subf : (⟨S32x131072, .f32⟩ : BufTy).Contents (Elt F) → (⟨S32x131072, .f32⟩ : BufTy).Contents (Elt F) → (⟨S32x131072, .f32⟩ : BufTy).Contents (Elt F)),
    nullary main_c_15 (constantI S_ 32 0#32),
    TRef.nullary (TRef.of (T := ⟨S_, .i32⟩) main_call0_c) (constantI S_ 32 0#32),
    TRef.binary (TRef.of (T := ⟨S_, .i32⟩) main_c_15) (TRef.of (T := ⟨S_, .i32⟩) main_call0_c) (TRef.of (T := ⟨S_, .i1⟩) main_call0_v0) (cmpi .ne),
    TRef.ternary (TRef.of (T := ⟨S_, .i1⟩) main_call0_v0) (TRef.of (T := ⟨S32x131072, .f32⟩) main_v33) (TRef.of (T := ⟨S32x131072, .f32⟩) main_v47) (TRef.of (T := ⟨S32x131072, .f32⟩) main_v48) (fun p a b => select (broadcastInDim S32x131072 ![] bcast_S_S32x131072 p) a b),
    nullary main_cst_16 (constant S_ .f32 0x3F800000#32),
    unary main_cst_16 main_v49 (broadcastInDim S32x131072 ![] bcast_S_S32x131072 : (⟨S_, .f32⟩ : BufTy).Contents (Elt F) → (⟨S32x131072, .f32⟩ : BufTy).Contents (Elt F)),
    binary main_v49 main_v34 main_v50 (subf : (⟨S32x131072, .f32⟩ : BufTy).Contents (Elt F) → (⟨S32x131072, .f32⟩ : BufTy).Contents (Elt F) → (⟨S32x131072, .f32⟩ : BufTy).Contents (Elt F)),
    nullary main_c_17 (constantI S_ 32 0#32),
    TRef.nullary (TRef.of (T := ⟨S_, .i32⟩) main_call1_c) (constantI S_ 32 0#32),
    TRef.binary (TRef.of (T := ⟨S_, .i32⟩) main_c_17) (TRef.of (T := ⟨S_, .i32⟩) main_call1_c) (TRef.of (T := ⟨S_, .i1⟩) main_call1_v0) (cmpi .ne),
    TRef.ternary (TRef.of (T := ⟨S_, .i1⟩) main_call1_v0) (TRef.of (T := ⟨S32x131072, .f32⟩) main_v34) (TRef.of (T := ⟨S32x131072, .f32⟩) main_v50) (TRef.of (T := ⟨S32x131072, .f32⟩) main_v51) (fun p a b => select (broadcastInDim S32x131072 ![] bcast_S_S32x131072 p) a b),
    binary main_v48 main_v51 main_v52 (mulf : (⟨S32x131072, .f32⟩ : BufTy).Contents (Elt F) → (⟨S32x131072, .f32⟩ : BufTy).Contents (Elt F) → (⟨S32x131072, .f32⟩ : BufTy).Contents (Elt F)),
    nullary main_cst_18 (constant S_ .f32 0x3F800000#32),
    unary main_cst_18 main_v53 (broadcastInDim S32x131072 ![] bcast_S_S32x131072 : (⟨S_, .f32⟩ : BufTy).Contents (Elt F) → (⟨S32x131072, .f32⟩ : BufTy).Contents (Elt F)),
    binary main_v53 main_v35 main_v54 (subf : (⟨S32x131072, .f32⟩ : BufTy).Contents (Elt F) → (⟨S32x131072, .f32⟩ : BufTy).Contents (Elt F) → (⟨S32x131072, .f32⟩ : BufTy).Contents (Elt F)),
    nullary main_c_19 (constantI S_ 32 0#32),
    TRef.nullary (TRef.of (T := ⟨S_, .i32⟩) main_call2_c) (constantI S_ 32 0#32),
    TRef.binary (TRef.of (T := ⟨S_, .i32⟩) main_c_19) (TRef.of (T := ⟨S_, .i32⟩) main_call2_c) (TRef.of (T := ⟨S_, .i1⟩) main_call2_v0) (cmpi .ne),
    TRef.ternary (TRef.of (T := ⟨S_, .i1⟩) main_call2_v0) (TRef.of (T := ⟨S32x131072, .f32⟩) main_v35) (TRef.of (T := ⟨S32x131072, .f32⟩) main_v54) (TRef.of (T := ⟨S32x131072, .f32⟩) main_v55) (fun p a b => select (broadcastInDim S32x131072 ![] bcast_S_S32x131072 p) a b),
    binary main_v52 main_v55 main_v56 (mulf : (⟨S32x131072, .f32⟩ : BufTy).Contents (Elt F) → (⟨S32x131072, .f32⟩ : BufTy).Contents (Elt F) → (⟨S32x131072, .f32⟩ : BufTy).Contents (Elt F)),
    nullary main_c_20 (constantI S_ 32 0#32),
    unary main_c_20 main_v57 (broadcastInDim S32x131072 ![] bcast_S_S32x131072 : (⟨S_, .i32⟩ : BufTy).Contents (Elt F) → (⟨S32x131072, .i32⟩ : BufTy).Contents (Elt F)),
    binary main_v41 main_v57 main_v58 (cmpi .sge : (⟨S32x131072, .i32⟩ : BufTy).Contents (Elt F) → (⟨S32x131072, .i32⟩ : BufTy).Contents (Elt F) → (⟨S32x131072, .i1⟩ : BufTy).Contents (Elt F)),
    nullary main_c_21 (constantI S_ 32 64#32),
    unary main_c_21 main_v59 (broadcastInDim S32x131072 ![] bcast_S_S32x131072 : (⟨S_, .i32⟩ : BufTy).Contents (Elt F) → (⟨S32x131072, .i32⟩ : BufTy).Contents (Elt F)),
    binary main_v41 main_v59 main_v60 (cmpi .slt : (⟨S32x131072, .i32⟩ : BufTy).Contents (Elt F) → (⟨S32x131072, .i32⟩ : BufTy).Contents (Elt F) → (⟨S32x131072, .i1⟩ : BufTy).Contents (Elt F)),
    binary main_v58 main_v60 main_v61 (andi : (⟨S32x131072, .i1⟩ : BufTy).Contents (Elt F) → (⟨S32x131072, .i1⟩ : BufTy).Contents (Elt F) → (⟨S32x131072, .i1⟩ : BufTy).Contents (Elt F)),
    nullary main_c_22 (constantI S_ 32 0#32),
    unary main_c_22 main_v62 (broadcastInDim S32x131072 ![] bcast_S_S32x131072 : (⟨S_, .i32⟩ : BufTy).Contents (Elt F) → (⟨S32x131072, .i32⟩ : BufTy).Contents (Elt F)),
    binary main_v43 main_v62 main_v63 (cmpi .sge : (⟨S32x131072, .i32⟩ : BufTy).Contents (Elt F) → (⟨S32x131072, .i32⟩ : BufTy).Contents (Elt F) → (⟨S32x131072, .i1⟩ : BufTy).Contents (Elt F)),
    binary main_v61 main_v63 main_v64 (andi : (⟨S32x131072, .i1⟩ : BufTy).Contents (Elt F) → (⟨S32x131072, .i1⟩ : BufTy).Contents (Elt F) → (⟨S32x131072, .i1⟩ : BufTy).Contents (Elt F)),
    nullary main_c_23 (constantI S_ 32 64#32),
    unary main_c_23 main_v65 (broadcastInDim S32x131072 ![] bcast_S_S32x131072 : (⟨S_, .i32⟩ : BufTy).Contents (Elt F) → (⟨S32x131072, .i32⟩ : BufTy).Contents (Elt F)),
    binary main_v43 main_v65 main_v66 (cmpi .slt : (⟨S32x131072, .i32⟩ : BufTy).Contents (Elt F) → (⟨S32x131072, .i32⟩ : BufTy).Contents (Elt F) → (⟨S32x131072, .i1⟩ : BufTy).Contents (Elt F)),
    binary main_v64 main_v66 main_v67 (andi : (⟨S32x131072, .i1⟩ : BufTy).Contents (Elt F) → (⟨S32x131072, .i1⟩ : BufTy).Contents (Elt F) → (⟨S32x131072, .i1⟩ : BufTy).Contents (Elt F)),
    nullary main_c_24 (constantI S_ 32 0#32),
    unary main_c_24 main_v68 (broadcastInDim S32x131072 ![] bcast_S_S32x131072 : (⟨S_, .i32⟩ : BufTy).Contents (Elt F) → (⟨S32x131072, .i32⟩ : BufTy).Contents (Elt F)),
    binary main_v45 main_v68 main_v69 (cmpi .sge : (⟨S32x131072, .i32⟩ : BufTy).Contents (Elt F) → (⟨S32x131072, .i32⟩ : BufTy).Contents (Elt F) → (⟨S32x131072, .i1⟩ : BufTy).Contents (Elt F)),
    binary main_v67 main_v69 main_v70 (andi : (⟨S32x131072, .i1⟩ : BufTy).Contents (Elt F) → (⟨S32x131072, .i1⟩ : BufTy).Contents (Elt F) → (⟨S32x131072, .i1⟩ : BufTy).Contents (Elt F)),
    nullary main_c_25 (constantI S_ 32 64#32),
    unary main_c_25 main_v71 (broadcastInDim S32x131072 ![] bcast_S_S32x131072 : (⟨S_, .i32⟩ : BufTy).Contents (Elt F) → (⟨S32x131072, .i32⟩ : BufTy).Contents (Elt F)),
    binary main_v45 main_v71 main_v72 (cmpi .slt : (⟨S32x131072, .i32⟩ : BufTy).Contents (Elt F) → (⟨S32x131072, .i32⟩ : BufTy).Contents (Elt F) → (⟨S32x131072, .i1⟩ : BufTy).Contents (Elt F)),
    binary main_v70 main_v72 main_v73 (andi : (⟨S32x131072, .i1⟩ : BufTy).Contents (Elt F) → (⟨S32x131072, .i1⟩ : BufTy).Contents (Elt F) → (⟨S32x131072, .i1⟩ : BufTy).Contents (Elt F)),
    nullary main_c_26 (constantI S_ 32 0#32),
    nullary main_c_27 (constantI S_ 32 63#32),
    TRef.unary (TRef.of (T := ⟨S_, .i32⟩) main_c_26) (TRef.of (T := ⟨S_, .i32⟩) main_call3_v0) id,
    TRef.unary (TRef.of (T := ⟨S_, .i32⟩) main_call3_v0) (TRef.of (T := ⟨S32x131072, .i32⟩) main_call3_v1) (broadcastInDim S32x131072 ![] bcast_S_S32x131072),
    TRef.binary (TRef.of (T := ⟨S32x131072, .i32⟩) main_call3_v1) (TRef.of (T := ⟨S32x131072, .i32⟩) main_v41) (TRef.of (T := ⟨S32x131072, .i32⟩) main_call3_v2) maxsi,
    TRef.unary (TRef.of (T := ⟨S_, .i32⟩) main_c_27) (TRef.of (T := ⟨S_, .i32⟩) main_call3_v3) id,
    TRef.unary (TRef.of (T := ⟨S_, .i32⟩) main_call3_v3) (TRef.of (T := ⟨S32x131072, .i32⟩) main_call3_v4) (broadcastInDim S32x131072 ![] bcast_S_S32x131072),
    TRef.binary (TRef.of (T := ⟨S32x131072, .i32⟩) main_call3_v4) (TRef.of (T := ⟨S32x131072, .i32⟩) main_call3_v2) (TRef.of (T := ⟨S32x131072, .i32⟩) main_v74) minsi,
    nullary main_c_28 (constantI S_ 32 0#32),
    nullary main_c_29 (constantI S_ 32 63#32),
    TRef.unary (TRef.of (T := ⟨S_, .i32⟩) main_c_28) (TRef.of (T := ⟨S_, .i32⟩) main_call4_v0) id,
    TRef.unary (TRef.of (T := ⟨S_, .i32⟩) main_call4_v0) (TRef.of (T := ⟨S32x131072, .i32⟩) main_call4_v1) (broadcastInDim S32x131072 ![] bcast_S_S32x131072),
    TRef.binary (TRef.of (T := ⟨S32x131072, .i32⟩) main_call4_v1) (TRef.of (T := ⟨S32x131072, .i32⟩) main_v43) (TRef.of (T := ⟨S32x131072, .i32⟩) main_call4_v2) maxsi,
    TRef.unary (TRef.of (T := ⟨S_, .i32⟩) main_c_29) (TRef.of (T := ⟨S_, .i32⟩) main_call4_v3) id,
    TRef.unary (TRef.of (T := ⟨S_, .i32⟩) main_call4_v3) (TRef.of (T := ⟨S32x131072, .i32⟩) main_call4_v4) (broadcastInDim S32x131072 ![] bcast_S_S32x131072),
    TRef.binary (TRef.of (T := ⟨S32x131072, .i32⟩) main_call4_v4) (TRef.of (T := ⟨S32x131072, .i32⟩) main_call4_v2) (TRef.of (T := ⟨S32x131072, .i32⟩) main_v75) minsi,
    nullary main_c_30 (constantI S_ 32 0#32),
    nullary main_c_31 (constantI S_ 32 63#32),
    TRef.unary (TRef.of (T := ⟨S_, .i32⟩) main_c_30) (TRef.of (T := ⟨S_, .i32⟩) main_call5_v0) id,
    TRef.unary (TRef.of (T := ⟨S_, .i32⟩) main_call5_v0) (TRef.of (T := ⟨S32x131072, .i32⟩) main_call5_v1) (broadcastInDim S32x131072 ![] bcast_S_S32x131072),
    TRef.binary (TRef.of (T := ⟨S32x131072, .i32⟩) main_call5_v1) (TRef.of (T := ⟨S32x131072, .i32⟩) main_v45) (TRef.of (T := ⟨S32x131072, .i32⟩) main_call5_v2) maxsi,
    TRef.unary (TRef.of (T := ⟨S_, .i32⟩) main_c_31) (TRef.of (T := ⟨S_, .i32⟩) main_call5_v3) id,
    TRef.unary (TRef.of (T := ⟨S_, .i32⟩) main_call5_v3) (TRef.of (T := ⟨S32x131072, .i32⟩) main_call5_v4) (broadcastInDim S32x131072 ![] bcast_S_S32x131072),
    TRef.binary (TRef.of (T := ⟨S32x131072, .i32⟩) main_call5_v4) (TRef.of (T := ⟨S32x131072, .i32⟩) main_call5_v2) (TRef.of (T := ⟨S32x131072, .i32⟩) main_v76) minsi,
    nullary main_c_32 (constantI S_ 32 0#32),
    unary main_c_32 main_v77 (broadcastInDim S32x131072 ![] bcast_S_S32x131072 : (⟨S_, .i32⟩ : BufTy).Contents (Elt F) → (⟨S32x131072, .i32⟩ : BufTy).Contents (Elt F)),
    binary main_v76 main_v77 main_v78 (cmpi .slt : (⟨S32x131072, .i32⟩ : BufTy).Contents (Elt F) → (⟨S32x131072, .i32⟩ : BufTy).Contents (Elt F) → (⟨S32x131072, .i1⟩ : BufTy).Contents (Elt F)),
    nullary main_c_33 (constantI S_ 32 64#32),
    unary main_c_33 main_v79 (broadcastInDim S32x131072 ![] bcast_S_S32x131072 : (⟨S_, .i32⟩ : BufTy).Contents (Elt F) → (⟨S32x131072, .i32⟩ : BufTy).Contents (Elt F)),
    binary main_v76 main_v79 main_v80 (addi : (⟨S32x131072, .i32⟩ : BufTy).Contents (Elt F) → (⟨S32x131072, .i32⟩ : BufTy).Contents (Elt F) → (⟨S32x131072, .i32⟩ : BufTy).Contents (Elt F)),
    ternary main_v78 main_v80 main_v76 main_v81 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_34 (constantI S_ 32 0#32),
    unary main_c_34 main_v82 (broadcastInDim S32x131072 ![] bcast_S_S32x131072 : (⟨S_, .i32⟩ : BufTy).Contents (Elt F) → (⟨S32x131072, .i32⟩ : BufTy).Contents (Elt F)),
    binary main_v75 main_v82 main_v83 (cmpi .slt : (⟨S32x131072, .i32⟩ : BufTy).Contents (Elt F) → (⟨S32x131072, .i32⟩ : BufTy).Contents (Elt F) → (⟨S32x131072, .i1⟩ : BufTy).Contents (Elt F)),
    nullary main_c_35 (constantI S_ 32 64#32),
    unary main_c_35 main_v84 (broadcastInDim S32x131072 ![] bcast_S_S32x131072 : (⟨S_, .i32⟩ : BufTy).Contents (Elt F) → (⟨S32x131072, .i32⟩ : BufTy).Contents (Elt F)),
    binary main_v75 main_v84 main_v85 (addi : (⟨S32x131072, .i32⟩ : BufTy).Contents (Elt F) → (⟨S32x131072, .i32⟩ : BufTy).Contents (Elt F) → (⟨S32x131072, .i32⟩ : BufTy).Contents (Elt F)),
    ternary main_v83 main_v85 main_v75 main_v86 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_36 (constantI S_ 32 0#32),
    unary main_c_36 main_v87 (broadcastInDim S32x131072 ![] bcast_S_S32x131072 : (⟨S_, .i32⟩ : BufTy).Contents (Elt F) → (⟨S32x131072, .i32⟩ : BufTy).Contents (Elt F)),
    binary main_v74 main_v87 main_v88 (cmpi .slt : (⟨S32x131072, .i32⟩ : BufTy).Contents (Elt F) → (⟨S32x131072, .i32⟩ : BufTy).Contents (Elt F) → (⟨S32x131072, .i1⟩ : BufTy).Contents (Elt F)),
    nullary main_c_37 (constantI S_ 32 64#32),
    unary main_c_37 main_v89 (broadcastInDim S32x131072 ![] bcast_S_S32x131072 : (⟨S_, .i32⟩ : BufTy).Contents (Elt F) → (⟨S32x131072, .i32⟩ : BufTy).Contents (Elt F)),
    binary main_v74 main_v89 main_v90 (addi : (⟨S32x131072, .i32⟩ : BufTy).Contents (Elt F) → (⟨S32x131072, .i32⟩ : BufTy).Contents (Elt F) → (⟨S32x131072, .i32⟩ : BufTy).Contents (Elt F)),
    ternary main_v88 main_v90 main_v74 main_v91 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v81 main_v92 (broadcastInDim S32x131072x1 ![0, 1] bcast_S32x131072_S32x131072x1_0_1 : (⟨S32x131072, .i32⟩ : BufTy).Contents (Elt F) → (⟨S32x131072x1, .i32⟩ : BufTy).Contents (Elt F)),
    unary main_v86 main_v93 (broadcastInDim S32x131072x1 ![0, 1] bcast_S32x131072_S32x131072x1_0_1 : (⟨S32x131072, .i32⟩ : BufTy).Contents (Elt F) → (⟨S32x131072x1, .i32⟩ : BufTy).Contents (Elt F)),
    unary main_v91 main_v94 (broadcastInDim S32x131072x1 ![0, 1] bcast_S32x131072_S32x131072x1_0_1 : (⟨S32x131072, .i32⟩ : BufTy).Contents (Elt F) → (⟨S32x131072x1, .i32⟩ : BufTy).Contents (Elt F)) ]

set_option maxHeartbeats 40000000 in
/-- The rest, in order: the join of the columns, the gather, the masked weight, the product and the sum. -/
abbrev opsC0B : List (HloOp τ sig (Elt F)) :=
  [ nary ![main_v92, main_v93, main_v94] main_v95 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v95 main_v96 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v73 main_v97 (uitofp .f32 : (⟨S32x131072, .i1⟩ : BufTy).Contents (Elt F) → (⟨S32x131072, .f32⟩ : BufTy).Contents (Elt F)),
    binary main_v56 main_v97 main_v98 (mulf : (⟨S32x131072, .f32⟩ : BufTy).Contents (Elt F) → (⟨S32x131072, .f32⟩ : BufTy).Contents (Elt F) → (⟨S32x131072, .f32⟩ : BufTy).Contents (Elt F)),
    unary main_v98 main_v99 (broadcastInDim S1x32x131072 ![1, 2] bcast_S32x131072_S1x32x131072_1_2 : (⟨S32x131072, .f32⟩ : BufTy).Contents (Elt F) → (⟨S1x32x131072, .f32⟩ : BufTy).Contents (Elt F)),
    unary main_v99 main_v100 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v96 main_v100 main_v101 (mulf : (⟨S3x32x131072, .f32⟩ : BufTy).Contents (Elt F) → (⟨S3x32x131072, .f32⟩ : BufTy).Contents (Elt F) → (⟨S3x32x131072, .f32⟩ : BufTy).Contents (Elt F)),
    binary main_v39 main_v101 main_v102 (addf : (⟨S3x32x131072, .f32⟩ : BufTy).Contents (Elt F) → (⟨S3x32x131072, .f32⟩ : BufTy).Contents (Elt F) → (⟨S3x32x131072, .f32⟩ : BufTy).Contents (Elt F)) ]

set_option maxRecDepth 8192 in
set_option maxHeartbeats 40000000 in
/-- The corner's list is the two parts in a row. -/
theorem opsC0_split : (opsC0 (F := F)) = opsC0A ++ opsC0B := rfl

set_option maxRecDepth 8192 in
set_option maxHeartbeats 40000000 in
/-- The z column: the cell plus the offset, clipped, wrapped, as a column. -/
theorem opsC0A_colz (W : Valuation τ sig (Elt F)) :
    after (opsC0A (F := F)) W (Proc.devRef .tc main_v92)
      = colV (wrapV (clipV (addi (W (Proc.devRef .tc main_v38)) (splatI 0#32)))) := by
  after_results_simp <;> rfl

set_option maxRecDepth 8192 in
set_option maxHeartbeats 40000000 in
/-- The y column. -/
theorem opsC0A_coly (W : Valuation τ sig (Elt F)) :
    after (opsC0A (F := F)) W (Proc.devRef .tc main_v93)
      = colV (wrapV (clipV (addi (W (Proc.devRef .tc main_v37)) (splatI 0#32)))) := by
  after_results_simp <;> rfl

set_option maxRecDepth 8192 in
set_option maxHeartbeats 40000000 in
/-- The x column. -/
theorem opsC0A_colx (W : Valuation τ sig (Elt F)) :
    after (opsC0A (F := F)) W (Proc.devRef .tc main_v94)
      = colV (wrapV (clipV (addi (W (Proc.devRef .tc main_v36)) (splatI 0#32)))) := by
  after_results_simp <;> rfl

set_option maxRecDepth 8192 in
set_option maxHeartbeats 40000000 in
/-- The product of the three axis weights. -/
theorem opsC0A_weight (W : Valuation τ sig (Elt F)) :
    after (opsC0A (F := F)) W (Proc.devRef .tc main_v56)
      = mulf (mulf (pickV (F := F) 0#32 (W (Proc.devRef .tc main_v33))) (pickV (F := F) 0#32 (W (Proc.devRef .tc main_v34))))
          (pickV (F := F) 0#32 (W (Proc.devRef .tc main_v35))) := by
  after_results_simp <;> rfl

set_option maxRecDepth 8192 in
set_option maxHeartbeats 40000000 in
/-- The bit saying the three coordinates lie in [0, 64). -/
theorem opsC0A_valid (W : Valuation τ sig (Elt F)) :
    after (opsC0A (F := F)) W (Proc.devRef .tc main_v73)
      = validV (addi (W (Proc.devRef .tc main_v36)) (splatI 0#32)) (addi (W (Proc.devRef .tc main_v37)) (splatI 0#32))
          (addi (W (Proc.devRef .tc main_v38)) (splatI 0#32)) := by
  after_results_simp <;> rfl

set_option maxRecDepth 8192 in
set_option maxHeartbeats 40000000 in
/-- The first part does not write the previous sum's buffer. -/
theorem opsC0A_prev (W : Valuation τ sig (Elt F)) :
    after (opsC0A (F := F)) W (Proc.devRef .tc main_v39)
      = W (Proc.devRef .tc main_v39) := by
  after_results_simp <;> rfl

set_option maxRecDepth 8192 in
set_option maxHeartbeats 40000000 in
/-- The first part does not write the grid's buffer. -/
theorem opsC0A_grid (W : Valuation τ sig (Elt F)) :
    after (opsC0A (F := F)) W (Proc.devRef .tc main_arg1)
      = W (Proc.devRef .tc main_arg1) := by
  after_results_simp <;> rfl

set_option maxRecDepth 8192 in
set_option maxHeartbeats 40000000 in
/-- The second part: the previous sum plus the gathered grid times the masked weight, over the buffers it finds. -/
theorem opsC0B_sum (W : Valuation τ sig (Elt F)) :
    after (opsC0B (F := F)) W (Proc.devRef .tc main_v102)
      = addf (W (Proc.devRef .tc main_v39))
          (mulf (Host.gather gather_S3x64x64x64_S32x131072x3_S3x32x131072_0_123_n_n_123_2_3111 (W (Proc.devRef .tc main_arg1))
              (concatenate S32x131072x3 2 [⟨S32x131072x1, (W (Proc.devRef .tc main_v92))⟩, ⟨S32x131072x1, (W (Proc.devRef .tc main_v93))⟩,
                ⟨S32x131072x1, (W (Proc.devRef .tc main_v94))⟩] concatenates_S32x131072x1_S32x131072x1_S32x131072x1_S32x131072x3_d2))
            (spreadV (mulf (W (Proc.devRef .tc main_v56)) (uitofp .f32 (W (Proc.devRef .tc main_v73)))))) := by
  after_results_simp3 <;> rfl

set_option maxRecDepth 8192 in
set_option maxHeartbeats 40000000 in
/-- After the corner's operations the next sum buffer holds the previous sum plus the corner. -/
theorem opsC0_sum (W : Valuation τ sig (Elt F)) :
    after (opsC0 (F := F)) W (Proc.devRef .tc main_v102)
      = addf (W (Proc.devRef .tc main_v39))
          (Cert.RefCorner.cornerStage (F := F) 0#32 0#32 0#32 (W (Proc.devRef .tc main_v36)) (W (Proc.devRef .tc main_v37))
            (W (Proc.devRef .tc main_v38)) (W (Proc.devRef .tc main_v33)) (W (Proc.devRef .tc main_v34))
            (W (Proc.devRef .tc main_v35)) (W (Proc.devRef .tc main_arg1))) := by
  rw [opsC0_split, StableHlo.after_append, opsC0B_sum, opsC0A_prev, opsC0A_grid, opsC0A_colz, opsC0A_coly,
    opsC0A_colx, opsC0A_weight, opsC0A_valid]
  rfl

end Cert.RefRun

end
-- ==== Proof.RefRunC1S.lean ====
/-
  What the operations of corner (dx, dy, dz) = (0, 0, 1) leave in the running sum's next buffer from any contents W:
  the previous sum plus the corner, the one function of the three cell arrays, the three arrays of fractional parts
  and the grid, at this corner's offsets.

  The list is read in two parts. The first part, up to the three columns of start indices, leaves in five buffers
  the three clipped and wrapped coordinate columns (z, y, x), the product of the three axis weights, and the bit
  saying that the three coordinates lie in [0, 64), each a composition of the operations over the cells, the
  fractional parts and the offsets; it writes neither the grid's buffer nor the previous sum's. The second part joins
  the three columns, gathers the grid there, multiplies by the masked weight spread over the channels and adds the
  previous sum. One part after the other is the corner.
-/
import proofs.«174278_j48524540510565_1_alg».proof.Proof.RefRunC1
import proofs.«174278_j48524540510565_1_alg».proof.Proof.RefRunLib
import proofs.«174278_j48524540510565_1_alg».proof.Proof.RefCornerDef
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.RefCorner

variable {F : FTy → Type} [FloatOps F]

set_option maxHeartbeats 40000000 in
/-- The corner's operations up to the three columns of start indices, in order. -/
abbrev opsC1A : List (HloOp τ sig (Elt F)) :=
  [ nullary main_c_38 (constantI S_ 32 0#32),
    unary main_c_38 main_v103 (broadcastInDim S32x131072 ![] bcast_S_S32x131072 : (⟨S_, .i32⟩ : BufTy).Contents (Elt F) → (⟨S32x131072, .i32⟩ : BufTy).Contents (Elt F)),
    binary main_v36 main_v103 main_v104 (addi : (⟨S32x131072, .i32⟩ : BufTy).Contents (Elt F) → (⟨S32x131072, .i32⟩ : BufTy).Contents (Elt F) → (⟨S32x131072, .i32⟩ : BufTy).Contents (Elt F)),
    nullary main_c_39 (constantI S_ 32 0#32),
    unary main_c_39 main_v105 (broadcastInDim S32x131072 ![] bcast_S_S32x131072 : (⟨S_, .i32⟩ : BufTy).Contents (Elt F) → (⟨S32x131072, .i32⟩ : BufTy).Contents (Elt F)),
    binary main_v37 main_v105 main_v106 (addi : (⟨S32x131072, .i32⟩ : BufTy).Contents (Elt F) → (⟨S32x131072, .i32⟩ : BufTy).Contents (Elt F) → (⟨S32x131072, .i32⟩ : BufTy).Contents (Elt F)),
    nullary main_c_40 (constantI S_ 32 1#32),
    unary main_c_40 main_v107 (broadcastInDim S32x131072 ![] bcast_S_S32x131072 : (⟨S_, .i32⟩ : BufTy).Contents (Elt F) → (⟨S32x131072, .i32⟩ : BufTy).Contents (Elt F)),
    binary main_v38 main_v107 main_v108 (addi : (⟨S32x131072, .i32⟩ : BufTy).Contents (Elt F) → (⟨S32x131072, .i32⟩ : BufTy).Contents (Elt F) → (⟨S32x131072, .i32⟩ : BufTy).Contents (Elt F)),
    nullary main_cst_41 (constant S_ .f32 0x3F800000#32),
    unary main_cst_41 main_v109 (broadcastInDim S32x131072 ![] bcast_S_S32x131072 : (⟨S_, .f32⟩ : BufTy).Contents (Elt F) → (⟨S32x131072, .f32⟩ : BufTy).Contents (Elt F)),
    binary main_v109 main_v33 main_v110 (subf : (⟨S32x131072, .f32⟩ : BufTy).Contents (Elt F) → (⟨S32x131072, .f32⟩ : BufTy).Contents (Elt F) → (⟨S32x131072, .f32⟩ : BufTy).Contents (Elt F)),
    nullary main_c_42 (constantI S_ 32 0#32),
    TRef.nullary (TRef.of (T := ⟨S_, .i32⟩) main_call6_c) (constantI S_ 32 0#32),
    TRef.binary (TRef.of (T := ⟨S_, .i32⟩) main_c_42) (TRef.of (T := ⟨S_, .i32⟩) main_call6_c) (TRef.of (T := ⟨S_, .i1⟩) main_call6_v0) (cmpi .ne),
    TRef.ternary (TRef.of (T := ⟨S_, .i1⟩) main_call6_v0) (TRef.of (T := ⟨S32x131072, .f32⟩) main_v33) (TRef.of (T := ⟨S32x131072, .f32⟩) main_v110) (TRef.of (T := ⟨S32x131072, .f32⟩) main_v111) (fun p a b => select (broadcastInDim S32x131072 ![] bcast_S_S32x131072 p) a b),
    nullary main_cst_43 (constant S_ .f32 0x3F800000#32),
    unary main_cst_43 main_v112 (broadcastInDim S32x131072 ![] bcast_S_S32x131072 : (⟨S_, .f32⟩ : BufTy).Contents (Elt F) → (⟨S32x131072, .f32⟩ : BufTy).Contents (Elt F)),
    binary main_v112 main_v34 main_v113 (subf : (⟨S32x131072, .f32⟩ : BufTy).Contents (Elt F) → (⟨S32x131072, .f32⟩ : BufTy).Contents (Elt F) → (⟨S32x131072, .f32⟩ : BufTy).Contents (Elt F)),
    nullary main_c_44 (constantI S_ 32 0#32),
    TRef.nullary (TRef.of (T := ⟨S_, .i32⟩) main_call7_c) (constantI S_ 32 0#32),
    TRef.binary (TRef.of (T := ⟨S_, .i32⟩) main_c_44) (TRef.of (T := ⟨S_, .i32⟩) main_call7_c) (TRef.of (T := ⟨S_, .i1⟩) main_call7_v0) (cmpi .ne),
    TRef.ternary (TRef.of (T := ⟨S_, .i1⟩) main_call7_v0) (TRef.of (T := ⟨S32x131072, .f32⟩) main_v34) (TRef.of (T := ⟨S32x131072, .f32⟩) main_v113) (TRef.of (T := ⟨S32x131072, .f32⟩) main_v114) (fun p a b => select (broadcastInDim S32x131072 ![] bcast_S_S32x131072 p) a b),
    binary main_v111 main_v114 main_v115 (mulf : (⟨S32x131072, .f32⟩ : BufTy).Contents (Elt F) → (⟨S32x131072, .f32⟩ : BufTy).Contents (Elt F) → (⟨S32x131072, .f32⟩ : BufTy).Contents (Elt F)),
    nullary main_cst_45 (constant S_ .f32 0x3F800000#32),
    unary main_cst_45 main_v116 (broadcastInDim S32x131072 ![] bcast_S_S32x131072 : (⟨S_, .f32⟩ : BufTy).Contents (Elt F) → (⟨S32x131072, .f32⟩ : BufTy).Contents (Elt F)),
    binary main_v116 main_v35 main_v117 (subf : (⟨S32x131072, .f32⟩ : BufTy).Contents (Elt F) → (⟨S32x131072, .f32⟩ : BufTy).Contents (Elt F) → (⟨S32x131072, .f32⟩ : BufTy).Contents (Elt F)),
    nullary main_c_46 (constantI S_ 32 1#32),
    TRef.nullary (TRef.of (T := ⟨S_, .i32⟩) main_call8_c) (constantI S_ 32 0#32),
    TRef.binary (TRef.of (T := ⟨S_, .i32⟩) main_c_46) (TRef.of (T := ⟨S_, .i32⟩) main_call8_c) (TRef.of (T := ⟨S_, .i1⟩) main_call8_v0) (cmpi .ne),
    TRef.ternary (TRef.of (T := ⟨S_, .i1⟩) main_call8_v0) (TRef.of (T := ⟨S32x131072, .f32⟩) main_v35) (TRef.of (T := ⟨S32x131072, .f32⟩) main_v117) (TRef.of (T := ⟨S32x131072, .f32⟩) main_v118) (fun p a b => select (broadcastInDim S32x131072 ![] bcast_S_S32x131072 p) a b),
    binary main_v115 main_v118 main_v119 (mulf : (⟨S32x131072, .f32⟩ : BufTy).Contents (Elt F) → (⟨S32x131072, .f32⟩ : BufTy).Contents (Elt F) → (⟨S32x131072, .f32⟩ : BufTy).Contents (Elt F)),
    nullary main_c_47 (constantI S_ 32 0#32),
    unary main_c_47 main_v120 (broadcastInDim S32x131072 ![] bcast_S_S32x131072 : (⟨S_, .i32⟩ : BufTy).Contents (Elt F) → (⟨S32x131072, .i32⟩ : BufTy).Contents (Elt F)),
    binary main_v104 main_v120 main_v121 (cmpi .sge : (⟨S32x131072, .i32⟩ : BufTy).Contents (Elt F) → (⟨S32x131072, .i32⟩ : BufTy).Contents (Elt F) → (⟨S32x131072, .i1⟩ : BufTy).Contents (Elt F)),
    nullary main_c_48 (constantI S_ 32 64#32),
    unary main_c_48 main_v122 (broadcastInDim S32x131072 ![] bcast_S_S32x131072 : (⟨S_, .i32⟩ : BufTy).Contents (Elt F) → (⟨S32x131072, .i32⟩ : BufTy).Contents (Elt F)),
    binary main_v104 main_v122 main_v123 (cmpi .slt : (⟨S32x131072, .i32⟩ : BufTy).Contents (Elt F) → (⟨S32x131072, .i32⟩ : BufTy).Contents (Elt F) → (⟨S32x131072, .i1⟩ : BufTy).Contents (Elt F)),
    binary main_v121 main_v123 main_v124 (andi : (⟨S32x131072, .i1⟩ : BufTy).Contents (Elt F) → (⟨S32x131072, .i1⟩ : BufTy).Contents (Elt F) → (⟨S32x131072, .i1⟩ : BufTy).Contents (Elt F)),
    nullary main_c_49 (constantI S_ 32 0#32),
    unary main_c_49 main_v125 (broadcastInDim S32x131072 ![] bcast_S_S32x131072 : (⟨S_, .i32⟩ : BufTy).Contents (Elt F) → (⟨S32x131072, .i32⟩ : BufTy).Contents (Elt F)),
    binary main_v106 main_v125 main_v126 (cmpi .sge : (⟨S32x131072, .i32⟩ : BufTy).Contents (Elt F) → (⟨S32x131072, .i32⟩ : BufTy).Contents (Elt F) → (⟨S32x131072, .i1⟩ : BufTy).Contents (Elt F)),
    binary main_v124 main_v126 main_v127 (andi : (⟨S32x131072, .i1⟩ : BufTy).Contents (Elt F) → (⟨S32x131072, .i1⟩ : BufTy).Contents (Elt F) → (⟨S32x131072, .i1⟩ : BufTy).Contents (Elt F)),
    nullary main_c_50 (constantI S_ 32 64#32),
    unary main_c_50 main_v128 (broadcastInDim S32x131072 ![] bcast_S_S32x131072 : (⟨S_, .i32⟩ : BufTy).Contents (Elt F) → (⟨S32x131072, .i32⟩ : BufTy).Contents (Elt F)),
    binary main_v106 main_v128 main_v129 (cmpi .slt : (⟨S32x131072, .i32⟩ : BufTy).Contents (Elt F) → (⟨S32x131072, .i32⟩ : BufTy).Contents (Elt F) → (⟨S32x131072, .i1⟩ : BufTy).Contents (Elt F)),
    binary main_v127 main_v129 main_v130 (andi : (⟨S32x131072, .i1⟩ : BufTy).Contents (Elt F) → (⟨S32x131072, .i1⟩ : BufTy).Contents (Elt F) → (⟨S32x131072, .i1⟩ : BufTy).Contents (Elt F)),
    nullary main_c_51 (constantI S_ 32 0#32),
    unary main_c_51 main_v131 (broadcastInDim S32x131072 ![] bcast_S_S32x131072 : (⟨S_, .i32⟩ : BufTy).Contents (Elt F) → (⟨S32x131072, .i32⟩ : BufTy).Contents (Elt F)),
    binary main_v108 main_v131 main_v132 (cmpi .sge : (⟨S32x131072, .i32⟩ : BufTy).Contents (Elt F) → (⟨S32x131072, .i32⟩ : BufTy).Contents (Elt F) → (⟨S32x131072, .i1⟩ : BufTy).Contents (Elt F)),
    binary main_v130 main_v132 main_v133 (andi : (⟨S32x131072, .i1⟩ : BufTy).Contents (Elt F) → (⟨S32x131072, .i1⟩ : BufTy).Contents (Elt F) → (⟨S32x131072, .i1⟩ : BufTy).Contents (Elt F)),
    nullary main_c_52 (constantI S_ 32 64#32),
    unary main_c_52 main_v134 (broadcastInDim S32x131072 ![] bcast_S_S32x131072 : (⟨S_, .i32⟩ : BufTy).Contents (Elt F) → (⟨S32x131072, .i32⟩ : BufTy).Contents (Elt F)),
    binary main_v108 main_v134 main_v135 (cmpi .slt : (⟨S32x131072, .i32⟩ : BufTy).Contents (Elt F) → (⟨S32x131072, .i32⟩ : BufTy).Contents (Elt F) → (⟨S32x131072, .i1⟩ : BufTy).Contents (Elt F)),
    binary main_v133 main_v135 main_v136 (andi : (⟨S32x131072, .i1⟩ : BufTy).Contents (Elt F) → (⟨S32x131072, .i1⟩ : BufTy).Contents (Elt F) → (⟨S32x131072, .i1⟩ : BufTy).Contents (Elt F)),
    nullary main_c_53 (constantI S_ 32 0#32),
    nullary main_c_54 (constantI S_ 32 63#32),
    TRef.unary (TRef.of (T := ⟨S_, .i32⟩) main_c_53) (TRef.of (T := ⟨S_, .i32⟩) main_call9_v0) id,
    TRef.unary (TRef.of (T := ⟨S_, .i32⟩) main_call9_v0) (TRef.of (T := ⟨S32x131072, .i32⟩) main_call9_v1) (broadcastInDim S32x131072 ![] bcast_S_S32x131072),
    TRef.binary (TRef.of (T := ⟨S32x131072, .i32⟩) main_call9_v1) (TRef.of (T := ⟨S32x131072, .i32⟩) main_v104) (TRef.of (T := ⟨S32x131072, .i32⟩) main_call9_v2) maxsi,
    TRef.unary (TRef.of (T := ⟨S_, .i32⟩) main_c_54) (TRef.of (T := ⟨S_, .i32⟩) main_call9_v3) id,
    TRef.unary (TRef.of (T := ⟨S_, .i32⟩) main_call9_v3) (TRef.of (T := ⟨S32x131072, .i32⟩) main_call9_v4) (broadcastInDim S32x131072 ![] bcast_S_S32x131072),
    TRef.binary (TRef.of (T := ⟨S32x131072, .i32⟩) main_call9_v4) (TRef.of (T := ⟨S32x131072, .i32⟩) main_call9_v2) (TRef.of (T := ⟨S32x131072, .i32⟩) main_v137) minsi,
    nullary main_c_55 (constantI S_ 32 0#32),
    nullary main_c_56 (constantI S_ 32 63#32),
    TRef.unary (TRef.of (T := ⟨S_, .i32⟩) main_c_55) (TRef.of (T := ⟨S_, .i32⟩) main_call10_v0) id,
    TRef.unary (TRef.of (T := ⟨S_, .i32⟩) main_call10_v0) (TRef.of (T := ⟨S32x131072, .i32⟩) main_call10_v1) (broadcastInDim S32x131072 ![] bcast_S_S32x131072),
    TRef.binary (TRef.of (T := ⟨S32x131072, .i32⟩) main_call10_v1) (TRef.of (T := ⟨S32x131072, .i32⟩) main_v106) (TRef.of (T := ⟨S32x131072, .i32⟩) main_call10_v2) maxsi,
    TRef.unary (TRef.of (T := ⟨S_, .i32⟩) main_c_56) (TRef.of (T := ⟨S_, .i32⟩) main_call10_v3) id,
    TRef.unary (TRef.of (T := ⟨S_, .i32⟩) main_call10_v3) (TRef.of (T := ⟨S32x131072, .i32⟩) main_call10_v4) (broadcastInDim S32x131072 ![] bcast_S_S32x131072),
    TRef.binary (TRef.of (T := ⟨S32x131072, .i32⟩) main_call10_v4) (TRef.of (T := ⟨S32x131072, .i32⟩) main_call10_v2) (TRef.of (T := ⟨S32x131072, .i32⟩) main_v138) minsi,
    nullary main_c_57 (constantI S_ 32 0#32),
    nullary main_c_58 (constantI S_ 32 63#32),
    TRef.unary (TRef.of (T := ⟨S_, .i32⟩) main_c_57) (TRef.of (T := ⟨S_, .i32⟩) main_call11_v0) id,
    TRef.unary (TRef.of (T := ⟨S_, .i32⟩) main_call11_v0) (TRef.of (T := ⟨S32x131072, .i32⟩) main_call11_v1) (broadcastInDim S32x131072 ![] bcast_S_S32x131072),
    TRef.binary (TRef.of (T := ⟨S32x131072, .i32⟩) main_call11_v1) (TRef.of (T := ⟨S32x131072, .i32⟩) main_v108) (TRef.of (T := ⟨S32x131072, .i32⟩) main_call11_v2) maxsi,
    TRef.unary (TRef.of (T := ⟨S_, .i32⟩) main_c_58) (TRef.of (T := ⟨S_, .i32⟩) main_call11_v3) id,
    TRef.unary (TRef.of (T := ⟨S_, .i32⟩) main_call11_v3) (TRef.of (T := ⟨S32x131072, .i32⟩) main_call11_v4) (broadcastInDim S32x131072 ![] bcast_S_S32x131072),
    TRef.binary (TRef.of (T := ⟨S32x131072, .i32⟩) main_call11_v4) (TRef.of (T := ⟨S32x131072, .i32⟩) main_call11_v2) (TRef.of (T := ⟨S32x131072, .i32⟩) main_v139) minsi,
    nullary main_c_59 (constantI S_ 32 0#32),
    unary main_c_59 main_v140 (broadcastInDim S32x131072 ![] bcast_S_S32x131072 : (⟨S_, .i32⟩ : BufTy).Contents (Elt F) → (⟨S32x131072, .i32⟩ : BufTy).Contents (Elt F)),
    binary main_v139 main_v140 main_v141 (cmpi .slt : (⟨S32x131072, .i32⟩ : BufTy).Contents (Elt F) → (⟨S32x131072, .i32⟩ : BufTy).Contents (Elt F) → (⟨S32x131072, .i1⟩ : BufTy).Contents (Elt F)),
    nullary main_c_60 (constantI S_ 32 64#32),
    unary main_c_60 main_v142 (broadcastInDim S32x131072 ![] bcast_S_S32x131072 : (⟨S_, .i32⟩ : BufTy).Contents (Elt F) → (⟨S32x131072, .i32⟩ : BufTy).Contents (Elt F)),
    binary main_v139 main_v142 main_v143 (addi : (⟨S32x131072, .i32⟩ : BufTy).Contents (Elt F) → (⟨S32x131072, .i32⟩ : BufTy).Contents (Elt F) → (⟨S32x131072, .i32⟩ : BufTy).Contents (Elt F)),
    ternary main_v141 main_v143 main_v139 main_v144 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_61 (constantI S_ 32 0#32),
    unary main_c_61 main_v145 (broadcastInDim S32x131072 ![] bcast_S_S32x131072 : (⟨S_, .i32⟩ : BufTy).Contents (Elt F) → (⟨S32x131072, .i32⟩ : BufTy).Contents (Elt F)),
    binary main_v138 main_v145 main_v146 (cmpi .slt : (⟨S32x131072, .i32⟩ : BufTy).Contents (Elt F) → (⟨S32x131072, .i32⟩ : BufTy).Contents (Elt F) → (⟨S32x131072, .i1⟩ : BufTy).Contents (Elt F)),
    nullary main_c_62 (constantI S_ 32 64#32),
    unary main_c_62 main_v147 (broadcastInDim S32x131072 ![] bcast_S_S32x131072 : (⟨S_, .i32⟩ : BufTy).Contents (Elt F) → (⟨S32x131072, .i32⟩ : BufTy).Contents (Elt F)),
    binary main_v138 main_v147 main_v148 (addi : (⟨S32x131072, .i32⟩ : BufTy).Contents (Elt F) → (⟨S32x131072, .i32⟩ : BufTy).Contents (Elt F) → (⟨S32x131072, .i32⟩ : BufTy).Contents (Elt F)),
    ternary main_v146 main_v148 main_v138 main_v149 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_63 (constantI S_ 32 0#32),
    unary main_c_63 main_v150 (broadcastInDim S32x131072 ![] bcast_S_S32x131072 : (⟨S_, .i32⟩ : BufTy).Contents (Elt F) → (⟨S32x131072, .i32⟩ : BufTy).Contents (Elt F)),
    binary main_v137 main_v150 main_v151 (cmpi .slt : (⟨S32x131072, .i32⟩ : BufTy).Contents (Elt F) → (⟨S32x131072, .i32⟩ : BufTy).Contents (Elt F) → (⟨S32x131072, .i1⟩ : BufTy).Contents (Elt F)),
    nullary main_c_64 (constantI S_ 32 64#32),
    unary main_c_64 main_v152 (broadcastInDim S32x131072 ![] bcast_S_S32x131072 : (⟨S_, .i32⟩ : BufTy).Contents (Elt F) → (⟨S32x131072, .i32⟩ : BufTy).Contents (Elt F)),
    binary main_v137 main_v152 main_v153 (addi : (⟨S32x131072, .i32⟩ : BufTy).Contents (Elt F) → (⟨S32x131072, .i32⟩ : BufTy).Contents (Elt F) → (⟨S32x131072, .i32⟩ : BufTy).Contents (Elt F)),
    ternary main_v151 main_v153 main_v137 main_v154 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v144 main_v155 (broadcastInDim S32x131072x1 ![0, 1] bcast_S32x131072_S32x131072x1_0_1 : (⟨S32x131072, .i32⟩ : BufTy).Contents (Elt F) → (⟨S32x131072x1, .i32⟩ : BufTy).Contents (Elt F)),
    unary main_v149 main_v156 (broadcastInDim S32x131072x1 ![0, 1] bcast_S32x131072_S32x131072x1_0_1 : (⟨S32x131072, .i32⟩ : BufTy).Contents (Elt F) → (⟨S32x131072x1, .i32⟩ : BufTy).Contents (Elt F)),
    unary main_v154 main_v157 (broadcastInDim S32x131072x1 ![0, 1] bcast_S32x131072_S32x131072x1_0_1 : (⟨S32x131072, .i32⟩ : BufTy).Contents (Elt F) → (⟨S32x131072x1, .i32⟩ : BufTy).Contents (Elt F)) ]

set_option maxHeartbeats 40000000 in
/-- The rest, in order: the join of the columns, the gather, the masked weight, the product and the sum. -/
abbrev opsC1B : List (HloOp τ sig (Elt F)) :=
  [ nary ![main_v155, main_v156, main_v157] main_v158 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v158 main_v159 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v136 main_v160 (uitofp .f32 : (⟨S32x131072, .i1⟩ : BufTy).Contents (Elt F) → (⟨S32x131072, .f32⟩ : BufTy).Contents (Elt F)),
    binary main_v119 main_v160 main_v161 (mulf : (⟨S32x131072, .f32⟩ : BufTy).Contents (Elt F) → (⟨S32x131072, .f32⟩ : BufTy).Contents (Elt F) → (⟨S32x131072, .f32⟩ : BufTy).Contents (Elt F)),
    unary main_v161 main_v162 (broadcastInDim S1x32x131072 ![1, 2] bcast_S32x131072_S1x32x131072_1_2 : (⟨S32x131072, .f32⟩ : BufTy).Contents (Elt F) → (⟨S1x32x131072, .f32⟩ : BufTy).Contents (Elt F)),
    unary main_v162 main_v163 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v159 main_v163 main_v164 (mulf : (⟨S3x32x131072, .f32⟩ : BufTy).Contents (Elt F) → (⟨S3x32x131072, .f32⟩ : BufTy).Contents (Elt F) → (⟨S3x32x131072, .f32⟩ : BufTy).Contents (Elt F)),
    binary main_v102 main_v164 main_v165 (addf : (⟨S3x32x131072, .f32⟩ : BufTy).Contents (Elt F) → (⟨S3x32x131072, .f32⟩ : BufTy).Contents (Elt F) → (⟨S3x32x131072, .f32⟩ : BufTy).Contents (Elt F)) ]

set_option maxRecDepth 8192 in
set_option maxHeartbeats 40000000 in
/-- The corner's list is the two parts in a row. -/
theorem opsC1_split : (opsC1 (F := F)) = opsC1A ++ opsC1B := rfl

set_option maxRecDepth 8192 in
set_option maxHeartbeats 40000000 in
/-- The z column: the cell plus the offset, clipped, wrapped, as a column. -/
theorem opsC1A_colz (W : Valuation τ sig (Elt F)) :
    after (opsC1A (F := F)) W (Proc.devRef .tc main_v155)
      = colV (wrapV (clipV (addi (W (Proc.devRef .tc main_v38)) (splatI 1#32)))) := by
  after_results_simp <;> rfl

set_option maxRecDepth 8192 in
set_option maxHeartbeats 40000000 in
/-- The y column. -/
theorem opsC1A_coly (W : Valuation τ sig (Elt F)) :
    after (opsC1A (F := F)) W (Proc.devRef .tc main_v156)
      = colV (wrapV (clipV (addi (W (Proc.devRef .tc main_v37)) (splatI 0#32)))) := by
  after_results_simp <;> rfl

set_option maxRecDepth 8192 in
set_option maxHeartbeats 40000000 in
/-- The x column. -/
theorem opsC1A_colx (W : Valuation τ sig (Elt F)) :
    after (opsC1A (F := F)) W (Proc.devRef .tc main_v157)
      = colV (wrapV (clipV (addi (W (Proc.devRef .tc main_v36)) (splatI 0#32)))) := by
  after_results_simp <;> rfl

set_option maxRecDepth 8192 in
set_option maxHeartbeats 40000000 in
/-- The product of the three axis weights. -/
theorem opsC1A_weight (W : Valuation τ sig (Elt F)) :
    after (opsC1A (F := F)) W (Proc.devRef .tc main_v119)
      = mulf (mulf (pickV (F := F) 0#32 (W (Proc.devRef .tc main_v33))) (pickV (F := F) 0#32 (W (Proc.devRef .tc main_v34))))
          (pickV (F := F) 1#32 (W (Proc.devRef .tc main_v35))) := by
  after_results_simp <;> rfl

set_option maxRecDepth 8192 in
set_option maxHeartbeats 40000000 in
/-- The bit saying the three coordinates lie in [0, 64). -/
theorem opsC1A_valid (W : Valuation τ sig (Elt F)) :
    after (opsC1A (F := F)) W (Proc.devRef .tc main_v136)
      = validV (addi (W (Proc.devRef .tc main_v36)) (splatI 0#32)) (addi (W (Proc.devRef .tc main_v37)) (splatI 0#32))
          (addi (W (Proc.devRef .tc main_v38)) (splatI 1#32)) := by
  after_results_simp <;> rfl

set_option maxRecDepth 8192 in
set_option maxHeartbeats 40000000 in
/-- The first part does not write the previous sum's buffer. -/
theorem opsC1A_prev (W : Valuation τ sig (Elt F)) :
    after (opsC1A (F := F)) W (Proc.devRef .tc main_v102)
      = W (Proc.devRef .tc main_v102) := by
  after_results_simp <;> rfl

set_option maxRecDepth 8192 in
set_option maxHeartbeats 40000000 in
/-- The first part does not write the grid's buffer. -/
theorem opsC1A_grid (W : Valuation τ sig (Elt F)) :
    after (opsC1A (F := F)) W (Proc.devRef .tc main_arg1)
      = W (Proc.devRef .tc main_arg1) := by
  after_results_simp <;> rfl

set_option maxRecDepth 8192 in
set_option maxHeartbeats 40000000 in
/-- The second part: the previous sum plus the gathered grid times the masked weight, over the buffers it finds. -/
theorem opsC1B_sum (W : Valuation τ sig (Elt F)) :
    after (opsC1B (F := F)) W (Proc.devRef .tc main_v165)
      = addf (W (Proc.devRef .tc main_v102))
          (mulf (Host.gather gather_S3x64x64x64_S32x131072x3_S3x32x131072_0_123_n_n_123_2_3111 (W (Proc.devRef .tc main_arg1))
              (concatenate S32x131072x3 2 [⟨S32x131072x1, (W (Proc.devRef .tc main_v155))⟩, ⟨S32x131072x1, (W (Proc.devRef .tc main_v156))⟩,
                ⟨S32x131072x1, (W (Proc.devRef .tc main_v157))⟩] concatenates_S32x131072x1_S32x131072x1_S32x131072x1_S32x131072x3_d2))
            (spreadV (mulf (W (Proc.devRef .tc main_v119)) (uitofp .f32 (W (Proc.devRef .tc main_v136)))))) := by
  after_results_simp3 <;> rfl

set_option maxRecDepth 8192 in
set_option maxHeartbeats 40000000 in
/-- After the corner's operations the next sum buffer holds the previous sum plus the corner. -/
theorem opsC1_sum (W : Valuation τ sig (Elt F)) :
    after (opsC1 (F := F)) W (Proc.devRef .tc main_v165)
      = addf (W (Proc.devRef .tc main_v102))
          (Cert.RefCorner.cornerStage (F := F) 0#32 0#32 1#32 (W (Proc.devRef .tc main_v36)) (W (Proc.devRef .tc main_v37))
            (W (Proc.devRef .tc main_v38)) (W (Proc.devRef .tc main_v33)) (W (Proc.devRef .tc main_v34))
            (W (Proc.devRef .tc main_v35)) (W (Proc.devRef .tc main_arg1))) := by
  rw [opsC1_split, StableHlo.after_append, opsC1B_sum, opsC1A_prev, opsC1A_grid, opsC1A_colz, opsC1A_coly,
    opsC1A_colx, opsC1A_weight, opsC1A_valid]
  rfl

end Cert.RefRun

end
-- ==== Proof.RefRunC2S.lean ====
/-
  What the operations of corner (dx, dy, dz) = (0, 1, 0) leave in the running sum's next buffer from any contents W:
  the previous sum plus the corner, the one function of the three cell arrays, the three arrays of fractional parts
  and the grid, at this corner's offsets.

  The list is read in two parts. The first part, up to the three columns of start indices, leaves in five buffers
  the three clipped and wrapped coordinate columns (z, y, x), the product of the three axis weights, and the bit
  saying that the three coordinates lie in [0, 64), each a composition of the operations over the cells, the
  fractional parts and the offsets; it writes neither the grid's buffer nor the previous sum's. The second part joins
  the three columns, gathers the grid there, multiplies by the masked weight spread over the channels and adds the
  previous sum. One part after the other is the corner.
-/
import proofs.«174278_j48524540510565_1_alg».proof.Proof.RefRunC2
import proofs.«174278_j48524540510565_1_alg».proof.Proof.RefRunLib
import proofs.«174278_j48524540510565_1_alg».proof.Proof.RefCornerDef
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.RefCorner

variable {F : FTy → Type} [FloatOps F]

set_option maxHeartbeats 40000000 in
/-- The corner's operations up to the three columns of start indices, in order. -/
abbrev opsC2A : List (HloOp τ sig (Elt F)) :=
  [ nullary main_c_65 (constantI S_ 32 0#32),
    unary main_c_65 main_v166 (broadcastInDim S32x131072 ![] bcast_S_S32x131072 : (⟨S_, .i32⟩ : BufTy).Contents (Elt F) → (⟨S32x131072, .i32⟩ : BufTy).Contents (Elt F)),
    binary main_v36 main_v166 main_v167 (addi : (⟨S32x131072, .i32⟩ : BufTy).Contents (Elt F) → (⟨S32x131072, .i32⟩ : BufTy).Contents (Elt F) → (⟨S32x131072, .i32⟩ : BufTy).Contents (Elt F)),
    nullary main_c_66 (constantI S_ 32 1#32),
    unary main_c_66 main_v168 (broadcastInDim S32x131072 ![] bcast_S_S32x131072 : (⟨S_, .i32⟩ : BufTy).Contents (Elt F) → (⟨S32x131072, .i32⟩ : BufTy).Contents (Elt F)),
    binary main_v37 main_v168 main_v169 (addi : (⟨S32x131072, .i32⟩ : BufTy).Contents (Elt F) → (⟨S32x131072, .i32⟩ : BufTy).Contents (Elt F) → (⟨S32x131072, .i32⟩ : BufTy).Contents (Elt F)),
    nullary main_c_67 (constantI S_ 32 0#32),
    unary main_c_67 main_v170 (broadcastInDim S32x131072 ![] bcast_S_S32x131072 : (⟨S_, .i32⟩ : BufTy).Contents (Elt F) → (⟨S32x131072, .i32⟩ : BufTy).Contents (Elt F)),
    binary main_v38 main_v170 main_v171 (addi : (⟨S32x131072, .i32⟩ : BufTy).Contents (Elt F) → (⟨S32x131072, .i32⟩ : BufTy).Contents (Elt F) → (⟨S32x131072, .i32⟩ : BufTy).Contents (Elt F)),
    nullary main_cst_68 (constant S_ .f32 0x3F800000#32),
    unary main_cst_68 main_v172 (broadcastInDim S32x131072 ![] bcast_S_S32x131072 : (⟨S_, .f32⟩ : BufTy).Contents (Elt F) → (⟨S32x131072, .f32⟩ : BufTy).Contents (Elt F)),
    binary main_v172 main_v33 main_v173 (subf : (⟨S32x131072, .f32⟩ : BufTy).Contents (Elt F) → (⟨S32x131072, .f32⟩ : BufTy).Contents (Elt F) → (⟨S32x131072, .f32⟩ : BufTy).Contents (Elt F)),
    nullary main_c_69 (constantI S_ 32 0#32),
    TRef.nullary (TRef.of (T := ⟨S_, .i32⟩) main_call12_c) (constantI S_ 32 0#32),
    TRef.binary (TRef.of (T := ⟨S_, .i32⟩) main_c_69) (TRef.of (T := ⟨S_, .i32⟩) main_call12_c) (TRef.of (T := ⟨S_, .i1⟩) main_call12_v0) (cmpi .ne),
    TRef.ternary (TRef.of (T := ⟨S_, .i1⟩) main_call12_v0) (TRef.of (T := ⟨S32x131072, .f32⟩) main_v33) (TRef.of (T := ⟨S32x131072, .f32⟩) main_v173) (TRef.of (T := ⟨S32x131072, .f32⟩) main_v174) (fun p a b => select (broadcastInDim S32x131072 ![] bcast_S_S32x131072 p) a b),
    nullary main_cst_70 (constant S_ .f32 0x3F800000#32),
    unary main_cst_70 main_v175 (broadcastInDim S32x131072 ![] bcast_S_S32x131072 : (⟨S_, .f32⟩ : BufTy).Contents (Elt F) → (⟨S32x131072, .f32⟩ : BufTy).Contents (Elt F)),
    binary main_v175 main_v34 main_v176 (subf : (⟨S32x131072, .f32⟩ : BufTy).Contents (Elt F) → (⟨S32x131072, .f32⟩ : BufTy).Contents (Elt F) → (⟨S32x131072, .f32⟩ : BufTy).Contents (Elt F)),
    nullary main_c_71 (constantI S_ 32 1#32),
    TRef.nullary (TRef.of (T := ⟨S_, .i32⟩) main_call13_c) (constantI S_ 32 0#32),
    TRef.binary (TRef.of (T := ⟨S_, .i32⟩) main_c_71) (TRef.of (T := ⟨S_, .i32⟩) main_call13_c) (TRef.of (T := ⟨S_, .i1⟩) main_call13_v0) (cmpi .ne),
    TRef.ternary (TRef.of (T := ⟨S_, .i1⟩) main_call13_v0) (TRef.of (T := ⟨S32x131072, .f32⟩) main_v34) (TRef.of (T := ⟨S32x131072, .f32⟩) main_v176) (TRef.of (T := ⟨S32x131072, .f32⟩) main_v177) (fun p a b => select (broadcastInDim S32x131072 ![] bcast_S_S32x131072 p) a b),
    binary main_v174 main_v177 main_v178 (mulf : (⟨S32x131072, .f32⟩ : BufTy).Contents (Elt F) → (⟨S32x131072, .f32⟩ : BufTy).Contents (Elt F) → (⟨S32x131072, .f32⟩ : BufTy).Contents (Elt F)),
    nullary main_cst_72 (constant S_ .f32 0x3F800000#32),
    unary main_cst_72 main_v179 (broadcastInDim S32x131072 ![] bcast_S_S32x131072 : (⟨S_, .f32⟩ : BufTy).Contents (Elt F) → (⟨S32x131072, .f32⟩ : BufTy).Contents (Elt F)),
    binary main_v179 main_v35 main_v180 (subf : (⟨S32x131072, .f32⟩ : BufTy).Contents (Elt F) → (⟨S32x131072, .f32⟩ : BufTy).Contents (Elt F) → (⟨S32x131072, .f32⟩ : BufTy).Contents (Elt F)),
    nullary main_c_73 (constantI S_ 32 0#32),
    TRef.nullary (TRef.of (T := ⟨S_, .i32⟩) main_call14_c) (constantI S_ 32 0#32),
    TRef.binary (TRef.of (T := ⟨S_, .i32⟩) main_c_73) (TRef.of (T := ⟨S_, .i32⟩) main_call14_c) (TRef.of (T := ⟨S_, .i1⟩) main_call14_v0) (cmpi .ne),
    TRef.ternary (TRef.of (T := ⟨S_, .i1⟩) main_call14_v0) (TRef.of (T := ⟨S32x131072, .f32⟩) main_v35) (TRef.of (T := ⟨S32x131072, .f32⟩) main_v180) (TRef.of (T := ⟨S32x131072, .f32⟩) main_v181) (fun p a b => select (broadcastInDim S32x131072 ![] bcast_S_S32x131072 p) a b),
    binary main_v178 main_v181 main_v182 (mulf : (⟨S32x131072, .f32⟩ : BufTy).Contents (Elt F) → (⟨S32x131072, .f32⟩ : BufTy).Contents (Elt F) → (⟨S32x131072, .f32⟩ : BufTy).Contents (Elt F)),
    nullary main_c_74 (constantI S_ 32 0#32),
    unary main_c_74 main_v183 (broadcastInDim S32x131072 ![] bcast_S_S32x131072 : (⟨S_, .i32⟩ : BufTy).Contents (Elt F) → (⟨S32x131072, .i32⟩ : BufTy).Contents (Elt F)),
    binary main_v167 main_v183 main_v184 (cmpi .sge : (⟨S32x131072, .i32⟩ : BufTy).Contents (Elt F) → (⟨S32x131072, .i32⟩ : BufTy).Contents (Elt F) → (⟨S32x131072, .i1⟩ : BufTy).Contents (Elt F)),
    nullary main_c_75 (constantI S_ 32 64#32),
    unary main_c_75 main_v185 (broadcastInDim S32x131072 ![] bcast_S_S32x131072 : (⟨S_, .i32⟩ : BufTy).Contents (Elt F) → (⟨S32x131072, .i32⟩ : BufTy).Contents (Elt F)),
    binary main_v167 main_v185 main_v186 (cmpi .slt : (⟨S32x131072, .i32⟩ : BufTy).Contents (Elt F) → (⟨S32x131072, .i32⟩ : BufTy).Contents (Elt F) → (⟨S32x131072, .i1⟩ : BufTy).Contents (Elt F)),
    binary main_v184 main_v186 main_v187 (andi : (⟨S32x131072, .i1⟩ : BufTy).Contents (Elt F) → (⟨S32x131072, .i1⟩ : BufTy).Contents (Elt F) → (⟨S32x131072, .i1⟩ : BufTy).Contents (Elt F)),
    nullary main_c_76 (constantI S_ 32 0#32),
    unary main_c_76 main_v188 (broadcastInDim S32x131072 ![] bcast_S_S32x131072 : (⟨S_, .i32⟩ : BufTy).Contents (Elt F) → (⟨S32x131072, .i32⟩ : BufTy).Contents (Elt F)),
    binary main_v169 main_v188 main_v189 (cmpi .sge : (⟨S32x131072, .i32⟩ : BufTy).Contents (Elt F) → (⟨S32x131072, .i32⟩ : BufTy).Contents (Elt F) → (⟨S32x131072, .i1⟩ : BufTy).Contents (Elt F)),
    binary main_v187 main_v189 main_v190 (andi : (⟨S32x131072, .i1⟩ : BufTy).Contents (Elt F) → (⟨S32x131072, .i1⟩ : BufTy).Contents (Elt F) → (⟨S32x131072, .i1⟩ : BufTy).Contents (Elt F)),
    nullary main_c_77 (constantI S_ 32 64#32),
    unary main_c_77 main_v191 (broadcastInDim S32x131072 ![] bcast_S_S32x131072 : (⟨S_, .i32⟩ : BufTy).Contents (Elt F) → (⟨S32x131072, .i32⟩ : BufTy).Contents (Elt F)),
    binary main_v169 main_v191 main_v192 (cmpi .slt : (⟨S32x131072, .i32⟩ : BufTy).Contents (Elt F) → (⟨S32x131072, .i32⟩ : BufTy).Contents (Elt F) → (⟨S32x131072, .i1⟩ : BufTy).Contents (Elt F)),
    binary main_v190 main_v192 main_v193 (andi : (⟨S32x131072, .i1⟩ : BufTy).Contents (Elt F) → (⟨S32x131072, .i1⟩ : BufTy).Contents (Elt F) → (⟨S32x131072, .i1⟩ : BufTy).Contents (Elt F)),
    nullary main_c_78 (constantI S_ 32 0#32),
    unary main_c_78 main_v194 (broadcastInDim S32x131072 ![] bcast_S_S32x131072 : (⟨S_, .i32⟩ : BufTy).Contents (Elt F) → (⟨S32x131072, .i32⟩ : BufTy).Contents (Elt F)),
    binary main_v171 main_v194 main_v195 (cmpi .sge : (⟨S32x131072, .i32⟩ : BufTy).Contents (Elt F) → (⟨S32x131072, .i32⟩ : BufTy).Contents (Elt F) → (⟨S32x131072, .i1⟩ : BufTy).Contents (Elt F)),
    binary main_v193 main_v195 main_v196 (andi : (⟨S32x131072, .i1⟩ : BufTy).Contents (Elt F) → (⟨S32x131072, .i1⟩ : BufTy).Contents (Elt F) → (⟨S32x131072, .i1⟩ : BufTy).Contents (Elt F)),
    nullary main_c_79 (constantI S_ 32 64#32),
    unary main_c_79 main_v197 (broadcastInDim S32x131072 ![] bcast_S_S32x131072 : (⟨S_, .i32⟩ : BufTy).Contents (Elt F) → (⟨S32x131072, .i32⟩ : BufTy).Contents (Elt F)),
    binary main_v171 main_v197 main_v198 (cmpi .slt : (⟨S32x131072, .i32⟩ : BufTy).Contents (Elt F) → (⟨S32x131072, .i32⟩ : BufTy).Contents (Elt F) → (⟨S32x131072, .i1⟩ : BufTy).Contents (Elt F)),
    binary main_v196 main_v198 main_v199 (andi : (⟨S32x131072, .i1⟩ : BufTy).Contents (Elt F) → (⟨S32x131072, .i1⟩ : BufTy).Contents (Elt F) → (⟨S32x131072, .i1⟩ : BufTy).Contents (Elt F)),
    nullary main_c_80 (constantI S_ 32 0#32),
    nullary main_c_81 (constantI S_ 32 63#32),
    TRef.unary (TRef.of (T := ⟨S_, .i32⟩) main_c_80) (TRef.of (T := ⟨S_, .i32⟩) main_call15_v0) id,
    TRef.unary (TRef.of (T := ⟨S_, .i32⟩) main_call15_v0) (TRef.of (T := ⟨S32x131072, .i32⟩) main_call15_v1) (broadcastInDim S32x131072 ![] bcast_S_S32x131072),
    TRef.binary (TRef.of (T := ⟨S32x131072, .i32⟩) main_call15_v1) (TRef.of (T := ⟨S32x131072, .i32⟩) main_v167) (TRef.of (T := ⟨S32x131072, .i32⟩) main_call15_v2) maxsi,
    TRef.unary (TRef.of (T := ⟨S_, .i32⟩) main_c_81) (TRef.of (T := ⟨S_, .i32⟩) main_call15_v3) id,
    TRef.unary (TRef.of (T := ⟨S_, .i32⟩) main_call15_v3) (TRef.of (T := ⟨S32x131072, .i32⟩) main_call15_v4) (broadcastInDim S32x131072 ![] bcast_S_S32x131072),
    TRef.binary (TRef.of (T := ⟨S32x131072, .i32⟩) main_call15_v4) (TRef.of (T := ⟨S32x131072, .i32⟩) main_call15_v2) (TRef.of (T := ⟨S32x131072, .i32⟩) main_v200) minsi,
    nullary main_c_82 (constantI S_ 32 0#32),
    nullary main_c_83 (constantI S_ 32 63#32),
    TRef.unary (TRef.of (T := ⟨S_, .i32⟩) main_c_82) (TRef.of (T := ⟨S_, .i32⟩) main_call16_v0) id,
    TRef.unary (TRef.of (T := ⟨S_, .i32⟩) main_call16_v0) (TRef.of (T := ⟨S32x131072, .i32⟩) main_call16_v1) (broadcastInDim S32x131072 ![] bcast_S_S32x131072),
    TRef.binary (TRef.of (T := ⟨S32x131072, .i32⟩) main_call16_v1) (TRef.of (T := ⟨S32x131072, .i32⟩) main_v169) (TRef.of (T := ⟨S32x131072, .i32⟩) main_call16_v2) maxsi,
    TRef.unary (TRef.of (T := ⟨S_, .i32⟩) main_c_83) (TRef.of (T := ⟨S_, .i32⟩) main_call16_v3) id,
    TRef.unary (TRef.of (T := ⟨S_, .i32⟩) main_call16_v3) (TRef.of (T := ⟨S32x131072, .i32⟩) main_call16_v4) (broadcastInDim S32x131072 ![] bcast_S_S32x131072),
    TRef.binary (TRef.of (T := ⟨S32x131072, .i32⟩) main_call16_v4) (TRef.of (T := ⟨S32x131072, .i32⟩) main_call16_v2) (TRef.of (T := ⟨S32x131072, .i32⟩) main_v201) minsi,
    nullary main_c_84 (constantI S_ 32 0#32),
    nullary main_c_85 (constantI S_ 32 63#32),
    TRef.unary (TRef.of (T := ⟨S_, .i32⟩) main_c_84) (TRef.of (T := ⟨S_, .i32⟩) main_call17_v0) id,
    TRef.unary (TRef.of (T := ⟨S_, .i32⟩) main_call17_v0) (TRef.of (T := ⟨S32x131072, .i32⟩) main_call17_v1) (broadcastInDim S32x131072 ![] bcast_S_S32x131072),
    TRef.binary (TRef.of (T := ⟨S32x131072, .i32⟩) main_call17_v1) (TRef.of (T := ⟨S32x131072, .i32⟩) main_v171) (TRef.of (T := ⟨S32x131072, .i32⟩) main_call17_v2) maxsi,
    TRef.unary (TRef.of (T := ⟨S_, .i32⟩) main_c_85) (TRef.of (T := ⟨S_, .i32⟩) main_call17_v3) id,
    TRef.unary (TRef.of (T := ⟨S_, .i32⟩) main_call17_v3) (TRef.of (T := ⟨S32x131072, .i32⟩) main_call17_v4) (broadcastInDim S32x131072 ![] bcast_S_S32x131072),
    TRef.binary (TRef.of (T := ⟨S32x131072, .i32⟩) main_call17_v4) (TRef.of (T := ⟨S32x131072, .i32⟩) main_call17_v2) (TRef.of (T := ⟨S32x131072, .i32⟩) main_v202) minsi,
    nullary main_c_86 (constantI S_ 32 0#32),
    unary main_c_86 main_v203 (broadcastInDim S32x131072 ![] bcast_S_S32x131072 : (⟨S_, .i32⟩ : BufTy).Contents (Elt F) → (⟨S32x131072, .i32⟩ : BufTy).Contents (Elt F)),
    binary main_v202 main_v203 main_v204 (cmpi .slt : (⟨S32x131072, .i32⟩ : BufTy).Contents (Elt F) → (⟨S32x131072, .i32⟩ : BufTy).Contents (Elt F) → (⟨S32x131072, .i1⟩ : BufTy).Contents (Elt F)),
    nullary main_c_87 (constantI S_ 32 64#32),
    unary main_c_87 main_v205 (broadcastInDim S32x131072 ![] bcast_S_S32x131072 : (⟨S_, .i32⟩ : BufTy).Contents (Elt F) → (⟨S32x131072, .i32⟩ : BufTy).Contents (Elt F)),
    binary main_v202 main_v205 main_v206 (addi : (⟨S32x131072, .i32⟩ : BufTy).Contents (Elt F) → (⟨S32x131072, .i32⟩ : BufTy).Contents (Elt F) → (⟨S32x131072, .i32⟩ : BufTy).Contents (Elt F)),
    ternary main_v204 main_v206 main_v202 main_v207 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_88 (constantI S_ 32 0#32),
    unary main_c_88 main_v208 (broadcastInDim S32x131072 ![] bcast_S_S32x131072 : (⟨S_, .i32⟩ : BufTy).Contents (Elt F) → (⟨S32x131072, .i32⟩ : BufTy).Contents (Elt F)),
    binary main_v201 main_v208 main_v209 (cmpi .slt : (⟨S32x131072, .i32⟩ : BufTy).Contents (Elt F) → (⟨S32x131072, .i32⟩ : BufTy).Contents (Elt F) → (⟨S32x131072, .i1⟩ : BufTy).Contents (Elt F)),
    nullary main_c_89 (constantI S_ 32 64#32),
    unary main_c_89 main_v210 (broadcastInDim S32x131072 ![] bcast_S_S32x131072 : (⟨S_, .i32⟩ : BufTy).Contents (Elt F) → (⟨S32x131072, .i32⟩ : BufTy).Contents (Elt F)),
    binary main_v201 main_v210 main_v211 (addi : (⟨S32x131072, .i32⟩ : BufTy).Contents (Elt F) → (⟨S32x131072, .i32⟩ : BufTy).Contents (Elt F) → (⟨S32x131072, .i32⟩ : BufTy).Contents (Elt F)),
    ternary main_v209 main_v211 main_v201 main_v212 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_90 (constantI S_ 32 0#32),
    unary main_c_90 main_v213 (broadcastInDim S32x131072 ![] bcast_S_S32x131072 : (⟨S_, .i32⟩ : BufTy).Contents (Elt F) → (⟨S32x131072, .i32⟩ : BufTy).Contents (Elt F)),
    binary main_v200 main_v213 main_v214 (cmpi .slt : (⟨S32x131072, .i32⟩ : BufTy).Contents (Elt F) → (⟨S32x131072, .i32⟩ : BufTy).Contents (Elt F) → (⟨S32x131072, .i1⟩ : BufTy).Contents (Elt F)),
    nullary main_c_91 (constantI S_ 32 64#32),
    unary main_c_91 main_v215 (broadcastInDim S32x131072 ![] bcast_S_S32x131072 : (⟨S_, .i32⟩ : BufTy).Contents (Elt F) → (⟨S32x131072, .i32⟩ : BufTy).Contents (Elt F)),
    binary main_v200 main_v215 main_v216 (addi : (⟨S32x131072, .i32⟩ : BufTy).Contents (Elt F) → (⟨S32x131072, .i32⟩ : BufTy).Contents (Elt F) → (⟨S32x131072, .i32⟩ : BufTy).Contents (Elt F)),
    ternary main_v214 main_v216 main_v200 main_v217 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v207 main_v218 (broadcastInDim S32x131072x1 ![0, 1] bcast_S32x131072_S32x131072x1_0_1 : (⟨S32x131072, .i32⟩ : BufTy).Contents (Elt F) → (⟨S32x131072x1, .i32⟩ : BufTy).Contents (Elt F)),
    unary main_v212 main_v219 (broadcastInDim S32x131072x1 ![0, 1] bcast_S32x131072_S32x131072x1_0_1 : (⟨S32x131072, .i32⟩ : BufTy).Contents (Elt F) → (⟨S32x131072x1, .i32⟩ : BufTy).Contents (Elt F)),
    unary main_v217 main_v220 (broadcastInDim S32x131072x1 ![0, 1] bcast_S32x131072_S32x131072x1_0_1 : (⟨S32x131072, .i32⟩ : BufTy).Contents (Elt F) → (⟨S32x131072x1, .i32⟩ : BufTy).Contents (Elt F)) ]

set_option maxHeartbeats 40000000 in
/-- The rest, in order: the join of the columns, the gather, the masked weight, the product and the sum. -/
abbrev opsC2B : List (HloOp τ sig (Elt F)) :=
  [ nary ![main_v218, main_v219, main_v220] main_v221 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v221 main_v222 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v199 main_v223 (uitofp .f32 : (⟨S32x131072, .i1⟩ : BufTy).Contents (Elt F) → (⟨S32x131072, .f32⟩ : BufTy).Contents (Elt F)),
    binary main_v182 main_v223 main_v224 (mulf : (⟨S32x131072, .f32⟩ : BufTy).Contents (Elt F) → (⟨S32x131072, .f32⟩ : BufTy).Contents (Elt F) → (⟨S32x131072, .f32⟩ : BufTy).Contents (Elt F)),
    unary main_v224 main_v225 (broadcastInDim S1x32x131072 ![1, 2] bcast_S32x131072_S1x32x131072_1_2 : (⟨S32x131072, .f32⟩ : BufTy).Contents (Elt F) → (⟨S1x32x131072, .f32⟩ : BufTy).Contents (Elt F)),
    unary main_v225 main_v226 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v222 main_v226 main_v227 (mulf : (⟨S3x32x131072, .f32⟩ : BufTy).Contents (Elt F) → (⟨S3x32x131072, .f32⟩ : BufTy).Contents (Elt F) → (⟨S3x32x131072, .f32⟩ : BufTy).Contents (Elt F)),
    binary main_v165 main_v227 main_v228 (addf : (⟨S3x32x131072, .f32⟩ : BufTy).Contents (Elt F) → (⟨S3x32x131072, .f32⟩ : BufTy).Contents (Elt F) → (⟨S3x32x131072, .f32⟩ : BufTy).Contents (Elt F)) ]

set_option maxRecDepth 8192 in
set_option maxHeartbeats 40000000 in
/-- The corner's list is the two parts in a row. -/
theorem opsC2_split : (opsC2 (F := F)) = opsC2A ++ opsC2B := rfl

set_option maxRecDepth 8192 in
set_option maxHeartbeats 40000000 in
/-- The z column: the cell plus the offset, clipped, wrapped, as a column. -/
theorem opsC2A_colz (W : Valuation τ sig (Elt F)) :
    after (opsC2A (F := F)) W (Proc.devRef .tc main_v218)
      = colV (wrapV (clipV (addi (W (Proc.devRef .tc main_v38)) (splatI 0#32)))) := by
  after_results_simp <;> rfl

set_option maxRecDepth 8192 in
set_option maxHeartbeats 40000000 in
/-- The y column. -/
theorem opsC2A_coly (W : Valuation τ sig (Elt F)) :
    after (opsC2A (F := F)) W (Proc.devRef .tc main_v219)
      = colV (wrapV (clipV (addi (W (Proc.devRef .tc main_v37)) (splatI 1#32)))) := by
  after_results_simp <;> rfl

set_option maxRecDepth 8192 in
set_option maxHeartbeats 40000000 in
/-- The x column. -/
theorem opsC2A_colx (W : Valuation τ sig (Elt F)) :
    after (opsC2A (F := F)) W (Proc.devRef .tc main_v220)
      = colV (wrapV (clipV (addi (W (Proc.devRef .tc main_v36)) (splatI 0#32)))) := by
  after_results_simp <;> rfl

set_option maxRecDepth 8192 in
set_option maxHeartbeats 40000000 in
/-- The product of the three axis weights. -/
theorem opsC2A_weight (W : Valuation τ sig (Elt F)) :
    after (opsC2A (F := F)) W (Proc.devRef .tc main_v182)
      = mulf (mulf (pickV (F := F) 0#32 (W (Proc.devRef .tc main_v33))) (pickV (F := F) 1#32 (W (Proc.devRef .tc main_v34))))
          (pickV (F := F) 0#32 (W (Proc.devRef .tc main_v35))) := by
  after_results_simp <;> rfl

set_option maxRecDepth 8192 in
set_option maxHeartbeats 40000000 in
/-- The bit saying the three coordinates lie in [0, 64). -/
theorem opsC2A_valid (W : Valuation τ sig (Elt F)) :
    after (opsC2A (F := F)) W (Proc.devRef .tc main_v199)
      = validV (addi (W (Proc.devRef .tc main_v36)) (splatI 0#32)) (addi (W (Proc.devRef .tc main_v37)) (splatI 1#32))
          (addi (W (Proc.devRef .tc main_v38)) (splatI 0#32)) := by
  after_results_simp <;> rfl

set_option maxRecDepth 8192 in
set_option maxHeartbeats 40000000 in
/-- The first part does not write the previous sum's buffer. -/
theorem opsC2A_prev (W : Valuation τ sig (Elt F)) :
    after (opsC2A (F := F)) W (Proc.devRef .tc main_v165)
      = W (Proc.devRef .tc main_v165) := by
  after_results_simp <;> rfl

set_option maxRecDepth 8192 in
set_option maxHeartbeats 40000000 in
/-- The first part does not write the grid's buffer. -/
theorem opsC2A_grid (W : Valuation τ sig (Elt F)) :
    after (opsC2A (F := F)) W (Proc.devRef .tc main_arg1)
      = W (Proc.devRef .tc main_arg1) := by
  after_results_simp <;> rfl

set_option maxRecDepth 8192 in
set_option maxHeartbeats 40000000 in
/-- The second part: the previous sum plus the gathered grid times the masked weight, over the buffers it finds. -/
theorem opsC2B_sum (W : Valuation τ sig (Elt F)) :
    after (opsC2B (F := F)) W (Proc.devRef .tc main_v228)
      = addf (W (Proc.devRef .tc main_v165))
          (mulf (Host.gather gather_S3x64x64x64_S32x131072x3_S3x32x131072_0_123_n_n_123_2_3111 (W (Proc.devRef .tc main_arg1))
              (concatenate S32x131072x3 2 [⟨S32x131072x1, (W (Proc.devRef .tc main_v218))⟩, ⟨S32x131072x1, (W (Proc.devRef .tc main_v219))⟩,
                ⟨S32x131072x1, (W (Proc.devRef .tc main_v220))⟩] concatenates_S32x131072x1_S32x131072x1_S32x131072x1_S32x131072x3_d2))
            (spreadV (mulf (W (Proc.devRef .tc main_v182)) (uitofp .f32 (W (Proc.devRef .tc main_v199)))))) := by
  after_results_simp3 <;> rfl

set_option maxRecDepth 8192 in
set_option maxHeartbeats 40000000 in
/-- After the corner's operations the next sum buffer holds the previous sum plus the corner. -/
theorem opsC2_sum (W : Valuation τ sig (Elt F)) :
    after (opsC2 (F := F)) W (Proc.devRef .tc main_v228)
      = addf (W (Proc.devRef .tc main_v165))
          (Cert.RefCorner.cornerStage (F := F) 0#32 1#32 0#32 (W (Proc.devRef .tc main_v36)) (W (Proc.devRef .tc main_v37))
            (W (Proc.devRef .tc main_v38)) (W (Proc.devRef .tc main_v33)) (W (Proc.devRef .tc main_v34))
            (W (Proc.devRef .tc main_v35)) (W (Proc.devRef .tc main_arg1))) := by
  rw [opsC2_split, StableHlo.after_append, opsC2B_sum, opsC2A_prev, opsC2A_grid, opsC2A_colz, opsC2A_coly,
    opsC2A_colx, opsC2A_weight, opsC2A_valid]
  rfl

end Cert.RefRun

end
-- ==== Proof.RefRunC3S.lean ====
/-
  What the operations of corner (dx, dy, dz) = (0, 1, 1) leave in the running sum's next buffer from any contents W:
  the previous sum plus the corner, the one function of the three cell arrays, the three arrays of fractional parts
  and the grid, at this corner's offsets.

  The list is read in two parts. The first part, up to the three columns of start indices, leaves in five buffers
  the three clipped and wrapped coordinate columns (z, y, x), the product of the three axis weights, and the bit
  saying that the three coordinates lie in [0, 64), each a composition of the operations over the cells, the
  fractional parts and the offsets; it writes neither the grid's buffer nor the previous sum's. The second part joins
  the three columns, gathers the grid there, multiplies by the masked weight spread over the channels and adds the
  previous sum. One part after the other is the corner.
-/
import proofs.«174278_j48524540510565_1_alg».proof.Proof.RefRunC3
import proofs.«174278_j48524540510565_1_alg».proof.Proof.RefRunLib
import proofs.«174278_j48524540510565_1_alg».proof.Proof.RefCornerDef
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.RefCorner

variable {F : FTy → Type} [FloatOps F]

set_option maxHeartbeats 40000000 in
/-- The corner's operations up to the three columns of start indices, in order. -/
abbrev opsC3A : List (HloOp τ sig (Elt F)) :=
  [ nullary main_c_92 (constantI S_ 32 0#32),
    unary main_c_92 main_v229 (broadcastInDim S32x131072 ![] bcast_S_S32x131072 : (⟨S_, .i32⟩ : BufTy).Contents (Elt F) → (⟨S32x131072, .i32⟩ : BufTy).Contents (Elt F)),
    binary main_v36 main_v229 main_v230 (addi : (⟨S32x131072, .i32⟩ : BufTy).Contents (Elt F) → (⟨S32x131072, .i32⟩ : BufTy).Contents (Elt F) → (⟨S32x131072, .i32⟩ : BufTy).Contents (Elt F)),
    nullary main_c_93 (constantI S_ 32 1#32),
    unary main_c_93 main_v231 (broadcastInDim S32x131072 ![] bcast_S_S32x131072 : (⟨S_, .i32⟩ : BufTy).Contents (Elt F) → (⟨S32x131072, .i32⟩ : BufTy).Contents (Elt F)),
    binary main_v37 main_v231 main_v232 (addi : (⟨S32x131072, .i32⟩ : BufTy).Contents (Elt F) → (⟨S32x131072, .i32⟩ : BufTy).Contents (Elt F) → (⟨S32x131072, .i32⟩ : BufTy).Contents (Elt F)),
    nullary main_c_94 (constantI S_ 32 1#32),
    unary main_c_94 main_v233 (broadcastInDim S32x131072 ![] bcast_S_S32x131072 : (⟨S_, .i32⟩ : BufTy).Contents (Elt F) → (⟨S32x131072, .i32⟩ : BufTy).Contents (Elt F)),
    binary main_v38 main_v233 main_v234 (addi : (⟨S32x131072, .i32⟩ : BufTy).Contents (Elt F) → (⟨S32x131072, .i32⟩ : BufTy).Contents (Elt F) → (⟨S32x131072, .i32⟩ : BufTy).Contents (Elt F)),
    nullary main_cst_95 (constant S_ .f32 0x3F800000#32),
    unary main_cst_95 main_v235 (broadcastInDim S32x131072 ![] bcast_S_S32x131072 : (⟨S_, .f32⟩ : BufTy).Contents (Elt F) → (⟨S32x131072, .f32⟩ : BufTy).Contents (Elt F)),
    binary main_v235 main_v33 main_v236 (subf : (⟨S32x131072, .f32⟩ : BufTy).Contents (Elt F) → (⟨S32x131072, .f32⟩ : BufTy).Contents (Elt F) → (⟨S32x131072, .f32⟩ : BufTy).Contents (Elt F)),
    nullary main_c_96 (constantI S_ 32 0#32),
    TRef.nullary (TRef.of (T := ⟨S_, .i32⟩) main_call18_c) (constantI S_ 32 0#32),
    TRef.binary (TRef.of (T := ⟨S_, .i32⟩) main_c_96) (TRef.of (T := ⟨S_, .i32⟩) main_call18_c) (TRef.of (T := ⟨S_, .i1⟩) main_call18_v0) (cmpi .ne),
    TRef.ternary (TRef.of (T := ⟨S_, .i1⟩) main_call18_v0) (TRef.of (T := ⟨S32x131072, .f32⟩) main_v33) (TRef.of (T := ⟨S32x131072, .f32⟩) main_v236) (TRef.of (T := ⟨S32x131072, .f32⟩) main_v237) (fun p a b => select (broadcastInDim S32x131072 ![] bcast_S_S32x131072 p) a b),
    nullary main_cst_97 (constant S_ .f32 0x3F800000#32),
    unary main_cst_97 main_v238 (broadcastInDim S32x131072 ![] bcast_S_S32x131072 : (⟨S_, .f32⟩ : BufTy).Contents (Elt F) → (⟨S32x131072, .f32⟩ : BufTy).Contents (Elt F)),
    binary main_v238 main_v34 main_v239 (subf : (⟨S32x131072, .f32⟩ : BufTy).Contents (Elt F) → (⟨S32x131072, .f32⟩ : BufTy).Contents (Elt F) → (⟨S32x131072, .f32⟩ : BufTy).Contents (Elt F)),
    nullary main_c_98 (constantI S_ 32 1#32),
    TRef.nullary (TRef.of (T := ⟨S_, .i32⟩) main_call19_c) (constantI S_ 32 0#32),
    TRef.binary (TRef.of (T := ⟨S_, .i32⟩) main_c_98) (TRef.of (T := ⟨S_, .i32⟩) main_call19_c) (TRef.of (T := ⟨S_, .i1⟩) main_call19_v0) (cmpi .ne),
    TRef.ternary (TRef.of (T := ⟨S_, .i1⟩) main_call19_v0) (TRef.of (T := ⟨S32x131072, .f32⟩) main_v34) (TRef.of (T := ⟨S32x131072, .f32⟩) main_v239) (TRef.of (T := ⟨S32x131072, .f32⟩) main_v240) (fun p a b => select (broadcastInDim S32x131072 ![] bcast_S_S32x131072 p) a b),
    binary main_v237 main_v240 main_v241 (mulf : (⟨S32x131072, .f32⟩ : BufTy).Contents (Elt F) → (⟨S32x131072, .f32⟩ : BufTy).Contents (Elt F) → (⟨S32x131072, .f32⟩ : BufTy).Contents (Elt F)),
    nullary main_cst_99 (constant S_ .f32 0x3F800000#32),
    unary main_cst_99 main_v242 (broadcastInDim S32x131072 ![] bcast_S_S32x131072 : (⟨S_, .f32⟩ : BufTy).Contents (Elt F) → (⟨S32x131072, .f32⟩ : BufTy).Contents (Elt F)),
    binary main_v242 main_v35 main_v243 (subf : (⟨S32x131072, .f32⟩ : BufTy).Contents (Elt F) → (⟨S32x131072, .f32⟩ : BufTy).Contents (Elt F) → (⟨S32x131072, .f32⟩ : BufTy).Contents (Elt F)),
    nullary main_c_100 (constantI S_ 32 1#32),
    TRef.nullary (TRef.of (T := ⟨S_, .i32⟩) main_call20_c) (constantI S_ 32 0#32),
    TRef.binary (TRef.of (T := ⟨S_, .i32⟩) main_c_100) (TRef.of (T := ⟨S_, .i32⟩) main_call20_c) (TRef.of (T := ⟨S_, .i1⟩) main_call20_v0) (cmpi .ne),
    TRef.ternary (TRef.of (T := ⟨S_, .i1⟩) main_call20_v0) (TRef.of (T := ⟨S32x131072, .f32⟩) main_v35) (TRef.of (T := ⟨S32x131072, .f32⟩) main_v243) (TRef.of (T := ⟨S32x131072, .f32⟩) main_v244) (fun p a b => select (broadcastInDim S32x131072 ![] bcast_S_S32x131072 p) a b),
    binary main_v241 main_v244 main_v245 (mulf : (⟨S32x131072, .f32⟩ : BufTy).Contents (Elt F) → (⟨S32x131072, .f32⟩ : BufTy).Contents (Elt F) → (⟨S32x131072, .f32⟩ : BufTy).Contents (Elt F)),
    nullary main_c_101 (constantI S_ 32 0#32),
    unary main_c_101 main_v246 (broadcastInDim S32x131072 ![] bcast_S_S32x131072 : (⟨S_, .i32⟩ : BufTy).Contents (Elt F) → (⟨S32x131072, .i32⟩ : BufTy).Contents (Elt F)),
    binary main_v230 main_v246 main_v247 (cmpi .sge : (⟨S32x131072, .i32⟩ : BufTy).Contents (Elt F) → (⟨S32x131072, .i32⟩ : BufTy).Contents (Elt F) → (⟨S32x131072, .i1⟩ : BufTy).Contents (Elt F)),
    nullary main_c_102 (constantI S_ 32 64#32),
    unary main_c_102 main_v248 (broadcastInDim S32x131072 ![] bcast_S_S32x131072 : (⟨S_, .i32⟩ : BufTy).Contents (Elt F) → (⟨S32x131072, .i32⟩ : BufTy).Contents (Elt F)),
    binary main_v230 main_v248 main_v249 (cmpi .slt : (⟨S32x131072, .i32⟩ : BufTy).Contents (Elt F) → (⟨S32x131072, .i32⟩ : BufTy).Contents (Elt F) → (⟨S32x131072, .i1⟩ : BufTy).Contents (Elt F)),
    binary main_v247 main_v249 main_v250 (andi : (⟨S32x131072, .i1⟩ : BufTy).Contents (Elt F) → (⟨S32x131072, .i1⟩ : BufTy).Contents (Elt F) → (⟨S32x131072, .i1⟩ : BufTy).Contents (Elt F)),
    nullary main_c_103 (constantI S_ 32 0#32),
    unary main_c_103 main_v251 (broadcastInDim S32x131072 ![] bcast_S_S32x131072 : (⟨S_, .i32⟩ : BufTy).Contents (Elt F) → (⟨S32x131072, .i32⟩ : BufTy).Contents (Elt F)),
    binary main_v232 main_v251 main_v252 (cmpi .sge : (⟨S32x131072, .i32⟩ : BufTy).Contents (Elt F) → (⟨S32x131072, .i32⟩ : BufTy).Contents (Elt F) → (⟨S32x131072, .i1⟩ : BufTy).Contents (Elt F)),
    binary main_v250 main_v252 main_v253 (andi : (⟨S32x131072, .i1⟩ : BufTy).Contents (Elt F) → (⟨S32x131072, .i1⟩ : BufTy).Contents (Elt F) → (⟨S32x131072, .i1⟩ : BufTy).Contents (Elt F)),
    nullary main_c_104 (constantI S_ 32 64#32),
    unary main_c_104 main_v254 (broadcastInDim S32x131072 ![] bcast_S_S32x131072 : (⟨S_, .i32⟩ : BufTy).Contents (Elt F) → (⟨S32x131072, .i32⟩ : BufTy).Contents (Elt F)),
    binary main_v232 main_v254 main_v255 (cmpi .slt : (⟨S32x131072, .i32⟩ : BufTy).Contents (Elt F) → (⟨S32x131072, .i32⟩ : BufTy).Contents (Elt F) → (⟨S32x131072, .i1⟩ : BufTy).Contents (Elt F)),
    binary main_v253 main_v255 main_v256 (andi : (⟨S32x131072, .i1⟩ : BufTy).Contents (Elt F) → (⟨S32x131072, .i1⟩ : BufTy).Contents (Elt F) → (⟨S32x131072, .i1⟩ : BufTy).Contents (Elt F)),
    nullary main_c_105 (constantI S_ 32 0#32),
    unary main_c_105 main_v257 (broadcastInDim S32x131072 ![] bcast_S_S32x131072 : (⟨S_, .i32⟩ : BufTy).Contents (Elt F) → (⟨S32x131072, .i32⟩ : BufTy).Contents (Elt F)),
    binary main_v234 main_v257 main_v258 (cmpi .sge : (⟨S32x131072, .i32⟩ : BufTy).Contents (Elt F) → (⟨S32x131072, .i32⟩ : BufTy).Contents (Elt F) → (⟨S32x131072, .i1⟩ : BufTy).Contents (Elt F)),
    binary main_v256 main_v258 main_v259 (andi : (⟨S32x131072, .i1⟩ : BufTy).Contents (Elt F) → (⟨S32x131072, .i1⟩ : BufTy).Contents (Elt F) → (⟨S32x131072, .i1⟩ : BufTy).Contents (Elt F)),
    nullary main_c_106 (constantI S_ 32 64#32),
    unary main_c_106 main_v260 (broadcastInDim S32x131072 ![] bcast_S_S32x131072 : (⟨S_, .i32⟩ : BufTy).Contents (Elt F) → (⟨S32x131072, .i32⟩ : BufTy).Contents (Elt F)),
    binary main_v234 main_v260 main_v261 (cmpi .slt : (⟨S32x131072, .i32⟩ : BufTy).Contents (Elt F) → (⟨S32x131072, .i32⟩ : BufTy).Contents (Elt F) → (⟨S32x131072, .i1⟩ : BufTy).Contents (Elt F)),
    binary main_v259 main_v261 main_v262 (andi : (⟨S32x131072, .i1⟩ : BufTy).Contents (Elt F) → (⟨S32x131072, .i1⟩ : BufTy).Contents (Elt F) → (⟨S32x131072, .i1⟩ : BufTy).Contents (Elt F)),
    nullary main_c_107 (constantI S_ 32 0#32),
    nullary main_c_108 (constantI S_ 32 63#32),
    TRef.unary (TRef.of (T := ⟨S_, .i32⟩) main_c_107) (TRef.of (T := ⟨S_, .i32⟩) main_call21_v0) id,
    TRef.unary (TRef.of (T := ⟨S_, .i32⟩) main_call21_v0) (TRef.of (T := ⟨S32x131072, .i32⟩) main_call21_v1) (broadcastInDim S32x131072 ![] bcast_S_S32x131072),
    TRef.binary (TRef.of (T := ⟨S32x131072, .i32⟩) main_call21_v1) (TRef.of (T := ⟨S32x131072, .i32⟩) main_v230) (TRef.of (T := ⟨S32x131072, .i32⟩) main_call21_v2) maxsi,
    TRef.unary (TRef.of (T := ⟨S_, .i32⟩) main_c_108) (TRef.of (T := ⟨S_, .i32⟩) main_call21_v3) id,
    TRef.unary (TRef.of (T := ⟨S_, .i32⟩) main_call21_v3) (TRef.of (T := ⟨S32x131072, .i32⟩) main_call21_v4) (broadcastInDim S32x131072 ![] bcast_S_S32x131072),
    TRef.binary (TRef.of (T := ⟨S32x131072, .i32⟩) main_call21_v4) (TRef.of (T := ⟨S32x131072, .i32⟩) main_call21_v2) (TRef.of (T := ⟨S32x131072, .i32⟩) main_v263) minsi,
    nullary main_c_109 (constantI S_ 32 0#32),
    nullary main_c_110 (constantI S_ 32 63#32),
    TRef.unary (TRef.of (T := ⟨S_, .i32⟩) main_c_109) (TRef.of (T := ⟨S_, .i32⟩) main_call22_v0) id,
    TRef.unary (TRef.of (T := ⟨S_, .i32⟩) main_call22_v0) (TRef.of (T := ⟨S32x131072, .i32⟩) main_call22_v1) (broadcastInDim S32x131072 ![] bcast_S_S32x131072),
    TRef.binary (TRef.of (T := ⟨S32x131072, .i32⟩) main_call22_v1) (TRef.of (T := ⟨S32x131072, .i32⟩) main_v232) (TRef.of (T := ⟨S32x131072, .i32⟩) main_call22_v2) maxsi,
    TRef.unary (TRef.of (T := ⟨S_, .i32⟩) main_c_110) (TRef.of (T := ⟨S_, .i32⟩) main_call22_v3) id,
    TRef.unary (TRef.of (T := ⟨S_, .i32⟩) main_call22_v3) (TRef.of (T := ⟨S32x131072, .i32⟩) main_call22_v4) (broadcastInDim S32x131072 ![] bcast_S_S32x131072),
    TRef.binary (TRef.of (T := ⟨S32x131072, .i32⟩) main_call22_v4) (TRef.of (T := ⟨S32x131072, .i32⟩) main_call22_v2) (TRef.of (T := ⟨S32x131072, .i32⟩) main_v264) minsi,
    nullary main_c_111 (constantI S_ 32 0#32),
    nullary main_c_112 (constantI S_ 32 63#32),
    TRef.unary (TRef.of (T := ⟨S_, .i32⟩) main_c_111) (TRef.of (T := ⟨S_, .i32⟩) main_call23_v0) id,
    TRef.unary (TRef.of (T := ⟨S_, .i32⟩) main_call23_v0) (TRef.of (T := ⟨S32x131072, .i32⟩) main_call23_v1) (broadcastInDim S32x131072 ![] bcast_S_S32x131072),
    TRef.binary (TRef.of (T := ⟨S32x131072, .i32⟩) main_call23_v1) (TRef.of (T := ⟨S32x131072, .i32⟩) main_v234) (TRef.of (T := ⟨S32x131072, .i32⟩) main_call23_v2) maxsi,
    TRef.unary (TRef.of (T := ⟨S_, .i32⟩) main_c_112) (TRef.of (T := ⟨S_, .i32⟩) main_call23_v3) id,
    TRef.unary (TRef.of (T := ⟨S_, .i32⟩) main_call23_v3) (TRef.of (T := ⟨S32x131072, .i32⟩) main_call23_v4) (broadcastInDim S32x131072 ![] bcast_S_S32x131072),
    TRef.binary (TRef.of (T := ⟨S32x131072, .i32⟩) main_call23_v4) (TRef.of (T := ⟨S32x131072, .i32⟩) main_call23_v2) (TRef.of (T := ⟨S32x131072, .i32⟩) main_v265) minsi,
    nullary main_c_113 (constantI S_ 32 0#32),
    unary main_c_113 main_v266 (broadcastInDim S32x131072 ![] bcast_S_S32x131072 : (⟨S_, .i32⟩ : BufTy).Contents (Elt F) → (⟨S32x131072, .i32⟩ : BufTy).Contents (Elt F)),
    binary main_v265 main_v266 main_v267 (cmpi .slt : (⟨S32x131072, .i32⟩ : BufTy).Contents (Elt F) → (⟨S32x131072, .i32⟩ : BufTy).Contents (Elt F) → (⟨S32x131072, .i1⟩ : BufTy).Contents (Elt F)),
    nullary main_c_114 (constantI S_ 32 64#32),
    unary main_c_114 main_v268 (broadcastInDim S32x131072 ![] bcast_S_S32x131072 : (⟨S_, .i32⟩ : BufTy).Contents (Elt F) → (⟨S32x131072, .i32⟩ : BufTy).Contents (Elt F)),
    binary main_v265 main_v268 main_v269 (addi : (⟨S32x131072, .i32⟩ : BufTy).Contents (Elt F) → (⟨S32x131072, .i32⟩ : BufTy).Contents (Elt F) → (⟨S32x131072, .i32⟩ : BufTy).Contents (Elt F)),
    ternary main_v267 main_v269 main_v265 main_v270 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_115 (constantI S_ 32 0#32),
    unary main_c_115 main_v271 (broadcastInDim S32x131072 ![] bcast_S_S32x131072 : (⟨S_, .i32⟩ : BufTy).Contents (Elt F) → (⟨S32x131072, .i32⟩ : BufTy).Contents (Elt F)),
    binary main_v264 main_v271 main_v272 (cmpi .slt : (⟨S32x131072, .i32⟩ : BufTy).Contents (Elt F) → (⟨S32x131072, .i32⟩ : BufTy).Contents (Elt F) → (⟨S32x131072, .i1⟩ : BufTy).Contents (Elt F)),
    nullary main_c_116 (constantI S_ 32 64#32),
    unary main_c_116 main_v273 (broadcastInDim S32x131072 ![] bcast_S_S32x131072 : (⟨S_, .i32⟩ : BufTy).Contents (Elt F) → (⟨S32x131072, .i32⟩ : BufTy).Contents (Elt F)),
    binary main_v264 main_v273 main_v274 (addi : (⟨S32x131072, .i32⟩ : BufTy).Contents (Elt F) → (⟨S32x131072, .i32⟩ : BufTy).Contents (Elt F) → (⟨S32x131072, .i32⟩ : BufTy).Contents (Elt F)),
    ternary main_v272 main_v274 main_v264 main_v275 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_117 (constantI S_ 32 0#32),
    unary main_c_117 main_v276 (broadcastInDim S32x131072 ![] bcast_S_S32x131072 : (⟨S_, .i32⟩ : BufTy).Contents (Elt F) → (⟨S32x131072, .i32⟩ : BufTy).Contents (Elt F)),
    binary main_v263 main_v276 main_v277 (cmpi .slt : (⟨S32x131072, .i32⟩ : BufTy).Contents (Elt F) → (⟨S32x131072, .i32⟩ : BufTy).Contents (Elt F) → (⟨S32x131072, .i1⟩ : BufTy).Contents (Elt F)),
    nullary main_c_118 (constantI S_ 32 64#32),
    unary main_c_118 main_v278 (broadcastInDim S32x131072 ![] bcast_S_S32x131072 : (⟨S_, .i32⟩ : BufTy).Contents (Elt F) → (⟨S32x131072, .i32⟩ : BufTy).Contents (Elt F)),
    binary main_v263 main_v278 main_v279 (addi : (⟨S32x131072, .i32⟩ : BufTy).Contents (Elt F) → (⟨S32x131072, .i32⟩ : BufTy).Contents (Elt F) → (⟨S32x131072, .i32⟩ : BufTy).Contents (Elt F)),
    ternary main_v277 main_v279 main_v263 main_v280 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v270 main_v281 (broadcastInDim S32x131072x1 ![0, 1] bcast_S32x131072_S32x131072x1_0_1 : (⟨S32x131072, .i32⟩ : BufTy).Contents (Elt F) → (⟨S32x131072x1, .i32⟩ : BufTy).Contents (Elt F)),
    unary main_v275 main_v282 (broadcastInDim S32x131072x1 ![0, 1] bcast_S32x131072_S32x131072x1_0_1 : (⟨S32x131072, .i32⟩ : BufTy).Contents (Elt F) → (⟨S32x131072x1, .i32⟩ : BufTy).Contents (Elt F)),
    unary main_v280 main_v283 (broadcastInDim S32x131072x1 ![0, 1] bcast_S32x131072_S32x131072x1_0_1 : (⟨S32x131072, .i32⟩ : BufTy).Contents (Elt F) → (⟨S32x131072x1, .i32⟩ : BufTy).Contents (Elt F)) ]

set_option maxHeartbeats 40000000 in
/-- The rest, in order: the join of the columns, the gather, the masked weight, the product and the sum. -/
abbrev opsC3B : List (HloOp τ sig (Elt F)) :=
  [ nary ![main_v281, main_v282, main_v283] main_v284 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v284 main_v285 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v262 main_v286 (uitofp .f32 : (⟨S32x131072, .i1⟩ : BufTy).Contents (Elt F) → (⟨S32x131072, .f32⟩ : BufTy).Contents (Elt F)),
    binary main_v245 main_v286 main_v287 (mulf : (⟨S32x131072, .f32⟩ : BufTy).Contents (Elt F) → (⟨S32x131072, .f32⟩ : BufTy).Contents (Elt F) → (⟨S32x131072, .f32⟩ : BufTy).Contents (Elt F)),
    unary main_v287 main_v288 (broadcastInDim S1x32x131072 ![1, 2] bcast_S32x131072_S1x32x131072_1_2 : (⟨S32x131072, .f32⟩ : BufTy).Contents (Elt F) → (⟨S1x32x131072, .f32⟩ : BufTy).Contents (Elt F)),
    unary main_v288 main_v289 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v285 main_v289 main_v290 (mulf : (⟨S3x32x131072, .f32⟩ : BufTy).Contents (Elt F) → (⟨S3x32x131072, .f32⟩ : BufTy).Contents (Elt F) → (⟨S3x32x131072, .f32⟩ : BufTy).Contents (Elt F)),
    binary main_v228 main_v290 main_v291 (addf : (⟨S3x32x131072, .f32⟩ : BufTy).Contents (Elt F) → (⟨S3x32x131072, .f32⟩ : BufTy).Contents (Elt F) → (⟨S3x32x131072, .f32⟩ : BufTy).Contents (Elt F)) ]

set_option maxRecDepth 8192 in
set_option maxHeartbeats 40000000 in
/-- The corner's list is the two parts in a row. -/
theorem opsC3_split : (opsC3 (F := F)) = opsC3A ++ opsC3B := rfl

set_option maxRecDepth 8192 in
set_option maxHeartbeats 40000000 in
/-- The z column: the cell plus the offset, clipped, wrapped, as a column. -/
theorem opsC3A_colz (W : Valuation τ sig (Elt F)) :
    after (opsC3A (F := F)) W (Proc.devRef .tc main_v281)
      = colV (wrapV (clipV (addi (W (Proc.devRef .tc main_v38)) (splatI 1#32)))) := by
  after_results_simp <;> rfl

set_option maxRecDepth 8192 in
set_option maxHeartbeats 40000000 in
/-- The y column. -/
theorem opsC3A_coly (W : Valuation τ sig (Elt F)) :
    after (opsC3A (F := F)) W (Proc.devRef .tc main_v282)
      = colV (wrapV (clipV (addi (W (Proc.devRef .tc main_v37)) (splatI 1#32)))) := by
  after_results_simp <;> rfl

set_option maxRecDepth 8192 in
set_option maxHeartbeats 40000000 in
/-- The x column. -/
theorem opsC3A_colx (W : Valuation τ sig (Elt F)) :
    after (opsC3A (F := F)) W (Proc.devRef .tc main_v283)
      = colV (wrapV (clipV (addi (W (Proc.devRef .tc main_v36)) (splatI 0#32)))) := by
  after_results_simp <;> rfl

set_option maxRecDepth 8192 in
set_option maxHeartbeats 40000000 in
/-- The product of the three axis weights. -/
theorem opsC3A_weight (W : Valuation τ sig (Elt F)) :
    after (opsC3A (F := F)) W (Proc.devRef .tc main_v245)
      = mulf (mulf (pickV (F := F) 0#32 (W (Proc.devRef .tc main_v33))) (pickV (F := F) 1#32 (W (Proc.devRef .tc main_v34))))
          (pickV (F := F) 1#32 (W (Proc.devRef .tc main_v35))) := by
  after_results_simp <;> rfl

set_option maxRecDepth 8192 in
set_option maxHeartbeats 40000000 in
/-- The bit saying the three coordinates lie in [0, 64). -/
theorem opsC3A_valid (W : Valuation τ sig (Elt F)) :
    after (opsC3A (F := F)) W (Proc.devRef .tc main_v262)
      = validV (addi (W (Proc.devRef .tc main_v36)) (splatI 0#32)) (addi (W (Proc.devRef .tc main_v37)) (splatI 1#32))
          (addi (W (Proc.devRef .tc main_v38)) (splatI 1#32)) := by
  after_results_simp <;> rfl

set_option maxRecDepth 8192 in
set_option maxHeartbeats 40000000 in
/-- The first part does not write the previous sum's buffer. -/
theorem opsC3A_prev (W : Valuation τ sig (Elt F)) :
    after (opsC3A (F := F)) W (Proc.devRef .tc main_v228)
      = W (Proc.devRef .tc main_v228) := by
  after_results_simp <;> rfl

set_option maxRecDepth 8192 in
set_option maxHeartbeats 40000000 in
/-- The first part does not write the grid's buffer. -/
theorem opsC3A_grid (W : Valuation τ sig (Elt F)) :
    after (opsC3A (F := F)) W (Proc.devRef .tc main_arg1)
      = W (Proc.devRef .tc main_arg1) := by
  after_results_simp <;> rfl

set_option maxRecDepth 8192 in
set_option maxHeartbeats 40000000 in
/-- The second part: the previous sum plus the gathered grid times the masked weight, over the buffers it finds. -/
theorem opsC3B_sum (W : Valuation τ sig (Elt F)) :
    after (opsC3B (F := F)) W (Proc.devRef .tc main_v291)
      = addf (W (Proc.devRef .tc main_v228))
          (mulf (Host.gather gather_S3x64x64x64_S32x131072x3_S3x32x131072_0_123_n_n_123_2_3111 (W (Proc.devRef .tc main_arg1))
              (concatenate S32x131072x3 2 [⟨S32x131072x1, (W (Proc.devRef .tc main_v281))⟩, ⟨S32x131072x1, (W (Proc.devRef .tc main_v282))⟩,
                ⟨S32x131072x1, (W (Proc.devRef .tc main_v283))⟩] concatenates_S32x131072x1_S32x131072x1_S32x131072x1_S32x131072x3_d2))
            (spreadV (mulf (W (Proc.devRef .tc main_v245)) (uitofp .f32 (W (Proc.devRef .tc main_v262)))))) := by
  after_results_simp3 <;> rfl

set_option maxRecDepth 8192 in
set_option maxHeartbeats 40000000 in
/-- After the corner's operations the next sum buffer holds the previous sum plus the corner. -/
theorem opsC3_sum (W : Valuation τ sig (Elt F)) :
    after (opsC3 (F := F)) W (Proc.devRef .tc main_v291)
      = addf (W (Proc.devRef .tc main_v228))
          (Cert.RefCorner.cornerStage (F := F) 0#32 1#32 1#32 (W (Proc.devRef .tc main_v36)) (W (Proc.devRef .tc main_v37))
            (W (Proc.devRef .tc main_v38)) (W (Proc.devRef .tc main_v33)) (W (Proc.devRef .tc main_v34))
            (W (Proc.devRef .tc main_v35)) (W (Proc.devRef .tc main_arg1))) := by
  rw [opsC3_split, StableHlo.after_append, opsC3B_sum, opsC3A_prev, opsC3A_grid, opsC3A_colz, opsC3A_coly,
    opsC3A_colx, opsC3A_weight, opsC3A_valid]
  rfl

end Cert.RefRun

end
-- ==== Proof.RefRunC4S.lean ====
/-
  What the operations of corner (dx, dy, dz) = (1, 0, 0) leave in the running sum's next buffer from any contents W:
  the previous sum plus the corner, the one function of the three cell arrays, the three arrays of fractional parts
  and the grid, at this corner's offsets.

  The list is read in two parts. The first part, up to the three columns of start indices, leaves in five buffers
  the three clipped and wrapped coordinate columns (z, y, x), the product of the three axis weights, and the bit
  saying that the three coordinates lie in [0, 64), each a composition of the operations over the cells, the
  fractional parts and the offsets; it writes neither the grid's buffer nor the previous sum's. The second part joins
  the three columns, gathers the grid there, multiplies by the masked weight spread over the channels and adds the
  previous sum. One part after the other is the corner.
-/
import proofs.«174278_j48524540510565_1_alg».proof.Proof.RefRunC4
import proofs.«174278_j48524540510565_1_alg».proof.Proof.RefRunLib
import proofs.«174278_j48524540510565_1_alg».proof.Proof.RefCornerDef
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.RefCorner

variable {F : FTy → Type} [FloatOps F]

set_option maxHeartbeats 40000000 in
/-- The corner's operations up to the three columns of start indices, in order. -/
abbrev opsC4A : List (HloOp τ sig (Elt F)) :=
  [ nullary main_c_119 (constantI S_ 32 1#32),
    unary main_c_119 main_v292 (broadcastInDim S32x131072 ![] bcast_S_S32x131072 : (⟨S_, .i32⟩ : BufTy).Contents (Elt F) → (⟨S32x131072, .i32⟩ : BufTy).Contents (Elt F)),
    binary main_v36 main_v292 main_v293 (addi : (⟨S32x131072, .i32⟩ : BufTy).Contents (Elt F) → (⟨S32x131072, .i32⟩ : BufTy).Contents (Elt F) → (⟨S32x131072, .i32⟩ : BufTy).Contents (Elt F)),
    nullary main_c_120 (constantI S_ 32 0#32),
    unary main_c_120 main_v294 (broadcastInDim S32x131072 ![] bcast_S_S32x131072 : (⟨S_, .i32⟩ : BufTy).Contents (Elt F) → (⟨S32x131072, .i32⟩ : BufTy).Contents (Elt F)),
    binary main_v37 main_v294 main_v295 (addi : (⟨S32x131072, .i32⟩ : BufTy).Contents (Elt F) → (⟨S32x131072, .i32⟩ : BufTy).Contents (Elt F) → (⟨S32x131072, .i32⟩ : BufTy).Contents (Elt F)),
    nullary main_c_121 (constantI S_ 32 0#32),
    unary main_c_121 main_v296 (broadcastInDim S32x131072 ![] bcast_S_S32x131072 : (⟨S_, .i32⟩ : BufTy).Contents (Elt F) → (⟨S32x131072, .i32⟩ : BufTy).Contents (Elt F)),
    binary main_v38 main_v296 main_v297 (addi : (⟨S32x131072, .i32⟩ : BufTy).Contents (Elt F) → (⟨S32x131072, .i32⟩ : BufTy).Contents (Elt F) → (⟨S32x131072, .i32⟩ : BufTy).Contents (Elt F)),
    nullary main_cst_122 (constant S_ .f32 0x3F800000#32),
    unary main_cst_122 main_v298 (broadcastInDim S32x131072 ![] bcast_S_S32x131072 : (⟨S_, .f32⟩ : BufTy).Contents (Elt F) → (⟨S32x131072, .f32⟩ : BufTy).Contents (Elt F)),
    binary main_v298 main_v33 main_v299 (subf : (⟨S32x131072, .f32⟩ : BufTy).Contents (Elt F) → (⟨S32x131072, .f32⟩ : BufTy).Contents (Elt F) → (⟨S32x131072, .f32⟩ : BufTy).Contents (Elt F)),
    nullary main_c_123 (constantI S_ 32 1#32),
    TRef.nullary (TRef.of (T := ⟨S_, .i32⟩) main_call24_c) (constantI S_ 32 0#32),
    TRef.binary (TRef.of (T := ⟨S_, .i32⟩) main_c_123) (TRef.of (T := ⟨S_, .i32⟩) main_call24_c) (TRef.of (T := ⟨S_, .i1⟩) main_call24_v0) (cmpi .ne),
    TRef.ternary (TRef.of (T := ⟨S_, .i1⟩) main_call24_v0) (TRef.of (T := ⟨S32x131072, .f32⟩) main_v33) (TRef.of (T := ⟨S32x131072, .f32⟩) main_v299) (TRef.of (T := ⟨S32x131072, .f32⟩) main_v300) (fun p a b => select (broadcastInDim S32x131072 ![] bcast_S_S32x131072 p) a b),
    nullary main_cst_124 (constant S_ .f32 0x3F800000#32),
    unary main_cst_124 main_v301 (broadcastInDim S32x131072 ![] bcast_S_S32x131072 : (⟨S_, .f32⟩ : BufTy).Contents (Elt F) → (⟨S32x131072, .f32⟩ : BufTy).Contents (Elt F)),
    binary main_v301 main_v34 main_v302 (subf : (⟨S32x131072, .f32⟩ : BufTy).Contents (Elt F) → (⟨S32x131072, .f32⟩ : BufTy).Contents (Elt F) → (⟨S32x131072, .f32⟩ : BufTy).Contents (Elt F)),
    nullary main_c_125 (constantI S_ 32 0#32),
    TRef.nullary (TRef.of (T := ⟨S_, .i32⟩) main_call25_c) (constantI S_ 32 0#32),
    TRef.binary (TRef.of (T := ⟨S_, .i32⟩) main_c_125) (TRef.of (T := ⟨S_, .i32⟩) main_call25_c) (TRef.of (T := ⟨S_, .i1⟩) main_call25_v0) (cmpi .ne),
    TRef.ternary (TRef.of (T := ⟨S_, .i1⟩) main_call25_v0) (TRef.of (T := ⟨S32x131072, .f32⟩) main_v34) (TRef.of (T := ⟨S32x131072, .f32⟩) main_v302) (TRef.of (T := ⟨S32x131072, .f32⟩) main_v303) (fun p a b => select (broadcastInDim S32x131072 ![] bcast_S_S32x131072 p) a b),
    binary main_v300 main_v303 main_v304 (mulf : (⟨S32x131072, .f32⟩ : BufTy).Contents (Elt F) → (⟨S32x131072, .f32⟩ : BufTy).Contents (Elt F) → (⟨S32x131072, .f32⟩ : BufTy).Contents (Elt F)),
    nullary main_cst_126 (constant S_ .f32 0x3F800000#32),
    unary main_cst_126 main_v305 (broadcastInDim S32x131072 ![] bcast_S_S32x131072 : (⟨S_, .f32⟩ : BufTy).Contents (Elt F) → (⟨S32x131072, .f32⟩ : BufTy).Contents (Elt F)),
    binary main_v305 main_v35 main_v306 (subf : (⟨S32x131072, .f32⟩ : BufTy).Contents (Elt F) → (⟨S32x131072, .f32⟩ : BufTy).Contents (Elt F) → (⟨S32x131072, .f32⟩ : BufTy).Contents (Elt F)),
    nullary main_c_127 (constantI S_ 32 0#32),
    TRef.nullary (TRef.of (T := ⟨S_, .i32⟩) main_call26_c) (constantI S_ 32 0#32),
    TRef.binary (TRef.of (T := ⟨S_, .i32⟩) main_c_127) (TRef.of (T := ⟨S_, .i32⟩) main_call26_c) (TRef.of (T := ⟨S_, .i1⟩) main_call26_v0) (cmpi .ne),
    TRef.ternary (TRef.of (T := ⟨S_, .i1⟩) main_call26_v0) (TRef.of (T := ⟨S32x131072, .f32⟩) main_v35) (TRef.of (T := ⟨S32x131072, .f32⟩) main_v306) (TRef.of (T := ⟨S32x131072, .f32⟩) main_v307) (fun p a b => select (broadcastInDim S32x131072 ![] bcast_S_S32x131072 p) a b),
    binary main_v304 main_v307 main_v308 (mulf : (⟨S32x131072, .f32⟩ : BufTy).Contents (Elt F) → (⟨S32x131072, .f32⟩ : BufTy).Contents (Elt F) → (⟨S32x131072, .f32⟩ : BufTy).Contents (Elt F)),
    nullary main_c_128 (constantI S_ 32 0#32),
    unary main_c_128 main_v309 (broadcastInDim S32x131072 ![] bcast_S_S32x131072 : (⟨S_, .i32⟩ : BufTy).Contents (Elt F) → (⟨S32x131072, .i32⟩ : BufTy).Contents (Elt F)),
    binary main_v293 main_v309 main_v310 (cmpi .sge : (⟨S32x131072, .i32⟩ : BufTy).Contents (Elt F) → (⟨S32x131072, .i32⟩ : BufTy).Contents (Elt F) → (⟨S32x131072, .i1⟩ : BufTy).Contents (Elt F)),
    nullary main_c_129 (constantI S_ 32 64#32),
    unary main_c_129 main_v311 (broadcastInDim S32x131072 ![] bcast_S_S32x131072 : (⟨S_, .i32⟩ : BufTy).Contents (Elt F) → (⟨S32x131072, .i32⟩ : BufTy).Contents (Elt F)),
    binary main_v293 main_v311 main_v312 (cmpi .slt : (⟨S32x131072, .i32⟩ : BufTy).Contents (Elt F) → (⟨S32x131072, .i32⟩ : BufTy).Contents (Elt F) → (⟨S32x131072, .i1⟩ : BufTy).Contents (Elt F)),
    binary main_v310 main_v312 main_v313 (andi : (⟨S32x131072, .i1⟩ : BufTy).Contents (Elt F) → (⟨S32x131072, .i1⟩ : BufTy).Contents (Elt F) → (⟨S32x131072, .i1⟩ : BufTy).Contents (Elt F)),
    nullary main_c_130 (constantI S_ 32 0#32),
    unary main_c_130 main_v314 (broadcastInDim S32x131072 ![] bcast_S_S32x131072 : (⟨S_, .i32⟩ : BufTy).Contents (Elt F) → (⟨S32x131072, .i32⟩ : BufTy).Contents (Elt F)),
    binary main_v295 main_v314 main_v315 (cmpi .sge : (⟨S32x131072, .i32⟩ : BufTy).Contents (Elt F) → (⟨S32x131072, .i32⟩ : BufTy).Contents (Elt F) → (⟨S32x131072, .i1⟩ : BufTy).Contents (Elt F)),
    binary main_v313 main_v315 main_v316 (andi : (⟨S32x131072, .i1⟩ : BufTy).Contents (Elt F) → (⟨S32x131072, .i1⟩ : BufTy).Contents (Elt F) → (⟨S32x131072, .i1⟩ : BufTy).Contents (Elt F)),
    nullary main_c_131 (constantI S_ 32 64#32),
    unary main_c_131 main_v317 (broadcastInDim S32x131072 ![] bcast_S_S32x131072 : (⟨S_, .i32⟩ : BufTy).Contents (Elt F) → (⟨S32x131072, .i32⟩ : BufTy).Contents (Elt F)),
    binary main_v295 main_v317 main_v318 (cmpi .slt : (⟨S32x131072, .i32⟩ : BufTy).Contents (Elt F) → (⟨S32x131072, .i32⟩ : BufTy).Contents (Elt F) → (⟨S32x131072, .i1⟩ : BufTy).Contents (Elt F)),
    binary main_v316 main_v318 main_v319 (andi : (⟨S32x131072, .i1⟩ : BufTy).Contents (Elt F) → (⟨S32x131072, .i1⟩ : BufTy).Contents (Elt F) → (⟨S32x131072, .i1⟩ : BufTy).Contents (Elt F)),
    nullary main_c_132 (constantI S_ 32 0#32),
    unary main_c_132 main_v320 (broadcastInDim S32x131072 ![] bcast_S_S32x131072 : (⟨S_, .i32⟩ : BufTy).Contents (Elt F) → (⟨S32x131072, .i32⟩ : BufTy).Contents (Elt F)),
    binary main_v297 main_v320 main_v321 (cmpi .sge : (⟨S32x131072, .i32⟩ : BufTy).Contents (Elt F) → (⟨S32x131072, .i32⟩ : BufTy).Contents (Elt F) → (⟨S32x131072, .i1⟩ : BufTy).Contents (Elt F)),
    binary main_v319 main_v321 main_v322 (andi : (⟨S32x131072, .i1⟩ : BufTy).Contents (Elt F) → (⟨S32x131072, .i1⟩ : BufTy).Contents (Elt F) → (⟨S32x131072, .i1⟩ : BufTy).Contents (Elt F)),
    nullary main_c_133 (constantI S_ 32 64#32),
    unary main_c_133 main_v323 (broadcastInDim S32x131072 ![] bcast_S_S32x131072 : (⟨S_, .i32⟩ : BufTy).Contents (Elt F) → (⟨S32x131072, .i32⟩ : BufTy).Contents (Elt F)),
    binary main_v297 main_v323 main_v324 (cmpi .slt : (⟨S32x131072, .i32⟩ : BufTy).Contents (Elt F) → (⟨S32x131072, .i32⟩ : BufTy).Contents (Elt F) → (⟨S32x131072, .i1⟩ : BufTy).Contents (Elt F)),
    binary main_v322 main_v324 main_v325 (andi : (⟨S32x131072, .i1⟩ : BufTy).Contents (Elt F) → (⟨S32x131072, .i1⟩ : BufTy).Contents (Elt F) → (⟨S32x131072, .i1⟩ : BufTy).Contents (Elt F)),
    nullary main_c_134 (constantI S_ 32 0#32),
    nullary main_c_135 (constantI S_ 32 63#32),
    TRef.unary (TRef.of (T := ⟨S_, .i32⟩) main_c_134) (TRef.of (T := ⟨S_, .i32⟩) main_call27_v0) id,
    TRef.unary (TRef.of (T := ⟨S_, .i32⟩) main_call27_v0) (TRef.of (T := ⟨S32x131072, .i32⟩) main_call27_v1) (broadcastInDim S32x131072 ![] bcast_S_S32x131072),
    TRef.binary (TRef.of (T := ⟨S32x131072, .i32⟩) main_call27_v1) (TRef.of (T := ⟨S32x131072, .i32⟩) main_v293) (TRef.of (T := ⟨S32x131072, .i32⟩) main_call27_v2) maxsi,
    TRef.unary (TRef.of (T := ⟨S_, .i32⟩) main_c_135) (TRef.of (T := ⟨S_, .i32⟩) main_call27_v3) id,
    TRef.unary (TRef.of (T := ⟨S_, .i32⟩) main_call27_v3) (TRef.of (T := ⟨S32x131072, .i32⟩) main_call27_v4) (broadcastInDim S32x131072 ![] bcast_S_S32x131072),
    TRef.binary (TRef.of (T := ⟨S32x131072, .i32⟩) main_call27_v4) (TRef.of (T := ⟨S32x131072, .i32⟩) main_call27_v2) (TRef.of (T := ⟨S32x131072, .i32⟩) main_v326) minsi,
    nullary main_c_136 (constantI S_ 32 0#32),
    nullary main_c_137 (constantI S_ 32 63#32),
    TRef.unary (TRef.of (T := ⟨S_, .i32⟩) main_c_136) (TRef.of (T := ⟨S_, .i32⟩) main_call28_v0) id,
    TRef.unary (TRef.of (T := ⟨S_, .i32⟩) main_call28_v0) (TRef.of (T := ⟨S32x131072, .i32⟩) main_call28_v1) (broadcastInDim S32x131072 ![] bcast_S_S32x131072),
    TRef.binary (TRef.of (T := ⟨S32x131072, .i32⟩) main_call28_v1) (TRef.of (T := ⟨S32x131072, .i32⟩) main_v295) (TRef.of (T := ⟨S32x131072, .i32⟩) main_call28_v2) maxsi,
    TRef.unary (TRef.of (T := ⟨S_, .i32⟩) main_c_137) (TRef.of (T := ⟨S_, .i32⟩) main_call28_v3) id,
    TRef.unary (TRef.of (T := ⟨S_, .i32⟩) main_call28_v3) (TRef.of (T := ⟨S32x131072, .i32⟩) main_call28_v4) (broadcastInDim S32x131072 ![] bcast_S_S32x131072),
    TRef.binary (TRef.of (T := ⟨S32x131072, .i32⟩) main_call28_v4) (TRef.of (T := ⟨S32x131072, .i32⟩) main_call28_v2) (TRef.of (T := ⟨S32x131072, .i32⟩) main_v327) minsi,
    nullary main_c_138 (constantI S_ 32 0#32),
    nullary main_c_139 (constantI S_ 32 63#32),
    TRef.unary (TRef.of (T := ⟨S_, .i32⟩) main_c_138) (TRef.of (T := ⟨S_, .i32⟩) main_call29_v0) id,
    TRef.unary (TRef.of (T := ⟨S_, .i32⟩) main_call29_v0) (TRef.of (T := ⟨S32x131072, .i32⟩) main_call29_v1) (broadcastInDim S32x131072 ![] bcast_S_S32x131072),
    TRef.binary (TRef.of (T := ⟨S32x131072, .i32⟩) main_call29_v1) (TRef.of (T := ⟨S32x131072, .i32⟩) main_v297) (TRef.of (T := ⟨S32x131072, .i32⟩) main_call29_v2) maxsi,
    TRef.unary (TRef.of (T := ⟨S_, .i32⟩) main_c_139) (TRef.of (T := ⟨S_, .i32⟩) main_call29_v3) id,
    TRef.unary (TRef.of (T := ⟨S_, .i32⟩) main_call29_v3) (TRef.of (T := ⟨S32x131072, .i32⟩) main_call29_v4) (broadcastInDim S32x131072 ![] bcast_S_S32x131072),
    TRef.binary (TRef.of (T := ⟨S32x131072, .i32⟩) main_call29_v4) (TRef.of (T := ⟨S32x131072, .i32⟩) main_call29_v2) (TRef.of (T := ⟨S32x131072, .i32⟩) main_v328) minsi,
    nullary main_c_140 (constantI S_ 32 0#32),
    unary main_c_140 main_v329 (broadcastInDim S32x131072 ![] bcast_S_S32x131072 : (⟨S_, .i32⟩ : BufTy).Contents (Elt F) → (⟨S32x131072, .i32⟩ : BufTy).Contents (Elt F)),
    binary main_v328 main_v329 main_v330 (cmpi .slt : (⟨S32x131072, .i32⟩ : BufTy).Contents (Elt F) → (⟨S32x131072, .i32⟩ : BufTy).Contents (Elt F) → (⟨S32x131072, .i1⟩ : BufTy).Contents (Elt F)),
    nullary main_c_141 (constantI S_ 32 64#32),
    unary main_c_141 main_v331 (broadcastInDim S32x131072 ![] bcast_S_S32x131072 : (⟨S_, .i32⟩ : BufTy).Contents (Elt F) → (⟨S32x131072, .i32⟩ : BufTy).Contents (Elt F)),
    binary main_v328 main_v331 main_v332 (addi : (⟨S32x131072, .i32⟩ : BufTy).Contents (Elt F) → (⟨S32x131072, .i32⟩ : BufTy).Contents (Elt F) → (⟨S32x131072, .i32⟩ : BufTy).Contents (Elt F)),
    ternary main_v330 main_v332 main_v328 main_v333 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_142 (constantI S_ 32 0#32),
    unary main_c_142 main_v334 (broadcastInDim S32x131072 ![] bcast_S_S32x131072 : (⟨S_, .i32⟩ : BufTy).Contents (Elt F) → (⟨S32x131072, .i32⟩ : BufTy).Contents (Elt F)),
    binary main_v327 main_v334 main_v335 (cmpi .slt : (⟨S32x131072, .i32⟩ : BufTy).Contents (Elt F) → (⟨S32x131072, .i32⟩ : BufTy).Contents (Elt F) → (⟨S32x131072, .i1⟩ : BufTy).Contents (Elt F)),
    nullary main_c_143 (constantI S_ 32 64#32),
    unary main_c_143 main_v336 (broadcastInDim S32x131072 ![] bcast_S_S32x131072 : (⟨S_, .i32⟩ : BufTy).Contents (Elt F) → (⟨S32x131072, .i32⟩ : BufTy).Contents (Elt F)),
    binary main_v327 main_v336 main_v337 (addi : (⟨S32x131072, .i32⟩ : BufTy).Contents (Elt F) → (⟨S32x131072, .i32⟩ : BufTy).Contents (Elt F) → (⟨S32x131072, .i32⟩ : BufTy).Contents (Elt F)),
    ternary main_v335 main_v337 main_v327 main_v338 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_144 (constantI S_ 32 0#32),
    unary main_c_144 main_v339 (broadcastInDim S32x131072 ![] bcast_S_S32x131072 : (⟨S_, .i32⟩ : BufTy).Contents (Elt F) → (⟨S32x131072, .i32⟩ : BufTy).Contents (Elt F)),
    binary main_v326 main_v339 main_v340 (cmpi .slt : (⟨S32x131072, .i32⟩ : BufTy).Contents (Elt F) → (⟨S32x131072, .i32⟩ : BufTy).Contents (Elt F) → (⟨S32x131072, .i1⟩ : BufTy).Contents (Elt F)),
    nullary main_c_145 (constantI S_ 32 64#32),
    unary main_c_145 main_v341 (broadcastInDim S32x131072 ![] bcast_S_S32x131072 : (⟨S_, .i32⟩ : BufTy).Contents (Elt F) → (⟨S32x131072, .i32⟩ : BufTy).Contents (Elt F)),
    binary main_v326 main_v341 main_v342 (addi : (⟨S32x131072, .i32⟩ : BufTy).Contents (Elt F) → (⟨S32x131072, .i32⟩ : BufTy).Contents (Elt F) → (⟨S32x131072, .i32⟩ : BufTy).Contents (Elt F)),
    ternary main_v340 main_v342 main_v326 main_v343 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v333 main_v344 (broadcastInDim S32x131072x1 ![0, 1] bcast_S32x131072_S32x131072x1_0_1 : (⟨S32x131072, .i32⟩ : BufTy).Contents (Elt F) → (⟨S32x131072x1, .i32⟩ : BufTy).Contents (Elt F)),
    unary main_v338 main_v345 (broadcastInDim S32x131072x1 ![0, 1] bcast_S32x131072_S32x131072x1_0_1 : (⟨S32x131072, .i32⟩ : BufTy).Contents (Elt F) → (⟨S32x131072x1, .i32⟩ : BufTy).Contents (Elt F)),
    unary main_v343 main_v346 (broadcastInDim S32x131072x1 ![0, 1] bcast_S32x131072_S32x131072x1_0_1 : (⟨S32x131072, .i32⟩ : BufTy).Contents (Elt F) → (⟨S32x131072x1, .i32⟩ : BufTy).Contents (Elt F)) ]

set_option maxHeartbeats 40000000 in
/-- The rest, in order: the join of the columns, the gather, the masked weight, the product and the sum. -/
abbrev opsC4B : List (HloOp τ sig (Elt F)) :=
  [ nary ![main_v344, main_v345, main_v346] main_v347 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v347 main_v348 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v325 main_v349 (uitofp .f32 : (⟨S32x131072, .i1⟩ : BufTy).Contents (Elt F) → (⟨S32x131072, .f32⟩ : BufTy).Contents (Elt F)),
    binary main_v308 main_v349 main_v350 (mulf : (⟨S32x131072, .f32⟩ : BufTy).Contents (Elt F) → (⟨S32x131072, .f32⟩ : BufTy).Contents (Elt F) → (⟨S32x131072, .f32⟩ : BufTy).Contents (Elt F)),
    unary main_v350 main_v351 (broadcastInDim S1x32x131072 ![1, 2] bcast_S32x131072_S1x32x131072_1_2 : (⟨S32x131072, .f32⟩ : BufTy).Contents (Elt F) → (⟨S1x32x131072, .f32⟩ : BufTy).Contents (Elt F)),
    unary main_v351 main_v352 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v348 main_v352 main_v353 (mulf : (⟨S3x32x131072, .f32⟩ : BufTy).Contents (Elt F) → (⟨S3x32x131072, .f32⟩ : BufTy).Contents (Elt F) → (⟨S3x32x131072, .f32⟩ : BufTy).Contents (Elt F)),
    binary main_v291 main_v353 main_v354 (addf : (⟨S3x32x131072, .f32⟩ : BufTy).Contents (Elt F) → (⟨S3x32x131072, .f32⟩ : BufTy).Contents (Elt F) → (⟨S3x32x131072, .f32⟩ : BufTy).Contents (Elt F)) ]

set_option maxRecDepth 8192 in
set_option maxHeartbeats 40000000 in
/-- The corner's list is the two parts in a row. -/
theorem opsC4_split : (opsC4 (F := F)) = opsC4A ++ opsC4B := rfl

set_option maxRecDepth 8192 in
set_option maxHeartbeats 40000000 in
/-- The z column: the cell plus the offset, clipped, wrapped, as a column. -/
theorem opsC4A_colz (W : Valuation τ sig (Elt F)) :
    after (opsC4A (F := F)) W (Proc.devRef .tc main_v344)
      = colV (wrapV (clipV (addi (W (Proc.devRef .tc main_v38)) (splatI 0#32)))) := by
  after_results_simp <;> rfl

set_option maxRecDepth 8192 in
set_option maxHeartbeats 40000000 in
/-- The y column. -/
theorem opsC4A_coly (W : Valuation τ sig (Elt F)) :
    after (opsC4A (F := F)) W (Proc.devRef .tc main_v345)
      = colV (wrapV (clipV (addi (W (Proc.devRef .tc main_v37)) (splatI 0#32)))) := by
  after_results_simp <;> rfl

set_option maxRecDepth 8192 in
set_option maxHeartbeats 40000000 in
/-- The x column. -/
theorem opsC4A_colx (W : Valuation τ sig (Elt F)) :
    after (opsC4A (F := F)) W (Proc.devRef .tc main_v346)
      = colV (wrapV (clipV (addi (W (Proc.devRef .tc main_v36)) (splatI 1#32)))) := by
  after_results_simp <;> rfl

set_option maxRecDepth 8192 in
set_option maxHeartbeats 40000000 in
/-- The product of the three axis weights. -/
theorem opsC4A_weight (W : Valuation τ sig (Elt F)) :
    after (opsC4A (F := F)) W (Proc.devRef .tc main_v308)
      = mulf (mulf (pickV (F := F) 1#32 (W (Proc.devRef .tc main_v33))) (pickV (F := F) 0#32 (W (Proc.devRef .tc main_v34))))
          (pickV (F := F) 0#32 (W (Proc.devRef .tc main_v35))) := by
  after_results_simp <;> rfl

set_option maxRecDepth 8192 in
set_option maxHeartbeats 40000000 in
/-- The bit saying the three coordinates lie in [0, 64). -/
theorem opsC4A_valid (W : Valuation τ sig (Elt F)) :
    after (opsC4A (F := F)) W (Proc.devRef .tc main_v325)
      = validV (addi (W (Proc.devRef .tc main_v36)) (splatI 1#32)) (addi (W (Proc.devRef .tc main_v37)) (splatI 0#32))
          (addi (W (Proc.devRef .tc main_v38)) (splatI 0#32)) := by
  after_results_simp <;> rfl

set_option maxRecDepth 8192 in
set_option maxHeartbeats 40000000 in
/-- The first part does not write the previous sum's buffer. -/
theorem opsC4A_prev (W : Valuation τ sig (Elt F)) :
    after (opsC4A (F := F)) W (Proc.devRef .tc main_v291)
      = W (Proc.devRef .tc main_v291) := by
  after_results_simp <;> rfl

set_option maxRecDepth 8192 in
set_option maxHeartbeats 40000000 in
/-- The first part does not write the grid's buffer. -/
theorem opsC4A_grid (W : Valuation τ sig (Elt F)) :
    after (opsC4A (F := F)) W (Proc.devRef .tc main_arg1)
      = W (Proc.devRef .tc main_arg1) := by
  after_results_simp <;> rfl

set_option maxRecDepth 8192 in
set_option maxHeartbeats 40000000 in
/-- The second part: the previous sum plus the gathered grid times the masked weight, over the buffers it finds. -/
theorem opsC4B_sum (W : Valuation τ sig (Elt F)) :
    after (opsC4B (F := F)) W (Proc.devRef .tc main_v354)
      = addf (W (Proc.devRef .tc main_v291))
          (mulf (Host.gather gather_S3x64x64x64_S32x131072x3_S3x32x131072_0_123_n_n_123_2_3111 (W (Proc.devRef .tc main_arg1))
              (concatenate S32x131072x3 2 [⟨S32x131072x1, (W (Proc.devRef .tc main_v344))⟩, ⟨S32x131072x1, (W (Proc.devRef .tc main_v345))⟩,
                ⟨S32x131072x1, (W (Proc.devRef .tc main_v346))⟩] concatenates_S32x131072x1_S32x131072x1_S32x131072x1_S32x131072x3_d2))
            (spreadV (mulf (W (Proc.devRef .tc main_v308)) (uitofp .f32 (W (Proc.devRef .tc main_v325)))))) := by
  after_results_simp3 <;> rfl

set_option maxRecDepth 8192 in
set_option maxHeartbeats 40000000 in
/-- After the corner's operations the next sum buffer holds the previous sum plus the corner. -/
theorem opsC4_sum (W : Valuation τ sig (Elt F)) :
    after (opsC4 (F := F)) W (Proc.devRef .tc main_v354)
      = addf (W (Proc.devRef .tc main_v291))
          (Cert.RefCorner.cornerStage (F := F) 1#32 0#32 0#32 (W (Proc.devRef .tc main_v36)) (W (Proc.devRef .tc main_v37))
            (W (Proc.devRef .tc main_v38)) (W (Proc.devRef .tc main_v33)) (W (Proc.devRef .tc main_v34))
            (W (Proc.devRef .tc main_v35)) (W (Proc.devRef .tc main_arg1))) := by
  rw [opsC4_split, StableHlo.after_append, opsC4B_sum, opsC4A_prev, opsC4A_grid, opsC4A_colz, opsC4A_coly,
    opsC4A_colx, opsC4A_weight, opsC4A_valid]
  rfl

end Cert.RefRun

end
-- ==== Proof.RefRunC5S.lean ====
/-
  What the operations of corner (dx, dy, dz) = (1, 0, 1) leave in the running sum's next buffer from any contents W:
  the previous sum plus the corner, the one function of the three cell arrays, the three arrays of fractional parts
  and the grid, at this corner's offsets.

  The list is read in two parts. The first part, up to the three columns of start indices, leaves in five buffers
  the three clipped and wrapped coordinate columns (z, y, x), the product of the three axis weights, and the bit
  saying that the three coordinates lie in [0, 64), each a composition of the operations over the cells, the
  fractional parts and the offsets; it writes neither the grid's buffer nor the previous sum's. The second part joins
  the three columns, gathers the grid there, multiplies by the masked weight spread over the channels and adds the
  previous sum. One part after the other is the corner.
-/
import proofs.«174278_j48524540510565_1_alg».proof.Proof.RefRunC5
import proofs.«174278_j48524540510565_1_alg».proof.Proof.RefRunLib
import proofs.«174278_j48524540510565_1_alg».proof.Proof.RefCornerDef
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.RefCorner

variable {F : FTy → Type} [FloatOps F]

set_option maxHeartbeats 40000000 in
/-- The corner's operations up to the three columns of start indices, in order. -/
abbrev opsC5A : List (HloOp τ sig (Elt F)) :=
  [ nullary main_c_146 (constantI S_ 32 1#32),
    unary main_c_146 main_v355 (broadcastInDim S32x131072 ![] bcast_S_S32x131072 : (⟨S_, .i32⟩ : BufTy).Contents (Elt F) → (⟨S32x131072, .i32⟩ : BufTy).Contents (Elt F)),
    binary main_v36 main_v355 main_v356 (addi : (⟨S32x131072, .i32⟩ : BufTy).Contents (Elt F) → (⟨S32x131072, .i32⟩ : BufTy).Contents (Elt F) → (⟨S32x131072, .i32⟩ : BufTy).Contents (Elt F)),
    nullary main_c_147 (constantI S_ 32 0#32),
    unary main_c_147 main_v357 (broadcastInDim S32x131072 ![] bcast_S_S32x131072 : (⟨S_, .i32⟩ : BufTy).Contents (Elt F) → (⟨S32x131072, .i32⟩ : BufTy).Contents (Elt F)),
    binary main_v37 main_v357 main_v358 (addi : (⟨S32x131072, .i32⟩ : BufTy).Contents (Elt F) → (⟨S32x131072, .i32⟩ : BufTy).Contents (Elt F) → (⟨S32x131072, .i32⟩ : BufTy).Contents (Elt F)),
    nullary main_c_148 (constantI S_ 32 1#32),
    unary main_c_148 main_v359 (broadcastInDim S32x131072 ![] bcast_S_S32x131072 : (⟨S_, .i32⟩ : BufTy).Contents (Elt F) → (⟨S32x131072, .i32⟩ : BufTy).Contents (Elt F)),
    binary main_v38 main_v359 main_v360 (addi : (⟨S32x131072, .i32⟩ : BufTy).Contents (Elt F) → (⟨S32x131072, .i32⟩ : BufTy).Contents (Elt F) → (⟨S32x131072, .i32⟩ : BufTy).Contents (Elt F)),
    nullary main_cst_149 (constant S_ .f32 0x3F800000#32),
    unary main_cst_149 main_v361 (broadcastInDim S32x131072 ![] bcast_S_S32x131072 : (⟨S_, .f32⟩ : BufTy).Contents (Elt F) → (⟨S32x131072, .f32⟩ : BufTy).Contents (Elt F)),
    binary main_v361 main_v33 main_v362 (subf : (⟨S32x131072, .f32⟩ : BufTy).Contents (Elt F) → (⟨S32x131072, .f32⟩ : BufTy).Contents (Elt F) → (⟨S32x131072, .f32⟩ : BufTy).Contents (Elt F)),
    nullary main_c_150 (constantI S_ 32 1#32),
    TRef.nullary (TRef.of (T := ⟨S_, .i32⟩) main_call30_c) (constantI S_ 32 0#32),
    TRef.binary (TRef.of (T := ⟨S_, .i32⟩) main_c_150) (TRef.of (T := ⟨S_, .i32⟩) main_call30_c) (TRef.of (T := ⟨S_, .i1⟩) main_call30_v0) (cmpi .ne),
    TRef.ternary (TRef.of (T := ⟨S_, .i1⟩) main_call30_v0) (TRef.of (T := ⟨S32x131072, .f32⟩) main_v33) (TRef.of (T := ⟨S32x131072, .f32⟩) main_v362) (TRef.of (T := ⟨S32x131072, .f32⟩) main_v363) (fun p a b => select (broadcastInDim S32x131072 ![] bcast_S_S32x131072 p) a b),
    nullary main_cst_151 (constant S_ .f32 0x3F800000#32),
    unary main_cst_151 main_v364 (broadcastInDim S32x131072 ![] bcast_S_S32x131072 : (⟨S_, .f32⟩ : BufTy).Contents (Elt F) → (⟨S32x131072, .f32⟩ : BufTy).Contents (Elt F)),
    binary main_v364 main_v34 main_v365 (subf : (⟨S32x131072, .f32⟩ : BufTy).Contents (Elt F) → (⟨S32x131072, .f32⟩ : BufTy).Contents (Elt F) → (⟨S32x131072, .f32⟩ : BufTy).Contents (Elt F)),
    nullary main_c_152 (constantI S_ 32 0#32),
    TRef.nullary (TRef.of (T := ⟨S_, .i32⟩) main_call31_c) (constantI S_ 32 0#32),
    TRef.binary (TRef.of (T := ⟨S_, .i32⟩) main_c_152) (TRef.of (T := ⟨S_, .i32⟩) main_call31_c) (TRef.of (T := ⟨S_, .i1⟩) main_call31_v0) (cmpi .ne),
    TRef.ternary (TRef.of (T := ⟨S_, .i1⟩) main_call31_v0) (TRef.of (T := ⟨S32x131072, .f32⟩) main_v34) (TRef.of (T := ⟨S32x131072, .f32⟩) main_v365) (TRef.of (T := ⟨S32x131072, .f32⟩) main_v366) (fun p a b => select (broadcastInDim S32x131072 ![] bcast_S_S32x131072 p) a b),
    binary main_v363 main_v366 main_v367 (mulf : (⟨S32x131072, .f32⟩ : BufTy).Contents (Elt F) → (⟨S32x131072, .f32⟩ : BufTy).Contents (Elt F) → (⟨S32x131072, .f32⟩ : BufTy).Contents (Elt F)),
    nullary main_cst_153 (constant S_ .f32 0x3F800000#32),
    unary main_cst_153 main_v368 (broadcastInDim S32x131072 ![] bcast_S_S32x131072 : (⟨S_, .f32⟩ : BufTy).Contents (Elt F) → (⟨S32x131072, .f32⟩ : BufTy).Contents (Elt F)),
    binary main_v368 main_v35 main_v369 (subf : (⟨S32x131072, .f32⟩ : BufTy).Contents (Elt F) → (⟨S32x131072, .f32⟩ : BufTy).Contents (Elt F) → (⟨S32x131072, .f32⟩ : BufTy).Contents (Elt F)),
    nullary main_c_154 (constantI S_ 32 1#32),
    TRef.nullary (TRef.of (T := ⟨S_, .i32⟩) main_call32_c) (constantI S_ 32 0#32),
    TRef.binary (TRef.of (T := ⟨S_, .i32⟩) main_c_154) (TRef.of (T := ⟨S_, .i32⟩) main_call32_c) (TRef.of (T := ⟨S_, .i1⟩) main_call32_v0) (cmpi .ne),
    TRef.ternary (TRef.of (T := ⟨S_, .i1⟩) main_call32_v0) (TRef.of (T := ⟨S32x131072, .f32⟩) main_v35) (TRef.of (T := ⟨S32x131072, .f32⟩) main_v369) (TRef.of (T := ⟨S32x131072, .f32⟩) main_v370) (fun p a b => select (broadcastInDim S32x131072 ![] bcast_S_S32x131072 p) a b),
    binary main_v367 main_v370 main_v371 (mulf : (⟨S32x131072, .f32⟩ : BufTy).Contents (Elt F) → (⟨S32x131072, .f32⟩ : BufTy).Contents (Elt F) → (⟨S32x131072, .f32⟩ : BufTy).Contents (Elt F)),
    nullary main_c_155 (constantI S_ 32 0#32),
    unary main_c_155 main_v372 (broadcastInDim S32x131072 ![] bcast_S_S32x131072 : (⟨S_, .i32⟩ : BufTy).Contents (Elt F) → (⟨S32x131072, .i32⟩ : BufTy).Contents (Elt F)),
    binary main_v356 main_v372 main_v373 (cmpi .sge : (⟨S32x131072, .i32⟩ : BufTy).Contents (Elt F) → (⟨S32x131072, .i32⟩ : BufTy).Contents (Elt F) → (⟨S32x131072, .i1⟩ : BufTy).Contents (Elt F)),
    nullary main_c_156 (constantI S_ 32 64#32),
    unary main_c_156 main_v374 (broadcastInDim S32x131072 ![] bcast_S_S32x131072 : (⟨S_, .i32⟩ : BufTy).Contents (Elt F) → (⟨S32x131072, .i32⟩ : BufTy).Contents (Elt F)),
    binary main_v356 main_v374 main_v375 (cmpi .slt : (⟨S32x131072, .i32⟩ : BufTy).Contents (Elt F) → (⟨S32x131072, .i32⟩ : BufTy).Contents (Elt F) → (⟨S32x131072, .i1⟩ : BufTy).Contents (Elt F)),
    binary main_v373 main_v375 main_v376 (andi : (⟨S32x131072, .i1⟩ : BufTy).Contents (Elt F) → (⟨S32x131072, .i1⟩ : BufTy).Contents (Elt F) → (⟨S32x131072, .i1⟩ : BufTy).Contents (Elt F)),
    nullary main_c_157 (constantI S_ 32 0#32),
    unary main_c_157 main_v377 (broadcastInDim S32x131072 ![] bcast_S_S32x131072 : (⟨S_, .i32⟩ : BufTy).Contents (Elt F) → (⟨S32x131072, .i32⟩ : BufTy).Contents (Elt F)),
    binary main_v358 main_v377 main_v378 (cmpi .sge : (⟨S32x131072, .i32⟩ : BufTy).Contents (Elt F) → (⟨S32x131072, .i32⟩ : BufTy).Contents (Elt F) → (⟨S32x131072, .i1⟩ : BufTy).Contents (Elt F)),
    binary main_v376 main_v378 main_v379 (andi : (⟨S32x131072, .i1⟩ : BufTy).Contents (Elt F) → (⟨S32x131072, .i1⟩ : BufTy).Contents (Elt F) → (⟨S32x131072, .i1⟩ : BufTy).Contents (Elt F)),
    nullary main_c_158 (constantI S_ 32 64#32),
    unary main_c_158 main_v380 (broadcastInDim S32x131072 ![] bcast_S_S32x131072 : (⟨S_, .i32⟩ : BufTy).Contents (Elt F) → (⟨S32x131072, .i32⟩ : BufTy).Contents (Elt F)),
    binary main_v358 main_v380 main_v381 (cmpi .slt : (⟨S32x131072, .i32⟩ : BufTy).Contents (Elt F) → (⟨S32x131072, .i32⟩ : BufTy).Contents (Elt F) → (⟨S32x131072, .i1⟩ : BufTy).Contents (Elt F)),
    binary main_v379 main_v381 main_v382 (andi : (⟨S32x131072, .i1⟩ : BufTy).Contents (Elt F) → (⟨S32x131072, .i1⟩ : BufTy).Contents (Elt F) → (⟨S32x131072, .i1⟩ : BufTy).Contents (Elt F)),
    nullary main_c_159 (constantI S_ 32 0#32),
    unary main_c_159 main_v383 (broadcastInDim S32x131072 ![] bcast_S_S32x131072 : (⟨S_, .i32⟩ : BufTy).Contents (Elt F) → (⟨S32x131072, .i32⟩ : BufTy).Contents (Elt F)),
    binary main_v360 main_v383 main_v384 (cmpi .sge : (⟨S32x131072, .i32⟩ : BufTy).Contents (Elt F) → (⟨S32x131072, .i32⟩ : BufTy).Contents (Elt F) → (⟨S32x131072, .i1⟩ : BufTy).Contents (Elt F)),
    binary main_v382 main_v384 main_v385 (andi : (⟨S32x131072, .i1⟩ : BufTy).Contents (Elt F) → (⟨S32x131072, .i1⟩ : BufTy).Contents (Elt F) → (⟨S32x131072, .i1⟩ : BufTy).Contents (Elt F)),
    nullary main_c_160 (constantI S_ 32 64#32),
    unary main_c_160 main_v386 (broadcastInDim S32x131072 ![] bcast_S_S32x131072 : (⟨S_, .i32⟩ : BufTy).Contents (Elt F) → (⟨S32x131072, .i32⟩ : BufTy).Contents (Elt F)),
    binary main_v360 main_v386 main_v387 (cmpi .slt : (⟨S32x131072, .i32⟩ : BufTy).Contents (Elt F) → (⟨S32x131072, .i32⟩ : BufTy).Contents (Elt F) → (⟨S32x131072, .i1⟩ : BufTy).Contents (Elt F)),
    binary main_v385 main_v387 main_v388 (andi : (⟨S32x131072, .i1⟩ : BufTy).Contents (Elt F) → (⟨S32x131072, .i1⟩ : BufTy).Contents (Elt F) → (⟨S32x131072, .i1⟩ : BufTy).Contents (Elt F)),
    nullary main_c_161 (constantI S_ 32 0#32),
    nullary main_c_162 (constantI S_ 32 63#32),
    TRef.unary (TRef.of (T := ⟨S_, .i32⟩) main_c_161) (TRef.of (T := ⟨S_, .i32⟩) main_call33_v0) id,
    TRef.unary (TRef.of (T := ⟨S_, .i32⟩) main_call33_v0) (TRef.of (T := ⟨S32x131072, .i32⟩) main_call33_v1) (broadcastInDim S32x131072 ![] bcast_S_S32x131072),
    TRef.binary (TRef.of (T := ⟨S32x131072, .i32⟩) main_call33_v1) (TRef.of (T := ⟨S32x131072, .i32⟩) main_v356) (TRef.of (T := ⟨S32x131072, .i32⟩) main_call33_v2) maxsi,
    TRef.unary (TRef.of (T := ⟨S_, .i32⟩) main_c_162) (TRef.of (T := ⟨S_, .i32⟩) main_call33_v3) id,
    TRef.unary (TRef.of (T := ⟨S_, .i32⟩) main_call33_v3) (TRef.of (T := ⟨S32x131072, .i32⟩) main_call33_v4) (broadcastInDim S32x131072 ![] bcast_S_S32x131072),
    TRef.binary (TRef.of (T := ⟨S32x131072, .i32⟩) main_call33_v4) (TRef.of (T := ⟨S32x131072, .i32⟩) main_call33_v2) (TRef.of (T := ⟨S32x131072, .i32⟩) main_v389) minsi,
    nullary main_c_163 (constantI S_ 32 0#32),
    nullary main_c_164 (constantI S_ 32 63#32),
    TRef.unary (TRef.of (T := ⟨S_, .i32⟩) main_c_163) (TRef.of (T := ⟨S_, .i32⟩) main_call34_v0) id,
    TRef.unary (TRef.of (T := ⟨S_, .i32⟩) main_call34_v0) (TRef.of (T := ⟨S32x131072, .i32⟩) main_call34_v1) (broadcastInDim S32x131072 ![] bcast_S_S32x131072),
    TRef.binary (TRef.of (T := ⟨S32x131072, .i32⟩) main_call34_v1) (TRef.of (T := ⟨S32x131072, .i32⟩) main_v358) (TRef.of (T := ⟨S32x131072, .i32⟩) main_call34_v2) maxsi,
    TRef.unary (TRef.of (T := ⟨S_, .i32⟩) main_c_164) (TRef.of (T := ⟨S_, .i32⟩) main_call34_v3) id,
    TRef.unary (TRef.of (T := ⟨S_, .i32⟩) main_call34_v3) (TRef.of (T := ⟨S32x131072, .i32⟩) main_call34_v4) (broadcastInDim S32x131072 ![] bcast_S_S32x131072),
    TRef.binary (TRef.of (T := ⟨S32x131072, .i32⟩) main_call34_v4) (TRef.of (T := ⟨S32x131072, .i32⟩) main_call34_v2) (TRef.of (T := ⟨S32x131072, .i32⟩) main_v390) minsi,
    nullary main_c_165 (constantI S_ 32 0#32),
    nullary main_c_166 (constantI S_ 32 63#32),
    TRef.unary (TRef.of (T := ⟨S_, .i32⟩) main_c_165) (TRef.of (T := ⟨S_, .i32⟩) main_call35_v0) id,
    TRef.unary (TRef.of (T := ⟨S_, .i32⟩) main_call35_v0) (TRef.of (T := ⟨S32x131072, .i32⟩) main_call35_v1) (broadcastInDim S32x131072 ![] bcast_S_S32x131072),
    TRef.binary (TRef.of (T := ⟨S32x131072, .i32⟩) main_call35_v1) (TRef.of (T := ⟨S32x131072, .i32⟩) main_v360) (TRef.of (T := ⟨S32x131072, .i32⟩) main_call35_v2) maxsi,
    TRef.unary (TRef.of (T := ⟨S_, .i32⟩) main_c_166) (TRef.of (T := ⟨S_, .i32⟩) main_call35_v3) id,
    TRef.unary (TRef.of (T := ⟨S_, .i32⟩) main_call35_v3) (TRef.of (T := ⟨S32x131072, .i32⟩) main_call35_v4) (broadcastInDim S32x131072 ![] bcast_S_S32x131072),
    TRef.binary (TRef.of (T := ⟨S32x131072, .i32⟩) main_call35_v4) (TRef.of (T := ⟨S32x131072, .i32⟩) main_call35_v2) (TRef.of (T := ⟨S32x131072, .i32⟩) main_v391) minsi,
    nullary main_c_167 (constantI S_ 32 0#32),
    unary main_c_167 main_v392 (broadcastInDim S32x131072 ![] bcast_S_S32x131072 : (⟨S_, .i32⟩ : BufTy).Contents (Elt F) → (⟨S32x131072, .i32⟩ : BufTy).Contents (Elt F)),
    binary main_v391 main_v392 main_v393 (cmpi .slt : (⟨S32x131072, .i32⟩ : BufTy).Contents (Elt F) → (⟨S32x131072, .i32⟩ : BufTy).Contents (Elt F) → (⟨S32x131072, .i1⟩ : BufTy).Contents (Elt F)),
    nullary main_c_168 (constantI S_ 32 64#32),
    unary main_c_168 main_v394 (broadcastInDim S32x131072 ![] bcast_S_S32x131072 : (⟨S_, .i32⟩ : BufTy).Contents (Elt F) → (⟨S32x131072, .i32⟩ : BufTy).Contents (Elt F)),
    binary main_v391 main_v394 main_v395 (addi : (⟨S32x131072, .i32⟩ : BufTy).Contents (Elt F) → (⟨S32x131072, .i32⟩ : BufTy).Contents (Elt F) → (⟨S32x131072, .i32⟩ : BufTy).Contents (Elt F)),
    ternary main_v393 main_v395 main_v391 main_v396 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_169 (constantI S_ 32 0#32),
    unary main_c_169 main_v397 (broadcastInDim S32x131072 ![] bcast_S_S32x131072 : (⟨S_, .i32⟩ : BufTy).Contents (Elt F) → (⟨S32x131072, .i32⟩ : BufTy).Contents (Elt F)),
    binary main_v390 main_v397 main_v398 (cmpi .slt : (⟨S32x131072, .i32⟩ : BufTy).Contents (Elt F) → (⟨S32x131072, .i32⟩ : BufTy).Contents (Elt F) → (⟨S32x131072, .i1⟩ : BufTy).Contents (Elt F)),
    nullary main_c_170 (constantI S_ 32 64#32),
    unary main_c_170 main_v399 (broadcastInDim S32x131072 ![] bcast_S_S32x131072 : (⟨S_, .i32⟩ : BufTy).Contents (Elt F) → (⟨S32x131072, .i32⟩ : BufTy).Contents (Elt F)),
    binary main_v390 main_v399 main_v400 (addi : (⟨S32x131072, .i32⟩ : BufTy).Contents (Elt F) → (⟨S32x131072, .i32⟩ : BufTy).Contents (Elt F) → (⟨S32x131072, .i32⟩ : BufTy).Contents (Elt F)),
    ternary main_v398 main_v400 main_v390 main_v401 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_171 (constantI S_ 32 0#32),
    unary main_c_171 main_v402 (broadcastInDim S32x131072 ![] bcast_S_S32x131072 : (⟨S_, .i32⟩ : BufTy).Contents (Elt F) → (⟨S32x131072, .i32⟩ : BufTy).Contents (Elt F)),
    binary main_v389 main_v402 main_v403 (cmpi .slt : (⟨S32x131072, .i32⟩ : BufTy).Contents (Elt F) → (⟨S32x131072, .i32⟩ : BufTy).Contents (Elt F) → (⟨S32x131072, .i1⟩ : BufTy).Contents (Elt F)),
    nullary main_c_172 (constantI S_ 32 64#32),
    unary main_c_172 main_v404 (broadcastInDim S32x131072 ![] bcast_S_S32x131072 : (⟨S_, .i32⟩ : BufTy).Contents (Elt F) → (⟨S32x131072, .i32⟩ : BufTy).Contents (Elt F)),
    binary main_v389 main_v404 main_v405 (addi : (⟨S32x131072, .i32⟩ : BufTy).Contents (Elt F) → (⟨S32x131072, .i32⟩ : BufTy).Contents (Elt F) → (⟨S32x131072, .i32⟩ : BufTy).Contents (Elt F)),
    ternary main_v403 main_v405 main_v389 main_v406 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v396 main_v407 (broadcastInDim S32x131072x1 ![0, 1] bcast_S32x131072_S32x131072x1_0_1 : (⟨S32x131072, .i32⟩ : BufTy).Contents (Elt F) → (⟨S32x131072x1, .i32⟩ : BufTy).Contents (Elt F)),
    unary main_v401 main_v408 (broadcastInDim S32x131072x1 ![0, 1] bcast_S32x131072_S32x131072x1_0_1 : (⟨S32x131072, .i32⟩ : BufTy).Contents (Elt F) → (⟨S32x131072x1, .i32⟩ : BufTy).Contents (Elt F)),
    unary main_v406 main_v409 (broadcastInDim S32x131072x1 ![0, 1] bcast_S32x131072_S32x131072x1_0_1 : (⟨S32x131072, .i32⟩ : BufTy).Contents (Elt F) → (⟨S32x131072x1, .i32⟩ : BufTy).Contents (Elt F)) ]

set_option maxHeartbeats 40000000 in
/-- The rest, in order: the join of the columns, the gather, the masked weight, the product and the sum. -/
abbrev opsC5B : List (HloOp τ sig (Elt F)) :=
  [ nary ![main_v407, main_v408, main_v409] main_v410 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v410 main_v411 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v388 main_v412 (uitofp .f32 : (⟨S32x131072, .i1⟩ : BufTy).Contents (Elt F) → (⟨S32x131072, .f32⟩ : BufTy).Contents (Elt F)),
    binary main_v371 main_v412 main_v413 (mulf : (⟨S32x131072, .f32⟩ : BufTy).Contents (Elt F) → (⟨S32x131072, .f32⟩ : BufTy).Contents (Elt F) → (⟨S32x131072, .f32⟩ : BufTy).Contents (Elt F)),
    unary main_v413 main_v414 (broadcastInDim S1x32x131072 ![1, 2] bcast_S32x131072_S1x32x131072_1_2 : (⟨S32x131072, .f32⟩ : BufTy).Contents (Elt F) → (⟨S1x32x131072, .f32⟩ : BufTy).Contents (Elt F)),
    unary main_v414 main_v415 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v411 main_v415 main_v416 (mulf : (⟨S3x32x131072, .f32⟩ : BufTy).Contents (Elt F) → (⟨S3x32x131072, .f32⟩ : BufTy).Contents (Elt F) → (⟨S3x32x131072, .f32⟩ : BufTy).Contents (Elt F)),
    binary main_v354 main_v416 main_v417 (addf : (⟨S3x32x131072, .f32⟩ : BufTy).Contents (Elt F) → (⟨S3x32x131072, .f32⟩ : BufTy).Contents (Elt F) → (⟨S3x32x131072, .f32⟩ : BufTy).Contents (Elt F)) ]

set_option maxRecDepth 8192 in
set_option maxHeartbeats 40000000 in
/-- The corner's list is the two parts in a row. -/
theorem opsC5_split : (opsC5 (F := F)) = opsC5A ++ opsC5B := rfl

set_option maxRecDepth 8192 in
set_option maxHeartbeats 40000000 in
/-- The z column: the cell plus the offset, clipped, wrapped, as a column. -/
theorem opsC5A_colz (W : Valuation τ sig (Elt F)) :
    after (opsC5A (F := F)) W (Proc.devRef .tc main_v407)
      = colV (wrapV (clipV (addi (W (Proc.devRef .tc main_v38)) (splatI 1#32)))) := by
  after_results_simp <;> rfl

set_option maxRecDepth 8192 in
set_option maxHeartbeats 40000000 in
/-- The y column. -/
theorem opsC5A_coly (W : Valuation τ sig (Elt F)) :
    after (opsC5A (F := F)) W (Proc.devRef .tc main_v408)
      = colV (wrapV (clipV (addi (W (Proc.devRef .tc main_v37)) (splatI 0#32)))) := by
  after_results_simp <;> rfl

set_option maxRecDepth 8192 in
set_option maxHeartbeats 40000000 in
/-- The x column. -/
theorem opsC5A_colx (W : Valuation τ sig (Elt F)) :
    after (opsC5A (F := F)) W (Proc.devRef .tc main_v409)
      = colV (wrapV (clipV (addi (W (Proc.devRef .tc main_v36)) (splatI 1#32)))) := by
  after_results_simp <;> rfl

set_option maxRecDepth 8192 in
set_option maxHeartbeats 40000000 in
/-- The product of the three axis weights. -/
theorem opsC5A_weight (W : Valuation τ sig (Elt F)) :
    after (opsC5A (F := F)) W (Proc.devRef .tc main_v371)
      = mulf (mulf (pickV (F := F) 1#32 (W (Proc.devRef .tc main_v33))) (pickV (F := F) 0#32 (W (Proc.devRef .tc main_v34))))
          (pickV (F := F) 1#32 (W (Proc.devRef .tc main_v35))) := by
  after_results_simp <;> rfl

set_option maxRecDepth 8192 in
set_option maxHeartbeats 40000000 in
/-- The bit saying the three coordinates lie in [0, 64). -/
theorem opsC5A_valid (W : Valuation τ sig (Elt F)) :
    after (opsC5A (F := F)) W (Proc.devRef .tc main_v388)
      = validV (addi (W (Proc.devRef .tc main_v36)) (splatI 1#32)) (addi (W (Proc.devRef .tc main_v37)) (splatI 0#32))
          (addi (W (Proc.devRef .tc main_v38)) (splatI 1#32)) := by
  after_results_simp <;> rfl

set_option maxRecDepth 8192 in
set_option maxHeartbeats 40000000 in
/-- The first part does not write the previous sum's buffer. -/
theorem opsC5A_prev (W : Valuation τ sig (Elt F)) :
    after (opsC5A (F := F)) W (Proc.devRef .tc main_v354)
      = W (Proc.devRef .tc main_v354) := by
  after_results_simp <;> rfl

set_option maxRecDepth 8192 in
set_option maxHeartbeats 40000000 in
/-- The first part does not write the grid's buffer. -/
theorem opsC5A_grid (W : Valuation τ sig (Elt F)) :
    after (opsC5A (F := F)) W (Proc.devRef .tc main_arg1)
      = W (Proc.devRef .tc main_arg1) := by
  after_results_simp <;> rfl

set_option maxRecDepth 8192 in
set_option maxHeartbeats 40000000 in
/-- The second part: the previous sum plus the gathered grid times the masked weight, over the buffers it finds. -/
theorem opsC5B_sum (W : Valuation τ sig (Elt F)) :
    after (opsC5B (F := F)) W (Proc.devRef .tc main_v417)
      = addf (W (Proc.devRef .tc main_v354))
          (mulf (Host.gather gather_S3x64x64x64_S32x131072x3_S3x32x131072_0_123_n_n_123_2_3111 (W (Proc.devRef .tc main_arg1))
              (concatenate S32x131072x3 2 [⟨S32x131072x1, (W (Proc.devRef .tc main_v407))⟩, ⟨S32x131072x1, (W (Proc.devRef .tc main_v408))⟩,
                ⟨S32x131072x1, (W (Proc.devRef .tc main_v409))⟩] concatenates_S32x131072x1_S32x131072x1_S32x131072x1_S32x131072x3_d2))
            (spreadV (mulf (W (Proc.devRef .tc main_v371)) (uitofp .f32 (W (Proc.devRef .tc main_v388)))))) := by
  after_results_simp3 <;> rfl

set_option maxRecDepth 8192 in
set_option maxHeartbeats 40000000 in
/-- After the corner's operations the next sum buffer holds the previous sum plus the corner. -/
theorem opsC5_sum (W : Valuation τ sig (Elt F)) :
    after (opsC5 (F := F)) W (Proc.devRef .tc main_v417)
      = addf (W (Proc.devRef .tc main_v354))
          (Cert.RefCorner.cornerStage (F := F) 1#32 0#32 1#32 (W (Proc.devRef .tc main_v36)) (W (Proc.devRef .tc main_v37))
            (W (Proc.devRef .tc main_v38)) (W (Proc.devRef .tc main_v33)) (W (Proc.devRef .tc main_v34))
            (W (Proc.devRef .tc main_v35)) (W (Proc.devRef .tc main_arg1))) := by
  rw [opsC5_split, StableHlo.after_append, opsC5B_sum, opsC5A_prev, opsC5A_grid, opsC5A_colz, opsC5A_coly,
    opsC5A_colx, opsC5A_weight, opsC5A_valid]
  rfl

end Cert.RefRun

end
-- ==== Proof.RefRunC6S.lean ====
/-
  What the operations of corner (dx, dy, dz) = (1, 1, 0) leave in the running sum's next buffer from any contents W:
  the previous sum plus the corner, the one function of the three cell arrays, the three arrays of fractional parts
  and the grid, at this corner's offsets.

  The list is read in two parts. The first part, up to the three columns of start indices, leaves in five buffers
  the three clipped and wrapped coordinate columns (z, y, x), the product of the three axis weights, and the bit
  saying that the three coordinates lie in [0, 64), each a composition of the operations over the cells, the
  fractional parts and the offsets; it writes neither the grid's buffer nor the previous sum's. The second part joins
  the three columns, gathers the grid there, multiplies by the masked weight spread over the channels and adds the
  previous sum. One part after the other is the corner.
-/
import proofs.«174278_j48524540510565_1_alg».proof.Proof.RefRunC6
import proofs.«174278_j48524540510565_1_alg».proof.Proof.RefRunLib
import proofs.«174278_j48524540510565_1_alg».proof.Proof.RefCornerDef
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.RefCorner

variable {F : FTy → Type} [FloatOps F]

set_option maxHeartbeats 40000000 in
/-- The corner's operations up to the three columns of start indices, in order. -/
abbrev opsC6A : List (HloOp τ sig (Elt F)) :=
  [ nullary main_c_173 (constantI S_ 32 1#32),
    unary main_c_173 main_v418 (broadcastInDim S32x131072 ![] bcast_S_S32x131072 : (⟨S_, .i32⟩ : BufTy).Contents (Elt F) → (⟨S32x131072, .i32⟩ : BufTy).Contents (Elt F)),
    binary main_v36 main_v418 main_v419 (addi : (⟨S32x131072, .i32⟩ : BufTy).Contents (Elt F) → (⟨S32x131072, .i32⟩ : BufTy).Contents (Elt F) → (⟨S32x131072, .i32⟩ : BufTy).Contents (Elt F)),
    nullary main_c_174 (constantI S_ 32 1#32),
    unary main_c_174 main_v420 (broadcastInDim S32x131072 ![] bcast_S_S32x131072 : (⟨S_, .i32⟩ : BufTy).Contents (Elt F) → (⟨S32x131072, .i32⟩ : BufTy).Contents (Elt F)),
    binary main_v37 main_v420 main_v421 (addi : (⟨S32x131072, .i32⟩ : BufTy).Contents (Elt F) → (⟨S32x131072, .i32⟩ : BufTy).Contents (Elt F) → (⟨S32x131072, .i32⟩ : BufTy).Contents (Elt F)),
    nullary main_c_175 (constantI S_ 32 0#32),
    unary main_c_175 main_v422 (broadcastInDim S32x131072 ![] bcast_S_S32x131072 : (⟨S_, .i32⟩ : BufTy).Contents (Elt F) → (⟨S32x131072, .i32⟩ : BufTy).Contents (Elt F)),
    binary main_v38 main_v422 main_v423 (addi : (⟨S32x131072, .i32⟩ : BufTy).Contents (Elt F) → (⟨S32x131072, .i32⟩ : BufTy).Contents (Elt F) → (⟨S32x131072, .i32⟩ : BufTy).Contents (Elt F)),
    nullary main_cst_176 (constant S_ .f32 0x3F800000#32),
    unary main_cst_176 main_v424 (broadcastInDim S32x131072 ![] bcast_S_S32x131072 : (⟨S_, .f32⟩ : BufTy).Contents (Elt F) → (⟨S32x131072, .f32⟩ : BufTy).Contents (Elt F)),
    binary main_v424 main_v33 main_v425 (subf : (⟨S32x131072, .f32⟩ : BufTy).Contents (Elt F) → (⟨S32x131072, .f32⟩ : BufTy).Contents (Elt F) → (⟨S32x131072, .f32⟩ : BufTy).Contents (Elt F)),
    nullary main_c_177 (constantI S_ 32 1#32),
    TRef.nullary (TRef.of (T := ⟨S_, .i32⟩) main_call36_c) (constantI S_ 32 0#32),
    TRef.binary (TRef.of (T := ⟨S_, .i32⟩) main_c_177) (TRef.of (T := ⟨S_, .i32⟩) main_call36_c) (TRef.of (T := ⟨S_, .i1⟩) main_call36_v0) (cmpi .ne),
    TRef.ternary (TRef.of (T := ⟨S_, .i1⟩) main_call36_v0) (TRef.of (T := ⟨S32x131072, .f32⟩) main_v33) (TRef.of (T := ⟨S32x131072, .f32⟩) main_v425) (TRef.of (T := ⟨S32x131072, .f32⟩) main_v426) (fun p a b => select (broadcastInDim S32x131072 ![] bcast_S_S32x131072 p) a b),
    nullary main_cst_178 (constant S_ .f32 0x3F800000#32),
    unary main_cst_178 main_v427 (broadcastInDim S32x131072 ![] bcast_S_S32x131072 : (⟨S_, .f32⟩ : BufTy).Contents (Elt F) → (⟨S32x131072, .f32⟩ : BufTy).Contents (Elt F)),
    binary main_v427 main_v34 main_v428 (subf : (⟨S32x131072, .f32⟩ : BufTy).Contents (Elt F) → (⟨S32x131072, .f32⟩ : BufTy).Contents (Elt F) → (⟨S32x131072, .f32⟩ : BufTy).Contents (Elt F)),
    nullary main_c_179 (constantI S_ 32 1#32),
    TRef.nullary (TRef.of (T := ⟨S_, .i32⟩) main_call37_c) (constantI S_ 32 0#32),
    TRef.binary (TRef.of (T := ⟨S_, .i32⟩) main_c_179) (TRef.of (T := ⟨S_, .i32⟩) main_call37_c) (TRef.of (T := ⟨S_, .i1⟩) main_call37_v0) (cmpi .ne),
    TRef.ternary (TRef.of (T := ⟨S_, .i1⟩) main_call37_v0) (TRef.of (T := ⟨S32x131072, .f32⟩) main_v34) (TRef.of (T := ⟨S32x131072, .f32⟩) main_v428) (TRef.of (T := ⟨S32x131072, .f32⟩) main_v429) (fun p a b => select (broadcastInDim S32x131072 ![] bcast_S_S32x131072 p) a b),
    binary main_v426 main_v429 main_v430 (mulf : (⟨S32x131072, .f32⟩ : BufTy).Contents (Elt F) → (⟨S32x131072, .f32⟩ : BufTy).Contents (Elt F) → (⟨S32x131072, .f32⟩ : BufTy).Contents (Elt F)),
    nullary main_cst_180 (constant S_ .f32 0x3F800000#32),
    unary main_cst_180 main_v431 (broadcastInDim S32x131072 ![] bcast_S_S32x131072 : (⟨S_, .f32⟩ : BufTy).Contents (Elt F) → (⟨S32x131072, .f32⟩ : BufTy).Contents (Elt F)),
    binary main_v431 main_v35 main_v432 (subf : (⟨S32x131072, .f32⟩ : BufTy).Contents (Elt F) → (⟨S32x131072, .f32⟩ : BufTy).Contents (Elt F) → (⟨S32x131072, .f32⟩ : BufTy).Contents (Elt F)),
    nullary main_c_181 (constantI S_ 32 0#32),
    TRef.nullary (TRef.of (T := ⟨S_, .i32⟩) main_call38_c) (constantI S_ 32 0#32),
    TRef.binary (TRef.of (T := ⟨S_, .i32⟩) main_c_181) (TRef.of (T := ⟨S_, .i32⟩) main_call38_c) (TRef.of (T := ⟨S_, .i1⟩) main_call38_v0) (cmpi .ne),
    TRef.ternary (TRef.of (T := ⟨S_, .i1⟩) main_call38_v0) (TRef.of (T := ⟨S32x131072, .f32⟩) main_v35) (TRef.of (T := ⟨S32x131072, .f32⟩) main_v432) (TRef.of (T := ⟨S32x131072, .f32⟩) main_v433) (fun p a b => select (broadcastInDim S32x131072 ![] bcast_S_S32x131072 p) a b),
    binary main_v430 main_v433 main_v434 (mulf : (⟨S32x131072, .f32⟩ : BufTy).Contents (Elt F) → (⟨S32x131072, .f32⟩ : BufTy).Contents (Elt F) → (⟨S32x131072, .f32⟩ : BufTy).Contents (Elt F)),
    nullary main_c_182 (constantI S_ 32 0#32),
    unary main_c_182 main_v435 (broadcastInDim S32x131072 ![] bcast_S_S32x131072 : (⟨S_, .i32⟩ : BufTy).Contents (Elt F) → (⟨S32x131072, .i32⟩ : BufTy).Contents (Elt F)),
    binary main_v419 main_v435 main_v436 (cmpi .sge : (⟨S32x131072, .i32⟩ : BufTy).Contents (Elt F) → (⟨S32x131072, .i32⟩ : BufTy).Contents (Elt F) → (⟨S32x131072, .i1⟩ : BufTy).Contents (Elt F)),
    nullary main_c_183 (constantI S_ 32 64#32),
    unary main_c_183 main_v437 (broadcastInDim S32x131072 ![] bcast_S_S32x131072 : (⟨S_, .i32⟩ : BufTy).Contents (Elt F) → (⟨S32x131072, .i32⟩ : BufTy).Contents (Elt F)),
    binary main_v419 main_v437 main_v438 (cmpi .slt : (⟨S32x131072, .i32⟩ : BufTy).Contents (Elt F) → (⟨S32x131072, .i32⟩ : BufTy).Contents (Elt F) → (⟨S32x131072, .i1⟩ : BufTy).Contents (Elt F)),
    binary main_v436 main_v438 main_v439 (andi : (⟨S32x131072, .i1⟩ : BufTy).Contents (Elt F) → (⟨S32x131072, .i1⟩ : BufTy).Contents (Elt F) → (⟨S32x131072, .i1⟩ : BufTy).Contents (Elt F)),
    nullary main_c_184 (constantI S_ 32 0#32),
    unary main_c_184 main_v440 (broadcastInDim S32x131072 ![] bcast_S_S32x131072 : (⟨S_, .i32⟩ : BufTy).Contents (Elt F) → (⟨S32x131072, .i32⟩ : BufTy).Contents (Elt F)),
    binary main_v421 main_v440 main_v441 (cmpi .sge : (⟨S32x131072, .i32⟩ : BufTy).Contents (Elt F) → (⟨S32x131072, .i32⟩ : BufTy).Contents (Elt F) → (⟨S32x131072, .i1⟩ : BufTy).Contents (Elt F)),
    binary main_v439 main_v441 main_v442 (andi : (⟨S32x131072, .i1⟩ : BufTy).Contents (Elt F) → (⟨S32x131072, .i1⟩ : BufTy).Contents (Elt F) → (⟨S32x131072, .i1⟩ : BufTy).Contents (Elt F)),
    nullary main_c_185 (constantI S_ 32 64#32),
    unary main_c_185 main_v443 (broadcastInDim S32x131072 ![] bcast_S_S32x131072 : (⟨S_, .i32⟩ : BufTy).Contents (Elt F) → (⟨S32x131072, .i32⟩ : BufTy).Contents (Elt F)),
    binary main_v421 main_v443 main_v444 (cmpi .slt : (⟨S32x131072, .i32⟩ : BufTy).Contents (Elt F) → (⟨S32x131072, .i32⟩ : BufTy).Contents (Elt F) → (⟨S32x131072, .i1⟩ : BufTy).Contents (Elt F)),
    binary main_v442 main_v444 main_v445 (andi : (⟨S32x131072, .i1⟩ : BufTy).Contents (Elt F) → (⟨S32x131072, .i1⟩ : BufTy).Contents (Elt F) → (⟨S32x131072, .i1⟩ : BufTy).Contents (Elt F)),
    nullary main_c_186 (constantI S_ 32 0#32),
    unary main_c_186 main_v446 (broadcastInDim S32x131072 ![] bcast_S_S32x131072 : (⟨S_, .i32⟩ : BufTy).Contents (Elt F) → (⟨S32x131072, .i32⟩ : BufTy).Contents (Elt F)),
    binary main_v423 main_v446 main_v447 (cmpi .sge : (⟨S32x131072, .i32⟩ : BufTy).Contents (Elt F) → (⟨S32x131072, .i32⟩ : BufTy).Contents (Elt F) → (⟨S32x131072, .i1⟩ : BufTy).Contents (Elt F)),
    binary main_v445 main_v447 main_v448 (andi : (⟨S32x131072, .i1⟩ : BufTy).Contents (Elt F) → (⟨S32x131072, .i1⟩ : BufTy).Contents (Elt F) → (⟨S32x131072, .i1⟩ : BufTy).Contents (Elt F)),
    nullary main_c_187 (constantI S_ 32 64#32),
    unary main_c_187 main_v449 (broadcastInDim S32x131072 ![] bcast_S_S32x131072 : (⟨S_, .i32⟩ : BufTy).Contents (Elt F) → (⟨S32x131072, .i32⟩ : BufTy).Contents (Elt F)),
    binary main_v423 main_v449 main_v450 (cmpi .slt : (⟨S32x131072, .i32⟩ : BufTy).Contents (Elt F) → (⟨S32x131072, .i32⟩ : BufTy).Contents (Elt F) → (⟨S32x131072, .i1⟩ : BufTy).Contents (Elt F)),
    binary main_v448 main_v450 main_v451 (andi : (⟨S32x131072, .i1⟩ : BufTy).Contents (Elt F) → (⟨S32x131072, .i1⟩ : BufTy).Contents (Elt F) → (⟨S32x131072, .i1⟩ : BufTy).Contents (Elt F)),
    nullary main_c_188 (constantI S_ 32 0#32),
    nullary main_c_189 (constantI S_ 32 63#32),
    TRef.unary (TRef.of (T := ⟨S_, .i32⟩) main_c_188) (TRef.of (T := ⟨S_, .i32⟩) main_call39_v0) id,
    TRef.unary (TRef.of (T := ⟨S_, .i32⟩) main_call39_v0) (TRef.of (T := ⟨S32x131072, .i32⟩) main_call39_v1) (broadcastInDim S32x131072 ![] bcast_S_S32x131072),
    TRef.binary (TRef.of (T := ⟨S32x131072, .i32⟩) main_call39_v1) (TRef.of (T := ⟨S32x131072, .i32⟩) main_v419) (TRef.of (T := ⟨S32x131072, .i32⟩) main_call39_v2) maxsi,
    TRef.unary (TRef.of (T := ⟨S_, .i32⟩) main_c_189) (TRef.of (T := ⟨S_, .i32⟩) main_call39_v3) id,
    TRef.unary (TRef.of (T := ⟨S_, .i32⟩) main_call39_v3) (TRef.of (T := ⟨S32x131072, .i32⟩) main_call39_v4) (broadcastInDim S32x131072 ![] bcast_S_S32x131072),
    TRef.binary (TRef.of (T := ⟨S32x131072, .i32⟩) main_call39_v4) (TRef.of (T := ⟨S32x131072, .i32⟩) main_call39_v2) (TRef.of (T := ⟨S32x131072, .i32⟩) main_v452) minsi,
    nullary main_c_190 (constantI S_ 32 0#32),
    nullary main_c_191 (constantI S_ 32 63#32),
    TRef.unary (TRef.of (T := ⟨S_, .i32⟩) main_c_190) (TRef.of (T := ⟨S_, .i32⟩) main_call40_v0) id,
    TRef.unary (TRef.of (T := ⟨S_, .i32⟩) main_call40_v0) (TRef.of (T := ⟨S32x131072, .i32⟩) main_call40_v1) (broadcastInDim S32x131072 ![] bcast_S_S32x131072),
    TRef.binary (TRef.of (T := ⟨S32x131072, .i32⟩) main_call40_v1) (TRef.of (T := ⟨S32x131072, .i32⟩) main_v421) (TRef.of (T := ⟨S32x131072, .i32⟩) main_call40_v2) maxsi,
    TRef.unary (TRef.of (T := ⟨S_, .i32⟩) main_c_191) (TRef.of (T := ⟨S_, .i32⟩) main_call40_v3) id,
    TRef.unary (TRef.of (T := ⟨S_, .i32⟩) main_call40_v3) (TRef.of (T := ⟨S32x131072, .i32⟩) main_call40_v4) (broadcastInDim S32x131072 ![] bcast_S_S32x131072),
    TRef.binary (TRef.of (T := ⟨S32x131072, .i32⟩) main_call40_v4) (TRef.of (T := ⟨S32x131072, .i32⟩) main_call40_v2) (TRef.of (T := ⟨S32x131072, .i32⟩) main_v453) minsi,
    nullary main_c_192 (constantI S_ 32 0#32),
    nullary main_c_193 (constantI S_ 32 63#32),
    TRef.unary (TRef.of (T := ⟨S_, .i32⟩) main_c_192) (TRef.of (T := ⟨S_, .i32⟩) main_call41_v0) id,
    TRef.unary (TRef.of (T := ⟨S_, .i32⟩) main_call41_v0) (TRef.of (T := ⟨S32x131072, .i32⟩) main_call41_v1) (broadcastInDim S32x131072 ![] bcast_S_S32x131072),
    TRef.binary (TRef.of (T := ⟨S32x131072, .i32⟩) main_call41_v1) (TRef.of (T := ⟨S32x131072, .i32⟩) main_v423) (TRef.of (T := ⟨S32x131072, .i32⟩) main_call41_v2) maxsi,
    TRef.unary (TRef.of (T := ⟨S_, .i32⟩) main_c_193) (TRef.of (T := ⟨S_, .i32⟩) main_call41_v3) id,
    TRef.unary (TRef.of (T := ⟨S_, .i32⟩) main_call41_v3) (TRef.of (T := ⟨S32x131072, .i32⟩) main_call41_v4) (broadcastInDim S32x131072 ![] bcast_S_S32x131072),
    TRef.binary (TRef.of (T := ⟨S32x131072, .i32⟩) main_call41_v4) (TRef.of (T := ⟨S32x131072, .i32⟩) main_call41_v2) (TRef.of (T := ⟨S32x131072, .i32⟩) main_v454) minsi,
    nullary main_c_194 (constantI S_ 32 0#32),
    unary main_c_194 main_v455 (broadcastInDim S32x131072 ![] bcast_S_S32x131072 : (⟨S_, .i32⟩ : BufTy).Contents (Elt F) → (⟨S32x131072, .i32⟩ : BufTy).Contents (Elt F)),
    binary main_v454 main_v455 main_v456 (cmpi .slt : (⟨S32x131072, .i32⟩ : BufTy).Contents (Elt F) → (⟨S32x131072, .i32⟩ : BufTy).Contents (Elt F) → (⟨S32x131072, .i1⟩ : BufTy).Contents (Elt F)),
    nullary main_c_195 (constantI S_ 32 64#32),
    unary main_c_195 main_v457 (broadcastInDim S32x131072 ![] bcast_S_S32x131072 : (⟨S_, .i32⟩ : BufTy).Contents (Elt F) → (⟨S32x131072, .i32⟩ : BufTy).Contents (Elt F)),
    binary main_v454 main_v457 main_v458 (addi : (⟨S32x131072, .i32⟩ : BufTy).Contents (Elt F) → (⟨S32x131072, .i32⟩ : BufTy).Contents (Elt F) → (⟨S32x131072, .i32⟩ : BufTy).Contents (Elt F)),
    ternary main_v456 main_v458 main_v454 main_v459 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_196 (constantI S_ 32 0#32),
    unary main_c_196 main_v460 (broadcastInDim S32x131072 ![] bcast_S_S32x131072 : (⟨S_, .i32⟩ : BufTy).Contents (Elt F) → (⟨S32x131072, .i32⟩ : BufTy).Contents (Elt F)),
    binary main_v453 main_v460 main_v461 (cmpi .slt : (⟨S32x131072, .i32⟩ : BufTy).Contents (Elt F) → (⟨S32x131072, .i32⟩ : BufTy).Contents (Elt F) → (⟨S32x131072, .i1⟩ : BufTy).Contents (Elt F)),
    nullary main_c_197 (constantI S_ 32 64#32),
    unary main_c_197 main_v462 (broadcastInDim S32x131072 ![] bcast_S_S32x131072 : (⟨S_, .i32⟩ : BufTy).Contents (Elt F) → (⟨S32x131072, .i32⟩ : BufTy).Contents (Elt F)),
    binary main_v453 main_v462 main_v463 (addi : (⟨S32x131072, .i32⟩ : BufTy).Contents (Elt F) → (⟨S32x131072, .i32⟩ : BufTy).Contents (Elt F) → (⟨S32x131072, .i32⟩ : BufTy).Contents (Elt F)),
    ternary main_v461 main_v463 main_v453 main_v464 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_198 (constantI S_ 32 0#32),
    unary main_c_198 main_v465 (broadcastInDim S32x131072 ![] bcast_S_S32x131072 : (⟨S_, .i32⟩ : BufTy).Contents (Elt F) → (⟨S32x131072, .i32⟩ : BufTy).Contents (Elt F)),
    binary main_v452 main_v465 main_v466 (cmpi .slt : (⟨S32x131072, .i32⟩ : BufTy).Contents (Elt F) → (⟨S32x131072, .i32⟩ : BufTy).Contents (Elt F) → (⟨S32x131072, .i1⟩ : BufTy).Contents (Elt F)),
    nullary main_c_199 (constantI S_ 32 64#32),
    unary main_c_199 main_v467 (broadcastInDim S32x131072 ![] bcast_S_S32x131072 : (⟨S_, .i32⟩ : BufTy).Contents (Elt F) → (⟨S32x131072, .i32⟩ : BufTy).Contents (Elt F)),
    binary main_v452 main_v467 main_v468 (addi : (⟨S32x131072, .i32⟩ : BufTy).Contents (Elt F) → (⟨S32x131072, .i32⟩ : BufTy).Contents (Elt F) → (⟨S32x131072, .i32⟩ : BufTy).Contents (Elt F)),
    ternary main_v466 main_v468 main_v452 main_v469 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v459 main_v470 (broadcastInDim S32x131072x1 ![0, 1] bcast_S32x131072_S32x131072x1_0_1 : (⟨S32x131072, .i32⟩ : BufTy).Contents (Elt F) → (⟨S32x131072x1, .i32⟩ : BufTy).Contents (Elt F)),
    unary main_v464 main_v471 (broadcastInDim S32x131072x1 ![0, 1] bcast_S32x131072_S32x131072x1_0_1 : (⟨S32x131072, .i32⟩ : BufTy).Contents (Elt F) → (⟨S32x131072x1, .i32⟩ : BufTy).Contents (Elt F)),
    unary main_v469 main_v472 (broadcastInDim S32x131072x1 ![0, 1] bcast_S32x131072_S32x131072x1_0_1 : (⟨S32x131072, .i32⟩ : BufTy).Contents (Elt F) → (⟨S32x131072x1, .i32⟩ : BufTy).Contents (Elt F)) ]

set_option maxHeartbeats 40000000 in
/-- The rest, in order: the join of the columns, the gather, the masked weight, the product and the sum. -/
abbrev opsC6B : List (HloOp τ sig (Elt F)) :=
  [ nary ![main_v470, main_v471, main_v472] main_v473 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v473 main_v474 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v451 main_v475 (uitofp .f32 : (⟨S32x131072, .i1⟩ : BufTy).Contents (Elt F) → (⟨S32x131072, .f32⟩ : BufTy).Contents (Elt F)),
    binary main_v434 main_v475 main_v476 (mulf : (⟨S32x131072, .f32⟩ : BufTy).Contents (Elt F) → (⟨S32x131072, .f32⟩ : BufTy).Contents (Elt F) → (⟨S32x131072, .f32⟩ : BufTy).Contents (Elt F)),
    unary main_v476 main_v477 (broadcastInDim S1x32x131072 ![1, 2] bcast_S32x131072_S1x32x131072_1_2 : (⟨S32x131072, .f32⟩ : BufTy).Contents (Elt F) → (⟨S1x32x131072, .f32⟩ : BufTy).Contents (Elt F)),
    unary main_v477 main_v478 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v474 main_v478 main_v479 (mulf : (⟨S3x32x131072, .f32⟩ : BufTy).Contents (Elt F) → (⟨S3x32x131072, .f32⟩ : BufTy).Contents (Elt F) → (⟨S3x32x131072, .f32⟩ : BufTy).Contents (Elt F)),
    binary main_v417 main_v479 main_v480 (addf : (⟨S3x32x131072, .f32⟩ : BufTy).Contents (Elt F) → (⟨S3x32x131072, .f32⟩ : BufTy).Contents (Elt F) → (⟨S3x32x131072, .f32⟩ : BufTy).Contents (Elt F)) ]

set_option maxRecDepth 8192 in
set_option maxHeartbeats 40000000 in
/-- The corner's list is the two parts in a row. -/
theorem opsC6_split : (opsC6 (F := F)) = opsC6A ++ opsC6B := rfl

set_option maxRecDepth 8192 in
set_option maxHeartbeats 40000000 in
/-- The z column: the cell plus the offset, clipped, wrapped, as a column. -/
theorem opsC6A_colz (W : Valuation τ sig (Elt F)) :
    after (opsC6A (F := F)) W (Proc.devRef .tc main_v470)
      = colV (wrapV (clipV (addi (W (Proc.devRef .tc main_v38)) (splatI 0#32)))) := by
  after_results_simp <;> rfl

set_option maxRecDepth 8192 in
set_option maxHeartbeats 40000000 in
/-- The y column. -/
theorem opsC6A_coly (W : Valuation τ sig (Elt F)) :
    after (opsC6A (F := F)) W (Proc.devRef .tc main_v471)
      = colV (wrapV (clipV (addi (W (Proc.devRef .tc main_v37)) (splatI 1#32)))) := by
  after_results_simp <;> rfl

set_option maxRecDepth 8192 in
set_option maxHeartbeats 40000000 in
/-- The x column. -/
theorem opsC6A_colx (W : Valuation τ sig (Elt F)) :
    after (opsC6A (F := F)) W (Proc.devRef .tc main_v472)
      = colV (wrapV (clipV (addi (W (Proc.devRef .tc main_v36)) (splatI 1#32)))) := by
  after_results_simp <;> rfl

set_option maxRecDepth 8192 in
set_option maxHeartbeats 40000000 in
/-- The product of the three axis weights. -/
theorem opsC6A_weight (W : Valuation τ sig (Elt F)) :
    after (opsC6A (F := F)) W (Proc.devRef .tc main_v434)
      = mulf (mulf (pickV (F := F) 1#32 (W (Proc.devRef .tc main_v33))) (pickV (F := F) 1#32 (W (Proc.devRef .tc main_v34))))
          (pickV (F := F) 0#32 (W (Proc.devRef .tc main_v35))) := by
  after_results_simp <;> rfl

set_option maxRecDepth 8192 in
set_option maxHeartbeats 40000000 in
/-- The bit saying the three coordinates lie in [0, 64). -/
theorem opsC6A_valid (W : Valuation τ sig (Elt F)) :
    after (opsC6A (F := F)) W (Proc.devRef .tc main_v451)
      = validV (addi (W (Proc.devRef .tc main_v36)) (splatI 1#32)) (addi (W (Proc.devRef .tc main_v37)) (splatI 1#32))
          (addi (W (Proc.devRef .tc main_v38)) (splatI 0#32)) := by
  after_results_simp <;> rfl

set_option maxRecDepth 8192 in
set_option maxHeartbeats 40000000 in
/-- The first part does not write the previous sum's buffer. -/
theorem opsC6A_prev (W : Valuation τ sig (Elt F)) :
    after (opsC6A (F := F)) W (Proc.devRef .tc main_v417)
      = W (Proc.devRef .tc main_v417) := by
  after_results_simp <;> rfl

set_option maxRecDepth 8192 in
set_option maxHeartbeats 40000000 in
/-- The first part does not write the grid's buffer. -/
theorem opsC6A_grid (W : Valuation τ sig (Elt F)) :
    after (opsC6A (F := F)) W (Proc.devRef .tc main_arg1)
      = W (Proc.devRef .tc main_arg1) := by
  after_results_simp <;> rfl

set_option maxRecDepth 8192 in
set_option maxHeartbeats 40000000 in
/-- The second part: the previous sum plus the gathered grid times the masked weight, over the buffers it finds. -/
theorem opsC6B_sum (W : Valuation τ sig (Elt F)) :
    after (opsC6B (F := F)) W (Proc.devRef .tc main_v480)
      = addf (W (Proc.devRef .tc main_v417))
          (mulf (Host.gather gather_S3x64x64x64_S32x131072x3_S3x32x131072_0_123_n_n_123_2_3111 (W (Proc.devRef .tc main_arg1))
              (concatenate S32x131072x3 2 [⟨S32x131072x1, (W (Proc.devRef .tc main_v470))⟩, ⟨S32x131072x1, (W (Proc.devRef .tc main_v471))⟩,
                ⟨S32x131072x1, (W (Proc.devRef .tc main_v472))⟩] concatenates_S32x131072x1_S32x131072x1_S32x131072x1_S32x131072x3_d2))
            (spreadV (mulf (W (Proc.devRef .tc main_v434)) (uitofp .f32 (W (Proc.devRef .tc main_v451)))))) := by
  after_results_simp3 <;> rfl

set_option maxRecDepth 8192 in
set_option maxHeartbeats 40000000 in
/-- After the corner's operations the next sum buffer holds the previous sum plus the corner. -/
theorem opsC6_sum (W : Valuation τ sig (Elt F)) :
    after (opsC6 (F := F)) W (Proc.devRef .tc main_v480)
      = addf (W (Proc.devRef .tc main_v417))
          (Cert.RefCorner.cornerStage (F := F) 1#32 1#32 0#32 (W (Proc.devRef .tc main_v36)) (W (Proc.devRef .tc main_v37))
            (W (Proc.devRef .tc main_v38)) (W (Proc.devRef .tc main_v33)) (W (Proc.devRef .tc main_v34))
            (W (Proc.devRef .tc main_v35)) (W (Proc.devRef .tc main_arg1))) := by
  rw [opsC6_split, StableHlo.after_append, opsC6B_sum, opsC6A_prev, opsC6A_grid, opsC6A_colz, opsC6A_coly,
    opsC6A_colx, opsC6A_weight, opsC6A_valid]
  rfl

end Cert.RefRun

end
-- ==== Proof.RefRunC7S.lean ====
/-
  What the operations of corner (dx, dy, dz) = (1, 1, 1) leave in the running sum's next buffer from any contents W:
  the previous sum plus the corner, the one function of the three cell arrays, the three arrays of fractional parts
  and the grid, at this corner's offsets.

  The list is read in two parts. The first part, up to the three columns of start indices, leaves in five buffers
  the three clipped and wrapped coordinate columns (z, y, x), the product of the three axis weights, and the bit
  saying that the three coordinates lie in [0, 64), each a composition of the operations over the cells, the
  fractional parts and the offsets; it writes neither the grid's buffer nor the previous sum's. The second part joins
  the three columns, gathers the grid there, multiplies by the masked weight spread over the channels and adds the
  previous sum. One part after the other is the corner.
-/
import proofs.«174278_j48524540510565_1_alg».proof.Proof.RefRunC7
import proofs.«174278_j48524540510565_1_alg».proof.Proof.RefRunLib
import proofs.«174278_j48524540510565_1_alg».proof.Proof.RefCornerDef
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.RefCorner

variable {F : FTy → Type} [FloatOps F]

set_option maxHeartbeats 40000000 in
/-- The corner's operations up to the three columns of start indices, in order. -/
abbrev opsC7A : List (HloOp τ sig (Elt F)) :=
  [ nullary main_c_200 (constantI S_ 32 1#32),
    unary main_c_200 main_v481 (broadcastInDim S32x131072 ![] bcast_S_S32x131072 : (⟨S_, .i32⟩ : BufTy).Contents (Elt F) → (⟨S32x131072, .i32⟩ : BufTy).Contents (Elt F)),
    binary main_v36 main_v481 main_v482 (addi : (⟨S32x131072, .i32⟩ : BufTy).Contents (Elt F) → (⟨S32x131072, .i32⟩ : BufTy).Contents (Elt F) → (⟨S32x131072, .i32⟩ : BufTy).Contents (Elt F)),
    nullary main_c_201 (constantI S_ 32 1#32),
    unary main_c_201 main_v483 (broadcastInDim S32x131072 ![] bcast_S_S32x131072 : (⟨S_, .i32⟩ : BufTy).Contents (Elt F) → (⟨S32x131072, .i32⟩ : BufTy).Contents (Elt F)),
    binary main_v37 main_v483 main_v484 (addi : (⟨S32x131072, .i32⟩ : BufTy).Contents (Elt F) → (⟨S32x131072, .i32⟩ : BufTy).Contents (Elt F) → (⟨S32x131072, .i32⟩ : BufTy).Contents (Elt F)),
    nullary main_c_202 (constantI S_ 32 1#32),
    unary main_c_202 main_v485 (broadcastInDim S32x131072 ![] bcast_S_S32x131072 : (⟨S_, .i32⟩ : BufTy).Contents (Elt F) → (⟨S32x131072, .i32⟩ : BufTy).Contents (Elt F)),
    binary main_v38 main_v485 main_v486 (addi : (⟨S32x131072, .i32⟩ : BufTy).Contents (Elt F) → (⟨S32x131072, .i32⟩ : BufTy).Contents (Elt F) → (⟨S32x131072, .i32⟩ : BufTy).Contents (Elt F)),
    nullary main_cst_203 (constant S_ .f32 0x3F800000#32),
    unary main_cst_203 main_v487 (broadcastInDim S32x131072 ![] bcast_S_S32x131072 : (⟨S_, .f32⟩ : BufTy).Contents (Elt F) → (⟨S32x131072, .f32⟩ : BufTy).Contents (Elt F)),
    binary main_v487 main_v33 main_v488 (subf : (⟨S32x131072, .f32⟩ : BufTy).Contents (Elt F) → (⟨S32x131072, .f32⟩ : BufTy).Contents (Elt F) → (⟨S32x131072, .f32⟩ : BufTy).Contents (Elt F)),
    nullary main_c_204 (constantI S_ 32 1#32),
    TRef.nullary (TRef.of (T := ⟨S_, .i32⟩) main_call42_c) (constantI S_ 32 0#32),
    TRef.binary (TRef.of (T := ⟨S_, .i32⟩) main_c_204) (TRef.of (T := ⟨S_, .i32⟩) main_call42_c) (TRef.of (T := ⟨S_, .i1⟩) main_call42_v0) (cmpi .ne),
    TRef.ternary (TRef.of (T := ⟨S_, .i1⟩) main_call42_v0) (TRef.of (T := ⟨S32x131072, .f32⟩) main_v33) (TRef.of (T := ⟨S32x131072, .f32⟩) main_v488) (TRef.of (T := ⟨S32x131072, .f32⟩) main_v489) (fun p a b => select (broadcastInDim S32x131072 ![] bcast_S_S32x131072 p) a b),
    nullary main_cst_205 (constant S_ .f32 0x3F800000#32),
    unary main_cst_205 main_v490 (broadcastInDim S32x131072 ![] bcast_S_S32x131072 : (⟨S_, .f32⟩ : BufTy).Contents (Elt F) → (⟨S32x131072, .f32⟩ : BufTy).Contents (Elt F)),
    binary main_v490 main_v34 main_v491 (subf : (⟨S32x131072, .f32⟩ : BufTy).Contents (Elt F) → (⟨S32x131072, .f32⟩ : BufTy).Contents (Elt F) → (⟨S32x131072, .f32⟩ : BufTy).Contents (Elt F)),
    nullary main_c_206 (constantI S_ 32 1#32),
    TRef.nullary (TRef.of (T := ⟨S_, .i32⟩) main_call43_c) (constantI S_ 32 0#32),
    TRef.binary (TRef.of (T := ⟨S_, .i32⟩) main_c_206) (TRef.of (T := ⟨S_, .i32⟩) main_call43_c) (TRef.of (T := ⟨S_, .i1⟩) main_call43_v0) (cmpi .ne),
    TRef.ternary (TRef.of (T := ⟨S_, .i1⟩) main_call43_v0) (TRef.of (T := ⟨S32x131072, .f32⟩) main_v34) (TRef.of (T := ⟨S32x131072, .f32⟩) main_v491) (TRef.of (T := ⟨S32x131072, .f32⟩) main_v492) (fun p a b => select (broadcastInDim S32x131072 ![] bcast_S_S32x131072 p) a b),
    binary main_v489 main_v492 main_v493 (mulf : (⟨S32x131072, .f32⟩ : BufTy).Contents (Elt F) → (⟨S32x131072, .f32⟩ : BufTy).Contents (Elt F) → (⟨S32x131072, .f32⟩ : BufTy).Contents (Elt F)),
    nullary main_cst_207 (constant S_ .f32 0x3F800000#32),
    unary main_cst_207 main_v494 (broadcastInDim S32x131072 ![] bcast_S_S32x131072 : (⟨S_, .f32⟩ : BufTy).Contents (Elt F) → (⟨S32x131072, .f32⟩ : BufTy).Contents (Elt F)),
    binary main_v494 main_v35 main_v495 (subf : (⟨S32x131072, .f32⟩ : BufTy).Contents (Elt F) → (⟨S32x131072, .f32⟩ : BufTy).Contents (Elt F) → (⟨S32x131072, .f32⟩ : BufTy).Contents (Elt F)),
    nullary main_c_208 (constantI S_ 32 1#32),
    TRef.nullary (TRef.of (T := ⟨S_, .i32⟩) main_call44_c) (constantI S_ 32 0#32),
    TRef.binary (TRef.of (T := ⟨S_, .i32⟩) main_c_208) (TRef.of (T := ⟨S_, .i32⟩) main_call44_c) (TRef.of (T := ⟨S_, .i1⟩) main_call44_v0) (cmpi .ne),
    TRef.ternary (TRef.of (T := ⟨S_, .i1⟩) main_call44_v0) (TRef.of (T := ⟨S32x131072, .f32⟩) main_v35) (TRef.of (T := ⟨S32x131072, .f32⟩) main_v495) (TRef.of (T := ⟨S32x131072, .f32⟩) main_v496) (fun p a b => select (broadcastInDim S32x131072 ![] bcast_S_S32x131072 p) a b),
    binary main_v493 main_v496 main_v497 (mulf : (⟨S32x131072, .f32⟩ : BufTy).Contents (Elt F) → (⟨S32x131072, .f32⟩ : BufTy).Contents (Elt F) → (⟨S32x131072, .f32⟩ : BufTy).Contents (Elt F)),
    nullary main_c_209 (constantI S_ 32 0#32),
    unary main_c_209 main_v498 (broadcastInDim S32x131072 ![] bcast_S_S32x131072 : (⟨S_, .i32⟩ : BufTy).Contents (Elt F) → (⟨S32x131072, .i32⟩ : BufTy).Contents (Elt F)),
    binary main_v482 main_v498 main_v499 (cmpi .sge : (⟨S32x131072, .i32⟩ : BufTy).Contents (Elt F) → (⟨S32x131072, .i32⟩ : BufTy).Contents (Elt F) → (⟨S32x131072, .i1⟩ : BufTy).Contents (Elt F)),
    nullary main_c_210 (constantI S_ 32 64#32),
    unary main_c_210 main_v500 (broadcastInDim S32x131072 ![] bcast_S_S32x131072 : (⟨S_, .i32⟩ : BufTy).Contents (Elt F) → (⟨S32x131072, .i32⟩ : BufTy).Contents (Elt F)),
    binary main_v482 main_v500 main_v501 (cmpi .slt : (⟨S32x131072, .i32⟩ : BufTy).Contents (Elt F) → (⟨S32x131072, .i32⟩ : BufTy).Contents (Elt F) → (⟨S32x131072, .i1⟩ : BufTy).Contents (Elt F)),
    binary main_v499 main_v501 main_v502 (andi : (⟨S32x131072, .i1⟩ : BufTy).Contents (Elt F) → (⟨S32x131072, .i1⟩ : BufTy).Contents (Elt F) → (⟨S32x131072, .i1⟩ : BufTy).Contents (Elt F)),
    nullary main_c_211 (constantI S_ 32 0#32),
    unary main_c_211 main_v503 (broadcastInDim S32x131072 ![] bcast_S_S32x131072 : (⟨S_, .i32⟩ : BufTy).Contents (Elt F) → (⟨S32x131072, .i32⟩ : BufTy).Contents (Elt F)),
    binary main_v484 main_v503 main_v504 (cmpi .sge : (⟨S32x131072, .i32⟩ : BufTy).Contents (Elt F) → (⟨S32x131072, .i32⟩ : BufTy).Contents (Elt F) → (⟨S32x131072, .i1⟩ : BufTy).Contents (Elt F)),
    binary main_v502 main_v504 main_v505 (andi : (⟨S32x131072, .i1⟩ : BufTy).Contents (Elt F) → (⟨S32x131072, .i1⟩ : BufTy).Contents (Elt F) → (⟨S32x131072, .i1⟩ : BufTy).Contents (Elt F)),
    nullary main_c_212 (constantI S_ 32 64#32),
    unary main_c_212 main_v506 (broadcastInDim S32x131072 ![] bcast_S_S32x131072 : (⟨S_, .i32⟩ : BufTy).Contents (Elt F) → (⟨S32x131072, .i32⟩ : BufTy).Contents (Elt F)),
    binary main_v484 main_v506 main_v507 (cmpi .slt : (⟨S32x131072, .i32⟩ : BufTy).Contents (Elt F) → (⟨S32x131072, .i32⟩ : BufTy).Contents (Elt F) → (⟨S32x131072, .i1⟩ : BufTy).Contents (Elt F)),
    binary main_v505 main_v507 main_v508 (andi : (⟨S32x131072, .i1⟩ : BufTy).Contents (Elt F) → (⟨S32x131072, .i1⟩ : BufTy).Contents (Elt F) → (⟨S32x131072, .i1⟩ : BufTy).Contents (Elt F)),
    nullary main_c_213 (constantI S_ 32 0#32),
    unary main_c_213 main_v509 (broadcastInDim S32x131072 ![] bcast_S_S32x131072 : (⟨S_, .i32⟩ : BufTy).Contents (Elt F) → (⟨S32x131072, .i32⟩ : BufTy).Contents (Elt F)),
    binary main_v486 main_v509 main_v510 (cmpi .sge : (⟨S32x131072, .i32⟩ : BufTy).Contents (Elt F) → (⟨S32x131072, .i32⟩ : BufTy).Contents (Elt F) → (⟨S32x131072, .i1⟩ : BufTy).Contents (Elt F)),
    binary main_v508 main_v510 main_v511 (andi : (⟨S32x131072, .i1⟩ : BufTy).Contents (Elt F) → (⟨S32x131072, .i1⟩ : BufTy).Contents (Elt F) → (⟨S32x131072, .i1⟩ : BufTy).Contents (Elt F)),
    nullary main_c_214 (constantI S_ 32 64#32),
    unary main_c_214 main_v512 (broadcastInDim S32x131072 ![] bcast_S_S32x131072 : (⟨S_, .i32⟩ : BufTy).Contents (Elt F) → (⟨S32x131072, .i32⟩ : BufTy).Contents (Elt F)),
    binary main_v486 main_v512 main_v513 (cmpi .slt : (⟨S32x131072, .i32⟩ : BufTy).Contents (Elt F) → (⟨S32x131072, .i32⟩ : BufTy).Contents (Elt F) → (⟨S32x131072, .i1⟩ : BufTy).Contents (Elt F)),
    binary main_v511 main_v513 main_v514 (andi : (⟨S32x131072, .i1⟩ : BufTy).Contents (Elt F) → (⟨S32x131072, .i1⟩ : BufTy).Contents (Elt F) → (⟨S32x131072, .i1⟩ : BufTy).Contents (Elt F)),
    nullary main_c_215 (constantI S_ 32 0#32),
    nullary main_c_216 (constantI S_ 32 63#32),
    TRef.unary (TRef.of (T := ⟨S_, .i32⟩) main_c_215) (TRef.of (T := ⟨S_, .i32⟩) main_call45_v0) id,
    TRef.unary (TRef.of (T := ⟨S_, .i32⟩) main_call45_v0) (TRef.of (T := ⟨S32x131072, .i32⟩) main_call45_v1) (broadcastInDim S32x131072 ![] bcast_S_S32x131072),
    TRef.binary (TRef.of (T := ⟨S32x131072, .i32⟩) main_call45_v1) (TRef.of (T := ⟨S32x131072, .i32⟩) main_v482) (TRef.of (T := ⟨S32x131072, .i32⟩) main_call45_v2) maxsi,
    TRef.unary (TRef.of (T := ⟨S_, .i32⟩) main_c_216) (TRef.of (T := ⟨S_, .i32⟩) main_call45_v3) id,
    TRef.unary (TRef.of (T := ⟨S_, .i32⟩) main_call45_v3) (TRef.of (T := ⟨S32x131072, .i32⟩) main_call45_v4) (broadcastInDim S32x131072 ![] bcast_S_S32x131072),
    TRef.binary (TRef.of (T := ⟨S32x131072, .i32⟩) main_call45_v4) (TRef.of (T := ⟨S32x131072, .i32⟩) main_call45_v2) (TRef.of (T := ⟨S32x131072, .i32⟩) main_v515) minsi,
    nullary main_c_217 (constantI S_ 32 0#32),
    nullary main_c_218 (constantI S_ 32 63#32),
    TRef.unary (TRef.of (T := ⟨S_, .i32⟩) main_c_217) (TRef.of (T := ⟨S_, .i32⟩) main_call46_v0) id,
    TRef.unary (TRef.of (T := ⟨S_, .i32⟩) main_call46_v0) (TRef.of (T := ⟨S32x131072, .i32⟩) main_call46_v1) (broadcastInDim S32x131072 ![] bcast_S_S32x131072),
    TRef.binary (TRef.of (T := ⟨S32x131072, .i32⟩) main_call46_v1) (TRef.of (T := ⟨S32x131072, .i32⟩) main_v484) (TRef.of (T := ⟨S32x131072, .i32⟩) main_call46_v2) maxsi,
    TRef.unary (TRef.of (T := ⟨S_, .i32⟩) main_c_218) (TRef.of (T := ⟨S_, .i32⟩) main_call46_v3) id,
    TRef.unary (TRef.of (T := ⟨S_, .i32⟩) main_call46_v3) (TRef.of (T := ⟨S32x131072, .i32⟩) main_call46_v4) (broadcastInDim S32x131072 ![] bcast_S_S32x131072),
    TRef.binary (TRef.of (T := ⟨S32x131072, .i32⟩) main_call46_v4) (TRef.of (T := ⟨S32x131072, .i32⟩) main_call46_v2) (TRef.of (T := ⟨S32x131072, .i32⟩) main_v516) minsi,
    nullary main_c_219 (constantI S_ 32 0#32),
    nullary main_c_220 (constantI S_ 32 63#32),
    TRef.unary (TRef.of (T := ⟨S_, .i32⟩) main_c_219) (TRef.of (T := ⟨S_, .i32⟩) main_call47_v0) id,
    TRef.unary (TRef.of (T := ⟨S_, .i32⟩) main_call47_v0) (TRef.of (T := ⟨S32x131072, .i32⟩) main_call47_v1) (broadcastInDim S32x131072 ![] bcast_S_S32x131072),
    TRef.binary (TRef.of (T := ⟨S32x131072, .i32⟩) main_call47_v1) (TRef.of (T := ⟨S32x131072, .i32⟩) main_v486) (TRef.of (T := ⟨S32x131072, .i32⟩) main_call47_v2) maxsi,
    TRef.unary (TRef.of (T := ⟨S_, .i32⟩) main_c_220) (TRef.of (T := ⟨S_, .i32⟩) main_call47_v3) id,
    TRef.unary (TRef.of (T := ⟨S_, .i32⟩) main_call47_v3) (TRef.of (T := ⟨S32x131072, .i32⟩) main_call47_v4) (broadcastInDim S32x131072 ![] bcast_S_S32x131072),
    TRef.binary (TRef.of (T := ⟨S32x131072, .i32⟩) main_call47_v4) (TRef.of (T := ⟨S32x131072, .i32⟩) main_call47_v2) (TRef.of (T := ⟨S32x131072, .i32⟩) main_v517) minsi,
    nullary main_c_221 (constantI S_ 32 0#32),
    unary main_c_221 main_v518 (broadcastInDim S32x131072 ![] bcast_S_S32x131072 : (⟨S_, .i32⟩ : BufTy).Contents (Elt F) → (⟨S32x131072, .i32⟩ : BufTy).Contents (Elt F)),
    binary main_v517 main_v518 main_v519 (cmpi .slt : (⟨S32x131072, .i32⟩ : BufTy).Contents (Elt F) → (⟨S32x131072, .i32⟩ : BufTy).Contents (Elt F) → (⟨S32x131072, .i1⟩ : BufTy).Contents (Elt F)),
    nullary main_c_222 (constantI S_ 32 64#32),
    unary main_c_222 main_v520 (broadcastInDim S32x131072 ![] bcast_S_S32x131072 : (⟨S_, .i32⟩ : BufTy).Contents (Elt F) → (⟨S32x131072, .i32⟩ : BufTy).Contents (Elt F)),
    binary main_v517 main_v520 main_v521 (addi : (⟨S32x131072, .i32⟩ : BufTy).Contents (Elt F) → (⟨S32x131072, .i32⟩ : BufTy).Contents (Elt F) → (⟨S32x131072, .i32⟩ : BufTy).Contents (Elt F)),
    ternary main_v519 main_v521 main_v517 main_v522 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_223 (constantI S_ 32 0#32),
    unary main_c_223 main_v523 (broadcastInDim S32x131072 ![] bcast_S_S32x131072 : (⟨S_, .i32⟩ : BufTy).Contents (Elt F) → (⟨S32x131072, .i32⟩ : BufTy).Contents (Elt F)),
    binary main_v516 main_v523 main_v524 (cmpi .slt : (⟨S32x131072, .i32⟩ : BufTy).Contents (Elt F) → (⟨S32x131072, .i32⟩ : BufTy).Contents (Elt F) → (⟨S32x131072, .i1⟩ : BufTy).Contents (Elt F)),
    nullary main_c_224 (constantI S_ 32 64#32),
    unary main_c_224 main_v525 (broadcastInDim S32x131072 ![] bcast_S_S32x131072 : (⟨S_, .i32⟩ : BufTy).Contents (Elt F) → (⟨S32x131072, .i32⟩ : BufTy).Contents (Elt F)),
    binary main_v516 main_v525 main_v526 (addi : (⟨S32x131072, .i32⟩ : BufTy).Contents (Elt F) → (⟨S32x131072, .i32⟩ : BufTy).Contents (Elt F) → (⟨S32x131072, .i32⟩ : BufTy).Contents (Elt F)),
    ternary main_v524 main_v526 main_v516 main_v527 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    nullary main_c_225 (constantI S_ 32 0#32),
    unary main_c_225 main_v528 (broadcastInDim S32x131072 ![] bcast_S_S32x131072 : (⟨S_, .i32⟩ : BufTy).Contents (Elt F) → (⟨S32x131072, .i32⟩ : BufTy).Contents (Elt F)),
    binary main_v515 main_v528 main_v529 (cmpi .slt : (⟨S32x131072, .i32⟩ : BufTy).Contents (Elt F) → (⟨S32x131072, .i32⟩ : BufTy).Contents (Elt F) → (⟨S32x131072, .i1⟩ : BufTy).Contents (Elt F)),
    nullary main_c_226 (constantI S_ 32 64#32),
    unary main_c_226 main_v530 (broadcastInDim S32x131072 ![] bcast_S_S32x131072 : (⟨S_, .i32⟩ : BufTy).Contents (Elt F) → (⟨S32x131072, .i32⟩ : BufTy).Contents (Elt F)),
    binary main_v515 main_v530 main_v531 (addi : (⟨S32x131072, .i32⟩ : BufTy).Contents (Elt F) → (⟨S32x131072, .i32⟩ : BufTy).Contents (Elt F) → (⟨S32x131072, .i32⟩ : BufTy).Contents (Elt F)),
    ternary main_v529 main_v531 main_v515 main_v532 (select : (⟨S32x131072, .i1⟩ : BufTy).Contents (Elt F) → (⟨S32x131072, .i32⟩ : BufTy).Contents (Elt F) → (⟨S32x131072, .i32⟩ : BufTy).Contents (Elt F) → (⟨S32x131072, .i32⟩ : BufTy).Contents (Elt F)),
    unary main_v522 main_v533 (broadcastInDim S32x131072x1 ![0, 1] bcast_S32x131072_S32x131072x1_0_1 : (⟨S32x131072, .i32⟩ : BufTy).Contents (Elt F) → (⟨S32x131072x1, .i32⟩ : BufTy).Contents (Elt F)),
    unary main_v527 main_v534 (broadcastInDim S32x131072x1 ![0, 1] bcast_S32x131072_S32x131072x1_0_1 : (⟨S32x131072, .i32⟩ : BufTy).Contents (Elt F) → (⟨S32x131072x1, .i32⟩ : BufTy).Contents (Elt F)),
    unary main_v532 main_v535 (broadcastInDim S32x131072x1 ![0, 1] bcast_S32x131072_S32x131072x1_0_1 : (⟨S32x131072, .i32⟩ : BufTy).Contents (Elt F) → (⟨S32x131072x1, .i32⟩ : BufTy).Contents (Elt F)) ]

set_option maxHeartbeats 40000000 in
/-- The rest, in order: the join of the columns, the gather, the masked weight, the product and the sum. -/
abbrev opsC7B : List (HloOp τ sig (Elt F)) :=
  [ nary ![main_v533, main_v534, main_v535] main_v536 (fun u => concatenate S32x131072x3 2 [⟨S32x131072x1, u 0⟩, ⟨S32x131072x1, u 1⟩, ⟨S32x131072x1, u 2⟩] concatenates_S32x131072x1_S32x131072x1_S32x131072x1_S32x131072x3_d2),
    binary main_arg1 main_v536 main_v537 ((fun x i => Host.gather gather_S3x64x64x64_S32x131072x3_S3x32x131072_0_123_n_n_123_2_3111 x i) : (⟨S3x64x64x64, .f32⟩ : BufTy).Contents (Elt F) → (⟨S32x131072x3, .i32⟩ : BufTy).Contents (Elt F) → (⟨S3x32x131072, .f32⟩ : BufTy).Contents (Elt F)),
    unary main_v514 main_v538 (uitofp .f32 : (⟨S32x131072, .i1⟩ : BufTy).Contents (Elt F) → (⟨S32x131072, .f32⟩ : BufTy).Contents (Elt F)),
    binary main_v497 main_v538 main_v539 (mulf : (⟨S32x131072, .f32⟩ : BufTy).Contents (Elt F) → (⟨S32x131072, .f32⟩ : BufTy).Contents (Elt F) → (⟨S32x131072, .f32⟩ : BufTy).Contents (Elt F)),
    unary main_v539 main_v540 (broadcastInDim S1x32x131072 ![1, 2] bcast_S32x131072_S1x32x131072_1_2 : (⟨S32x131072, .f32⟩ : BufTy).Contents (Elt F) → (⟨S1x32x131072, .f32⟩ : BufTy).Contents (Elt F)),
    unary main_v540 main_v541 (broadcastInDim S3x32x131072 ![0, 1, 2] bcast_S1x32x131072_S3x32x131072_0_1_2 : (⟨S1x32x131072, .f32⟩ : BufTy).Contents (Elt F) → (⟨S3x32x131072, .f32⟩ : BufTy).Contents (Elt F)),
    binary main_v537 main_v541 main_v542 (mulf : (⟨S3x32x131072, .f32⟩ : BufTy).Contents (Elt F) → (⟨S3x32x131072, .f32⟩ : BufTy).Contents (Elt F) → (⟨S3x32x131072, .f32⟩ : BufTy).Contents (Elt F)),
    binary main_v480 main_v542 main_v543 (addf : (⟨S3x32x131072, .f32⟩ : BufTy).Contents (Elt F) → (⟨S3x32x131072, .f32⟩ : BufTy).Contents (Elt F) → (⟨S3x32x131072, .f32⟩ : BufTy).Contents (Elt F)) ]

set_option maxRecDepth 8192 in
set_option maxHeartbeats 40000000 in
/-- The corner's list is the two parts in a row. -/
theorem opsC7_split : (opsC7 (F := F)) = opsC7A ++ opsC7B := rfl

set_option maxRecDepth 8192 in
set_option maxHeartbeats 40000000 in
/-- The z column: the cell plus the offset, clipped, wrapped, as a column. -/
theorem opsC7A_colz (W : Valuation τ sig (Elt F)) :
    after (opsC7A (F := F)) W (Proc.devRef .tc main_v533)
      = colV (wrapV (clipV (addi (W (Proc.devRef .tc main_v38)) (splatI 1#32)))) := by
  after_results_simp <;> rfl

set_option maxRecDepth 8192 in
set_option maxHeartbeats 40000000 in
/-- The y column. -/
theorem opsC7A_coly (W : Valuation τ sig (Elt F)) :
    after (opsC7A (F := F)) W (Proc.devRef .tc main_v534)
      = colV (wrapV (clipV (addi (W (Proc.devRef .tc main_v37)) (splatI 1#32)))) := by
  after_results_simp <;> rfl

set_option maxRecDepth 8192 in
set_option maxHeartbeats 40000000 in
/-- The x column. -/
theorem opsC7A_colx (W : Valuation τ sig (Elt F)) :
    after (opsC7A (F := F)) W (Proc.devRef .tc main_v535)
      = colV (wrapV (clipV (addi (W (Proc.devRef .tc main_v36)) (splatI 1#32)))) := by
  after_results_simp <;> rfl

set_option maxRecDepth 8192 in
set_option maxHeartbeats 40000000 in
/-- The product of the three axis weights. -/
theorem opsC7A_weight (W : Valuation τ sig (Elt F)) :
    after (opsC7A (F := F)) W (Proc.devRef .tc main_v497)
      = mulf (mulf (pickV (F := F) 1#32 (W (Proc.devRef .tc main_v33))) (pickV (F := F) 1#32 (W (Proc.devRef .tc main_v34))))
          (pickV (F := F) 1#32 (W (Proc.devRef .tc main_v35))) := by
  after_results_simp <;> rfl

set_option maxRecDepth 8192 in
set_option maxHeartbeats 40000000 in
/-- The bit saying the three coordinates lie in [0, 64). -/
theorem opsC7A_valid (W : Valuation τ sig (Elt F)) :
    after (opsC7A (F := F)) W (Proc.devRef .tc main_v514)
      = validV (addi (W (Proc.devRef .tc main_v36)) (splatI 1#32)) (addi (W (Proc.devRef .tc main_v37)) (splatI 1#32))
          (addi (W (Proc.devRef .tc main_v38)) (splatI 1#32)) := by
  after_results_simp <;> rfl

set_option maxRecDepth 8192 in
set_option maxHeartbeats 40000000 in
/-- The first part does not write the previous sum's buffer. -/
theorem opsC7A_prev (W : Valuation τ sig (Elt F)) :
    after (opsC7A (F := F)) W (Proc.devRef .tc main_v480)
      = W (Proc.devRef .tc main_v480) := by
  after_results_simp <;> rfl

set_option maxRecDepth 8192 in
set_option maxHeartbeats 40000000 in
/-- The first part does not write the grid's buffer. -/
theorem opsC7A_grid (W : Valuation τ sig (Elt F)) :
    after (opsC7A (F := F)) W (Proc.devRef .tc main_arg1)
      = W (Proc.devRef .tc main_arg1) := by
  after_results_simp <;> rfl

set_option maxRecDepth 8192 in
set_option maxHeartbeats 40000000 in
/-- The second part: the previous sum plus the gathered grid times the masked weight, over the buffers it finds. -/
theorem opsC7B_sum (W : Valuation τ sig (Elt F)) :
    after (opsC7B (F := F)) W (Proc.devRef .tc main_v543)
      = addf (W (Proc.devRef .tc main_v480))
          (mulf (Host.gather gather_S3x64x64x64_S32x131072x3_S3x32x131072_0_123_n_n_123_2_3111 (W (Proc.devRef .tc main_arg1))
              (concatenate S32x131072x3 2 [⟨S32x131072x1, (W (Proc.devRef .tc main_v533))⟩, ⟨S32x131072x1, (W (Proc.devRef .tc main_v534))⟩,
                ⟨S32x131072x1, (W (Proc.devRef .tc main_v535))⟩] concatenates_S32x131072x1_S32x131072x1_S32x131072x1_S32x131072x3_d2))
            (spreadV (mulf (W (Proc.devRef .tc main_v497)) (uitofp .f32 (W (Proc.devRef .tc main_v514)))))) := by
  after_results_simp3 <;> rfl

set_option maxRecDepth 8192 in
set_option maxHeartbeats 40000000 in
/-- After the corner's operations the next sum buffer holds the previous sum plus the corner. -/
theorem opsC7_sum (W : Valuation τ sig (Elt F)) :
    after (opsC7 (F := F)) W (Proc.devRef .tc main_v543)
      = addf (W (Proc.devRef .tc main_v480))
          (Cert.RefCorner.cornerStage (F := F) 1#32 1#32 1#32 (W (Proc.devRef .tc main_v36)) (W (Proc.devRef .tc main_v37))
            (W (Proc.devRef .tc main_v38)) (W (Proc.devRef .tc main_v33)) (W (Proc.devRef .tc main_v34))
            (W (Proc.devRef .tc main_v35)) (W (Proc.devRef .tc main_arg1))) := by
  rw [opsC7_split, StableHlo.after_append, opsC7B_sum, opsC7A_prev, opsC7A_grid, opsC7A_colz, opsC7A_coly,
    opsC7A_colx, opsC7A_weight, opsC7A_valid]
  rfl

end Cert.RefRun

end
-- ==== Proof.RefCorners.lean ====
/-
  The eight corners the program computes are ONE function of the three cell arrays, the three arrays of fractional
  parts and the grid, taken at the eight offset triples (dx, dy, dz) in {0, 1}³ with dz running fastest. A printed
  corner and that function are the same composition of the same operations: the offsets added to the cells, per axis
  the weight chosen by the offset (t where it is not zero, 1 - t where it is), the six comparisons joined in the order
  x ≥ 0, x < 64, y ≥ 0, y < 64, z ≥ 0, z < 64, the three coordinates clipped into [0, 63], wrapped and joined in the
  order z, y, x, the grid gathered there, and the product with the masked weight spread over the channels. The
  corners differ from one another only in the offset constants, so each equation holds by unfolding the definitions
  on both sides.
-/
import proofs.«174278_j48524540510565_1_alg».proof.Proof.ReadP
import proofs.«174278_j48524540510565_1_alg».proof.Proof.RefCornerDef

noncomputable section

namespace Cert.RefValue

open Idealize.ShloMosaic Cert.ReferenceIdeal Cert.ReferenceIdeal.Read Cert.RefCorner

variable {F : FTy → Type} [FloatOps F]

/-- Corner (0, 0, 0): the stages %40 … %101. -/
theorem corner0_eq (x0 : (⟨S32x131072x3, .f32⟩ : BufTy).Contents (Elt F)) (x1 : (⟨S3x64x64x64, .f32⟩ : BufTy).Contents (Elt F)) :
    val_main_v101 (F := F) x0 x1 = cornerStage (F := F) 0#32 0#32 0#32 (val_main_v36 (F := F) x0) (val_main_v37 (F := F) x0)
      (val_main_v38 (F := F) x0) (val_main_v33 (F := F) x0) (val_main_v34 (F := F) x0) (val_main_v35 (F := F) x0) x1 := rfl

/-- Corner (0, 0, 1): the stages %103 … %164. -/
theorem corner1_eq (x0 : (⟨S32x131072x3, .f32⟩ : BufTy).Contents (Elt F)) (x1 : (⟨S3x64x64x64, .f32⟩ : BufTy).Contents (Elt F)) :
    val_main_v164 (F := F) x0 x1 = cornerStage (F := F) 0#32 0#32 1#32 (val_main_v36 (F := F) x0) (val_main_v37 (F := F) x0)
      (val_main_v38 (F := F) x0) (val_main_v33 (F := F) x0) (val_main_v34 (F := F) x0) (val_main_v35 (F := F) x0) x1 := rfl

/-- Corner (0, 1, 0): the stages %166 … %227. -/
theorem corner2_eq (x0 : (⟨S32x131072x3, .f32⟩ : BufTy).Contents (Elt F)) (x1 : (⟨S3x64x64x64, .f32⟩ : BufTy).Contents (Elt F)) :
    val_main_v227 (F := F) x0 x1 = cornerStage (F := F) 0#32 1#32 0#32 (val_main_v36 (F := F) x0) (val_main_v37 (F := F) x0)
      (val_main_v38 (F := F) x0) (val_main_v33 (F := F) x0) (val_main_v34 (F := F) x0) (val_main_v35 (F := F) x0) x1 := rfl

/-- Corner (0, 1, 1): the stages %229 … %290. -/
theorem corner3_eq (x0 : (⟨S32x131072x3, .f32⟩ : BufTy).Contents (Elt F)) (x1 : (⟨S3x64x64x64, .f32⟩ : BufTy).Contents (Elt F)) :
    val_main_v290 (F := F) x0 x1 = cornerStage (F := F) 0#32 1#32 1#32 (val_main_v36 (F := F) x0) (val_main_v37 (F := F) x0)
      (val_main_v38 (F := F) x0) (val_main_v33 (F := F) x0) (val_main_v34 (F := F) x0) (val_main_v35 (F := F) x0) x1 := rfl

/-- Corner (1, 0, 0): the stages %292 … %353. -/
theorem corner4_eq (x0 : (⟨S32x131072x3, .f32⟩ : BufTy).Contents (Elt F)) (x1 : (⟨S3x64x64x64, .f32⟩ : BufTy).Contents (Elt F)) :
    val_main_v353 (F := F) x0 x1 = cornerStage (F := F) 1#32 0#32 0#32 (val_main_v36 (F := F) x0) (val_main_v37 (F := F) x0)
      (val_main_v38 (F := F) x0) (val_main_v33 (F := F) x0) (val_main_v34 (F := F) x0) (val_main_v35 (F := F) x0) x1 := rfl

/-- Corner (1, 0, 1): the stages %355 … %416. -/
theorem corner5_eq (x0 : (⟨S32x131072x3, .f32⟩ : BufTy).Contents (Elt F)) (x1 : (⟨S3x64x64x64, .f32⟩ : BufTy).Contents (Elt F)) :
    val_main_v416 (F := F) x0 x1 = cornerStage (F := F) 1#32 0#32 1#32 (val_main_v36 (F := F) x0) (val_main_v37 (F := F) x0)
      (val_main_v38 (F := F) x0) (val_main_v33 (F := F) x0) (val_main_v34 (F := F) x0) (val_main_v35 (F := F) x0) x1 := rfl

/-- Corner (1, 1, 0): the stages %418 … %479. -/
theorem corner6_eq (x0 : (⟨S32x131072x3, .f32⟩ : BufTy).Contents (Elt F)) (x1 : (⟨S3x64x64x64, .f32⟩ : BufTy).Contents (Elt F)) :
    val_main_v479 (F := F) x0 x1 = cornerStage (F := F) 1#32 1#32 0#32 (val_main_v36 (F := F) x0) (val_main_v37 (F := F) x0)
      (val_main_v38 (F := F) x0) (val_main_v33 (F := F) x0) (val_main_v34 (F := F) x0) (val_main_v35 (F := F) x0) x1 := rfl

/-- Corner (1, 1, 1): the stages %481 … %542. -/
theorem corner7_eq (x0 : (⟨S32x131072x3, .f32⟩ : BufTy).Contents (Elt F)) (x1 : (⟨S3x64x64x64, .f32⟩ : BufTy).Contents (Elt F)) :
    val_main_v542 (F := F) x0 x1 = cornerStage (F := F) 1#32 1#32 1#32 (val_main_v36 (F := F) x0) (val_main_v37 (F := F) x0)
      (val_main_v38 (F := F) x0) (val_main_v33 (F := F) x0) (val_main_v34 (F := F) x0) (val_main_v35 (F := F) x0) x1 := rfl

end Cert.RefValue

end
-- ==== Proof.RefRun.lean ====
/-
  The eight-corner program's run, assembled from its ten stretches.

  The program is a straight line of operations: a first stretch computes, from the point array, the three arrays of
  fractional parts, the three arrays of cells and the zero the sum starts from; eight stretches, one per corner
  (dx, dy, dz), each add that corner — a function of those six arrays and of the grid — to the running sum; a last
  stretch transposes the sum to the points' layout and adds the point array. No stretch after the first writes the two
  argument buffers or the six arrays, so each corner's stretch finds them as the first stretch left them, and the
  running sum after corner q is the q-th partial sum of the stages. The buffers' contents after the whole line are the
  contents after the stretches one after the other.
-/
import proofs.«174278_j48524540510565_1_alg».proof.Proof.RefRunMain
import proofs.«174278_j48524540510565_1_alg».proof.Proof.RefRunPS
import proofs.«174278_j48524540510565_1_alg».proof.Proof.RefRunC0S
import proofs.«174278_j48524540510565_1_alg».proof.Proof.RefRunC1S
import proofs.«174278_j48524540510565_1_alg».proof.Proof.RefRunC2S
import proofs.«174278_j48524540510565_1_alg».proof.Proof.RefRunC3S
import proofs.«174278_j48524540510565_1_alg».proof.Proof.RefRunC4S
import proofs.«174278_j48524540510565_1_alg».proof.Proof.RefRunC5S
import proofs.«174278_j48524540510565_1_alg».proof.Proof.RefRunC6S
import proofs.«174278_j48524540510565_1_alg».proof.Proof.RefRunC7S
import proofs.«174278_j48524540510565_1_alg».proof.Proof.RefRunT
import proofs.«174278_j48524540510565_1_alg».proof.Proof.RefCorners
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- What every stretch after the first finds and leaves: the two argument buffers at `x0` and `x1`, and the six buffers
    of fractional parts and cells at their stages of `x0`. -/
structure Mid (x0 : (⟨S32x131072x3, .f32⟩ : BufTy).Contents (Elt F)) (x1 : (⟨S3x64x64x64, .f32⟩ : BufTy).Contents (Elt F))
    (W : Valuation τ sig (Elt F)) : Prop where
  arg0 : W (Proc.devRef .tc main_arg0) = x0
  arg1 : W (Proc.devRef .tc main_arg1) = x1
  v33 : W (Proc.devRef .tc main_v33) = val_main_v33 (F := F) x0
  v34 : W (Proc.devRef .tc main_v34) = val_main_v34 (F := F) x0
  v35 : W (Proc.devRef .tc main_v35) = val_main_v35 (F := F) x0
  v36 : W (Proc.devRef .tc main_v36) = val_main_v36 (F := F) x0
  v37 : W (Proc.devRef .tc main_v37) = val_main_v37 (F := F) x0
  v38 : W (Proc.devRef .tc main_v38) = val_main_v38 (F := F) x0

/-- Contents that agree with `W` on the eight buffers have them at the same values. -/
theorem Mid.keep {x0 : (⟨S32x131072x3, .f32⟩ : BufTy).Contents (Elt F)} {x1 : (⟨S3x64x64x64, .f32⟩ : BufTy).Contents (Elt F)}
    {W W' : Valuation τ sig (Elt F)} (h : Mid x0 x1 W)
    (k0 : W' (Proc.devRef .tc main_arg0) = W (Proc.devRef .tc main_arg0))
    (k1 : W' (Proc.devRef .tc main_arg1) = W (Proc.devRef .tc main_arg1))
    (k33 : W' (Proc.devRef .tc main_v33) = W (Proc.devRef .tc main_v33))
    (k34 : W' (Proc.devRef .tc main_v34) = W (Proc.devRef .tc main_v34))
    (k35 : W' (Proc.devRef .tc main_v35) = W (Proc.devRef .tc main_v35))
    (k36 : W' (Proc.devRef .tc main_v36) = W (Proc.devRef .tc main_v36))
    (k37 : W' (Proc.devRef .tc main_v37) = W (Proc.devRef .tc main_v37))
    (k38 : W' (Proc.devRef .tc main_v38) = W (Proc.devRef .tc main_v38)) : Mid x0 x1 W' :=
  ⟨k0.trans h.arg0, k1.trans h.arg1, k33.trans h.v33, k34.trans h.v34, k35.trans h.v35, k36.trans h.v36, k37.trans h.v37,
    k38.trans h.v38⟩

/-- A running sum `S` plus a corner of the buffers' contents is `S` plus the corner of the stages of `x0` and of `x1`. -/
theorem Mid.sum_corner {x0 : (⟨S32x131072x3, .f32⟩ : BufTy).Contents (Elt F)} {x1 : (⟨S3x64x64x64, .f32⟩ : BufTy).Contents (Elt F)}
    {W : Valuation τ sig (Elt F)} (h : Mid x0 x1 W) (dx dy dz : BitVec 32)
    {P : (⟨S3x32x131072, .f32⟩ : BufTy).Contents (Elt F)} {S : (⟨S3x32x131072, .f32⟩ : BufTy).Contents (Elt F)} (hs : P = S) :
    addf P (Cert.RefCorner.cornerStage (F := F) dx dy dz (W (Proc.devRef .tc main_v36)) (W (Proc.devRef .tc main_v37))
        (W (Proc.devRef .tc main_v38)) (W (Proc.devRef .tc main_v33)) (W (Proc.devRef .tc main_v34))
        (W (Proc.devRef .tc main_v35)) (W (Proc.devRef .tc main_arg1)))
      = addf S (Cert.RefCorner.cornerStage (F := F) dx dy dz (val_main_v36 (F := F) x0) (val_main_v37 (F := F) x0)
          (val_main_v38 (F := F) x0) (val_main_v33 (F := F) x0) (val_main_v34 (F := F) x0) (val_main_v35 (F := F) x0) x1) := by
  rw [hs, h.v36, h.v37, h.v38, h.v33, h.v34, h.v35, h.arg1]

/-- After the stretch before the first corner, from any contents `V`: the eight buffers at the stages of `V`'s two
    argument buffers. -/
theorem prefix_step (V : Valuation τ sig (Elt F)) :
    Mid (V (Proc.devRef .tc main_arg0)) (V (Proc.devRef .tc main_arg1)) (after (opsP (F := F)) V) :=
  ⟨opsP_arg0 V, opsP_arg1 V, opsP_v33 V, opsP_v34 V, opsP_v35 V, opsP_v36 V, opsP_v37 V, opsP_v38 V⟩

/-- After corner (0, 0, 0)'s stretch: the nine buffers as before, and the running sum with this corner added. -/
theorem corner0_step {x0 : (⟨S32x131072x3, .f32⟩ : BufTy).Contents (Elt F)} {x1 : (⟨S3x64x64x64, .f32⟩ : BufTy).Contents (Elt F)}
    {W : Valuation τ sig (Elt F)} (h : Mid x0 x1 W)
    (hs : W (Proc.devRef .tc main_v39) = val_main_v39 (F := F)) :
    Mid x0 x1 (after (opsC0 (F := F)) W)
      ∧ after (opsC0 (F := F)) W (Proc.devRef .tc main_v102) = val_main_v102 (F := F) x0 x1 :=
  ⟨h.keep (opsC0_arg0 W) (opsC0_arg1 W) (opsC0_v33 W) (opsC0_v34 W) (opsC0_v35 W) (opsC0_v36 W) (opsC0_v37 W)
      (opsC0_v38 W),
    (opsC0_sum W).trans ((h.sum_corner 0#32 0#32 0#32 hs).trans
      (congrArg (addf (val_main_v39 (F := F))) (Cert.RefValue.corner0_eq x0 x1).symm))⟩

/-- After corner (0, 0, 1)'s stretch: the nine buffers as before, and the running sum with this corner added. -/
theorem corner1_step {x0 : (⟨S32x131072x3, .f32⟩ : BufTy).Contents (Elt F)} {x1 : (⟨S3x64x64x64, .f32⟩ : BufTy).Contents (Elt F)}
    {W : Valuation τ sig (Elt F)} (h : Mid x0 x1 W)
    (hs : W (Proc.devRef .tc main_v102) = val_main_v102 (F := F) x0 x1) :
    Mid x0 x1 (after (opsC1 (F := F)) W)
      ∧ after (opsC1 (F := F)) W (Proc.devRef .tc main_v165) = val_main_v165 (F := F) x0 x1 :=
  ⟨h.keep (opsC1_arg0 W) (opsC1_arg1 W) (opsC1_v33 W) (opsC1_v34 W) (opsC1_v35 W) (opsC1_v36 W) (opsC1_v37 W)
      (opsC1_v38 W),
    (opsC1_sum W).trans ((h.sum_corner 0#32 0#32 1#32 hs).trans
      (congrArg (addf (val_main_v102 (F := F) x0 x1)) (Cert.RefValue.corner1_eq x0 x1).symm))⟩

/-- After corner (0, 1, 0)'s stretch: the nine buffers as before, and the running sum with this corner added. -/
theorem corner2_step {x0 : (⟨S32x131072x3, .f32⟩ : BufTy).Contents (Elt F)} {x1 : (⟨S3x64x64x64, .f32⟩ : BufTy).Contents (Elt F)}
    {W : Valuation τ sig (Elt F)} (h : Mid x0 x1 W)
    (hs : W (Proc.devRef .tc main_v165) = val_main_v165 (F := F) x0 x1) :
    Mid x0 x1 (after (opsC2 (F := F)) W)
      ∧ after (opsC2 (F := F)) W (Proc.devRef .tc main_v228) = val_main_v228 (F := F) x0 x1 :=
  ⟨h.keep (opsC2_arg0 W) (opsC2_arg1 W) (opsC2_v33 W) (opsC2_v34 W) (opsC2_v35 W) (opsC2_v36 W) (opsC2_v37 W)
      (opsC2_v38 W),
    (opsC2_sum W).trans ((h.sum_corner 0#32 1#32 0#32 hs).trans
      (congrArg (addf (val_main_v165 (F := F) x0 x1)) (Cert.RefValue.corner2_eq x0 x1).symm))⟩

/-- After corner (0, 1, 1)'s stretch: the nine buffers as before, and the running sum with this corner added. -/
theorem corner3_step {x0 : (⟨S32x131072x3, .f32⟩ : BufTy).Contents (Elt F)} {x1 : (⟨S3x64x64x64, .f32⟩ : BufTy).Contents (Elt F)}
    {W : Valuation τ sig (Elt F)} (h : Mid x0 x1 W)
    (hs : W (Proc.devRef .tc main_v228) = val_main_v228 (F := F) x0 x1) :
    Mid x0 x1 (after (opsC3 (F := F)) W)
      ∧ after (opsC3 (F := F)) W (Proc.devRef .tc main_v291) = val_main_v291 (F := F) x0 x1 :=
  ⟨h.keep (opsC3_arg0 W) (opsC3_arg1 W) (opsC3_v33 W) (opsC3_v34 W) (opsC3_v35 W) (opsC3_v36 W) (opsC3_v37 W)
      (opsC3_v38 W),
    (opsC3_sum W).trans ((h.sum_corner 0#32 1#32 1#32 hs).trans
      (congrArg (addf (val_main_v228 (F := F) x0 x1)) (Cert.RefValue.corner3_eq x0 x1).symm))⟩

/-- After corner (1, 0, 0)'s stretch: the nine buffers as before, and the running sum with this corner added. -/
theorem corner4_step {x0 : (⟨S32x131072x3, .f32⟩ : BufTy).Contents (Elt F)} {x1 : (⟨S3x64x64x64, .f32⟩ : BufTy).Contents (Elt F)}
    {W : Valuation τ sig (Elt F)} (h : Mid x0 x1 W)
    (hs : W (Proc.devRef .tc main_v291) = val_main_v291 (F := F) x0 x1) :
    Mid x0 x1 (after (opsC4 (F := F)) W)
      ∧ after (opsC4 (F := F)) W (Proc.devRef .tc main_v354) = val_main_v354 (F := F) x0 x1 :=
  ⟨h.keep (opsC4_arg0 W) (opsC4_arg1 W) (opsC4_v33 W) (opsC4_v34 W) (opsC4_v35 W) (opsC4_v36 W) (opsC4_v37 W)
      (opsC4_v38 W),
    (opsC4_sum W).trans ((h.sum_corner 1#32 0#32 0#32 hs).trans
      (congrArg (addf (val_main_v291 (F := F) x0 x1)) (Cert.RefValue.corner4_eq x0 x1).symm))⟩

/-- After corner (1, 0, 1)'s stretch: the nine buffers as before, and the running sum with this corner added. -/
theorem corner5_step {x0 : (⟨S32x131072x3, .f32⟩ : BufTy).Contents (Elt F)} {x1 : (⟨S3x64x64x64, .f32⟩ : BufTy).Contents (Elt F)}
    {W : Valuation τ sig (Elt F)} (h : Mid x0 x1 W)
    (hs : W (Proc.devRef .tc main_v354) = val_main_v354 (F := F) x0 x1) :
    Mid x0 x1 (after (opsC5 (F := F)) W)
      ∧ after (opsC5 (F := F)) W (Proc.devRef .tc main_v417) = val_main_v417 (F := F) x0 x1 :=
  ⟨h.keep (opsC5_arg0 W) (opsC5_arg1 W) (opsC5_v33 W) (opsC5_v34 W) (opsC5_v35 W) (opsC5_v36 W) (opsC5_v37 W)
      (opsC5_v38 W),
    (opsC5_sum W).trans ((h.sum_corner 1#32 0#32 1#32 hs).trans
      (congrArg (addf (val_main_v354 (F := F) x0 x1)) (Cert.RefValue.corner5_eq x0 x1).symm))⟩

/-- After corner (1, 1, 0)'s stretch: the nine buffers as before, and the running sum with this corner added. -/
theorem corner6_step {x0 : (⟨S32x131072x3, .f32⟩ : BufTy).Contents (Elt F)} {x1 : (⟨S3x64x64x64, .f32⟩ : BufTy).Contents (Elt F)}
    {W : Valuation τ sig (Elt F)} (h : Mid x0 x1 W)
    (hs : W (Proc.devRef .tc main_v417) = val_main_v417 (F := F) x0 x1) :
    Mid x0 x1 (after (opsC6 (F := F)) W)
      ∧ after (opsC6 (F := F)) W (Proc.devRef .tc main_v480) = val_main_v480 (F := F) x0 x1 :=
  ⟨h.keep (opsC6_arg0 W) (opsC6_arg1 W) (opsC6_v33 W) (opsC6_v34 W) (opsC6_v35 W) (opsC6_v36 W) (opsC6_v37 W)
      (opsC6_v38 W),
    (opsC6_sum W).trans ((h.sum_corner 1#32 1#32 0#32 hs).trans
      (congrArg (addf (val_main_v417 (F := F) x0 x1)) (Cert.RefValue.corner6_eq x0 x1).symm))⟩

/-- After corner (1, 1, 1)'s stretch: the nine buffers as before, and the running sum with this corner added. -/
theorem corner7_step {x0 : (⟨S32x131072x3, .f32⟩ : BufTy).Contents (Elt F)} {x1 : (⟨S3x64x64x64, .f32⟩ : BufTy).Contents (Elt F)}
    {W : Valuation τ sig (Elt F)} (h : Mid x0 x1 W)
    (hs : W (Proc.devRef .tc main_v480) = val_main_v480 (F := F) x0 x1) :
    Mid x0 x1 (after (opsC7 (F := F)) W)
      ∧ after (opsC7 (F := F)) W (Proc.devRef .tc main_v543) = val_main_v543 (F := F) x0 x1 :=
  ⟨h.keep (opsC7_arg0 W) (opsC7_arg1 W) (opsC7_v33 W) (opsC7_v34 W) (opsC7_v35 W) (opsC7_v36 W) (opsC7_v37 W)
      (opsC7_v38 W),
    (opsC7_sum W).trans ((h.sum_corner 1#32 1#32 1#32 hs).trans
      (congrArg (addf (val_main_v480 (F := F) x0 x1)) (Cert.RefValue.corner7_eq x0 x1).symm))⟩

/-- The whole list as its ten stretches, one after the other. -/
theorem after_stretches (V : Valuation τ sig (Elt F)) :
    after (opsAll (F := F)) V
      = after (opsT (F := F)) (after (opsC7 (F := F)) (after (opsC6 (F := F)) (after (opsC5 (F := F)) (after (opsC4 (F := F))
          (after (opsC3 (F := F)) (after (opsC2 (F := F)) (after (opsC1 (F := F)) (after (opsC0 (F := F))
            (after (opsP (F := F)) V))))))))) := by
  show after (opsP ++ (opsC0 ++ (opsC1 ++ (opsC2 ++ (opsC3 ++ (opsC4 ++ (opsC5 ++ (opsC6 ++ (opsC7 ++ opsT))))))))) V = _
  rw [StableHlo.after_append, StableHlo.after_append, StableHlo.after_append, StableHlo.after_append, StableHlo.after_append,
    StableHlo.after_append, StableHlo.after_append, StableHlo.after_append, StableHlo.after_append]

/-- The whole list from any contents `V`: the result buffer ends at the last stage of `V`'s two argument buffers, which
    end as they were. -/
theorem after_opsAll (V : Valuation τ sig (Elt F)) :
    after (opsAll (F := F)) V (Proc.devRef .tc main_v545)
        = val_main_v545 (F := F) (V (Proc.devRef .tc main_arg0)) (V (Proc.devRef .tc main_arg1))
      ∧ after (opsAll (F := F)) V (Proc.devRef .tc main_arg0) = V (Proc.devRef .tc main_arg0)
      ∧ after (opsAll (F := F)) V (Proc.devRef .tc main_arg1) = V (Proc.devRef .tc main_arg1) := by
  have h0 := prefix_step V
  obtain ⟨h1, s1⟩ := corner0_step h0 (opsP_v39 V)
  obtain ⟨h2, s2⟩ := corner1_step h1 s1
  obtain ⟨h3, s3⟩ := corner2_step h2 s2
  obtain ⟨h4, s4⟩ := corner3_step h3 s3
  obtain ⟨h5, s5⟩ := corner4_step h4 s4
  obtain ⟨h6, s6⟩ := corner5_step h5 s5
  obtain ⟨h7, s7⟩ := corner6_step h6 s6
  obtain ⟨h8, s8⟩ := corner7_step h7 s7
  rw [after_stretches V]
  refine ⟨?_, (opsT_arg0 _).trans h8.arg0, (opsT_arg1 _).trans h8.arg1⟩
  rw [opsT_v545, h8.arg0, s8]
  rfl

/-- On every device, from any memory with zero counters: every weakly fair execution of the eight-corner program
    terminates with its result buffer at the last stage of the two argument buffers, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v545)
          = val_main_v545 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v545).trans (after_opsAll (launchContents m c)).1,
      (h c main_arg0).trans (after_opsAll (launchContents m c)).2.1,
      (h c main_arg1).trans (after_opsAll (launchContents m c)).2.2⟩)
    (run_seq scopedRefs_eq scopedSems_eq defs main (fun _ => opsAll) main_eq (fun _ => opsAll_sub) m ρ
      (hfresh := fun _ => opsAll_fresh))

end Cert.RefRun

end
-- ==== Proof.Words.lean ====
/-
  Facts about 32-bit words read as grid coordinates: a lane number below 64 equals a word exactly when the word, read
  unsigned, is that number; a sum over the 64 lanes of a term present at one word's lane; inside [0, 64) the clip to
  [0, 63] and the negative-index wrap change nothing, so a gather reads at the word itself; and the six signed
  comparisons that say "all three coordinates lie in [0, 64)", joined by `and`, are the product of three 0/1 factors.
-/
import proofs.«174278_j48524540510565_1_alg».proof.Proof.Spec

open scoped BigOperators

noncomputable section
namespace Cert.Tri
open Idealize.ShloMosaic

/-- A lane number below 64 is the word `a` exactly when `a`, read unsigned, is that number. -/
theorem lane_eq_iff (k : Fin 64) (a : BitVec 32) : BitVec.ofNat 32 k.val = a ↔ a.toNat = k.val := by
  constructor
  · intro h; subst h; simp [BitVec.toNat_ofNat]; omega
  · intro h; apply BitVec.eq_of_toNat_eq; simp [BitVec.toNat_ofNat, h]; omega

/-- A sum over the 64 lanes of a term present at the one lane equal to the word `a`. -/
theorem sum_lane (a : BitVec 32) (x : ℝ) (F : Fin 64 → ℝ) :
    ∑ k : Fin 64, (if BitVec.ofNat 32 k.val = a then x else 0) * F k
      = if h : a.toNat < 64 then x * F ⟨a.toNat, h⟩ else 0 := by
  by_cases h : a.toNat < 64
  · rw [dif_pos h, Finset.sum_eq_single (⟨a.toNat, h⟩ : Fin 64)]
    · rw [if_pos ((lane_eq_iff _ a).2 rfl)]
    · intro k _ hk
      rw [if_neg (fun e => hk (Fin.ext ((lane_eq_iff k a).1 e).symm)), zero_mul]
    · intro h'; exact absurd (Finset.mem_univ _) h'
  · rw [dif_neg h]
    apply Finset.sum_eq_zero
    intro k _
    rw [if_neg (fun e => h (by rw [(lane_eq_iff k a).1 e]; exact k.isLt)), zero_mul]

/-- The signed reading of a word below 64 is its unsigned reading. -/
theorem toInt_of_lt (a : BitVec 32) (h : a.toNat < 64) : a.toInt = (a.toNat : Int) := by
  rw [BitVec.toInt_eq_toNat_cond]; split <;> omega

/-- A word lies in [0, 64) read signed exactly when it is below 64 read unsigned. -/
theorem inrange_iff (a : BitVec 32) : (0 ≤ a.toInt ∧ a.toInt < 64) ↔ a.toNat < 64 := by
  rw [BitVec.toInt_eq_toNat_cond]
  have := a.isLt
  split <;> omega

end Cert.Tri
end

noncomputable section
namespace Cert.Tri
open Idealize.ShloMosaic

/-- Inside [0, 64) the clip and the wrap change nothing, and the gather reads at the word itself. -/
theorem gidx_of_lt (a : BitVec 32) (h : a.toNat < 64) : gidx a = ⟨a.toNat, h⟩ := by
  have hi := toInt_of_lt a h
  have h0 : (0#32 : BitVec 32).toInt = 0 := by decide
  have h63 : (63#32 : BitVec 32).toInt = 63 := by decide
  have hmax : IntOp.maxsi 0#32 a = a := by
    unfold IntOp.maxsi
    rw [if_neg]; simp only [BitVec.slt, h0, hi, decide_eq_true_eq]; omega
  have hmin : IntOp.minsi 63#32 a = a := by
    unfold IntOp.minsi
    rw [if_neg]; simp only [BitVec.slt, h63, hi, decide_eq_true_eq]; omega
  have hwrap : wrap64 a = a := by
    unfold wrap64 Scalar.select IntOp.cmpi
    have : a.slt 0#32 = false := by simp only [BitVec.slt, h0, hi, decide_eq_false_iff_not]; omega
    simp only [this]
    rw [if_neg (by decide)]
  apply Fin.ext
  show min (wrap64 (clip63 a)).toInt.toNat 63 = a.toNat
  unfold clip63
  rw [hmax, hmin, hwrap, hi]
  omega

/-- The 0/1 factor of one coordinate: 1 inside [0, 64), else 0. -/
def inb (a : BitVec 32) : ℝ := if a.toNat < 64 then 1 else 0

theorem andi_ofBool (p q : Bool) : IntOp.andi (BitVec.ofBool p) (BitVec.ofBool q) = BitVec.ofBool (p && q) := by
  cases p <;> cases q <;> rfl

theorem ofBool_toNat_real (p : Bool) : ((BitVec.ofBool p).toNat : ℝ) = if p then 1 else 0 := by
  cases p <;> simp

theorem inr_bool (a : BitVec 32) : ((0#32 : BitVec 32).sle a && a.slt 64#32) = decide (a.toNat < 64) := by
  have h0 : (0#32 : BitVec 32).toInt = 0 := by decide
  have h64 : (64#32 : BitVec 32).toInt = 64 := by decide
  have := inrange_iff a
  simp only [BitVec.sle, BitVec.slt, h0, h64]
  by_cases h : a.toNat < 64
  · have := this.2 h; simp [h, this.1, this.2]
  · have hn : ¬ (0 ≤ a.toInt ∧ a.toInt < 64) := fun hh => h (this.1 hh)
    simp only [h, decide_false]
    by_cases h1 : 0 ≤ a.toInt
    · have : ¬ a.toInt < 64 := fun h2 => hn ⟨h1, h2⟩
      simp [h1, this]
    · simp [h1]

/-- The six comparisons joined: the product of the three coordinates' 0/1 factors. -/
theorem validb_real (x y z : BitVec 32) : (((validb x y z).toNat : ℝ)) = inb x * inb y * inb z := by
  unfold validb IntOp.cmpi
  simp only [andi_ofBool, ofBool_toNat_real]
  have hx := inr_bool x; have hy := inr_bool y; have hz := inr_bool z
  have e : ∀ b1 b2 b3 b4 b5 b6 : Bool,
      (((((b1 && b2) && b3) && b4) && b5) && b6) = (((b1 && b2) && (b3 && b4)) && (b5 && b6)) := by decide
  rw [e, hx, hy, hz]
  unfold inb
  by_cases h1 : x.toNat < 64 <;> by_cases h2 : y.toNat < 64 <;> by_cases h3 : z.toNat < 64 <;> simp [h1, h2, h3]

end Cert.Tri
end
-- ==== Proof.Interp.lean ====
/-
  The heart of the certificate, over the reals. A lane sum against a two-hot weight vector keeps two entries — the
  cell's, weighted 1 - t, and the next one's, weighted t — each only if its word lies in [0, 64), where the gather's
  clipped position is the word itself. Doing this on the three axes in turn and multiplying out (distributivity, which
  is why the inputs must be real) turns the three nested lane sums into the eight corners' sum.
-/
import proofs.«174278_j48524540510565_1_alg».proof.Proof.Words

open scoped BigOperators

noncomputable section
namespace Cert.Tri
open Idealize.ShloMosaic

/-! # The two-hot contraction is the eight-corner sum, over the reals -/

/-- Lane `k`'s weight, over the reals. -/
def hotR (i0 : BitVec 32) (f : ℝ) (k : Fin 64) : ℝ :=
  (if BitVec.ofNat 32 k.val = i0 then 1 - f else 0) + (if BitVec.ofNat 32 k.val = i0 + 1#32 then f else 0)

/-- One term of a lane sum: present when the word is below 64, at that lane. -/
theorem lane_term (a : BitVec 32) (x : ℝ) (F : Fin 64 → ℝ) :
    (if h : a.toNat < 64 then x * F ⟨a.toNat, h⟩ else 0) = x * inb a * F (gidx a) := by
  unfold inb
  by_cases h : a.toNat < 64
  · rw [dif_pos h, if_pos h, gidx_of_lt a h, mul_one]
  · rw [dif_neg h, if_neg h, mul_zero, zero_mul]

/-- A lane sum against the two-hot weights keeps two entries: the cell's with 1 - f and the next one's with f,
    each only if its word lies in [0, 64). -/
theorem hot_sum (i0 : BitVec 32) (f : ℝ) (F : Fin 64 → ℝ) :
    ∑ k : Fin 64, hotR i0 f k * F k
      = (1 - f) * inb i0 * F (gidx i0) + f * inb (i0 + 1#32) * F (gidx (i0 + 1#32)) := by
  unfold hotR
  simp only [add_mul]
  rw [Finset.sum_add_distrib, sum_lane, sum_lane, lane_term, lane_term]

theorem hot_sum' (i0 : BitVec 32) (f : ℝ) (F : Fin 64 → ℝ) :
    ∑ k : Fin 64, F k * hotR i0 f k
      = (1 - f) * inb i0 * F (gidx i0) + f * inb (i0 + 1#32) * F (gidx (i0 + 1#32)) := by
  rw [← hot_sum]; exact Finset.sum_congr rfl fun k _ => mul_comm _ _

/-- The contraction over the reals. -/
def kflowR (G : Fin 3 → Fin 64 → Fin 64 → Fin 64 → ℝ) (x0 y0 z0 : BitVec 32) (tx ty tz : ℝ) (c : Fin 3) : ℝ :=
  ∑ d : Fin 64, (∑ h : Fin 64, (∑ w : Fin 64, hotR x0 tx w * G c d h w) * hotR y0 ty h) * hotR z0 tz d

/-- A corner's axis weight over the reals. -/
def pickR (k : BitVec 32) (t : ℝ) : ℝ := if k = 0#32 then 1 - t else t

/-- A corner over the reals. -/
def cornerR (G : Fin 3 → Fin 64 → Fin 64 → Fin 64 → ℝ) (x0 y0 z0 : BitVec 32) (tx ty tz : ℝ) (dx dy dz : BitVec 32)
    (c : Fin 3) : ℝ :=
  G c (gidx (z0 + dz)) (gidx (y0 + dy)) (gidx (x0 + dx))
    * (((pickR dx tx * pickR dy ty) * pickR dz tz) * (inb (x0 + dx) * inb (y0 + dy) * inb (z0 + dz)))

/-- Distributing the three two-entry lane sums gives the eight corners. -/
theorem kflowR_eq (G : Fin 3 → Fin 64 → Fin 64 → Fin 64 → ℝ) (x0 y0 z0 : BitVec 32) (tx ty tz : ℝ) (c : Fin 3) :
    kflowR G x0 y0 z0 tx ty tz c
      = (((((((0 + cornerR G x0 y0 z0 tx ty tz 0#32 0#32 0#32 c) + cornerR G x0 y0 z0 tx ty tz 0#32 0#32 1#32 c)
        + cornerR G x0 y0 z0 tx ty tz 0#32 1#32 0#32 c) + cornerR G x0 y0 z0 tx ty tz 0#32 1#32 1#32 c)
        + cornerR G x0 y0 z0 tx ty tz 1#32 0#32 0#32 c) + cornerR G x0 y0 z0 tx ty tz 1#32 0#32 1#32 c)
        + cornerR G x0 y0 z0 tx ty tz 1#32 1#32 0#32 c) + cornerR G x0 y0 z0 tx ty tz 1#32 1#32 1#32 c := by
  unfold kflowR
  simp only [hot_sum]
  simp only [hot_sum' y0 ty]
  simp only [hot_sum' z0 tz]
  unfold cornerR pickR
  simp only [BitVec.add_zero, if_pos, if_neg (by decide : ¬ (1#32 : BitVec 32) = 0#32), if_true]
  ring

end Cert.Tri
end
-- ==== Proof.Lift.lean ====
/-
  From the reals to the extended reals. The four float literals are the reals 1, 64, 1/2 and 0; on real arguments
  every operation of both forms stays inside the reals (sums, products, differences, the floor, the selects), so both
  forms are the casts of their real counterparts, which agree. Hence the two result arrays agree whenever every entry
  of both argument arrays is a real.
-/
import proofs.«174278_j48524540510565_1_alg».proof.Proof.Interp

open scoped BigOperators

noncomputable section
namespace Cert.Tri
open Idealize.ShloMosaic

/-! # From the reals to the extended reals -/

theorem one_eq : one = ((1 : ℝ) : EReal) := by
  show Ideal.ofBits .f32 0x3F800000#32 = _
  simp [Ideal.ofBits, Ideal.ieee, -EReal.coe_mul]; norm_num
theorem c64_eq : c64 = ((64 : ℝ) : EReal) := by
  show Ideal.ofBits .f32 0x42800000#32 = _
  simp [Ideal.ofBits, Ideal.ieee, -EReal.coe_mul]; norm_num
theorem half_eq : half = ((1 / 2 : ℝ) : EReal) := by
  show Ideal.ofBits .f32 0x3F000000#32 = _
  simp [Ideal.ofBits, Ideal.ieee, -EReal.coe_mul]; norm_num
theorem zero_eq : zero = ((0 : ℝ) : EReal) := by
  show Ideal.ofBits .f32 0x00000000#32 = _
  simp [Ideal.ofBits, Ideal.ieee]

/-- A finite sum of reals, seen in the extended reals, is the sum there. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The grid position of a real coordinate. -/
def uR (p : ℝ) : ℝ := ((p + 1) * 64 - 1) * (1 / 2)
/-- Its fractional part. -/
def fr (p : ℝ) : ℝ := uR p - (⌊uR p⌋ : ℝ)

theorem unnorm_coe (p : ℝ) : unnorm (p : EReal) = ((uR p : ℝ) : EReal) := by
  unfold unnorm uR
  rw [one_eq, c64_eq, half_eq, ← EReal.coe_add, ← EReal.coe_mul, ← EReal.coe_sub, ← EReal.coe_mul]
theorem flo_coe (p : ℝ) : flo (p : EReal) = (((⌊uR p⌋ : ℝ)) : EReal) := by
  unfold flo; rw [unnorm_coe]; rfl
theorem frac_coe (p : ℝ) : frac (p : EReal) = ((fr p : ℝ) : EReal) := by
  unfold frac fr; rw [unnorm_coe, flo_coe, ← EReal.coe_sub]

theorem hot_coe (i0 : BitVec 32) (f : ℝ) (k : Fin 64) : hot i0 (f : EReal) k = ((hotR i0 f k : ℝ) : EReal) := by
  unfold hot hotR
  rw [one_eq, zero_eq]
  by_cases h1 : BitVec.ofNat 32 k.val = i0 <;> by_cases h2 : BitVec.ofNat 32 k.val = i0 + 1#32 <;>
    simp [h1, h2, EReal.coe_sub]

theorem kflow_coe (G : Fin 3 → Fin 64 → Fin 64 → Fin 64 → ℝ) (px py pz : ℝ) (c : Fin 3) :
    kflow (fun c d h w => ((G c d h w : ℝ) : EReal)) (px : EReal) (py : EReal) (pz : EReal) c
      = ((kflowR G (cell (px : EReal)) (cell (py : EReal)) (cell (pz : EReal)) (fr px) (fr py) (fr pz) c : ℝ) : EReal) := by
  unfold kflow kflowR
  rw [frac_coe, frac_coe, frac_coe]
  simp only [hot_coe, ← EReal.coe_mul, ← coe_sum]

theorem pick_coe (k : BitVec 32) (t : ℝ) : pick k (t : EReal) = ((pickR k t : ℝ) : EReal) := by
  unfold pick pickR Scalar.select IntOp.cmpi
  rw [one_eq]
  by_cases hk : k = 0#32
  · subst hk; simp [EReal.coe_sub]
  · have : (k != 0#32) = true := by simpa using hk
    simp [this, hk]

theorem corner_coe (G : Fin 3 → Fin 64 → Fin 64 → Fin 64 → ℝ) (px py pz : ℝ) (dx dy dz : BitVec 32) (c : Fin 3) :
    corner (fun c d h w => ((G c d h w : ℝ) : EReal)) (px : EReal) (py : EReal) (pz : EReal) dx dy dz c
      = ((cornerR G (cell (px : EReal)) (cell (py : EReal)) (cell (pz : EReal)) (fr px) (fr py) (fr pz) dx dy dz c : ℝ) : EReal) := by
  unfold corner cornerR
  rw [frac_coe, frac_coe, frac_coe, pick_coe, pick_coe, pick_coe, validb_real]
  simp only [IntOp.addi, ← EReal.coe_mul]

/-- On real inputs the two-hot form and the eight-corner form are one value. -/
theorem kout_eq_rout (G : Fin 3 → Fin 64 → Fin 64 → Fin 64 → ℝ) (P : Fin 3 → ℝ) (c : Fin 3) :
    kout (fun c d h w => ((G c d h w : ℝ) : EReal)) (fun a => ((P a : ℝ) : EReal)) c
      = rout (fun c d h w => ((G c d h w : ℝ) : EReal)) (fun a => ((P a : ℝ) : EReal)) c := by
  unfold kout rout rflow
  rw [kflow_coe, kflowR_eq, zero_eq]
  simp only [corner_coe, ← EReal.coe_add]

/-- The two result arrays agree when every entry of both argument arrays is a real. -/
theorem Gk_eq_Gr (x0 : (⟨3, ![32, 131072, 3]⟩ : Shape).Idx → EReal) (x1 : (⟨4, ![3, 64, 64, 64]⟩ : Shape).Idx → EReal)
    (h0 : ∀ i, ∃ r : ℝ, x0 i = (r : EReal)) (h1 : ∀ i, ∃ r : ℝ, x1 i = (r : EReal)) : Gk x0 x1 = Gr x0 x1 := by
  choose X0 hX0 using h0
  choose X1 hX1 using h1
  funext i
  obtain ⟨b, n, c, rfl⟩ : ∃ (b : Fin 32) (n : Fin 131072) (c : Fin 3), i = ValueIdx.ix3 b n c :=
    ⟨i 0, i 1, i 2, ValueIdx.eq_ix3 i⟩
  rw [Gk_apply, Gr_apply]
  have eg : gridOf x1 = fun c d h w => ((X1 (ValueIdx.ix4 c d h w) : ℝ) : EReal) := by
    funext c d h w; exact hX1 _
  have ep : pointOf x0 b n = fun a => ((X0 (ValueIdx.ix3 b n a) : ℝ) : EReal) := by
    funext a; exact hX0 _
  rw [eg, ep]
  exact kout_eq_rout _ _ _

end Cert.Tri
end
-- ==== Proof.Finite.lean ====
/-
  The precondition says that every entry of both argument arrays is smaller in absolute value than +infinity (an
  `and` over all entries of the comparison). On the extended reals that is: every entry is a real number.
-/
import proofs.«174278_j48524540510565_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

variable [Cert.Pre_finite_inputs.Facts]

instance : Subsingleton S_.Idx := ⟨fun a b => funext fun d => d.elim0⟩

/-- An extended real whose absolute value is below +infinity is a real. -/
theorem real_of_abs_lt (x : EReal)
    (h : Ideal.cmp .olt (max x (-x)) (Ideal.ofBits .f32 0x7F800000#32) = 1#1) : ∃ r : ℝ, x = (r : EReal) := by
  induction x using EReal.rec with
  | bot => exfalso; revert h; simp [Ideal.cmp, Ideal.ofBits, Ideal.ieee]
  | coe r => exact ⟨r, rfl⟩
  | top => exfalso; revert h; simp [Ideal.cmp, Ideal.ofBits, Ideal.ieee]

/-- Under the precondition every entry of both argument arrays is a real. -/
theorem real_of_pre (x0 : FVec Ideal S32x131072x3 .f32) (x1 : FVec Ideal S3x64x64x64 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h' := congrFun h ix0
  dsimp only [Cert.Pre_finite_inputs.fn] at h'
  obtain ⟨ha, hb⟩ := IntOp.andi_eq_one.1 h'
  refine ⟨fun i => ?_, fun i => ?_⟩
  · exact real_of_abs_lt _ (Host.reduce_andi_all _ _ _ _ _ ha i)
  · exact real_of_abs_lt _ (Host.reduce_andi_all _ _ _ _ _ hb i)

end Cert.Finite

end
-- ==== Proof.KPayloadDef.lean ====
/-
  What the kernel body stores, read at row `r` and channel `c` of its block of 128 points: the point's coordinate plus
  the two-hot contraction (Spec.lean's `kout`) of the grid block — laid out width first, [64, 3 * 64 * 64] — with the
  point's three weight vectors. Stated here as a proposition so that the block-to-array argument can assume it.
-/
import proofs.«174278_j48524540510565_1_alg».proof.Proof.Gen.KernelIdeal.Frame
import proofs.«174278_j48524540510565_1_alg».proof.Proof.Spec

noncomputable section

namespace Cert.KPayload

open Idealize.ShloMosaic Idealize.ShloMosaic.ValueIdx Cert.KernelIdeal

/-- The stored block at (r, c), for any grid block `x0` and point block `x1`. -/
def PayloadRead : Prop :=
  ∀ (x0 : Vec Ideal S64x12288 .bf16) (x1 : Vec Ideal S128x3 .f32) (r : Fin 128) (c : Fin 3),
    Cert.KernelIdeal.Gen.out0_2 (F := Ideal) x0 x1 (ix2 r c)
      = Cert.Tri.kout (fun c d h w => x0 (ix2 w (Cert.Tri.colOf c d h))) (fun a => x1 (ix2 r a)) c

end Cert.KPayload

end
-- ==== Proof.KLayout.lean ====
/-
  Layout operations of small ranks read at an index written by coordinates, and the one-axis float sums over the
  last axis read as sums over that axis's coordinate.

  A column form keeps a reduced or sliced axis as an axis of extent one: a vector [a] seen as [a, 1] and back, a
  column [a, 1] repeated along b lanes to [a, b]; a matrix [a, b] seen as [a, 1, 1, b] or [a, 1, b] and repeated along
  the unit axes. Each reads, at an index, the operand at the index with the unit axes at 0 and the other coordinates
  kept. A row of 3 * 64 * 64 entries seen as [3, 64, 64] reads entry p * 4096 + q * 64 + r at (p, q, r).
-/
import Idealize.ShloMosaic.Lib.ValueLayout
import Idealize.ShloMosaic.PureOps.Ideal.Laws

noncomputable section

open scoped BigOperators

namespace Cert.KLayout

open Idealize.ShloMosaic Idealize.ShloMosaic.ValueIdx

variable {α : Type}

/-! ## Vectors and columns -/

/-- A vector [a] seen as a column [a, 1] reads entry i at (i, u). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] seen as a vector [a] reads (i, 0) at i. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] repeated along b lanes reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix with unit axes put in the middle, and repeated along them -/

/-- A matrix [a, b] seen as [a, 1, 1, b] reads (i, j) at (i, u, v, j). -/
theorem shapeCast_ab_a11b_apply {a b : ℕ} (x : (⟨2, ![a, b]⟩ : Shape).Idx → α)
    (h : (⟨2, ![a, b]⟩ : Shape).ShapeCasts ⟨4, ![a, 1, 1, b]⟩) (i : Fin a) (u v : Fin 1) (j : Fin b) :
    shapeCast ⟨4, ![a, 1, 1, b]⟩ x h (ix4 i u v j) = x (ix2 i j) :=
  shapeCast_apply x h _ _ (by
    have hu : u.val = 0 := by omega
    have hv : v.val = 0 := by omega
    rw [Shape.rowMajor_val_four, Shape.rowMajor_val_two]
    show i.val * b + j.val = ((i.val * 1 + u.val) * 1 + v.val) * b + j.val
    simp only [hu, hv, Nat.mul_one, Nat.add_zero])

/-- [a, 1, 1, b] repeated along the two unit axes reads, at (p, q, r, s), the operand at (p, 0, 0, s). -/
theorem broadcastTo_a11b_acdb_apply {a b c d : ℕ} (v : (⟨4, ![a, 1, 1, b]⟩ : Shape).Idx → α)
    (h : (⟨4, ![a, 1, 1, b]⟩ : Shape).Broadcasts ⟨4, ![a, c, d, b]⟩) (p : Fin a) (q : Fin c) (r : Fin d) (s : Fin b) :
    broadcastTo ⟨4, ![a, c, d, b]⟩ v h (ix4 p q r s) = v (ix4 p (0 : Fin 1) (0 : Fin 1) s) := by
  refine broadcastTo_apply v h (ix4 p q r s) (ix4 p (0 : Fin 1) (0 : Fin 1) s) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show s.val = if b = 1 then 0 else s.val
    split
    · have := s.isLt; omega
    · rfl

/-- A matrix [a, b] seen as [a, 1, b] reads (i, j) at (i, u, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, 1, b] repeated along the unit axis reads, at (p, q, s), the operand at (p, 0, s). -/
theorem broadcastTo_a1b_acb_apply {a b c : ℕ} (v : (⟨3, ![a, 1, b]⟩ : Shape).Idx → α)
    (h : (⟨3, ![a, 1, b]⟩ : Shape).Broadcasts ⟨3, ![a, c, b]⟩) (p : Fin a) (q : Fin c) (s : Fin b) :
    broadcastTo ⟨3, ![a, c, b]⟩ v h (ix3 p q s) = v (ix3 p (0 : Fin 1) s) := by
  refine broadcastTo_apply v h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if b = 1 then 0 else s.val
    split
    · have := s.isLt; omega
    · rfl

/-! ## A row of 3 * 64 * 64 entries seen as [3, 64, 64] -/

/-- [128, 12288] seen as [128, 3, 64, 64] reads, at (i, p, q, r), entry p * 4096 + q * 64 + r of row i. -/
theorem shapeCast_row_split_apply (x : (⟨2, ![128, 12288]⟩ : Shape).Idx → α)
    (h : (⟨2, ![128, 12288]⟩ : Shape).ShapeCasts ⟨4, ![128, 3, 64, 64]⟩)
    (i : Fin 128) (p : Fin 3) (q r : Fin 64) (k : Fin 12288) (hk : k.val = p.val * 4096 + q.val * 64 + r.val) :
    shapeCast ⟨4, ![128, 3, 64, 64]⟩ x h (ix4 i p q r) = x (ix2 i k) :=
  shapeCast_apply x h _ _ (by
    rw [Shape.rowMajor_val_four, Shape.rowMajor_val_two]
    show i.val * 12288 + k.val = ((i.val * 3 + p.val) * 64 + q.val) * 64 + r.val
    omega)

/-! ## The lane counter -/

/-- The counter along the second axis of [a, b] reads the lane number. -/
theorem iota_lane_apply {a b : ℕ} (κ : Kind) (h : (⟨2, ![a, b]⟩ : Shape).Iotas κ 32 [1]) (r : Fin a) (k : Fin b) :
    iota κ ⟨2, ![a, b]⟩ 32 [1] h (ix2 r k) = BitVec.ofNat 32 k.val :=
  iota_single_apply κ _ 32 1 h (ix2 r k)

/-! ## A select on an equality of words -/

/-- A select whose condition is the comparison of two words for equality is the "if" on their equality. -/
theorem select_cmpi_eq {w : ℕ} (x y : BitVec w) (A B : α) :
    Scalar.select (IntOp.cmpi .eq x y) A B = if x = y then A else B := by
  show (if BitVec.ofBool (x == y) = 1 then A else B) = _
  by_cases hxy : x = y
  · subst hxy
    rw [if_pos rfl, if_pos]
    simp
  · have hb : (x == y) = false := beq_eq_false_iff_ne.mpr hxy
    rw [if_neg hxy, if_neg]
    rw [hb]
    decide

/-! ## Sums over the last axis -/

/-- The float sum over the last axis of a rank-4 vector, started from the zero word, reads at (a, b, c) the sum over k
    of the entries (a, b, c, k). -/
theorem laneSum4_apply {n0 n1 n2 n3 : ℕ} (src : FVec Ideal ⟨4, ![n0, n1, n2, n3]⟩ .f32)
    (h : (⟨4, ![n0, n1, n2, n3]⟩ : Shape).Reduces [3] ⟨3, ![n0, n1, n2]⟩) (hφ : FKind.Formats .f32)
    (hacc : (0x00000000#32 : BitVec 32) = FKind.add.neutral .f32 hφ) (a : Fin n0) (b : Fin n1) (c : Fin n2) :
    multiReduction (F := Ideal) .add [3] ⟨3, ![n0, n1, n2]⟩ src 0x00000000#32 h hφ hacc (ix3 a b c)
      = ∑ k : Fin n3, src (ix4 a b c k) := by
  refine (Ideal.multiReduction_add_single src 0x00000000#32 h hφ hacc (ix3 a b c)).trans ?_
  show ∑ k : Fin n3, src (h.lift (ix3 a b c) k) = _
  refine Finset.sum_congr rfl fun k _ => congrArg src (funext fun ax => Fin.ext ?_)
  match ax with
  | ⟨0, _⟩ => rfl
  | ⟨1, _⟩ => rfl
  | ⟨2, _⟩ => rfl
  | ⟨3, _⟩ => rfl

/-- The float sum over the last axis of a rank-3 vector, started from the zero word, reads at (a, b) the sum over k of
    the entries (a, b, k). -/
theorem laneSum3_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = FKind.add.neutral .f32 hφ) (a : Fin n0) (b : Fin n1) :
    multiReduction (F := Ideal) .add [2] ⟨2, ![n0, n1]⟩ src 0x00000000#32 h hφ hacc (ix2 a b)
      = ∑ k : Fin n2, src (ix3 a b k) := by
  refine (Ideal.multiReduction_add_single src 0x00000000#32 h hφ hacc (ix2 a b)).trans ?_
  show ∑ k : Fin n2, src (h.lift (ix2 a b) k) = _
  refine Finset.sum_congr rfl fun k _ => congrArg src (funext fun ax => Fin.ext ?_)
  match ax with
  | ⟨0, _⟩ => rfl
  | ⟨1, _⟩ => rfl
  | ⟨2, _⟩ => rfl

end Cert.KLayout

end
-- ==== Proof.KWeights.lean ====
/-
  The three weight vectors of a row of the point block, read at a lane.

  Column a of the point block is cut out, unnormalised to a grid position u = ((p + 1) * 64 - 1) * (1/2), floored, and
  split into the cell (the floor as a 32-bit word) and the fractional part u - floor u. Lane k of an axis's weight
  vector is then 1 - t where the lane number is the cell, plus t where it is the cell plus one: the specification's
  two-hot weight. The first axis gets cell and fractional part as columns, the second as vectors, and the third has its
  far-side half assembled only where it is used, so here its near-side half and its far-side comparison are read.
-/
import proofs.«174278_j48524540510565_1_alg».proof.Proof.Gen.KernelIdeal.Skeleton
import proofs.«174278_j48524540510565_1_alg».proof.Proof.Spec
import proofs.«174278_j48524540510565_1_alg».proof.Proof.KLayout

noncomputable section

open scoped BigOperators

namespace Cert.KWeights

open Idealize.ShloMosaic Idealize.ShloMosaic.ValueIdx Cert.KernelIdeal Cert.KernelIdeal.Gen Cert.KLayout Cert.Tri

/-! ## Two integer operations read at an index -/

theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = IntOp.addi (x i) (y i) := rfl

/-! ## The point block and its three columns -/

/-- The point block cast to its own shape is itself. -/
theorem pay2_eq (v0 : Vec Ideal S128x3 .f32) : k0_pay2 (F := Ideal) v0 = v0 := by
  unfold k0_pay2; exact shapeCast_self v0 _

/-- Column a of the point block, cut out as a column and flattened, reads the block at (r, a). -/
theorem column_apply (v0 : Vec Ideal S128x3 .f32) (o : ℕ) (a : Fin 3) (ha : a.val = o + (0 : Fin 1).val)
    (h : S128x3.Slices ![0, o] S128x1) (r : Fin 128) :
    shapeCast S128 (extractStridedSlice S128x1 ![0, o] (k0_pay2 (F := Ideal) v0) h) shapeCasts_S128x1_S128 (ix1 r)
      = v0 (ix2 r a) := by
  refine (shapeCast_a1_a_apply _ _ r).trans ?_
  refine (slice2_axis1_apply o _ _ r (0 : Fin 1) a ha).trans ?_
  rw [pay2_eq]

/-! ## The first coordinate: grid position, floor, cell and fractional part -/

theorem pay3_apply (v0 : Vec Ideal S128x3 .f32) (r : Fin 128) :
    k0_pay3 (F := Ideal) v0 (ix1 r) = unnorm (v0 (ix2 r (0 : Fin 3))) := by
  unfold k0_pay3 unnorm
  exact congrArg (fun t => ((t + one) * c64 - one) * half) (column_apply v0 0 0 rfl _ r)

theorem pay6_apply (v0 : Vec Ideal S128x3 .f32) (r : Fin 128) :
    k0_pay6 (F := Ideal) v0 (ix1 r) = flo (v0 (ix2 r (0 : Fin 3))) := by
  unfold k0_pay6 flo
  exact congrArg (Ideal.liftRound Int.floor) (pay3_apply v0 r)

theorem pay13_apply (v0 : Vec Ideal S128x3 .f32) (r : Fin 128) (u : Fin 1) :
    k0_pay13 (F := Ideal) v0 (ix2 r u) = cell (v0 (ix2 r (0 : Fin 3))) := by
  unfold k0_pay13 cell
  refine (shapeCast_a_a1_apply _ _ r u).trans ?_
  exact congrArg (Ideal.fptosi 32) (pay6_apply v0 r)

theorem pay14_apply (v0 : Vec Ideal S128x3 .f32) (r : Fin 128) (u : Fin 1) :
    k0_pay14 (F := Ideal) v0 (ix2 r u) = frac (v0 (ix2 r (0 : Fin 3))) := by
  unfold k0_pay14 frac
  refine (shapeCast_a_a1_apply _ _ r u).trans ?_
  show k0_pay3 (F := Ideal) v0 (ix1 r) - k0_pay6 (F := Ideal) v0 (ix1 r) = _
  rw [pay3_apply, pay6_apply]

theorem pay15_apply (v0 : Vec Ideal S128x3 .f32) (r : Fin 128) (k : Fin 64) :
    k0_pay15 (F := Ideal) v0 (ix2 r k) = cell (v0 (ix2 r (0 : Fin 3))) := by
  unfold k0_pay15
  exact (broadcastTo_a1_ab_apply _ _ r k).trans (pay13_apply v0 r 0)

/-! ## The second coordinate -/

theorem pay4_apply (v0 : Vec Ideal S128x3 .f32) (r : Fin 128) :
    k0_pay4 (F := Ideal) v0 (ix1 r) = unnorm (v0 (ix2 r (1 : Fin 3))) := by
  unfold k0_pay4 unnorm
  exact congrArg (fun t => ((t + one) * c64 - one) * half) (column_apply v0 1 1 rfl _ r)

theorem pay7_apply (v0 : Vec Ideal S128x3 .f32) (r : Fin 128) :
    k0_pay7 (F := Ideal) v0 (ix1 r) = flo (v0 (ix2 r (1 : Fin 3))) := by
  unfold k0_pay7 flo
  exact congrArg (Ideal.liftRound Int.floor) (pay4_apply v0 r)

theorem pay9_apply (v0 : Vec Ideal S128x3 .f32) (r : Fin 128) :
    k0_pay9 (F := Ideal) v0 (ix1 r) = frac (v0 (ix2 r (1 : Fin 3))) := by
  unfold k0_pay9 frac
  show k0_pay4 (F := Ideal) v0 (ix1 r) - k0_pay7 (F := Ideal) v0 (ix1 r) = _
  rw [pay4_apply, pay7_apply]

theorem pay11_apply (v0 : Vec Ideal S128x3 .f32) (r : Fin 128) :
    k0_pay11 (F := Ideal) v0 (ix1 r) = cell (v0 (ix2 r (1 : Fin 3))) := by
  unfold k0_pay11 cell
  exact congrArg (Ideal.fptosi 32) (pay7_apply v0 r)

/-! ## The third coordinate -/

theorem pay5_apply (v0 : Vec Ideal S128x3 .f32) (r : Fin 128) :
    k0_pay5 (F := Ideal) v0 (ix1 r) = unnorm (v0 (ix2 r (2 : Fin 3))) := by
  unfold k0_pay5 unnorm
  exact congrArg (fun t => ((t + one) * c64 - one) * half) (column_apply v0 2 2 rfl _ r)

theorem pay8_apply (v0 : Vec Ideal S128x3 .f32) (r : Fin 128) :
    k0_pay8 (F := Ideal) v0 (ix1 r) = flo (v0 (ix2 r (2 : Fin 3))) := by
  unfold k0_pay8 flo
  exact congrArg (Ideal.liftRound Int.floor) (pay5_apply v0 r)

theorem pay10_apply (v0 : Vec Ideal S128x3 .f32) (r : Fin 128) :
    k0_pay10 (F := Ideal) v0 (ix1 r) = frac (v0 (ix2 r (2 : Fin 3))) := by
  unfold k0_pay10 frac
  show k0_pay5 (F := Ideal) v0 (ix1 r) - k0_pay8 (F := Ideal) v0 (ix1 r) = _
  rw [pay5_apply, pay8_apply]

theorem pay12_apply (v0 : Vec Ideal S128x3 .f32) (r : Fin 128) :
    k0_pay12 (F := Ideal) v0 (ix1 r) = cell (v0 (ix2 r (2 : Fin 3))) := by
  unfold k0_pay12 cell
  exact congrArg (Ideal.fptosi 32) (pay8_apply v0 r)

/-! ## The two-hot weight vectors

Each is stated for any operands whose entries at the row are the lane number, the cell and the fractional part. -/

/-- First axis: cell and fractional part arrive as columns, the cell also repeated along the lanes. -/
theorem pay16_apply (v41 : IVec S128x64 32) (v42 : IVec S128x1 32) (v43 : FVec Ideal S128x1 .f32) (v44 : IVec S128x64 32)
    (r : Fin 128) (k : Fin 64) (i0 : BitVec 32) (f : EReal)
    (h41 : v41 (ix2 r k) = BitVec.ofNat 32 k.val) (h42 : v42 (ix2 r (0 : Fin 1)) = i0)
    (h43 : v43 (ix2 r (0 : Fin 1)) = f) (h44 : v44 (ix2 r k) = i0) :
    k0_pay16 (F := Ideal) v41 v42 v43 v44 (ix2 r k) = hot i0 f k := by
  unfold k0_pay16 hot
  simp only [addf_apply, select_apply, cmpi_apply, broadcastTo_a1_ab_apply, shapeCast_self, subf_apply, broadcast_apply,
    addi_apply, h41, h42, h43, h44, select_cmpi_eq]
  rfl

/-- Second axis: cell and fractional part arrive as vectors. -/
theorem pay17_apply (v36 : FVec Ideal S128 .f32) (v39 : IVec S128 32) (v41 : IVec S128x64 32)
    (r : Fin 128) (k : Fin 64) (i0 : BitVec 32) (f : EReal)
    (h41 : v41 (ix2 r k) = BitVec.ofNat 32 k.val) (h39 : v39 (ix1 r) = i0) (h36 : v36 (ix1 r) = f) :
    k0_pay17 (F := Ideal) v36 v39 v41 (ix2 r k) = hot i0 f k := by
  unfold k0_pay17 hot
  simp only [addf_apply, select_apply, cmpi_apply, broadcastTo_a1_ab_apply, shapeCast_self, shapeCast_a_a1_apply, subf_apply,
    broadcast_apply, addi_apply, h41, h39, h36, select_cmpi_eq]
  rfl

/-- Third axis, the fractional part as a column. -/
theorem pay19_apply (v37 : FVec Ideal S128 .f32) (r : Fin 128) (u : Fin 1) :
    k0_pay19 (F := Ideal) v37 (ix2 r u) = v37 (ix1 r) := by
  unfold k0_pay19
  exact shapeCast_a_a1_apply _ _ r u

/-- Third axis, the near-side half of the weight. -/
theorem pay20_apply (v37 : FVec Ideal S128 .f32) (v40 : IVec S128 32) (v41 : IVec S128x64 32)
    (r : Fin 128) (k : Fin 64) (i0 : BitVec 32) (f : EReal)
    (h41 : v41 (ix2 r k) = BitVec.ofNat 32 k.val) (h40 : v40 (ix1 r) = i0) (h37 : v37 (ix1 r) = f) :
    k0_pay20 (F := Ideal) v37 v40 v41 (ix2 r k) = if BitVec.ofNat 32 k.val = i0 then one - f else zero := by
  unfold k0_pay20 k0_pay19 k0_pay18
  simp only [select_apply, cmpi_apply, broadcastTo_a1_ab_apply, shapeCast_self, shapeCast_a_a1_apply, subf_apply,
    broadcast_apply, h41, h40, h37, select_cmpi_eq]
  rfl

/-- Third axis, the far-side comparison. -/
theorem pay21_apply (v40 : IVec S128 32) (v41 : IVec S128x64 32) (r : Fin 128) (k : Fin 64) (i0 : BitVec 32)
    (h41 : v41 (ix2 r k) = BitVec.ofNat 32 k.val) (h40 : v40 (ix1 r) = i0) :
    k0_pay21 v40 v41 (ix2 r k) = IntOp.cmpi .eq (BitVec.ofNat 32 k.val) (i0 + 1#32) := by
  unfold k0_pay21 k0_pay18
  simp only [cmpi_apply, broadcastTo_a1_ab_apply, shapeCast_a_a1_apply, addi_apply, broadcast_apply, h41, h40]
  rfl

end Cert.KWeights

end
-- ==== Proof.KMatmul.lean ====
/-
  The matrix product of the first weight vectors [128, 64] with the grid laid out width first [64, 12288], onto the zero
  accumulator, read at (r, col): the sum over the 64 width positions w of weight (r, w) times grid (w, col). The
  contraction's index set has one axis of extent 64, and the sum is re-indexed through its one coordinate.
-/
import proofs.«174278_j48524540510565_1_alg».proof.Proof.Gen.KernelIdeal.Skeleton
import Idealize.ShloMosaic.Lib.ValueIdx
import Idealize.ShloMosaic.PureOps.Ideal.Laws

noncomputable section

open scoped BigOperators

namespace Cert.KMatmul

open Idealize.ShloMosaic Idealize.ShloMosaic.ValueIdx Cert.KernelIdeal Cert.KernelIdeal.Gen

/-- The contraction's dimension numbers: rows times the contracted axis, against the contracted axis times columns. -/
abbrev D : DotDims S128x64 S64x12288 S128x12288 := dot_S128x64_S64x12288_S128x12288_1_0_0_1_n_n

/-- The left operand is read at the result's row … -/
theorem lhs_row (i : S128x12288.Idx) (q : D.contr.Idx) : (D.lhsIdx i q 0).val = (i 0).val := by
  unfold DotDims.lhsIdx
  rw [dif_neg (show ¬(0 : Fin S128x64.rank) ∈ D.lhsBatch by decide),
    dif_pos (show (0 : Fin S128x64.rank) ∈ D.lhsNonContracting by decide)]
  rfl
/-- … and the contracted position; -/
theorem lhs_contr (i : S128x12288.Idx) (q : D.contr.Idx) : (D.lhsIdx i q 1).val = (q ⟨0, by decide⟩).val :=
  D.lhsIdx_val_of_single rfl i q
/-- the right operand at the contracted position … -/
theorem rhs_contr (i : S128x12288.Idx) (q : D.contr.Idx) : (D.rhsIdx i q 0).val = (q ⟨0, by decide⟩).val :=
  D.rhsIdx_val_of_single rfl i q
/-- … and the result's column. -/
theorem rhs_col (i : S128x12288.Idx) (q : D.contr.Idx) : (D.rhsIdx i q 1).val = (i 1).val := by
  unfold DotDims.rhsIdx
  rw [dif_neg (show ¬(1 : Fin S64x12288.rank) ∈ D.rhsBatch by decide),
    dif_pos (show (1 : Fin S64x12288.rank) ∈ D.rhsNonContracting by decide)]
  rfl

/-- The matrix product onto the zero accumulator, read at (r, col): the sum over the 64 contracted positions of the
    products of the operands' entries. -/
theorem matmul_zero_apply (lhs : FVec Ideal S128x64 .bf16) (rhs : FVec Ideal S64x12288 .bf16) (r : Fin 128) (col : Fin 12288) :
    matmul D none lhs rhs (constant (F := Ideal) S128x12288 .f32 0x00000000#32) (ix2 r col)
      = ∑ w : Fin 64, lhs (ix2 r w) * rhs (ix2 w col) := by
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 r col) ((contrEquiv1 D 64 rfl rfl).symm k) = ix2 r k := funext fun a => Fin.ext (by
    match a with
    | ⟨0, _⟩ => exact lhs_row _ _
    | ⟨1, _⟩ => exact (lhs_contr _ _).trans hk)
  have er : D.rhsIdx (ix2 r col) ((contrEquiv1 D 64 rfl rfl).symm k) = ix2 k col := funext fun a => Fin.ext (by
    match a with
    | ⟨0, _⟩ => exact (rhs_contr _ _).trans hk
    | ⟨1, _⟩ => exact rhs_col _ _)
  rw [el, er]

end Cert.KMatmul

end
-- ==== Proof.KStored.lean ====
/-
  The stored block read at (r, c), for any operands: the matrix product [128, 12288] is seen as [128, 3, 64, 64], multiplied
  by the second weight vector along the last axis and summed over it, multiplied by the third weight vector along the
  new last axis and summed over it, and added to the point block. Each sum over a last axis is the sum over that axis's
  coordinate; the entry (r, c, d, h) of the reshaped product is its entry at column c * 4096 + d * 64 + h.
-/
import proofs.«174278_j48524540510565_1_alg».proof.Proof.Gen.KernelIdeal.Skeleton
import proofs.«174278_j48524540510565_1_alg».proof.Proof.Spec
import proofs.«174278_j48524540510565_1_alg».proof.Proof.KLayout
import proofs.«174278_j48524540510565_1_alg».proof.Proof.KMatmul

noncomputable section

open scoped BigOperators

namespace Cert.KStored

open Idealize.ShloMosaic Idealize.ShloMosaic.ValueIdx Cert.KernelIdeal Cert.KernelIdeal.Gen Cert.KLayout Cert.Tri Cert.KMatmul

/-- The stored block at (r, c), for any operands: the point block's entry plus, summed over d and over h, the matrix
    product's entry at column c * 4096 + d * 64 + h, times the second weight vector's lane h, times the third's lane d —
    the third weight still written as its near-side half plus the selected far-side half. -/
theorem pay1_apply (v1 : FVec Ideal S128x3 .f32) (v60 v79 : FVec Ideal S128x64 .f32) (v81 : FVec Ideal S128x1 .f32)
    (v89 : FVec Ideal S128x64 .f32) (v93 : IVec S128x64 1) (v100 : Vec Ideal S64x12288 .bf16) (r : Fin 128) (c : Fin 3) :
    k0_pay1 (F := Ideal) v1 v60 v79 v81 v89 v93 v100 (ix2 r c)
      = v1 (ix2 r c) + ∑ d : Fin 64, (∑ h : Fin 64, (∑ w : Fin 64, v60 (ix2 r w) * v100 (ix2 w (colOf c d h))) * v79 (ix2 r h))
          * (v89 (ix2 r d) + Scalar.select (v93 (ix2 r d)) (v81 (ix2 r (0 : Fin 1))) zero) := by
  unfold k0_pay1
  simp only [addf_apply]
  refine congrArg (v1 (ix2 r c) + ·) ?_
  refine (laneSum3_apply _ _ _ _ r c).trans ?_
  refine Finset.sum_congr rfl fun d _ => ?_
  simp only [mulf_apply, broadcastTo_a1b_acb_apply, shapeCast_ab_a1b_apply, addf_apply, select_apply,
    broadcastTo_a1_ab_apply, shapeCast_self, broadcast_apply]
  refine congrArg₂ (· * ·) ?_ rfl
  refine (laneSum4_apply _ _ _ _ r c d).trans ?_
  refine Finset.sum_congr rfl fun h _ => ?_
  simp only [mulf_apply, broadcastTo_a11b_acdb_apply, shapeCast_ab_a11b_apply]
  refine congrArg₂ (· * ·) ?_ rfl
  refine (shapeCast_row_split_apply _ _ r c d h (colOf c d h) rfl).trans ?_
  exact matmul_zero_apply _ _ r (colOf c d h)

end Cert.KStored

end
-- ==== Proof.KPayload.lean ====
/-
  What the kernel body stores, read at row r and channel c of its block of 128 points, is the specification's two-hot
  contraction: the body's one store covers the whole block, so the block is the stored value; its loads read the whole
  point block and the whole grid block; and the three weight vectors inside the stored value are the specification's
  two-hot weights of the row's three coordinates — the first with the width axis (the matrix product's contracted
  axis), the second with the height axis (the first lane sum), the third with the depth axis (the second lane sum).
-/
import proofs.«174278_j48524540510565_1_alg».proof.Proof.KPayloadDef
import proofs.«174278_j48524540510565_1_alg».proof.Proof.KWeights
import proofs.«174278_j48524540510565_1_alg».proof.Proof.KStored
import Idealize.ShloMosaic.Lib.Pipeline.Value

noncomputable section

open scoped BigOperators

namespace Cert.KPayload

open Idealize.ShloMosaic Idealize.ShloMosaic.ValueIdx Cert.KernelIdeal Cert.KernelIdeal.Gen Cert.KLayout Cert.Tri Cert.KWeights Cert.KStored

/-- The two offsets of a whole-buffer access are zero. -/
theorem offsets_zero : (![0, 0] : Fin 2 → Nat) = fun _ => 0 := funext fun a => by fin_cases a <;> rfl

/-- The stored block at (r, c) is the point's coordinate c plus the two-hot contraction of the grid block. -/
theorem payloadRead : Cert.KPayload.PayloadRead := by
  unfold PayloadRead
  intro x0 x1 r c
  unfold Gen.out0_2
  rw [View.canon_unit_zero offsets_zero]
  simp only [View.ld_unit_zero (S := S128x3) offsets_zero, View.ld_unit_zero (S := S64x12288) offsets_zero]
  refine (pay1_apply _ _ _ _ _ _ _ r c).trans ?_
  unfold kout kflow
  rw [pay2_eq]
  refine congrArg (x1 (ix2 r c) + ·) ?_
  refine Finset.sum_congr rfl fun d _ => ?_
  refine congrArg₂ (· * ·) (Finset.sum_congr rfl fun h _ => congrArg₂ (· * ·)
    (Finset.sum_congr rfl fun w _ => congrArg₂ (· * ·) ?_ rfl) ?_) ?_
  · exact pay16_apply _ _ _ _ r w _ _ (iota_lane_apply _ _ r w) (pay13_apply x1 r 0) (pay14_apply x1 r 0) (pay15_apply x1 r w)
  · exact pay17_apply _ _ _ r h _ _ (iota_lane_apply _ _ r h) (pay11_apply x1 r) (pay9_apply x1 r)
  · rw [pay20_apply _ _ _ r d _ _ (iota_lane_apply _ _ r d) (pay12_apply x1 r) (pay10_apply x1 r),
      pay21_apply _ _ r d _ (iota_lane_apply _ _ r d) (pay12_apply x1 r), pay19_apply, pay10_apply, select_cmpi_eq]
    rfl

end Cert.KPayload

end
-- ==== Proof.KVLayout.lean ====
/-
  Three layout facts, with no program in sight.

  A point array [32, 131072, 3] flattened to [4194304, 3] keeps each point's three coordinates together: flat row R is
  point (R / 131072, R % 131072). Cast back, point (b, n) is flat row b * 131072 + n.

  A grid [3, 64, 64, 64] (channel, depth, height, width) flattened to [12288, 64], transposed to [64, 12288] and changed
  of float format (the identity on extended reals) has, at row w and column c * 4096 + d * 64 + h, the grid's entry
  (c, d, h, w).
-/
import Idealize.ShloMosaic.PureOps.Ideal
import Idealize.ShloMosaic.Lib.ValueIdx
import Idealize.ShloMosaic.Lib.Pipeline.Value

noncomputable section

namespace Cert.KVLayout

open Idealize.ShloMosaic Idealize.ShloMosaic.ValueIdx

/-- Flat row `R` of the flattened point array is point (R / 131072, R % 131072). -/
theorem flatten_points {α : Type} (x : (⟨3, ![32, 131072, 3]⟩ : Shape).Idx → α)
    (hc : (⟨3, ![32, 131072, 3]⟩ : Shape).ShapeCasts ⟨2, ![4194304, 3]⟩) (R : Fin 4194304) (a : Fin 3)
    (b : Fin 32) (n : Fin 131072) (hb : b.val = R.val / 131072) (hn : n.val = R.val % 131072) :
    shapeCast (⟨2, ![4194304, 3]⟩ : Shape) x hc (ix2 R a) = x (ix3 b n a) := by
  refine shapeCast_apply x hc (ix2 R a) (ix3 b n a) ?_
  rw [Shape.rowMajor_val_three, Shape.rowMajor_val_two]
  show (b.val * 131072 + n.val) * 3 + a.val = R.val * 3 + a.val
  omega

/-- Point (b, n) of the array cast back from flat rows is flat row b * 131072 + n. -/
theorem unflatten_points {α : Type} (y : (⟨2, ![4194304, 3]⟩ : Shape).Idx → α)
    (hc : (⟨2, ![4194304, 3]⟩ : Shape).ShapeCasts ⟨3, ![32, 131072, 3]⟩) (b : Fin 32) (n : Fin 131072) (a : Fin 3)
    (R : Fin 4194304) (hR : R.val = b.val * 131072 + n.val) :
    shapeCast (⟨3, ![32, 131072, 3]⟩ : Shape) y hc (ix3 b n a) = y (ix2 R a) := by
  refine shapeCast_apply y hc (ix3 b n a) (ix2 R a) ?_
  rw [Shape.rowMajor_val_three, Shape.rowMajor_val_two]
  show R.val * 3 + a.val = (b.val * 131072 + n.val) * 3 + a.val
  omega

/-- Row `w`, column c * 4096 + d * 64 + h of the grid laid out width first is the grid's entry (c, d, h, w). -/
theorem laid_grid (x : (⟨4, ![3, 64, 64, 64]⟩ : Shape).Idx → EReal)
    (hc : (⟨4, ![3, 64, 64, 64]⟩ : Shape).ShapeCasts ⟨2, ![12288, 64]⟩)
    (ht : (⟨2, ![12288, 64]⟩ : Shape).Transposes [1, 0] ⟨2, ![64, 12288]⟩) (hb : FTy.bits .bf16 < FTy.bits .f32)
    (w : Fin 64) (col : Fin 12288) (c : Fin 3) (d h : Fin 64) (hcol : col.val = c.val * 4096 + d.val * 64 + h.val) :
    (truncf .bf16 (transpose (⟨2, ![64, 12288]⟩ : Shape) [1, 0]
        (shapeCast (⟨2, ![12288, 64]⟩ : Shape) x hc : FVec Ideal ⟨2, ![12288, 64]⟩ .f32) ht) hb : FVec Ideal ⟨2, ![64, 12288]⟩ .bf16)
      (ix2 w col) = x (ix4 c d h w) := by
  rw [truncf_apply]
  refine (transpose_apply [1, 0] _ ht (ix2 w col) (ix2 col w) ?_).trans ?_
  · intro b
    match b with
    | ⟨0, _⟩ => rfl
    | ⟨1, _⟩ => rfl
  · refine shapeCast_apply x hc (ix2 col w) (ix4 c d h w) ?_
    rw [Shape.rowMajor_val_four, Shape.rowMajor_val_two]
    show ((c.val * 64 + d.val) * 64 + h.val) * 64 + w.val = col.val * 64 + w.val
    omega

end Cert.KVLayout

end
-- ==== Proof.KHost.lean ====
/-
  What the region finds in the two arrays it stages, read at an index of the launch arrays.

  The point array the region stages is the launch point array [32, 131072, 3] flattened to [4194304, 3]: its row R is
  point (R / 131072, R % 131072). The grid array it stages is the launch grid [3, 64, 64, 64] flattened, transposed to
  width first [64, 12288] and changed of float format (the identity on extended reals): its entry
  (w, c * 4096 + d * 64 + h) is the grid's entry (c, d, h, w).
-/
import proofs.«174278_j48524540510565_1_alg».proof.Proof.Gen.KernelIdeal.Frame
import proofs.«174278_j48524540510565_1_alg».proof.Proof.KVLayout
import Idealize.ShloMosaic.Lib.StableHlo.Run

noncomputable section

namespace Cert.KHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The staged point array is the launch point array flattened. -/
theorem V_points (c : Dev nD) :
    (V m c main_v0 : S4194304x3.Idx → EReal)
      = shapeCast S4194304x3 (m ((c.tc : Thread nD τ).loc main_arg0) : S32x131072x3.Idx → EReal)
          shapeCasts_S32x131072x3_S4194304x3 := by
  show StableHlo.after hostOps0 (fun b => m (c, b)) (Proc.devRef .tc main_v0) = _
  after_results
  rfl

/-- The staged grid array is the launch grid flattened, transposed and changed of format. -/
theorem V_grid (c : Dev nD) :
    (V m c main_v3 : S64x12288.Idx → EReal)
      = (truncf .bf16 (transpose S64x12288 [1, 0]
          (shapeCast S12288x64 (m ((c.tc : Thread nD τ).loc main_arg1) : S3x64x64x64.Idx → EReal)
            shapeCasts_S3x64x64x64_S12288x64 : FVec Ideal S12288x64 .f32)
          transposes_S12288x64_S64x12288_1_0) bitsLt_bf16_f32 : FVec Ideal S64x12288 .bf16) := by
  show StableHlo.after hostOps0 (fun b => m (c, b)) (Proc.devRef .tc main_v3) = _
  after_results
  rfl

/-- Row `R` of the staged point array is point (R / 131072, R % 131072) of the launch point array. -/
theorem V_points_apply (c : Dev nD) (R : Fin 4194304) (a : Fin 3) (b : Fin 32) (n : Fin 131072)
    (hb : b.val = R.val / 131072) (hn : n.val = R.val % 131072) :
    (V m c main_v0 : S4194304x3.Idx → EReal) (ix2 R a)
      = (m ((c.tc : Thread nD τ).loc main_arg0) : S32x131072x3.Idx → EReal) (ix3 b n a) := by
  rw [V_points m c]
  exact Cert.KVLayout.flatten_points _ _ R a b n hb hn

/-- Entry (w, c * 4096 + d * 64 + h) of the staged grid array is entry (c, d, h, w) of the launch grid. -/
theorem V_grid_apply (c : Dev nD) (w : Fin 64) (col : Fin 12288) (ch : Fin 3) (d h : Fin 64)
    (hcol : col.val = ch.val * 4096 + d.val * 64 + h.val) :
    (V m c main_v3 : S64x12288.Idx → EReal) (ix2 w col)
      = (m ((c.tc : Thread nD τ).loc main_arg1) : S3x64x64x64.Idx → EReal) (ix4 ch d h w) := by
  rw [V_grid m c]
  exact Cert.KVLayout.laid_grid _ _ _ _ w col ch d h hcol

end Cert.KHost

end
-- ==== Proof.KIndex.lean ====
/-
  Where each window's block sits at grid point `t` (of 32768 points, one axis).

  The point array's window and the result's window move together: at point `t` each has block index (t, 0), so its block
  is rows 128 t … 128 t + 127 of its flat array [4194304, 3]. The grid's window never moves: block index (0, 0), the
  whole laid-out grid. The printed index maps return the grid coordinate as a 32-bit word read back as a natural
  number; the coordinate is below 2 ^ 32, so nothing wraps.
-/
import proofs.«174278_j48524540510565_1_alg».proof.Proof.Gen.KernelIdeal.Launch

noncomputable section

namespace Cert.KIndex

open Idealize.ShloMosaic Cert.KernelIdeal Cert.KernelIdeal.Gen

/-- A grid point is below 32768. -/
theorem point_lt (t : Fin grid0.N) : t.val < 32768 := lt_of_lt_of_eq t.isLt N_0

/-- The one grid coordinate of point `t` is `t` itself. -/
theorem coord0 (t : Fin grid0.N) : ((grid0.coords t) 0).val = t.val := by
  have ht := point_lt t
  show t.val / grid0.stride 0 % 32768 = t.val
  rw [show grid0.stride 0 = 1 from by decide]
  omega

/-- The result's window at point `t`: block index (t, 0). -/
theorem idx_out (t : Fin grid0.N) : win0_2.index t (0 : Fin 2) = t.val ∧ win0_2.index t (1 : Fin 2) = 0 := by
  have ht := point_lt t
  constructor
  · show (BitVec.ofNat 32 ((grid0.coords t) 0).val).toNat = t.val
    rw [coord0 t, BitVec.toNat_ofNat]
    omega
  · rfl

/-- The point array's window at point `t`: block index (t, 0). -/
theorem idx_points (t : Fin grid0.N) : win0_1.index t (0 : Fin 2) = t.val ∧ win0_1.index t (1 : Fin 2) = 0 := by
  have ht := point_lt t
  constructor
  · show (BitVec.ofNat 32 ((grid0.coords t) 0).val).toNat = t.val
    rw [coord0 t, BitVec.toNat_ofNat]
    omega
  · rfl

/-- The grid's window at every point: block index (0, 0). -/
theorem idx_grid (t : Fin grid0.N) : win0_0.index t (0 : Fin 2) = 0 ∧ win0_0.index t (1 : Fin 2) = 0 := ⟨rfl, rfl⟩

end Cert.KIndex

end
-- ==== Proof.KBlock.lean ====
/-
  What one grid point writes back is a block of ONE function of the two launch arrays.

  The function, `flatResult`, is the result laid out as flat rows [4194304, 3]: row R, channel a holds coordinate a of
  point (R / 131072, R % 131072) plus the two-hot contraction of the grid with that point's three weight vectors.
  Grid point `t` writes rows 128 t … 128 t + 127. Row r of its block is computed from row r of the point block it
  staged — flat row 128 t + r of the point array — and from the whole laid-out grid, whose entry
  (w, c * 4096 + d * 64 + h) is the grid's entry (c, d, h, w). What the body stores at (r, a) is assumed here in the
  form of `Cert.KPayload.PayloadRead`.
-/
import proofs.«174278_j48524540510565_1_alg».proof.Proof.KPayloadDef
import proofs.«174278_j48524540510565_1_alg».proof.Proof.KHost
import proofs.«174278_j48524540510565_1_alg».proof.Proof.KIndex
import Idealize.ShloMosaic.Lib.Pipeline.Value

noncomputable section

namespace Cert.KBlock

open Idealize.ShloMosaic Idealize.ShloMosaic.TcCoe Idealize.ShloMosaic.ValueIdx Idealize.SL.Sem
open Idealize.ShloMosaic.Pipeline (Dat)
open Cert.KernelIdeal Cert.KernelIdeal.Gen

/-- The point that flat row `R` holds: point (R / 131072, R % 131072) of the point array. -/
def rowPoint (x0 : S32x131072x3.Idx → EReal) (R : Fin 4194304) : Fin 3 → EReal :=
  Cert.Tri.pointOf x0 ⟨R.val / 131072, by have := R.isLt; omega⟩ ⟨R.val % 131072, by omega⟩

/-- The result as flat rows: row R, channel a is the two-hot program's value at the point row R holds. -/
def flatResult (x0 : S32x131072x3.Idx → EReal) (x1 : S3x64x64x64.Idx → EReal) : S4194304x3.Idx → EReal :=
  fun i => Cert.Tri.kout (Cert.Tri.gridOf x1) (rowPoint x0 (i 0)) (i 1)

/-- One stored element, over any staged blocks: if the grid block `g` is the launch grid `A1` laid out width first, and
    row r of the point block `p` is flat row 128 t + r of the launch point array `A0`, then the element stored at
    `y` is `flatResult` at the index `i` of row 128 t + (y 0), channel (y 1). -/
theorem stored_value (hpay : Cert.KPayload.PayloadRead)
    (g : Vec Ideal S64x12288 .bf16) (p : Vec Ideal S128x3 .f32)
    (A0 : S32x131072x3.Idx → EReal) (A1 : S3x64x64x64.Idx → EReal) (t : ℕ)
    (hg : ∀ (w : Fin 64) (col : Fin 12288) (ch : Fin 3) (d h : Fin 64),
      col.val = ch.val * 4096 + d.val * 64 + h.val → g (ix2 w col) = A1 (ix4 ch d h w))
    (hp : ∀ (r : Fin 128) (a : Fin 3) (b : Fin 32) (n : Fin 131072),
      b.val = (128 * t + r.val) / 131072 → n.val = (128 * t + r.val) % 131072 → p (ix2 r a) = A0 (ix3 b n a))
    (y : S128x3.Idx) (i : S4194304x3.Idx) (hi0 : (i 0).val = 128 * t + (y 0).val) (hi1 : (i 1).val = (y 1).val) :
    out0_2 (F := Ideal) g p y = flatResult A0 A1 i := by
  obtain ⟨r, a, rfl⟩ : ∃ (r : Fin 128) (a : Fin 3), y = ix2 r a := ⟨y 0, y 1, eq_ix2 y⟩
  obtain ⟨R, a', rfl⟩ : ∃ (R : Fin 4194304) (a' : Fin 3), i = ix2 R a' := ⟨i 0, i 1, eq_ix2 i⟩
  have hR : R.val = 128 * t + r.val := hi0
  obtain rfl : a' = a := Fin.ext hi1
  rw [hpay g p r a']
  show Cert.Tri.kout _ _ a' = Cert.Tri.kout (Cert.Tri.gridOf A1) (rowPoint A0 R) a'
  have e1 : (fun c d h w => g (ix2 w (Cert.Tri.colOf c d h))) = Cert.Tri.gridOf A1 := by
    funext c d h w
    exact hg w (Cert.Tri.colOf c d h) c d h rfl
  have e2 : (fun a => p (ix2 r a)) = rowPoint A0 R := by
    funext a
    exact hp r a ⟨R.val / 131072, by have := R.isLt; omega⟩ ⟨R.val % 131072, by omega⟩
      (by show R.val / 131072 = _; rw [hR]) (by show R.val % 131072 = _; rw [hR])
  rw [e1, e2]

variable (m : (ℓ : Loc nD τ sig) → Buf (Elt Ideal) ℓ)

/-- The grid's block at any point is the whole staged grid array (block index (0, 0), the block the array's size). -/
theorem grid_block (c : Dev nD) (t : Fin cfg0.N) (x : S64x12288.Idx) :
    (iblk m c 0 t : Vec Ideal S64x12288 .bf16) x = (V m c main_v3 : S64x12288.Idx → EReal) x := by
  unfold iblk
  rw [View.read_apply]
  show (V m c main_v3 : S64x12288.Idx → EReal) _ = _
  refine congrArg (V m c main_v3 : S64x12288.Idx → EReal) ?_
  funext a
  apply Fin.ext
  match a with
  | ⟨0, _⟩ =>
    show win0_0.index t (0 : Fin 2) * 64 + 1 * (x 0).val = (x 0).val
    rw [(Cert.KIndex.idx_grid t).1]; omega
  | ⟨1, _⟩ =>
    show win0_0.index t (1 : Fin 2) * 12288 + 1 * (x 1).val = (x 1).val
    rw [(Cert.KIndex.idx_grid t).2]; omega

/-- The point block at point `t` is rows 128 t … 128 t + 127 of the staged point array. -/
theorem point_block (c : Dev nD) (t : Fin cfg0.N) (x : S128x3.Idx) (k : S4194304x3.Idx)
    (hk0 : (k 0).val = 128 * t.val + (x 0).val) (hk1 : (k 1).val = (x 1).val) :
    (iblk m c 1 t : Vec Ideal S128x3 .f32) x = (V m c main_v0 : S4194304x3.Idx → EReal) k := by
  unfold iblk
  rw [View.read_apply]
  show (V m c main_v0 : S4194304x3.Idx → EReal) _ = _
  refine congrArg (V m c main_v0 : S4194304x3.Idx → EReal) ?_
  funext a
  apply Fin.ext
  match a with
  | ⟨0, _⟩ =>
    show win0_1.index t (0 : Fin 2) * 128 + 1 * (x 0).val = (k 0).val
    rw [(Cert.KIndex.idx_points t).1, hk0]; omega
  | ⟨1, _⟩ =>
    show win0_1.index t (1 : Fin 2) * 3 + 1 * (x 1).val = (k 1).val
    rw [(Cert.KIndex.idx_points t).2, hk1]; omega

/-- What point `t` writes back is block `t` (rows 128 t … 128 t + 127) of `flatResult` of the launch arrays. -/
theorem flushed_eq (hpay : Cert.KPayload.PayloadRead) (c : Dev nD) (t : Fin cfg0.N) :
    (dats m 0 c).flushed 2 t
      = ((cfg0.win 2).blk t).view.read (Elt Ideal)
          (flatResult (m ((c.tc : Thread nD τ).loc main_arg0)) (m ((c.tc : Thread nD τ).loc main_arg1))) := by
  show (cfg0.win 2).cut (grid0.coords t) ((dats m 0 c).after 2 t) = _
  rw [after0_2]
  funext y
  show out0_2 (F := Ideal) (iblk m c 0 t) (iblk m c 1 t) y
    = flatResult (m ((c.tc : Thread nD τ).loc main_arg0)) (m ((c.tc : Thread nD τ).loc main_arg1))
        (((cfg0.win 2).blk t).view.emb y)
  refine stored_value hpay (iblk m c 0 t) (iblk m c 1 t) (m ((c.tc : Thread nD τ).loc main_arg0))
    (m ((c.tc : Thread nD τ).loc main_arg1)) t.val ?_ ?_ y (((cfg0.win 2).blk t).view.emb y) ?_ ?_
  · intro w col ch d h hcol
    rw [grid_block m c t (ix2 w col)]
    exact Cert.KHost.V_grid_apply m c w col ch d h hcol
  · intro r a b n hb hn
    have hr := r.isLt
    have ht := Cert.KIndex.point_lt t
    rw [point_block m c t (ix2 r a) (ix2 ⟨128 * t.val + r.val, by omega⟩ a) rfl rfl]
    exact Cert.KHost.V_points_apply m c ⟨128 * t.val + r.val, by omega⟩ a b n hb hn
  · show win0_2.index t (0 : Fin 2) * 128 + 1 * (y 0).val = 128 * t.val + (y 0).val
    rw [(Cert.KIndex.idx_out t).1]; omega
  · show win0_2.index t (1 : Fin 2) * 3 + 1 * (y 1).val = (y 1).val
    rw [(Cert.KIndex.idx_out t).2]; omega

end Cert.KBlock

end
-- ==== Proof.KCover.lean ====
/-
  The blocks the grid points write back cover the flat result array, so it ends holding `flatResult`.

  Block `t` of the result's window is rows 128 t … 128 t + 127, all three channels, of the flat array [4194304, 3];
  every point writes its block back; row R lies in the block of point R / 128, and 4194304 = 128 * 32768.
-/
import proofs.«174278_j48524540510565_1_alg».proof.Proof.KBlock
import proofs.«174278_j48524540510565_1_alg».proof.Proof.Gen.KernelIdeal.Points

noncomputable section

namespace Cert.KCover

open Idealize.ShloMosaic Idealize.ShloMosaic.TcCoe Idealize.ShloMosaic.ValueIdx Idealize.SL.Sem
open Idealize.ShloMosaic.Pipeline (Dat)
open Cert.KernelIdeal Cert.KernelIdeal.Gen

/-- An index of the flat result array is in point `t`'s block iff each coordinate is in the block's range on its axis. -/
theorem mem_block (t : Fin cfg0.N) (i : S4194304x3.Idx) :
    i ∈ ((cfg0.win 2).blk t).view.set
      ↔ ∀ a : Fin 2, win0_2.index t a * S128x3.size a ≤ (i a).val
          ∧ (i a).val < win0_2.index t a * S128x3.size a + S128x3.size a := by
  show i ∈ ((View.whole main_v4).slice (win0_2.rect t)).set ↔ _
  rw [View.set_slice_whole, Rect.mem_set_unit]
  exact Iff.rfl

/-- Every index of the flat result array is in the block some point writes back: row R in the block of point R / 128. -/
theorem covered (i : S4194304x3.Idx) :
    ∃ t : Fin cfg0.N, (cfg0.win 2).flush t = true ∧ i ∈ ((cfg0.win 2).blk t).view.set := by
  have hi0 : (i 0).val < 4194304 := (i 0).isLt
  have hi1 : (i 1).val < 3 := (i 1).isLt
  have hN : cfg0.N = 32768 := N_0
  have ht : (i 0).val / 128 < cfg0.N := by rw [hN]; omega
  refine ⟨⟨(i 0).val / 128, ht⟩, flush0_2 _, ?_⟩
  rw [mem_block]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    rw [(Cert.KIndex.idx_out ⟨(i 0).val / 128, ht⟩).1]
    show (i 0).val / 128 * 128 ≤ (i 0).val ∧ (i 0).val < (i 0).val / 128 * 128 + 128
    omega
  | ⟨1, _⟩ =>
    show win0_2.index ⟨(i 0).val / 128, ht⟩ (1 : Fin 2) * 3 ≤ (i 1).val
      ∧ (i 1).val < win0_2.index ⟨(i 0).val / 128, ht⟩ (1 : Fin 2) * 3 + 3
    rw [(Cert.KIndex.idx_out ⟨(i 0).val / 128, ht⟩).2]
    omega

variable (m : (ℓ : Loc nD τ sig) → Buf (Elt Ideal) ℓ)

/-- The flat result array after the run is `flatResult` of the launch arrays. -/
theorem final (hpay : Cert.KPayload.PayloadRead) (c : Dev nD) :
    (dats m 0 c).arrAt 2 cfg0.N
      = Cert.KBlock.flatResult (m ((c.tc : Thread nD τ).loc main_arg0)) (m ((c.tc : Thread nD τ).loc main_arg1)) :=
  (dats m 0 c).arrAt_eq_of_cover 2
    (Cert.KBlock.flatResult (m ((c.tc : Thread nD τ).loc main_arg0)) (m ((c.tc : Thread nD τ).loc main_arg1)))
    (fun t _ => Cert.KBlock.flushed_eq m hpay c t) covered

end Cert.KCover

end
-- ==== Proof.KValue.lean ====
/-
  The two-hot program's run: its result array ends at `Cert.Tri.Gk` of the two launch arrays, which end unchanged.

  After the region the flat result array [4194304, 3] holds `flatResult`: row R is the value at point
  (R / 131072, R % 131072). The one operation after the region casts it back to [32, 131072, 3], where point (b, n) is
  flat row b * 131072 + n; dividing that row number by 131072 gives back (b, n), so the cast array is `Gk`. No
  operation writes a launch array, before or after the region.
-/
import proofs.«174278_j48524540510565_1_alg».proof.Proof.KCover
import Idealize.ShloMosaic.Lib.Pipeline.FrameSuffix
import Idealize.ShloMosaic.Lib.StableHlo.Run

noncomputable section

namespace Cert.KValue

open Idealize.ShloMosaic Idealize.ShloMosaic.TcCoe Idealize.ShloMosaic.ValueIdx Idealize.SL.Sem
open Idealize.ShloMosaic.Pipeline (Dat)
open Cert.KernelIdeal Cert.KernelIdeal.Gen

/-- The flat result cast back to [32, 131072, 3] is the two-hot program's result array. -/
theorem unflatten_result (x0 : S32x131072x3.Idx → EReal) (x1 : S3x64x64x64.Idx → EReal)
    (hc : S4194304x3.ShapeCasts S32x131072x3) :
    shapeCast S32x131072x3 (Cert.KBlock.flatResult x0 x1) hc = Cert.Tri.Gk x0 x1 := by
  funext j
  obtain ⟨b, n, a, rfl⟩ : ∃ (b : Fin 32) (n : Fin 131072) (a : Fin 3), j = ix3 b n a := ⟨j 0, j 1, j 2, eq_ix3 j⟩
  have hb := b.isLt
  have hn := n.isLt
  refine (shapeCast_apply (Cert.KBlock.flatResult x0 x1) hc (ix3 b n a)
    (ix2 ⟨b.val * 131072 + n.val, by omega⟩ a) ?_).trans ?_
  · rw [Shape.rowMajor_val_three, Shape.rowMajor_val_two]
    rfl
  · rw [Cert.Tri.Gk_apply]
    show Cert.Tri.kout (Cert.Tri.gridOf x1) (Cert.KBlock.rowPoint x0 ⟨b.val * 131072 + n.val, _⟩) a = _
    refine congrArg (fun p => Cert.Tri.kout (Cert.Tri.gridOf x1) p a) ?_
    funext a2
    show x0 (ix3 _ _ a2) = x0 (ix3 b n a2)
    refine congrArg x0 ?_
    funext e
    match e with
    | ⟨0, _⟩ => exact Fin.ext (by show (b.val * 131072 + n.val) / 131072 = b.val; omega)
    | ⟨1, _⟩ => exact Fin.ext (by show (b.val * 131072 + n.val) % 131072 = n.val; omega)
    | ⟨2, _⟩ => rfl

variable (m : (ℓ : Loc nD τ sig) → Buf (Elt Ideal) ℓ) (ρ : Dev nD → PrngReg)

/-- What the operation after the region leaves in the result array: the flat result array cast back, which is `Gk`. -/
theorem tail_value (hpay : Cert.KPayload.PayloadRead) (c : Dev nD) :
    Pipeline.afterTail₀ cfgs (dats m) 0 (V0 m) [hostOps1] c main_v5
      = Cert.Tri.Gk (m ((c.tc : Thread nD τ).loc main_arg0)) (m ((c.tc : Thread nD τ).loc main_arg1)) := by
  unfold Pipeline.afterTail₀
  show StableHlo.after hostOps1 _ (Proc.devRef .tc main_v5) = _
  after_results
  have e := (Pipeline.withArrays_arr spec0 launch0.win.arr_inj c (V0 m c)
    (fun w => (dats m 0 c).arrAt w cfg0.N) 2).trans (Cert.KCover.final m hpay c)
  exact (congrArg (fun x : S4194304x3.Idx → EReal => shapeCast S32x131072x3 x shapeCasts_S4194304x3_S32x131072x3) e).trans
    (unflatten_result _ _ _)

/-- The two-hot program's run from any launch memory: the result array ends at `Gk` of the two launch arrays, and the
    launch arrays end as they were. -/
theorem kernel_run (hpay : Cert.KPayload.PayloadRead)
    (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread Cert.KernelIdeal.nD Cert.KernelIdeal.τ).loc Cert.KernelIdeal.main_v5)
          = Cert.Tri.Gk (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
      ∧ r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)) :=
  (θ_run defs _ _).mono (fun _ h c =>
    ⟨((h c).2 main_v5 (Pipeline.mem_restRefs_of main_v5 (by decide) (by decide))).trans (tail_value m hpay c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KValue

end
-- ==== Proof.RefCornerRead.lean ====
/-
  One corner of the eight-corner sum, read at one element.

  The corner is a product of two arrays over [3, 32, 131072]. The first is the grid gathered at one start index per
  point: the start index's three components are the corner's z, y and x coordinates (the cells plus the corner's
  offsets), each clipped into [0, 63] and then wrapped, laid side by side along a last axis of 3; the gather keeps
  the grid's channel axis whole and addresses the three other axes by those components, each read signed and clamped
  into [0, 63]. The second is a per-point weight, the product over the axes of t or 1 - t with the 0/1 factor of the
  six range comparisons, spread over the three channels. Every operation involved is either pointwise (it reads the
  scalar operation of its operands at the point), a broadcast (it reads its operand at the point's coordinates on the
  axes it keeps), a join of columns along an axis (it reads the column the coordinate names), or the gather (it reads
  the grid at its operand index); reading them one after the other at channel c of point (b, n) gives the scalar
  expression of the statement.
-/
import proofs.«174278_j48524540510565_1_alg».proof.Proof.RefCornerDef
import Idealize.ShloMosaic.Lib.ValueIdx
import Idealize.ShloMosaic.Lib.IdealHost
import Idealize.ShloMosaic.Lib.Pipeline.Value

noncomputable section

namespace Cert.RefCorner

open Idealize.ShloMosaic Idealize.ShloMosaic.ValueIdx Cert.ReferenceIdeal
open Cert.ReferenceIdeal.Facts₀ Cert.ReferenceIdeal.Facts

variable [Cert.ReferenceIdeal.Facts]

/-! ## Constants and pointwise operations read at a point

A constant broadcast from the scalar shape reads the constant at every point; every pointwise operation reads the
scalar operation of its operands' values at the point. -/

/-- A broadcast 32-bit constant reads the constant. -/
theorem splatI_apply (k : BitVec 32) (i : S32x131072.Idx) : splatI k i = k := by
  unfold splatI
  exact broadcastInDim_scalar_apply bcast_S_S32x131072 _ i

/-- The same through the identity conversion. -/
theorem splatId_apply (k : BitVec 32) (i : S32x131072.Idx) : splatId k i = k := by
  unfold splatId
  exact broadcastInDim_scalar_apply bcast_S_S32x131072 _ i

/-- The broadcast float constant reads 1.0. -/
theorem splatOne_apply (i : S32x131072.Idx) : splatOne (F := Ideal) i = Cert.Tri.one := by
  unfold splatOne
  exact broadcastInDim_scalar_apply bcast_S_S32x131072 _ i

/-- A cell array shifted by a corner offset reads the cell plus the offset. -/
theorem shift_apply (A : IVec S32x131072 32) (d : BitVec 32) (i : S32x131072.Idx) :
    addi A (splatI d) i = IntOp.addi (A i) d := by
  show IntOp.addi (A i) (splatI d i) = _
  rw [splatI_apply]

/-- The axis weight of a corner at a point: the comparison of the offset with zero is made once on scalars and
    broadcast, so at every point it selects between the point's t and 1 - t. -/
theorem pickV_apply (k : BitVec 32) (T : FVec Ideal S32x131072 .f32) (i : S32x131072.Idx) :
    pickV (F := Ideal) k T i = Cert.Tri.pick k (T i) := by
  unfold pickV Cert.Tri.pick
  rw [select_apply, subf_apply, splatOne_apply, broadcastInDim_scalar_apply bcast_S_S32x131072 _ i]
  rfl

/-- The clip into [0, 63] at a point. -/
theorem clipV_apply (A : IVec S32x131072 32) (i : S32x131072.Idx) : clipV A i = Cert.Tri.clip63 (A i) := by
  unfold clipV Cert.Tri.clip63
  show IntOp.minsi (splatId 63#32 i) (IntOp.maxsi (splatId 0#32 i) (A i)) = _
  rw [splatId_apply, splatId_apply]

/-- The wrap of a negative index at a point. -/
theorem wrapV_apply (A : IVec S32x131072 32) (i : S32x131072.Idx) : wrapV A i = Cert.Tri.wrap64 (A i) := by
  unfold wrapV Cert.Tri.wrap64
  show Scalar.select (IntOp.cmpi .slt (A i) (splatI 0#32 i)) (IntOp.addi (A i) (splatI 64#32 i)) (A i) = _
  rw [splatI_apply, splatI_apply]

/-- The six range comparisons joined, at a point. -/
theorem validV_apply (X Y Z : IVec S32x131072 32) (i : S32x131072.Idx) :
    validV X Y Z i = Cert.Tri.validb (X i) (Y i) (Z i) := by
  unfold validV Cert.Tri.validb
  show IntOp.andi (IntOp.andi (IntOp.andi (IntOp.andi (IntOp.andi (IntOp.cmpi .sge (X i) (splatI 0#32 i))
    (IntOp.cmpi .slt (X i) (splatI 64#32 i))) (IntOp.cmpi .sge (Y i) (splatI 0#32 i))) (IntOp.cmpi .slt (Y i) (splatI 64#32 i)))
    (IntOp.cmpi .sge (Z i) (splatI 0#32 i))) (IntOp.cmpi .slt (Z i) (splatI 64#32 i)) = _
  simp only [splatI_apply]

/-! ## The layout operations read at a point -/

/-- A coordinate array as a column [32, 131072, 1] reads the array at the point. -/
theorem colV_apply (A : IVec S32x131072 32) (b : Fin 32) (n : Fin 131072) (k : Fin 1) :
    colV A (ix3 b n k) = A (ix2 b n) := by
  unfold colV
  exact broadcastInDim_apply _ bcast_S32x131072_S32x131072x1_0_1 A (ix3 b n k) (ix2 b n) (fun a => match a with
    | ⟨0, _⟩ => by show b.val = if (32 : Nat) = 1 then 0 else b.val; rw [if_neg (by decide)]
    | ⟨1, _⟩ => by show n.val = if (131072 : Nat) = 1 then 0 else n.val; rw [if_neg (by decide)])

/-- A per-point array spread over a new leading unit axis and then over the three channels reads, at channel c of
    point (b, n), the array at (b, n). -/
theorem spread_apply {α : Type} (W : S32x131072.Idx → α) (c : Fin 3) (b : Fin 32) (n : Fin 131072) :
    broadcastInDim S3x32x131072 ![0, 1, 2] bcast_S1x32x131072_S3x32x131072_0_1_2
      (broadcastInDim S1x32x131072 ![1, 2] bcast_S32x131072_S1x32x131072_1_2 W) (ix3 c b n) = W (ix2 b n) := by
  refine (broadcastInDim_apply _ bcast_S1x32x131072_S3x32x131072_0_1_2 _ (ix3 c b n) (ix3 (0 : Fin 1) b n) (fun a => match a with
    | ⟨0, _⟩ => by show 0 = if (1 : Nat) = 1 then 0 else c.val; rw [if_pos rfl]
    | ⟨1, _⟩ => by show b.val = if (32 : Nat) = 1 then 0 else b.val; rw [if_neg (by decide)]
    | ⟨2, _⟩ => by show n.val = if (131072 : Nat) = 1 then 0 else n.val; rw [if_neg (by decide)])).trans ?_
  exact broadcastInDim_apply _ bcast_S32x131072_S1x32x131072_1_2 W (ix3 (0 : Fin 1) b n) (ix2 b n) (fun a => match a with
    | ⟨0, _⟩ => by show b.val = if (32 : Nat) = 1 then 0 else b.val; rw [if_neg (by decide)]
    | ⟨1, _⟩ => by show n.val = if (131072 : Nat) = 1 then 0 else n.val; rw [if_neg (by decide)])

/-- Three columns of extent one joined along the last axis: position k of the last axis is column k. -/
theorem concat3_apply {α : Type} (P0 P1 P2 : S32x131072x1.Idx → α) (b : Fin 32) (n : Fin 131072) :
    concatenate S32x131072x3 2 [⟨S32x131072x1, P0⟩, ⟨S32x131072x1, P1⟩, ⟨S32x131072x1, P2⟩]
        concatenates_S32x131072x1_S32x131072x1_S32x131072x1_S32x131072x3_d2 (ix3 b n 0) = P0 (ix3 b n 0)
    ∧ concatenate S32x131072x3 2 [⟨S32x131072x1, P0⟩, ⟨S32x131072x1, P1⟩, ⟨S32x131072x1, P2⟩]
        concatenates_S32x131072x1_S32x131072x1_S32x131072x1_S32x131072x3_d2 (ix3 b n 1) = P1 (ix3 b n 0)
    ∧ concatenate S32x131072x3 2 [⟨S32x131072x1, P0⟩, ⟨S32x131072x1, P1⟩, ⟨S32x131072x1, P2⟩]
        concatenates_S32x131072x1_S32x131072x1_S32x131072x1_S32x131072x3_d2 (ix3 b n 2) = P2 (ix3 b n 0) := by
  refine ⟨?_, ?_, ?_⟩
  · refine concatenate_apply_piece (t := S32x131072x3) 2 [⟨S32x131072x1, P0⟩, ⟨S32x131072x1, P1⟩, ⟨S32x131072x1, P2⟩]
      concatenates_S32x131072x1_S32x131072x1_S32x131072x1_S32x131072x3_d2 (ix3 b n 0)
      0 (show (0 : Nat) < 3 by decide) S32x131072x1 P0 rfl rfl 0 rfl (ix3 b n 0) (fun a ha => ?_) rfl
    match a with
    | ⟨0, _⟩ => rfl
    | ⟨1, _⟩ => rfl
    | ⟨2, _⟩ => exact absurd rfl ha
  · refine concatenate_apply_piece (t := S32x131072x3) 2 [⟨S32x131072x1, P0⟩, ⟨S32x131072x1, P1⟩, ⟨S32x131072x1, P2⟩]
      concatenates_S32x131072x1_S32x131072x1_S32x131072x1_S32x131072x3_d2 (ix3 b n 1)
      1 (show (1 : Nat) < 3 by decide) S32x131072x1 P1 rfl rfl 1 rfl (ix3 b n 0) (fun a ha => ?_) rfl
    match a with
    | ⟨0, _⟩ => rfl
    | ⟨1, _⟩ => rfl
    | ⟨2, _⟩ => exact absurd rfl ha
  · refine concatenate_apply_piece (t := S32x131072x3) 2 [⟨S32x131072x1, P0⟩, ⟨S32x131072x1, P1⟩, ⟨S32x131072x1, P2⟩]
      concatenates_S32x131072x1_S32x131072x1_S32x131072x1_S32x131072x3_d2 (ix3 b n 2)
      2 (show (2 : Nat) < 3 by decide) S32x131072x1 P2 rfl rfl 2 rfl (ix3 b n 0) (fun a ha => ?_) rfl
    match a with
    | ⟨0, _⟩ => rfl
    | ⟨1, _⟩ => rfl
    | ⟨2, _⟩ => exact absurd rfl ha

/-- The start-index array at point (b, n): component 0 is the clipped and wrapped z, component 1 the y, component 2
    the x. -/
theorem startV_apply (X Y Z : IVec S32x131072 32) (b : Fin 32) (n : Fin 131072) :
    startV X Y Z (ix3 b n 0) = Cert.Tri.wrap64 (Cert.Tri.clip63 (Z (ix2 b n)))
    ∧ startV X Y Z (ix3 b n 1) = Cert.Tri.wrap64 (Cert.Tri.clip63 (Y (ix2 b n)))
    ∧ startV X Y Z (ix3 b n 2) = Cert.Tri.wrap64 (Cert.Tri.clip63 (X (ix2 b n))) := by
  unfold startV
  obtain ⟨h0, h1, h2⟩ := concat3_apply (colV (wrapV (clipV Z))) (colV (wrapV (clipV Y))) (colV (wrapV (clipV X))) b n
  refine ⟨h0.trans ?_, h1.trans ?_, h2.trans ?_⟩ <;> rw [colV_apply, wrapV_apply, clipV_apply]

/-! ## The gather's operand index

The grid [3, 64, 64, 64] is gathered with its first axis kept whole (a slice of 3, the result's offset axis 0) and
its three other axes collapsed (slices of 1) and addressed by the start index's three components, read at axis 2 of
the start-index array; the result's batch axes 1 and 2 are the start-index array's axes 0 and 1. So result element
(c, b, n) reads the grid at channel c and, on each of the three other axes, at the start index's component for that
axis read signed, negative as 0, and at most 64 - 1. -/

/-- The gather's dimension numbers. -/
abbrev gdims := gather_S3x64x64x64_S32x131072x3_S3x32x131072_0_123_n_n_123_2_3111

/-- The channel axis is not addressed by the start index: its slice starts at 0. -/
theorem gdims_start_zero {w : Nat} (j : S3x32x131072.Idx) (idx : IVec S32x131072x3 w) : gdims.start j idx 0 = 0 := by
  unfold GatherDims.start
  exact dif_neg (show ¬ ((0 : Fin 4) ∈ ([1, 2, 3] : List (Fin 4))) by decide)

/-- The channel axis is the one kept axis: its offset coordinate is the result's coordinate on axis 0. -/
theorem gdims_off_zero (c : Fin 3) (b : Fin 32) (n : Fin 131072) : gdims.offCoord (ix3 c b n) 0 = c.val := by
  unfold GatherDims.offCoord
  rw [dif_pos (show (0 : Fin 4) ∈ gdims.sKept from (GatherDims.mem_sKept _ _).2
    ⟨show ¬ ((0 : Fin 4) ∈ ([1, 2, 3] : List (Fin 4))) by decide, List.not_mem_nil⟩)]
  rfl

/-- A collapsed axis has no offset coordinate. -/
theorem gdims_off_pos (j : S3x32x131072.Idx) (a : Fin 4) (ha : a ∈ ([1, 2, 3] : List (Fin 4))) : gdims.offCoord j a = 0 :=
  GatherDims.offCoord_eq_zero _ _ _ (fun h => ((GatherDims.mem_sKept _ _).1 h).1 ha)

/-- Component k of the start index of result element (c, b, n) sits at (b, n, k) of the start-index array. -/
theorem gdims_siIdx (c : Fin 3) (b : Fin 32) (n : Fin 131072) (k : Fin 3) (h : k.val < gdims.startIndexMap.length) :
    gdims.siIdx (ix3 c b n) ⟨k.val, h⟩ = ix3 b n k := by
  funext d
  refine Fin.ext ?_
  match d with
  | ⟨0, _⟩ => rfl
  | ⟨1, _⟩ => rfl
  | ⟨2, _⟩ => rfl

/-- On an addressed axis (the k-th of the start index map, extent 64, slice 1) the slice starts at component k of the
    start index, read signed and clamped into [0, 63]. -/
theorem gdims_start_pos {w : Nat} (c : Fin 3) (b : Fin 32) (n : Fin 131072) (idx : IVec S32x131072x3 w)
    (a : Fin 4) (k : Fin 3) (ha : a ∈ ([1, 2, 3] : List (Fin 4))) (hk : List.idxOf a ([1, 2, 3] : List (Fin 4)) = k.val)
    (hs : S3x64x64x64.size a - gdims.sliceSizes a = 63) :
    gdims.start (ix3 c b n) idx a = min (idx (ix3 b n k)).toInt.toNat 63 := by
  unfold GatherDims.start
  rw [dif_pos (show a ∈ gdims.startIndexMap from ha), hs]
  have : (⟨List.idxOf a gdims.startIndexMap, List.idxOf_lt_length_iff.2 ha⟩ : Fin gdims.startIndexMap.length)
      = ⟨k.val, by show k.val < 3; exact k.isLt⟩ := Fin.ext hk
  rw [this, gdims_siIdx]

/-- The gather read at (c, b, n), for any start-index array. -/
theorem gather_read {α : Type} {w : Nat} (x : S3x64x64x64.Idx → α) (idx : IVec S32x131072x3 w)
    (c : Fin 3) (b : Fin 32) (n : Fin 131072) :
    Host.gather gdims x idx (ix3 c b n)
      = x (ix4 c ⟨min (idx (ix3 b n 0)).toInt.toNat 63, by omega⟩ ⟨min (idx (ix3 b n 1)).toInt.toNat 63, by omega⟩
            ⟨min (idx (ix3 b n 2)).toInt.toNat 63, by omega⟩) := by
  unfold Host.gather
  refine congrArg x (funext fun a => Fin.ext ?_)
  match a with
  | ⟨0, _⟩ =>
    show gdims.start (ix3 c b n) idx 0 + gdims.batchCoord (ix3 c b n) 0 + gdims.offCoord (ix3 c b n) 0 = c.val
    rw [GatherDims.batchCoord_eq_zero _ _ _ List.not_mem_nil, gdims_start_zero, gdims_off_zero, Nat.zero_add]
  | ⟨1, _⟩ =>
    show gdims.start (ix3 c b n) idx 1 + gdims.batchCoord (ix3 c b n) 1 + gdims.offCoord (ix3 c b n) 1 = min (idx (ix3 b n 0)).toInt.toNat 63
    rw [GatherDims.batchCoord_eq_zero _ _ _ List.not_mem_nil, gdims_off_pos _ 1 (by decide),
      gdims_start_pos c b n idx 1 0 (by decide) (by decide) rfl, Nat.add_zero]
  | ⟨2, _⟩ =>
    show gdims.start (ix3 c b n) idx 2 + gdims.batchCoord (ix3 c b n) 2 + gdims.offCoord (ix3 c b n) 2 = min (idx (ix3 b n 1)).toInt.toNat 63
    rw [GatherDims.batchCoord_eq_zero _ _ _ List.not_mem_nil, gdims_off_pos _ 2 (by decide),
      gdims_start_pos c b n idx 2 1 (by decide) (by decide) rfl, Nat.add_zero]
  | ⟨3, _⟩ =>
    show gdims.start (ix3 c b n) idx 3 + gdims.batchCoord (ix3 c b n) 3 + gdims.offCoord (ix3 c b n) 3 = min (idx (ix3 b n 2)).toInt.toNat 63
    rw [GatherDims.batchCoord_eq_zero _ _ _ List.not_mem_nil, gdims_off_pos _ 3 (by decide),
      gdims_start_pos c b n idx 3 2 (by decide) (by decide) rfl, Nat.add_zero]

/-- The same with the three components of the start index named. -/
theorem gather_read_at {α : Type} {w : Nat} (x : S3x64x64x64.Idx → α) (idx : IVec S32x131072x3 w)
    (c : Fin 3) (b : Fin 32) (n : Fin 131072) (z y u : BitVec w)
    (hz : idx (ix3 b n 0) = z) (hy : idx (ix3 b n 1) = y) (hu : idx (ix3 b n 2) = u) :
    Host.gather gdims x idx (ix3 c b n)
      = x (ix4 c ⟨min z.toInt.toNat 63, by omega⟩ ⟨min y.toInt.toNat 63, by omega⟩ ⟨min u.toInt.toNat 63, by omega⟩) := by
  subst hz hy hu
  exact gather_read x idx c b n

/-! ## One corner read at an index -/

/-- Corner (dx, dy, dz) at channel c of point (b, n): the grid at the corner's clipped coordinates times the corner's
    masked weight. The gathered factor is the gather's operand index at the start-index array's three components;
    the weight factor is the spread of the pointwise product, read at the point. -/
theorem cornerRead : CornerRead := by
  intro dx dy dz X0 Y0 Z0 TX TY TZ x1 c b n
  unfold cornerStage
  rw [mulf_apply]
  have hX := shift_apply X0 dx (ix2 b n)
  have hY := shift_apply Y0 dy (ix2 b n)
  have hZ := shift_apply Z0 dz (ix2 b n)
  generalize addi X0 (splatI dx) = A at hX ⊢
  generalize addi Y0 (splatI dy) = B at hY ⊢
  generalize addi Z0 (splatI dz) = C at hZ ⊢
  obtain ⟨h0, h1, h2⟩ := startV_apply A B C b n
  rw [hZ] at h0
  rw [hY] at h1
  rw [hX] at h2
  refine congrArg₂ (· * ·) ?_ ?_
  · exact gather_read_at x1 (startV A B C) c b n _ _ _ h0 h1 h2
  · unfold spreadV
    rw [spread_apply]
    show ((pickV dx TX (ix2 b n) * pickV dy TY (ix2 b n)) * pickV dz TZ (ix2 b n))
      * (((validV A B C (ix2 b n)).toNat : ℝ) : EReal) = _
    rw [pickV_apply, pickV_apply, pickV_apply, validV_apply, hX, hY, hZ]

end Cert.RefCorner

end
-- ==== Proof.RefPrefix.lean ====
/-
  The first stages of the eight-corner program read at a point (b, n): per axis the coordinate (a column of the point
  array), its grid position ((p + 1) * 64 - 1) * (1/2), the fractional part (the position minus its floor) and the cell
  (the floor as a 32-bit word), each as the scalar function of the specification applied to the point's coordinate;
  and the array of zeros the corners are added to.
-/
import proofs.«174278_j48524540510565_1_alg».proof.Proof.ReadP
import proofs.«174278_j48524540510565_1_alg».proof.Proof.Spec

noncomputable section

namespace Cert.RefValue

open Idealize.ShloMosaic Idealize.ShloMosaic.ValueIdx Cert.ReferenceIdeal Cert.ReferenceIdeal.Read

/-- Reading the reshaped column 0 of the point array at point (b, n) reads the point array at (b, n, 0). -/
theorem idx_col0 (b : Fin 32) (n : Fin 131072) : idx_main_v0 (idx_main_v1 (ix2 b n)) = ix3 b n 0 :=
  funext fun a => Fin.ext (by
    match a with
    | ⟨0, _⟩ => show (b.val * 131072 + n.val) / 131072 = b.val; omega
    | ⟨1, _⟩ => show (b.val * 131072 + n.val) / 1 % 131072 = n.val; omega
    | ⟨2, _⟩ => rfl)

/-- The x coordinate's grid position at point (b, n): ((p + 1) * 64 - 1) * (1/2) of column 0. -/
theorem unnorm_x (x0 : (⟨S32x131072x3, .f32⟩ : BufTy).Contents (Elt Ideal)) (b : Fin 32) (n : Fin 131072) :
    val_main_v9 (F := Ideal) x0 (ix2 b n) = Cert.Tri.unnorm (x0 (ix3 b n 0)) := by
  rw [val_main_v9_apply, val_main_v7_apply, val_main_v5_apply, val_main_v3_apply, val_main_v1_apply,
    val_main_v0_apply, val_main_v2_apply, val_main_cst_apply, val_main_v4_apply, val_main_cst_0_apply,
    val_main_v6_apply, val_main_cst_1_apply, val_main_v8_apply, val_main_cst_2_apply, idx_col0]
  rfl

/-- The x coordinate's fractional part at point (b, n). -/
theorem frac_x (x0 : (⟨S32x131072x3, .f32⟩ : BufTy).Contents (Elt Ideal)) (b : Fin 32) (n : Fin 131072) :
    val_main_v33 (F := Ideal) x0 (ix2 b n) = Cert.Tri.frac (x0 (ix3 b n 0)) := by
  rw [val_main_v33_apply, val_main_v30_apply, unnorm_x]
  rfl

/-- The x coordinate's cell at point (b, n): the floor of the grid position as a 32-bit word. -/
theorem cell_x (x0 : (⟨S32x131072x3, .f32⟩ : BufTy).Contents (Elt Ideal)) (b : Fin 32) (n : Fin 131072) :
    val_main_v36 (F := Ideal) x0 (ix2 b n) = Cert.Tri.cell (x0 (ix3 b n 0)) := by
  rw [val_main_v36_apply, val_main_v30_apply, unnorm_x]
  rfl

/-- Reading the reshaped column 1 of the point array at point (b, n) reads the point array at (b, n, 1). -/
theorem idx_col1 (b : Fin 32) (n : Fin 131072) : idx_main_v10 (idx_main_v11 (ix2 b n)) = ix3 b n 1 :=
  funext fun a => Fin.ext (by
    match a with
    | ⟨0, _⟩ => show (b.val * 131072 + n.val) / 131072 = b.val; omega
    | ⟨1, _⟩ => show (b.val * 131072 + n.val) / 1 % 131072 = n.val; omega
    | ⟨2, _⟩ => rfl)

/-- The y coordinate's grid position at point (b, n): ((p + 1) * 64 - 1) * (1/2) of column 1. -/
theorem unnorm_y (x0 : (⟨S32x131072x3, .f32⟩ : BufTy).Contents (Elt Ideal)) (b : Fin 32) (n : Fin 131072) :
    val_main_v19 (F := Ideal) x0 (ix2 b n) = Cert.Tri.unnorm (x0 (ix3 b n 1)) := by
  rw [val_main_v19_apply, val_main_v17_apply, val_main_v15_apply, val_main_v13_apply, val_main_v11_apply,
    val_main_v10_apply, val_main_v12_apply, val_main_cst_3_apply, val_main_v14_apply, val_main_cst_4_apply,
    val_main_v16_apply, val_main_cst_5_apply, val_main_v18_apply, val_main_cst_6_apply, idx_col1]
  rfl

/-- The y coordinate's fractional part at point (b, n). -/
theorem frac_y (x0 : (⟨S32x131072x3, .f32⟩ : BufTy).Contents (Elt Ideal)) (b : Fin 32) (n : Fin 131072) :
    val_main_v34 (F := Ideal) x0 (ix2 b n) = Cert.Tri.frac (x0 (ix3 b n 1)) := by
  rw [val_main_v34_apply, val_main_v31_apply, unnorm_y]
  rfl

/-- The y coordinate's cell at point (b, n): the floor of the grid position as a 32-bit word. -/
theorem cell_y (x0 : (⟨S32x131072x3, .f32⟩ : BufTy).Contents (Elt Ideal)) (b : Fin 32) (n : Fin 131072) :
    val_main_v37 (F := Ideal) x0 (ix2 b n) = Cert.Tri.cell (x0 (ix3 b n 1)) := by
  rw [val_main_v37_apply, val_main_v31_apply, unnorm_y]
  rfl

/-- Reading the reshaped column 2 of the point array at point (b, n) reads the point array at (b, n, 2). -/
theorem idx_col2 (b : Fin 32) (n : Fin 131072) : idx_main_v20 (idx_main_v21 (ix2 b n)) = ix3 b n 2 :=
  funext fun a => Fin.ext (by
    match a with
    | ⟨0, _⟩ => show (b.val * 131072 + n.val) / 131072 = b.val; omega
    | ⟨1, _⟩ => show (b.val * 131072 + n.val) / 1 % 131072 = n.val; omega
    | ⟨2, _⟩ => rfl)

/-- The z coordinate's grid position at point (b, n): ((p + 1) * 64 - 1) * (1/2) of column 2. -/
theorem unnorm_z (x0 : (⟨S32x131072x3, .f32⟩ : BufTy).Contents (Elt Ideal)) (b : Fin 32) (n : Fin 131072) :
    val_main_v29 (F := Ideal) x0 (ix2 b n) = Cert.Tri.unnorm (x0 (ix3 b n 2)) := by
  rw [val_main_v29_apply, val_main_v27_apply, val_main_v25_apply, val_main_v23_apply, val_main_v21_apply,
    val_main_v20_apply, val_main_v22_apply, val_main_cst_7_apply, val_main_v24_apply, val_main_cst_8_apply,
    val_main_v26_apply, val_main_cst_9_apply, val_main_v28_apply, val_main_cst_10_apply, idx_col2]
  rfl

/-- The z coordinate's fractional part at point (b, n). -/
theorem frac_z (x0 : (⟨S32x131072x3, .f32⟩ : BufTy).Contents (Elt Ideal)) (b : Fin 32) (n : Fin 131072) :
    val_main_v35 (F := Ideal) x0 (ix2 b n) = Cert.Tri.frac (x0 (ix3 b n 2)) := by
  rw [val_main_v35_apply, val_main_v32_apply, unnorm_z]
  rfl

/-- The z coordinate's cell at point (b, n): the floor of the grid position as a 32-bit word. -/
theorem cell_z (x0 : (⟨S32x131072x3, .f32⟩ : BufTy).Contents (Elt Ideal)) (b : Fin 32) (n : Fin 131072) :
    val_main_v38 (F := Ideal) x0 (ix2 b n) = Cert.Tri.cell (x0 (ix3 b n 2)) := by
  rw [val_main_v38_apply, val_main_v32_apply, unnorm_z]
  rfl

/-- The array the corners are added to is zero everywhere. -/
theorem zero_apply (i : S3x32x131072.Idx) : val_main_v39 (F := Ideal) i = Cert.Tri.zero := by
  rw [val_main_v39_apply, val_main_cst_11_apply]
  rfl

end Cert.RefValue

end
-- ==== Proof.RefValue.lean ====
/-
  The eight-corner program's result array is the specification's eight-corner array. Read at (b, n, c): the point's
  coordinate c plus the transposed sum, which at (c, b, n) is zero plus the eight corners added in the order 000, 001,
  010, 011, 100, 101, 110, 111 of (dx, dy, dz). Each printed corner is the one corner function at its offsets; read at
  (c, b, n) — the assumed reading of that function — it is the grid at the corner's clipped coordinates times the
  corner's masked weight, over the cells and fractional parts of the point's three coordinates. That is the
  specification's corner term for term, so the two sums are the same expression.
-/
import proofs.«174278_j48524540510565_1_alg».proof.Proof.RefPrefix
import proofs.«174278_j48524540510565_1_alg».proof.Proof.RefCorners

noncomputable section

namespace Cert.RefValue

open Idealize.ShloMosaic Idealize.ShloMosaic.ValueIdx Cert.ReferenceIdeal Cert.ReferenceIdeal.Read

/-- The final transposition reads the sum at (c, b, n) for the result's (b, n, c). -/
theorem idx_out (b : Fin 32) (n : Fin 131072) (c : Fin 3) : idx_main_v544 (ix3 b n c) = ix3 c b n :=
  funext fun a => Fin.ext (by
    match a with
    | ⟨0, _⟩ => rfl
    | ⟨1, _⟩ => rfl
    | ⟨2, _⟩ => rfl)

/-- The program's result array is the eight-corner array of the specification, given the reading of one corner. -/
theorem ref_value (hc : Cert.RefCorner.CornerRead) (x0 : (⟨S32x131072x3, .f32⟩ : BufTy).Contents (Elt Ideal))
    (x1 : (⟨S3x64x64x64, .f32⟩ : BufTy).Contents (Elt Ideal)) :
    val_main_v545 (F := Ideal) x0 x1 = Cert.Tri.Gr x0 x1 := by
  funext i
  obtain ⟨b, n, c, rfl⟩ : ∃ (b : Fin 32) (n : Fin 131072) (c : Fin 3), i = ix3 b n c := ⟨i 0, i 1, i 2, eq_ix3 i⟩
  -- one corner of the point's cells and fractional parts, read at (c, b, n)
  have h := fun dx dy dz => hc dx dy dz (val_main_v36 (F := Ideal) x0) (val_main_v37 (F := Ideal) x0)
    (val_main_v38 (F := Ideal) x0) (val_main_v33 (F := Ideal) x0) (val_main_v34 (F := Ideal) x0)
    (val_main_v35 (F := Ideal) x0) x1 c b n
  -- the point plus the transposed sum; the sum is zero plus the eight corner products in turn
  rw [val_main_v545_apply, val_main_v544_apply, idx_out, val_main_v543_apply, val_main_v480_apply,
    val_main_v417_apply, val_main_v354_apply, val_main_v291_apply, val_main_v228_apply, val_main_v165_apply,
    val_main_v102_apply, zero_apply,
    -- each product is the corner function at its offsets, read by the assumed equation
    corner0_eq, corner1_eq, corner2_eq, corner3_eq, corner4_eq, corner5_eq, corner6_eq, corner7_eq,
    h, h, h, h, h, h, h, h,
    -- the cells and fractional parts at the point are those of its three coordinates
    cell_x, cell_y, cell_z, frac_x, frac_y, frac_z]
  rfl

end Cert.RefValue

end
-- ==== Proof.lean ====
/-
  Trilinear sampling of a [3, 64, 64, 64] grid at 32 * 131072 points, added to the points: the kernel against its
  reference, over the extended reals.

  Both programs unnormalise a point's three coordinates to grid positions, split each into its cell (the floor, as a
  32-bit word) and its fractional part t. The kernel weighs the 64 lanes of each axis by a two-hot vector (1 - t at the
  cell, t at the next lane, nothing outside [0, 63]) and contracts the grid with the three vectors in turn: a matrix
  product over the width, then two multiply-and-sum steps over the height and the depth. The reference adds up the
  cell's eight corners, each read by a gather at the corner's clipped coordinates, weighted by the product of t or
  1 - t per axis, and dropped unless the unclipped corner lies inside the grid.

  `Spec.lean` states both as functions of the argument arrays (`Gk`, `Gr`). `KPayload.lean` reads the kernel body's
  stored block at an index and `KValue.lean` carries it through the grid of 32768 blocks and the reshapes around the
  call: the kernel's result array is `Gk`. `RefCornerRead.lean` reads one corner at an index and `RefValue.lean`
  composes the reference's stages: its result array is `Gr`. `Words.lean`, `Interp.lean` and `Lift.lean` prove
  `Gk = Gr` when every entry of both arguments is a real — a lane sum against a two-hot vector keeps two entries, and
  multiplying out the three axes gives the eight corners; this is distributivity, so it needs real (finite) entries —
  and `Finite.lean` gets exactly that from the precondition. The kernel's idealization rewrote nothing, so that claim
  is trivial; the two kernels' frames are the generated ones, and the reference's is its run with the result dropped (`RefRun.lean`: the 943 host operations run in ten stretches — the shared prefix, the eight corners, the final transpose and sum — each stretch's results named by the stage functions).
-/
import proofs.«174278_j48524540510565_1_alg».proof.Defs
import proofs.«174278_j48524540510565_1_alg».proof.Proof.Gen.Kernel
import proofs.«174278_j48524540510565_1_alg».proof.Proof.Gen.Kernel.Skeleton
import proofs.«174278_j48524540510565_1_alg».proof.Proof.Gen.Kernel.Launch
import proofs.«174278_j48524540510565_1_alg».proof.Proof.Gen.Kernel.Points
import proofs.«174278_j48524540510565_1_alg».proof.Proof.Gen.Kernel.Frame
import proofs.«174278_j48524540510565_1_alg».proof.Proof.Gen.KernelIdeal
import proofs.«174278_j48524540510565_1_alg».proof.Proof.Gen.KernelIdeal.Skeleton
import proofs.«174278_j48524540510565_1_alg».proof.Proof.Gen.KernelIdeal.Launch
import proofs.«174278_j48524540510565_1_alg».proof.Proof.Gen.KernelIdeal.Points
import proofs.«174278_j48524540510565_1_alg».proof.Proof.Gen.KernelIdeal.Frame
import proofs.«174278_j48524540510565_1_alg».proof.Proof.Gen.ReferenceIdeal
import proofs.«174278_j48524540510565_1_alg».proof.Proof.Gen.Pre_finite_inputs
import proofs.«174278_j48524540510565_1_alg».proof.Proof.RefRun
import proofs.«174278_j48524540510565_1_alg».proof.Proof.Lift
import proofs.«174278_j48524540510565_1_alg».proof.Proof.Finite
import proofs.«174278_j48524540510565_1_alg».proof.Proof.KPayload
import proofs.«174278_j48524540510565_1_alg».proof.Proof.KValue
import proofs.«174278_j48524540510565_1_alg».proof.Proof.RefCornerRead
import proofs.«174278_j48524540510565_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.RefRun.run m ρ)

/-- From memories that agree on the points and the grid, both of real entries, the kernel ends at the two-hot form and
    the reference at the eight-corner form of the same arrays: one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KValue.kernel_run Cert.KPayload.payloadRead m ρ, ?_⟩
  refine (θ_run Cert.ReferenceIdeal.defs _ _).mono (fun _ h c => ⟨(h c).1.trans ?_, (h c).2⟩)
    (Cert.RefRun.run m' ρ')
  rw [Cert.RefValue.ref_value Cert.RefCorner.cornerRead, (hagree c).1, (hagree c).2]
  obtain ⟨h0, h1⟩ := Cert.Finite.real_of_pre _ _ (hpre c)
  exact (Cert.Tri.Gk_eq_Gr _ _ h0 h1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
